-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S100000x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S4096x200 32 := broadcastInDim S4096x200 ![] bcast_S_S4096x200 main_c_0
  let main_v5 : IVec S4096x200 1 := cmpi .sge main_arg0 main_v4
  let main_c_1 : IVec S_ 32 := constantI S_ 32 99999#32
  let main_v6 : IVec S4096x200 32 := broadcastInDim S4096x200 ![] bcast_S_S4096x200 main_c_1
  let main_v7 : IVec S4096x200 1 := cmpi .sle main_arg0 main_v6
  let main_v8 : IVec S4096x200 1 := andi main_v5 main_v7
  let main_c_2 : IVec S_ 1 := constantI S_ 1 1#1
  let main_v9 : IVec S_ 1 := (fun x v => Host.reduce IntOp.andi x v reducesTo_S4096x200_S_d0_1 h_S_) main_v8 main_c_2
  let main_v10 : IVec S_ 1 := andi main_v3 main_v9
  main_v10
-- ==== Kernel.lean ====
abbrev S4096x200 : Shape := ⟨2, ![4096, 200]⟩
abbrev S100000x128 : Shape := ⟨2, ![100000, 128]⟩
abbrev S4096x25600 : Shape := ⟨2, ![4096, 25600]⟩
abbrev S200 : Shape := ⟨1, ![200]⟩
abbrev S200x128 : Shape := ⟨2, ![200, 128]⟩
abbrev S25600 : Shape := ⟨1, ![25600]⟩
abbrev S_ : Shape := ⟨0, ![]⟩
abbrev S16 : Shape := ⟨1, ![16]⟩
abbrev S1x200 : Shape := ⟨2, ![1, 200]⟩
abbrev S1x25600 : Shape := ⟨2, ![1, 25600]⟩
abbrev S4096x1x200 : Shape := ⟨3, ![4096, 1, 200]⟩
abbrev S4096x1x1 : Shape := ⟨3, ![4096, 1, 1]⟩
abbrev S4096x1 : Shape := ⟨2, ![4096, 1]⟩
abbrev S4096x128x200 : Shape := ⟨3, ![4096, 128, 200]⟩
abbrev S4096 : Shape := ⟨1, ![4096]⟩

abbrev nBuf : Table → Nat
  | .hbm => 7
  | .local .tc .vmem => 2
  | .local .scVector .vmem => 6
  | _ => 0

abbrev bufTy : (tb : Table) → Fin (nBuf tb) → BufTy
  | .hbm, ⟨0, _⟩ => ⟨S4096x200, .i32⟩
  | .hbm, ⟨1, _⟩ => ⟨S100000x128, .f32⟩
  | .hbm, ⟨2, _⟩ => ⟨S4096x25600, .f32⟩
  | .hbm, ⟨3, _⟩ => ⟨S4096x1x200, .i32⟩
  | .hbm, ⟨4, _⟩ => ⟨S4096x1x1, .i32⟩
  | .hbm, ⟨5, _⟩ => ⟨S4096x128x200, .f32⟩
  | .hbm, ⟨6, _⟩ => ⟨S4096, .i32⟩
  | .local .tc .vmem, ⟨0, _⟩ => ⟨S4096x1x200, .i32⟩
  | .local .tc .vmem, ⟨1, _⟩ => ⟨S4096x1x1, .i32⟩
  | .local .scVector .vmem, ⟨0, _⟩ => ⟨S200, .i32⟩
  | .local .scVector .vmem, ⟨1, _⟩ => ⟨S200, .i32⟩
  | .local .scVector .vmem, ⟨2, _⟩ => ⟨S200x128, .f32⟩
  | .local .scVector .vmem, ⟨3, _⟩ => ⟨S200x128, .f32⟩
  | .local .scVector .vmem, ⟨4, _⟩ => ⟨S25600, .f32⟩
  | .local .scVector .vmem, ⟨5, _⟩ => ⟨S25600, .f32⟩
  | _, _ => ⟨S4096x200, .i32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 8
abbrev cc1_sem1_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_111 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v340 : BitVec 32 := Scalar.addi v2 c0_i32_111
  let c0_i32_125_r0 : BitVec 32 := 0#32
  ![v340.toNat, 0]
@[reducible] def k0_t1_loop : Scf.Loop 32 :=
  let c0_i32_118 : BitVec 32 := 0#32
  let c64_i32 : BitVec 32 := 64#32
  let v344 : BitVec 32 := Scalar.addi c0_i32_118 c64_i32
  let c1_i32_119 : BitVec 32 := 1#32
  ⟨c0_i32_118, v344, c1_i32_119⟩
def k0_cond1 (k0_t1 : Fin k0_t1_loop.trips) : BitVec 1 :=
  let c2_i32_125 : BitVec 32 := 2#32
  let c0_i32_118 : BitVec 32 := 0#32
  let c1_i32_119 : BitVec 32 := 1#32
  let arg15 : BitVec 32 := Scf.iv c0_i32_118 c1_i32_119 k0_t1
  let v353 : BitVec 32 := Scalar.muli c2_i32_125 arg15
  let c0_i32_126 : BitVec 32 := 0#32
  let v354 : BitVec 32 := Scalar.addi v353 c0_i32_126
  let c2_i32_129 : BitVec 32 := 2#32
  let v357 : BitVec 1 := Scalar.cmpi .sge v354 c2_i32_129
  let v358 : BitVec 32 := Scalar.extui v357
  let c0_i32_130 : BitVec 32 := 0#32
  let v359 : BitVec 1 := Scalar.cmpi .ne v358 c0_i32_130
  v359

def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_125 : BitVec 32 := 2#32
  let c0_i32_118 : BitVec 32 := 0#32
  let c1_i32_119 : BitVec 32 := 1#32
  let arg15 : BitVec 32 := Scf.iv c0_i32_118 c1_i32_119 k0_t1
  let v353 : BitVec 32 := Scalar.muli c2_i32_125 arg15
  let c0_i32_126 : BitVec 32 := 0#32
  let v354 : BitVec 32 := Scalar.addi v353 c0_i32_126
  let v355 : BitVec 32 := Scalar.addi v2 v354
  let c0_i32_157 : BitVec 32 := 0#32
  ![v355.toNat, 0]
@[reducible] def k0_t2_loop : Scf.Loop 32 :=
  let c0_i32_132 : BitVec 32 := 0#32
  let c13_i32_133 : BitVec 32 := 13#32
  let v360 : BitVec 32 := Scalar.addi c0_i32_132 c13_i32_133
  let c1_i32_134 : BitVec 32 := 1#32
  ⟨c0_i32_132, v360, c1_i32_134⟩

def k0_chk1 (v388 : IVec S16 32) (v391 : IVec S16 32) : Prop :=
  (∀ a x, ((![v388, v391] : Fin 2 → IVec S16 32) a x).toNat < S200x128.size a)
instance k0_chk1.dec : ∀ (v388 : IVec S16 32) (v391 : IVec S16 32), Decidable (k0_chk1 v388 v391) := fun v388 v391 => decidable_of_iff' _ (Iff.of_eq (k0_chk1.eq_1 v388 v391))
theorem k0_idx1_inb : ∀ (v388 : IVec S16 32) (v391 : IVec S16 32) (k0_hw1 : k0_chk1 v388 v391), ∀ a x, ((![v388, v391] : Fin 2 → IVec S16 32) a x).toNat < S200x128.size a := fun v388 v391 k0_hw1 => k0_hw1

def k0_chk2 (v394 : IVec S16 32) : Prop :=
  (∀ a x, ((![v394] : Fin 1 → IVec S16 32) a x).toNat < S25600.size a)
instance k0_chk2.dec : ∀ (v394 : IVec S16 32), Decidable (k0_chk2 v394) := fun v394 => decidable_of_iff' _ (Iff.of_eq (k0_chk2.eq_1 v394))
theorem k0_idx2_inb : ∀ (v394 : IVec S16 32) (k0_hw2 : k0_chk2 v394), ∀ a x, ((![v394] : Fin 1 → IVec S16 32) a x).toNat < S25600.size a := fun v394 k0_hw2 => k0_hw2

def k0_chk3 (v388 : IVec S16 32) (v396 : IVec S16 32) : Prop :=
  (∀ a x, ((![v388, v396] : Fin 2 → IVec S16 32) a x).toNat < S200x128.size a)
instance k0_chk3.dec : ∀ (v388 : IVec S16 32) (v396 : IVec S16 32), Decidable (k0_chk3 v388 v396) := fun v388 v396 => decidable_of_iff' _ (Iff.of_eq (k0_chk3.eq_1 v388 v396))
theorem k0_idx3_inb : ∀ (v388 : IVec S16 32) (v396 : IVec S16 32) (k0_hw3 : k0_chk3 v388 v396), ∀ a x, ((![v388, v396] : Fin 2 → IVec S16 32) a x).toNat < S200x128.size a := fun v388 v396 k0_hw3 => k0_hw3

def k0_chk4 (v399 : IVec S16 32) : Prop :=
  (∀ a x, ((![v399] : Fin 1 → IVec S16 32) a x).toNat < S25600.size a)
instance k0_chk4.dec : ∀ (v399 : IVec S16 32), Decidable (k0_chk4 v399) := fun v399 => decidable_of_iff' _ (Iff.of_eq (k0_chk4.eq_1 v399))
theorem k0_idx4_inb : ∀ (v399 : IVec S16 32) (k0_hw4 : k0_chk4 v399), ∀ a x, ((![v399] : Fin 1 → IVec S16 32) a x).toNat < S25600.size a := fun v399 k0_hw4 => k0_hw4

def k0_chk5 (v388 : IVec S16 32) (v401 : IVec S16 32) : Prop :=
  (∀ a x, ((![v388, v401] : Fin 2 → IVec S16 32) a x).toNat < S200x128.size a)
instance k0_chk5.dec : ∀ (v388 : IVec S16 32) (v401 : IVec S16 32), Decidable (k0_chk5 v388 v401) := fun v388 v401 => decidable_of_iff' _ (Iff.of_eq (k0_chk5.eq_1 v388 v401))
theorem k0_idx5_inb : ∀ (v388 : IVec S16 32) (v401 : IVec S16 32) (k0_hw5 : k0_chk5 v388 v401), ∀ a x, ((![v388, v401] : Fin 2 → IVec S16 32) a x).toNat < S200x128.size a := fun v388 v401 k0_hw5 => k0_hw5

def k0_chk6 (v404 : IVec S16 32) : Prop :=
  (∀ a x, ((![v404] : Fin 1 → IVec S16 32) a x).toNat < S25600.size a)
instance k0_chk6.dec : ∀ (v404 : IVec S16 32), Decidable (k0_chk6 v404) := fun v404 => decidable_of_iff' _ (Iff.of_eq (k0_chk6.eq_1 v404))
theorem k0_idx6_inb : ∀ (v404 : IVec S16 32) (k0_hw6 : k0_chk6 v404), ∀ a x, ((![v404] : Fin 1 → IVec S16 32) a x).toNat < S25600.size a := fun v404 k0_hw6 => k0_hw6

def k0_chk7 (v388 : IVec S16 32) (v406 : IVec S16 32) : Prop :=
  (∀ a x, ((![v388, v406] : Fin 2 → IVec S16 32) a x).toNat < S200x128.size a)
instance k0_chk7.dec : ∀ (v388 : IVec S16 32) (v406 : IVec S16 32), Decidable (k0_chk7 v388 v406) := fun v388 v406 => decidable_of_iff' _ (Iff.of_eq (k0_chk7.eq_1 v388 v406))
theorem k0_idx7_inb : ∀ (v388 : IVec S16 32) (v406 : IVec S16 32) (k0_hw7 : k0_chk7 v388 v406), ∀ a x, ((![v388, v406] : Fin 2 → IVec S16 32) a x).toNat < S200x128.size a := fun v388 v406 k0_hw7 => k0_hw7

def k0_chk8 (v409 : IVec S16 32) : Prop :=
  (∀ a x, ((![v409] : Fin 1 → IVec S16 32) a x).toNat < S25600.size a)
instance k0_chk8.dec : ∀ (v409 : IVec S16 32), Decidable (k0_chk8 v409) := fun v409 => decidable_of_iff' _ (Iff.of_eq (k0_chk8.eq_1 v409))
theorem k0_idx8_inb : ∀ (v409 : IVec S16 32) (k0_hw8 : k0_chk8 v409), ∀ a x, ((![v409] : Fin 1 → IVec S16 32) a x).toNat < S25600.size a := fun v409 k0_hw8 => k0_hw8

def k0_chk9 (v388 : IVec S16 32) (v411 : IVec S16 32) : Prop :=
  (∀ a x, ((![v388, v411] : Fin 2 → IVec S16 32) a x).toNat < S200x128.size a)
instance k0_chk9.dec : ∀ (v388 : IVec S16 32) (v411 : IVec S16 32), Decidable (k0_chk9 v388 v411) := fun v388 v411 => decidable_of_iff' _ (Iff.of_eq (k0_chk9.eq_1 v388 v411))
theorem k0_idx9_inb : ∀ (v388 : IVec S16 32) (v411 : IVec S16 32) (k0_hw9 : k0_chk9 v388 v411), ∀ a x, ((![v388, v411] : Fin 2 → IVec S16 32) a x).toNat < S200x128.size a := fun v388 v411 k0_hw9 => k0_hw9

def k0_chk10 (v414 : IVec S16 32) : Prop :=
  (∀ a x, ((![v414] : Fin 1 → IVec S16 32) a x).toNat < S25600.size a)
instance k0_chk10.dec : ∀ (v414 : IVec S16 32), Decidable (k0_chk10 v414) := fun v414 => decidable_of_iff' _ (Iff.of_eq (k0_chk10.eq_1 v414))
theorem k0_idx10_inb : ∀ (v414 : IVec S16 32) (k0_hw10 : k0_chk10 v414), ∀ a x, ((![v414] : Fin 1 → IVec S16 32) a x).toNat < S25600.size a := fun v414 k0_hw10 => k0_hw10

def k0_chk11 (v388 : IVec S16 32) (v416 : IVec S16 32) : Prop :=
  (∀ a x, ((![v388, v416] : Fin 2 → IVec S16 32) a x).toNat < S200x128.size a)
instance k0_chk11.dec : ∀ (v388 : IVec S16 32) (v416 : IVec S16 32), Decidable (k0_chk11 v388 v416) := fun v388 v416 => decidable_of_iff' _ (Iff.of_eq (k0_chk11.eq_1 v388 v416))
theorem k0_idx11_inb : ∀ (v388 : IVec S16 32) (v416 : IVec S16 32) (k0_hw11 : k0_chk11 v388 v416), ∀ a x, ((![v388, v416] : Fin 2 → IVec S16 32) a x).toNat < S200x128.size a := fun v388 v416 k0_hw11 => k0_hw11

def k0_chk12 (v419 : IVec S16 32) : Prop :=
  (∀ a x, ((![v419] : Fin 1 → IVec S16 32) a x).toNat < S25600.size a)
instance k0_chk12.dec : ∀ (v419 : IVec S16 32), Decidable (k0_chk12 v419) := fun v419 => decidable_of_iff' _ (Iff.of_eq (k0_chk12.eq_1 v419))
theorem k0_idx12_inb : ∀ (v419 : IVec S16 32) (k0_hw12 : k0_chk12 v419), ∀ a x, ((![v419] : Fin 1 → IVec S16 32) a x).toNat < S25600.size a := fun v419 k0_hw12 => k0_hw12

def k0_chk13 (v388 : IVec S16 32) (v421 : IVec S16 32) : Prop :=
  (∀ a x, ((![v388, v421] : Fin 2 → IVec S16 32) a x).toNat < S200x128.size a)
instance k0_chk13.dec : ∀ (v388 : IVec S16 32) (v421 : IVec S16 32), Decidable (k0_chk13 v388 v421) := fun v388 v421 => decidable_of_iff' _ (Iff.of_eq (k0_chk13.eq_1 v388 v421))
theorem k0_idx13_inb : ∀ (v388 : IVec S16 32) (v421 : IVec S16 32) (k0_hw13 : k0_chk13 v388 v421), ∀ a x, ((![v388, v421] : Fin 2 → IVec S16 32) a x).toNat < S200x128.size a := fun v388 v421 k0_hw13 => k0_hw13

def k0_chk14 (v424 : IVec S16 32) : Prop :=
  (∀ a x, ((![v424] : Fin 1 → IVec S16 32) a x).toNat < S25600.size a)
instance k0_chk14.dec : ∀ (v424 : IVec S16 32), Decidable (k0_chk14 v424) := fun v424 => decidable_of_iff' _ (Iff.of_eq (k0_chk14.eq_1 v424))
theorem k0_idx14_inb : ∀ (v424 : IVec S16 32) (k0_hw14 : k0_chk14 v424), ∀ a x, ((![v424] : Fin 1 → IVec S16 32) a x).toNat < S25600.size a := fun v424 k0_hw14 => k0_hw14

def k0_chk15 (v388 : IVec S16 32) (v426 : IVec S16 32) : Prop :=
  (∀ a x, ((![v388, v426] : Fin 2 → IVec S16 32) a x).toNat < S200x128.size a)
instance k0_chk15.dec : ∀ (v388 : IVec S16 32) (v426 : IVec S16 32), Decidable (k0_chk15 v388 v426) := fun v388 v426 => decidable_of_iff' _ (Iff.of_eq (k0_chk15.eq_1 v388 v426))
theorem k0_idx15_inb : ∀ (v388 : IVec S16 32) (v426 : IVec S16 32) (k0_hw15 : k0_chk15 v388 v426), ∀ a x, ((![v388, v426] : Fin 2 → IVec S16 32) a x).toNat < S200x128.size a := fun v388 v426 k0_hw15 => k0_hw15

def k0_chk16 (v429 : IVec S16 32) : Prop :=
  (∀ a x, ((![v429] : Fin 1 → IVec S16 32) a x).toNat < S25600.size a)
instance k0_chk16.dec : ∀ (v429 : IVec S16 32), Decidable (k0_chk16 v429) := fun v429 => decidable_of_iff' _ (Iff.of_eq (k0_chk16.eq_1 v429))
theorem k0_idx16_inb : ∀ (v429 : IVec S16 32) (k0_hw16 : k0_chk16 v429), ∀ a x, ((![v429] : Fin 1 → IVec S16 32) a x).toNat < S25600.size a := fun v429 k0_hw16 => k0_hw16

def k0_chk17 (v388 : IVec S16 32) (v431 : IVec S16 32) : Prop :=
  (∀ a x, ((![v388, v431] : Fin 2 → IVec S16 32) a x).toNat < S200x128.size a)
instance k0_chk17.dec : ∀ (v388 : IVec S16 32) (v431 : IVec S16 32), Decidable (k0_chk17 v388 v431) := fun v388 v431 => decidable_of_iff' _ (Iff.of_eq (k0_chk17.eq_1 v388 v431))
theorem k0_idx17_inb : ∀ (v388 : IVec S16 32) (v431 : IVec S16 32) (k0_hw17 : k0_chk17 v388 v431), ∀ a x, ((![v388, v431] : Fin 2 → IVec S16 32) a x).toNat < S200x128.size a := fun v388 v431 k0_hw17 => k0_hw17

def k0_chk18 (v434 : IVec S16 32) : Prop :=
  (∀ a x, ((![v434] : Fin 1 → IVec S16 32) a x).toNat < S25600.size a)
instance k0_chk18.dec : ∀ (v434 : IVec S16 32), Decidable (k0_chk18 v434) := fun v434 => decidable_of_iff' _ (Iff.of_eq (k0_chk18.eq_1 v434))
theorem k0_idx18_inb : ∀ (v434 : IVec S16 32) (k0_hw18 : k0_chk18 v434), ∀ a x, ((![v434] : Fin 1 → IVec S16 32) a x).toNat < S25600.size a := fun v434 k0_hw18 => k0_hw18

def k0_chk19 (v388 : IVec S16 32) (v436 : IVec S16 32) : Prop :=
  (∀ a x, ((![v388, v436] : Fin 2 → IVec S16 32) a x).toNat < S200x128.size a)
instance k0_chk19.dec : ∀ (v388 : IVec S16 32) (v436 : IVec S16 32), Decidable (k0_chk19 v388 v436) := fun v388 v436 => decidable_of_iff' _ (Iff.of_eq (k0_chk19.eq_1 v388 v436))
theorem k0_idx19_inb : ∀ (v388 : IVec S16 32) (v436 : IVec S16 32) (k0_hw19 : k0_chk19 v388 v436), ∀ a x, ((![v388, v436] : Fin 2 → IVec S16 32) a x).toNat < S200x128.size a := fun v388 v436 k0_hw19 => k0_hw19

def k0_chk20 (v439 : IVec S16 32) : Prop :=
  (∀ a x, ((![v439] : Fin 1 → IVec S16 32) a x).toNat < S25600.size a)
instance k0_chk20.dec : ∀ (v439 : IVec S16 32), Decidable (k0_chk20 v439) := fun v439 => decidable_of_iff' _ (Iff.of_eq (k0_chk20.eq_1 v439))
theorem k0_idx20_inb : ∀ (v439 : IVec S16 32) (k0_hw20 : k0_chk20 v439), ∀ a x, ((![v439] : Fin 1 → IVec S16 32) a x).toNat < S25600.size a := fun v439 k0_hw20 => k0_hw20

def k0_chk21 (v388 : IVec S16 32) (v441 : IVec S16 32) : Prop :=
  (∀ a x, ((![v388, v441] : Fin 2 → IVec S16 32) a x).toNat < S200x128.size a)
instance k0_chk21.dec : ∀ (v388 : IVec S16 32) (v441 : IVec S16 32), Decidable (k0_chk21 v388 v441) := fun v388 v441 => decidable_of_iff' _ (Iff.of_eq (k0_chk21.eq_1 v388 v441))
theorem k0_idx21_inb : ∀ (v388 : IVec S16 32) (v441 : IVec S16 32) (k0_hw21 : k0_chk21 v388 v441), ∀ a x, ((![v388, v441] : Fin 2 → IVec S16 32) a x).toNat < S200x128.size a := fun v388 v441 k0_hw21 => k0_hw21

def k0_chk22 (v444 : IVec S16 32) : Prop :=
  (∀ a x, ((![v444] : Fin 1 → IVec S16 32) a x).toNat < S25600.size a)
instance k0_chk22.dec : ∀ (v444 : IVec S16 32), Decidable (k0_chk22 v444) := fun v444 => decidable_of_iff' _ (Iff.of_eq (k0_chk22.eq_1 v444))
theorem k0_idx22_inb : ∀ (v444 : IVec S16 32) (k0_hw22 : k0_chk22 v444), ∀ a x, ((![v444] : Fin 1 → IVec S16 32) a x).toNat < S25600.size a := fun v444 k0_hw22 => k0_hw22

def k0_chk23 (v388 : IVec S16 32) (v446 : IVec S16 32) : Prop :=
  (∀ a x, ((![v388, v446] : Fin 2 → IVec S16 32) a x).toNat < S200x128.size a)
instance k0_chk23.dec : ∀ (v388 : IVec S16 32) (v446 : IVec S16 32), Decidable (k0_chk23 v388 v446) := fun v388 v446 => decidable_of_iff' _ (Iff.of_eq (k0_chk23.eq_1 v388 v446))
theorem k0_idx23_inb : ∀ (v388 : IVec S16 32) (v446 : IVec S16 32) (k0_hw23 : k0_chk23 v388 v446), ∀ a x, ((![v388, v446] : Fin 2 → IVec S16 32) a x).toNat < S200x128.size a := fun v388 v446 k0_hw23 => k0_hw23

def k0_chk24 (v449 : IVec S16 32) : Prop :=
  (∀ a x, ((![v449] : Fin 1 → IVec S16 32) a x).toNat < S25600.size a)
instance k0_chk24.dec : ∀ (v449 : IVec S16 32), Decidable (k0_chk24 v449) := fun v449 => decidable_of_iff' _ (Iff.of_eq (k0_chk24.eq_1 v449))
theorem k0_idx24_inb : ∀ (v449 : IVec S16 32) (k0_hw24 : k0_chk24 v449), ∀ a x, ((![v449] : Fin 1 → IVec S16 32) a x).toNat < S25600.size a := fun v449 k0_hw24 => k0_hw24

def k0_chk25 (v388 : IVec S16 32) (v451 : IVec S16 32) : Prop :=
  (∀ a x, ((![v388, v451] : Fin 2 → IVec S16 32) a x).toNat < S200x128.size a)
instance k0_chk25.dec : ∀ (v388 : IVec S16 32) (v451 : IVec S16 32), Decidable (k0_chk25 v388 v451) := fun v388 v451 => decidable_of_iff' _ (Iff.of_eq (k0_chk25.eq_1 v388 v451))
theorem k0_idx25_inb : ∀ (v388 : IVec S16 32) (v451 : IVec S16 32) (k0_hw25 : k0_chk25 v388 v451), ∀ a x, ((![v388, v451] : Fin 2 → IVec S16 32) a x).toNat < S200x128.size a := fun v388 v451 k0_hw25 => k0_hw25

def k0_chk26 (v454 : IVec S16 32) : Prop :=
  (∀ a x, ((![v454] : Fin 1 → IVec S16 32) a x).toNat < S25600.size a)
instance k0_chk26.dec : ∀ (v454 : IVec S16 32), Decidable (k0_chk26 v454) := fun v454 => decidable_of_iff' _ (Iff.of_eq (k0_chk26.eq_1 v454))
theorem k0_idx26_inb : ∀ (v454 : IVec S16 32) (k0_hw26 : k0_chk26 v454), ∀ a x, ((![v454] : Fin 1 → IVec S16 32) a x).toNat < S25600.size a := fun v454 k0_hw26 => k0_hw26

def k0_chk27 (v388 : IVec S16 32) (v456 : IVec S16 32) : Prop :=
  (∀ a x, ((![v388, v456] : Fin 2 → IVec S16 32) a x).toNat < S200x128.size a)
instance k0_chk27.dec : ∀ (v388 : IVec S16 32) (v456 : IVec S16 32), Decidable (k0_chk27 v388 v456) := fun v388 v456 => decidable_of_iff' _ (Iff.of_eq (k0_chk27.eq_1 v388 v456))
theorem k0_idx27_inb : ∀ (v388 : IVec S16 32) (v456 : IVec S16 32) (k0_hw27 : k0_chk27 v388 v456), ∀ a x, ((![v388, v456] : Fin 2 → IVec S16 32) a x).toNat < S200x128.size a := fun v388 v456 k0_hw27 => k0_hw27

def k0_chk28 (v459 : IVec S16 32) : Prop :=
  (∀ a x, ((![v459] : Fin 1 → IVec S16 32) a x).toNat < S25600.size a)
instance k0_chk28.dec : ∀ (v459 : IVec S16 32), Decidable (k0_chk28 v459) := fun v459 => decidable_of_iff' _ (Iff.of_eq (k0_chk28.eq_1 v459))
theorem k0_idx28_inb : ∀ (v459 : IVec S16 32) (k0_hw28 : k0_chk28 v459), ∀ a x, ((![v459] : Fin 1 → IVec S16 32) a x).toNat < S25600.size a := fun v459 k0_hw28 => k0_hw28

def k0_chk29 (v388 : IVec S16 32) (v461 : IVec S16 32) : Prop :=
  (∀ a x, ((![v388, v461] : Fin 2 → IVec S16 32) a x).toNat < S200x128.size a)
instance k0_chk29.dec : ∀ (v388 : IVec S16 32) (v461 : IVec S16 32), Decidable (k0_chk29 v388 v461) := fun v388 v461 => decidable_of_iff' _ (Iff.of_eq (k0_chk29.eq_1 v388 v461))
theorem k0_idx29_inb : ∀ (v388 : IVec S16 32) (v461 : IVec S16 32) (k0_hw29 : k0_chk29 v388 v461), ∀ a x, ((![v388, v461] : Fin 2 → IVec S16 32) a x).toNat < S200x128.size a := fun v388 v461 k0_hw29 => k0_hw29

def k0_chk30 (v464 : IVec S16 32) : Prop :=
  (∀ a x, ((![v464] : Fin 1 → IVec S16 32) a x).toNat < S25600.size a)
instance k0_chk30.dec : ∀ (v464 : IVec S16 32), Decidable (k0_chk30 v464) := fun v464 => decidable_of_iff' _ (Iff.of_eq (k0_chk30.eq_1 v464))
theorem k0_idx30_inb : ∀ (v464 : IVec S16 32) (k0_hw30 : k0_chk30 v464), ∀ a x, ((![v464] : Fin 1 → IVec S16 32) a x).toNat < S25600.size a := fun v464 k0_hw30 => k0_hw30

def k0_chk31 (v388 : IVec S16 32) (v466 : IVec S16 32) : Prop :=
  (∀ a x, ((![v388, v466] : Fin 2 → IVec S16 32) a x).toNat < S200x128.size a)
instance k0_chk31.dec : ∀ (v388 : IVec S16 32) (v466 : IVec S16 32), Decidable (k0_chk31 v388 v466) := fun v388 v466 => decidable_of_iff' _ (Iff.of_eq (k0_chk31.eq_1 v388 v466))
theorem k0_idx31_inb : ∀ (v388 : IVec S16 32) (v466 : IVec S16 32) (k0_hw31 : k0_chk31 v388 v466), ∀ a x, ((![v388, v466] : Fin 2 → IVec S16 32) a x).toNat < S200x128.size a := fun v388 v466 k0_hw31 => k0_hw31

def k0_chk32 (v469 : IVec S16 32) : Prop :=
  (∀ a x, ((![v469] : Fin 1 → IVec S16 32) a x).toNat < S25600.size a)
instance k0_chk32.dec : ∀ (v469 : IVec S16 32), Decidable (k0_chk32 v469) := fun v469 => decidable_of_iff' _ (Iff.of_eq (k0_chk32.eq_1 v469))
theorem k0_idx32_inb : ∀ (v469 : IVec S16 32) (k0_hw32 : k0_chk32 v469), ∀ a x, ((![v469] : Fin 1 → IVec S16 32) a x).toNat < S25600.size a := fun v469 k0_hw32 => k0_hw32

def k0_chk33 (v388 : IVec S16 32) (v472 : IVec S16 32) : Prop :=
  (∀ a x, ((![v388, v472] : Fin 2 → IVec S16 32) a x).toNat < S200x128.size a)
instance k0_chk33.dec : ∀ (v388 : IVec S16 32) (v472 : IVec S16 32), Decidable (k0_chk33 v388 v472) := fun v388 v472 => decidable_of_iff' _ (Iff.of_eq (k0_chk33.eq_1 v388 v472))
theorem k0_idx33_inb : ∀ (v388 : IVec S16 32) (v472 : IVec S16 32) (k0_hw33 : k0_chk33 v388 v472), ∀ a x, ((![v388, v472] : Fin 2 → IVec S16 32) a x).toNat < S200x128.size a := fun v388 v472 k0_hw33 => k0_hw33

def k0_chk34 (v475 : IVec S16 32) : Prop :=
  (∀ a x, ((![v475] : Fin 1 → IVec S16 32) a x).toNat < S25600.size a)
instance k0_chk34.dec : ∀ (v475 : IVec S16 32), Decidable (k0_chk34 v475) := fun v475 => decidable_of_iff' _ (Iff.of_eq (k0_chk34.eq_1 v475))
theorem k0_idx34_inb : ∀ (v475 : IVec S16 32) (k0_hw34 : k0_chk34 v475), ∀ a x, ((![v475] : Fin 1 → IVec S16 32) a x).toNat < S25600.size a := fun v475 k0_hw34 => k0_hw34

def k0_chk35 (v388 : IVec S16 32) (v477 : IVec S16 32) : Prop :=
  (∀ a x, ((![v388, v477] : Fin 2 → IVec S16 32) a x).toNat < S200x128.size a)
instance k0_chk35.dec : ∀ (v388 : IVec S16 32) (v477 : IVec S16 32), Decidable (k0_chk35 v388 v477) := fun v388 v477 => decidable_of_iff' _ (Iff.of_eq (k0_chk35.eq_1 v388 v477))
theorem k0_idx35_inb : ∀ (v388 : IVec S16 32) (v477 : IVec S16 32) (k0_hw35 : k0_chk35 v388 v477), ∀ a x, ((![v388, v477] : Fin 2 → IVec S16 32) a x).toNat < S200x128.size a := fun v388 v477 k0_hw35 => k0_hw35

def k0_chk36 (v480 : IVec S16 32) : Prop :=
  (∀ a x, ((![v480] : Fin 1 → IVec S16 32) a x).toNat < S25600.size a)
instance k0_chk36.dec : ∀ (v480 : IVec S16 32), Decidable (k0_chk36 v480) := fun v480 => decidable_of_iff' _ (Iff.of_eq (k0_chk36.eq_1 v480))
theorem k0_idx36_inb : ∀ (v480 : IVec S16 32) (k0_hw36 : k0_chk36 v480), ∀ a x, ((![v480] : Fin 1 → IVec S16 32) a x).toNat < S25600.size a := fun v480 k0_hw36 => k0_hw36

def k0_chk37 (v388 : IVec S16 32) (v482 : IVec S16 32) : Prop :=
  (∀ a x, ((![v388, v482] : Fin 2 → IVec S16 32) a x).toNat < S200x128.size a)
instance k0_chk37.dec : ∀ (v388 : IVec S16 32) (v482 : IVec S16 32), Decidable (k0_chk37 v388 v482) := fun v388 v482 => decidable_of_iff' _ (Iff.of_eq (k0_chk37.eq_1 v388 v482))
theorem k0_idx37_inb : ∀ (v388 : IVec S16 32) (v482 : IVec S16 32) (k0_hw37 : k0_chk37 v388 v482), ∀ a x, ((![v388, v482] : Fin 2 → IVec S16 32) a x).toNat < S200x128.size a := fun v388 v482 k0_hw37 => k0_hw37

def k0_chk38 (v485 : IVec S16 32) : Prop :=
  (∀ a x, ((![v485] : Fin 1 → IVec S16 32) a x).toNat < S25600.size a)
instance k0_chk38.dec : ∀ (v485 : IVec S16 32), Decidable (k0_chk38 v485) := fun v485 => decidable_of_iff' _ (Iff.of_eq (k0_chk38.eq_1 v485))
theorem k0_idx38_inb : ∀ (v485 : IVec S16 32) (k0_hw38 : k0_chk38 v485), ∀ a x, ((![v485] : Fin 1 → IVec S16 32) a x).toNat < S25600.size a := fun v485 k0_hw38 => k0_hw38

def k0_chk39 (v388 : IVec S16 32) (v487 : IVec S16 32) : Prop :=
  (∀ a x, ((![v388, v487] : Fin 2 → IVec S16 32) a x).toNat < S200x128.size a)
instance k0_chk39.dec : ∀ (v388 : IVec S16 32) (v487 : IVec S16 32), Decidable (k0_chk39 v388 v487) := fun v388 v487 => decidable_of_iff' _ (Iff.of_eq (k0_chk39.eq_1 v388 v487))
theorem k0_idx39_inb : ∀ (v388 : IVec S16 32) (v487 : IVec S16 32) (k0_hw39 : k0_chk39 v388 v487), ∀ a x, ((![v388, v487] : Fin 2 → IVec S16 32) a x).toNat < S200x128.size a := fun v388 v487 k0_hw39 => k0_hw39

def k0_chk40 (v490 : IVec S16 32) : Prop :=
  (∀ a x, ((![v490] : Fin 1 → IVec S16 32) a x).toNat < S25600.size a)
instance k0_chk40.dec : ∀ (v490 : IVec S16 32), Decidable (k0_chk40 v490) := fun v490 => decidable_of_iff' _ (Iff.of_eq (k0_chk40.eq_1 v490))
theorem k0_idx40_inb : ∀ (v490 : IVec S16 32) (k0_hw40 : k0_chk40 v490), ∀ a x, ((![v490] : Fin 1 → IVec S16 32) a x).toNat < S25600.size a := fun v490 k0_hw40 => k0_hw40

def k0_chk41 (v388 : IVec S16 32) (v492 : IVec S16 32) : Prop :=
  (∀ a x, ((![v388, v492] : Fin 2 → IVec S16 32) a x).toNat < S200x128.size a)
instance k0_chk41.dec : ∀ (v388 : IVec S16 32) (v492 : IVec S16 32), Decidable (k0_chk41 v388 v492) := fun v388 v492 => decidable_of_iff' _ (Iff.of_eq (k0_chk41.eq_1 v388 v492))
theorem k0_idx41_inb : ∀ (v388 : IVec S16 32) (v492 : IVec S16 32) (k0_hw41 : k0_chk41 v388 v492), ∀ a x, ((![v388, v492] : Fin 2 → IVec S16 32) a x).toNat < S200x128.size a := fun v388 v492 k0_hw41 => k0_hw41

def k0_chk42 (v495 : IVec S16 32) : Prop :=
  (∀ a x, ((![v495] : Fin 1 → IVec S16 32) a x).toNat < S25600.size a)
instance k0_chk42.dec : ∀ (v495 : IVec S16 32), Decidable (k0_chk42 v495) := fun v495 => decidable_of_iff' _ (Iff.of_eq (k0_chk42.eq_1 v495))
theorem k0_idx42_inb : ∀ (v495 : IVec S16 32) (k0_hw42 : k0_chk42 v495), ∀ a x, ((![v495] : Fin 1 → IVec S16 32) a x).toNat < S25600.size a := fun v495 k0_hw42 => k0_hw42

def k0_chk43 (v388 : IVec S16 32) (v497 : IVec S16 32) : Prop :=
  (∀ a x, ((![v388, v497] : Fin 2 → IVec S16 32) a x).toNat < S200x128.size a)
instance k0_chk43.dec : ∀ (v388 : IVec S16 32) (v497 : IVec S16 32), Decidable (k0_chk43 v388 v497) := fun v388 v497 => decidable_of_iff' _ (Iff.of_eq (k0_chk43.eq_1 v388 v497))
theorem k0_idx43_inb : ∀ (v388 : IVec S16 32) (v497 : IVec S16 32) (k0_hw43 : k0_chk43 v388 v497), ∀ a x, ((![v388, v497] : Fin 2 → IVec S16 32) a x).toNat < S200x128.size a := fun v388 v497 k0_hw43 => k0_hw43

def k0_chk44 (v500 : IVec S16 32) : Prop :=
  (∀ a x, ((![v500] : Fin 1 → IVec S16 32) a x).toNat < S25600.size a)
instance k0_chk44.dec : ∀ (v500 : IVec S16 32), Decidable (k0_chk44 v500) := fun v500 => decidable_of_iff' _ (Iff.of_eq (k0_chk44.eq_1 v500))
theorem k0_idx44_inb : ∀ (v500 : IVec S16 32) (k0_hw44 : k0_chk44 v500), ∀ a x, ((![v500] : Fin 1 → IVec S16 32) a x).toNat < S25600.size a := fun v500 k0_hw44 => k0_hw44

def k0_chk45 (v388 : IVec S16 32) (v502 : IVec S16 32) : Prop :=
  (∀ a x, ((![v388, v502] : Fin 2 → IVec S16 32) a x).toNat < S200x128.size a)
instance k0_chk45.dec : ∀ (v388 : IVec S16 32) (v502 : IVec S16 32), Decidable (k0_chk45 v388 v502) := fun v388 v502 => decidable_of_iff' _ (Iff.of_eq (k0_chk45.eq_1 v388 v502))
theorem k0_idx45_inb : ∀ (v388 : IVec S16 32) (v502 : IVec S16 32) (k0_hw45 : k0_chk45 v388 v502), ∀ a x, ((![v388, v502] : Fin 2 → IVec S16 32) a x).toNat < S200x128.size a := fun v388 v502 k0_hw45 => k0_hw45

def k0_chk46 (v505 : IVec S16 32) : Prop :=
  (∀ a x, ((![v505] : Fin 1 → IVec S16 32) a x).toNat < S25600.size a)
instance k0_chk46.dec : ∀ (v505 : IVec S16 32), Decidable (k0_chk46 v505) := fun v505 => decidable_of_iff' _ (Iff.of_eq (k0_chk46.eq_1 v505))
theorem k0_idx46_inb : ∀ (v505 : IVec S16 32) (k0_hw46 : k0_chk46 v505), ∀ a x, ((![v505] : Fin 1 → IVec S16 32) a x).toNat < S25600.size a := fun v505 k0_hw46 => k0_hw46

def k0_chk47 (v388 : IVec S16 32) (v507 : IVec S16 32) : Prop :=
  (∀ a x, ((![v388, v507] : Fin 2 → IVec S16 32) a x).toNat < S200x128.size a)
instance k0_chk47.dec : ∀ (v388 : IVec S16 32) (v507 : IVec S16 32), Decidable (k0_chk47 v388 v507) := fun v388 v507 => decidable_of_iff' _ (Iff.of_eq (k0_chk47.eq_1 v388 v507))
theorem k0_idx47_inb : ∀ (v388 : IVec S16 32) (v507 : IVec S16 32) (k0_hw47 : k0_chk47 v388 v507), ∀ a x, ((![v388, v507] : Fin 2 → IVec S16 32) a x).toNat < S200x128.size a := fun v388 v507 k0_hw47 => k0_hw47

def k0_chk48 (v510 : IVec S16 32) : Prop :=
  (∀ a x, ((![v510] : Fin 1 → IVec S16 32) a x).toNat < S25600.size a)
instance k0_chk48.dec : ∀ (v510 : IVec S16 32), Decidable (k0_chk48 v510) := fun v510 => decidable_of_iff' _ (Iff.of_eq (k0_chk48.eq_1 v510))
theorem k0_idx48_inb : ∀ (v510 : IVec S16 32) (k0_hw48 : k0_chk48 v510), ∀ a x, ((![v510] : Fin 1 → IVec S16 32) a x).toNat < S25600.size a := fun v510 k0_hw48 => k0_hw48

def k0_chk49 (v388 : IVec S16 32) (v512 : IVec S16 32) : Prop :=
  (∀ a x, ((![v388, v512] : Fin 2 → IVec S16 32) a x).toNat < S200x128.size a)
instance k0_chk49.dec : ∀ (v388 : IVec S16 32) (v512 : IVec S16 32), Decidable (k0_chk49 v388 v512) := fun v388 v512 => decidable_of_iff' _ (Iff.of_eq (k0_chk49.eq_1 v388 v512))
theorem k0_idx49_inb : ∀ (v388 : IVec S16 32) (v512 : IVec S16 32) (k0_hw49 : k0_chk49 v388 v512), ∀ a x, ((![v388, v512] : Fin 2 → IVec S16 32) a x).toNat < S200x128.size a := fun v388 v512 k0_hw49 => k0_hw49

def k0_chk50 (v515 : IVec S16 32) : Prop :=
  (∀ a x, ((![v515] : Fin 1 → IVec S16 32) a x).toNat < S25600.size a)
instance k0_chk50.dec : ∀ (v515 : IVec S16 32), Decidable (k0_chk50 v515) := fun v515 => decidable_of_iff' _ (Iff.of_eq (k0_chk50.eq_1 v515))
theorem k0_idx50_inb : ∀ (v515 : IVec S16 32) (k0_hw50 : k0_chk50 v515), ∀ a x, ((![v515] : Fin 1 → IVec S16 32) a x).toNat < S25600.size a := fun v515 k0_hw50 => k0_hw50

def k0_chk51 (v388 : IVec S16 32) (v517 : IVec S16 32) : Prop :=
  (∀ a x, ((![v388, v517] : Fin 2 → IVec S16 32) a x).toNat < S200x128.size a)
instance k0_chk51.dec : ∀ (v388 : IVec S16 32) (v517 : IVec S16 32), Decidable (k0_chk51 v388 v517) := fun v388 v517 => decidable_of_iff' _ (Iff.of_eq (k0_chk51.eq_1 v388 v517))
theorem k0_idx51_inb : ∀ (v388 : IVec S16 32) (v517 : IVec S16 32) (k0_hw51 : k0_chk51 v388 v517), ∀ a x, ((![v388, v517] : Fin 2 → IVec S16 32) a x).toNat < S200x128.size a := fun v388 v517 k0_hw51 => k0_hw51

def k0_chk52 (v520 : IVec S16 32) : Prop :=
  (∀ a x, ((![v520] : Fin 1 → IVec S16 32) a x).toNat < S25600.size a)
instance k0_chk52.dec : ∀ (v520 : IVec S16 32), Decidable (k0_chk52 v520) := fun v520 => decidable_of_iff' _ (Iff.of_eq (k0_chk52.eq_1 v520))
theorem k0_idx52_inb : ∀ (v520 : IVec S16 32) (k0_hw52 : k0_chk52 v520), ∀ a x, ((![v520] : Fin 1 → IVec S16 32) a x).toNat < S25600.size a := fun v520 k0_hw52 => k0_hw52

def k0_chk53 (v388 : IVec S16 32) (v522 : IVec S16 32) : Prop :=
  (∀ a x, ((![v388, v522] : Fin 2 → IVec S16 32) a x).toNat < S200x128.size a)
instance k0_chk53.dec : ∀ (v388 : IVec S16 32) (v522 : IVec S16 32), Decidable (k0_chk53 v388 v522) := fun v388 v522 => decidable_of_iff' _ (Iff.of_eq (k0_chk53.eq_1 v388 v522))
theorem k0_idx53_inb : ∀ (v388 : IVec S16 32) (v522 : IVec S16 32) (k0_hw53 : k0_chk53 v388 v522), ∀ a x, ((![v388, v522] : Fin 2 → IVec S16 32) a x).toNat < S200x128.size a := fun v388 v522 k0_hw53 => k0_hw53

def k0_chk54 (v525 : IVec S16 32) : Prop :=
  (∀ a x, ((![v525] : Fin 1 → IVec S16 32) a x).toNat < S25600.size a)
instance k0_chk54.dec : ∀ (v525 : IVec S16 32), Decidable (k0_chk54 v525) := fun v525 => decidable_of_iff' _ (Iff.of_eq (k0_chk54.eq_1 v525))
theorem k0_idx54_inb : ∀ (v525 : IVec S16 32) (k0_hw54 : k0_chk54 v525), ∀ a x, ((![v525] : Fin 1 → IVec S16 32) a x).toNat < S25600.size a := fun v525 k0_hw54 => k0_hw54

def k0_chk55 (v388 : IVec S16 32) (v527 : IVec S16 32) : Prop :=
  (∀ a x, ((![v388, v527] : Fin 2 → IVec S16 32) a x).toNat < S200x128.size a)
instance k0_chk55.dec : ∀ (v388 : IVec S16 32) (v527 : IVec S16 32), Decidable (k0_chk55 v388 v527) := fun v388 v527 => decidable_of_iff' _ (Iff.of_eq (k0_chk55.eq_1 v388 v527))
theorem k0_idx55_inb : ∀ (v388 : IVec S16 32) (v527 : IVec S16 32) (k0_hw55 : k0_chk55 v388 v527), ∀ a x, ((![v388, v527] : Fin 2 → IVec S16 32) a x).toNat < S200x128.size a := fun v388 v527 k0_hw55 => k0_hw55

def k0_chk56 (v530 : IVec S16 32) : Prop :=
  (∀ a x, ((![v530] : Fin 1 → IVec S16 32) a x).toNat < S25600.size a)
instance k0_chk56.dec : ∀ (v530 : IVec S16 32), Decidable (k0_chk56 v530) := fun v530 => decidable_of_iff' _ (Iff.of_eq (k0_chk56.eq_1 v530))
theorem k0_idx56_inb : ∀ (v530 : IVec S16 32) (k0_hw56 : k0_chk56 v530), ∀ a x, ((![v530] : Fin 1 → IVec S16 32) a x).toNat < S25600.size a := fun v530 k0_hw56 => k0_hw56

def k0_chk57 (v388 : IVec S16 32) (v532 : IVec S16 32) : Prop :=
  (∀ a x, ((![v388, v532] : Fin 2 → IVec S16 32) a x).toNat < S200x128.size a)
instance k0_chk57.dec : ∀ (v388 : IVec S16 32) (v532 : IVec S16 32), Decidable (k0_chk57 v388 v532) := fun v388 v532 => decidable_of_iff' _ (Iff.of_eq (k0_chk57.eq_1 v388 v532))
theorem k0_idx57_inb : ∀ (v388 : IVec S16 32) (v532 : IVec S16 32) (k0_hw57 : k0_chk57 v388 v532), ∀ a x, ((![v388, v532] : Fin 2 → IVec S16 32) a x).toNat < S200x128.size a := fun v388 v532 k0_hw57 => k0_hw57

def k0_chk58 (v535 : IVec S16 32) : Prop :=
  (∀ a x, ((![v535] : Fin 1 → IVec S16 32) a x).toNat < S25600.size a)
instance k0_chk58.dec : ∀ (v535 : IVec S16 32), Decidable (k0_chk58 v535) := fun v535 => decidable_of_iff' _ (Iff.of_eq (k0_chk58.eq_1 v535))
theorem k0_idx58_inb : ∀ (v535 : IVec S16 32) (k0_hw58 : k0_chk58 v535), ∀ a x, ((![v535] : Fin 1 → IVec S16 32) a x).toNat < S25600.size a := fun v535 k0_hw58 => k0_hw58

def k0_chk59 (v388 : IVec S16 32) (v537 : IVec S16 32) : Prop :=
  (∀ a x, ((![v388, v537] : Fin 2 → IVec S16 32) a x).toNat < S200x128.size a)
instance k0_chk59.dec : ∀ (v388 : IVec S16 32) (v537 : IVec S16 32), Decidable (k0_chk59 v388 v537) := fun v388 v537 => decidable_of_iff' _ (Iff.of_eq (k0_chk59.eq_1 v388 v537))
theorem k0_idx59_inb : ∀ (v388 : IVec S16 32) (v537 : IVec S16 32) (k0_hw59 : k0_chk59 v388 v537), ∀ a x, ((![v388, v537] : Fin 2 → IVec S16 32) a x).toNat < S200x128.size a := fun v388 v537 k0_hw59 => k0_hw59

def k0_chk60 (v540 : IVec S16 32) : Prop :=
  (∀ a x, ((![v540] : Fin 1 → IVec S16 32) a x).toNat < S25600.size a)
instance k0_chk60.dec : ∀ (v540 : IVec S16 32), Decidable (k0_chk60 v540) := fun v540 => decidable_of_iff' _ (Iff.of_eq (k0_chk60.eq_1 v540))
theorem k0_idx60_inb : ∀ (v540 : IVec S16 32) (k0_hw60 : k0_chk60 v540), ∀ a x, ((![v540] : Fin 1 → IVec S16 32) a x).toNat < S25600.size a := fun v540 k0_hw60 => k0_hw60

def k0_chk61 (v388 : IVec S16 32) (v542 : IVec S16 32) : Prop :=
  (∀ a x, ((![v388, v542] : Fin 2 → IVec S16 32) a x).toNat < S200x128.size a)
instance k0_chk61.dec : ∀ (v388 : IVec S16 32) (v542 : IVec S16 32), Decidable (k0_chk61 v388 v542) := fun v388 v542 => decidable_of_iff' _ (Iff.of_eq (k0_chk61.eq_1 v388 v542))
theorem k0_idx61_inb : ∀ (v388 : IVec S16 32) (v542 : IVec S16 32) (k0_hw61 : k0_chk61 v388 v542), ∀ a x, ((![v388, v542] : Fin 2 → IVec S16 32) a x).toNat < S200x128.size a := fun v388 v542 k0_hw61 => k0_hw61

def k0_chk62 (v545 : IVec S16 32) : Prop :=
  (∀ a x, ((![v545] : Fin 1 → IVec S16 32) a x).toNat < S25600.size a)
instance k0_chk62.dec : ∀ (v545 : IVec S16 32), Decidable (k0_chk62 v545) := fun v545 => decidable_of_iff' _ (Iff.of_eq (k0_chk62.eq_1 v545))
theorem k0_idx62_inb : ∀ (v545 : IVec S16 32) (k0_hw62 : k0_chk62 v545), ∀ a x, ((![v545] : Fin 1 → IVec S16 32) a x).toNat < S25600.size a := fun v545 k0_hw62 => k0_hw62

def k0_chk63 (v388 : IVec S16 32) (v547 : IVec S16 32) : Prop :=
  (∀ a x, ((![v388, v547] : Fin 2 → IVec S16 32) a x).toNat < S200x128.size a)
instance k0_chk63.dec : ∀ (v388 : IVec S16 32) (v547 : IVec S16 32), Decidable (k0_chk63 v388 v547) := fun v388 v547 => decidable_of_iff' _ (Iff.of_eq (k0_chk63.eq_1 v388 v547))
theorem k0_idx63_inb : ∀ (v388 : IVec S16 32) (v547 : IVec S16 32) (k0_hw63 : k0_chk63 v388 v547), ∀ a x, ((![v388, v547] : Fin 2 → IVec S16 32) a x).toNat < S200x128.size a := fun v388 v547 k0_hw63 => k0_hw63

def k0_chk64 (v550 : IVec S16 32) : Prop :=
  (∀ a x, ((![v550] : Fin 1 → IVec S16 32) a x).toNat < S25600.size a)
instance k0_chk64.dec : ∀ (v550 : IVec S16 32), Decidable (k0_chk64 v550) := fun v550 => decidable_of_iff' _ (Iff.of_eq (k0_chk64.eq_1 v550))
theorem k0_idx64_inb : ∀ (v550 : IVec S16 32) (k0_hw64 : k0_chk64 v550), ∀ a x, ((![v550] : Fin 1 → IVec S16 32) a x).toNat < S25600.size a := fun v550 k0_hw64 => k0_hw64

def k0_chk65 (v388 : IVec S16 32) (v553 : IVec S16 32) : Prop :=
  (∀ a x, ((![v388, v553] : Fin 2 → IVec S16 32) a x).toNat < S200x128.size a)
instance k0_chk65.dec : ∀ (v388 : IVec S16 32) (v553 : IVec S16 32), Decidable (k0_chk65 v388 v553) := fun v388 v553 => decidable_of_iff' _ (Iff.of_eq (k0_chk65.eq_1 v388 v553))
theorem k0_idx65_inb : ∀ (v388 : IVec S16 32) (v553 : IVec S16 32) (k0_hw65 : k0_chk65 v388 v553), ∀ a x, ((![v388, v553] : Fin 2 → IVec S16 32) a x).toNat < S200x128.size a := fun v388 v553 k0_hw65 => k0_hw65

def k0_chk66 (v556 : IVec S16 32) : Prop :=
  (∀ a x, ((![v556] : Fin 1 → IVec S16 32) a x).toNat < S25600.size a)
instance k0_chk66.dec : ∀ (v556 : IVec S16 32), Decidable (k0_chk66 v556) := fun v556 => decidable_of_iff' _ (Iff.of_eq (k0_chk66.eq_1 v556))
theorem k0_idx66_inb : ∀ (v556 : IVec S16 32) (k0_hw66 : k0_chk66 v556), ∀ a x, ((![v556] : Fin 1 → IVec S16 32) a x).toNat < S25600.size a := fun v556 k0_hw66 => k0_hw66

def k0_chk67 (v388 : IVec S16 32) (v558 : IVec S16 32) : Prop :=
  (∀ a x, ((![v388, v558] : Fin 2 → IVec S16 32) a x).toNat < S200x128.size a)
instance k0_chk67.dec : ∀ (v388 : IVec S16 32) (v558 : IVec S16 32), Decidable (k0_chk67 v388 v558) := fun v388 v558 => decidable_of_iff' _ (Iff.of_eq (k0_chk67.eq_1 v388 v558))
theorem k0_idx67_inb : ∀ (v388 : IVec S16 32) (v558 : IVec S16 32) (k0_hw67 : k0_chk67 v388 v558), ∀ a x, ((![v388, v558] : Fin 2 → IVec S16 32) a x).toNat < S200x128.size a := fun v388 v558 k0_hw67 => k0_hw67

def k0_chk68 (v561 : IVec S16 32) : Prop :=
  (∀ a x, ((![v561] : Fin 1 → IVec S16 32) a x).toNat < S25600.size a)
instance k0_chk68.dec : ∀ (v561 : IVec S16 32), Decidable (k0_chk68 v561) := fun v561 => decidable_of_iff' _ (Iff.of_eq (k0_chk68.eq_1 v561))
theorem k0_idx68_inb : ∀ (v561 : IVec S16 32) (k0_hw68 : k0_chk68 v561), ∀ a x, ((![v561] : Fin 1 → IVec S16 32) a x).toNat < S25600.size a := fun v561 k0_hw68 => k0_hw68

def k0_chk69 (v388 : IVec S16 32) (v563 : IVec S16 32) : Prop :=
  (∀ a x, ((![v388, v563] : Fin 2 → IVec S16 32) a x).toNat < S200x128.size a)
instance k0_chk69.dec : ∀ (v388 : IVec S16 32) (v563 : IVec S16 32), Decidable (k0_chk69 v388 v563) := fun v388 v563 => decidable_of_iff' _ (Iff.of_eq (k0_chk69.eq_1 v388 v563))
theorem k0_idx69_inb : ∀ (v388 : IVec S16 32) (v563 : IVec S16 32) (k0_hw69 : k0_chk69 v388 v563), ∀ a x, ((![v388, v563] : Fin 2 → IVec S16 32) a x).toNat < S200x128.size a := fun v388 v563 k0_hw69 => k0_hw69

def k0_chk70 (v566 : IVec S16 32) : Prop :=
  (∀ a x, ((![v566] : Fin 1 → IVec S16 32) a x).toNat < S25600.size a)
instance k0_chk70.dec : ∀ (v566 : IVec S16 32), Decidable (k0_chk70 v566) := fun v566 => decidable_of_iff' _ (Iff.of_eq (k0_chk70.eq_1 v566))
theorem k0_idx70_inb : ∀ (v566 : IVec S16 32) (k0_hw70 : k0_chk70 v566), ∀ a x, ((![v566] : Fin 1 → IVec S16 32) a x).toNat < S25600.size a := fun v566 k0_hw70 => k0_hw70

def k0_chk71 (v388 : IVec S16 32) (v568 : IVec S16 32) : Prop :=
  (∀ a x, ((![v388, v568] : Fin 2 → IVec S16 32) a x).toNat < S200x128.size a)
instance k0_chk71.dec : ∀ (v388 : IVec S16 32) (v568 : IVec S16 32), Decidable (k0_chk71 v388 v568) := fun v388 v568 => decidable_of_iff' _ (Iff.of_eq (k0_chk71.eq_1 v388 v568))
theorem k0_idx71_inb : ∀ (v388 : IVec S16 32) (v568 : IVec S16 32) (k0_hw71 : k0_chk71 v388 v568), ∀ a x, ((![v388, v568] : Fin 2 → IVec S16 32) a x).toNat < S200x128.size a := fun v388 v568 k0_hw71 => k0_hw71

def k0_chk72 (v571 : IVec S16 32) : Prop :=
  (∀ a x, ((![v571] : Fin 1 → IVec S16 32) a x).toNat < S25600.size a)
instance k0_chk72.dec : ∀ (v571 : IVec S16 32), Decidable (k0_chk72 v571) := fun v571 => decidable_of_iff' _ (Iff.of_eq (k0_chk72.eq_1 v571))
theorem k0_idx72_inb : ∀ (v571 : IVec S16 32) (k0_hw72 : k0_chk72 v571), ∀ a x, ((![v571] : Fin 1 → IVec S16 32) a x).toNat < S25600.size a := fun v571 k0_hw72 => k0_hw72

def k0_chk73 (v388 : IVec S16 32) (v573 : IVec S16 32) : Prop :=
  (∀ a x, ((![v388, v573] : Fin 2 → IVec S16 32) a x).toNat < S200x128.size a)
instance k0_chk73.dec : ∀ (v388 : IVec S16 32) (v573 : IVec S16 32), Decidable (k0_chk73 v388 v573) := fun v388 v573 => decidable_of_iff' _ (Iff.of_eq (k0_chk73.eq_1 v388 v573))
theorem k0_idx73_inb : ∀ (v388 : IVec S16 32) (v573 : IVec S16 32) (k0_hw73 : k0_chk73 v388 v573), ∀ a x, ((![v388, v573] : Fin 2 → IVec S16 32) a x).toNat < S200x128.size a := fun v388 v573 k0_hw73 => k0_hw73

def k0_chk74 (v576 : IVec S16 32) : Prop :=
  (∀ a x, ((![v576] : Fin 1 → IVec S16 32) a x).toNat < S25600.size a)
instance k0_chk74.dec : ∀ (v576 : IVec S16 32), Decidable (k0_chk74 v576) := fun v576 => decidable_of_iff' _ (Iff.of_eq (k0_chk74.eq_1 v576))
theorem k0_idx74_inb : ∀ (v576 : IVec S16 32) (k0_hw74 : k0_chk74 v576), ∀ a x, ((![v576] : Fin 1 → IVec S16 32) a x).toNat < S25600.size a := fun v576 k0_hw74 => k0_hw74

def k0_chk75 (v388 : IVec S16 32) (v578 : IVec S16 32) : Prop :=
  (∀ a x, ((![v388, v578] : Fin 2 → IVec S16 32) a x).toNat < S200x128.size a)
instance k0_chk75.dec : ∀ (v388 : IVec S16 32) (v578 : IVec S16 32), Decidable (k0_chk75 v388 v578) := fun v388 v578 => decidable_of_iff' _ (Iff.of_eq (k0_chk75.eq_1 v388 v578))
theorem k0_idx75_inb : ∀ (v388 : IVec S16 32) (v578 : IVec S16 32) (k0_hw75 : k0_chk75 v388 v578), ∀ a x, ((![v388, v578] : Fin 2 → IVec S16 32) a x).toNat < S200x128.size a := fun v388 v578 k0_hw75 => k0_hw75

def k0_chk76 (v581 : IVec S16 32) : Prop :=
  (∀ a x, ((![v581] : Fin 1 → IVec S16 32) a x).toNat < S25600.size a)
instance k0_chk76.dec : ∀ (v581 : IVec S16 32), Decidable (k0_chk76 v581) := fun v581 => decidable_of_iff' _ (Iff.of_eq (k0_chk76.eq_1 v581))
theorem k0_idx76_inb : ∀ (v581 : IVec S16 32) (k0_hw76 : k0_chk76 v581), ∀ a x, ((![v581] : Fin 1 → IVec S16 32) a x).toNat < S25600.size a := fun v581 k0_hw76 => k0_hw76

def k0_chk77 (v388 : IVec S16 32) (v583 : IVec S16 32) : Prop :=
  (∀ a x, ((![v388, v583] : Fin 2 → IVec S16 32) a x).toNat < S200x128.size a)
instance k0_chk77.dec : ∀ (v388 : IVec S16 32) (v583 : IVec S16 32), Decidable (k0_chk77 v388 v583) := fun v388 v583 => decidable_of_iff' _ (Iff.of_eq (k0_chk77.eq_1 v388 v583))
theorem k0_idx77_inb : ∀ (v388 : IVec S16 32) (v583 : IVec S16 32) (k0_hw77 : k0_chk77 v388 v583), ∀ a x, ((![v388, v583] : Fin 2 → IVec S16 32) a x).toNat < S200x128.size a := fun v388 v583 k0_hw77 => k0_hw77

def k0_chk78 (v586 : IVec S16 32) : Prop :=
  (∀ a x, ((![v586] : Fin 1 → IVec S16 32) a x).toNat < S25600.size a)
instance k0_chk78.dec : ∀ (v586 : IVec S16 32), Decidable (k0_chk78 v586) := fun v586 => decidable_of_iff' _ (Iff.of_eq (k0_chk78.eq_1 v586))
theorem k0_idx78_inb : ∀ (v586 : IVec S16 32) (k0_hw78 : k0_chk78 v586), ∀ a x, ((![v586] : Fin 1 → IVec S16 32) a x).toNat < S25600.size a := fun v586 k0_hw78 => k0_hw78

def k0_chk79 (v388 : IVec S16 32) (v588 : IVec S16 32) : Prop :=
  (∀ a x, ((![v388, v588] : Fin 2 → IVec S16 32) a x).toNat < S200x128.size a)
instance k0_chk79.dec : ∀ (v388 : IVec S16 32) (v588 : IVec S16 32), Decidable (k0_chk79 v388 v588) := fun v388 v588 => decidable_of_iff' _ (Iff.of_eq (k0_chk79.eq_1 v388 v588))
theorem k0_idx79_inb : ∀ (v388 : IVec S16 32) (v588 : IVec S16 32) (k0_hw79 : k0_chk79 v388 v588), ∀ a x, ((![v388, v588] : Fin 2 → IVec S16 32) a x).toNat < S200x128.size a := fun v388 v588 k0_hw79 => k0_hw79

def k0_chk80 (v591 : IVec S16 32) : Prop :=
  (∀ a x, ((![v591] : Fin 1 → IVec S16 32) a x).toNat < S25600.size a)
instance k0_chk80.dec : ∀ (v591 : IVec S16 32), Decidable (k0_chk80 v591) := fun v591 => decidable_of_iff' _ (Iff.of_eq (k0_chk80.eq_1 v591))
theorem k0_idx80_inb : ∀ (v591 : IVec S16 32) (k0_hw80 : k0_chk80 v591), ∀ a x, ((![v591] : Fin 1 → IVec S16 32) a x).toNat < S25600.size a := fun v591 k0_hw80 => k0_hw80

def k0_chk81 (v388 : IVec S16 32) (v593 : IVec S16 32) : Prop :=
  (∀ a x, ((![v388, v593] : Fin 2 → IVec S16 32) a x).toNat < S200x128.size a)
instance k0_chk81.dec : ∀ (v388 : IVec S16 32) (v593 : IVec S16 32), Decidable (k0_chk81 v388 v593) := fun v388 v593 => decidable_of_iff' _ (Iff.of_eq (k0_chk81.eq_1 v388 v593))
theorem k0_idx81_inb : ∀ (v388 : IVec S16 32) (v593 : IVec S16 32) (k0_hw81 : k0_chk81 v388 v593), ∀ a x, ((![v388, v593] : Fin 2 → IVec S16 32) a x).toNat < S200x128.size a := fun v388 v593 k0_hw81 => k0_hw81

def k0_chk82 (v596 : IVec S16 32) : Prop :=
  (∀ a x, ((![v596] : Fin 1 → IVec S16 32) a x).toNat < S25600.size a)
instance k0_chk82.dec : ∀ (v596 : IVec S16 32), Decidable (k0_chk82 v596) := fun v596 => decidable_of_iff' _ (Iff.of_eq (k0_chk82.eq_1 v596))
theorem k0_idx82_inb : ∀ (v596 : IVec S16 32) (k0_hw82 : k0_chk82 v596), ∀ a x, ((![v596] : Fin 1 → IVec S16 32) a x).toNat < S25600.size a := fun v596 k0_hw82 => k0_hw82

def k0_chk83 (v388 : IVec S16 32) (v598 : IVec S16 32) : Prop :=
  (∀ a x, ((![v388, v598] : Fin 2 → IVec S16 32) a x).toNat < S200x128.size a)
instance k0_chk83.dec : ∀ (v388 : IVec S16 32) (v598 : IVec S16 32), Decidable (k0_chk83 v388 v598) := fun v388 v598 => decidable_of_iff' _ (Iff.of_eq (k0_chk83.eq_1 v388 v598))
theorem k0_idx83_inb : ∀ (v388 : IVec S16 32) (v598 : IVec S16 32) (k0_hw83 : k0_chk83 v388 v598), ∀ a x, ((![v388, v598] : Fin 2 → IVec S16 32) a x).toNat < S200x128.size a := fun v388 v598 k0_hw83 => k0_hw83

def k0_chk84 (v601 : IVec S16 32) : Prop :=
  (∀ a x, ((![v601] : Fin 1 → IVec S16 32) a x).toNat < S25600.size a)
instance k0_chk84.dec : ∀ (v601 : IVec S16 32), Decidable (k0_chk84 v601) := fun v601 => decidable_of_iff' _ (Iff.of_eq (k0_chk84.eq_1 v601))
theorem k0_idx84_inb : ∀ (v601 : IVec S16 32) (k0_hw84 : k0_chk84 v601), ∀ a x, ((![v601] : Fin 1 → IVec S16 32) a x).toNat < S25600.size a := fun v601 k0_hw84 => k0_hw84

def k0_chk85 (v388 : IVec S16 32) (v603 : IVec S16 32) : Prop :=
  (∀ a x, ((![v388, v603] : Fin 2 → IVec S16 32) a x).toNat < S200x128.size a)
instance k0_chk85.dec : ∀ (v388 : IVec S16 32) (v603 : IVec S16 32), Decidable (k0_chk85 v388 v603) := fun v388 v603 => decidable_of_iff' _ (Iff.of_eq (k0_chk85.eq_1 v388 v603))
theorem k0_idx85_inb : ∀ (v388 : IVec S16 32) (v603 : IVec S16 32) (k0_hw85 : k0_chk85 v388 v603), ∀ a x, ((![v388, v603] : Fin 2 → IVec S16 32) a x).toNat < S200x128.size a := fun v388 v603 k0_hw85 => k0_hw85

def k0_chk86 (v606 : IVec S16 32) : Prop :=
  (∀ a x, ((![v606] : Fin 1 → IVec S16 32) a x).toNat < S25600.size a)
instance k0_chk86.dec : ∀ (v606 : IVec S16 32), Decidable (k0_chk86 v606) := fun v606 => decidable_of_iff' _ (Iff.of_eq (k0_chk86.eq_1 v606))
theorem k0_idx86_inb : ∀ (v606 : IVec S16 32) (k0_hw86 : k0_chk86 v606), ∀ a x, ((![v606] : Fin 1 → IVec S16 32) a x).toNat < S25600.size a := fun v606 k0_hw86 => k0_hw86

def k0_chk87 (v388 : IVec S16 32) (v608 : IVec S16 32) : Prop :=
  (∀ a x, ((![v388, v608] : Fin 2 → IVec S16 32) a x).toNat < S200x128.size a)
instance k0_chk87.dec : ∀ (v388 : IVec S16 32) (v608 : IVec S16 32), Decidable (k0_chk87 v388 v608) := fun v388 v608 => decidable_of_iff' _ (Iff.of_eq (k0_chk87.eq_1 v388 v608))
theorem k0_idx87_inb : ∀ (v388 : IVec S16 32) (v608 : IVec S16 32) (k0_hw87 : k0_chk87 v388 v608), ∀ a x, ((![v388, v608] : Fin 2 → IVec S16 32) a x).toNat < S200x128.size a := fun v388 v608 k0_hw87 => k0_hw87

def k0_chk88 (v611 : IVec S16 32) : Prop :=
  (∀ a x, ((![v611] : Fin 1 → IVec S16 32) a x).toNat < S25600.size a)
instance k0_chk88.dec : ∀ (v611 : IVec S16 32), Decidable (k0_chk88 v611) := fun v611 => decidable_of_iff' _ (Iff.of_eq (k0_chk88.eq_1 v611))
theorem k0_idx88_inb : ∀ (v611 : IVec S16 32) (k0_hw88 : k0_chk88 v611), ∀ a x, ((![v611] : Fin 1 → IVec S16 32) a x).toNat < S25600.size a := fun v611 k0_hw88 => k0_hw88

def k0_chk89 (v388 : IVec S16 32) (v613 : IVec S16 32) : Prop :=
  (∀ a x, ((![v388, v613] : Fin 2 → IVec S16 32) a x).toNat < S200x128.size a)
instance k0_chk89.dec : ∀ (v388 : IVec S16 32) (v613 : IVec S16 32), Decidable (k0_chk89 v388 v613) := fun v388 v613 => decidable_of_iff' _ (Iff.of_eq (k0_chk89.eq_1 v388 v613))
theorem k0_idx89_inb : ∀ (v388 : IVec S16 32) (v613 : IVec S16 32) (k0_hw89 : k0_chk89 v388 v613), ∀ a x, ((![v388, v613] : Fin 2 → IVec S16 32) a x).toNat < S200x128.size a := fun v388 v613 k0_hw89 => k0_hw89

def k0_chk90 (v616 : IVec S16 32) : Prop :=
  (∀ a x, ((![v616] : Fin 1 → IVec S16 32) a x).toNat < S25600.size a)
instance k0_chk90.dec : ∀ (v616 : IVec S16 32), Decidable (k0_chk90 v616) := fun v616 => decidable_of_iff' _ (Iff.of_eq (k0_chk90.eq_1 v616))
theorem k0_idx90_inb : ∀ (v616 : IVec S16 32) (k0_hw90 : k0_chk90 v616), ∀ a x, ((![v616] : Fin 1 → IVec S16 32) a x).toNat < S25600.size a := fun v616 k0_hw90 => k0_hw90

def k0_chk91 (v388 : IVec S16 32) (v618 : IVec S16 32) : Prop :=
  (∀ a x, ((![v388, v618] : Fin 2 → IVec S16 32) a x).toNat < S200x128.size a)
instance k0_chk91.dec : ∀ (v388 : IVec S16 32) (v618 : IVec S16 32), Decidable (k0_chk91 v388 v618) := fun v388 v618 => decidable_of_iff' _ (Iff.of_eq (k0_chk91.eq_1 v388 v618))
theorem k0_idx91_inb : ∀ (v388 : IVec S16 32) (v618 : IVec S16 32) (k0_hw91 : k0_chk91 v388 v618), ∀ a x, ((![v388, v618] : Fin 2 → IVec S16 32) a x).toNat < S200x128.size a := fun v388 v618 k0_hw91 => k0_hw91

def k0_chk92 (v621 : IVec S16 32) : Prop :=
  (∀ a x, ((![v621] : Fin 1 → IVec S16 32) a x).toNat < S25600.size a)
instance k0_chk92.dec : ∀ (v621 : IVec S16 32), Decidable (k0_chk92 v621) := fun v621 => decidable_of_iff' _ (Iff.of_eq (k0_chk92.eq_1 v621))
theorem k0_idx92_inb : ∀ (v621 : IVec S16 32) (k0_hw92 : k0_chk92 v621), ∀ a x, ((![v621] : Fin 1 → IVec S16 32) a x).toNat < S25600.size a := fun v621 k0_hw92 => k0_hw92

def k0_chk93 (v388 : IVec S16 32) (v623 : IVec S16 32) : Prop :=
  (∀ a x, ((![v388, v623] : Fin 2 → IVec S16 32) a x).toNat < S200x128.size a)
instance k0_chk93.dec : ∀ (v388 : IVec S16 32) (v623 : IVec S16 32), Decidable (k0_chk93 v388 v623) := fun v388 v623 => decidable_of_iff' _ (Iff.of_eq (k0_chk93.eq_1 v388 v623))
theorem k0_idx93_inb : ∀ (v388 : IVec S16 32) (v623 : IVec S16 32) (k0_hw93 : k0_chk93 v388 v623), ∀ a x, ((![v388, v623] : Fin 2 → IVec S16 32) a x).toNat < S200x128.size a := fun v388 v623 k0_hw93 => k0_hw93

def k0_chk94 (v626 : IVec S16 32) : Prop :=
  (∀ a x, ((![v626] : Fin 1 → IVec S16 32) a x).toNat < S25600.size a)
instance k0_chk94.dec : ∀ (v626 : IVec S16 32), Decidable (k0_chk94 v626) := fun v626 => decidable_of_iff' _ (Iff.of_eq (k0_chk94.eq_1 v626))
theorem k0_idx94_inb : ∀ (v626 : IVec S16 32) (k0_hw94 : k0_chk94 v626), ∀ a x, ((![v626] : Fin 1 → IVec S16 32) a x).toNat < S25600.size a := fun v626 k0_hw94 => k0_hw94

def k0_chk95 (v388 : IVec S16 32) (v628 : IVec S16 32) : Prop :=
  (∀ a x, ((![v388, v628] : Fin 2 → IVec S16 32) a x).toNat < S200x128.size a)
instance k0_chk95.dec : ∀ (v388 : IVec S16 32) (v628 : IVec S16 32), Decidable (k0_chk95 v388 v628) := fun v388 v628 => decidable_of_iff' _ (Iff.of_eq (k0_chk95.eq_1 v388 v628))
theorem k0_idx95_inb : ∀ (v388 : IVec S16 32) (v628 : IVec S16 32) (k0_hw95 : k0_chk95 v388 v628), ∀ a x, ((![v388, v628] : Fin 2 → IVec S16 32) a x).toNat < S200x128.size a := fun v388 v628 k0_hw95 => k0_hw95

def k0_chk96 (v631 : IVec S16 32) : Prop :=
  (∀ a x, ((![v631] : Fin 1 → IVec S16 32) a x).toNat < S25600.size a)
instance k0_chk96.dec : ∀ (v631 : IVec S16 32), Decidable (k0_chk96 v631) := fun v631 => decidable_of_iff' _ (Iff.of_eq (k0_chk96.eq_1 v631))
theorem k0_idx96_inb : ∀ (v631 : IVec S16 32) (k0_hw96 : k0_chk96 v631), ∀ a x, ((![v631] : Fin 1 → IVec S16 32) a x).toNat < S25600.size a := fun v631 k0_hw96 => k0_hw96

def k0_chk97 (v388 : IVec S16 32) (v634 : IVec S16 32) : Prop :=
  (∀ a x, ((![v388, v634] : Fin 2 → IVec S16 32) a x).toNat < S200x128.size a)
instance k0_chk97.dec : ∀ (v388 : IVec S16 32) (v634 : IVec S16 32), Decidable (k0_chk97 v388 v634) := fun v388 v634 => decidable_of_iff' _ (Iff.of_eq (k0_chk97.eq_1 v388 v634))
theorem k0_idx97_inb : ∀ (v388 : IVec S16 32) (v634 : IVec S16 32) (k0_hw97 : k0_chk97 v388 v634), ∀ a x, ((![v388, v634] : Fin 2 → IVec S16 32) a x).toNat < S200x128.size a := fun v388 v634 k0_hw97 => k0_hw97

def k0_chk98 (v637 : IVec S16 32) : Prop :=
  (∀ a x, ((![v637] : Fin 1 → IVec S16 32) a x).toNat < S25600.size a)
instance k0_chk98.dec : ∀ (v637 : IVec S16 32), Decidable (k0_chk98 v637) := fun v637 => decidable_of_iff' _ (Iff.of_eq (k0_chk98.eq_1 v637))
theorem k0_idx98_inb : ∀ (v637 : IVec S16 32) (k0_hw98 : k0_chk98 v637), ∀ a x, ((![v637] : Fin 1 → IVec S16 32) a x).toNat < S25600.size a := fun v637 k0_hw98 => k0_hw98

def k0_chk99 (v388 : IVec S16 32) (v639 : IVec S16 32) : Prop :=
  (∀ a x, ((![v388, v639] : Fin 2 → IVec S16 32) a x).toNat < S200x128.size a)
instance k0_chk99.dec : ∀ (v388 : IVec S16 32) (v639 : IVec S16 32), Decidable (k0_chk99 v388 v639) := fun v388 v639 => decidable_of_iff' _ (Iff.of_eq (k0_chk99.eq_1 v388 v639))
theorem k0_idx99_inb : ∀ (v388 : IVec S16 32) (v639 : IVec S16 32) (k0_hw99 : k0_chk99 v388 v639), ∀ a x, ((![v388, v639] : Fin 2 → IVec S16 32) a x).toNat < S200x128.size a := fun v388 v639 k0_hw99 => k0_hw99

def k0_chk100 (v642 : IVec S16 32) : Prop :=
  (∀ a x, ((![v642] : Fin 1 → IVec S16 32) a x).toNat < S25600.size a)
instance k0_chk100.dec : ∀ (v642 : IVec S16 32), Decidable (k0_chk100 v642) := fun v642 => decidable_of_iff' _ (Iff.of_eq (k0_chk100.eq_1 v642))
theorem k0_idx100_inb : ∀ (v642 : IVec S16 32) (k0_hw100 : k0_chk100 v642), ∀ a x, ((![v642] : Fin 1 → IVec S16 32) a x).toNat < S25600.size a := fun v642 k0_hw100 => k0_hw100

def k0_chk101 (v388 : IVec S16 32) (v644 : IVec S16 32) : Prop :=
  (∀ a x, ((![v388, v644] : Fin 2 → IVec S16 32) a x).toNat < S200x128.size a)
instance k0_chk101.dec : ∀ (v388 : IVec S16 32) (v644 : IVec S16 32), Decidable (k0_chk101 v388 v644) := fun v388 v644 => decidable_of_iff' _ (Iff.of_eq (k0_chk101.eq_1 v388 v644))
theorem k0_idx101_inb : ∀ (v388 : IVec S16 32) (v644 : IVec S16 32) (k0_hw101 : k0_chk101 v388 v644), ∀ a x, ((![v388, v644] : Fin 2 → IVec S16 32) a x).toNat < S200x128.size a := fun v388 v644 k0_hw101 => k0_hw101

def k0_chk102 (v647 : IVec S16 32) : Prop :=
  (∀ a x, ((![v647] : Fin 1 → IVec S16 32) a x).toNat < S25600.size a)
instance k0_chk102.dec : ∀ (v647 : IVec S16 32), Decidable (k0_chk102 v647) := fun v647 => decidable_of_iff' _ (Iff.of_eq (k0_chk102.eq_1 v647))
theorem k0_idx102_inb : ∀ (v647 : IVec S16 32) (k0_hw102 : k0_chk102 v647), ∀ a x, ((![v647] : Fin 1 → IVec S16 32) a x).toNat < S25600.size a := fun v647 k0_hw102 => k0_hw102

def k0_chk103 (v388 : IVec S16 32) (v649 : IVec S16 32) : Prop :=
  (∀ a x, ((![v388, v649] : Fin 2 → IVec S16 32) a x).toNat < S200x128.size a)
instance k0_chk103.dec : ∀ (v388 : IVec S16 32) (v649 : IVec S16 32), Decidable (k0_chk103 v388 v649) := fun v388 v649 => decidable_of_iff' _ (Iff.of_eq (k0_chk103.eq_1 v388 v649))
theorem k0_idx103_inb : ∀ (v388 : IVec S16 32) (v649 : IVec S16 32) (k0_hw103 : k0_chk103 v388 v649), ∀ a x, ((![v388, v649] : Fin 2 → IVec S16 32) a x).toNat < S200x128.size a := fun v388 v649 k0_hw103 => k0_hw103

def k0_chk104 (v652 : IVec S16 32) : Prop :=
  (∀ a x, ((![v652] : Fin 1 → IVec S16 32) a x).toNat < S25600.size a)
instance k0_chk104.dec : ∀ (v652 : IVec S16 32), Decidable (k0_chk104 v652) := fun v652 => decidable_of_iff' _ (Iff.of_eq (k0_chk104.eq_1 v652))
theorem k0_idx104_inb : ∀ (v652 : IVec S16 32) (k0_hw104 : k0_chk104 v652), ∀ a x, ((![v652] : Fin 1 → IVec S16 32) a x).toNat < S25600.size a := fun v652 k0_hw104 => k0_hw104

def k0_chk105 (v388 : IVec S16 32) (v654 : IVec S16 32) : Prop :=
  (∀ a x, ((![v388, v654] : Fin 2 → IVec S16 32) a x).toNat < S200x128.size a)
instance k0_chk105.dec : ∀ (v388 : IVec S16 32) (v654 : IVec S16 32), Decidable (k0_chk105 v388 v654) := fun v388 v654 => decidable_of_iff' _ (Iff.of_eq (k0_chk105.eq_1 v388 v654))
theorem k0_idx105_inb : ∀ (v388 : IVec S16 32) (v654 : IVec S16 32) (k0_hw105 : k0_chk105 v388 v654), ∀ a x, ((![v388, v654] : Fin 2 → IVec S16 32) a x).toNat < S200x128.size a := fun v388 v654 k0_hw105 => k0_hw105

def k0_chk106 (v657 : IVec S16 32) : Prop :=
  (∀ a x, ((![v657] : Fin 1 → IVec S16 32) a x).toNat < S25600.size a)
instance k0_chk106.dec : ∀ (v657 : IVec S16 32), Decidable (k0_chk106 v657) := fun v657 => decidable_of_iff' _ (Iff.of_eq (k0_chk106.eq_1 v657))
theorem k0_idx106_inb : ∀ (v657 : IVec S16 32) (k0_hw106 : k0_chk106 v657), ∀ a x, ((![v657] : Fin 1 → IVec S16 32) a x).toNat < S25600.size a := fun v657 k0_hw106 => k0_hw106

def k0_chk107 (v388 : IVec S16 32) (v659 : IVec S16 32) : Prop :=
  (∀ a x, ((![v388, v659] : Fin 2 → IVec S16 32) a x).toNat < S200x128.size a)
instance k0_chk107.dec : ∀ (v388 : IVec S16 32) (v659 : IVec S16 32), Decidable (k0_chk107 v388 v659) := fun v388 v659 => decidable_of_iff' _ (Iff.of_eq (k0_chk107.eq_1 v388 v659))
theorem k0_idx107_inb : ∀ (v388 : IVec S16 32) (v659 : IVec S16 32) (k0_hw107 : k0_chk107 v388 v659), ∀ a x, ((![v388, v659] : Fin 2 → IVec S16 32) a x).toNat < S200x128.size a := fun v388 v659 k0_hw107 => k0_hw107

def k0_chk108 (v662 : IVec S16 32) : Prop :=
  (∀ a x, ((![v662] : Fin 1 → IVec S16 32) a x).toNat < S25600.size a)
instance k0_chk108.dec : ∀ (v662 : IVec S16 32), Decidable (k0_chk108 v662) := fun v662 => decidable_of_iff' _ (Iff.of_eq (k0_chk108.eq_1 v662))
theorem k0_idx108_inb : ∀ (v662 : IVec S16 32) (k0_hw108 : k0_chk108 v662), ∀ a x, ((![v662] : Fin 1 → IVec S16 32) a x).toNat < S25600.size a := fun v662 k0_hw108 => k0_hw108

def k0_chk109 (v388 : IVec S16 32) (v664 : IVec S16 32) : Prop :=
  (∀ a x, ((![v388, v664] : Fin 2 → IVec S16 32) a x).toNat < S200x128.size a)
instance k0_chk109.dec : ∀ (v388 : IVec S16 32) (v664 : IVec S16 32), Decidable (k0_chk109 v388 v664) := fun v388 v664 => decidable_of_iff' _ (Iff.of_eq (k0_chk109.eq_1 v388 v664))
theorem k0_idx109_inb : ∀ (v388 : IVec S16 32) (v664 : IVec S16 32) (k0_hw109 : k0_chk109 v388 v664), ∀ a x, ((![v388, v664] : Fin 2 → IVec S16 32) a x).toNat < S200x128.size a := fun v388 v664 k0_hw109 => k0_hw109

def k0_chk110 (v667 : IVec S16 32) : Prop :=
  (∀ a x, ((![v667] : Fin 1 → IVec S16 32) a x).toNat < S25600.size a)
instance k0_chk110.dec : ∀ (v667 : IVec S16 32), Decidable (k0_chk110 v667) := fun v667 => decidable_of_iff' _ (Iff.of_eq (k0_chk110.eq_1 v667))
theorem k0_idx110_inb : ∀ (v667 : IVec S16 32) (k0_hw110 : k0_chk110 v667), ∀ a x, ((![v667] : Fin 1 → IVec S16 32) a x).toNat < S25600.size a := fun v667 k0_hw110 => k0_hw110

def k0_chk111 (v388 : IVec S16 32) (v669 : IVec S16 32) : Prop :=
  (∀ a x, ((![v388, v669] : Fin 2 → IVec S16 32) a x).toNat < S200x128.size a)
instance k0_chk111.dec : ∀ (v388 : IVec S16 32) (v669 : IVec S16 32), Decidable (k0_chk111 v388 v669) := fun v388 v669 => decidable_of_iff' _ (Iff.of_eq (k0_chk111.eq_1 v388 v669))
theorem k0_idx111_inb : ∀ (v388 : IVec S16 32) (v669 : IVec S16 32) (k0_hw111 : k0_chk111 v388 v669), ∀ a x, ((![v388, v669] : Fin 2 → IVec S16 32) a x).toNat < S200x128.size a := fun v388 v669 k0_hw111 => k0_hw111

def k0_chk112 (v672 : IVec S16 32) : Prop :=
  (∀ a x, ((![v672] : Fin 1 → IVec S16 32) a x).toNat < S25600.size a)
instance k0_chk112.dec : ∀ (v672 : IVec S16 32), Decidable (k0_chk112 v672) := fun v672 => decidable_of_iff' _ (Iff.of_eq (k0_chk112.eq_1 v672))
theorem k0_idx112_inb : ∀ (v672 : IVec S16 32) (k0_hw112 : k0_chk112 v672), ∀ a x, ((![v672] : Fin 1 → IVec S16 32) a x).toNat < S25600.size a := fun v672 k0_hw112 => k0_hw112

def k0_chk113 (v388 : IVec S16 32) (v674 : IVec S16 32) : Prop :=
  (∀ a x, ((![v388, v674] : Fin 2 → IVec S16 32) a x).toNat < S200x128.size a)
instance k0_chk113.dec : ∀ (v388 : IVec S16 32) (v674 : IVec S16 32), Decidable (k0_chk113 v388 v674) := fun v388 v674 => decidable_of_iff' _ (Iff.of_eq (k0_chk113.eq_1 v388 v674))
theorem k0_idx113_inb : ∀ (v388 : IVec S16 32) (v674 : IVec S16 32) (k0_hw113 : k0_chk113 v388 v674), ∀ a x, ((![v388, v674] : Fin 2 → IVec S16 32) a x).toNat < S200x128.size a := fun v388 v674 k0_hw113 => k0_hw113

def k0_chk114 (v677 : IVec S16 32) : Prop :=
  (∀ a x, ((![v677] : Fin 1 → IVec S16 32) a x).toNat < S25600.size a)
instance k0_chk114.dec : ∀ (v677 : IVec S16 32), Decidable (k0_chk114 v677) := fun v677 => decidable_of_iff' _ (Iff.of_eq (k0_chk114.eq_1 v677))
theorem k0_idx114_inb : ∀ (v677 : IVec S16 32) (k0_hw114 : k0_chk114 v677), ∀ a x, ((![v677] : Fin 1 → IVec S16 32) a x).toNat < S25600.size a := fun v677 k0_hw114 => k0_hw114

def k0_chk115 (v388 : IVec S16 32) (v679 : IVec S16 32) : Prop :=
  (∀ a x, ((![v388, v679] : Fin 2 → IVec S16 32) a x).toNat < S200x128.size a)
instance k0_chk115.dec : ∀ (v388 : IVec S16 32) (v679 : IVec S16 32), Decidable (k0_chk115 v388 v679) := fun v388 v679 => decidable_of_iff' _ (Iff.of_eq (k0_chk115.eq_1 v388 v679))
theorem k0_idx115_inb : ∀ (v388 : IVec S16 32) (v679 : IVec S16 32) (k0_hw115 : k0_chk115 v388 v679), ∀ a x, ((![v388, v679] : Fin 2 → IVec S16 32) a x).toNat < S200x128.size a := fun v388 v679 k0_hw115 => k0_hw115

def k0_chk116 (v682 : IVec S16 32) : Prop :=
  (∀ a x, ((![v682] : Fin 1 → IVec S16 32) a x).toNat < S25600.size a)
instance k0_chk116.dec : ∀ (v682 : IVec S16 32), Decidable (k0_chk116 v682) := fun v682 => decidable_of_iff' _ (Iff.of_eq (k0_chk116.eq_1 v682))
theorem k0_idx116_inb : ∀ (v682 : IVec S16 32) (k0_hw116 : k0_chk116 v682), ∀ a x, ((![v682] : Fin 1 → IVec S16 32) a x).toNat < S25600.size a := fun v682 k0_hw116 => k0_hw116

def k0_chk117 (v388 : IVec S16 32) (v684 : IVec S16 32) : Prop :=
  (∀ a x, ((![v388, v684] : Fin 2 → IVec S16 32) a x).toNat < S200x128.size a)
instance k0_chk117.dec : ∀ (v388 : IVec S16 32) (v684 : IVec S16 32), Decidable (k0_chk117 v388 v684) := fun v388 v684 => decidable_of_iff' _ (Iff.of_eq (k0_chk117.eq_1 v388 v684))
theorem k0_idx117_inb : ∀ (v388 : IVec S16 32) (v684 : IVec S16 32) (k0_hw117 : k0_chk117 v388 v684), ∀ a x, ((![v388, v684] : Fin 2 → IVec S16 32) a x).toNat < S200x128.size a := fun v388 v684 k0_hw117 => k0_hw117

def k0_chk118 (v687 : IVec S16 32) : Prop :=
  (∀ a x, ((![v687] : Fin 1 → IVec S16 32) a x).toNat < S25600.size a)
instance k0_chk118.dec : ∀ (v687 : IVec S16 32), Decidable (k0_chk118 v687) := fun v687 => decidable_of_iff' _ (Iff.of_eq (k0_chk118.eq_1 v687))
theorem k0_idx118_inb : ∀ (v687 : IVec S16 32) (k0_hw118 : k0_chk118 v687), ∀ a x, ((![v687] : Fin 1 → IVec S16 32) a x).toNat < S25600.size a := fun v687 k0_hw118 => k0_hw118

def k0_chk119 (v388 : IVec S16 32) (v689 : IVec S16 32) : Prop :=
  (∀ a x, ((![v388, v689] : Fin 2 → IVec S16 32) a x).toNat < S200x128.size a)
instance k0_chk119.dec : ∀ (v388 : IVec S16 32) (v689 : IVec S16 32), Decidable (k0_chk119 v388 v689) := fun v388 v689 => decidable_of_iff' _ (Iff.of_eq (k0_chk119.eq_1 v388 v689))
theorem k0_idx119_inb : ∀ (v388 : IVec S16 32) (v689 : IVec S16 32) (k0_hw119 : k0_chk119 v388 v689), ∀ a x, ((![v388, v689] : Fin 2 → IVec S16 32) a x).toNat < S200x128.size a := fun v388 v689 k0_hw119 => k0_hw119

def k0_chk120 (v692 : IVec S16 32) : Prop :=
  (∀ a x, ((![v692] : Fin 1 → IVec S16 32) a x).toNat < S25600.size a)
instance k0_chk120.dec : ∀ (v692 : IVec S16 32), Decidable (k0_chk120 v692) := fun v692 => decidable_of_iff' _ (Iff.of_eq (k0_chk120.eq_1 v692))
theorem k0_idx120_inb : ∀ (v692 : IVec S16 32) (k0_hw120 : k0_chk120 v692), ∀ a x, ((![v692] : Fin 1 → IVec S16 32) a x).toNat < S25600.size a := fun v692 k0_hw120 => k0_hw120

def k0_chk121 (v388 : IVec S16 32) (v694 : IVec S16 32) : Prop :=
  (∀ a x, ((![v388, v694] : Fin 2 → IVec S16 32) a x).toNat < S200x128.size a)
instance k0_chk121.dec : ∀ (v388 : IVec S16 32) (v694 : IVec S16 32), Decidable (k0_chk121 v388 v694) := fun v388 v694 => decidable_of_iff' _ (Iff.of_eq (k0_chk121.eq_1 v388 v694))
theorem k0_idx121_inb : ∀ (v388 : IVec S16 32) (v694 : IVec S16 32) (k0_hw121 : k0_chk121 v388 v694), ∀ a x, ((![v388, v694] : Fin 2 → IVec S16 32) a x).toNat < S200x128.size a := fun v388 v694 k0_hw121 => k0_hw121

def k0_chk122 (v697 : IVec S16 32) : Prop :=
  (∀ a x, ((![v697] : Fin 1 → IVec S16 32) a x).toNat < S25600.size a)
instance k0_chk122.dec : ∀ (v697 : IVec S16 32), Decidable (k0_chk122 v697) := fun v697 => decidable_of_iff' _ (Iff.of_eq (k0_chk122.eq_1 v697))
theorem k0_idx122_inb : ∀ (v697 : IVec S16 32) (k0_hw122 : k0_chk122 v697), ∀ a x, ((![v697] : Fin 1 → IVec S16 32) a x).toNat < S25600.size a := fun v697 k0_hw122 => k0_hw122

def k0_chk123 (v388 : IVec S16 32) (v699 : IVec S16 32) : Prop :=
  (∀ a x, ((![v388, v699] : Fin 2 → IVec S16 32) a x).toNat < S200x128.size a)
instance k0_chk123.dec : ∀ (v388 : IVec S16 32) (v699 : IVec S16 32), Decidable (k0_chk123 v388 v699) := fun v388 v699 => decidable_of_iff' _ (Iff.of_eq (k0_chk123.eq_1 v388 v699))
theorem k0_idx123_inb : ∀ (v388 : IVec S16 32) (v699 : IVec S16 32) (k0_hw123 : k0_chk123 v388 v699), ∀ a x, ((![v388, v699] : Fin 2 → IVec S16 32) a x).toNat < S200x128.size a := fun v388 v699 k0_hw123 => k0_hw123

def k0_chk124 (v702 : IVec S16 32) : Prop :=
  (∀ a x, ((![v702] : Fin 1 → IVec S16 32) a x).toNat < S25600.size a)
instance k0_chk124.dec : ∀ (v702 : IVec S16 32), Decidable (k0_chk124 v702) := fun v702 => decidable_of_iff' _ (Iff.of_eq (k0_chk124.eq_1 v702))
theorem k0_idx124_inb : ∀ (v702 : IVec S16 32) (k0_hw124 : k0_chk124 v702), ∀ a x, ((![v702] : Fin 1 → IVec S16 32) a x).toNat < S25600.size a := fun v702 k0_hw124 => k0_hw124

def k0_chk125 (v388 : IVec S16 32) (v704 : IVec S16 32) : Prop :=
  (∀ a x, ((![v388, v704] : Fin 2 → IVec S16 32) a x).toNat < S200x128.size a)
instance k0_chk125.dec : ∀ (v388 : IVec S16 32) (v704 : IVec S16 32), Decidable (k0_chk125 v388 v704) := fun v388 v704 => decidable_of_iff' _ (Iff.of_eq (k0_chk125.eq_1 v388 v704))
theorem k0_idx125_inb : ∀ (v388 : IVec S16 32) (v704 : IVec S16 32) (k0_hw125 : k0_chk125 v388 v704), ∀ a x, ((![v388, v704] : Fin 2 → IVec S16 32) a x).toNat < S200x128.size a := fun v388 v704 k0_hw125 => k0_hw125

def k0_chk126 (v707 : IVec S16 32) : Prop :=
  (∀ a x, ((![v707] : Fin 1 → IVec S16 32) a x).toNat < S25600.size a)
instance k0_chk126.dec : ∀ (v707 : IVec S16 32), Decidable (k0_chk126 v707) := fun v707 => decidable_of_iff' _ (Iff.of_eq (k0_chk126.eq_1 v707))
theorem k0_idx126_inb : ∀ (v707 : IVec S16 32) (k0_hw126 : k0_chk126 v707), ∀ a x, ((![v707] : Fin 1 → IVec S16 32) a x).toNat < S25600.size a := fun v707 k0_hw126 => k0_hw126

def k0_chk127 (v388 : IVec S16 32) (v709 : IVec S16 32) : Prop :=
  (∀ a x, ((![v388, v709] : Fin 2 → IVec S16 32) a x).toNat < S200x128.size a)
instance k0_chk127.dec : ∀ (v388 : IVec S16 32) (v709 : IVec S16 32), Decidable (k0_chk127 v388 v709) := fun v388 v709 => decidable_of_iff' _ (Iff.of_eq (k0_chk127.eq_1 v388 v709))
theorem k0_idx127_inb : ∀ (v388 : IVec S16 32) (v709 : IVec S16 32) (k0_hw127 : k0_chk127 v388 v709), ∀ a x, ((![v388, v709] : Fin 2 → IVec S16 32) a x).toNat < S200x128.size a := fun v388 v709 k0_hw127 => k0_hw127

def k0_chk128 (v712 : IVec S16 32) : Prop :=
  (∀ a x, ((![v712] : Fin 1 → IVec S16 32) a x).toNat < S25600.size a)
instance k0_chk128.dec : ∀ (v712 : IVec S16 32), Decidable (k0_chk128 v712) := fun v712 => decidable_of_iff' _ (Iff.of_eq (k0_chk128.eq_1 v712))
theorem k0_idx128_inb : ∀ (v712 : IVec S16 32) (k0_hw128 : k0_chk128 v712), ∀ a x, ((![v712] : Fin 1 → IVec S16 32) a x).toNat < S25600.size a := fun v712 k0_hw128 => k0_hw128

def k0_chk129 (v388 : IVec S16 32) (v715 : IVec S16 32) : Prop :=
  (∀ a x, ((![v388, v715] : Fin 2 → IVec S16 32) a x).toNat < S200x128.size a)
instance k0_chk129.dec : ∀ (v388 : IVec S16 32) (v715 : IVec S16 32), Decidable (k0_chk129 v388 v715) := fun v388 v715 => decidable_of_iff' _ (Iff.of_eq (k0_chk129.eq_1 v388 v715))
theorem k0_idx129_inb : ∀ (v388 : IVec S16 32) (v715 : IVec S16 32) (k0_hw129 : k0_chk129 v388 v715), ∀ a x, ((![v388, v715] : Fin 2 → IVec S16 32) a x).toNat < S200x128.size a := fun v388 v715 k0_hw129 => k0_hw129

def k0_chk130 (v718 : IVec S16 32) : Prop :=
  (∀ a x, ((![v718] : Fin 1 → IVec S16 32) a x).toNat < S25600.size a)
instance k0_chk130.dec : ∀ (v718 : IVec S16 32), Decidable (k0_chk130 v718) := fun v718 => decidable_of_iff' _ (Iff.of_eq (k0_chk130.eq_1 v718))
theorem k0_idx130_inb : ∀ (v718 : IVec S16 32) (k0_hw130 : k0_chk130 v718), ∀ a x, ((![v718] : Fin 1 → IVec S16 32) a x).toNat < S25600.size a := fun v718 k0_hw130 => k0_hw130

def k0_chk131 (v388 : IVec S16 32) (v720 : IVec S16 32) : Prop :=
  (∀ a x, ((![v388, v720] : Fin 2 → IVec S16 32) a x).toNat < S200x128.size a)
instance k0_chk131.dec : ∀ (v388 : IVec S16 32) (v720 : IVec S16 32), Decidable (k0_chk131 v388 v720) := fun v388 v720 => decidable_of_iff' _ (Iff.of_eq (k0_chk131.eq_1 v388 v720))
theorem k0_idx131_inb : ∀ (v388 : IVec S16 32) (v720 : IVec S16 32) (k0_hw131 : k0_chk131 v388 v720), ∀ a x, ((![v388, v720] : Fin 2 → IVec S16 32) a x).toNat < S200x128.size a := fun v388 v720 k0_hw131 => k0_hw131

def k0_chk132 (v723 : IVec S16 32) : Prop :=
  (∀ a x, ((![v723] : Fin 1 → IVec S16 32) a x).toNat < S25600.size a)
instance k0_chk132.dec : ∀ (v723 : IVec S16 32), Decidable (k0_chk132 v723) := fun v723 => decidable_of_iff' _ (Iff.of_eq (k0_chk132.eq_1 v723))
theorem k0_idx132_inb : ∀ (v723 : IVec S16 32) (k0_hw132 : k0_chk132 v723), ∀ a x, ((![v723] : Fin 1 → IVec S16 32) a x).toNat < S25600.size a := fun v723 k0_hw132 => k0_hw132

def k0_chk133 (v388 : IVec S16 32) (v725 : IVec S16 32) : Prop :=
  (∀ a x, ((![v388, v725] : Fin 2 → IVec S16 32) a x).toNat < S200x128.size a)
instance k0_chk133.dec : ∀ (v388 : IVec S16 32) (v725 : IVec S16 32), Decidable (k0_chk133 v388 v725) := fun v388 v725 => decidable_of_iff' _ (Iff.of_eq (k0_chk133.eq_1 v388 v725))
theorem k0_idx133_inb : ∀ (v388 : IVec S16 32) (v725 : IVec S16 32) (k0_hw133 : k0_chk133 v388 v725), ∀ a x, ((![v388, v725] : Fin 2 → IVec S16 32) a x).toNat < S200x128.size a := fun v388 v725 k0_hw133 => k0_hw133

def k0_chk134 (v728 : IVec S16 32) : Prop :=
  (∀ a x, ((![v728] : Fin 1 → IVec S16 32) a x).toNat < S25600.size a)
instance k0_chk134.dec : ∀ (v728 : IVec S16 32), Decidable (k0_chk134 v728) := fun v728 => decidable_of_iff' _ (Iff.of_eq (k0_chk134.eq_1 v728))
theorem k0_idx134_inb : ∀ (v728 : IVec S16 32) (k0_hw134 : k0_chk134 v728), ∀ a x, ((![v728] : Fin 1 → IVec S16 32) a x).toNat < S25600.size a := fun v728 k0_hw134 => k0_hw134

def k0_chk135 (v388 : IVec S16 32) (v730 : IVec S16 32) : Prop :=
  (∀ a x, ((![v388, v730] : Fin 2 → IVec S16 32) a x).toNat < S200x128.size a)
instance k0_chk135.dec : ∀ (v388 : IVec S16 32) (v730 : IVec S16 32), Decidable (k0_chk135 v388 v730) := fun v388 v730 => decidable_of_iff' _ (Iff.of_eq (k0_chk135.eq_1 v388 v730))
theorem k0_idx135_inb : ∀ (v388 : IVec S16 32) (v730 : IVec S16 32) (k0_hw135 : k0_chk135 v388 v730), ∀ a x, ((![v388, v730] : Fin 2 → IVec S16 32) a x).toNat < S200x128.size a := fun v388 v730 k0_hw135 => k0_hw135

def k0_chk136 (v733 : IVec S16 32) : Prop :=
  (∀ a x, ((![v733] : Fin 1 → IVec S16 32) a x).toNat < S25600.size a)
instance k0_chk136.dec : ∀ (v733 : IVec S16 32), Decidable (k0_chk136 v733) := fun v733 => decidable_of_iff' _ (Iff.of_eq (k0_chk136.eq_1 v733))
theorem k0_idx136_inb : ∀ (v733 : IVec S16 32) (k0_hw136 : k0_chk136 v733), ∀ a x, ((![v733] : Fin 1 → IVec S16 32) a x).toNat < S25600.size a := fun v733 k0_hw136 => k0_hw136

def k0_chk137 (v388 : IVec S16 32) (v735 : IVec S16 32) : Prop :=
  (∀ a x, ((![v388, v735] : Fin 2 → IVec S16 32) a x).toNat < S200x128.size a)
instance k0_chk137.dec : ∀ (v388 : IVec S16 32) (v735 : IVec S16 32), Decidable (k0_chk137 v388 v735) := fun v388 v735 => decidable_of_iff' _ (Iff.of_eq (k0_chk137.eq_1 v388 v735))
theorem k0_idx137_inb : ∀ (v388 : IVec S16 32) (v735 : IVec S16 32) (k0_hw137 : k0_chk137 v388 v735), ∀ a x, ((![v388, v735] : Fin 2 → IVec S16 32) a x).toNat < S200x128.size a := fun v388 v735 k0_hw137 => k0_hw137

def k0_chk138 (v738 : IVec S16 32) : Prop :=
  (∀ a x, ((![v738] : Fin 1 → IVec S16 32) a x).toNat < S25600.size a)
instance k0_chk138.dec : ∀ (v738 : IVec S16 32), Decidable (k0_chk138 v738) := fun v738 => decidable_of_iff' _ (Iff.of_eq (k0_chk138.eq_1 v738))
theorem k0_idx138_inb : ∀ (v738 : IVec S16 32) (k0_hw138 : k0_chk138 v738), ∀ a x, ((![v738] : Fin 1 → IVec S16 32) a x).toNat < S25600.size a := fun v738 k0_hw138 => k0_hw138

def k0_chk139 (v388 : IVec S16 32) (v740 : IVec S16 32) : Prop :=
  (∀ a x, ((![v388, v740] : Fin 2 → IVec S16 32) a x).toNat < S200x128.size a)
instance k0_chk139.dec : ∀ (v388 : IVec S16 32) (v740 : IVec S16 32), Decidable (k0_chk139 v388 v740) := fun v388 v740 => decidable_of_iff' _ (Iff.of_eq (k0_chk139.eq_1 v388 v740))
theorem k0_idx139_inb : ∀ (v388 : IVec S16 32) (v740 : IVec S16 32) (k0_hw139 : k0_chk139 v388 v740), ∀ a x, ((![v388, v740] : Fin 2 → IVec S16 32) a x).toNat < S200x128.size a := fun v388 v740 k0_hw139 => k0_hw139

def k0_chk140 (v743 : IVec S16 32) : Prop :=
  (∀ a x, ((![v743] : Fin 1 → IVec S16 32) a x).toNat < S25600.size a)
instance k0_chk140.dec : ∀ (v743 : IVec S16 32), Decidable (k0_chk140 v743) := fun v743 => decidable_of_iff' _ (Iff.of_eq (k0_chk140.eq_1 v743))
theorem k0_idx140_inb : ∀ (v743 : IVec S16 32) (k0_hw140 : k0_chk140 v743), ∀ a x, ((![v743] : Fin 1 → IVec S16 32) a x).toNat < S25600.size a := fun v743 k0_hw140 => k0_hw140

def k0_chk141 (v388 : IVec S16 32) (v745 : IVec S16 32) : Prop :=
  (∀ a x, ((![v388, v745] : Fin 2 → IVec S16 32) a x).toNat < S200x128.size a)
instance k0_chk141.dec : ∀ (v388 : IVec S16 32) (v745 : IVec S16 32), Decidable (k0_chk141 v388 v745) := fun v388 v745 => decidable_of_iff' _ (Iff.of_eq (k0_chk141.eq_1 v388 v745))
theorem k0_idx141_inb : ∀ (v388 : IVec S16 32) (v745 : IVec S16 32) (k0_hw141 : k0_chk141 v388 v745), ∀ a x, ((![v388, v745] : Fin 2 → IVec S16 32) a x).toNat < S200x128.size a := fun v388 v745 k0_hw141 => k0_hw141

def k0_chk142 (v748 : IVec S16 32) : Prop :=
  (∀ a x, ((![v748] : Fin 1 → IVec S16 32) a x).toNat < S25600.size a)
instance k0_chk142.dec : ∀ (v748 : IVec S16 32), Decidable (k0_chk142 v748) := fun v748 => decidable_of_iff' _ (Iff.of_eq (k0_chk142.eq_1 v748))
theorem k0_idx142_inb : ∀ (v748 : IVec S16 32) (k0_hw142 : k0_chk142 v748), ∀ a x, ((![v748] : Fin 1 → IVec S16 32) a x).toNat < S25600.size a := fun v748 k0_hw142 => k0_hw142

def k0_chk143 (v388 : IVec S16 32) (v750 : IVec S16 32) : Prop :=
  (∀ a x, ((![v388, v750] : Fin 2 → IVec S16 32) a x).toNat < S200x128.size a)
instance k0_chk143.dec : ∀ (v388 : IVec S16 32) (v750 : IVec S16 32), Decidable (k0_chk143 v388 v750) := fun v388 v750 => decidable_of_iff' _ (Iff.of_eq (k0_chk143.eq_1 v388 v750))
theorem k0_idx143_inb : ∀ (v388 : IVec S16 32) (v750 : IVec S16 32) (k0_hw143 : k0_chk143 v388 v750), ∀ a x, ((![v388, v750] : Fin 2 → IVec S16 32) a x).toNat < S200x128.size a := fun v388 v750 k0_hw143 => k0_hw143

def k0_chk144 (v753 : IVec S16 32) : Prop :=
  (∀ a x, ((![v753] : Fin 1 → IVec S16 32) a x).toNat < S25600.size a)
instance k0_chk144.dec : ∀ (v753 : IVec S16 32), Decidable (k0_chk144 v753) := fun v753 => decidable_of_iff' _ (Iff.of_eq (k0_chk144.eq_1 v753))
theorem k0_idx144_inb : ∀ (v753 : IVec S16 32) (k0_hw144 : k0_chk144 v753), ∀ a x, ((![v753] : Fin 1 → IVec S16 32) a x).toNat < S25600.size a := fun v753 k0_hw144 => k0_hw144

def k0_chk145 (v388 : IVec S16 32) (v755 : IVec S16 32) : Prop :=
  (∀ a x, ((![v388, v755] : Fin 2 → IVec S16 32) a x).toNat < S200x128.size a)
instance k0_chk145.dec : ∀ (v388 : IVec S16 32) (v755 : IVec S16 32), Decidable (k0_chk145 v388 v755) := fun v388 v755 => decidable_of_iff' _ (Iff.of_eq (k0_chk145.eq_1 v388 v755))
theorem k0_idx145_inb : ∀ (v388 : IVec S16 32) (v755 : IVec S16 32) (k0_hw145 : k0_chk145 v388 v755), ∀ a x, ((![v388, v755] : Fin 2 → IVec S16 32) a x).toNat < S200x128.size a := fun v388 v755 k0_hw145 => k0_hw145

def k0_chk146 (v758 : IVec S16 32) : Prop :=
  (∀ a x, ((![v758] : Fin 1 → IVec S16 32) a x).toNat < S25600.size a)
instance k0_chk146.dec : ∀ (v758 : IVec S16 32), Decidable (k0_chk146 v758) := fun v758 => decidable_of_iff' _ (Iff.of_eq (k0_chk146.eq_1 v758))
theorem k0_idx146_inb : ∀ (v758 : IVec S16 32) (k0_hw146 : k0_chk146 v758), ∀ a x, ((![v758] : Fin 1 → IVec S16 32) a x).toNat < S25600.size a := fun v758 k0_hw146 => k0_hw146

def k0_chk147 (v388 : IVec S16 32) (v760 : IVec S16 32) : Prop :=
  (∀ a x, ((![v388, v760] : Fin 2 → IVec S16 32) a x).toNat < S200x128.size a)
instance k0_chk147.dec : ∀ (v388 : IVec S16 32) (v760 : IVec S16 32), Decidable (k0_chk147 v388 v760) := fun v388 v760 => decidable_of_iff' _ (Iff.of_eq (k0_chk147.eq_1 v388 v760))
theorem k0_idx147_inb : ∀ (v388 : IVec S16 32) (v760 : IVec S16 32) (k0_hw147 : k0_chk147 v388 v760), ∀ a x, ((![v388, v760] : Fin 2 → IVec S16 32) a x).toNat < S200x128.size a := fun v388 v760 k0_hw147 => k0_hw147

def k0_chk148 (v763 : IVec S16 32) : Prop :=
  (∀ a x, ((![v763] : Fin 1 → IVec S16 32) a x).toNat < S25600.size a)
instance k0_chk148.dec : ∀ (v763 : IVec S16 32), Decidable (k0_chk148 v763) := fun v763 => decidable_of_iff' _ (Iff.of_eq (k0_chk148.eq_1 v763))
theorem k0_idx148_inb : ∀ (v763 : IVec S16 32) (k0_hw148 : k0_chk148 v763), ∀ a x, ((![v763] : Fin 1 → IVec S16 32) a x).toNat < S25600.size a := fun v763 k0_hw148 => k0_hw148

def k0_chk149 (v388 : IVec S16 32) (v765 : IVec S16 32) : Prop :=
  (∀ a x, ((![v388, v765] : Fin 2 → IVec S16 32) a x).toNat < S200x128.size a)
instance k0_chk149.dec : ∀ (v388 : IVec S16 32) (v765 : IVec S16 32), Decidable (k0_chk149 v388 v765) := fun v388 v765 => decidable_of_iff' _ (Iff.of_eq (k0_chk149.eq_1 v388 v765))
theorem k0_idx149_inb : ∀ (v388 : IVec S16 32) (v765 : IVec S16 32) (k0_hw149 : k0_chk149 v388 v765), ∀ a x, ((![v388, v765] : Fin 2 → IVec S16 32) a x).toNat < S200x128.size a := fun v388 v765 k0_hw149 => k0_hw149

def k0_chk150 (v768 : IVec S16 32) : Prop :=
  (∀ a x, ((![v768] : Fin 1 → IVec S16 32) a x).toNat < S25600.size a)
instance k0_chk150.dec : ∀ (v768 : IVec S16 32), Decidable (k0_chk150 v768) := fun v768 => decidable_of_iff' _ (Iff.of_eq (k0_chk150.eq_1 v768))
theorem k0_idx150_inb : ∀ (v768 : IVec S16 32) (k0_hw150 : k0_chk150 v768), ∀ a x, ((![v768] : Fin 1 → IVec S16 32) a x).toNat < S25600.size a := fun v768 k0_hw150 => k0_hw150

def k0_chk151 (v388 : IVec S16 32) (v770 : IVec S16 32) : Prop :=
  (∀ a x, ((![v388, v770] : Fin 2 → IVec S16 32) a x).toNat < S200x128.size a)
instance k0_chk151.dec : ∀ (v388 : IVec S16 32) (v770 : IVec S16 32), Decidable (k0_chk151 v388 v770) := fun v388 v770 => decidable_of_iff' _ (Iff.of_eq (k0_chk151.eq_1 v388 v770))
theorem k0_idx151_inb : ∀ (v388 : IVec S16 32) (v770 : IVec S16 32) (k0_hw151 : k0_chk151 v388 v770), ∀ a x, ((![v388, v770] : Fin 2 → IVec S16 32) a x).toNat < S200x128.size a := fun v388 v770 k0_hw151 => k0_hw151

def k0_chk152 (v773 : IVec S16 32) : Prop :=
  (∀ a x, ((![v773] : Fin 1 → IVec S16 32) a x).toNat < S25600.size a)
instance k0_chk152.dec : ∀ (v773 : IVec S16 32), Decidable (k0_chk152 v773) := fun v773 => decidable_of_iff' _ (Iff.of_eq (k0_chk152.eq_1 v773))
theorem k0_idx152_inb : ∀ (v773 : IVec S16 32) (k0_hw152 : k0_chk152 v773), ∀ a x, ((![v773] : Fin 1 → IVec S16 32) a x).toNat < S25600.size a := fun v773 k0_hw152 => k0_hw152

def k0_chk153 (v388 : IVec S16 32) (v775 : IVec S16 32) : Prop :=
  (∀ a x, ((![v388, v775] : Fin 2 → IVec S16 32) a x).toNat < S200x128.size a)
instance k0_chk153.dec : ∀ (v388 : IVec S16 32) (v775 : IVec S16 32), Decidable (k0_chk153 v388 v775) := fun v388 v775 => decidable_of_iff' _ (Iff.of_eq (k0_chk153.eq_1 v388 v775))
theorem k0_idx153_inb : ∀ (v388 : IVec S16 32) (v775 : IVec S16 32) (k0_hw153 : k0_chk153 v388 v775), ∀ a x, ((![v388, v775] : Fin 2 → IVec S16 32) a x).toNat < S200x128.size a := fun v388 v775 k0_hw153 => k0_hw153

def k0_chk154 (v778 : IVec S16 32) : Prop :=
  (∀ a x, ((![v778] : Fin 1 → IVec S16 32) a x).toNat < S25600.size a)
instance k0_chk154.dec : ∀ (v778 : IVec S16 32), Decidable (k0_chk154 v778) := fun v778 => decidable_of_iff' _ (Iff.of_eq (k0_chk154.eq_1 v778))
theorem k0_idx154_inb : ∀ (v778 : IVec S16 32) (k0_hw154 : k0_chk154 v778), ∀ a x, ((![v778] : Fin 1 → IVec S16 32) a x).toNat < S25600.size a := fun v778 k0_hw154 => k0_hw154

def k0_chk155 (v388 : IVec S16 32) (v780 : IVec S16 32) : Prop :=
  (∀ a x, ((![v388, v780] : Fin 2 → IVec S16 32) a x).toNat < S200x128.size a)
instance k0_chk155.dec : ∀ (v388 : IVec S16 32) (v780 : IVec S16 32), Decidable (k0_chk155 v388 v780) := fun v388 v780 => decidable_of_iff' _ (Iff.of_eq (k0_chk155.eq_1 v388 v780))
theorem k0_idx155_inb : ∀ (v388 : IVec S16 32) (v780 : IVec S16 32) (k0_hw155 : k0_chk155 v388 v780), ∀ a x, ((![v388, v780] : Fin 2 → IVec S16 32) a x).toNat < S200x128.size a := fun v388 v780 k0_hw155 => k0_hw155

def k0_chk156 (v783 : IVec S16 32) : Prop :=
  (∀ a x, ((![v783] : Fin 1 → IVec S16 32) a x).toNat < S25600.size a)
instance k0_chk156.dec : ∀ (v783 : IVec S16 32), Decidable (k0_chk156 v783) := fun v783 => decidable_of_iff' _ (Iff.of_eq (k0_chk156.eq_1 v783))
theorem k0_idx156_inb : ∀ (v783 : IVec S16 32) (k0_hw156 : k0_chk156 v783), ∀ a x, ((![v783] : Fin 1 → IVec S16 32) a x).toNat < S25600.size a := fun v783 k0_hw156 => k0_hw156

def k0_chk157 (v388 : IVec S16 32) (v785 : IVec S16 32) : Prop :=
  (∀ a x, ((![v388, v785] : Fin 2 → IVec S16 32) a x).toNat < S200x128.size a)
instance k0_chk157.dec : ∀ (v388 : IVec S16 32) (v785 : IVec S16 32), Decidable (k0_chk157 v388 v785) := fun v388 v785 => decidable_of_iff' _ (Iff.of_eq (k0_chk157.eq_1 v388 v785))
theorem k0_idx157_inb : ∀ (v388 : IVec S16 32) (v785 : IVec S16 32) (k0_hw157 : k0_chk157 v388 v785), ∀ a x, ((![v388, v785] : Fin 2 → IVec S16 32) a x).toNat < S200x128.size a := fun v388 v785 k0_hw157 => k0_hw157

def k0_chk158 (v788 : IVec S16 32) : Prop :=
  (∀ a x, ((![v788] : Fin 1 → IVec S16 32) a x).toNat < S25600.size a)
instance k0_chk158.dec : ∀ (v788 : IVec S16 32), Decidable (k0_chk158 v788) := fun v788 => decidable_of_iff' _ (Iff.of_eq (k0_chk158.eq_1 v788))
theorem k0_idx158_inb : ∀ (v788 : IVec S16 32) (k0_hw158 : k0_chk158 v788), ∀ a x, ((![v788] : Fin 1 → IVec S16 32) a x).toNat < S25600.size a := fun v788 k0_hw158 => k0_hw158

def k0_chk159 (v388 : IVec S16 32) (v790 : IVec S16 32) : Prop :=
  (∀ a x, ((![v388, v790] : Fin 2 → IVec S16 32) a x).toNat < S200x128.size a)
instance k0_chk159.dec : ∀ (v388 : IVec S16 32) (v790 : IVec S16 32), Decidable (k0_chk159 v388 v790) := fun v388 v790 => decidable_of_iff' _ (Iff.of_eq (k0_chk159.eq_1 v388 v790))
theorem k0_idx159_inb : ∀ (v388 : IVec S16 32) (v790 : IVec S16 32) (k0_hw159 : k0_chk159 v388 v790), ∀ a x, ((![v388, v790] : Fin 2 → IVec S16 32) a x).toNat < S200x128.size a := fun v388 v790 k0_hw159 => k0_hw159

def k0_chk160 (v793 : IVec S16 32) : Prop :=
  (∀ a x, ((![v793] : Fin 1 → IVec S16 32) a x).toNat < S25600.size a)
instance k0_chk160.dec : ∀ (v793 : IVec S16 32), Decidable (k0_chk160 v793) := fun v793 => decidable_of_iff' _ (Iff.of_eq (k0_chk160.eq_1 v793))
theorem k0_idx160_inb : ∀ (v793 : IVec S16 32) (k0_hw160 : k0_chk160 v793), ∀ a x, ((![v793] : Fin 1 → IVec S16 32) a x).toNat < S25600.size a := fun v793 k0_hw160 => k0_hw160

def k0_chk161 (v388 : IVec S16 32) (v796 : IVec S16 32) : Prop :=
  (∀ a x, ((![v388, v796] : Fin 2 → IVec S16 32) a x).toNat < S200x128.size a)
instance k0_chk161.dec : ∀ (v388 : IVec S16 32) (v796 : IVec S16 32), Decidable (k0_chk161 v388 v796) := fun v388 v796 => decidable_of_iff' _ (Iff.of_eq (k0_chk161.eq_1 v388 v796))
theorem k0_idx161_inb : ∀ (v388 : IVec S16 32) (v796 : IVec S16 32) (k0_hw161 : k0_chk161 v388 v796), ∀ a x, ((![v388, v796] : Fin 2 → IVec S16 32) a x).toNat < S200x128.size a := fun v388 v796 k0_hw161 => k0_hw161

def k0_chk162 (v799 : IVec S16 32) : Prop :=
  (∀ a x, ((![v799] : Fin 1 → IVec S16 32) a x).toNat < S25600.size a)
instance k0_chk162.dec : ∀ (v799 : IVec S16 32), Decidable (k0_chk162 v799) := fun v799 => decidable_of_iff' _ (Iff.of_eq (k0_chk162.eq_1 v799))
theorem k0_idx162_inb : ∀ (v799 : IVec S16 32) (k0_hw162 : k0_chk162 v799), ∀ a x, ((![v799] : Fin 1 → IVec S16 32) a x).toNat < S25600.size a := fun v799 k0_hw162 => k0_hw162

def k0_chk163 (v388 : IVec S16 32) (v801 : IVec S16 32) : Prop :=
  (∀ a x, ((![v388, v801] : Fin 2 → IVec S16 32) a x).toNat < S200x128.size a)
instance k0_chk163.dec : ∀ (v388 : IVec S16 32) (v801 : IVec S16 32), Decidable (k0_chk163 v388 v801) := fun v388 v801 => decidable_of_iff' _ (Iff.of_eq (k0_chk163.eq_1 v388 v801))
theorem k0_idx163_inb : ∀ (v388 : IVec S16 32) (v801 : IVec S16 32) (k0_hw163 : k0_chk163 v388 v801), ∀ a x, ((![v388, v801] : Fin 2 → IVec S16 32) a x).toNat < S200x128.size a := fun v388 v801 k0_hw163 => k0_hw163

def k0_chk164 (v804 : IVec S16 32) : Prop :=
  (∀ a x, ((![v804] : Fin 1 → IVec S16 32) a x).toNat < S25600.size a)
instance k0_chk164.dec : ∀ (v804 : IVec S16 32), Decidable (k0_chk164 v804) := fun v804 => decidable_of_iff' _ (Iff.of_eq (k0_chk164.eq_1 v804))
theorem k0_idx164_inb : ∀ (v804 : IVec S16 32) (k0_hw164 : k0_chk164 v804), ∀ a x, ((![v804] : Fin 1 → IVec S16 32) a x).toNat < S25600.size a := fun v804 k0_hw164 => k0_hw164

def k0_chk165 (v388 : IVec S16 32) (v806 : IVec S16 32) : Prop :=
  (∀ a x, ((![v388, v806] : Fin 2 → IVec S16 32) a x).toNat < S200x128.size a)
instance k0_chk165.dec : ∀ (v388 : IVec S16 32) (v806 : IVec S16 32), Decidable (k0_chk165 v388 v806) := fun v388 v806 => decidable_of_iff' _ (Iff.of_eq (k0_chk165.eq_1 v388 v806))
theorem k0_idx165_inb : ∀ (v388 : IVec S16 32) (v806 : IVec S16 32) (k0_hw165 : k0_chk165 v388 v806), ∀ a x, ((![v388, v806] : Fin 2 → IVec S16 32) a x).toNat < S200x128.size a := fun v388 v806 k0_hw165 => k0_hw165

def k0_chk166 (v809 : IVec S16 32) : Prop :=
  (∀ a x, ((![v809] : Fin 1 → IVec S16 32) a x).toNat < S25600.size a)
instance k0_chk166.dec : ∀ (v809 : IVec S16 32), Decidable (k0_chk166 v809) := fun v809 => decidable_of_iff' _ (Iff.of_eq (k0_chk166.eq_1 v809))
theorem k0_idx166_inb : ∀ (v809 : IVec S16 32) (k0_hw166 : k0_chk166 v809), ∀ a x, ((![v809] : Fin 1 → IVec S16 32) a x).toNat < S25600.size a := fun v809 k0_hw166 => k0_hw166

def k0_chk167 (v388 : IVec S16 32) (v811 : IVec S16 32) : Prop :=
  (∀ a x, ((![v388, v811] : Fin 2 → IVec S16 32) a x).toNat < S200x128.size a)
instance k0_chk167.dec : ∀ (v388 : IVec S16 32) (v811 : IVec S16 32), Decidable (k0_chk167 v388 v811) := fun v388 v811 => decidable_of_iff' _ (Iff.of_eq (k0_chk167.eq_1 v388 v811))
theorem k0_idx167_inb : ∀ (v388 : IVec S16 32) (v811 : IVec S16 32) (k0_hw167 : k0_chk167 v388 v811), ∀ a x, ((![v388, v811] : Fin 2 → IVec S16 32) a x).toNat < S200x128.size a := fun v388 v811 k0_hw167 => k0_hw167

def k0_chk168 (v814 : IVec S16 32) : Prop :=
  (∀ a x, ((![v814] : Fin 1 → IVec S16 32) a x).toNat < S25600.size a)
instance k0_chk168.dec : ∀ (v814 : IVec S16 32), Decidable (k0_chk168 v814) := fun v814 => decidable_of_iff' _ (Iff.of_eq (k0_chk168.eq_1 v814))
theorem k0_idx168_inb : ∀ (v814 : IVec S16 32) (k0_hw168 : k0_chk168 v814), ∀ a x, ((![v814] : Fin 1 → IVec S16 32) a x).toNat < S25600.size a := fun v814 k0_hw168 => k0_hw168

def k0_chk169 (v388 : IVec S16 32) (v816 : IVec S16 32) : Prop :=
  (∀ a x, ((![v388, v816] : Fin 2 → IVec S16 32) a x).toNat < S200x128.size a)
instance k0_chk169.dec : ∀ (v388 : IVec S16 32) (v816 : IVec S16 32), Decidable (k0_chk169 v388 v816) := fun v388 v816 => decidable_of_iff' _ (Iff.of_eq (k0_chk169.eq_1 v388 v816))
theorem k0_idx169_inb : ∀ (v388 : IVec S16 32) (v816 : IVec S16 32) (k0_hw169 : k0_chk169 v388 v816), ∀ a x, ((![v388, v816] : Fin 2 → IVec S16 32) a x).toNat < S200x128.size a := fun v388 v816 k0_hw169 => k0_hw169

def k0_chk170 (v819 : IVec S16 32) : Prop :=
  (∀ a x, ((![v819] : Fin 1 → IVec S16 32) a x).toNat < S25600.size a)
instance k0_chk170.dec : ∀ (v819 : IVec S16 32), Decidable (k0_chk170 v819) := fun v819 => decidable_of_iff' _ (Iff.of_eq (k0_chk170.eq_1 v819))
theorem k0_idx170_inb : ∀ (v819 : IVec S16 32) (k0_hw170 : k0_chk170 v819), ∀ a x, ((![v819] : Fin 1 → IVec S16 32) a x).toNat < S25600.size a := fun v819 k0_hw170 => k0_hw170

def k0_chk171 (v388 : IVec S16 32) (v821 : IVec S16 32) : Prop :=
  (∀ a x, ((![v388, v821] : Fin 2 → IVec S16 32) a x).toNat < S200x128.size a)
instance k0_chk171.dec : ∀ (v388 : IVec S16 32) (v821 : IVec S16 32), Decidable (k0_chk171 v388 v821) := fun v388 v821 => decidable_of_iff' _ (Iff.of_eq (k0_chk171.eq_1 v388 v821))
theorem k0_idx171_inb : ∀ (v388 : IVec S16 32) (v821 : IVec S16 32) (k0_hw171 : k0_chk171 v388 v821), ∀ a x, ((![v388, v821] : Fin 2 → IVec S16 32) a x).toNat < S200x128.size a := fun v388 v821 k0_hw171 => k0_hw171

def k0_chk172 (v824 : IVec S16 32) : Prop :=
  (∀ a x, ((![v824] : Fin 1 → IVec S16 32) a x).toNat < S25600.size a)
instance k0_chk172.dec : ∀ (v824 : IVec S16 32), Decidable (k0_chk172 v824) := fun v824 => decidable_of_iff' _ (Iff.of_eq (k0_chk172.eq_1 v824))
theorem k0_idx172_inb : ∀ (v824 : IVec S16 32) (k0_hw172 : k0_chk172 v824), ∀ a x, ((![v824] : Fin 1 → IVec S16 32) a x).toNat < S25600.size a := fun v824 k0_hw172 => k0_hw172

def k0_chk173 (v388 : IVec S16 32) (v826 : IVec S16 32) : Prop :=
  (∀ a x, ((![v388, v826] : Fin 2 → IVec S16 32) a x).toNat < S200x128.size a)
instance k0_chk173.dec : ∀ (v388 : IVec S16 32) (v826 : IVec S16 32), Decidable (k0_chk173 v388 v826) := fun v388 v826 => decidable_of_iff' _ (Iff.of_eq (k0_chk173.eq_1 v388 v826))
theorem k0_idx173_inb : ∀ (v388 : IVec S16 32) (v826 : IVec S16 32) (k0_hw173 : k0_chk173 v388 v826), ∀ a x, ((![v388, v826] : Fin 2 → IVec S16 32) a x).toNat < S200x128.size a := fun v388 v826 k0_hw173 => k0_hw173

def k0_chk174 (v829 : IVec S16 32) : Prop :=
  (∀ a x, ((![v829] : Fin 1 → IVec S16 32) a x).toNat < S25600.size a)
instance k0_chk174.dec : ∀ (v829 : IVec S16 32), Decidable (k0_chk174 v829) := fun v829 => decidable_of_iff' _ (Iff.of_eq (k0_chk174.eq_1 v829))
theorem k0_idx174_inb : ∀ (v829 : IVec S16 32) (k0_hw174 : k0_chk174 v829), ∀ a x, ((![v829] : Fin 1 → IVec S16 32) a x).toNat < S25600.size a := fun v829 k0_hw174 => k0_hw174

def k0_chk175 (v388 : IVec S16 32) (v831 : IVec S16 32) : Prop :=
  (∀ a x, ((![v388, v831] : Fin 2 → IVec S16 32) a x).toNat < S200x128.size a)
instance k0_chk175.dec : ∀ (v388 : IVec S16 32) (v831 : IVec S16 32), Decidable (k0_chk175 v388 v831) := fun v388 v831 => decidable_of_iff' _ (Iff.of_eq (k0_chk175.eq_1 v388 v831))
theorem k0_idx175_inb : ∀ (v388 : IVec S16 32) (v831 : IVec S16 32) (k0_hw175 : k0_chk175 v388 v831), ∀ a x, ((![v388, v831] : Fin 2 → IVec S16 32) a x).toNat < S200x128.size a := fun v388 v831 k0_hw175 => k0_hw175

def k0_chk176 (v834 : IVec S16 32) : Prop :=
  (∀ a x, ((![v834] : Fin 1 → IVec S16 32) a x).toNat < S25600.size a)
instance k0_chk176.dec : ∀ (v834 : IVec S16 32), Decidable (k0_chk176 v834) := fun v834 => decidable_of_iff' _ (Iff.of_eq (k0_chk176.eq_1 v834))
theorem k0_idx176_inb : ∀ (v834 : IVec S16 32) (k0_hw176 : k0_chk176 v834), ∀ a x, ((![v834] : Fin 1 → IVec S16 32) a x).toNat < S25600.size a := fun v834 k0_hw176 => k0_hw176

def k0_chk177 (v388 : IVec S16 32) (v836 : IVec S16 32) : Prop :=
  (∀ a x, ((![v388, v836] : Fin 2 → IVec S16 32) a x).toNat < S200x128.size a)
instance k0_chk177.dec : ∀ (v388 : IVec S16 32) (v836 : IVec S16 32), Decidable (k0_chk177 v388 v836) := fun v388 v836 => decidable_of_iff' _ (Iff.of_eq (k0_chk177.eq_1 v388 v836))
theorem k0_idx177_inb : ∀ (v388 : IVec S16 32) (v836 : IVec S16 32) (k0_hw177 : k0_chk177 v388 v836), ∀ a x, ((![v388, v836] : Fin 2 → IVec S16 32) a x).toNat < S200x128.size a := fun v388 v836 k0_hw177 => k0_hw177

def k0_chk178 (v839 : IVec S16 32) : Prop :=
  (∀ a x, ((![v839] : Fin 1 → IVec S16 32) a x).toNat < S25600.size a)
instance k0_chk178.dec : ∀ (v839 : IVec S16 32), Decidable (k0_chk178 v839) := fun v839 => decidable_of_iff' _ (Iff.of_eq (k0_chk178.eq_1 v839))
theorem k0_idx178_inb : ∀ (v839 : IVec S16 32) (k0_hw178 : k0_chk178 v839), ∀ a x, ((![v839] : Fin 1 → IVec S16 32) a x).toNat < S25600.size a := fun v839 k0_hw178 => k0_hw178

def k0_chk179 (v388 : IVec S16 32) (v841 : IVec S16 32) : Prop :=
  (∀ a x, ((![v388, v841] : Fin 2 → IVec S16 32) a x).toNat < S200x128.size a)
instance k0_chk179.dec : ∀ (v388 : IVec S16 32) (v841 : IVec S16 32), Decidable (k0_chk179 v388 v841) := fun v388 v841 => decidable_of_iff' _ (Iff.of_eq (k0_chk179.eq_1 v388 v841))
theorem k0_idx179_inb : ∀ (v388 : IVec S16 32) (v841 : IVec S16 32) (k0_hw179 : k0_chk179 v388 v841), ∀ a x, ((![v388, v841] : Fin 2 → IVec S16 32) a x).toNat < S200x128.size a := fun v388 v841 k0_hw179 => k0_hw179

def k0_chk180 (v844 : IVec S16 32) : Prop :=
  (∀ a x, ((![v844] : Fin 1 → IVec S16 32) a x).toNat < S25600.size a)
instance k0_chk180.dec : ∀ (v844 : IVec S16 32), Decidable (k0_chk180 v844) := fun v844 => decidable_of_iff' _ (Iff.of_eq (k0_chk180.eq_1 v844))
theorem k0_idx180_inb : ∀ (v844 : IVec S16 32) (k0_hw180 : k0_chk180 v844), ∀ a x, ((![v844] : Fin 1 → IVec S16 32) a x).toNat < S25600.size a := fun v844 k0_hw180 => k0_hw180

def k0_chk181 (v388 : IVec S16 32) (v846 : IVec S16 32) : Prop :=
  (∀ a x, ((![v388, v846] : Fin 2 → IVec S16 32) a x).toNat < S200x128.size a)
instance k0_chk181.dec : ∀ (v388 : IVec S16 32) (v846 : IVec S16 32), Decidable (k0_chk181 v388 v846) := fun v388 v846 => decidable_of_iff' _ (Iff.of_eq (k0_chk181.eq_1 v388 v846))
theorem k0_idx181_inb : ∀ (v388 : IVec S16 32) (v846 : IVec S16 32) (k0_hw181 : k0_chk181 v388 v846), ∀ a x, ((![v388, v846] : Fin 2 → IVec S16 32) a x).toNat < S200x128.size a := fun v388 v846 k0_hw181 => k0_hw181

def k0_chk182 (v849 : IVec S16 32) : Prop :=
  (∀ a x, ((![v849] : Fin 1 → IVec S16 32) a x).toNat < S25600.size a)
instance k0_chk182.dec : ∀ (v849 : IVec S16 32), Decidable (k0_chk182 v849) := fun v849 => decidable_of_iff' _ (Iff.of_eq (k0_chk182.eq_1 v849))
theorem k0_idx182_inb : ∀ (v849 : IVec S16 32) (k0_hw182 : k0_chk182 v849), ∀ a x, ((![v849] : Fin 1 → IVec S16 32) a x).toNat < S25600.size a := fun v849 k0_hw182 => k0_hw182

def k0_chk183 (v388 : IVec S16 32) (v851 : IVec S16 32) : Prop :=
  (∀ a x, ((![v388, v851] : Fin 2 → IVec S16 32) a x).toNat < S200x128.size a)
instance k0_chk183.dec : ∀ (v388 : IVec S16 32) (v851 : IVec S16 32), Decidable (k0_chk183 v388 v851) := fun v388 v851 => decidable_of_iff' _ (Iff.of_eq (k0_chk183.eq_1 v388 v851))
theorem k0_idx183_inb : ∀ (v388 : IVec S16 32) (v851 : IVec S16 32) (k0_hw183 : k0_chk183 v388 v851), ∀ a x, ((![v388, v851] : Fin 2 → IVec S16 32) a x).toNat < S200x128.size a := fun v388 v851 k0_hw183 => k0_hw183

def k0_chk184 (v854 : IVec S16 32) : Prop :=
  (∀ a x, ((![v854] : Fin 1 → IVec S16 32) a x).toNat < S25600.size a)
instance k0_chk184.dec : ∀ (v854 : IVec S16 32), Decidable (k0_chk184 v854) := fun v854 => decidable_of_iff' _ (Iff.of_eq (k0_chk184.eq_1 v854))
theorem k0_idx184_inb : ∀ (v854 : IVec S16 32) (k0_hw184 : k0_chk184 v854), ∀ a x, ((![v854] : Fin 1 → IVec S16 32) a x).toNat < S25600.size a := fun v854 k0_hw184 => k0_hw184

def k0_chk185 (v388 : IVec S16 32) (v856 : IVec S16 32) : Prop :=
  (∀ a x, ((![v388, v856] : Fin 2 → IVec S16 32) a x).toNat < S200x128.size a)
instance k0_chk185.dec : ∀ (v388 : IVec S16 32) (v856 : IVec S16 32), Decidable (k0_chk185 v388 v856) := fun v388 v856 => decidable_of_iff' _ (Iff.of_eq (k0_chk185.eq_1 v388 v856))
theorem k0_idx185_inb : ∀ (v388 : IVec S16 32) (v856 : IVec S16 32) (k0_hw185 : k0_chk185 v388 v856), ∀ a x, ((![v388, v856] : Fin 2 → IVec S16 32) a x).toNat < S200x128.size a := fun v388 v856 k0_hw185 => k0_hw185

def k0_chk186 (v859 : IVec S16 32) : Prop :=
  (∀ a x, ((![v859] : Fin 1 → IVec S16 32) a x).toNat < S25600.size a)
instance k0_chk186.dec : ∀ (v859 : IVec S16 32), Decidable (k0_chk186 v859) := fun v859 => decidable_of_iff' _ (Iff.of_eq (k0_chk186.eq_1 v859))
theorem k0_idx186_inb : ∀ (v859 : IVec S16 32) (k0_hw186 : k0_chk186 v859), ∀ a x, ((![v859] : Fin 1 → IVec S16 32) a x).toNat < S25600.size a := fun v859 k0_hw186 => k0_hw186

def k0_chk187 (v388 : IVec S16 32) (v861 : IVec S16 32) : Prop :=
  (∀ a x, ((![v388, v861] : Fin 2 → IVec S16 32) a x).toNat < S200x128.size a)
instance k0_chk187.dec : ∀ (v388 : IVec S16 32) (v861 : IVec S16 32), Decidable (k0_chk187 v388 v861) := fun v388 v861 => decidable_of_iff' _ (Iff.of_eq (k0_chk187.eq_1 v388 v861))
theorem k0_idx187_inb : ∀ (v388 : IVec S16 32) (v861 : IVec S16 32) (k0_hw187 : k0_chk187 v388 v861), ∀ a x, ((![v388, v861] : Fin 2 → IVec S16 32) a x).toNat < S200x128.size a := fun v388 v861 k0_hw187 => k0_hw187

def k0_chk188 (v864 : IVec S16 32) : Prop :=
  (∀ a x, ((![v864] : Fin 1 → IVec S16 32) a x).toNat < S25600.size a)
instance k0_chk188.dec : ∀ (v864 : IVec S16 32), Decidable (k0_chk188 v864) := fun v864 => decidable_of_iff' _ (Iff.of_eq (k0_chk188.eq_1 v864))
theorem k0_idx188_inb : ∀ (v864 : IVec S16 32) (k0_hw188 : k0_chk188 v864), ∀ a x, ((![v864] : Fin 1 → IVec S16 32) a x).toNat < S25600.size a := fun v864 k0_hw188 => k0_hw188

def k0_chk189 (v388 : IVec S16 32) (v866 : IVec S16 32) : Prop :=
  (∀ a x, ((![v388, v866] : Fin 2 → IVec S16 32) a x).toNat < S200x128.size a)
instance k0_chk189.dec : ∀ (v388 : IVec S16 32) (v866 : IVec S16 32), Decidable (k0_chk189 v388 v866) := fun v388 v866 => decidable_of_iff' _ (Iff.of_eq (k0_chk189.eq_1 v388 v866))
theorem k0_idx189_inb : ∀ (v388 : IVec S16 32) (v866 : IVec S16 32) (k0_hw189 : k0_chk189 v388 v866), ∀ a x, ((![v388, v866] : Fin 2 → IVec S16 32) a x).toNat < S200x128.size a := fun v388 v866 k0_hw189 => k0_hw189

def k0_chk190 (v869 : IVec S16 32) : Prop :=
  (∀ a x, ((![v869] : Fin 1 → IVec S16 32) a x).toNat < S25600.size a)
instance k0_chk190.dec : ∀ (v869 : IVec S16 32), Decidable (k0_chk190 v869) := fun v869 => decidable_of_iff' _ (Iff.of_eq (k0_chk190.eq_1 v869))
theorem k0_idx190_inb : ∀ (v869 : IVec S16 32) (k0_hw190 : k0_chk190 v869), ∀ a x, ((![v869] : Fin 1 → IVec S16 32) a x).toNat < S25600.size a := fun v869 k0_hw190 => k0_hw190

def k0_chk191 (v388 : IVec S16 32) (v871 : IVec S16 32) : Prop :=
  (∀ a x, ((![v388, v871] : Fin 2 → IVec S16 32) a x).toNat < S200x128.size a)
instance k0_chk191.dec : ∀ (v388 : IVec S16 32) (v871 : IVec S16 32), Decidable (k0_chk191 v388 v871) := fun v388 v871 => decidable_of_iff' _ (Iff.of_eq (k0_chk191.eq_1 v388 v871))
theorem k0_idx191_inb : ∀ (v388 : IVec S16 32) (v871 : IVec S16 32) (k0_hw191 : k0_chk191 v388 v871), ∀ a x, ((![v388, v871] : Fin 2 → IVec S16 32) a x).toNat < S200x128.size a := fun v388 v871 k0_hw191 => k0_hw191

def k0_chk192 (v874 : IVec S16 32) : Prop :=
  (∀ a x, ((![v874] : Fin 1 → IVec S16 32) a x).toNat < S25600.size a)
instance k0_chk192.dec : ∀ (v874 : IVec S16 32), Decidable (k0_chk192 v874) := fun v874 => decidable_of_iff' _ (Iff.of_eq (k0_chk192.eq_1 v874))
theorem k0_idx192_inb : ∀ (v874 : IVec S16 32) (k0_hw192 : k0_chk192 v874), ∀ a x, ((![v874] : Fin 1 → IVec S16 32) a x).toNat < S25600.size a := fun v874 k0_hw192 => k0_hw192

def k0_chk193 (v388 : IVec S16 32) (v877 : IVec S16 32) : Prop :=
  (∀ a x, ((![v388, v877] : Fin 2 → IVec S16 32) a x).toNat < S200x128.size a)
instance k0_chk193.dec : ∀ (v388 : IVec S16 32) (v877 : IVec S16 32), Decidable (k0_chk193 v388 v877) := fun v388 v877 => decidable_of_iff' _ (Iff.of_eq (k0_chk193.eq_1 v388 v877))
theorem k0_idx193_inb : ∀ (v388 : IVec S16 32) (v877 : IVec S16 32) (k0_hw193 : k0_chk193 v388 v877), ∀ a x, ((![v388, v877] : Fin 2 → IVec S16 32) a x).toNat < S200x128.size a := fun v388 v877 k0_hw193 => k0_hw193

def k0_chk194 (v880 : IVec S16 32) : Prop :=
  (∀ a x, ((![v880] : Fin 1 → IVec S16 32) a x).toNat < S25600.size a)
instance k0_chk194.dec : ∀ (v880 : IVec S16 32), Decidable (k0_chk194 v880) := fun v880 => decidable_of_iff' _ (Iff.of_eq (k0_chk194.eq_1 v880))
theorem k0_idx194_inb : ∀ (v880 : IVec S16 32) (k0_hw194 : k0_chk194 v880), ∀ a x, ((![v880] : Fin 1 → IVec S16 32) a x).toNat < S25600.size a := fun v880 k0_hw194 => k0_hw194

def k0_chk195 (v388 : IVec S16 32) (v882 : IVec S16 32) : Prop :=
  (∀ a x, ((![v388, v882] : Fin 2 → IVec S16 32) a x).toNat < S200x128.size a)
instance k0_chk195.dec : ∀ (v388 : IVec S16 32) (v882 : IVec S16 32), Decidable (k0_chk195 v388 v882) := fun v388 v882 => decidable_of_iff' _ (Iff.of_eq (k0_chk195.eq_1 v388 v882))
theorem k0_idx195_inb : ∀ (v388 : IVec S16 32) (v882 : IVec S16 32) (k0_hw195 : k0_chk195 v388 v882), ∀ a x, ((![v388, v882] : Fin 2 → IVec S16 32) a x).toNat < S200x128.size a := fun v388 v882 k0_hw195 => k0_hw195

def k0_chk196 (v885 : IVec S16 32) : Prop :=
  (∀ a x, ((![v885] : Fin 1 → IVec S16 32) a x).toNat < S25600.size a)
instance k0_chk196.dec : ∀ (v885 : IVec S16 32), Decidable (k0_chk196 v885) := fun v885 => decidable_of_iff' _ (Iff.of_eq (k0_chk196.eq_1 v885))
theorem k0_idx196_inb : ∀ (v885 : IVec S16 32) (k0_hw196 : k0_chk196 v885), ∀ a x, ((![v885] : Fin 1 → IVec S16 32) a x).toNat < S25600.size a := fun v885 k0_hw196 => k0_hw196

def k0_chk197 (v388 : IVec S16 32) (v887 : IVec S16 32) : Prop :=
  (∀ a x, ((![v388, v887] : Fin 2 → IVec S16 32) a x).toNat < S200x128.size a)
instance k0_chk197.dec : ∀ (v388 : IVec S16 32) (v887 : IVec S16 32), Decidable (k0_chk197 v388 v887) := fun v388 v887 => decidable_of_iff' _ (Iff.of_eq (k0_chk197.eq_1 v388 v887))
theorem k0_idx197_inb : ∀ (v388 : IVec S16 32) (v887 : IVec S16 32) (k0_hw197 : k0_chk197 v388 v887), ∀ a x, ((![v388, v887] : Fin 2 → IVec S16 32) a x).toNat < S200x128.size a := fun v388 v887 k0_hw197 => k0_hw197

def k0_chk198 (v890 : IVec S16 32) : Prop :=
  (∀ a x, ((![v890] : Fin 1 → IVec S16 32) a x).toNat < S25600.size a)
instance k0_chk198.dec : ∀ (v890 : IVec S16 32), Decidable (k0_chk198 v890) := fun v890 => decidable_of_iff' _ (Iff.of_eq (k0_chk198.eq_1 v890))
theorem k0_idx198_inb : ∀ (v890 : IVec S16 32) (k0_hw198 : k0_chk198 v890), ∀ a x, ((![v890] : Fin 1 → IVec S16 32) a x).toNat < S25600.size a := fun v890 k0_hw198 => k0_hw198

def k0_chk199 (v388 : IVec S16 32) (v892 : IVec S16 32) : Prop :=
  (∀ a x, ((![v388, v892] : Fin 2 → IVec S16 32) a x).toNat < S200x128.size a)
instance k0_chk199.dec : ∀ (v388 : IVec S16 32) (v892 : IVec S16 32), Decidable (k0_chk199 v388 v892) := fun v388 v892 => decidable_of_iff' _ (Iff.of_eq (k0_chk199.eq_1 v388 v892))
theorem k0_idx199_inb : ∀ (v388 : IVec S16 32) (v892 : IVec S16 32) (k0_hw199 : k0_chk199 v388 v892), ∀ a x, ((![v388, v892] : Fin 2 → IVec S16 32) a x).toNat < S200x128.size a := fun v388 v892 k0_hw199 => k0_hw199

def k0_chk200 (v895 : IVec S16 32) : Prop :=
  (∀ a x, ((![v895] : Fin 1 → IVec S16 32) a x).toNat < S25600.size a)
instance k0_chk200.dec : ∀ (v895 : IVec S16 32), Decidable (k0_chk200 v895) := fun v895 => decidable_of_iff' _ (Iff.of_eq (k0_chk200.eq_1 v895))
theorem k0_idx200_inb : ∀ (v895 : IVec S16 32) (k0_hw200 : k0_chk200 v895), ∀ a x, ((![v895] : Fin 1 → IVec S16 32) a x).toNat < S25600.size a := fun v895 k0_hw200 => k0_hw200

def k0_chk201 (v388 : IVec S16 32) (v897 : IVec S16 32) : Prop :=
  (∀ a x, ((![v388, v897] : Fin 2 → IVec S16 32) a x).toNat < S200x128.size a)
instance k0_chk201.dec : ∀ (v388 : IVec S16 32) (v897 : IVec S16 32), Decidable (k0_chk201 v388 v897) := fun v388 v897 => decidable_of_iff' _ (Iff.of_eq (k0_chk201.eq_1 v388 v897))
theorem k0_idx201_inb : ∀ (v388 : IVec S16 32) (v897 : IVec S16 32) (k0_hw201 : k0_chk201 v388 v897), ∀ a x, ((![v388, v897] : Fin 2 → IVec S16 32) a x).toNat < S200x128.size a := fun v388 v897 k0_hw201 => k0_hw201

def k0_chk202 (v900 : IVec S16 32) : Prop :=
  (∀ a x, ((![v900] : Fin 1 → IVec S16 32) a x).toNat < S25600.size a)
instance k0_chk202.dec : ∀ (v900 : IVec S16 32), Decidable (k0_chk202 v900) := fun v900 => decidable_of_iff' _ (Iff.of_eq (k0_chk202.eq_1 v900))
theorem k0_idx202_inb : ∀ (v900 : IVec S16 32) (k0_hw202 : k0_chk202 v900), ∀ a x, ((![v900] : Fin 1 → IVec S16 32) a x).toNat < S25600.size a := fun v900 k0_hw202 => k0_hw202

def k0_chk203 (v388 : IVec S16 32) (v902 : IVec S16 32) : Prop :=
  (∀ a x, ((![v388, v902] : Fin 2 → IVec S16 32) a x).toNat < S200x128.size a)
instance k0_chk203.dec : ∀ (v388 : IVec S16 32) (v902 : IVec S16 32), Decidable (k0_chk203 v388 v902) := fun v388 v902 => decidable_of_iff' _ (Iff.of_eq (k0_chk203.eq_1 v388 v902))
theorem k0_idx203_inb : ∀ (v388 : IVec S16 32) (v902 : IVec S16 32) (k0_hw203 : k0_chk203 v388 v902), ∀ a x, ((![v388, v902] : Fin 2 → IVec S16 32) a x).toNat < S200x128.size a := fun v388 v902 k0_hw203 => k0_hw203

def k0_chk204 (v905 : IVec S16 32) : Prop :=
  (∀ a x, ((![v905] : Fin 1 → IVec S16 32) a x).toNat < S25600.size a)
instance k0_chk204.dec : ∀ (v905 : IVec S16 32), Decidable (k0_chk204 v905) := fun v905 => decidable_of_iff' _ (Iff.of_eq (k0_chk204.eq_1 v905))
theorem k0_idx204_inb : ∀ (v905 : IVec S16 32) (k0_hw204 : k0_chk204 v905), ∀ a x, ((![v905] : Fin 1 → IVec S16 32) a x).toNat < S25600.size a := fun v905 k0_hw204 => k0_hw204

def k0_chk205 (v388 : IVec S16 32) (v907 : IVec S16 32) : Prop :=
  (∀ a x, ((![v388, v907] : Fin 2 → IVec S16 32) a x).toNat < S200x128.size a)
instance k0_chk205.dec : ∀ (v388 : IVec S16 32) (v907 : IVec S16 32), Decidable (k0_chk205 v388 v907) := fun v388 v907 => decidable_of_iff' _ (Iff.of_eq (k0_chk205.eq_1 v388 v907))
theorem k0_idx205_inb : ∀ (v388 : IVec S16 32) (v907 : IVec S16 32) (k0_hw205 : k0_chk205 v388 v907), ∀ a x, ((![v388, v907] : Fin 2 → IVec S16 32) a x).toNat < S200x128.size a := fun v388 v907 k0_hw205 => k0_hw205

def k0_chk206 (v910 : IVec S16 32) : Prop :=
  (∀ a x, ((![v910] : Fin 1 → IVec S16 32) a x).toNat < S25600.size a)
instance k0_chk206.dec : ∀ (v910 : IVec S16 32), Decidable (k0_chk206 v910) := fun v910 => decidable_of_iff' _ (Iff.of_eq (k0_chk206.eq_1 v910))
theorem k0_idx206_inb : ∀ (v910 : IVec S16 32) (k0_hw206 : k0_chk206 v910), ∀ a x, ((![v910] : Fin 1 → IVec S16 32) a x).toNat < S25600.size a := fun v910 k0_hw206 => k0_hw206

def k0_chk207 (v388 : IVec S16 32) (v912 : IVec S16 32) : Prop :=
  (∀ a x, ((![v388, v912] : Fin 2 → IVec S16 32) a x).toNat < S200x128.size a)
instance k0_chk207.dec : ∀ (v388 : IVec S16 32) (v912 : IVec S16 32), Decidable (k0_chk207 v388 v912) := fun v388 v912 => decidable_of_iff' _ (Iff.of_eq (k0_chk207.eq_1 v388 v912))
theorem k0_idx207_inb : ∀ (v388 : IVec S16 32) (v912 : IVec S16 32) (k0_hw207 : k0_chk207 v388 v912), ∀ a x, ((![v388, v912] : Fin 2 → IVec S16 32) a x).toNat < S200x128.size a := fun v388 v912 k0_hw207 => k0_hw207

def k0_chk208 (v915 : IVec S16 32) : Prop :=
  (∀ a x, ((![v915] : Fin 1 → IVec S16 32) a x).toNat < S25600.size a)
instance k0_chk208.dec : ∀ (v915 : IVec S16 32), Decidable (k0_chk208 v915) := fun v915 => decidable_of_iff' _ (Iff.of_eq (k0_chk208.eq_1 v915))
theorem k0_idx208_inb : ∀ (v915 : IVec S16 32) (k0_hw208 : k0_chk208 v915), ∀ a x, ((![v915] : Fin 1 → IVec S16 32) a x).toNat < S25600.size a := fun v915 k0_hw208 => k0_hw208

def k0_chk209 (v388 : IVec S16 32) (v917 : IVec S16 32) : Prop :=
  (∀ a x, ((![v388, v917] : Fin 2 → IVec S16 32) a x).toNat < S200x128.size a)
instance k0_chk209.dec : ∀ (v388 : IVec S16 32) (v917 : IVec S16 32), Decidable (k0_chk209 v388 v917) := fun v388 v917 => decidable_of_iff' _ (Iff.of_eq (k0_chk209.eq_1 v388 v917))
theorem k0_idx209_inb : ∀ (v388 : IVec S16 32) (v917 : IVec S16 32) (k0_hw209 : k0_chk209 v388 v917), ∀ a x, ((![v388, v917] : Fin 2 → IVec S16 32) a x).toNat < S200x128.size a := fun v388 v917 k0_hw209 => k0_hw209

def k0_chk210 (v920 : IVec S16 32) : Prop :=
  (∀ a x, ((![v920] : Fin 1 → IVec S16 32) a x).toNat < S25600.size a)
instance k0_chk210.dec : ∀ (v920 : IVec S16 32), Decidable (k0_chk210 v920) := fun v920 => decidable_of_iff' _ (Iff.of_eq (k0_chk210.eq_1 v920))
theorem k0_idx210_inb : ∀ (v920 : IVec S16 32) (k0_hw210 : k0_chk210 v920), ∀ a x, ((![v920] : Fin 1 → IVec S16 32) a x).toNat < S25600.size a := fun v920 k0_hw210 => k0_hw210

def k0_chk211 (v388 : IVec S16 32) (v922 : IVec S16 32) : Prop :=
  (∀ a x, ((![v388, v922] : Fin 2 → IVec S16 32) a x).toNat < S200x128.size a)
instance k0_chk211.dec : ∀ (v388 : IVec S16 32) (v922 : IVec S16 32), Decidable (k0_chk211 v388 v922) := fun v388 v922 => decidable_of_iff' _ (Iff.of_eq (k0_chk211.eq_1 v388 v922))
theorem k0_idx211_inb : ∀ (v388 : IVec S16 32) (v922 : IVec S16 32) (k0_hw211 : k0_chk211 v388 v922), ∀ a x, ((![v388, v922] : Fin 2 → IVec S16 32) a x).toNat < S200x128.size a := fun v388 v922 k0_hw211 => k0_hw211

def k0_chk212 (v925 : IVec S16 32) : Prop :=
  (∀ a x, ((![v925] : Fin 1 → IVec S16 32) a x).toNat < S25600.size a)
instance k0_chk212.dec : ∀ (v925 : IVec S16 32), Decidable (k0_chk212 v925) := fun v925 => decidable_of_iff' _ (Iff.of_eq (k0_chk212.eq_1 v925))
theorem k0_idx212_inb : ∀ (v925 : IVec S16 32) (k0_hw212 : k0_chk212 v925), ∀ a x, ((![v925] : Fin 1 → IVec S16 32) a x).toNat < S25600.size a := fun v925 k0_hw212 => k0_hw212

def k0_chk213 (v388 : IVec S16 32) (v927 : IVec S16 32) : Prop :=
  (∀ a x, ((![v388, v927] : Fin 2 → IVec S16 32) a x).toNat < S200x128.size a)
instance k0_chk213.dec : ∀ (v388 : IVec S16 32) (v927 : IVec S16 32), Decidable (k0_chk213 v388 v927) := fun v388 v927 => decidable_of_iff' _ (Iff.of_eq (k0_chk213.eq_1 v388 v927))
theorem k0_idx213_inb : ∀ (v388 : IVec S16 32) (v927 : IVec S16 32) (k0_hw213 : k0_chk213 v388 v927), ∀ a x, ((![v388, v927] : Fin 2 → IVec S16 32) a x).toNat < S200x128.size a := fun v388 v927 k0_hw213 => k0_hw213

def k0_chk214 (v930 : IVec S16 32) : Prop :=
  (∀ a x, ((![v930] : Fin 1 → IVec S16 32) a x).toNat < S25600.size a)
instance k0_chk214.dec : ∀ (v930 : IVec S16 32), Decidable (k0_chk214 v930) := fun v930 => decidable_of_iff' _ (Iff.of_eq (k0_chk214.eq_1 v930))
theorem k0_idx214_inb : ∀ (v930 : IVec S16 32) (k0_hw214 : k0_chk214 v930), ∀ a x, ((![v930] : Fin 1 → IVec S16 32) a x).toNat < S25600.size a := fun v930 k0_hw214 => k0_hw214

def k0_chk215 (v388 : IVec S16 32) (v932 : IVec S16 32) : Prop :=
  (∀ a x, ((![v388, v932] : Fin 2 → IVec S16 32) a x).toNat < S200x128.size a)
instance k0_chk215.dec : ∀ (v388 : IVec S16 32) (v932 : IVec S16 32), Decidable (k0_chk215 v388 v932) := fun v388 v932 => decidable_of_iff' _ (Iff.of_eq (k0_chk215.eq_1 v388 v932))
theorem k0_idx215_inb : ∀ (v388 : IVec S16 32) (v932 : IVec S16 32) (k0_hw215 : k0_chk215 v388 v932), ∀ a x, ((![v388, v932] : Fin 2 → IVec S16 32) a x).toNat < S200x128.size a := fun v388 v932 k0_hw215 => k0_hw215

def k0_chk216 (v935 : IVec S16 32) : Prop :=
  (∀ a x, ((![v935] : Fin 1 → IVec S16 32) a x).toNat < S25600.size a)
instance k0_chk216.dec : ∀ (v935 : IVec S16 32), Decidable (k0_chk216 v935) := fun v935 => decidable_of_iff' _ (Iff.of_eq (k0_chk216.eq_1 v935))
theorem k0_idx216_inb : ∀ (v935 : IVec S16 32) (k0_hw216 : k0_chk216 v935), ∀ a x, ((![v935] : Fin 1 → IVec S16 32) a x).toNat < S25600.size a := fun v935 k0_hw216 => k0_hw216

def k0_chk217 (v388 : IVec S16 32) (v937 : IVec S16 32) : Prop :=
  (∀ a x, ((![v388, v937] : Fin 2 → IVec S16 32) a x).toNat < S200x128.size a)
instance k0_chk217.dec : ∀ (v388 : IVec S16 32) (v937 : IVec S16 32), Decidable (k0_chk217 v388 v937) := fun v388 v937 => decidable_of_iff' _ (Iff.of_eq (k0_chk217.eq_1 v388 v937))
theorem k0_idx217_inb : ∀ (v388 : IVec S16 32) (v937 : IVec S16 32) (k0_hw217 : k0_chk217 v388 v937), ∀ a x, ((![v388, v937] : Fin 2 → IVec S16 32) a x).toNat < S200x128.size a := fun v388 v937 k0_hw217 => k0_hw217

def k0_chk218 (v940 : IVec S16 32) : Prop :=
  (∀ a x, ((![v940] : Fin 1 → IVec S16 32) a x).toNat < S25600.size a)
instance k0_chk218.dec : ∀ (v940 : IVec S16 32), Decidable (k0_chk218 v940) := fun v940 => decidable_of_iff' _ (Iff.of_eq (k0_chk218.eq_1 v940))
theorem k0_idx218_inb : ∀ (v940 : IVec S16 32) (k0_hw218 : k0_chk218 v940), ∀ a x, ((![v940] : Fin 1 → IVec S16 32) a x).toNat < S25600.size a := fun v940 k0_hw218 => k0_hw218

def k0_chk219 (v388 : IVec S16 32) (v942 : IVec S16 32) : Prop :=
  (∀ a x, ((![v388, v942] : Fin 2 → IVec S16 32) a x).toNat < S200x128.size a)
instance k0_chk219.dec : ∀ (v388 : IVec S16 32) (v942 : IVec S16 32), Decidable (k0_chk219 v388 v942) := fun v388 v942 => decidable_of_iff' _ (Iff.of_eq (k0_chk219.eq_1 v388 v942))
theorem k0_idx219_inb : ∀ (v388 : IVec S16 32) (v942 : IVec S16 32) (k0_hw219 : k0_chk219 v388 v942), ∀ a x, ((![v388, v942] : Fin 2 → IVec S16 32) a x).toNat < S200x128.size a := fun v388 v942 k0_hw219 => k0_hw219

def k0_chk220 (v945 : IVec S16 32) : Prop :=
  (∀ a x, ((![v945] : Fin 1 → IVec S16 32) a x).toNat < S25600.size a)
instance k0_chk220.dec : ∀ (v945 : IVec S16 32), Decidable (k0_chk220 v945) := fun v945 => decidable_of_iff' _ (Iff.of_eq (k0_chk220.eq_1 v945))
theorem k0_idx220_inb : ∀ (v945 : IVec S16 32) (k0_hw220 : k0_chk220 v945), ∀ a x, ((![v945] : Fin 1 → IVec S16 32) a x).toNat < S25600.size a := fun v945 k0_hw220 => k0_hw220

def k0_chk221 (v388 : IVec S16 32) (v947 : IVec S16 32) : Prop :=
  (∀ a x, ((![v388, v947] : Fin 2 → IVec S16 32) a x).toNat < S200x128.size a)
instance k0_chk221.dec : ∀ (v388 : IVec S16 32) (v947 : IVec S16 32), Decidable (k0_chk221 v388 v947) := fun v388 v947 => decidable_of_iff' _ (Iff.of_eq (k0_chk221.eq_1 v388 v947))
theorem k0_idx221_inb : ∀ (v388 : IVec S16 32) (v947 : IVec S16 32) (k0_hw221 : k0_chk221 v388 v947), ∀ a x, ((![v388, v947] : Fin 2 → IVec S16 32) a x).toNat < S200x128.size a := fun v388 v947 k0_hw221 => k0_hw221

def k0_chk222 (v950 : IVec S16 32) : Prop :=
  (∀ a x, ((![v950] : Fin 1 → IVec S16 32) a x).toNat < S25600.size a)
instance k0_chk222.dec : ∀ (v950 : IVec S16 32), Decidable (k0_chk222 v950) := fun v950 => decidable_of_iff' _ (Iff.of_eq (k0_chk222.eq_1 v950))
theorem k0_idx222_inb : ∀ (v950 : IVec S16 32) (k0_hw222 : k0_chk222 v950), ∀ a x, ((![v950] : Fin 1 → IVec S16 32) a x).toNat < S25600.size a := fun v950 k0_hw222 => k0_hw222

def k0_chk223 (v388 : IVec S16 32) (v952 : IVec S16 32) : Prop :=
  (∀ a x, ((![v388, v952] : Fin 2 → IVec S16 32) a x).toNat < S200x128.size a)
instance k0_chk223.dec : ∀ (v388 : IVec S16 32) (v952 : IVec S16 32), Decidable (k0_chk223 v388 v952) := fun v388 v952 => decidable_of_iff' _ (Iff.of_eq (k0_chk223.eq_1 v388 v952))
theorem k0_idx223_inb : ∀ (v388 : IVec S16 32) (v952 : IVec S16 32) (k0_hw223 : k0_chk223 v388 v952), ∀ a x, ((![v388, v952] : Fin 2 → IVec S16 32) a x).toNat < S200x128.size a := fun v388 v952 k0_hw223 => k0_hw223

def k0_chk224 (v955 : IVec S16 32) : Prop :=
  (∀ a x, ((![v955] : Fin 1 → IVec S16 32) a x).toNat < S25600.size a)
instance k0_chk224.dec : ∀ (v955 : IVec S16 32), Decidable (k0_chk224 v955) := fun v955 => decidable_of_iff' _ (Iff.of_eq (k0_chk224.eq_1 v955))
theorem k0_idx224_inb : ∀ (v955 : IVec S16 32) (k0_hw224 : k0_chk224 v955), ∀ a x, ((![v955] : Fin 1 → IVec S16 32) a x).toNat < S25600.size a := fun v955 k0_hw224 => k0_hw224

def k0_chk225 (v388 : IVec S16 32) (v958 : IVec S16 32) : Prop :=
  (∀ a x, ((![v388, v958] : Fin 2 → IVec S16 32) a x).toNat < S200x128.size a)
instance k0_chk225.dec : ∀ (v388 : IVec S16 32) (v958 : IVec S16 32), Decidable (k0_chk225 v388 v958) := fun v388 v958 => decidable_of_iff' _ (Iff.of_eq (k0_chk225.eq_1 v388 v958))
theorem k0_idx225_inb : ∀ (v388 : IVec S16 32) (v958 : IVec S16 32) (k0_hw225 : k0_chk225 v388 v958), ∀ a x, ((![v388, v958] : Fin 2 → IVec S16 32) a x).toNat < S200x128.size a := fun v388 v958 k0_hw225 => k0_hw225

def k0_chk226 (v961 : IVec S16 32) : Prop :=
  (∀ a x, ((![v961] : Fin 1 → IVec S16 32) a x).toNat < S25600.size a)
instance k0_chk226.dec : ∀ (v961 : IVec S16 32), Decidable (k0_chk226 v961) := fun v961 => decidable_of_iff' _ (Iff.of_eq (k0_chk226.eq_1 v961))
theorem k0_idx226_inb : ∀ (v961 : IVec S16 32) (k0_hw226 : k0_chk226 v961), ∀ a x, ((![v961] : Fin 1 → IVec S16 32) a x).toNat < S25600.size a := fun v961 k0_hw226 => k0_hw226

def k0_chk227 (v388 : IVec S16 32) (v963 : IVec S16 32) : Prop :=
  (∀ a x, ((![v388, v963] : Fin 2 → IVec S16 32) a x).toNat < S200x128.size a)
instance k0_chk227.dec : ∀ (v388 : IVec S16 32) (v963 : IVec S16 32), Decidable (k0_chk227 v388 v963) := fun v388 v963 => decidable_of_iff' _ (Iff.of_eq (k0_chk227.eq_1 v388 v963))
theorem k0_idx227_inb : ∀ (v388 : IVec S16 32) (v963 : IVec S16 32) (k0_hw227 : k0_chk227 v388 v963), ∀ a x, ((![v388, v963] : Fin 2 → IVec S16 32) a x).toNat < S200x128.size a := fun v388 v963 k0_hw227 => k0_hw227

def k0_chk228 (v966 : IVec S16 32) : Prop :=
  (∀ a x, ((![v966] : Fin 1 → IVec S16 32) a x).toNat < S25600.size a)
instance k0_chk228.dec : ∀ (v966 : IVec S16 32), Decidable (k0_chk228 v966) := fun v966 => decidable_of_iff' _ (Iff.of_eq (k0_chk228.eq_1 v966))
theorem k0_idx228_inb : ∀ (v966 : IVec S16 32) (k0_hw228 : k0_chk228 v966), ∀ a x, ((![v966] : Fin 1 → IVec S16 32) a x).toNat < S25600.size a := fun v966 k0_hw228 => k0_hw228

def k0_chk229 (v388 : IVec S16 32) (v968 : IVec S16 32) : Prop :=
  (∀ a x, ((![v388, v968] : Fin 2 → IVec S16 32) a x).toNat < S200x128.size a)
instance k0_chk229.dec : ∀ (v388 : IVec S16 32) (v968 : IVec S16 32), Decidable (k0_chk229 v388 v968) := fun v388 v968 => decidable_of_iff' _ (Iff.of_eq (k0_chk229.eq_1 v388 v968))
theorem k0_idx229_inb : ∀ (v388 : IVec S16 32) (v968 : IVec S16 32) (k0_hw229 : k0_chk229 v388 v968), ∀ a x, ((![v388, v968] : Fin 2 → IVec S16 32) a x).toNat < S200x128.size a := fun v388 v968 k0_hw229 => k0_hw229

def k0_chk230 (v971 : IVec S16 32) : Prop :=
  (∀ a x, ((![v971] : Fin 1 → IVec S16 32) a x).toNat < S25600.size a)
instance k0_chk230.dec : ∀ (v971 : IVec S16 32), Decidable (k0_chk230 v971) := fun v971 => decidable_of_iff' _ (Iff.of_eq (k0_chk230.eq_1 v971))
theorem k0_idx230_inb : ∀ (v971 : IVec S16 32) (k0_hw230 : k0_chk230 v971), ∀ a x, ((![v971] : Fin 1 → IVec S16 32) a x).toNat < S25600.size a := fun v971 k0_hw230 => k0_hw230

def k0_chk231 (v388 : IVec S16 32) (v973 : IVec S16 32) : Prop :=
  (∀ a x, ((![v388, v973] : Fin 2 → IVec S16 32) a x).toNat < S200x128.size a)
instance k0_chk231.dec : ∀ (v388 : IVec S16 32) (v973 : IVec S16 32), Decidable (k0_chk231 v388 v973) := fun v388 v973 => decidable_of_iff' _ (Iff.of_eq (k0_chk231.eq_1 v388 v973))
theorem k0_idx231_inb : ∀ (v388 : IVec S16 32) (v973 : IVec S16 32) (k0_hw231 : k0_chk231 v388 v973), ∀ a x, ((![v388, v973] : Fin 2 → IVec S16 32) a x).toNat < S200x128.size a := fun v388 v973 k0_hw231 => k0_hw231

def k0_chk232 (v976 : IVec S16 32) : Prop :=
  (∀ a x, ((![v976] : Fin 1 → IVec S16 32) a x).toNat < S25600.size a)
instance k0_chk232.dec : ∀ (v976 : IVec S16 32), Decidable (k0_chk232 v976) := fun v976 => decidable_of_iff' _ (Iff.of_eq (k0_chk232.eq_1 v976))
theorem k0_idx232_inb : ∀ (v976 : IVec S16 32) (k0_hw232 : k0_chk232 v976), ∀ a x, ((![v976] : Fin 1 → IVec S16 32) a x).toNat < S25600.size a := fun v976 k0_hw232 => k0_hw232

def k0_chk233 (v388 : IVec S16 32) (v978 : IVec S16 32) : Prop :=
  (∀ a x, ((![v388, v978] : Fin 2 → IVec S16 32) a x).toNat < S200x128.size a)
instance k0_chk233.dec : ∀ (v388 : IVec S16 32) (v978 : IVec S16 32), Decidable (k0_chk233 v388 v978) := fun v388 v978 => decidable_of_iff' _ (Iff.of_eq (k0_chk233.eq_1 v388 v978))
theorem k0_idx233_inb : ∀ (v388 : IVec S16 32) (v978 : IVec S16 32) (k0_hw233 : k0_chk233 v388 v978), ∀ a x, ((![v388, v978] : Fin 2 → IVec S16 32) a x).toNat < S200x128.size a := fun v388 v978 k0_hw233 => k0_hw233

def k0_chk234 (v981 : IVec S16 32) : Prop :=
  (∀ a x, ((![v981] : Fin 1 → IVec S16 32) a x).toNat < S25600.size a)
instance k0_chk234.dec : ∀ (v981 : IVec S16 32), Decidable (k0_chk234 v981) := fun v981 => decidable_of_iff' _ (Iff.of_eq (k0_chk234.eq_1 v981))
theorem k0_idx234_inb : ∀ (v981 : IVec S16 32) (k0_hw234 : k0_chk234 v981), ∀ a x, ((![v981] : Fin 1 → IVec S16 32) a x).toNat < S25600.size a := fun v981 k0_hw234 => k0_hw234

def k0_chk235 (v388 : IVec S16 32) (v983 : IVec S16 32) : Prop :=
  (∀ a x, ((![v388, v983] : Fin 2 → IVec S16 32) a x).toNat < S200x128.size a)
instance k0_chk235.dec : ∀ (v388 : IVec S16 32) (v983 : IVec S16 32), Decidable (k0_chk235 v388 v983) := fun v388 v983 => decidable_of_iff' _ (Iff.of_eq (k0_chk235.eq_1 v388 v983))
theorem k0_idx235_inb : ∀ (v388 : IVec S16 32) (v983 : IVec S16 32) (k0_hw235 : k0_chk235 v388 v983), ∀ a x, ((![v388, v983] : Fin 2 → IVec S16 32) a x).toNat < S200x128.size a := fun v388 v983 k0_hw235 => k0_hw235

def k0_chk236 (v986 : IVec S16 32) : Prop :=
  (∀ a x, ((![v986] : Fin 1 → IVec S16 32) a x).toNat < S25600.size a)
instance k0_chk236.dec : ∀ (v986 : IVec S16 32), Decidable (k0_chk236 v986) := fun v986 => decidable_of_iff' _ (Iff.of_eq (k0_chk236.eq_1 v986))
theorem k0_idx236_inb : ∀ (v986 : IVec S16 32) (k0_hw236 : k0_chk236 v986), ∀ a x, ((![v986] : Fin 1 → IVec S16 32) a x).toNat < S25600.size a := fun v986 k0_hw236 => k0_hw236

def k0_chk237 (v388 : IVec S16 32) (v988 : IVec S16 32) : Prop :=
  (∀ a x, ((![v388, v988] : Fin 2 → IVec S16 32) a x).toNat < S200x128.size a)
instance k0_chk237.dec : ∀ (v388 : IVec S16 32) (v988 : IVec S16 32), Decidable (k0_chk237 v388 v988) := fun v388 v988 => decidable_of_iff' _ (Iff.of_eq (k0_chk237.eq_1 v388 v988))
theorem k0_idx237_inb : ∀ (v388 : IVec S16 32) (v988 : IVec S16 32) (k0_hw237 : k0_chk237 v388 v988), ∀ a x, ((![v388, v988] : Fin 2 → IVec S16 32) a x).toNat < S200x128.size a := fun v388 v988 k0_hw237 => k0_hw237

def k0_chk238 (v991 : IVec S16 32) : Prop :=
  (∀ a x, ((![v991] : Fin 1 → IVec S16 32) a x).toNat < S25600.size a)
instance k0_chk238.dec : ∀ (v991 : IVec S16 32), Decidable (k0_chk238 v991) := fun v991 => decidable_of_iff' _ (Iff.of_eq (k0_chk238.eq_1 v991))
theorem k0_idx238_inb : ∀ (v991 : IVec S16 32) (k0_hw238 : k0_chk238 v991), ∀ a x, ((![v991] : Fin 1 → IVec S16 32) a x).toNat < S25600.size a := fun v991 k0_hw238 => k0_hw238

def k0_chk239 (v388 : IVec S16 32) (v993 : IVec S16 32) : Prop :=
  (∀ a x, ((![v388, v993] : Fin 2 → IVec S16 32) a x).toNat < S200x128.size a)
instance k0_chk239.dec : ∀ (v388 : IVec S16 32) (v993 : IVec S16 32), Decidable (k0_chk239 v388 v993) := fun v388 v993 => decidable_of_iff' _ (Iff.of_eq (k0_chk239.eq_1 v388 v993))
theorem k0_idx239_inb : ∀ (v388 : IVec S16 32) (v993 : IVec S16 32) (k0_hw239 : k0_chk239 v388 v993), ∀ a x, ((![v388, v993] : Fin 2 → IVec S16 32) a x).toNat < S200x128.size a := fun v388 v993 k0_hw239 => k0_hw239

def k0_chk240 (v996 : IVec S16 32) : Prop :=
  (∀ a x, ((![v996] : Fin 1 → IVec S16 32) a x).toNat < S25600.size a)
instance k0_chk240.dec : ∀ (v996 : IVec S16 32), Decidable (k0_chk240 v996) := fun v996 => decidable_of_iff' _ (Iff.of_eq (k0_chk240.eq_1 v996))
theorem k0_idx240_inb : ∀ (v996 : IVec S16 32) (k0_hw240 : k0_chk240 v996), ∀ a x, ((![v996] : Fin 1 → IVec S16 32) a x).toNat < S25600.size a := fun v996 k0_hw240 => k0_hw240

def k0_chk241 (v388 : IVec S16 32) (v998 : IVec S16 32) : Prop :=
  (∀ a x, ((![v388, v998] : Fin 2 → IVec S16 32) a x).toNat < S200x128.size a)
instance k0_chk241.dec : ∀ (v388 : IVec S16 32) (v998 : IVec S16 32), Decidable (k0_chk241 v388 v998) := fun v388 v998 => decidable_of_iff' _ (Iff.of_eq (k0_chk241.eq_1 v388 v998))
theorem k0_idx241_inb : ∀ (v388 : IVec S16 32) (v998 : IVec S16 32) (k0_hw241 : k0_chk241 v388 v998), ∀ a x, ((![v388, v998] : Fin 2 → IVec S16 32) a x).toNat < S200x128.size a := fun v388 v998 k0_hw241 => k0_hw241

def k0_chk242 (v1001 : IVec S16 32) : Prop :=
  (∀ a x, ((![v1001] : Fin 1 → IVec S16 32) a x).toNat < S25600.size a)
instance k0_chk242.dec : ∀ (v1001 : IVec S16 32), Decidable (k0_chk242 v1001) := fun v1001 => decidable_of_iff' _ (Iff.of_eq (k0_chk242.eq_1 v1001))
theorem k0_idx242_inb : ∀ (v1001 : IVec S16 32) (k0_hw242 : k0_chk242 v1001), ∀ a x, ((![v1001] : Fin 1 → IVec S16 32) a x).toNat < S25600.size a := fun v1001 k0_hw242 => k0_hw242

def k0_chk243 (v388 : IVec S16 32) (v1003 : IVec S16 32) : Prop :=
  (∀ a x, ((![v388, v1003] : Fin 2 → IVec S16 32) a x).toNat < S200x128.size a)
instance k0_chk243.dec : ∀ (v388 : IVec S16 32) (v1003 : IVec S16 32), Decidable (k0_chk243 v388 v1003) := fun v388 v1003 => decidable_of_iff' _ (Iff.of_eq (k0_chk243.eq_1 v388 v1003))
theorem k0_idx243_inb : ∀ (v388 : IVec S16 32) (v1003 : IVec S16 32) (k0_hw243 : k0_chk243 v388 v1003), ∀ a x, ((![v388, v1003] : Fin 2 → IVec S16 32) a x).toNat < S200x128.size a := fun v388 v1003 k0_hw243 => k0_hw243

def k0_chk244 (v1006 : IVec S16 32) : Prop :=
  (∀ a x, ((![v1006] : Fin 1 → IVec S16 32) a x).toNat < S25600.size a)
instance k0_chk244.dec : ∀ (v1006 : IVec S16 32), Decidable (k0_chk244 v1006) := fun v1006 => decidable_of_iff' _ (Iff.of_eq (k0_chk244.eq_1 v1006))
theorem k0_idx244_inb : ∀ (v1006 : IVec S16 32) (k0_hw244 : k0_chk244 v1006), ∀ a x, ((![v1006] : Fin 1 → IVec S16 32) a x).toNat < S25600.size a := fun v1006 k0_hw244 => k0_hw244

def k0_chk245 (v388 : IVec S16 32) (v1008 : IVec S16 32) : Prop :=
  (∀ a x, ((![v388, v1008] : Fin 2 → IVec S16 32) a x).toNat < S200x128.size a)
instance k0_chk245.dec : ∀ (v388 : IVec S16 32) (v1008 : IVec S16 32), Decidable (k0_chk245 v388 v1008) := fun v388 v1008 => decidable_of_iff' _ (Iff.of_eq (k0_chk245.eq_1 v388 v1008))
theorem k0_idx245_inb : ∀ (v388 : IVec S16 32) (v1008 : IVec S16 32) (k0_hw245 : k0_chk245 v388 v1008), ∀ a x, ((![v388, v1008] : Fin 2 → IVec S16 32) a x).toNat < S200x128.size a := fun v388 v1008 k0_hw245 => k0_hw245

def k0_chk246 (v1011 : IVec S16 32) : Prop :=
  (∀ a x, ((![v1011] : Fin 1 → IVec S16 32) a x).toNat < S25600.size a)
instance k0_chk246.dec : ∀ (v1011 : IVec S16 32), Decidable (k0_chk246 v1011) := fun v1011 => decidable_of_iff' _ (Iff.of_eq (k0_chk246.eq_1 v1011))
theorem k0_idx246_inb : ∀ (v1011 : IVec S16 32) (k0_hw246 : k0_chk246 v1011), ∀ a x, ((![v1011] : Fin 1 → IVec S16 32) a x).toNat < S25600.size a := fun v1011 k0_hw246 => k0_hw246

def k0_chk247 (v388 : IVec S16 32) (v1013 : IVec S16 32) : Prop :=
  (∀ a x, ((![v388, v1013] : Fin 2 → IVec S16 32) a x).toNat < S200x128.size a)
instance k0_chk247.dec : ∀ (v388 : IVec S16 32) (v1013 : IVec S16 32), Decidable (k0_chk247 v388 v1013) := fun v388 v1013 => decidable_of_iff' _ (Iff.of_eq (k0_chk247.eq_1 v388 v1013))
theorem k0_idx247_inb : ∀ (v388 : IVec S16 32) (v1013 : IVec S16 32) (k0_hw247 : k0_chk247 v388 v1013), ∀ a x, ((![v388, v1013] : Fin 2 → IVec S16 32) a x).toNat < S200x128.size a := fun v388 v1013 k0_hw247 => k0_hw247

def k0_chk248 (v1016 : IVec S16 32) : Prop :=
  (∀ a x, ((![v1016] : Fin 1 → IVec S16 32) a x).toNat < S25600.size a)
instance k0_chk248.dec : ∀ (v1016 : IVec S16 32), Decidable (k0_chk248 v1016) := fun v1016 => decidable_of_iff' _ (Iff.of_eq (k0_chk248.eq_1 v1016))
theorem k0_idx248_inb : ∀ (v1016 : IVec S16 32) (k0_hw248 : k0_chk248 v1016), ∀ a x, ((![v1016] : Fin 1 → IVec S16 32) a x).toNat < S25600.size a := fun v1016 k0_hw248 => k0_hw248

def k0_chk249 (v388 : IVec S16 32) (v1018 : IVec S16 32) : Prop :=
  (∀ a x, ((![v388, v1018] : Fin 2 → IVec S16 32) a x).toNat < S200x128.size a)
instance k0_chk249.dec : ∀ (v388 : IVec S16 32) (v1018 : IVec S16 32), Decidable (k0_chk249 v388 v1018) := fun v388 v1018 => decidable_of_iff' _ (Iff.of_eq (k0_chk249.eq_1 v388 v1018))
theorem k0_idx249_inb : ∀ (v388 : IVec S16 32) (v1018 : IVec S16 32) (k0_hw249 : k0_chk249 v388 v1018), ∀ a x, ((![v388, v1018] : Fin 2 → IVec S16 32) a x).toNat < S200x128.size a := fun v388 v1018 k0_hw249 => k0_hw249

def k0_chk250 (v1021 : IVec S16 32) : Prop :=
  (∀ a x, ((![v1021] : Fin 1 → IVec S16 32) a x).toNat < S25600.size a)
instance k0_chk250.dec : ∀ (v1021 : IVec S16 32), Decidable (k0_chk250 v1021) := fun v1021 => decidable_of_iff' _ (Iff.of_eq (k0_chk250.eq_1 v1021))
theorem k0_idx250_inb : ∀ (v1021 : IVec S16 32) (k0_hw250 : k0_chk250 v1021), ∀ a x, ((![v1021] : Fin 1 → IVec S16 32) a x).toNat < S25600.size a := fun v1021 k0_hw250 => k0_hw250

def k0_chk251 (v388 : IVec S16 32) (v1023 : IVec S16 32) : Prop :=
  (∀ a x, ((![v388, v1023] : Fin 2 → IVec S16 32) a x).toNat < S200x128.size a)
instance k0_chk251.dec : ∀ (v388 : IVec S16 32) (v1023 : IVec S16 32), Decidable (k0_chk251 v388 v1023) := fun v388 v1023 => decidable_of_iff' _ (Iff.of_eq (k0_chk251.eq_1 v388 v1023))
theorem k0_idx251_inb : ∀ (v388 : IVec S16 32) (v1023 : IVec S16 32) (k0_hw251 : k0_chk251 v388 v1023), ∀ a x, ((![v388, v1023] : Fin 2 → IVec S16 32) a x).toNat < S200x128.size a := fun v388 v1023 k0_hw251 => k0_hw251

def k0_chk252 (v1026 : IVec S16 32) : Prop :=
  (∀ a x, ((![v1026] : Fin 1 → IVec S16 32) a x).toNat < S25600.size a)
instance k0_chk252.dec : ∀ (v1026 : IVec S16 32), Decidable (k0_chk252 v1026) := fun v1026 => decidable_of_iff' _ (Iff.of_eq (k0_chk252.eq_1 v1026))
theorem k0_idx252_inb : ∀ (v1026 : IVec S16 32) (k0_hw252 : k0_chk252 v1026), ∀ a x, ((![v1026] : Fin 1 → IVec S16 32) a x).toNat < S25600.size a := fun v1026 k0_hw252 => k0_hw252

def k0_chk253 (v388 : IVec S16 32) (v1028 : IVec S16 32) : Prop :=
  (∀ a x, ((![v388, v1028] : Fin 2 → IVec S16 32) a x).toNat < S200x128.size a)
instance k0_chk253.dec : ∀ (v388 : IVec S16 32) (v1028 : IVec S16 32), Decidable (k0_chk253 v388 v1028) := fun v388 v1028 => decidable_of_iff' _ (Iff.of_eq (k0_chk253.eq_1 v388 v1028))
theorem k0_idx253_inb : ∀ (v388 : IVec S16 32) (v1028 : IVec S16 32) (k0_hw253 : k0_chk253 v388 v1028), ∀ a x, ((![v388, v1028] : Fin 2 → IVec S16 32) a x).toNat < S200x128.size a := fun v388 v1028 k0_hw253 => k0_hw253

def k0_chk254 (v1031 : IVec S16 32) : Prop :=
  (∀ a x, ((![v1031] : Fin 1 → IVec S16 32) a x).toNat < S25600.size a)
instance k0_chk254.dec : ∀ (v1031 : IVec S16 32), Decidable (k0_chk254 v1031) := fun v1031 => decidable_of_iff' _ (Iff.of_eq (k0_chk254.eq_1 v1031))
theorem k0_idx254_inb : ∀ (v1031 : IVec S16 32) (k0_hw254 : k0_chk254 v1031), ∀ a x, ((![v1031] : Fin 1 → IVec S16 32) a x).toNat < S25600.size a := fun v1031 k0_hw254 => k0_hw254

def k0_chk255 (v388 : IVec S16 32) (v1033 : IVec S16 32) : Prop :=
  (∀ a x, ((![v388, v1033] : Fin 2 → IVec S16 32) a x).toNat < S200x128.size a)
instance k0_chk255.dec : ∀ (v388 : IVec S16 32) (v1033 : IVec S16 32), Decidable (k0_chk255 v388 v1033) := fun v388 v1033 => decidable_of_iff' _ (Iff.of_eq (k0_chk255.eq_1 v388 v1033))
theorem k0_idx255_inb : ∀ (v388 : IVec S16 32) (v1033 : IVec S16 32) (k0_hw255 : k0_chk255 v388 v1033), ∀ a x, ((![v388, v1033] : Fin 2 → IVec S16 32) a x).toNat < S200x128.size a := fun v388 v1033 k0_hw255 => k0_hw255

def k0_chk256 (v1036 : IVec S16 32) : Prop :=
  (∀ a x, ((![v1036] : Fin 1 → IVec S16 32) a x).toNat < S25600.size a)
instance k0_chk256.dec : ∀ (v1036 : IVec S16 32), Decidable (k0_chk256 v1036) := fun v1036 => decidable_of_iff' _ (Iff.of_eq (k0_chk256.eq_1 v1036))
theorem k0_idx256_inb : ∀ (v1036 : IVec S16 32) (k0_hw256 : k0_chk256 v1036), ∀ a x, ((![v1036] : Fin 1 → IVec S16 32) a x).toNat < S25600.size a := fun v1036 k0_hw256 => k0_hw256
def k0_off3 (i : grid0.Coords) (k0_t1 : Fin k0_t1_loop.trips) (c0_i32_126 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_125 : BitVec 32 := 2#32
  let c0_i32_118 : BitVec 32 := 0#32
  let c1_i32_119 : BitVec 32 := 1#32
  let arg15 : BitVec 32 := Scf.iv c0_i32_118 c1_i32_119 k0_t1
  let v353 : BitVec 32 := Scalar.muli c2_i32_125 arg15
  let v354 : BitVec 32 := Scalar.addi v353 c0_i32_126
  let v355 : BitVec 32 := Scalar.addi v2 v354
  let c0_i32_136 : BitVec 32 := 0#32
  ![v355.toNat, 0]
def k0_cond2 (k0_t1 : Fin k0_t1_loop.trips) : BitVec 1 :=
  let c2_i32_125 : BitVec 32 := 2#32
  let c0_i32_118 : BitVec 32 := 0#32
  let c1_i32_119 : BitVec 32 := 1#32
  let arg15 : BitVec 32 := Scf.iv c0_i32_118 c1_i32_119 k0_t1
  let v353 : BitVec 32 := Scalar.muli c2_i32_125 arg15
  let c0_i32_126 : BitVec 32 := 0#32
  let v354 : BitVec 32 := Scalar.addi v353 c0_i32_126
  let c2_i32_138 : BitVec 32 := 2#32
  let v365 : BitVec 32 := Scalar.addi v354 c2_i32_138
  let c128_i32_139 : BitVec 32 := 128#32
  let v366 : BitVec 1 := Scalar.cmpi .slt v365 c128_i32_139
  let v367 : BitVec 32 := Scalar.extui v366
  let c0_i32_140 : BitVec 32 := 0#32
  let v368 : BitVec 1 := Scalar.cmpi .ne v367 c0_i32_140
  v368

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_125 : BitVec 32 := 2#32
  let c0_i32_118 : BitVec 32 := 0#32
  let c1_i32_119 : BitVec 32 := 1#32
  let arg15 : BitVec 32 := Scf.iv c0_i32_118 c1_i32_119 k0_t1
  let v353 : BitVec 32 := Scalar.muli c2_i32_125 arg15
  let c0_i32_126 : BitVec 32 := 0#32
  let v354 : BitVec 32 := Scalar.addi v353 c0_i32_126
  let c2_i32_157 : BitVec 32 := 2#32
  let v385 : BitVec 32 := Scalar.addi v354 c2_i32_157
  let v386 : BitVec 32 := Scalar.addi v2 v385
  let c0_i32_160_r2 : BitVec 32 := 0#32
  ![v386.toNat, 0]
def k0_cond3 (k0_t1 : Fin k0_t1_loop.trips) : BitVec 1 :=
  let c2_i32_141 : BitVec 32 := 2#32
  let c0_i32_118 : BitVec 32 := 0#32
  let c1_i32_119 : BitVec 32 := 1#32
  let arg15 : BitVec 32 := Scf.iv c0_i32_118 c1_i32_119 k0_t1
  let v369 : BitVec 32 := Scalar.muli c2_i32_141 arg15
  let c1_i32_142 : BitVec 32 := 1#32
  let v370 : BitVec 32 := Scalar.addi v369 c1_i32_142
  let c2_i32_145 : BitVec 32 := 2#32
  let v373 : BitVec 1 := Scalar.cmpi .sge v370 c2_i32_145
  let v374 : BitVec 32 := Scalar.extui v373
  let c0_i32_146 : BitVec 32 := 0#32
  let v375 : BitVec 1 := Scalar.cmpi .ne v374 c0_i32_146
  v375

def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_141 : BitVec 32 := 2#32
  let c0_i32_118 : BitVec 32 := 0#32
  let c1_i32_119 : BitVec 32 := 1#32
  let arg15 : BitVec 32 := Scf.iv c0_i32_118 c1_i32_119 k0_t1
  let v369 : BitVec 32 := Scalar.muli c2_i32_141 arg15
  let c1_i32_142 : BitVec 32 := 1#32
  let v370 : BitVec 32 := Scalar.addi v369 c1_i32_142
  let v371 : BitVec 32 := Scalar.addi v2 v370
  let c0_i32_157 : BitVec 32 := 0#32
  ![v371.toNat, 0]
@[reducible] def k0_t3_loop : Scf.Loop 32 :=
  let c0_i32_148 : BitVec 32 := 0#32
  let c13_i32_149 : BitVec 32 := 13#32
  let v376 : BitVec 32 := Scalar.addi c0_i32_148 c13_i32_149
  let c1_i32_150 : BitVec 32 := 1#32
  ⟨c0_i32_148, v376, c1_i32_150⟩

def k0_chk257 (v388 : IVec S16 32) (v391 : IVec S16 32) : Prop :=
  (∀ a x, ((![v388, v391] : Fin 2 → IVec S16 32) a x).toNat < S200x128.size a)
instance k0_chk257.dec : ∀ (v388 : IVec S16 32) (v391 : IVec S16 32), Decidable (k0_chk257 v388 v391) := fun v388 v391 => decidable_of_iff' _ (Iff.of_eq (k0_chk257.eq_1 v388 v391))
theorem k0_idx257_inb : ∀ (v388 : IVec S16 32) (v391 : IVec S16 32) (k0_hw257 : k0_chk257 v388 v391), ∀ a x, ((![v388, v391] : Fin 2 → IVec S16 32) a x).toNat < S200x128.size a := fun v388 v391 k0_hw257 => k0_hw257

def k0_chk258 (v394 : IVec S16 32) : Prop :=
  (∀ a x, ((![v394] : Fin 1 → IVec S16 32) a x).toNat < S25600.size a)
instance k0_chk258.dec : ∀ (v394 : IVec S16 32), Decidable (k0_chk258 v394) := fun v394 => decidable_of_iff' _ (Iff.of_eq (k0_chk258.eq_1 v394))
theorem k0_idx258_inb : ∀ (v394 : IVec S16 32) (k0_hw258 : k0_chk258 v394), ∀ a x, ((![v394] : Fin 1 → IVec S16 32) a x).toNat < S25600.size a := fun v394 k0_hw258 => k0_hw258

def k0_chk259 (v388 : IVec S16 32) (v396 : IVec S16 32) : Prop :=
  (∀ a x, ((![v388, v396] : Fin 2 → IVec S16 32) a x).toNat < S200x128.size a)
instance k0_chk259.dec : ∀ (v388 : IVec S16 32) (v396 : IVec S16 32), Decidable (k0_chk259 v388 v396) := fun v388 v396 => decidable_of_iff' _ (Iff.of_eq (k0_chk259.eq_1 v388 v396))
theorem k0_idx259_inb : ∀ (v388 : IVec S16 32) (v396 : IVec S16 32) (k0_hw259 : k0_chk259 v388 v396), ∀ a x, ((![v388, v396] : Fin 2 → IVec S16 32) a x).toNat < S200x128.size a := fun v388 v396 k0_hw259 => k0_hw259

def k0_chk260 (v399 : IVec S16 32) : Prop :=
  (∀ a x, ((![v399] : Fin 1 → IVec S16 32) a x).toNat < S25600.size a)
instance k0_chk260.dec : ∀ (v399 : IVec S16 32), Decidable (k0_chk260 v399) := fun v399 => decidable_of_iff' _ (Iff.of_eq (k0_chk260.eq_1 v399))
theorem k0_idx260_inb : ∀ (v399 : IVec S16 32) (k0_hw260 : k0_chk260 v399), ∀ a x, ((![v399] : Fin 1 → IVec S16 32) a x).toNat < S25600.size a := fun v399 k0_hw260 => k0_hw260

def k0_chk261 (v388 : IVec S16 32) (v401 : IVec S16 32) : Prop :=
  (∀ a x, ((![v388, v401] : Fin 2 → IVec S16 32) a x).toNat < S200x128.size a)
instance k0_chk261.dec : ∀ (v388 : IVec S16 32) (v401 : IVec S16 32), Decidable (k0_chk261 v388 v401) := fun v388 v401 => decidable_of_iff' _ (Iff.of_eq (k0_chk261.eq_1 v388 v401))
theorem k0_idx261_inb : ∀ (v388 : IVec S16 32) (v401 : IVec S16 32) (k0_hw261 : k0_chk261 v388 v401), ∀ a x, ((![v388, v401] : Fin 2 → IVec S16 32) a x).toNat < S200x128.size a := fun v388 v401 k0_hw261 => k0_hw261

def k0_chk262 (v404 : IVec S16 32) : Prop :=
  (∀ a x, ((![v404] : Fin 1 → IVec S16 32) a x).toNat < S25600.size a)
instance k0_chk262.dec : ∀ (v404 : IVec S16 32), Decidable (k0_chk262 v404) := fun v404 => decidable_of_iff' _ (Iff.of_eq (k0_chk262.eq_1 v404))
theorem k0_idx262_inb : ∀ (v404 : IVec S16 32) (k0_hw262 : k0_chk262 v404), ∀ a x, ((![v404] : Fin 1 → IVec S16 32) a x).toNat < S25600.size a := fun v404 k0_hw262 => k0_hw262

def k0_chk263 (v388 : IVec S16 32) (v406 : IVec S16 32) : Prop :=
  (∀ a x, ((![v388, v406] : Fin 2 → IVec S16 32) a x).toNat < S200x128.size a)
instance k0_chk263.dec : ∀ (v388 : IVec S16 32) (v406 : IVec S16 32), Decidable (k0_chk263 v388 v406) := fun v388 v406 => decidable_of_iff' _ (Iff.of_eq (k0_chk263.eq_1 v388 v406))
theorem k0_idx263_inb : ∀ (v388 : IVec S16 32) (v406 : IVec S16 32) (k0_hw263 : k0_chk263 v388 v406), ∀ a x, ((![v388, v406] : Fin 2 → IVec S16 32) a x).toNat < S200x128.size a := fun v388 v406 k0_hw263 => k0_hw263

def k0_chk264 (v409 : IVec S16 32) : Prop :=
  (∀ a x, ((![v409] : Fin 1 → IVec S16 32) a x).toNat < S25600.size a)
instance k0_chk264.dec : ∀ (v409 : IVec S16 32), Decidable (k0_chk264 v409) := fun v409 => decidable_of_iff' _ (Iff.of_eq (k0_chk264.eq_1 v409))
theorem k0_idx264_inb : ∀ (v409 : IVec S16 32) (k0_hw264 : k0_chk264 v409), ∀ a x, ((![v409] : Fin 1 → IVec S16 32) a x).toNat < S25600.size a := fun v409 k0_hw264 => k0_hw264

def k0_chk265 (v388 : IVec S16 32) (v411 : IVec S16 32) : Prop :=
  (∀ a x, ((![v388, v411] : Fin 2 → IVec S16 32) a x).toNat < S200x128.size a)
instance k0_chk265.dec : ∀ (v388 : IVec S16 32) (v411 : IVec S16 32), Decidable (k0_chk265 v388 v411) := fun v388 v411 => decidable_of_iff' _ (Iff.of_eq (k0_chk265.eq_1 v388 v411))
theorem k0_idx265_inb : ∀ (v388 : IVec S16 32) (v411 : IVec S16 32) (k0_hw265 : k0_chk265 v388 v411), ∀ a x, ((![v388, v411] : Fin 2 → IVec S16 32) a x).toNat < S200x128.size a := fun v388 v411 k0_hw265 => k0_hw265

def k0_chk266 (v414 : IVec S16 32) : Prop :=
  (∀ a x, ((![v414] : Fin 1 → IVec S16 32) a x).toNat < S25600.size a)
instance k0_chk266.dec : ∀ (v414 : IVec S16 32), Decidable (k0_chk266 v414) := fun v414 => decidable_of_iff' _ (Iff.of_eq (k0_chk266.eq_1 v414))
theorem k0_idx266_inb : ∀ (v414 : IVec S16 32) (k0_hw266 : k0_chk266 v414), ∀ a x, ((![v414] : Fin 1 → IVec S16 32) a x).toNat < S25600.size a := fun v414 k0_hw266 => k0_hw266

def k0_chk267 (v388 : IVec S16 32) (v416 : IVec S16 32) : Prop :=
  (∀ a x, ((![v388, v416] : Fin 2 → IVec S16 32) a x).toNat < S200x128.size a)
instance k0_chk267.dec : ∀ (v388 : IVec S16 32) (v416 : IVec S16 32), Decidable (k0_chk267 v388 v416) := fun v388 v416 => decidable_of_iff' _ (Iff.of_eq (k0_chk267.eq_1 v388 v416))
theorem k0_idx267_inb : ∀ (v388 : IVec S16 32) (v416 : IVec S16 32) (k0_hw267 : k0_chk267 v388 v416), ∀ a x, ((![v388, v416] : Fin 2 → IVec S16 32) a x).toNat < S200x128.size a := fun v388 v416 k0_hw267 => k0_hw267

def k0_chk268 (v419 : IVec S16 32) : Prop :=
  (∀ a x, ((![v419] : Fin 1 → IVec S16 32) a x).toNat < S25600.size a)
instance k0_chk268.dec : ∀ (v419 : IVec S16 32), Decidable (k0_chk268 v419) := fun v419 => decidable_of_iff' _ (Iff.of_eq (k0_chk268.eq_1 v419))
theorem k0_idx268_inb : ∀ (v419 : IVec S16 32) (k0_hw268 : k0_chk268 v419), ∀ a x, ((![v419] : Fin 1 → IVec S16 32) a x).toNat < S25600.size a := fun v419 k0_hw268 => k0_hw268

def k0_chk269 (v388 : IVec S16 32) (v421 : IVec S16 32) : Prop :=
  (∀ a x, ((![v388, v421] : Fin 2 → IVec S16 32) a x).toNat < S200x128.size a)
instance k0_chk269.dec : ∀ (v388 : IVec S16 32) (v421 : IVec S16 32), Decidable (k0_chk269 v388 v421) := fun v388 v421 => decidable_of_iff' _ (Iff.of_eq (k0_chk269.eq_1 v388 v421))
theorem k0_idx269_inb : ∀ (v388 : IVec S16 32) (v421 : IVec S16 32) (k0_hw269 : k0_chk269 v388 v421), ∀ a x, ((![v388, v421] : Fin 2 → IVec S16 32) a x).toNat < S200x128.size a := fun v388 v421 k0_hw269 => k0_hw269

def k0_chk270 (v424 : IVec S16 32) : Prop :=
  (∀ a x, ((![v424] : Fin 1 → IVec S16 32) a x).toNat < S25600.size a)
instance k0_chk270.dec : ∀ (v424 : IVec S16 32), Decidable (k0_chk270 v424) := fun v424 => decidable_of_iff' _ (Iff.of_eq (k0_chk270.eq_1 v424))
theorem k0_idx270_inb : ∀ (v424 : IVec S16 32) (k0_hw270 : k0_chk270 v424), ∀ a x, ((![v424] : Fin 1 → IVec S16 32) a x).toNat < S25600.size a := fun v424 k0_hw270 => k0_hw270

def k0_chk271 (v388 : IVec S16 32) (v426 : IVec S16 32) : Prop :=
  (∀ a x, ((![v388, v426] : Fin 2 → IVec S16 32) a x).toNat < S200x128.size a)
instance k0_chk271.dec : ∀ (v388 : IVec S16 32) (v426 : IVec S16 32), Decidable (k0_chk271 v388 v426) := fun v388 v426 => decidable_of_iff' _ (Iff.of_eq (k0_chk271.eq_1 v388 v426))
theorem k0_idx271_inb : ∀ (v388 : IVec S16 32) (v426 : IVec S16 32) (k0_hw271 : k0_chk271 v388 v426), ∀ a x, ((![v388, v426] : Fin 2 → IVec S16 32) a x).toNat < S200x128.size a := fun v388 v426 k0_hw271 => k0_hw271

def k0_chk272 (v429 : IVec S16 32) : Prop :=
  (∀ a x, ((![v429] : Fin 1 → IVec S16 32) a x).toNat < S25600.size a)
instance k0_chk272.dec : ∀ (v429 : IVec S16 32), Decidable (k0_chk272 v429) := fun v429 => decidable_of_iff' _ (Iff.of_eq (k0_chk272.eq_1 v429))
theorem k0_idx272_inb : ∀ (v429 : IVec S16 32) (k0_hw272 : k0_chk272 v429), ∀ a x, ((![v429] : Fin 1 → IVec S16 32) a x).toNat < S25600.size a := fun v429 k0_hw272 => k0_hw272

def k0_chk273 (v388 : IVec S16 32) (v431 : IVec S16 32) : Prop :=
  (∀ a x, ((![v388, v431] : Fin 2 → IVec S16 32) a x).toNat < S200x128.size a)
instance k0_chk273.dec : ∀ (v388 : IVec S16 32) (v431 : IVec S16 32), Decidable (k0_chk273 v388 v431) := fun v388 v431 => decidable_of_iff' _ (Iff.of_eq (k0_chk273.eq_1 v388 v431))
theorem k0_idx273_inb : ∀ (v388 : IVec S16 32) (v431 : IVec S16 32) (k0_hw273 : k0_chk273 v388 v431), ∀ a x, ((![v388, v431] : Fin 2 → IVec S16 32) a x).toNat < S200x128.size a := fun v388 v431 k0_hw273 => k0_hw273

def k0_chk274 (v434 : IVec S16 32) : Prop :=
  (∀ a x, ((![v434] : Fin 1 → IVec S16 32) a x).toNat < S25600.size a)
instance k0_chk274.dec : ∀ (v434 : IVec S16 32), Decidable (k0_chk274 v434) := fun v434 => decidable_of_iff' _ (Iff.of_eq (k0_chk274.eq_1 v434))
theorem k0_idx274_inb : ∀ (v434 : IVec S16 32) (k0_hw274 : k0_chk274 v434), ∀ a x, ((![v434] : Fin 1 → IVec S16 32) a x).toNat < S25600.size a := fun v434 k0_hw274 => k0_hw274

def k0_chk275 (v388 : IVec S16 32) (v436 : IVec S16 32) : Prop :=
  (∀ a x, ((![v388, v436] : Fin 2 → IVec S16 32) a x).toNat < S200x128.size a)
instance k0_chk275.dec : ∀ (v388 : IVec S16 32) (v436 : IVec S16 32), Decidable (k0_chk275 v388 v436) := fun v388 v436 => decidable_of_iff' _ (Iff.of_eq (k0_chk275.eq_1 v388 v436))
theorem k0_idx275_inb : ∀ (v388 : IVec S16 32) (v436 : IVec S16 32) (k0_hw275 : k0_chk275 v388 v436), ∀ a x, ((![v388, v436] : Fin 2 → IVec S16 32) a x).toNat < S200x128.size a := fun v388 v436 k0_hw275 => k0_hw275

def k0_chk276 (v439 : IVec S16 32) : Prop :=
  (∀ a x, ((![v439] : Fin 1 → IVec S16 32) a x).toNat < S25600.size a)
instance k0_chk276.dec : ∀ (v439 : IVec S16 32), Decidable (k0_chk276 v439) := fun v439 => decidable_of_iff' _ (Iff.of_eq (k0_chk276.eq_1 v439))
theorem k0_idx276_inb : ∀ (v439 : IVec S16 32) (k0_hw276 : k0_chk276 v439), ∀ a x, ((![v439] : Fin 1 → IVec S16 32) a x).toNat < S25600.size a := fun v439 k0_hw276 => k0_hw276

def k0_chk277 (v388 : IVec S16 32) (v441 : IVec S16 32) : Prop :=
  (∀ a x, ((![v388, v441] : Fin 2 → IVec S16 32) a x).toNat < S200x128.size a)
instance k0_chk277.dec : ∀ (v388 : IVec S16 32) (v441 : IVec S16 32), Decidable (k0_chk277 v388 v441) := fun v388 v441 => decidable_of_iff' _ (Iff.of_eq (k0_chk277.eq_1 v388 v441))
theorem k0_idx277_inb : ∀ (v388 : IVec S16 32) (v441 : IVec S16 32) (k0_hw277 : k0_chk277 v388 v441), ∀ a x, ((![v388, v441] : Fin 2 → IVec S16 32) a x).toNat < S200x128.size a := fun v388 v441 k0_hw277 => k0_hw277

def k0_chk278 (v444 : IVec S16 32) : Prop :=
  (∀ a x, ((![v444] : Fin 1 → IVec S16 32) a x).toNat < S25600.size a)
instance k0_chk278.dec : ∀ (v444 : IVec S16 32), Decidable (k0_chk278 v444) := fun v444 => decidable_of_iff' _ (Iff.of_eq (k0_chk278.eq_1 v444))
theorem k0_idx278_inb : ∀ (v444 : IVec S16 32) (k0_hw278 : k0_chk278 v444), ∀ a x, ((![v444] : Fin 1 → IVec S16 32) a x).toNat < S25600.size a := fun v444 k0_hw278 => k0_hw278

def k0_chk279 (v388 : IVec S16 32) (v446 : IVec S16 32) : Prop :=
  (∀ a x, ((![v388, v446] : Fin 2 → IVec S16 32) a x).toNat < S200x128.size a)
instance k0_chk279.dec : ∀ (v388 : IVec S16 32) (v446 : IVec S16 32), Decidable (k0_chk279 v388 v446) := fun v388 v446 => decidable_of_iff' _ (Iff.of_eq (k0_chk279.eq_1 v388 v446))
theorem k0_idx279_inb : ∀ (v388 : IVec S16 32) (v446 : IVec S16 32) (k0_hw279 : k0_chk279 v388 v446), ∀ a x, ((![v388, v446] : Fin 2 → IVec S16 32) a x).toNat < S200x128.size a := fun v388 v446 k0_hw279 => k0_hw279

def k0_chk280 (v449 : IVec S16 32) : Prop :=
  (∀ a x, ((![v449] : Fin 1 → IVec S16 32) a x).toNat < S25600.size a)
instance k0_chk280.dec : ∀ (v449 : IVec S16 32), Decidable (k0_chk280 v449) := fun v449 => decidable_of_iff' _ (Iff.of_eq (k0_chk280.eq_1 v449))
theorem k0_idx280_inb : ∀ (v449 : IVec S16 32) (k0_hw280 : k0_chk280 v449), ∀ a x, ((![v449] : Fin 1 → IVec S16 32) a x).toNat < S25600.size a := fun v449 k0_hw280 => k0_hw280

def k0_chk281 (v388 : IVec S16 32) (v451 : IVec S16 32) : Prop :=
  (∀ a x, ((![v388, v451] : Fin 2 → IVec S16 32) a x).toNat < S200x128.size a)
instance k0_chk281.dec : ∀ (v388 : IVec S16 32) (v451 : IVec S16 32), Decidable (k0_chk281 v388 v451) := fun v388 v451 => decidable_of_iff' _ (Iff.of_eq (k0_chk281.eq_1 v388 v451))
theorem k0_idx281_inb : ∀ (v388 : IVec S16 32) (v451 : IVec S16 32) (k0_hw281 : k0_chk281 v388 v451), ∀ a x, ((![v388, v451] : Fin 2 → IVec S16 32) a x).toNat < S200x128.size a := fun v388 v451 k0_hw281 => k0_hw281

def k0_chk282 (v454 : IVec S16 32) : Prop :=
  (∀ a x, ((![v454] : Fin 1 → IVec S16 32) a x).toNat < S25600.size a)
instance k0_chk282.dec : ∀ (v454 : IVec S16 32), Decidable (k0_chk282 v454) := fun v454 => decidable_of_iff' _ (Iff.of_eq (k0_chk282.eq_1 v454))
theorem k0_idx282_inb : ∀ (v454 : IVec S16 32) (k0_hw282 : k0_chk282 v454), ∀ a x, ((![v454] : Fin 1 → IVec S16 32) a x).toNat < S25600.size a := fun v454 k0_hw282 => k0_hw282

def k0_chk283 (v388 : IVec S16 32) (v456 : IVec S16 32) : Prop :=
  (∀ a x, ((![v388, v456] : Fin 2 → IVec S16 32) a x).toNat < S200x128.size a)
instance k0_chk283.dec : ∀ (v388 : IVec S16 32) (v456 : IVec S16 32), Decidable (k0_chk283 v388 v456) := fun v388 v456 => decidable_of_iff' _ (Iff.of_eq (k0_chk283.eq_1 v388 v456))
theorem k0_idx283_inb : ∀ (v388 : IVec S16 32) (v456 : IVec S16 32) (k0_hw283 : k0_chk283 v388 v456), ∀ a x, ((![v388, v456] : Fin 2 → IVec S16 32) a x).toNat < S200x128.size a := fun v388 v456 k0_hw283 => k0_hw283

def k0_chk284 (v459 : IVec S16 32) : Prop :=
  (∀ a x, ((![v459] : Fin 1 → IVec S16 32) a x).toNat < S25600.size a)
instance k0_chk284.dec : ∀ (v459 : IVec S16 32), Decidable (k0_chk284 v459) := fun v459 => decidable_of_iff' _ (Iff.of_eq (k0_chk284.eq_1 v459))
theorem k0_idx284_inb : ∀ (v459 : IVec S16 32) (k0_hw284 : k0_chk284 v459), ∀ a x, ((![v459] : Fin 1 → IVec S16 32) a x).toNat < S25600.size a := fun v459 k0_hw284 => k0_hw284

def k0_chk285 (v388 : IVec S16 32) (v461 : IVec S16 32) : Prop :=
  (∀ a x, ((![v388, v461] : Fin 2 → IVec S16 32) a x).toNat < S200x128.size a)
instance k0_chk285.dec : ∀ (v388 : IVec S16 32) (v461 : IVec S16 32), Decidable (k0_chk285 v388 v461) := fun v388 v461 => decidable_of_iff' _ (Iff.of_eq (k0_chk285.eq_1 v388 v461))
theorem k0_idx285_inb : ∀ (v388 : IVec S16 32) (v461 : IVec S16 32) (k0_hw285 : k0_chk285 v388 v461), ∀ a x, ((![v388, v461] : Fin 2 → IVec S16 32) a x).toNat < S200x128.size a := fun v388 v461 k0_hw285 => k0_hw285

def k0_chk286 (v464 : IVec S16 32) : Prop :=
  (∀ a x, ((![v464] : Fin 1 → IVec S16 32) a x).toNat < S25600.size a)
instance k0_chk286.dec : ∀ (v464 : IVec S16 32), Decidable (k0_chk286 v464) := fun v464 => decidable_of_iff' _ (Iff.of_eq (k0_chk286.eq_1 v464))
theorem k0_idx286_inb : ∀ (v464 : IVec S16 32) (k0_hw286 : k0_chk286 v464), ∀ a x, ((![v464] : Fin 1 → IVec S16 32) a x).toNat < S25600.size a := fun v464 k0_hw286 => k0_hw286

def k0_chk287 (v388 : IVec S16 32) (v466 : IVec S16 32) : Prop :=
  (∀ a x, ((![v388, v466] : Fin 2 → IVec S16 32) a x).toNat < S200x128.size a)
instance k0_chk287.dec : ∀ (v388 : IVec S16 32) (v466 : IVec S16 32), Decidable (k0_chk287 v388 v466) := fun v388 v466 => decidable_of_iff' _ (Iff.of_eq (k0_chk287.eq_1 v388 v466))
theorem k0_idx287_inb : ∀ (v388 : IVec S16 32) (v466 : IVec S16 32) (k0_hw287 : k0_chk287 v388 v466), ∀ a x, ((![v388, v466] : Fin 2 → IVec S16 32) a x).toNat < S200x128.size a := fun v388 v466 k0_hw287 => k0_hw287

def k0_chk288 (v469 : IVec S16 32) : Prop :=
  (∀ a x, ((![v469] : Fin 1 → IVec S16 32) a x).toNat < S25600.size a)
instance k0_chk288.dec : ∀ (v469 : IVec S16 32), Decidable (k0_chk288 v469) := fun v469 => decidable_of_iff' _ (Iff.of_eq (k0_chk288.eq_1 v469))
theorem k0_idx288_inb : ∀ (v469 : IVec S16 32) (k0_hw288 : k0_chk288 v469), ∀ a x, ((![v469] : Fin 1 → IVec S16 32) a x).toNat < S25600.size a := fun v469 k0_hw288 => k0_hw288

def k0_chk289 (v388 : IVec S16 32) (v472 : IVec S16 32) : Prop :=
  (∀ a x, ((![v388, v472] : Fin 2 → IVec S16 32) a x).toNat < S200x128.size a)
instance k0_chk289.dec : ∀ (v388 : IVec S16 32) (v472 : IVec S16 32), Decidable (k0_chk289 v388 v472) := fun v388 v472 => decidable_of_iff' _ (Iff.of_eq (k0_chk289.eq_1 v388 v472))
theorem k0_idx289_inb : ∀ (v388 : IVec S16 32) (v472 : IVec S16 32) (k0_hw289 : k0_chk289 v388 v472), ∀ a x, ((![v388, v472] : Fin 2 → IVec S16 32) a x).toNat < S200x128.size a := fun v388 v472 k0_hw289 => k0_hw289

def k0_chk290 (v475 : IVec S16 32) : Prop :=
  (∀ a x, ((![v475] : Fin 1 → IVec S16 32) a x).toNat < S25600.size a)
instance k0_chk290.dec : ∀ (v475 : IVec S16 32), Decidable (k0_chk290 v475) := fun v475 => decidable_of_iff' _ (Iff.of_eq (k0_chk290.eq_1 v475))
theorem k0_idx290_inb : ∀ (v475 : IVec S16 32) (k0_hw290 : k0_chk290 v475), ∀ a x, ((![v475] : Fin 1 → IVec S16 32) a x).toNat < S25600.size a := fun v475 k0_hw290 => k0_hw290

def k0_chk291 (v388 : IVec S16 32) (v477 : IVec S16 32) : Prop :=
  (∀ a x, ((![v388, v477] : Fin 2 → IVec S16 32) a x).toNat < S200x128.size a)
instance k0_chk291.dec : ∀ (v388 : IVec S16 32) (v477 : IVec S16 32), Decidable (k0_chk291 v388 v477) := fun v388 v477 => decidable_of_iff' _ (Iff.of_eq (k0_chk291.eq_1 v388 v477))
theorem k0_idx291_inb : ∀ (v388 : IVec S16 32) (v477 : IVec S16 32) (k0_hw291 : k0_chk291 v388 v477), ∀ a x, ((![v388, v477] : Fin 2 → IVec S16 32) a x).toNat < S200x128.size a := fun v388 v477 k0_hw291 => k0_hw291

def k0_chk292 (v480 : IVec S16 32) : Prop :=
  (∀ a x, ((![v480] : Fin 1 → IVec S16 32) a x).toNat < S25600.size a)
instance k0_chk292.dec : ∀ (v480 : IVec S16 32), Decidable (k0_chk292 v480) := fun v480 => decidable_of_iff' _ (Iff.of_eq (k0_chk292.eq_1 v480))
theorem k0_idx292_inb : ∀ (v480 : IVec S16 32) (k0_hw292 : k0_chk292 v480), ∀ a x, ((![v480] : Fin 1 → IVec S16 32) a x).toNat < S25600.size a := fun v480 k0_hw292 => k0_hw292

def k0_chk293 (v388 : IVec S16 32) (v482 : IVec S16 32) : Prop :=
  (∀ a x, ((![v388, v482] : Fin 2 → IVec S16 32) a x).toNat < S200x128.size a)
instance k0_chk293.dec : ∀ (v388 : IVec S16 32) (v482 : IVec S16 32), Decidable (k0_chk293 v388 v482) := fun v388 v482 => decidable_of_iff' _ (Iff.of_eq (k0_chk293.eq_1 v388 v482))
theorem k0_idx293_inb : ∀ (v388 : IVec S16 32) (v482 : IVec S16 32) (k0_hw293 : k0_chk293 v388 v482), ∀ a x, ((![v388, v482] : Fin 2 → IVec S16 32) a x).toNat < S200x128.size a := fun v388 v482 k0_hw293 => k0_hw293

def k0_chk294 (v485 : IVec S16 32) : Prop :=
  (∀ a x, ((![v485] : Fin 1 → IVec S16 32) a x).toNat < S25600.size a)
instance k0_chk294.dec : ∀ (v485 : IVec S16 32), Decidable (k0_chk294 v485) := fun v485 => decidable_of_iff' _ (Iff.of_eq (k0_chk294.eq_1 v485))
theorem k0_idx294_inb : ∀ (v485 : IVec S16 32) (k0_hw294 : k0_chk294 v485), ∀ a x, ((![v485] : Fin 1 → IVec S16 32) a x).toNat < S25600.size a := fun v485 k0_hw294 => k0_hw294

def k0_chk295 (v388 : IVec S16 32) (v487 : IVec S16 32) : Prop :=
  (∀ a x, ((![v388, v487] : Fin 2 → IVec S16 32) a x).toNat < S200x128.size a)
instance k0_chk295.dec : ∀ (v388 : IVec S16 32) (v487 : IVec S16 32), Decidable (k0_chk295 v388 v487) := fun v388 v487 => decidable_of_iff' _ (Iff.of_eq (k0_chk295.eq_1 v388 v487))
theorem k0_idx295_inb : ∀ (v388 : IVec S16 32) (v487 : IVec S16 32) (k0_hw295 : k0_chk295 v388 v487), ∀ a x, ((![v388, v487] : Fin 2 → IVec S16 32) a x).toNat < S200x128.size a := fun v388 v487 k0_hw295 => k0_hw295

def k0_chk296 (v490 : IVec S16 32) : Prop :=
  (∀ a x, ((![v490] : Fin 1 → IVec S16 32) a x).toNat < S25600.size a)
instance k0_chk296.dec : ∀ (v490 : IVec S16 32), Decidable (k0_chk296 v490) := fun v490 => decidable_of_iff' _ (Iff.of_eq (k0_chk296.eq_1 v490))
theorem k0_idx296_inb : ∀ (v490 : IVec S16 32) (k0_hw296 : k0_chk296 v490), ∀ a x, ((![v490] : Fin 1 → IVec S16 32) a x).toNat < S25600.size a := fun v490 k0_hw296 => k0_hw296

def k0_chk297 (v388 : IVec S16 32) (v492 : IVec S16 32) : Prop :=
  (∀ a x, ((![v388, v492] : Fin 2 → IVec S16 32) a x).toNat < S200x128.size a)
instance k0_chk297.dec : ∀ (v388 : IVec S16 32) (v492 : IVec S16 32), Decidable (k0_chk297 v388 v492) := fun v388 v492 => decidable_of_iff' _ (Iff.of_eq (k0_chk297.eq_1 v388 v492))
theorem k0_idx297_inb : ∀ (v388 : IVec S16 32) (v492 : IVec S16 32) (k0_hw297 : k0_chk297 v388 v492), ∀ a x, ((![v388, v492] : Fin 2 → IVec S16 32) a x).toNat < S200x128.size a := fun v388 v492 k0_hw297 => k0_hw297

def k0_chk298 (v495 : IVec S16 32) : Prop :=
  (∀ a x, ((![v495] : Fin 1 → IVec S16 32) a x).toNat < S25600.size a)
instance k0_chk298.dec : ∀ (v495 : IVec S16 32), Decidable (k0_chk298 v495) := fun v495 => decidable_of_iff' _ (Iff.of_eq (k0_chk298.eq_1 v495))
theorem k0_idx298_inb : ∀ (v495 : IVec S16 32) (k0_hw298 : k0_chk298 v495), ∀ a x, ((![v495] : Fin 1 → IVec S16 32) a x).toNat < S25600.size a := fun v495 k0_hw298 => k0_hw298

def k0_chk299 (v388 : IVec S16 32) (v497 : IVec S16 32) : Prop :=
  (∀ a x, ((![v388, v497] : Fin 2 → IVec S16 32) a x).toNat < S200x128.size a)
instance k0_chk299.dec : ∀ (v388 : IVec S16 32) (v497 : IVec S16 32), Decidable (k0_chk299 v388 v497) := fun v388 v497 => decidable_of_iff' _ (Iff.of_eq (k0_chk299.eq_1 v388 v497))
theorem k0_idx299_inb : ∀ (v388 : IVec S16 32) (v497 : IVec S16 32) (k0_hw299 : k0_chk299 v388 v497), ∀ a x, ((![v388, v497] : Fin 2 → IVec S16 32) a x).toNat < S200x128.size a := fun v388 v497 k0_hw299 => k0_hw299

def k0_chk300 (v500 : IVec S16 32) : Prop :=
  (∀ a x, ((![v500] : Fin 1 → IVec S16 32) a x).toNat < S25600.size a)
instance k0_chk300.dec : ∀ (v500 : IVec S16 32), Decidable (k0_chk300 v500) := fun v500 => decidable_of_iff' _ (Iff.of_eq (k0_chk300.eq_1 v500))
theorem k0_idx300_inb : ∀ (v500 : IVec S16 32) (k0_hw300 : k0_chk300 v500), ∀ a x, ((![v500] : Fin 1 → IVec S16 32) a x).toNat < S25600.size a := fun v500 k0_hw300 => k0_hw300

def k0_chk301 (v388 : IVec S16 32) (v502 : IVec S16 32) : Prop :=
  (∀ a x, ((![v388, v502] : Fin 2 → IVec S16 32) a x).toNat < S200x128.size a)
instance k0_chk301.dec : ∀ (v388 : IVec S16 32) (v502 : IVec S16 32), Decidable (k0_chk301 v388 v502) := fun v388 v502 => decidable_of_iff' _ (Iff.of_eq (k0_chk301.eq_1 v388 v502))
theorem k0_idx301_inb : ∀ (v388 : IVec S16 32) (v502 : IVec S16 32) (k0_hw301 : k0_chk301 v388 v502), ∀ a x, ((![v388, v502] : Fin 2 → IVec S16 32) a x).toNat < S200x128.size a := fun v388 v502 k0_hw301 => k0_hw301

def k0_chk302 (v505 : IVec S16 32) : Prop :=
  (∀ a x, ((![v505] : Fin 1 → IVec S16 32) a x).toNat < S25600.size a)
instance k0_chk302.dec : ∀ (v505 : IVec S16 32), Decidable (k0_chk302 v505) := fun v505 => decidable_of_iff' _ (Iff.of_eq (k0_chk302.eq_1 v505))
theorem k0_idx302_inb : ∀ (v505 : IVec S16 32) (k0_hw302 : k0_chk302 v505), ∀ a x, ((![v505] : Fin 1 → IVec S16 32) a x).toNat < S25600.size a := fun v505 k0_hw302 => k0_hw302

def k0_chk303 (v388 : IVec S16 32) (v507 : IVec S16 32) : Prop :=
  (∀ a x, ((![v388, v507] : Fin 2 → IVec S16 32) a x).toNat < S200x128.size a)
instance k0_chk303.dec : ∀ (v388 : IVec S16 32) (v507 : IVec S16 32), Decidable (k0_chk303 v388 v507) := fun v388 v507 => decidable_of_iff' _ (Iff.of_eq (k0_chk303.eq_1 v388 v507))
theorem k0_idx303_inb : ∀ (v388 : IVec S16 32) (v507 : IVec S16 32) (k0_hw303 : k0_chk303 v388 v507), ∀ a x, ((![v388, v507] : Fin 2 → IVec S16 32) a x).toNat < S200x128.size a := fun v388 v507 k0_hw303 => k0_hw303

def k0_chk304 (v510 : IVec S16 32) : Prop :=
  (∀ a x, ((![v510] : Fin 1 → IVec S16 32) a x).toNat < S25600.size a)
instance k0_chk304.dec : ∀ (v510 : IVec S16 32), Decidable (k0_chk304 v510) := fun v510 => decidable_of_iff' _ (Iff.of_eq (k0_chk304.eq_1 v510))
theorem k0_idx304_inb : ∀ (v510 : IVec S16 32) (k0_hw304 : k0_chk304 v510), ∀ a x, ((![v510] : Fin 1 → IVec S16 32) a x).toNat < S25600.size a := fun v510 k0_hw304 => k0_hw304

def k0_chk305 (v388 : IVec S16 32) (v512 : IVec S16 32) : Prop :=
  (∀ a x, ((![v388, v512] : Fin 2 → IVec S16 32) a x).toNat < S200x128.size a)
instance k0_chk305.dec : ∀ (v388 : IVec S16 32) (v512 : IVec S16 32), Decidable (k0_chk305 v388 v512) := fun v388 v512 => decidable_of_iff' _ (Iff.of_eq (k0_chk305.eq_1 v388 v512))
theorem k0_idx305_inb : ∀ (v388 : IVec S16 32) (v512 : IVec S16 32) (k0_hw305 : k0_chk305 v388 v512), ∀ a x, ((![v388, v512] : Fin 2 → IVec S16 32) a x).toNat < S200x128.size a := fun v388 v512 k0_hw305 => k0_hw305

def k0_chk306 (v515 : IVec S16 32) : Prop :=
  (∀ a x, ((![v515] : Fin 1 → IVec S16 32) a x).toNat < S25600.size a)
instance k0_chk306.dec : ∀ (v515 : IVec S16 32), Decidable (k0_chk306 v515) := fun v515 => decidable_of_iff' _ (Iff.of_eq (k0_chk306.eq_1 v515))
theorem k0_idx306_inb : ∀ (v515 : IVec S16 32) (k0_hw306 : k0_chk306 v515), ∀ a x, ((![v515] : Fin 1 → IVec S16 32) a x).toNat < S25600.size a := fun v515 k0_hw306 => k0_hw306

def k0_chk307 (v388 : IVec S16 32) (v517 : IVec S16 32) : Prop :=
  (∀ a x, ((![v388, v517] : Fin 2 → IVec S16 32) a x).toNat < S200x128.size a)
instance k0_chk307.dec : ∀ (v388 : IVec S16 32) (v517 : IVec S16 32), Decidable (k0_chk307 v388 v517) := fun v388 v517 => decidable_of_iff' _ (Iff.of_eq (k0_chk307.eq_1 v388 v517))
theorem k0_idx307_inb : ∀ (v388 : IVec S16 32) (v517 : IVec S16 32) (k0_hw307 : k0_chk307 v388 v517), ∀ a x, ((![v388, v517] : Fin 2 → IVec S16 32) a x).toNat < S200x128.size a := fun v388 v517 k0_hw307 => k0_hw307

def k0_chk308 (v520 : IVec S16 32) : Prop :=
  (∀ a x, ((![v520] : Fin 1 → IVec S16 32) a x).toNat < S25600.size a)
instance k0_chk308.dec : ∀ (v520 : IVec S16 32), Decidable (k0_chk308 v520) := fun v520 => decidable_of_iff' _ (Iff.of_eq (k0_chk308.eq_1 v520))
theorem k0_idx308_inb : ∀ (v520 : IVec S16 32) (k0_hw308 : k0_chk308 v520), ∀ a x, ((![v520] : Fin 1 → IVec S16 32) a x).toNat < S25600.size a := fun v520 k0_hw308 => k0_hw308

def k0_chk309 (v388 : IVec S16 32) (v522 : IVec S16 32) : Prop :=
  (∀ a x, ((![v388, v522] : Fin 2 → IVec S16 32) a x).toNat < S200x128.size a)
instance k0_chk309.dec : ∀ (v388 : IVec S16 32) (v522 : IVec S16 32), Decidable (k0_chk309 v388 v522) := fun v388 v522 => decidable_of_iff' _ (Iff.of_eq (k0_chk309.eq_1 v388 v522))
theorem k0_idx309_inb : ∀ (v388 : IVec S16 32) (v522 : IVec S16 32) (k0_hw309 : k0_chk309 v388 v522), ∀ a x, ((![v388, v522] : Fin 2 → IVec S16 32) a x).toNat < S200x128.size a := fun v388 v522 k0_hw309 => k0_hw309

def k0_chk310 (v525 : IVec S16 32) : Prop :=
  (∀ a x, ((![v525] : Fin 1 → IVec S16 32) a x).toNat < S25600.size a)
instance k0_chk310.dec : ∀ (v525 : IVec S16 32), Decidable (k0_chk310 v525) := fun v525 => decidable_of_iff' _ (Iff.of_eq (k0_chk310.eq_1 v525))
theorem k0_idx310_inb : ∀ (v525 : IVec S16 32) (k0_hw310 : k0_chk310 v525), ∀ a x, ((![v525] : Fin 1 → IVec S16 32) a x).toNat < S25600.size a := fun v525 k0_hw310 => k0_hw310

def k0_chk311 (v388 : IVec S16 32) (v527 : IVec S16 32) : Prop :=
  (∀ a x, ((![v388, v527] : Fin 2 → IVec S16 32) a x).toNat < S200x128.size a)
instance k0_chk311.dec : ∀ (v388 : IVec S16 32) (v527 : IVec S16 32), Decidable (k0_chk311 v388 v527) := fun v388 v527 => decidable_of_iff' _ (Iff.of_eq (k0_chk311.eq_1 v388 v527))
theorem k0_idx311_inb : ∀ (v388 : IVec S16 32) (v527 : IVec S16 32) (k0_hw311 : k0_chk311 v388 v527), ∀ a x, ((![v388, v527] : Fin 2 → IVec S16 32) a x).toNat < S200x128.size a := fun v388 v527 k0_hw311 => k0_hw311

def k0_chk312 (v530 : IVec S16 32) : Prop :=
  (∀ a x, ((![v530] : Fin 1 → IVec S16 32) a x).toNat < S25600.size a)
instance k0_chk312.dec : ∀ (v530 : IVec S16 32), Decidable (k0_chk312 v530) := fun v530 => decidable_of_iff' _ (Iff.of_eq (k0_chk312.eq_1 v530))
theorem k0_idx312_inb : ∀ (v530 : IVec S16 32) (k0_hw312 : k0_chk312 v530), ∀ a x, ((![v530] : Fin 1 → IVec S16 32) a x).toNat < S25600.size a := fun v530 k0_hw312 => k0_hw312

def k0_chk313 (v388 : IVec S16 32) (v532 : IVec S16 32) : Prop :=
  (∀ a x, ((![v388, v532] : Fin 2 → IVec S16 32) a x).toNat < S200x128.size a)
instance k0_chk313.dec : ∀ (v388 : IVec S16 32) (v532 : IVec S16 32), Decidable (k0_chk313 v388 v532) := fun v388 v532 => decidable_of_iff' _ (Iff.of_eq (k0_chk313.eq_1 v388 v532))
theorem k0_idx313_inb : ∀ (v388 : IVec S16 32) (v532 : IVec S16 32) (k0_hw313 : k0_chk313 v388 v532), ∀ a x, ((![v388, v532] : Fin 2 → IVec S16 32) a x).toNat < S200x128.size a := fun v388 v532 k0_hw313 => k0_hw313

def k0_chk314 (v535 : IVec S16 32) : Prop :=
  (∀ a x, ((![v535] : Fin 1 → IVec S16 32) a x).toNat < S25600.size a)
instance k0_chk314.dec : ∀ (v535 : IVec S16 32), Decidable (k0_chk314 v535) := fun v535 => decidable_of_iff' _ (Iff.of_eq (k0_chk314.eq_1 v535))
theorem k0_idx314_inb : ∀ (v535 : IVec S16 32) (k0_hw314 : k0_chk314 v535), ∀ a x, ((![v535] : Fin 1 → IVec S16 32) a x).toNat < S25600.size a := fun v535 k0_hw314 => k0_hw314

def k0_chk315 (v388 : IVec S16 32) (v537 : IVec S16 32) : Prop :=
  (∀ a x, ((![v388, v537] : Fin 2 → IVec S16 32) a x).toNat < S200x128.size a)
instance k0_chk315.dec : ∀ (v388 : IVec S16 32) (v537 : IVec S16 32), Decidable (k0_chk315 v388 v537) := fun v388 v537 => decidable_of_iff' _ (Iff.of_eq (k0_chk315.eq_1 v388 v537))
theorem k0_idx315_inb : ∀ (v388 : IVec S16 32) (v537 : IVec S16 32) (k0_hw315 : k0_chk315 v388 v537), ∀ a x, ((![v388, v537] : Fin 2 → IVec S16 32) a x).toNat < S200x128.size a := fun v388 v537 k0_hw315 => k0_hw315

def k0_chk316 (v540 : IVec S16 32) : Prop :=
  (∀ a x, ((![v540] : Fin 1 → IVec S16 32) a x).toNat < S25600.size a)
instance k0_chk316.dec : ∀ (v540 : IVec S16 32), Decidable (k0_chk316 v540) := fun v540 => decidable_of_iff' _ (Iff.of_eq (k0_chk316.eq_1 v540))
theorem k0_idx316_inb : ∀ (v540 : IVec S16 32) (k0_hw316 : k0_chk316 v540), ∀ a x, ((![v540] : Fin 1 → IVec S16 32) a x).toNat < S25600.size a := fun v540 k0_hw316 => k0_hw316

def k0_chk317 (v388 : IVec S16 32) (v542 : IVec S16 32) : Prop :=
  (∀ a x, ((![v388, v542] : Fin 2 → IVec S16 32) a x).toNat < S200x128.size a)
instance k0_chk317.dec : ∀ (v388 : IVec S16 32) (v542 : IVec S16 32), Decidable (k0_chk317 v388 v542) := fun v388 v542 => decidable_of_iff' _ (Iff.of_eq (k0_chk317.eq_1 v388 v542))
theorem k0_idx317_inb : ∀ (v388 : IVec S16 32) (v542 : IVec S16 32) (k0_hw317 : k0_chk317 v388 v542), ∀ a x, ((![v388, v542] : Fin 2 → IVec S16 32) a x).toNat < S200x128.size a := fun v388 v542 k0_hw317 => k0_hw317

def k0_chk318 (v545 : IVec S16 32) : Prop :=
  (∀ a x, ((![v545] : Fin 1 → IVec S16 32) a x).toNat < S25600.size a)
instance k0_chk318.dec : ∀ (v545 : IVec S16 32), Decidable (k0_chk318 v545) := fun v545 => decidable_of_iff' _ (Iff.of_eq (k0_chk318.eq_1 v545))
theorem k0_idx318_inb : ∀ (v545 : IVec S16 32) (k0_hw318 : k0_chk318 v545), ∀ a x, ((![v545] : Fin 1 → IVec S16 32) a x).toNat < S25600.size a := fun v545 k0_hw318 => k0_hw318

def k0_chk319 (v388 : IVec S16 32) (v547 : IVec S16 32) : Prop :=
  (∀ a x, ((![v388, v547] : Fin 2 → IVec S16 32) a x).toNat < S200x128.size a)
instance k0_chk319.dec : ∀ (v388 : IVec S16 32) (v547 : IVec S16 32), Decidable (k0_chk319 v388 v547) := fun v388 v547 => decidable_of_iff' _ (Iff.of_eq (k0_chk319.eq_1 v388 v547))
theorem k0_idx319_inb : ∀ (v388 : IVec S16 32) (v547 : IVec S16 32) (k0_hw319 : k0_chk319 v388 v547), ∀ a x, ((![v388, v547] : Fin 2 → IVec S16 32) a x).toNat < S200x128.size a := fun v388 v547 k0_hw319 => k0_hw319

def k0_chk320 (v550 : IVec S16 32) : Prop :=
  (∀ a x, ((![v550] : Fin 1 → IVec S16 32) a x).toNat < S25600.size a)
instance k0_chk320.dec : ∀ (v550 : IVec S16 32), Decidable (k0_chk320 v550) := fun v550 => decidable_of_iff' _ (Iff.of_eq (k0_chk320.eq_1 v550))
theorem k0_idx320_inb : ∀ (v550 : IVec S16 32) (k0_hw320 : k0_chk320 v550), ∀ a x, ((![v550] : Fin 1 → IVec S16 32) a x).toNat < S25600.size a := fun v550 k0_hw320 => k0_hw320

def k0_chk321 (v388 : IVec S16 32) (v553 : IVec S16 32) : Prop :=
  (∀ a x, ((![v388, v553] : Fin 2 → IVec S16 32) a x).toNat < S200x128.size a)
instance k0_chk321.dec : ∀ (v388 : IVec S16 32) (v553 : IVec S16 32), Decidable (k0_chk321 v388 v553) := fun v388 v553 => decidable_of_iff' _ (Iff.of_eq (k0_chk321.eq_1 v388 v553))
theorem k0_idx321_inb : ∀ (v388 : IVec S16 32) (v553 : IVec S16 32) (k0_hw321 : k0_chk321 v388 v553), ∀ a x, ((![v388, v553] : Fin 2 → IVec S16 32) a x).toNat < S200x128.size a := fun v388 v553 k0_hw321 => k0_hw321

def k0_chk322 (v556 : IVec S16 32) : Prop :=
  (∀ a x, ((![v556] : Fin 1 → IVec S16 32) a x).toNat < S25600.size a)
instance k0_chk322.dec : ∀ (v556 : IVec S16 32), Decidable (k0_chk322 v556) := fun v556 => decidable_of_iff' _ (Iff.of_eq (k0_chk322.eq_1 v556))
theorem k0_idx322_inb : ∀ (v556 : IVec S16 32) (k0_hw322 : k0_chk322 v556), ∀ a x, ((![v556] : Fin 1 → IVec S16 32) a x).toNat < S25600.size a := fun v556 k0_hw322 => k0_hw322

def k0_chk323 (v388 : IVec S16 32) (v558 : IVec S16 32) : Prop :=
  (∀ a x, ((![v388, v558] : Fin 2 → IVec S16 32) a x).toNat < S200x128.size a)
instance k0_chk323.dec : ∀ (v388 : IVec S16 32) (v558 : IVec S16 32), Decidable (k0_chk323 v388 v558) := fun v388 v558 => decidable_of_iff' _ (Iff.of_eq (k0_chk323.eq_1 v388 v558))
theorem k0_idx323_inb : ∀ (v388 : IVec S16 32) (v558 : IVec S16 32) (k0_hw323 : k0_chk323 v388 v558), ∀ a x, ((![v388, v558] : Fin 2 → IVec S16 32) a x).toNat < S200x128.size a := fun v388 v558 k0_hw323 => k0_hw323

def k0_chk324 (v561 : IVec S16 32) : Prop :=
  (∀ a x, ((![v561] : Fin 1 → IVec S16 32) a x).toNat < S25600.size a)
instance k0_chk324.dec : ∀ (v561 : IVec S16 32), Decidable (k0_chk324 v561) := fun v561 => decidable_of_iff' _ (Iff.of_eq (k0_chk324.eq_1 v561))
theorem k0_idx324_inb : ∀ (v561 : IVec S16 32) (k0_hw324 : k0_chk324 v561), ∀ a x, ((![v561] : Fin 1 → IVec S16 32) a x).toNat < S25600.size a := fun v561 k0_hw324 => k0_hw324

def k0_chk325 (v388 : IVec S16 32) (v563 : IVec S16 32) : Prop :=
  (∀ a x, ((![v388, v563] : Fin 2 → IVec S16 32) a x).toNat < S200x128.size a)
instance k0_chk325.dec : ∀ (v388 : IVec S16 32) (v563 : IVec S16 32), Decidable (k0_chk325 v388 v563) := fun v388 v563 => decidable_of_iff' _ (Iff.of_eq (k0_chk325.eq_1 v388 v563))
theorem k0_idx325_inb : ∀ (v388 : IVec S16 32) (v563 : IVec S16 32) (k0_hw325 : k0_chk325 v388 v563), ∀ a x, ((![v388, v563] : Fin 2 → IVec S16 32) a x).toNat < S200x128.size a := fun v388 v563 k0_hw325 => k0_hw325

def k0_chk326 (v566 : IVec S16 32) : Prop :=
  (∀ a x, ((![v566] : Fin 1 → IVec S16 32) a x).toNat < S25600.size a)
instance k0_chk326.dec : ∀ (v566 : IVec S16 32), Decidable (k0_chk326 v566) := fun v566 => decidable_of_iff' _ (Iff.of_eq (k0_chk326.eq_1 v566))
theorem k0_idx326_inb : ∀ (v566 : IVec S16 32) (k0_hw326 : k0_chk326 v566), ∀ a x, ((![v566] : Fin 1 → IVec S16 32) a x).toNat < S25600.size a := fun v566 k0_hw326 => k0_hw326

def k0_chk327 (v388 : IVec S16 32) (v568 : IVec S16 32) : Prop :=
  (∀ a x, ((![v388, v568] : Fin 2 → IVec S16 32) a x).toNat < S200x128.size a)
instance k0_chk327.dec : ∀ (v388 : IVec S16 32) (v568 : IVec S16 32), Decidable (k0_chk327 v388 v568) := fun v388 v568 => decidable_of_iff' _ (Iff.of_eq (k0_chk327.eq_1 v388 v568))
theorem k0_idx327_inb : ∀ (v388 : IVec S16 32) (v568 : IVec S16 32) (k0_hw327 : k0_chk327 v388 v568), ∀ a x, ((![v388, v568] : Fin 2 → IVec S16 32) a x).toNat < S200x128.size a := fun v388 v568 k0_hw327 => k0_hw327

def k0_chk328 (v571 : IVec S16 32) : Prop :=
  (∀ a x, ((![v571] : Fin 1 → IVec S16 32) a x).toNat < S25600.size a)
instance k0_chk328.dec : ∀ (v571 : IVec S16 32), Decidable (k0_chk328 v571) := fun v571 => decidable_of_iff' _ (Iff.of_eq (k0_chk328.eq_1 v571))
theorem k0_idx328_inb : ∀ (v571 : IVec S16 32) (k0_hw328 : k0_chk328 v571), ∀ a x, ((![v571] : Fin 1 → IVec S16 32) a x).toNat < S25600.size a := fun v571 k0_hw328 => k0_hw328

def k0_chk329 (v388 : IVec S16 32) (v573 : IVec S16 32) : Prop :=
  (∀ a x, ((![v388, v573] : Fin 2 → IVec S16 32) a x).toNat < S200x128.size a)
instance k0_chk329.dec : ∀ (v388 : IVec S16 32) (v573 : IVec S16 32), Decidable (k0_chk329 v388 v573) := fun v388 v573 => decidable_of_iff' _ (Iff.of_eq (k0_chk329.eq_1 v388 v573))
theorem k0_idx329_inb : ∀ (v388 : IVec S16 32) (v573 : IVec S16 32) (k0_hw329 : k0_chk329 v388 v573), ∀ a x, ((![v388, v573] : Fin 2 → IVec S16 32) a x).toNat < S200x128.size a := fun v388 v573 k0_hw329 => k0_hw329

def k0_chk330 (v576 : IVec S16 32) : Prop :=
  (∀ a x, ((![v576] : Fin 1 → IVec S16 32) a x).toNat < S25600.size a)
instance k0_chk330.dec : ∀ (v576 : IVec S16 32), Decidable (k0_chk330 v576) := fun v576 => decidable_of_iff' _ (Iff.of_eq (k0_chk330.eq_1 v576))
theorem k0_idx330_inb : ∀ (v576 : IVec S16 32) (k0_hw330 : k0_chk330 v576), ∀ a x, ((![v576] : Fin 1 → IVec S16 32) a x).toNat < S25600.size a := fun v576 k0_hw330 => k0_hw330

def k0_chk331 (v388 : IVec S16 32) (v578 : IVec S16 32) : Prop :=
  (∀ a x, ((![v388, v578] : Fin 2 → IVec S16 32) a x).toNat < S200x128.size a)
instance k0_chk331.dec : ∀ (v388 : IVec S16 32) (v578 : IVec S16 32), Decidable (k0_chk331 v388 v578) := fun v388 v578 => decidable_of_iff' _ (Iff.of_eq (k0_chk331.eq_1 v388 v578))
theorem k0_idx331_inb : ∀ (v388 : IVec S16 32) (v578 : IVec S16 32) (k0_hw331 : k0_chk331 v388 v578), ∀ a x, ((![v388, v578] : Fin 2 → IVec S16 32) a x).toNat < S200x128.size a := fun v388 v578 k0_hw331 => k0_hw331

def k0_chk332 (v581 : IVec S16 32) : Prop :=
  (∀ a x, ((![v581] : Fin 1 → IVec S16 32) a x).toNat < S25600.size a)
instance k0_chk332.dec : ∀ (v581 : IVec S16 32), Decidable (k0_chk332 v581) := fun v581 => decidable_of_iff' _ (Iff.of_eq (k0_chk332.eq_1 v581))
theorem k0_idx332_inb : ∀ (v581 : IVec S16 32) (k0_hw332 : k0_chk332 v581), ∀ a x, ((![v581] : Fin 1 → IVec S16 32) a x).toNat < S25600.size a := fun v581 k0_hw332 => k0_hw332

def k0_chk333 (v388 : IVec S16 32) (v583 : IVec S16 32) : Prop :=
  (∀ a x, ((![v388, v583] : Fin 2 → IVec S16 32) a x).toNat < S200x128.size a)
instance k0_chk333.dec : ∀ (v388 : IVec S16 32) (v583 : IVec S16 32), Decidable (k0_chk333 v388 v583) := fun v388 v583 => decidable_of_iff' _ (Iff.of_eq (k0_chk333.eq_1 v388 v583))
theorem k0_idx333_inb : ∀ (v388 : IVec S16 32) (v583 : IVec S16 32) (k0_hw333 : k0_chk333 v388 v583), ∀ a x, ((![v388, v583] : Fin 2 → IVec S16 32) a x).toNat < S200x128.size a := fun v388 v583 k0_hw333 => k0_hw333

def k0_chk334 (v586 : IVec S16 32) : Prop :=
  (∀ a x, ((![v586] : Fin 1 → IVec S16 32) a x).toNat < S25600.size a)
instance k0_chk334.dec : ∀ (v586 : IVec S16 32), Decidable (k0_chk334 v586) := fun v586 => decidable_of_iff' _ (Iff.of_eq (k0_chk334.eq_1 v586))
theorem k0_idx334_inb : ∀ (v586 : IVec S16 32) (k0_hw334 : k0_chk334 v586), ∀ a x, ((![v586] : Fin 1 → IVec S16 32) a x).toNat < S25600.size a := fun v586 k0_hw334 => k0_hw334

def k0_chk335 (v388 : IVec S16 32) (v588 : IVec S16 32) : Prop :=
  (∀ a x, ((![v388, v588] : Fin 2 → IVec S16 32) a x).toNat < S200x128.size a)
instance k0_chk335.dec : ∀ (v388 : IVec S16 32) (v588 : IVec S16 32), Decidable (k0_chk335 v388 v588) := fun v388 v588 => decidable_of_iff' _ (Iff.of_eq (k0_chk335.eq_1 v388 v588))
theorem k0_idx335_inb : ∀ (v388 : IVec S16 32) (v588 : IVec S16 32) (k0_hw335 : k0_chk335 v388 v588), ∀ a x, ((![v388, v588] : Fin 2 → IVec S16 32) a x).toNat < S200x128.size a := fun v388 v588 k0_hw335 => k0_hw335

def k0_chk336 (v591 : IVec S16 32) : Prop :=
  (∀ a x, ((![v591] : Fin 1 → IVec S16 32) a x).toNat < S25600.size a)
instance k0_chk336.dec : ∀ (v591 : IVec S16 32), Decidable (k0_chk336 v591) := fun v591 => decidable_of_iff' _ (Iff.of_eq (k0_chk336.eq_1 v591))
theorem k0_idx336_inb : ∀ (v591 : IVec S16 32) (k0_hw336 : k0_chk336 v591), ∀ a x, ((![v591] : Fin 1 → IVec S16 32) a x).toNat < S25600.size a := fun v591 k0_hw336 => k0_hw336

def k0_chk337 (v388 : IVec S16 32) (v593 : IVec S16 32) : Prop :=
  (∀ a x, ((![v388, v593] : Fin 2 → IVec S16 32) a x).toNat < S200x128.size a)
instance k0_chk337.dec : ∀ (v388 : IVec S16 32) (v593 : IVec S16 32), Decidable (k0_chk337 v388 v593) := fun v388 v593 => decidable_of_iff' _ (Iff.of_eq (k0_chk337.eq_1 v388 v593))
theorem k0_idx337_inb : ∀ (v388 : IVec S16 32) (v593 : IVec S16 32) (k0_hw337 : k0_chk337 v388 v593), ∀ a x, ((![v388, v593] : Fin 2 → IVec S16 32) a x).toNat < S200x128.size a := fun v388 v593 k0_hw337 => k0_hw337

def k0_chk338 (v596 : IVec S16 32) : Prop :=
  (∀ a x, ((![v596] : Fin 1 → IVec S16 32) a x).toNat < S25600.size a)
instance k0_chk338.dec : ∀ (v596 : IVec S16 32), Decidable (k0_chk338 v596) := fun v596 => decidable_of_iff' _ (Iff.of_eq (k0_chk338.eq_1 v596))
theorem k0_idx338_inb : ∀ (v596 : IVec S16 32) (k0_hw338 : k0_chk338 v596), ∀ a x, ((![v596] : Fin 1 → IVec S16 32) a x).toNat < S25600.size a := fun v596 k0_hw338 => k0_hw338

def k0_chk339 (v388 : IVec S16 32) (v598 : IVec S16 32) : Prop :=
  (∀ a x, ((![v388, v598] : Fin 2 → IVec S16 32) a x).toNat < S200x128.size a)
instance k0_chk339.dec : ∀ (v388 : IVec S16 32) (v598 : IVec S16 32), Decidable (k0_chk339 v388 v598) := fun v388 v598 => decidable_of_iff' _ (Iff.of_eq (k0_chk339.eq_1 v388 v598))
theorem k0_idx339_inb : ∀ (v388 : IVec S16 32) (v598 : IVec S16 32) (k0_hw339 : k0_chk339 v388 v598), ∀ a x, ((![v388, v598] : Fin 2 → IVec S16 32) a x).toNat < S200x128.size a := fun v388 v598 k0_hw339 => k0_hw339

def k0_chk340 (v601 : IVec S16 32) : Prop :=
  (∀ a x, ((![v601] : Fin 1 → IVec S16 32) a x).toNat < S25600.size a)
instance k0_chk340.dec : ∀ (v601 : IVec S16 32), Decidable (k0_chk340 v601) := fun v601 => decidable_of_iff' _ (Iff.of_eq (k0_chk340.eq_1 v601))
theorem k0_idx340_inb : ∀ (v601 : IVec S16 32) (k0_hw340 : k0_chk340 v601), ∀ a x, ((![v601] : Fin 1 → IVec S16 32) a x).toNat < S25600.size a := fun v601 k0_hw340 => k0_hw340

def k0_chk341 (v388 : IVec S16 32) (v603 : IVec S16 32) : Prop :=
  (∀ a x, ((![v388, v603] : Fin 2 → IVec S16 32) a x).toNat < S200x128.size a)
instance k0_chk341.dec : ∀ (v388 : IVec S16 32) (v603 : IVec S16 32), Decidable (k0_chk341 v388 v603) := fun v388 v603 => decidable_of_iff' _ (Iff.of_eq (k0_chk341.eq_1 v388 v603))
theorem k0_idx341_inb : ∀ (v388 : IVec S16 32) (v603 : IVec S16 32) (k0_hw341 : k0_chk341 v388 v603), ∀ a x, ((![v388, v603] : Fin 2 → IVec S16 32) a x).toNat < S200x128.size a := fun v388 v603 k0_hw341 => k0_hw341

def k0_chk342 (v606 : IVec S16 32) : Prop :=
  (∀ a x, ((![v606] : Fin 1 → IVec S16 32) a x).toNat < S25600.size a)
instance k0_chk342.dec : ∀ (v606 : IVec S16 32), Decidable (k0_chk342 v606) := fun v606 => decidable_of_iff' _ (Iff.of_eq (k0_chk342.eq_1 v606))
theorem k0_idx342_inb : ∀ (v606 : IVec S16 32) (k0_hw342 : k0_chk342 v606), ∀ a x, ((![v606] : Fin 1 → IVec S16 32) a x).toNat < S25600.size a := fun v606 k0_hw342 => k0_hw342

def k0_chk343 (v388 : IVec S16 32) (v608 : IVec S16 32) : Prop :=
  (∀ a x, ((![v388, v608] : Fin 2 → IVec S16 32) a x).toNat < S200x128.size a)
instance k0_chk343.dec : ∀ (v388 : IVec S16 32) (v608 : IVec S16 32), Decidable (k0_chk343 v388 v608) := fun v388 v608 => decidable_of_iff' _ (Iff.of_eq (k0_chk343.eq_1 v388 v608))
theorem k0_idx343_inb : ∀ (v388 : IVec S16 32) (v608 : IVec S16 32) (k0_hw343 : k0_chk343 v388 v608), ∀ a x, ((![v388, v608] : Fin 2 → IVec S16 32) a x).toNat < S200x128.size a := fun v388 v608 k0_hw343 => k0_hw343

def k0_chk344 (v611 : IVec S16 32) : Prop :=
  (∀ a x, ((![v611] : Fin 1 → IVec S16 32) a x).toNat < S25600.size a)
instance k0_chk344.dec : ∀ (v611 : IVec S16 32), Decidable (k0_chk344 v611) := fun v611 => decidable_of_iff' _ (Iff.of_eq (k0_chk344.eq_1 v611))
theorem k0_idx344_inb : ∀ (v611 : IVec S16 32) (k0_hw344 : k0_chk344 v611), ∀ a x, ((![v611] : Fin 1 → IVec S16 32) a x).toNat < S25600.size a := fun v611 k0_hw344 => k0_hw344

def k0_chk345 (v388 : IVec S16 32) (v613 : IVec S16 32) : Prop :=
  (∀ a x, ((![v388, v613] : Fin 2 → IVec S16 32) a x).toNat < S200x128.size a)
instance k0_chk345.dec : ∀ (v388 : IVec S16 32) (v613 : IVec S16 32), Decidable (k0_chk345 v388 v613) := fun v388 v613 => decidable_of_iff' _ (Iff.of_eq (k0_chk345.eq_1 v388 v613))
theorem k0_idx345_inb : ∀ (v388 : IVec S16 32) (v613 : IVec S16 32) (k0_hw345 : k0_chk345 v388 v613), ∀ a x, ((![v388, v613] : Fin 2 → IVec S16 32) a x).toNat < S200x128.size a := fun v388 v613 k0_hw345 => k0_hw345

def k0_chk346 (v616 : IVec S16 32) : Prop :=
  (∀ a x, ((![v616] : Fin 1 → IVec S16 32) a x).toNat < S25600.size a)
instance k0_chk346.dec : ∀ (v616 : IVec S16 32), Decidable (k0_chk346 v616) := fun v616 => decidable_of_iff' _ (Iff.of_eq (k0_chk346.eq_1 v616))
theorem k0_idx346_inb : ∀ (v616 : IVec S16 32) (k0_hw346 : k0_chk346 v616), ∀ a x, ((![v616] : Fin 1 → IVec S16 32) a x).toNat < S25600.size a := fun v616 k0_hw346 => k0_hw346

def k0_chk347 (v388 : IVec S16 32) (v618 : IVec S16 32) : Prop :=
  (∀ a x, ((![v388, v618] : Fin 2 → IVec S16 32) a x).toNat < S200x128.size a)
instance k0_chk347.dec : ∀ (v388 : IVec S16 32) (v618 : IVec S16 32), Decidable (k0_chk347 v388 v618) := fun v388 v618 => decidable_of_iff' _ (Iff.of_eq (k0_chk347.eq_1 v388 v618))
theorem k0_idx347_inb : ∀ (v388 : IVec S16 32) (v618 : IVec S16 32) (k0_hw347 : k0_chk347 v388 v618), ∀ a x, ((![v388, v618] : Fin 2 → IVec S16 32) a x).toNat < S200x128.size a := fun v388 v618 k0_hw347 => k0_hw347

def k0_chk348 (v621 : IVec S16 32) : Prop :=
  (∀ a x, ((![v621] : Fin 1 → IVec S16 32) a x).toNat < S25600.size a)
instance k0_chk348.dec : ∀ (v621 : IVec S16 32), Decidable (k0_chk348 v621) := fun v621 => decidable_of_iff' _ (Iff.of_eq (k0_chk348.eq_1 v621))
theorem k0_idx348_inb : ∀ (v621 : IVec S16 32) (k0_hw348 : k0_chk348 v621), ∀ a x, ((![v621] : Fin 1 → IVec S16 32) a x).toNat < S25600.size a := fun v621 k0_hw348 => k0_hw348

def k0_chk349 (v388 : IVec S16 32) (v623 : IVec S16 32) : Prop :=
  (∀ a x, ((![v388, v623] : Fin 2 → IVec S16 32) a x).toNat < S200x128.size a)
instance k0_chk349.dec : ∀ (v388 : IVec S16 32) (v623 : IVec S16 32), Decidable (k0_chk349 v388 v623) := fun v388 v623 => decidable_of_iff' _ (Iff.of_eq (k0_chk349.eq_1 v388 v623))
theorem k0_idx349_inb : ∀ (v388 : IVec S16 32) (v623 : IVec S16 32) (k0_hw349 : k0_chk349 v388 v623), ∀ a x, ((![v388, v623] : Fin 2 → IVec S16 32) a x).toNat < S200x128.size a := fun v388 v623 k0_hw349 => k0_hw349

def k0_chk350 (v626 : IVec S16 32) : Prop :=
  (∀ a x, ((![v626] : Fin 1 → IVec S16 32) a x).toNat < S25600.size a)
instance k0_chk350.dec : ∀ (v626 : IVec S16 32), Decidable (k0_chk350 v626) := fun v626 => decidable_of_iff' _ (Iff.of_eq (k0_chk350.eq_1 v626))
theorem k0_idx350_inb : ∀ (v626 : IVec S16 32) (k0_hw350 : k0_chk350 v626), ∀ a x, ((![v626] : Fin 1 → IVec S16 32) a x).toNat < S25600.size a := fun v626 k0_hw350 => k0_hw350

def k0_chk351 (v388 : IVec S16 32) (v628 : IVec S16 32) : Prop :=
  (∀ a x, ((![v388, v628] : Fin 2 → IVec S16 32) a x).toNat < S200x128.size a)
instance k0_chk351.dec : ∀ (v388 : IVec S16 32) (v628 : IVec S16 32), Decidable (k0_chk351 v388 v628) := fun v388 v628 => decidable_of_iff' _ (Iff.of_eq (k0_chk351.eq_1 v388 v628))
theorem k0_idx351_inb : ∀ (v388 : IVec S16 32) (v628 : IVec S16 32) (k0_hw351 : k0_chk351 v388 v628), ∀ a x, ((![v388, v628] : Fin 2 → IVec S16 32) a x).toNat < S200x128.size a := fun v388 v628 k0_hw351 => k0_hw351

def k0_chk352 (v631 : IVec S16 32) : Prop :=
  (∀ a x, ((![v631] : Fin 1 → IVec S16 32) a x).toNat < S25600.size a)
instance k0_chk352.dec : ∀ (v631 : IVec S16 32), Decidable (k0_chk352 v631) := fun v631 => decidable_of_iff' _ (Iff.of_eq (k0_chk352.eq_1 v631))
theorem k0_idx352_inb : ∀ (v631 : IVec S16 32) (k0_hw352 : k0_chk352 v631), ∀ a x, ((![v631] : Fin 1 → IVec S16 32) a x).toNat < S25600.size a := fun v631 k0_hw352 => k0_hw352

def k0_chk353 (v388 : IVec S16 32) (v634 : IVec S16 32) : Prop :=
  (∀ a x, ((![v388, v634] : Fin 2 → IVec S16 32) a x).toNat < S200x128.size a)
instance k0_chk353.dec : ∀ (v388 : IVec S16 32) (v634 : IVec S16 32), Decidable (k0_chk353 v388 v634) := fun v388 v634 => decidable_of_iff' _ (Iff.of_eq (k0_chk353.eq_1 v388 v634))
theorem k0_idx353_inb : ∀ (v388 : IVec S16 32) (v634 : IVec S16 32) (k0_hw353 : k0_chk353 v388 v634), ∀ a x, ((![v388, v634] : Fin 2 → IVec S16 32) a x).toNat < S200x128.size a := fun v388 v634 k0_hw353 => k0_hw353

def k0_chk354 (v637 : IVec S16 32) : Prop :=
  (∀ a x, ((![v637] : Fin 1 → IVec S16 32) a x).toNat < S25600.size a)
instance k0_chk354.dec : ∀ (v637 : IVec S16 32), Decidable (k0_chk354 v637) := fun v637 => decidable_of_iff' _ (Iff.of_eq (k0_chk354.eq_1 v637))
theorem k0_idx354_inb : ∀ (v637 : IVec S16 32) (k0_hw354 : k0_chk354 v637), ∀ a x, ((![v637] : Fin 1 → IVec S16 32) a x).toNat < S25600.size a := fun v637 k0_hw354 => k0_hw354

def k0_chk355 (v388 : IVec S16 32) (v639 : IVec S16 32) : Prop :=
  (∀ a x, ((![v388, v639] : Fin 2 → IVec S16 32) a x).toNat < S200x128.size a)
instance k0_chk355.dec : ∀ (v388 : IVec S16 32) (v639 : IVec S16 32), Decidable (k0_chk355 v388 v639) := fun v388 v639 => decidable_of_iff' _ (Iff.of_eq (k0_chk355.eq_1 v388 v639))
theorem k0_idx355_inb : ∀ (v388 : IVec S16 32) (v639 : IVec S16 32) (k0_hw355 : k0_chk355 v388 v639), ∀ a x, ((![v388, v639] : Fin 2 → IVec S16 32) a x).toNat < S200x128.size a := fun v388 v639 k0_hw355 => k0_hw355

def k0_chk356 (v642 : IVec S16 32) : Prop :=
  (∀ a x, ((![v642] : Fin 1 → IVec S16 32) a x).toNat < S25600.size a)
instance k0_chk356.dec : ∀ (v642 : IVec S16 32), Decidable (k0_chk356 v642) := fun v642 => decidable_of_iff' _ (Iff.of_eq (k0_chk356.eq_1 v642))
theorem k0_idx356_inb : ∀ (v642 : IVec S16 32) (k0_hw356 : k0_chk356 v642), ∀ a x, ((![v642] : Fin 1 → IVec S16 32) a x).toNat < S25600.size a := fun v642 k0_hw356 => k0_hw356

def k0_chk357 (v388 : IVec S16 32) (v644 : IVec S16 32) : Prop :=
  (∀ a x, ((![v388, v644] : Fin 2 → IVec S16 32) a x).toNat < S200x128.size a)
instance k0_chk357.dec : ∀ (v388 : IVec S16 32) (v644 : IVec S16 32), Decidable (k0_chk357 v388 v644) := fun v388 v644 => decidable_of_iff' _ (Iff.of_eq (k0_chk357.eq_1 v388 v644))
theorem k0_idx357_inb : ∀ (v388 : IVec S16 32) (v644 : IVec S16 32) (k0_hw357 : k0_chk357 v388 v644), ∀ a x, ((![v388, v644] : Fin 2 → IVec S16 32) a x).toNat < S200x128.size a := fun v388 v644 k0_hw357 => k0_hw357

def k0_chk358 (v647 : IVec S16 32) : Prop :=
  (∀ a x, ((![v647] : Fin 1 → IVec S16 32) a x).toNat < S25600.size a)
instance k0_chk358.dec : ∀ (v647 : IVec S16 32), Decidable (k0_chk358 v647) := fun v647 => decidable_of_iff' _ (Iff.of_eq (k0_chk358.eq_1 v647))
theorem k0_idx358_inb : ∀ (v647 : IVec S16 32) (k0_hw358 : k0_chk358 v647), ∀ a x, ((![v647] : Fin 1 → IVec S16 32) a x).toNat < S25600.size a := fun v647 k0_hw358 => k0_hw358

def k0_chk359 (v388 : IVec S16 32) (v649 : IVec S16 32) : Prop :=
  (∀ a x, ((![v388, v649] : Fin 2 → IVec S16 32) a x).toNat < S200x128.size a)
instance k0_chk359.dec : ∀ (v388 : IVec S16 32) (v649 : IVec S16 32), Decidable (k0_chk359 v388 v649) := fun v388 v649 => decidable_of_iff' _ (Iff.of_eq (k0_chk359.eq_1 v388 v649))
theorem k0_idx359_inb : ∀ (v388 : IVec S16 32) (v649 : IVec S16 32) (k0_hw359 : k0_chk359 v388 v649), ∀ a x, ((![v388, v649] : Fin 2 → IVec S16 32) a x).toNat < S200x128.size a := fun v388 v649 k0_hw359 => k0_hw359

def k0_chk360 (v652 : IVec S16 32) : Prop :=
  (∀ a x, ((![v652] : Fin 1 → IVec S16 32) a x).toNat < S25600.size a)
instance k0_chk360.dec : ∀ (v652 : IVec S16 32), Decidable (k0_chk360 v652) := fun v652 => decidable_of_iff' _ (Iff.of_eq (k0_chk360.eq_1 v652))
theorem k0_idx360_inb : ∀ (v652 : IVec S16 32) (k0_hw360 : k0_chk360 v652), ∀ a x, ((![v652] : Fin 1 → IVec S16 32) a x).toNat < S25600.size a := fun v652 k0_hw360 => k0_hw360

def k0_chk361 (v388 : IVec S16 32) (v654 : IVec S16 32) : Prop :=
  (∀ a x, ((![v388, v654] : Fin 2 → IVec S16 32) a x).toNat < S200x128.size a)
instance k0_chk361.dec : ∀ (v388 : IVec S16 32) (v654 : IVec S16 32), Decidable (k0_chk361 v388 v654) := fun v388 v654 => decidable_of_iff' _ (Iff.of_eq (k0_chk361.eq_1 v388 v654))
theorem k0_idx361_inb : ∀ (v388 : IVec S16 32) (v654 : IVec S16 32) (k0_hw361 : k0_chk361 v388 v654), ∀ a x, ((![v388, v654] : Fin 2 → IVec S16 32) a x).toNat < S200x128.size a := fun v388 v654 k0_hw361 => k0_hw361

def k0_chk362 (v657 : IVec S16 32) : Prop :=
  (∀ a x, ((![v657] : Fin 1 → IVec S16 32) a x).toNat < S25600.size a)
instance k0_chk362.dec : ∀ (v657 : IVec S16 32), Decidable (k0_chk362 v657) := fun v657 => decidable_of_iff' _ (Iff.of_eq (k0_chk362.eq_1 v657))
theorem k0_idx362_inb : ∀ (v657 : IVec S16 32) (k0_hw362 : k0_chk362 v657), ∀ a x, ((![v657] : Fin 1 → IVec S16 32) a x).toNat < S25600.size a := fun v657 k0_hw362 => k0_hw362

def k0_chk363 (v388 : IVec S16 32) (v659 : IVec S16 32) : Prop :=
  (∀ a x, ((![v388, v659] : Fin 2 → IVec S16 32) a x).toNat < S200x128.size a)
instance k0_chk363.dec : ∀ (v388 : IVec S16 32) (v659 : IVec S16 32), Decidable (k0_chk363 v388 v659) := fun v388 v659 => decidable_of_iff' _ (Iff.of_eq (k0_chk363.eq_1 v388 v659))
theorem k0_idx363_inb : ∀ (v388 : IVec S16 32) (v659 : IVec S16 32) (k0_hw363 : k0_chk363 v388 v659), ∀ a x, ((![v388, v659] : Fin 2 → IVec S16 32) a x).toNat < S200x128.size a := fun v388 v659 k0_hw363 => k0_hw363

def k0_chk364 (v662 : IVec S16 32) : Prop :=
  (∀ a x, ((![v662] : Fin 1 → IVec S16 32) a x).toNat < S25600.size a)
instance k0_chk364.dec : ∀ (v662 : IVec S16 32), Decidable (k0_chk364 v662) := fun v662 => decidable_of_iff' _ (Iff.of_eq (k0_chk364.eq_1 v662))
theorem k0_idx364_inb : ∀ (v662 : IVec S16 32) (k0_hw364 : k0_chk364 v662), ∀ a x, ((![v662] : Fin 1 → IVec S16 32) a x).toNat < S25600.size a := fun v662 k0_hw364 => k0_hw364

def k0_chk365 (v388 : IVec S16 32) (v664 : IVec S16 32) : Prop :=
  (∀ a x, ((![v388, v664] : Fin 2 → IVec S16 32) a x).toNat < S200x128.size a)
instance k0_chk365.dec : ∀ (v388 : IVec S16 32) (v664 : IVec S16 32), Decidable (k0_chk365 v388 v664) := fun v388 v664 => decidable_of_iff' _ (Iff.of_eq (k0_chk365.eq_1 v388 v664))
theorem k0_idx365_inb : ∀ (v388 : IVec S16 32) (v664 : IVec S16 32) (k0_hw365 : k0_chk365 v388 v664), ∀ a x, ((![v388, v664] : Fin 2 → IVec S16 32) a x).toNat < S200x128.size a := fun v388 v664 k0_hw365 => k0_hw365

def k0_chk366 (v667 : IVec S16 32) : Prop :=
  (∀ a x, ((![v667] : Fin 1 → IVec S16 32) a x).toNat < S25600.size a)
instance k0_chk366.dec : ∀ (v667 : IVec S16 32), Decidable (k0_chk366 v667) := fun v667 => decidable_of_iff' _ (Iff.of_eq (k0_chk366.eq_1 v667))
theorem k0_idx366_inb : ∀ (v667 : IVec S16 32) (k0_hw366 : k0_chk366 v667), ∀ a x, ((![v667] : Fin 1 → IVec S16 32) a x).toNat < S25600.size a := fun v667 k0_hw366 => k0_hw366

def k0_chk367 (v388 : IVec S16 32) (v669 : IVec S16 32) : Prop :=
  (∀ a x, ((![v388, v669] : Fin 2 → IVec S16 32) a x).toNat < S200x128.size a)
instance k0_chk367.dec : ∀ (v388 : IVec S16 32) (v669 : IVec S16 32), Decidable (k0_chk367 v388 v669) := fun v388 v669 => decidable_of_iff' _ (Iff.of_eq (k0_chk367.eq_1 v388 v669))
theorem k0_idx367_inb : ∀ (v388 : IVec S16 32) (v669 : IVec S16 32) (k0_hw367 : k0_chk367 v388 v669), ∀ a x, ((![v388, v669] : Fin 2 → IVec S16 32) a x).toNat < S200x128.size a := fun v388 v669 k0_hw367 => k0_hw367

def k0_chk368 (v672 : IVec S16 32) : Prop :=
  (∀ a x, ((![v672] : Fin 1 → IVec S16 32) a x).toNat < S25600.size a)
instance k0_chk368.dec : ∀ (v672 : IVec S16 32), Decidable (k0_chk368 v672) := fun v672 => decidable_of_iff' _ (Iff.of_eq (k0_chk368.eq_1 v672))
theorem k0_idx368_inb : ∀ (v672 : IVec S16 32) (k0_hw368 : k0_chk368 v672), ∀ a x, ((![v672] : Fin 1 → IVec S16 32) a x).toNat < S25600.size a := fun v672 k0_hw368 => k0_hw368

def k0_chk369 (v388 : IVec S16 32) (v674 : IVec S16 32) : Prop :=
  (∀ a x, ((![v388, v674] : Fin 2 → IVec S16 32) a x).toNat < S200x128.size a)
instance k0_chk369.dec : ∀ (v388 : IVec S16 32) (v674 : IVec S16 32), Decidable (k0_chk369 v388 v674) := fun v388 v674 => decidable_of_iff' _ (Iff.of_eq (k0_chk369.eq_1 v388 v674))
theorem k0_idx369_inb : ∀ (v388 : IVec S16 32) (v674 : IVec S16 32) (k0_hw369 : k0_chk369 v388 v674), ∀ a x, ((![v388, v674] : Fin 2 → IVec S16 32) a x).toNat < S200x128.size a := fun v388 v674 k0_hw369 => k0_hw369

def k0_chk370 (v677 : IVec S16 32) : Prop :=
  (∀ a x, ((![v677] : Fin 1 → IVec S16 32) a x).toNat < S25600.size a)
instance k0_chk370.dec : ∀ (v677 : IVec S16 32), Decidable (k0_chk370 v677) := fun v677 => decidable_of_iff' _ (Iff.of_eq (k0_chk370.eq_1 v677))
theorem k0_idx370_inb : ∀ (v677 : IVec S16 32) (k0_hw370 : k0_chk370 v677), ∀ a x, ((![v677] : Fin 1 → IVec S16 32) a x).toNat < S25600.size a := fun v677 k0_hw370 => k0_hw370

def k0_chk371 (v388 : IVec S16 32) (v679 : IVec S16 32) : Prop :=
  (∀ a x, ((![v388, v679] : Fin 2 → IVec S16 32) a x).toNat < S200x128.size a)
instance k0_chk371.dec : ∀ (v388 : IVec S16 32) (v679 : IVec S16 32), Decidable (k0_chk371 v388 v679) := fun v388 v679 => decidable_of_iff' _ (Iff.of_eq (k0_chk371.eq_1 v388 v679))
theorem k0_idx371_inb : ∀ (v388 : IVec S16 32) (v679 : IVec S16 32) (k0_hw371 : k0_chk371 v388 v679), ∀ a x, ((![v388, v679] : Fin 2 → IVec S16 32) a x).toNat < S200x128.size a := fun v388 v679 k0_hw371 => k0_hw371

def k0_chk372 (v682 : IVec S16 32) : Prop :=
  (∀ a x, ((![v682] : Fin 1 → IVec S16 32) a x).toNat < S25600.size a)
instance k0_chk372.dec : ∀ (v682 : IVec S16 32), Decidable (k0_chk372 v682) := fun v682 => decidable_of_iff' _ (Iff.of_eq (k0_chk372.eq_1 v682))
theorem k0_idx372_inb : ∀ (v682 : IVec S16 32) (k0_hw372 : k0_chk372 v682), ∀ a x, ((![v682] : Fin 1 → IVec S16 32) a x).toNat < S25600.size a := fun v682 k0_hw372 => k0_hw372

def k0_chk373 (v388 : IVec S16 32) (v684 : IVec S16 32) : Prop :=
  (∀ a x, ((![v388, v684] : Fin 2 → IVec S16 32) a x).toNat < S200x128.size a)
instance k0_chk373.dec : ∀ (v388 : IVec S16 32) (v684 : IVec S16 32), Decidable (k0_chk373 v388 v684) := fun v388 v684 => decidable_of_iff' _ (Iff.of_eq (k0_chk373.eq_1 v388 v684))
theorem k0_idx373_inb : ∀ (v388 : IVec S16 32) (v684 : IVec S16 32) (k0_hw373 : k0_chk373 v388 v684), ∀ a x, ((![v388, v684] : Fin 2 → IVec S16 32) a x).toNat < S200x128.size a := fun v388 v684 k0_hw373 => k0_hw373

def k0_chk374 (v687 : IVec S16 32) : Prop :=
  (∀ a x, ((![v687] : Fin 1 → IVec S16 32) a x).toNat < S25600.size a)
instance k0_chk374.dec : ∀ (v687 : IVec S16 32), Decidable (k0_chk374 v687) := fun v687 => decidable_of_iff' _ (Iff.of_eq (k0_chk374.eq_1 v687))
theorem k0_idx374_inb : ∀ (v687 : IVec S16 32) (k0_hw374 : k0_chk374 v687), ∀ a x, ((![v687] : Fin 1 → IVec S16 32) a x).toNat < S25600.size a := fun v687 k0_hw374 => k0_hw374

def k0_chk375 (v388 : IVec S16 32) (v689 : IVec S16 32) : Prop :=
  (∀ a x, ((![v388, v689] : Fin 2 → IVec S16 32) a x).toNat < S200x128.size a)
instance k0_chk375.dec : ∀ (v388 : IVec S16 32) (v689 : IVec S16 32), Decidable (k0_chk375 v388 v689) := fun v388 v689 => decidable_of_iff' _ (Iff.of_eq (k0_chk375.eq_1 v388 v689))
theorem k0_idx375_inb : ∀ (v388 : IVec S16 32) (v689 : IVec S16 32) (k0_hw375 : k0_chk375 v388 v689), ∀ a x, ((![v388, v689] : Fin 2 → IVec S16 32) a x).toNat < S200x128.size a := fun v388 v689 k0_hw375 => k0_hw375

def k0_chk376 (v692 : IVec S16 32) : Prop :=
  (∀ a x, ((![v692] : Fin 1 → IVec S16 32) a x).toNat < S25600.size a)
instance k0_chk376.dec : ∀ (v692 : IVec S16 32), Decidable (k0_chk376 v692) := fun v692 => decidable_of_iff' _ (Iff.of_eq (k0_chk376.eq_1 v692))
theorem k0_idx376_inb : ∀ (v692 : IVec S16 32) (k0_hw376 : k0_chk376 v692), ∀ a x, ((![v692] : Fin 1 → IVec S16 32) a x).toNat < S25600.size a := fun v692 k0_hw376 => k0_hw376

def k0_chk377 (v388 : IVec S16 32) (v694 : IVec S16 32) : Prop :=
  (∀ a x, ((![v388, v694] : Fin 2 → IVec S16 32) a x).toNat < S200x128.size a)
instance k0_chk377.dec : ∀ (v388 : IVec S16 32) (v694 : IVec S16 32), Decidable (k0_chk377 v388 v694) := fun v388 v694 => decidable_of_iff' _ (Iff.of_eq (k0_chk377.eq_1 v388 v694))
theorem k0_idx377_inb : ∀ (v388 : IVec S16 32) (v694 : IVec S16 32) (k0_hw377 : k0_chk377 v388 v694), ∀ a x, ((![v388, v694] : Fin 2 → IVec S16 32) a x).toNat < S200x128.size a := fun v388 v694 k0_hw377 => k0_hw377

def k0_chk378 (v697 : IVec S16 32) : Prop :=
  (∀ a x, ((![v697] : Fin 1 → IVec S16 32) a x).toNat < S25600.size a)
instance k0_chk378.dec : ∀ (v697 : IVec S16 32), Decidable (k0_chk378 v697) := fun v697 => decidable_of_iff' _ (Iff.of_eq (k0_chk378.eq_1 v697))
theorem k0_idx378_inb : ∀ (v697 : IVec S16 32) (k0_hw378 : k0_chk378 v697), ∀ a x, ((![v697] : Fin 1 → IVec S16 32) a x).toNat < S25600.size a := fun v697 k0_hw378 => k0_hw378

def k0_chk379 (v388 : IVec S16 32) (v699 : IVec S16 32) : Prop :=
  (∀ a x, ((![v388, v699] : Fin 2 → IVec S16 32) a x).toNat < S200x128.size a)
instance k0_chk379.dec : ∀ (v388 : IVec S16 32) (v699 : IVec S16 32), Decidable (k0_chk379 v388 v699) := fun v388 v699 => decidable_of_iff' _ (Iff.of_eq (k0_chk379.eq_1 v388 v699))
theorem k0_idx379_inb : ∀ (v388 : IVec S16 32) (v699 : IVec S16 32) (k0_hw379 : k0_chk379 v388 v699), ∀ a x, ((![v388, v699] : Fin 2 → IVec S16 32) a x).toNat < S200x128.size a := fun v388 v699 k0_hw379 => k0_hw379

def k0_chk380 (v702 : IVec S16 32) : Prop :=
  (∀ a x, ((![v702] : Fin 1 → IVec S16 32) a x).toNat < S25600.size a)
instance k0_chk380.dec : ∀ (v702 : IVec S16 32), Decidable (k0_chk380 v702) := fun v702 => decidable_of_iff' _ (Iff.of_eq (k0_chk380.eq_1 v702))
theorem k0_idx380_inb : ∀ (v702 : IVec S16 32) (k0_hw380 : k0_chk380 v702), ∀ a x, ((![v702] : Fin 1 → IVec S16 32) a x).toNat < S25600.size a := fun v702 k0_hw380 => k0_hw380

def k0_chk381 (v388 : IVec S16 32) (v704 : IVec S16 32) : Prop :=
  (∀ a x, ((![v388, v704] : Fin 2 → IVec S16 32) a x).toNat < S200x128.size a)
instance k0_chk381.dec : ∀ (v388 : IVec S16 32) (v704 : IVec S16 32), Decidable (k0_chk381 v388 v704) := fun v388 v704 => decidable_of_iff' _ (Iff.of_eq (k0_chk381.eq_1 v388 v704))
theorem k0_idx381_inb : ∀ (v388 : IVec S16 32) (v704 : IVec S16 32) (k0_hw381 : k0_chk381 v388 v704), ∀ a x, ((![v388, v704] : Fin 2 → IVec S16 32) a x).toNat < S200x128.size a := fun v388 v704 k0_hw381 => k0_hw381

def k0_chk382 (v707 : IVec S16 32) : Prop :=
  (∀ a x, ((![v707] : Fin 1 → IVec S16 32) a x).toNat < S25600.size a)
instance k0_chk382.dec : ∀ (v707 : IVec S16 32), Decidable (k0_chk382 v707) := fun v707 => decidable_of_iff' _ (Iff.of_eq (k0_chk382.eq_1 v707))
theorem k0_idx382_inb : ∀ (v707 : IVec S16 32) (k0_hw382 : k0_chk382 v707), ∀ a x, ((![v707] : Fin 1 → IVec S16 32) a x).toNat < S25600.size a := fun v707 k0_hw382 => k0_hw382

def k0_chk383 (v388 : IVec S16 32) (v709 : IVec S16 32) : Prop :=
  (∀ a x, ((![v388, v709] : Fin 2 → IVec S16 32) a x).toNat < S200x128.size a)
instance k0_chk383.dec : ∀ (v388 : IVec S16 32) (v709 : IVec S16 32), Decidable (k0_chk383 v388 v709) := fun v388 v709 => decidable_of_iff' _ (Iff.of_eq (k0_chk383.eq_1 v388 v709))
theorem k0_idx383_inb : ∀ (v388 : IVec S16 32) (v709 : IVec S16 32) (k0_hw383 : k0_chk383 v388 v709), ∀ a x, ((![v388, v709] : Fin 2 → IVec S16 32) a x).toNat < S200x128.size a := fun v388 v709 k0_hw383 => k0_hw383

def k0_chk384 (v712 : IVec S16 32) : Prop :=
  (∀ a x, ((![v712] : Fin 1 → IVec S16 32) a x).toNat < S25600.size a)
instance k0_chk384.dec : ∀ (v712 : IVec S16 32), Decidable (k0_chk384 v712) := fun v712 => decidable_of_iff' _ (Iff.of_eq (k0_chk384.eq_1 v712))
theorem k0_idx384_inb : ∀ (v712 : IVec S16 32) (k0_hw384 : k0_chk384 v712), ∀ a x, ((![v712] : Fin 1 → IVec S16 32) a x).toNat < S25600.size a := fun v712 k0_hw384 => k0_hw384

def k0_chk385 (v388 : IVec S16 32) (v715 : IVec S16 32) : Prop :=
  (∀ a x, ((![v388, v715] : Fin 2 → IVec S16 32) a x).toNat < S200x128.size a)
instance k0_chk385.dec : ∀ (v388 : IVec S16 32) (v715 : IVec S16 32), Decidable (k0_chk385 v388 v715) := fun v388 v715 => decidable_of_iff' _ (Iff.of_eq (k0_chk385.eq_1 v388 v715))
theorem k0_idx385_inb : ∀ (v388 : IVec S16 32) (v715 : IVec S16 32) (k0_hw385 : k0_chk385 v388 v715), ∀ a x, ((![v388, v715] : Fin 2 → IVec S16 32) a x).toNat < S200x128.size a := fun v388 v715 k0_hw385 => k0_hw385

def k0_chk386 (v718 : IVec S16 32) : Prop :=
  (∀ a x, ((![v718] : Fin 1 → IVec S16 32) a x).toNat < S25600.size a)
instance k0_chk386.dec : ∀ (v718 : IVec S16 32), Decidable (k0_chk386 v718) := fun v718 => decidable_of_iff' _ (Iff.of_eq (k0_chk386.eq_1 v718))
theorem k0_idx386_inb : ∀ (v718 : IVec S16 32) (k0_hw386 : k0_chk386 v718), ∀ a x, ((![v718] : Fin 1 → IVec S16 32) a x).toNat < S25600.size a := fun v718 k0_hw386 => k0_hw386

def k0_chk387 (v388 : IVec S16 32) (v720 : IVec S16 32) : Prop :=
  (∀ a x, ((![v388, v720] : Fin 2 → IVec S16 32) a x).toNat < S200x128.size a)
instance k0_chk387.dec : ∀ (v388 : IVec S16 32) (v720 : IVec S16 32), Decidable (k0_chk387 v388 v720) := fun v388 v720 => decidable_of_iff' _ (Iff.of_eq (k0_chk387.eq_1 v388 v720))
theorem k0_idx387_inb : ∀ (v388 : IVec S16 32) (v720 : IVec S16 32) (k0_hw387 : k0_chk387 v388 v720), ∀ a x, ((![v388, v720] : Fin 2 → IVec S16 32) a x).toNat < S200x128.size a := fun v388 v720 k0_hw387 => k0_hw387

def k0_chk388 (v723 : IVec S16 32) : Prop :=
  (∀ a x, ((![v723] : Fin 1 → IVec S16 32) a x).toNat < S25600.size a)
instance k0_chk388.dec : ∀ (v723 : IVec S16 32), Decidable (k0_chk388 v723) := fun v723 => decidable_of_iff' _ (Iff.of_eq (k0_chk388.eq_1 v723))
theorem k0_idx388_inb : ∀ (v723 : IVec S16 32) (k0_hw388 : k0_chk388 v723), ∀ a x, ((![v723] : Fin 1 → IVec S16 32) a x).toNat < S25600.size a := fun v723 k0_hw388 => k0_hw388

def k0_chk389 (v388 : IVec S16 32) (v725 : IVec S16 32) : Prop :=
  (∀ a x, ((![v388, v725] : Fin 2 → IVec S16 32) a x).toNat < S200x128.size a)
instance k0_chk389.dec : ∀ (v388 : IVec S16 32) (v725 : IVec S16 32), Decidable (k0_chk389 v388 v725) := fun v388 v725 => decidable_of_iff' _ (Iff.of_eq (k0_chk389.eq_1 v388 v725))
theorem k0_idx389_inb : ∀ (v388 : IVec S16 32) (v725 : IVec S16 32) (k0_hw389 : k0_chk389 v388 v725), ∀ a x, ((![v388, v725] : Fin 2 → IVec S16 32) a x).toNat < S200x128.size a := fun v388 v725 k0_hw389 => k0_hw389

def k0_chk390 (v728 : IVec S16 32) : Prop :=
  (∀ a x, ((![v728] : Fin 1 → IVec S16 32) a x).toNat < S25600.size a)
instance k0_chk390.dec : ∀ (v728 : IVec S16 32), Decidable (k0_chk390 v728) := fun v728 => decidable_of_iff' _ (Iff.of_eq (k0_chk390.eq_1 v728))
theorem k0_idx390_inb : ∀ (v728 : IVec S16 32) (k0_hw390 : k0_chk390 v728), ∀ a x, ((![v728] : Fin 1 → IVec S16 32) a x).toNat < S25600.size a := fun v728 k0_hw390 => k0_hw390

def k0_chk391 (v388 : IVec S16 32) (v730 : IVec S16 32) : Prop :=
  (∀ a x, ((![v388, v730] : Fin 2 → IVec S16 32) a x).toNat < S200x128.size a)
instance k0_chk391.dec : ∀ (v388 : IVec S16 32) (v730 : IVec S16 32), Decidable (k0_chk391 v388 v730) := fun v388 v730 => decidable_of_iff' _ (Iff.of_eq (k0_chk391.eq_1 v388 v730))
theorem k0_idx391_inb : ∀ (v388 : IVec S16 32) (v730 : IVec S16 32) (k0_hw391 : k0_chk391 v388 v730), ∀ a x, ((![v388, v730] : Fin 2 → IVec S16 32) a x).toNat < S200x128.size a := fun v388 v730 k0_hw391 => k0_hw391

def k0_chk392 (v733 : IVec S16 32) : Prop :=
  (∀ a x, ((![v733] : Fin 1 → IVec S16 32) a x).toNat < S25600.size a)
instance k0_chk392.dec : ∀ (v733 : IVec S16 32), Decidable (k0_chk392 v733) := fun v733 => decidable_of_iff' _ (Iff.of_eq (k0_chk392.eq_1 v733))
theorem k0_idx392_inb : ∀ (v733 : IVec S16 32) (k0_hw392 : k0_chk392 v733), ∀ a x, ((![v733] : Fin 1 → IVec S16 32) a x).toNat < S25600.size a := fun v733 k0_hw392 => k0_hw392

def k0_chk393 (v388 : IVec S16 32) (v735 : IVec S16 32) : Prop :=
  (∀ a x, ((![v388, v735] : Fin 2 → IVec S16 32) a x).toNat < S200x128.size a)
instance k0_chk393.dec : ∀ (v388 : IVec S16 32) (v735 : IVec S16 32), Decidable (k0_chk393 v388 v735) := fun v388 v735 => decidable_of_iff' _ (Iff.of_eq (k0_chk393.eq_1 v388 v735))
theorem k0_idx393_inb : ∀ (v388 : IVec S16 32) (v735 : IVec S16 32) (k0_hw393 : k0_chk393 v388 v735), ∀ a x, ((![v388, v735] : Fin 2 → IVec S16 32) a x).toNat < S200x128.size a := fun v388 v735 k0_hw393 => k0_hw393

def k0_chk394 (v738 : IVec S16 32) : Prop :=
  (∀ a x, ((![v738] : Fin 1 → IVec S16 32) a x).toNat < S25600.size a)
instance k0_chk394.dec : ∀ (v738 : IVec S16 32), Decidable (k0_chk394 v738) := fun v738 => decidable_of_iff' _ (Iff.of_eq (k0_chk394.eq_1 v738))
theorem k0_idx394_inb : ∀ (v738 : IVec S16 32) (k0_hw394 : k0_chk394 v738), ∀ a x, ((![v738] : Fin 1 → IVec S16 32) a x).toNat < S25600.size a := fun v738 k0_hw394 => k0_hw394

def k0_chk395 (v388 : IVec S16 32) (v740 : IVec S16 32) : Prop :=
  (∀ a x, ((![v388, v740] : Fin 2 → IVec S16 32) a x).toNat < S200x128.size a)
instance k0_chk395.dec : ∀ (v388 : IVec S16 32) (v740 : IVec S16 32), Decidable (k0_chk395 v388 v740) := fun v388 v740 => decidable_of_iff' _ (Iff.of_eq (k0_chk395.eq_1 v388 v740))
theorem k0_idx395_inb : ∀ (v388 : IVec S16 32) (v740 : IVec S16 32) (k0_hw395 : k0_chk395 v388 v740), ∀ a x, ((![v388, v740] : Fin 2 → IVec S16 32) a x).toNat < S200x128.size a := fun v388 v740 k0_hw395 => k0_hw395

def k0_chk396 (v743 : IVec S16 32) : Prop :=
  (∀ a x, ((![v743] : Fin 1 → IVec S16 32) a x).toNat < S25600.size a)
instance k0_chk396.dec : ∀ (v743 : IVec S16 32), Decidable (k0_chk396 v743) := fun v743 => decidable_of_iff' _ (Iff.of_eq (k0_chk396.eq_1 v743))
theorem k0_idx396_inb : ∀ (v743 : IVec S16 32) (k0_hw396 : k0_chk396 v743), ∀ a x, ((![v743] : Fin 1 → IVec S16 32) a x).toNat < S25600.size a := fun v743 k0_hw396 => k0_hw396

def k0_chk397 (v388 : IVec S16 32) (v745 : IVec S16 32) : Prop :=
  (∀ a x, ((![v388, v745] : Fin 2 → IVec S16 32) a x).toNat < S200x128.size a)
instance k0_chk397.dec : ∀ (v388 : IVec S16 32) (v745 : IVec S16 32), Decidable (k0_chk397 v388 v745) := fun v388 v745 => decidable_of_iff' _ (Iff.of_eq (k0_chk397.eq_1 v388 v745))
theorem k0_idx397_inb : ∀ (v388 : IVec S16 32) (v745 : IVec S16 32) (k0_hw397 : k0_chk397 v388 v745), ∀ a x, ((![v388, v745] : Fin 2 → IVec S16 32) a x).toNat < S200x128.size a := fun v388 v745 k0_hw397 => k0_hw397

def k0_chk398 (v748 : IVec S16 32) : Prop :=
  (∀ a x, ((![v748] : Fin 1 → IVec S16 32) a x).toNat < S25600.size a)
instance k0_chk398.dec : ∀ (v748 : IVec S16 32), Decidable (k0_chk398 v748) := fun v748 => decidable_of_iff' _ (Iff.of_eq (k0_chk398.eq_1 v748))
theorem k0_idx398_inb : ∀ (v748 : IVec S16 32) (k0_hw398 : k0_chk398 v748), ∀ a x, ((![v748] : Fin 1 → IVec S16 32) a x).toNat < S25600.size a := fun v748 k0_hw398 => k0_hw398

def k0_chk399 (v388 : IVec S16 32) (v750 : IVec S16 32) : Prop :=
  (∀ a x, ((![v388, v750] : Fin 2 → IVec S16 32) a x).toNat < S200x128.size a)
instance k0_chk399.dec : ∀ (v388 : IVec S16 32) (v750 : IVec S16 32), Decidable (k0_chk399 v388 v750) := fun v388 v750 => decidable_of_iff' _ (Iff.of_eq (k0_chk399.eq_1 v388 v750))
theorem k0_idx399_inb : ∀ (v388 : IVec S16 32) (v750 : IVec S16 32) (k0_hw399 : k0_chk399 v388 v750), ∀ a x, ((![v388, v750] : Fin 2 → IVec S16 32) a x).toNat < S200x128.size a := fun v388 v750 k0_hw399 => k0_hw399

def k0_chk400 (v753 : IVec S16 32) : Prop :=
  (∀ a x, ((![v753] : Fin 1 → IVec S16 32) a x).toNat < S25600.size a)
instance k0_chk400.dec : ∀ (v753 : IVec S16 32), Decidable (k0_chk400 v753) := fun v753 => decidable_of_iff' _ (Iff.of_eq (k0_chk400.eq_1 v753))
theorem k0_idx400_inb : ∀ (v753 : IVec S16 32) (k0_hw400 : k0_chk400 v753), ∀ a x, ((![v753] : Fin 1 → IVec S16 32) a x).toNat < S25600.size a := fun v753 k0_hw400 => k0_hw400

def k0_chk401 (v388 : IVec S16 32) (v755 : IVec S16 32) : Prop :=
  (∀ a x, ((![v388, v755] : Fin 2 → IVec S16 32) a x).toNat < S200x128.size a)
instance k0_chk401.dec : ∀ (v388 : IVec S16 32) (v755 : IVec S16 32), Decidable (k0_chk401 v388 v755) := fun v388 v755 => decidable_of_iff' _ (Iff.of_eq (k0_chk401.eq_1 v388 v755))
theorem k0_idx401_inb : ∀ (v388 : IVec S16 32) (v755 : IVec S16 32) (k0_hw401 : k0_chk401 v388 v755), ∀ a x, ((![v388, v755] : Fin 2 → IVec S16 32) a x).toNat < S200x128.size a := fun v388 v755 k0_hw401 => k0_hw401

def k0_chk402 (v758 : IVec S16 32) : Prop :=
  (∀ a x, ((![v758] : Fin 1 → IVec S16 32) a x).toNat < S25600.size a)
instance k0_chk402.dec : ∀ (v758 : IVec S16 32), Decidable (k0_chk402 v758) := fun v758 => decidable_of_iff' _ (Iff.of_eq (k0_chk402.eq_1 v758))
theorem k0_idx402_inb : ∀ (v758 : IVec S16 32) (k0_hw402 : k0_chk402 v758), ∀ a x, ((![v758] : Fin 1 → IVec S16 32) a x).toNat < S25600.size a := fun v758 k0_hw402 => k0_hw402

def k0_chk403 (v388 : IVec S16 32) (v760 : IVec S16 32) : Prop :=
  (∀ a x, ((![v388, v760] : Fin 2 → IVec S16 32) a x).toNat < S200x128.size a)
instance k0_chk403.dec : ∀ (v388 : IVec S16 32) (v760 : IVec S16 32), Decidable (k0_chk403 v388 v760) := fun v388 v760 => decidable_of_iff' _ (Iff.of_eq (k0_chk403.eq_1 v388 v760))
theorem k0_idx403_inb : ∀ (v388 : IVec S16 32) (v760 : IVec S16 32) (k0_hw403 : k0_chk403 v388 v760), ∀ a x, ((![v388, v760] : Fin 2 → IVec S16 32) a x).toNat < S200x128.size a := fun v388 v760 k0_hw403 => k0_hw403

def k0_chk404 (v763 : IVec S16 32) : Prop :=
  (∀ a x, ((![v763] : Fin 1 → IVec S16 32) a x).toNat < S25600.size a)
instance k0_chk404.dec : ∀ (v763 : IVec S16 32), Decidable (k0_chk404 v763) := fun v763 => decidable_of_iff' _ (Iff.of_eq (k0_chk404.eq_1 v763))
theorem k0_idx404_inb : ∀ (v763 : IVec S16 32) (k0_hw404 : k0_chk404 v763), ∀ a x, ((![v763] : Fin 1 → IVec S16 32) a x).toNat < S25600.size a := fun v763 k0_hw404 => k0_hw404

def k0_chk405 (v388 : IVec S16 32) (v765 : IVec S16 32) : Prop :=
  (∀ a x, ((![v388, v765] : Fin 2 → IVec S16 32) a x).toNat < S200x128.size a)
instance k0_chk405.dec : ∀ (v388 : IVec S16 32) (v765 : IVec S16 32), Decidable (k0_chk405 v388 v765) := fun v388 v765 => decidable_of_iff' _ (Iff.of_eq (k0_chk405.eq_1 v388 v765))
theorem k0_idx405_inb : ∀ (v388 : IVec S16 32) (v765 : IVec S16 32) (k0_hw405 : k0_chk405 v388 v765), ∀ a x, ((![v388, v765] : Fin 2 → IVec S16 32) a x).toNat < S200x128.size a := fun v388 v765 k0_hw405 => k0_hw405

def k0_chk406 (v768 : IVec S16 32) : Prop :=
  (∀ a x, ((![v768] : Fin 1 → IVec S16 32) a x).toNat < S25600.size a)
instance k0_chk406.dec : ∀ (v768 : IVec S16 32), Decidable (k0_chk406 v768) := fun v768 => decidable_of_iff' _ (Iff.of_eq (k0_chk406.eq_1 v768))
theorem k0_idx406_inb : ∀ (v768 : IVec S16 32) (k0_hw406 : k0_chk406 v768), ∀ a x, ((![v768] : Fin 1 → IVec S16 32) a x).toNat < S25600.size a := fun v768 k0_hw406 => k0_hw406

def k0_chk407 (v388 : IVec S16 32) (v770 : IVec S16 32) : Prop :=
  (∀ a x, ((![v388, v770] : Fin 2 → IVec S16 32) a x).toNat < S200x128.size a)
instance k0_chk407.dec : ∀ (v388 : IVec S16 32) (v770 : IVec S16 32), Decidable (k0_chk407 v388 v770) := fun v388 v770 => decidable_of_iff' _ (Iff.of_eq (k0_chk407.eq_1 v388 v770))
theorem k0_idx407_inb : ∀ (v388 : IVec S16 32) (v770 : IVec S16 32) (k0_hw407 : k0_chk407 v388 v770), ∀ a x, ((![v388, v770] : Fin 2 → IVec S16 32) a x).toNat < S200x128.size a := fun v388 v770 k0_hw407 => k0_hw407

def k0_chk408 (v773 : IVec S16 32) : Prop :=
  (∀ a x, ((![v773] : Fin 1 → IVec S16 32) a x).toNat < S25600.size a)
instance k0_chk408.dec : ∀ (v773 : IVec S16 32), Decidable (k0_chk408 v773) := fun v773 => decidable_of_iff' _ (Iff.of_eq (k0_chk408.eq_1 v773))
theorem k0_idx408_inb : ∀ (v773 : IVec S16 32) (k0_hw408 : k0_chk408 v773), ∀ a x, ((![v773] : Fin 1 → IVec S16 32) a x).toNat < S25600.size a := fun v773 k0_hw408 => k0_hw408

def k0_chk409 (v388 : IVec S16 32) (v775 : IVec S16 32) : Prop :=
  (∀ a x, ((![v388, v775] : Fin 2 → IVec S16 32) a x).toNat < S200x128.size a)
instance k0_chk409.dec : ∀ (v388 : IVec S16 32) (v775 : IVec S16 32), Decidable (k0_chk409 v388 v775) := fun v388 v775 => decidable_of_iff' _ (Iff.of_eq (k0_chk409.eq_1 v388 v775))
theorem k0_idx409_inb : ∀ (v388 : IVec S16 32) (v775 : IVec S16 32) (k0_hw409 : k0_chk409 v388 v775), ∀ a x, ((![v388, v775] : Fin 2 → IVec S16 32) a x).toNat < S200x128.size a := fun v388 v775 k0_hw409 => k0_hw409

def k0_chk410 (v778 : IVec S16 32) : Prop :=
  (∀ a x, ((![v778] : Fin 1 → IVec S16 32) a x).toNat < S25600.size a)
instance k0_chk410.dec : ∀ (v778 : IVec S16 32), Decidable (k0_chk410 v778) := fun v778 => decidable_of_iff' _ (Iff.of_eq (k0_chk410.eq_1 v778))
theorem k0_idx410_inb : ∀ (v778 : IVec S16 32) (k0_hw410 : k0_chk410 v778), ∀ a x, ((![v778] : Fin 1 → IVec S16 32) a x).toNat < S25600.size a := fun v778 k0_hw410 => k0_hw410

def k0_chk411 (v388 : IVec S16 32) (v780 : IVec S16 32) : Prop :=
  (∀ a x, ((![v388, v780] : Fin 2 → IVec S16 32) a x).toNat < S200x128.size a)
instance k0_chk411.dec : ∀ (v388 : IVec S16 32) (v780 : IVec S16 32), Decidable (k0_chk411 v388 v780) := fun v388 v780 => decidable_of_iff' _ (Iff.of_eq (k0_chk411.eq_1 v388 v780))
theorem k0_idx411_inb : ∀ (v388 : IVec S16 32) (v780 : IVec S16 32) (k0_hw411 : k0_chk411 v388 v780), ∀ a x, ((![v388, v780] : Fin 2 → IVec S16 32) a x).toNat < S200x128.size a := fun v388 v780 k0_hw411 => k0_hw411

def k0_chk412 (v783 : IVec S16 32) : Prop :=
  (∀ a x, ((![v783] : Fin 1 → IVec S16 32) a x).toNat < S25600.size a)
instance k0_chk412.dec : ∀ (v783 : IVec S16 32), Decidable (k0_chk412 v783) := fun v783 => decidable_of_iff' _ (Iff.of_eq (k0_chk412.eq_1 v783))
theorem k0_idx412_inb : ∀ (v783 : IVec S16 32) (k0_hw412 : k0_chk412 v783), ∀ a x, ((![v783] : Fin 1 → IVec S16 32) a x).toNat < S25600.size a := fun v783 k0_hw412 => k0_hw412

def k0_chk413 (v388 : IVec S16 32) (v785 : IVec S16 32) : Prop :=
  (∀ a x, ((![v388, v785] : Fin 2 → IVec S16 32) a x).toNat < S200x128.size a)
instance k0_chk413.dec : ∀ (v388 : IVec S16 32) (v785 : IVec S16 32), Decidable (k0_chk413 v388 v785) := fun v388 v785 => decidable_of_iff' _ (Iff.of_eq (k0_chk413.eq_1 v388 v785))
theorem k0_idx413_inb : ∀ (v388 : IVec S16 32) (v785 : IVec S16 32) (k0_hw413 : k0_chk413 v388 v785), ∀ a x, ((![v388, v785] : Fin 2 → IVec S16 32) a x).toNat < S200x128.size a := fun v388 v785 k0_hw413 => k0_hw413

def k0_chk414 (v788 : IVec S16 32) : Prop :=
  (∀ a x, ((![v788] : Fin 1 → IVec S16 32) a x).toNat < S25600.size a)
instance k0_chk414.dec : ∀ (v788 : IVec S16 32), Decidable (k0_chk414 v788) := fun v788 => decidable_of_iff' _ (Iff.of_eq (k0_chk414.eq_1 v788))
theorem k0_idx414_inb : ∀ (v788 : IVec S16 32) (k0_hw414 : k0_chk414 v788), ∀ a x, ((![v788] : Fin 1 → IVec S16 32) a x).toNat < S25600.size a := fun v788 k0_hw414 => k0_hw414

def k0_chk415 (v388 : IVec S16 32) (v790 : IVec S16 32) : Prop :=
  (∀ a x, ((![v388, v790] : Fin 2 → IVec S16 32) a x).toNat < S200x128.size a)
instance k0_chk415.dec : ∀ (v388 : IVec S16 32) (v790 : IVec S16 32), Decidable (k0_chk415 v388 v790) := fun v388 v790 => decidable_of_iff' _ (Iff.of_eq (k0_chk415.eq_1 v388 v790))
theorem k0_idx415_inb : ∀ (v388 : IVec S16 32) (v790 : IVec S16 32) (k0_hw415 : k0_chk415 v388 v790), ∀ a x, ((![v388, v790] : Fin 2 → IVec S16 32) a x).toNat < S200x128.size a := fun v388 v790 k0_hw415 => k0_hw415

def k0_chk416 (v793 : IVec S16 32) : Prop :=
  (∀ a x, ((![v793] : Fin 1 → IVec S16 32) a x).toNat < S25600.size a)
instance k0_chk416.dec : ∀ (v793 : IVec S16 32), Decidable (k0_chk416 v793) := fun v793 => decidable_of_iff' _ (Iff.of_eq (k0_chk416.eq_1 v793))
theorem k0_idx416_inb : ∀ (v793 : IVec S16 32) (k0_hw416 : k0_chk416 v793), ∀ a x, ((![v793] : Fin 1 → IVec S16 32) a x).toNat < S25600.size a := fun v793 k0_hw416 => k0_hw416

def k0_chk417 (v388 : IVec S16 32) (v796 : IVec S16 32) : Prop :=
  (∀ a x, ((![v388, v796] : Fin 2 → IVec S16 32) a x).toNat < S200x128.size a)
instance k0_chk417.dec : ∀ (v388 : IVec S16 32) (v796 : IVec S16 32), Decidable (k0_chk417 v388 v796) := fun v388 v796 => decidable_of_iff' _ (Iff.of_eq (k0_chk417.eq_1 v388 v796))
theorem k0_idx417_inb : ∀ (v388 : IVec S16 32) (v796 : IVec S16 32) (k0_hw417 : k0_chk417 v388 v796), ∀ a x, ((![v388, v796] : Fin 2 → IVec S16 32) a x).toNat < S200x128.size a := fun v388 v796 k0_hw417 => k0_hw417

def k0_chk418 (v799 : IVec S16 32) : Prop :=
  (∀ a x, ((![v799] : Fin 1 → IVec S16 32) a x).toNat < S25600.size a)
instance k0_chk418.dec : ∀ (v799 : IVec S16 32), Decidable (k0_chk418 v799) := fun v799 => decidable_of_iff' _ (Iff.of_eq (k0_chk418.eq_1 v799))
theorem k0_idx418_inb : ∀ (v799 : IVec S16 32) (k0_hw418 : k0_chk418 v799), ∀ a x, ((![v799] : Fin 1 → IVec S16 32) a x).toNat < S25600.size a := fun v799 k0_hw418 => k0_hw418

def k0_chk419 (v388 : IVec S16 32) (v801 : IVec S16 32) : Prop :=
  (∀ a x, ((![v388, v801] : Fin 2 → IVec S16 32) a x).toNat < S200x128.size a)
instance k0_chk419.dec : ∀ (v388 : IVec S16 32) (v801 : IVec S16 32), Decidable (k0_chk419 v388 v801) := fun v388 v801 => decidable_of_iff' _ (Iff.of_eq (k0_chk419.eq_1 v388 v801))
theorem k0_idx419_inb : ∀ (v388 : IVec S16 32) (v801 : IVec S16 32) (k0_hw419 : k0_chk419 v388 v801), ∀ a x, ((![v388, v801] : Fin 2 → IVec S16 32) a x).toNat < S200x128.size a := fun v388 v801 k0_hw419 => k0_hw419

def k0_chk420 (v804 : IVec S16 32) : Prop :=
  (∀ a x, ((![v804] : Fin 1 → IVec S16 32) a x).toNat < S25600.size a)
instance k0_chk420.dec : ∀ (v804 : IVec S16 32), Decidable (k0_chk420 v804) := fun v804 => decidable_of_iff' _ (Iff.of_eq (k0_chk420.eq_1 v804))
theorem k0_idx420_inb : ∀ (v804 : IVec S16 32) (k0_hw420 : k0_chk420 v804), ∀ a x, ((![v804] : Fin 1 → IVec S16 32) a x).toNat < S25600.size a := fun v804 k0_hw420 => k0_hw420

def k0_chk421 (v388 : IVec S16 32) (v806 : IVec S16 32) : Prop :=
  (∀ a x, ((![v388, v806] : Fin 2 → IVec S16 32) a x).toNat < S200x128.size a)
instance k0_chk421.dec : ∀ (v388 : IVec S16 32) (v806 : IVec S16 32), Decidable (k0_chk421 v388 v806) := fun v388 v806 => decidable_of_iff' _ (Iff.of_eq (k0_chk421.eq_1 v388 v806))
theorem k0_idx421_inb : ∀ (v388 : IVec S16 32) (v806 : IVec S16 32) (k0_hw421 : k0_chk421 v388 v806), ∀ a x, ((![v388, v806] : Fin 2 → IVec S16 32) a x).toNat < S200x128.size a := fun v388 v806 k0_hw421 => k0_hw421

def k0_chk422 (v809 : IVec S16 32) : Prop :=
  (∀ a x, ((![v809] : Fin 1 → IVec S16 32) a x).toNat < S25600.size a)
instance k0_chk422.dec : ∀ (v809 : IVec S16 32), Decidable (k0_chk422 v809) := fun v809 => decidable_of_iff' _ (Iff.of_eq (k0_chk422.eq_1 v809))
theorem k0_idx422_inb : ∀ (v809 : IVec S16 32) (k0_hw422 : k0_chk422 v809), ∀ a x, ((![v809] : Fin 1 → IVec S16 32) a x).toNat < S25600.size a := fun v809 k0_hw422 => k0_hw422

def k0_chk423 (v388 : IVec S16 32) (v811 : IVec S16 32) : Prop :=
  (∀ a x, ((![v388, v811] : Fin 2 → IVec S16 32) a x).toNat < S200x128.size a)
instance k0_chk423.dec : ∀ (v388 : IVec S16 32) (v811 : IVec S16 32), Decidable (k0_chk423 v388 v811) := fun v388 v811 => decidable_of_iff' _ (Iff.of_eq (k0_chk423.eq_1 v388 v811))
theorem k0_idx423_inb : ∀ (v388 : IVec S16 32) (v811 : IVec S16 32) (k0_hw423 : k0_chk423 v388 v811), ∀ a x, ((![v388, v811] : Fin 2 → IVec S16 32) a x).toNat < S200x128.size a := fun v388 v811 k0_hw423 => k0_hw423

def k0_chk424 (v814 : IVec S16 32) : Prop :=
  (∀ a x, ((![v814] : Fin 1 → IVec S16 32) a x).toNat < S25600.size a)
instance k0_chk424.dec : ∀ (v814 : IVec S16 32), Decidable (k0_chk424 v814) := fun v814 => decidable_of_iff' _ (Iff.of_eq (k0_chk424.eq_1 v814))
theorem k0_idx424_inb : ∀ (v814 : IVec S16 32) (k0_hw424 : k0_chk424 v814), ∀ a x, ((![v814] : Fin 1 → IVec S16 32) a x).toNat < S25600.size a := fun v814 k0_hw424 => k0_hw424

def k0_chk425 (v388 : IVec S16 32) (v816 : IVec S16 32) : Prop :=
  (∀ a x, ((![v388, v816] : Fin 2 → IVec S16 32) a x).toNat < S200x128.size a)
instance k0_chk425.dec : ∀ (v388 : IVec S16 32) (v816 : IVec S16 32), Decidable (k0_chk425 v388 v816) := fun v388 v816 => decidable_of_iff' _ (Iff.of_eq (k0_chk425.eq_1 v388 v816))
theorem k0_idx425_inb : ∀ (v388 : IVec S16 32) (v816 : IVec S16 32) (k0_hw425 : k0_chk425 v388 v816), ∀ a x, ((![v388, v816] : Fin 2 → IVec S16 32) a x).toNat < S200x128.size a := fun v388 v816 k0_hw425 => k0_hw425

def k0_chk426 (v819 : IVec S16 32) : Prop :=
  (∀ a x, ((![v819] : Fin 1 → IVec S16 32) a x).toNat < S25600.size a)
instance k0_chk426.dec : ∀ (v819 : IVec S16 32), Decidable (k0_chk426 v819) := fun v819 => decidable_of_iff' _ (Iff.of_eq (k0_chk426.eq_1 v819))
theorem k0_idx426_inb : ∀ (v819 : IVec S16 32) (k0_hw426 : k0_chk426 v819), ∀ a x, ((![v819] : Fin 1 → IVec S16 32) a x).toNat < S25600.size a := fun v819 k0_hw426 => k0_hw426

def k0_chk427 (v388 : IVec S16 32) (v821 : IVec S16 32) : Prop :=
  (∀ a x, ((![v388, v821] : Fin 2 → IVec S16 32) a x).toNat < S200x128.size a)
instance k0_chk427.dec : ∀ (v388 : IVec S16 32) (v821 : IVec S16 32), Decidable (k0_chk427 v388 v821) := fun v388 v821 => decidable_of_iff' _ (Iff.of_eq (k0_chk427.eq_1 v388 v821))
theorem k0_idx427_inb : ∀ (v388 : IVec S16 32) (v821 : IVec S16 32) (k0_hw427 : k0_chk427 v388 v821), ∀ a x, ((![v388, v821] : Fin 2 → IVec S16 32) a x).toNat < S200x128.size a := fun v388 v821 k0_hw427 => k0_hw427

def k0_chk428 (v824 : IVec S16 32) : Prop :=
  (∀ a x, ((![v824] : Fin 1 → IVec S16 32) a x).toNat < S25600.size a)
instance k0_chk428.dec : ∀ (v824 : IVec S16 32), Decidable (k0_chk428 v824) := fun v824 => decidable_of_iff' _ (Iff.of_eq (k0_chk428.eq_1 v824))
theorem k0_idx428_inb : ∀ (v824 : IVec S16 32) (k0_hw428 : k0_chk428 v824), ∀ a x, ((![v824] : Fin 1 → IVec S16 32) a x).toNat < S25600.size a := fun v824 k0_hw428 => k0_hw428

def k0_chk429 (v388 : IVec S16 32) (v826 : IVec S16 32) : Prop :=
  (∀ a x, ((![v388, v826] : Fin 2 → IVec S16 32) a x).toNat < S200x128.size a)
instance k0_chk429.dec : ∀ (v388 : IVec S16 32) (v826 : IVec S16 32), Decidable (k0_chk429 v388 v826) := fun v388 v826 => decidable_of_iff' _ (Iff.of_eq (k0_chk429.eq_1 v388 v826))
theorem k0_idx429_inb : ∀ (v388 : IVec S16 32) (v826 : IVec S16 32) (k0_hw429 : k0_chk429 v388 v826), ∀ a x, ((![v388, v826] : Fin 2 → IVec S16 32) a x).toNat < S200x128.size a := fun v388 v826 k0_hw429 => k0_hw429

def k0_chk430 (v829 : IVec S16 32) : Prop :=
  (∀ a x, ((![v829] : Fin 1 → IVec S16 32) a x).toNat < S25600.size a)
instance k0_chk430.dec : ∀ (v829 : IVec S16 32), Decidable (k0_chk430 v829) := fun v829 => decidable_of_iff' _ (Iff.of_eq (k0_chk430.eq_1 v829))
theorem k0_idx430_inb : ∀ (v829 : IVec S16 32) (k0_hw430 : k0_chk430 v829), ∀ a x, ((![v829] : Fin 1 → IVec S16 32) a x).toNat < S25600.size a := fun v829 k0_hw430 => k0_hw430

def k0_chk431 (v388 : IVec S16 32) (v831 : IVec S16 32) : Prop :=
  (∀ a x, ((![v388, v831] : Fin 2 → IVec S16 32) a x).toNat < S200x128.size a)
instance k0_chk431.dec : ∀ (v388 : IVec S16 32) (v831 : IVec S16 32), Decidable (k0_chk431 v388 v831) := fun v388 v831 => decidable_of_iff' _ (Iff.of_eq (k0_chk431.eq_1 v388 v831))
theorem k0_idx431_inb : ∀ (v388 : IVec S16 32) (v831 : IVec S16 32) (k0_hw431 : k0_chk431 v388 v831), ∀ a x, ((![v388, v831] : Fin 2 → IVec S16 32) a x).toNat < S200x128.size a := fun v388 v831 k0_hw431 => k0_hw431

def k0_chk432 (v834 : IVec S16 32) : Prop :=
  (∀ a x, ((![v834] : Fin 1 → IVec S16 32) a x).toNat < S25600.size a)
instance k0_chk432.dec : ∀ (v834 : IVec S16 32), Decidable (k0_chk432 v834) := fun v834 => decidable_of_iff' _ (Iff.of_eq (k0_chk432.eq_1 v834))
theorem k0_idx432_inb : ∀ (v834 : IVec S16 32) (k0_hw432 : k0_chk432 v834), ∀ a x, ((![v834] : Fin 1 → IVec S16 32) a x).toNat < S25600.size a := fun v834 k0_hw432 => k0_hw432

def k0_chk433 (v388 : IVec S16 32) (v836 : IVec S16 32) : Prop :=
  (∀ a x, ((![v388, v836] : Fin 2 → IVec S16 32) a x).toNat < S200x128.size a)
instance k0_chk433.dec : ∀ (v388 : IVec S16 32) (v836 : IVec S16 32), Decidable (k0_chk433 v388 v836) := fun v388 v836 => decidable_of_iff' _ (Iff.of_eq (k0_chk433.eq_1 v388 v836))
theorem k0_idx433_inb : ∀ (v388 : IVec S16 32) (v836 : IVec S16 32) (k0_hw433 : k0_chk433 v388 v836), ∀ a x, ((![v388, v836] : Fin 2 → IVec S16 32) a x).toNat < S200x128.size a := fun v388 v836 k0_hw433 => k0_hw433

def k0_chk434 (v839 : IVec S16 32) : Prop :=
  (∀ a x, ((![v839] : Fin 1 → IVec S16 32) a x).toNat < S25600.size a)
instance k0_chk434.dec : ∀ (v839 : IVec S16 32), Decidable (k0_chk434 v839) := fun v839 => decidable_of_iff' _ (Iff.of_eq (k0_chk434.eq_1 v839))
theorem k0_idx434_inb : ∀ (v839 : IVec S16 32) (k0_hw434 : k0_chk434 v839), ∀ a x, ((![v839] : Fin 1 → IVec S16 32) a x).toNat < S25600.size a := fun v839 k0_hw434 => k0_hw434

def k0_chk435 (v388 : IVec S16 32) (v841 : IVec S16 32) : Prop :=
  (∀ a x, ((![v388, v841] : Fin 2 → IVec S16 32) a x).toNat < S200x128.size a)
instance k0_chk435.dec : ∀ (v388 : IVec S16 32) (v841 : IVec S16 32), Decidable (k0_chk435 v388 v841) := fun v388 v841 => decidable_of_iff' _ (Iff.of_eq (k0_chk435.eq_1 v388 v841))
theorem k0_idx435_inb : ∀ (v388 : IVec S16 32) (v841 : IVec S16 32) (k0_hw435 : k0_chk435 v388 v841), ∀ a x, ((![v388, v841] : Fin 2 → IVec S16 32) a x).toNat < S200x128.size a := fun v388 v841 k0_hw435 => k0_hw435

def k0_chk436 (v844 : IVec S16 32) : Prop :=
  (∀ a x, ((![v844] : Fin 1 → IVec S16 32) a x).toNat < S25600.size a)
instance k0_chk436.dec : ∀ (v844 : IVec S16 32), Decidable (k0_chk436 v844) := fun v844 => decidable_of_iff' _ (Iff.of_eq (k0_chk436.eq_1 v844))
theorem k0_idx436_inb : ∀ (v844 : IVec S16 32) (k0_hw436 : k0_chk436 v844), ∀ a x, ((![v844] : Fin 1 → IVec S16 32) a x).toNat < S25600.size a := fun v844 k0_hw436 => k0_hw436

def k0_chk437 (v388 : IVec S16 32) (v846 : IVec S16 32) : Prop :=
  (∀ a x, ((![v388, v846] : Fin 2 → IVec S16 32) a x).toNat < S200x128.size a)
instance k0_chk437.dec : ∀ (v388 : IVec S16 32) (v846 : IVec S16 32), Decidable (k0_chk437 v388 v846) := fun v388 v846 => decidable_of_iff' _ (Iff.of_eq (k0_chk437.eq_1 v388 v846))
theorem k0_idx437_inb : ∀ (v388 : IVec S16 32) (v846 : IVec S16 32) (k0_hw437 : k0_chk437 v388 v846), ∀ a x, ((![v388, v846] : Fin 2 → IVec S16 32) a x).toNat < S200x128.size a := fun v388 v846 k0_hw437 => k0_hw437

def k0_chk438 (v849 : IVec S16 32) : Prop :=
  (∀ a x, ((![v849] : Fin 1 → IVec S16 32) a x).toNat < S25600.size a)
instance k0_chk438.dec : ∀ (v849 : IVec S16 32), Decidable (k0_chk438 v849) := fun v849 => decidable_of_iff' _ (Iff.of_eq (k0_chk438.eq_1 v849))
theorem k0_idx438_inb : ∀ (v849 : IVec S16 32) (k0_hw438 : k0_chk438 v849), ∀ a x, ((![v849] : Fin 1 → IVec S16 32) a x).toNat < S25600.size a := fun v849 k0_hw438 => k0_hw438

def k0_chk439 (v388 : IVec S16 32) (v851 : IVec S16 32) : Prop :=
  (∀ a x, ((![v388, v851] : Fin 2 → IVec S16 32) a x).toNat < S200x128.size a)
instance k0_chk439.dec : ∀ (v388 : IVec S16 32) (v851 : IVec S16 32), Decidable (k0_chk439 v388 v851) := fun v388 v851 => decidable_of_iff' _ (Iff.of_eq (k0_chk439.eq_1 v388 v851))
theorem k0_idx439_inb : ∀ (v388 : IVec S16 32) (v851 : IVec S16 32) (k0_hw439 : k0_chk439 v388 v851), ∀ a x, ((![v388, v851] : Fin 2 → IVec S16 32) a x).toNat < S200x128.size a := fun v388 v851 k0_hw439 => k0_hw439

def k0_chk440 (v854 : IVec S16 32) : Prop :=
  (∀ a x, ((![v854] : Fin 1 → IVec S16 32) a x).toNat < S25600.size a)
instance k0_chk440.dec : ∀ (v854 : IVec S16 32), Decidable (k0_chk440 v854) := fun v854 => decidable_of_iff' _ (Iff.of_eq (k0_chk440.eq_1 v854))
theorem k0_idx440_inb : ∀ (v854 : IVec S16 32) (k0_hw440 : k0_chk440 v854), ∀ a x, ((![v854] : Fin 1 → IVec S16 32) a x).toNat < S25600.size a := fun v854 k0_hw440 => k0_hw440

def k0_chk441 (v388 : IVec S16 32) (v856 : IVec S16 32) : Prop :=
  (∀ a x, ((![v388, v856] : Fin 2 → IVec S16 32) a x).toNat < S200x128.size a)
instance k0_chk441.dec : ∀ (v388 : IVec S16 32) (v856 : IVec S16 32), Decidable (k0_chk441 v388 v856) := fun v388 v856 => decidable_of_iff' _ (Iff.of_eq (k0_chk441.eq_1 v388 v856))
theorem k0_idx441_inb : ∀ (v388 : IVec S16 32) (v856 : IVec S16 32) (k0_hw441 : k0_chk441 v388 v856), ∀ a x, ((![v388, v856] : Fin 2 → IVec S16 32) a x).toNat < S200x128.size a := fun v388 v856 k0_hw441 => k0_hw441

def k0_chk442 (v859 : IVec S16 32) : Prop :=
  (∀ a x, ((![v859] : Fin 1 → IVec S16 32) a x).toNat < S25600.size a)
instance k0_chk442.dec : ∀ (v859 : IVec S16 32), Decidable (k0_chk442 v859) := fun v859 => decidable_of_iff' _ (Iff.of_eq (k0_chk442.eq_1 v859))
theorem k0_idx442_inb : ∀ (v859 : IVec S16 32) (k0_hw442 : k0_chk442 v859), ∀ a x, ((![v859] : Fin 1 → IVec S16 32) a x).toNat < S25600.size a := fun v859 k0_hw442 => k0_hw442

def k0_chk443 (v388 : IVec S16 32) (v861 : IVec S16 32) : Prop :=
  (∀ a x, ((![v388, v861] : Fin 2 → IVec S16 32) a x).toNat < S200x128.size a)
instance k0_chk443.dec : ∀ (v388 : IVec S16 32) (v861 : IVec S16 32), Decidable (k0_chk443 v388 v861) := fun v388 v861 => decidable_of_iff' _ (Iff.of_eq (k0_chk443.eq_1 v388 v861))
theorem k0_idx443_inb : ∀ (v388 : IVec S16 32) (v861 : IVec S16 32) (k0_hw443 : k0_chk443 v388 v861), ∀ a x, ((![v388, v861] : Fin 2 → IVec S16 32) a x).toNat < S200x128.size a := fun v388 v861 k0_hw443 => k0_hw443

def k0_chk444 (v864 : IVec S16 32) : Prop :=
  (∀ a x, ((![v864] : Fin 1 → IVec S16 32) a x).toNat < S25600.size a)
instance k0_chk444.dec : ∀ (v864 : IVec S16 32), Decidable (k0_chk444 v864) := fun v864 => decidable_of_iff' _ (Iff.of_eq (k0_chk444.eq_1 v864))
theorem k0_idx444_inb : ∀ (v864 : IVec S16 32) (k0_hw444 : k0_chk444 v864), ∀ a x, ((![v864] : Fin 1 → IVec S16 32) a x).toNat < S25600.size a := fun v864 k0_hw444 => k0_hw444

def k0_chk445 (v388 : IVec S16 32) (v866 : IVec S16 32) : Prop :=
  (∀ a x, ((![v388, v866] : Fin 2 → IVec S16 32) a x).toNat < S200x128.size a)
instance k0_chk445.dec : ∀ (v388 : IVec S16 32) (v866 : IVec S16 32), Decidable (k0_chk445 v388 v866) := fun v388 v866 => decidable_of_iff' _ (Iff.of_eq (k0_chk445.eq_1 v388 v866))
theorem k0_idx445_inb : ∀ (v388 : IVec S16 32) (v866 : IVec S16 32) (k0_hw445 : k0_chk445 v388 v866), ∀ a x, ((![v388, v866] : Fin 2 → IVec S16 32) a x).toNat < S200x128.size a := fun v388 v866 k0_hw445 => k0_hw445

def k0_chk446 (v869 : IVec S16 32) : Prop :=
  (∀ a x, ((![v869] : Fin 1 → IVec S16 32) a x).toNat < S25600.size a)
instance k0_chk446.dec : ∀ (v869 : IVec S16 32), Decidable (k0_chk446 v869) := fun v869 => decidable_of_iff' _ (Iff.of_eq (k0_chk446.eq_1 v869))
theorem k0_idx446_inb : ∀ (v869 : IVec S16 32) (k0_hw446 : k0_chk446 v869), ∀ a x, ((![v869] : Fin 1 → IVec S16 32) a x).toNat < S25600.size a := fun v869 k0_hw446 => k0_hw446

def k0_chk447 (v388 : IVec S16 32) (v871 : IVec S16 32) : Prop :=
  (∀ a x, ((![v388, v871] : Fin 2 → IVec S16 32) a x).toNat < S200x128.size a)
instance k0_chk447.dec : ∀ (v388 : IVec S16 32) (v871 : IVec S16 32), Decidable (k0_chk447 v388 v871) := fun v388 v871 => decidable_of_iff' _ (Iff.of_eq (k0_chk447.eq_1 v388 v871))
theorem k0_idx447_inb : ∀ (v388 : IVec S16 32) (v871 : IVec S16 32) (k0_hw447 : k0_chk447 v388 v871), ∀ a x, ((![v388, v871] : Fin 2 → IVec S16 32) a x).toNat < S200x128.size a := fun v388 v871 k0_hw447 => k0_hw447

def k0_chk448 (v874 : IVec S16 32) : Prop :=
  (∀ a x, ((![v874] : Fin 1 → IVec S16 32) a x).toNat < S25600.size a)
instance k0_chk448.dec : ∀ (v874 : IVec S16 32), Decidable (k0_chk448 v874) := fun v874 => decidable_of_iff' _ (Iff.of_eq (k0_chk448.eq_1 v874))
theorem k0_idx448_inb : ∀ (v874 : IVec S16 32) (k0_hw448 : k0_chk448 v874), ∀ a x, ((![v874] : Fin 1 → IVec S16 32) a x).toNat < S25600.size a := fun v874 k0_hw448 => k0_hw448

def k0_chk449 (v388 : IVec S16 32) (v877 : IVec S16 32) : Prop :=
  (∀ a x, ((![v388, v877] : Fin 2 → IVec S16 32) a x).toNat < S200x128.size a)
instance k0_chk449.dec : ∀ (v388 : IVec S16 32) (v877 : IVec S16 32), Decidable (k0_chk449 v388 v877) := fun v388 v877 => decidable_of_iff' _ (Iff.of_eq (k0_chk449.eq_1 v388 v877))
theorem k0_idx449_inb : ∀ (v388 : IVec S16 32) (v877 : IVec S16 32) (k0_hw449 : k0_chk449 v388 v877), ∀ a x, ((![v388, v877] : Fin 2 → IVec S16 32) a x).toNat < S200x128.size a := fun v388 v877 k0_hw449 => k0_hw449

def k0_chk450 (v880 : IVec S16 32) : Prop :=
  (∀ a x, ((![v880] : Fin 1 → IVec S16 32) a x).toNat < S25600.size a)
instance k0_chk450.dec : ∀ (v880 : IVec S16 32), Decidable (k0_chk450 v880) := fun v880 => decidable_of_iff' _ (Iff.of_eq (k0_chk450.eq_1 v880))
theorem k0_idx450_inb : ∀ (v880 : IVec S16 32) (k0_hw450 : k0_chk450 v880), ∀ a x, ((![v880] : Fin 1 → IVec S16 32) a x).toNat < S25600.size a := fun v880 k0_hw450 => k0_hw450

def k0_chk451 (v388 : IVec S16 32) (v882 : IVec S16 32) : Prop :=
  (∀ a x, ((![v388, v882] : Fin 2 → IVec S16 32) a x).toNat < S200x128.size a)
instance k0_chk451.dec : ∀ (v388 : IVec S16 32) (v882 : IVec S16 32), Decidable (k0_chk451 v388 v882) := fun v388 v882 => decidable_of_iff' _ (Iff.of_eq (k0_chk451.eq_1 v388 v882))
theorem k0_idx451_inb : ∀ (v388 : IVec S16 32) (v882 : IVec S16 32) (k0_hw451 : k0_chk451 v388 v882), ∀ a x, ((![v388, v882] : Fin 2 → IVec S16 32) a x).toNat < S200x128.size a := fun v388 v882 k0_hw451 => k0_hw451

def k0_chk452 (v885 : IVec S16 32) : Prop :=
  (∀ a x, ((![v885] : Fin 1 → IVec S16 32) a x).toNat < S25600.size a)
instance k0_chk452.dec : ∀ (v885 : IVec S16 32), Decidable (k0_chk452 v885) := fun v885 => decidable_of_iff' _ (Iff.of_eq (k0_chk452.eq_1 v885))
theorem k0_idx452_inb : ∀ (v885 : IVec S16 32) (k0_hw452 : k0_chk452 v885), ∀ a x, ((![v885] : Fin 1 → IVec S16 32) a x).toNat < S25600.size a := fun v885 k0_hw452 => k0_hw452

def k0_chk453 (v388 : IVec S16 32) (v887 : IVec S16 32) : Prop :=
  (∀ a x, ((![v388, v887] : Fin 2 → IVec S16 32) a x).toNat < S200x128.size a)
instance k0_chk453.dec : ∀ (v388 : IVec S16 32) (v887 : IVec S16 32), Decidable (k0_chk453 v388 v887) := fun v388 v887 => decidable_of_iff' _ (Iff.of_eq (k0_chk453.eq_1 v388 v887))
theorem k0_idx453_inb : ∀ (v388 : IVec S16 32) (v887 : IVec S16 32) (k0_hw453 : k0_chk453 v388 v887), ∀ a x, ((![v388, v887] : Fin 2 → IVec S16 32) a x).toNat < S200x128.size a := fun v388 v887 k0_hw453 => k0_hw453

def k0_chk454 (v890 : IVec S16 32) : Prop :=
  (∀ a x, ((![v890] : Fin 1 → IVec S16 32) a x).toNat < S25600.size a)
instance k0_chk454.dec : ∀ (v890 : IVec S16 32), Decidable (k0_chk454 v890) := fun v890 => decidable_of_iff' _ (Iff.of_eq (k0_chk454.eq_1 v890))
theorem k0_idx454_inb : ∀ (v890 : IVec S16 32) (k0_hw454 : k0_chk454 v890), ∀ a x, ((![v890] : Fin 1 → IVec S16 32) a x).toNat < S25600.size a := fun v890 k0_hw454 => k0_hw454

def k0_chk455 (v388 : IVec S16 32) (v892 : IVec S16 32) : Prop :=
  (∀ a x, ((![v388, v892] : Fin 2 → IVec S16 32) a x).toNat < S200x128.size a)
instance k0_chk455.dec : ∀ (v388 : IVec S16 32) (v892 : IVec S16 32), Decidable (k0_chk455 v388 v892) := fun v388 v892 => decidable_of_iff' _ (Iff.of_eq (k0_chk455.eq_1 v388 v892))
theorem k0_idx455_inb : ∀ (v388 : IVec S16 32) (v892 : IVec S16 32) (k0_hw455 : k0_chk455 v388 v892), ∀ a x, ((![v388, v892] : Fin 2 → IVec S16 32) a x).toNat < S200x128.size a := fun v388 v892 k0_hw455 => k0_hw455

def k0_chk456 (v895 : IVec S16 32) : Prop :=
  (∀ a x, ((![v895] : Fin 1 → IVec S16 32) a x).toNat < S25600.size a)
instance k0_chk456.dec : ∀ (v895 : IVec S16 32), Decidable (k0_chk456 v895) := fun v895 => decidable_of_iff' _ (Iff.of_eq (k0_chk456.eq_1 v895))
theorem k0_idx456_inb : ∀ (v895 : IVec S16 32) (k0_hw456 : k0_chk456 v895), ∀ a x, ((![v895] : Fin 1 → IVec S16 32) a x).toNat < S25600.size a := fun v895 k0_hw456 => k0_hw456

def k0_chk457 (v388 : IVec S16 32) (v897 : IVec S16 32) : Prop :=
  (∀ a x, ((![v388, v897] : Fin 2 → IVec S16 32) a x).toNat < S200x128.size a)
instance k0_chk457.dec : ∀ (v388 : IVec S16 32) (v897 : IVec S16 32), Decidable (k0_chk457 v388 v897) := fun v388 v897 => decidable_of_iff' _ (Iff.of_eq (k0_chk457.eq_1 v388 v897))
theorem k0_idx457_inb : ∀ (v388 : IVec S16 32) (v897 : IVec S16 32) (k0_hw457 : k0_chk457 v388 v897), ∀ a x, ((![v388, v897] : Fin 2 → IVec S16 32) a x).toNat < S200x128.size a := fun v388 v897 k0_hw457 => k0_hw457

def k0_chk458 (v900 : IVec S16 32) : Prop :=
  (∀ a x, ((![v900] : Fin 1 → IVec S16 32) a x).toNat < S25600.size a)
instance k0_chk458.dec : ∀ (v900 : IVec S16 32), Decidable (k0_chk458 v900) := fun v900 => decidable_of_iff' _ (Iff.of_eq (k0_chk458.eq_1 v900))
theorem k0_idx458_inb : ∀ (v900 : IVec S16 32) (k0_hw458 : k0_chk458 v900), ∀ a x, ((![v900] : Fin 1 → IVec S16 32) a x).toNat < S25600.size a := fun v900 k0_hw458 => k0_hw458

def k0_chk459 (v388 : IVec S16 32) (v902 : IVec S16 32) : Prop :=
  (∀ a x, ((![v388, v902] : Fin 2 → IVec S16 32) a x).toNat < S200x128.size a)
instance k0_chk459.dec : ∀ (v388 : IVec S16 32) (v902 : IVec S16 32), Decidable (k0_chk459 v388 v902) := fun v388 v902 => decidable_of_iff' _ (Iff.of_eq (k0_chk459.eq_1 v388 v902))
theorem k0_idx459_inb : ∀ (v388 : IVec S16 32) (v902 : IVec S16 32) (k0_hw459 : k0_chk459 v388 v902), ∀ a x, ((![v388, v902] : Fin 2 → IVec S16 32) a x).toNat < S200x128.size a := fun v388 v902 k0_hw459 => k0_hw459

def k0_chk460 (v905 : IVec S16 32) : Prop :=
  (∀ a x, ((![v905] : Fin 1 → IVec S16 32) a x).toNat < S25600.size a)
instance k0_chk460.dec : ∀ (v905 : IVec S16 32), Decidable (k0_chk460 v905) := fun v905 => decidable_of_iff' _ (Iff.of_eq (k0_chk460.eq_1 v905))
theorem k0_idx460_inb : ∀ (v905 : IVec S16 32) (k0_hw460 : k0_chk460 v905), ∀ a x, ((![v905] : Fin 1 → IVec S16 32) a x).toNat < S25600.size a := fun v905 k0_hw460 => k0_hw460

def k0_chk461 (v388 : IVec S16 32) (v907 : IVec S16 32) : Prop :=
  (∀ a x, ((![v388, v907] : Fin 2 → IVec S16 32) a x).toNat < S200x128.size a)
instance k0_chk461.dec : ∀ (v388 : IVec S16 32) (v907 : IVec S16 32), Decidable (k0_chk461 v388 v907) := fun v388 v907 => decidable_of_iff' _ (Iff.of_eq (k0_chk461.eq_1 v388 v907))
theorem k0_idx461_inb : ∀ (v388 : IVec S16 32) (v907 : IVec S16 32) (k0_hw461 : k0_chk461 v388 v907), ∀ a x, ((![v388, v907] : Fin 2 → IVec S16 32) a x).toNat < S200x128.size a := fun v388 v907 k0_hw461 => k0_hw461

def k0_chk462 (v910 : IVec S16 32) : Prop :=
  (∀ a x, ((![v910] : Fin 1 → IVec S16 32) a x).toNat < S25600.size a)
instance k0_chk462.dec : ∀ (v910 : IVec S16 32), Decidable (k0_chk462 v910) := fun v910 => decidable_of_iff' _ (Iff.of_eq (k0_chk462.eq_1 v910))
theorem k0_idx462_inb : ∀ (v910 : IVec S16 32) (k0_hw462 : k0_chk462 v910), ∀ a x, ((![v910] : Fin 1 → IVec S16 32) a x).toNat < S25600.size a := fun v910 k0_hw462 => k0_hw462

def k0_chk463 (v388 : IVec S16 32) (v912 : IVec S16 32) : Prop :=
  (∀ a x, ((![v388, v912] : Fin 2 → IVec S16 32) a x).toNat < S200x128.size a)
instance k0_chk463.dec : ∀ (v388 : IVec S16 32) (v912 : IVec S16 32), Decidable (k0_chk463 v388 v912) := fun v388 v912 => decidable_of_iff' _ (Iff.of_eq (k0_chk463.eq_1 v388 v912))
theorem k0_idx463_inb : ∀ (v388 : IVec S16 32) (v912 : IVec S16 32) (k0_hw463 : k0_chk463 v388 v912), ∀ a x, ((![v388, v912] : Fin 2 → IVec S16 32) a x).toNat < S200x128.size a := fun v388 v912 k0_hw463 => k0_hw463

def k0_chk464 (v915 : IVec S16 32) : Prop :=
  (∀ a x, ((![v915] : Fin 1 → IVec S16 32) a x).toNat < S25600.size a)
instance k0_chk464.dec : ∀ (v915 : IVec S16 32), Decidable (k0_chk464 v915) := fun v915 => decidable_of_iff' _ (Iff.of_eq (k0_chk464.eq_1 v915))
theorem k0_idx464_inb : ∀ (v915 : IVec S16 32) (k0_hw464 : k0_chk464 v915), ∀ a x, ((![v915] : Fin 1 → IVec S16 32) a x).toNat < S25600.size a := fun v915 k0_hw464 => k0_hw464

def k0_chk465 (v388 : IVec S16 32) (v917 : IVec S16 32) : Prop :=
  (∀ a x, ((![v388, v917] : Fin 2 → IVec S16 32) a x).toNat < S200x128.size a)
instance k0_chk465.dec : ∀ (v388 : IVec S16 32) (v917 : IVec S16 32), Decidable (k0_chk465 v388 v917) := fun v388 v917 => decidable_of_iff' _ (Iff.of_eq (k0_chk465.eq_1 v388 v917))
theorem k0_idx465_inb : ∀ (v388 : IVec S16 32) (v917 : IVec S16 32) (k0_hw465 : k0_chk465 v388 v917), ∀ a x, ((![v388, v917] : Fin 2 → IVec S16 32) a x).toNat < S200x128.size a := fun v388 v917 k0_hw465 => k0_hw465

def k0_chk466 (v920 : IVec S16 32) : Prop :=
  (∀ a x, ((![v920] : Fin 1 → IVec S16 32) a x).toNat < S25600.size a)
instance k0_chk466.dec : ∀ (v920 : IVec S16 32), Decidable (k0_chk466 v920) := fun v920 => decidable_of_iff' _ (Iff.of_eq (k0_chk466.eq_1 v920))
theorem k0_idx466_inb : ∀ (v920 : IVec S16 32) (k0_hw466 : k0_chk466 v920), ∀ a x, ((![v920] : Fin 1 → IVec S16 32) a x).toNat < S25600.size a := fun v920 k0_hw466 => k0_hw466

def k0_chk467 (v388 : IVec S16 32) (v922 : IVec S16 32) : Prop :=
  (∀ a x, ((![v388, v922] : Fin 2 → IVec S16 32) a x).toNat < S200x128.size a)
instance k0_chk467.dec : ∀ (v388 : IVec S16 32) (v922 : IVec S16 32), Decidable (k0_chk467 v388 v922) := fun v388 v922 => decidable_of_iff' _ (Iff.of_eq (k0_chk467.eq_1 v388 v922))
theorem k0_idx467_inb : ∀ (v388 : IVec S16 32) (v922 : IVec S16 32) (k0_hw467 : k0_chk467 v388 v922), ∀ a x, ((![v388, v922] : Fin 2 → IVec S16 32) a x).toNat < S200x128.size a := fun v388 v922 k0_hw467 => k0_hw467

def k0_chk468 (v925 : IVec S16 32) : Prop :=
  (∀ a x, ((![v925] : Fin 1 → IVec S16 32) a x).toNat < S25600.size a)
instance k0_chk468.dec : ∀ (v925 : IVec S16 32), Decidable (k0_chk468 v925) := fun v925 => decidable_of_iff' _ (Iff.of_eq (k0_chk468.eq_1 v925))
theorem k0_idx468_inb : ∀ (v925 : IVec S16 32) (k0_hw468 : k0_chk468 v925), ∀ a x, ((![v925] : Fin 1 → IVec S16 32) a x).toNat < S25600.size a := fun v925 k0_hw468 => k0_hw468

def k0_chk469 (v388 : IVec S16 32) (v927 : IVec S16 32) : Prop :=
  (∀ a x, ((![v388, v927] : Fin 2 → IVec S16 32) a x).toNat < S200x128.size a)
instance k0_chk469.dec : ∀ (v388 : IVec S16 32) (v927 : IVec S16 32), Decidable (k0_chk469 v388 v927) := fun v388 v927 => decidable_of_iff' _ (Iff.of_eq (k0_chk469.eq_1 v388 v927))
theorem k0_idx469_inb : ∀ (v388 : IVec S16 32) (v927 : IVec S16 32) (k0_hw469 : k0_chk469 v388 v927), ∀ a x, ((![v388, v927] : Fin 2 → IVec S16 32) a x).toNat < S200x128.size a := fun v388 v927 k0_hw469 => k0_hw469

def k0_chk470 (v930 : IVec S16 32) : Prop :=
  (∀ a x, ((![v930] : Fin 1 → IVec S16 32) a x).toNat < S25600.size a)
instance k0_chk470.dec : ∀ (v930 : IVec S16 32), Decidable (k0_chk470 v930) := fun v930 => decidable_of_iff' _ (Iff.of_eq (k0_chk470.eq_1 v930))
theorem k0_idx470_inb : ∀ (v930 : IVec S16 32) (k0_hw470 : k0_chk470 v930), ∀ a x, ((![v930] : Fin 1 → IVec S16 32) a x).toNat < S25600.size a := fun v930 k0_hw470 => k0_hw470

def k0_chk471 (v388 : IVec S16 32) (v932 : IVec S16 32) : Prop :=
  (∀ a x, ((![v388, v932] : Fin 2 → IVec S16 32) a x).toNat < S200x128.size a)
instance k0_chk471.dec : ∀ (v388 : IVec S16 32) (v932 : IVec S16 32), Decidable (k0_chk471 v388 v932) := fun v388 v932 => decidable_of_iff' _ (Iff.of_eq (k0_chk471.eq_1 v388 v932))
theorem k0_idx471_inb : ∀ (v388 : IVec S16 32) (v932 : IVec S16 32) (k0_hw471 : k0_chk471 v388 v932), ∀ a x, ((![v388, v932] : Fin 2 → IVec S16 32) a x).toNat < S200x128.size a := fun v388 v932 k0_hw471 => k0_hw471

def k0_chk472 (v935 : IVec S16 32) : Prop :=
  (∀ a x, ((![v935] : Fin 1 → IVec S16 32) a x).toNat < S25600.size a)
instance k0_chk472.dec : ∀ (v935 : IVec S16 32), Decidable (k0_chk472 v935) := fun v935 => decidable_of_iff' _ (Iff.of_eq (k0_chk472.eq_1 v935))
theorem k0_idx472_inb : ∀ (v935 : IVec S16 32) (k0_hw472 : k0_chk472 v935), ∀ a x, ((![v935] : Fin 1 → IVec S16 32) a x).toNat < S25600.size a := fun v935 k0_hw472 => k0_hw472

def k0_chk473 (v388 : IVec S16 32) (v937 : IVec S16 32) : Prop :=
  (∀ a x, ((![v388, v937] : Fin 2 → IVec S16 32) a x).toNat < S200x128.size a)
instance k0_chk473.dec : ∀ (v388 : IVec S16 32) (v937 : IVec S16 32), Decidable (k0_chk473 v388 v937) := fun v388 v937 => decidable_of_iff' _ (Iff.of_eq (k0_chk473.eq_1 v388 v937))
theorem k0_idx473_inb : ∀ (v388 : IVec S16 32) (v937 : IVec S16 32) (k0_hw473 : k0_chk473 v388 v937), ∀ a x, ((![v388, v937] : Fin 2 → IVec S16 32) a x).toNat < S200x128.size a := fun v388 v937 k0_hw473 => k0_hw473

def k0_chk474 (v940 : IVec S16 32) : Prop :=
  (∀ a x, ((![v940] : Fin 1 → IVec S16 32) a x).toNat < S25600.size a)
instance k0_chk474.dec : ∀ (v940 : IVec S16 32), Decidable (k0_chk474 v940) := fun v940 => decidable_of_iff' _ (Iff.of_eq (k0_chk474.eq_1 v940))
theorem k0_idx474_inb : ∀ (v940 : IVec S16 32) (k0_hw474 : k0_chk474 v940), ∀ a x, ((![v940] : Fin 1 → IVec S16 32) a x).toNat < S25600.size a := fun v940 k0_hw474 => k0_hw474

def k0_chk475 (v388 : IVec S16 32) (v942 : IVec S16 32) : Prop :=
  (∀ a x, ((![v388, v942] : Fin 2 → IVec S16 32) a x).toNat < S200x128.size a)
instance k0_chk475.dec : ∀ (v388 : IVec S16 32) (v942 : IVec S16 32), Decidable (k0_chk475 v388 v942) := fun v388 v942 => decidable_of_iff' _ (Iff.of_eq (k0_chk475.eq_1 v388 v942))
theorem k0_idx475_inb : ∀ (v388 : IVec S16 32) (v942 : IVec S16 32) (k0_hw475 : k0_chk475 v388 v942), ∀ a x, ((![v388, v942] : Fin 2 → IVec S16 32) a x).toNat < S200x128.size a := fun v388 v942 k0_hw475 => k0_hw475

def k0_chk476 (v945 : IVec S16 32) : Prop :=
  (∀ a x, ((![v945] : Fin 1 → IVec S16 32) a x).toNat < S25600.size a)
instance k0_chk476.dec : ∀ (v945 : IVec S16 32), Decidable (k0_chk476 v945) := fun v945 => decidable_of_iff' _ (Iff.of_eq (k0_chk476.eq_1 v945))
theorem k0_idx476_inb : ∀ (v945 : IVec S16 32) (k0_hw476 : k0_chk476 v945), ∀ a x, ((![v945] : Fin 1 → IVec S16 32) a x).toNat < S25600.size a := fun v945 k0_hw476 => k0_hw476

def k0_chk477 (v388 : IVec S16 32) (v947 : IVec S16 32) : Prop :=
  (∀ a x, ((![v388, v947] : Fin 2 → IVec S16 32) a x).toNat < S200x128.size a)
instance k0_chk477.dec : ∀ (v388 : IVec S16 32) (v947 : IVec S16 32), Decidable (k0_chk477 v388 v947) := fun v388 v947 => decidable_of_iff' _ (Iff.of_eq (k0_chk477.eq_1 v388 v947))
theorem k0_idx477_inb : ∀ (v388 : IVec S16 32) (v947 : IVec S16 32) (k0_hw477 : k0_chk477 v388 v947), ∀ a x, ((![v388, v947] : Fin 2 → IVec S16 32) a x).toNat < S200x128.size a := fun v388 v947 k0_hw477 => k0_hw477

def k0_chk478 (v950 : IVec S16 32) : Prop :=
  (∀ a x, ((![v950] : Fin 1 → IVec S16 32) a x).toNat < S25600.size a)
instance k0_chk478.dec : ∀ (v950 : IVec S16 32), Decidable (k0_chk478 v950) := fun v950 => decidable_of_iff' _ (Iff.of_eq (k0_chk478.eq_1 v950))
theorem k0_idx478_inb : ∀ (v950 : IVec S16 32) (k0_hw478 : k0_chk478 v950), ∀ a x, ((![v950] : Fin 1 → IVec S16 32) a x).toNat < S25600.size a := fun v950 k0_hw478 => k0_hw478

def k0_chk479 (v388 : IVec S16 32) (v952 : IVec S16 32) : Prop :=
  (∀ a x, ((![v388, v952] : Fin 2 → IVec S16 32) a x).toNat < S200x128.size a)
instance k0_chk479.dec : ∀ (v388 : IVec S16 32) (v952 : IVec S16 32), Decidable (k0_chk479 v388 v952) := fun v388 v952 => decidable_of_iff' _ (Iff.of_eq (k0_chk479.eq_1 v388 v952))
theorem k0_idx479_inb : ∀ (v388 : IVec S16 32) (v952 : IVec S16 32) (k0_hw479 : k0_chk479 v388 v952), ∀ a x, ((![v388, v952] : Fin 2 → IVec S16 32) a x).toNat < S200x128.size a := fun v388 v952 k0_hw479 => k0_hw479

def k0_chk480 (v955 : IVec S16 32) : Prop :=
  (∀ a x, ((![v955] : Fin 1 → IVec S16 32) a x).toNat < S25600.size a)
instance k0_chk480.dec : ∀ (v955 : IVec S16 32), Decidable (k0_chk480 v955) := fun v955 => decidable_of_iff' _ (Iff.of_eq (k0_chk480.eq_1 v955))
theorem k0_idx480_inb : ∀ (v955 : IVec S16 32) (k0_hw480 : k0_chk480 v955), ∀ a x, ((![v955] : Fin 1 → IVec S16 32) a x).toNat < S25600.size a := fun v955 k0_hw480 => k0_hw480

def k0_chk481 (v388 : IVec S16 32) (v958 : IVec S16 32) : Prop :=
  (∀ a x, ((![v388, v958] : Fin 2 → IVec S16 32) a x).toNat < S200x128.size a)
instance k0_chk481.dec : ∀ (v388 : IVec S16 32) (v958 : IVec S16 32), Decidable (k0_chk481 v388 v958) := fun v388 v958 => decidable_of_iff' _ (Iff.of_eq (k0_chk481.eq_1 v388 v958))
theorem k0_idx481_inb : ∀ (v388 : IVec S16 32) (v958 : IVec S16 32) (k0_hw481 : k0_chk481 v388 v958), ∀ a x, ((![v388, v958] : Fin 2 → IVec S16 32) a x).toNat < S200x128.size a := fun v388 v958 k0_hw481 => k0_hw481

def k0_chk482 (v961 : IVec S16 32) : Prop :=
  (∀ a x, ((![v961] : Fin 1 → IVec S16 32) a x).toNat < S25600.size a)
instance k0_chk482.dec : ∀ (v961 : IVec S16 32), Decidable (k0_chk482 v961) := fun v961 => decidable_of_iff' _ (Iff.of_eq (k0_chk482.eq_1 v961))
theorem k0_idx482_inb : ∀ (v961 : IVec S16 32) (k0_hw482 : k0_chk482 v961), ∀ a x, ((![v961] : Fin 1 → IVec S16 32) a x).toNat < S25600.size a := fun v961 k0_hw482 => k0_hw482

def k0_chk483 (v388 : IVec S16 32) (v963 : IVec S16 32) : Prop :=
  (∀ a x, ((![v388, v963] : Fin 2 → IVec S16 32) a x).toNat < S200x128.size a)
instance k0_chk483.dec : ∀ (v388 : IVec S16 32) (v963 : IVec S16 32), Decidable (k0_chk483 v388 v963) := fun v388 v963 => decidable_of_iff' _ (Iff.of_eq (k0_chk483.eq_1 v388 v963))
theorem k0_idx483_inb : ∀ (v388 : IVec S16 32) (v963 : IVec S16 32) (k0_hw483 : k0_chk483 v388 v963), ∀ a x, ((![v388, v963] : Fin 2 → IVec S16 32) a x).toNat < S200x128.size a := fun v388 v963 k0_hw483 => k0_hw483

def k0_chk484 (v966 : IVec S16 32) : Prop :=
  (∀ a x, ((![v966] : Fin 1 → IVec S16 32) a x).toNat < S25600.size a)
instance k0_chk484.dec : ∀ (v966 : IVec S16 32), Decidable (k0_chk484 v966) := fun v966 => decidable_of_iff' _ (Iff.of_eq (k0_chk484.eq_1 v966))
theorem k0_idx484_inb : ∀ (v966 : IVec S16 32) (k0_hw484 : k0_chk484 v966), ∀ a x, ((![v966] : Fin 1 → IVec S16 32) a x).toNat < S25600.size a := fun v966 k0_hw484 => k0_hw484

def k0_chk485 (v388 : IVec S16 32) (v968 : IVec S16 32) : Prop :=
  (∀ a x, ((![v388, v968] : Fin 2 → IVec S16 32) a x).toNat < S200x128.size a)
instance k0_chk485.dec : ∀ (v388 : IVec S16 32) (v968 : IVec S16 32), Decidable (k0_chk485 v388 v968) := fun v388 v968 => decidable_of_iff' _ (Iff.of_eq (k0_chk485.eq_1 v388 v968))
theorem k0_idx485_inb : ∀ (v388 : IVec S16 32) (v968 : IVec S16 32) (k0_hw485 : k0_chk485 v388 v968), ∀ a x, ((![v388, v968] : Fin 2 → IVec S16 32) a x).toNat < S200x128.size a := fun v388 v968 k0_hw485 => k0_hw485

def k0_chk486 (v971 : IVec S16 32) : Prop :=
  (∀ a x, ((![v971] : Fin 1 → IVec S16 32) a x).toNat < S25600.size a)
instance k0_chk486.dec : ∀ (v971 : IVec S16 32), Decidable (k0_chk486 v971) := fun v971 => decidable_of_iff' _ (Iff.of_eq (k0_chk486.eq_1 v971))
theorem k0_idx486_inb : ∀ (v971 : IVec S16 32) (k0_hw486 : k0_chk486 v971), ∀ a x, ((![v971] : Fin 1 → IVec S16 32) a x).toNat < S25600.size a := fun v971 k0_hw486 => k0_hw486

def k0_chk487 (v388 : IVec S16 32) (v973 : IVec S16 32) : Prop :=
  (∀ a x, ((![v388, v973] : Fin 2 → IVec S16 32) a x).toNat < S200x128.size a)
instance k0_chk487.dec : ∀ (v388 : IVec S16 32) (v973 : IVec S16 32), Decidable (k0_chk487 v388 v973) := fun v388 v973 => decidable_of_iff' _ (Iff.of_eq (k0_chk487.eq_1 v388 v973))
theorem k0_idx487_inb : ∀ (v388 : IVec S16 32) (v973 : IVec S16 32) (k0_hw487 : k0_chk487 v388 v973), ∀ a x, ((![v388, v973] : Fin 2 → IVec S16 32) a x).toNat < S200x128.size a := fun v388 v973 k0_hw487 => k0_hw487

def k0_chk488 (v976 : IVec S16 32) : Prop :=
  (∀ a x, ((![v976] : Fin 1 → IVec S16 32) a x).toNat < S25600.size a)
instance k0_chk488.dec : ∀ (v976 : IVec S16 32), Decidable (k0_chk488 v976) := fun v976 => decidable_of_iff' _ (Iff.of_eq (k0_chk488.eq_1 v976))
theorem k0_idx488_inb : ∀ (v976 : IVec S16 32) (k0_hw488 : k0_chk488 v976), ∀ a x, ((![v976] : Fin 1 → IVec S16 32) a x).toNat < S25600.size a := fun v976 k0_hw488 => k0_hw488

def k0_chk489 (v388 : IVec S16 32) (v978 : IVec S16 32) : Prop :=
  (∀ a x, ((![v388, v978] : Fin 2 → IVec S16 32) a x).toNat < S200x128.size a)
instance k0_chk489.dec : ∀ (v388 : IVec S16 32) (v978 : IVec S16 32), Decidable (k0_chk489 v388 v978) := fun v388 v978 => decidable_of_iff' _ (Iff.of_eq (k0_chk489.eq_1 v388 v978))
theorem k0_idx489_inb : ∀ (v388 : IVec S16 32) (v978 : IVec S16 32) (k0_hw489 : k0_chk489 v388 v978), ∀ a x, ((![v388, v978] : Fin 2 → IVec S16 32) a x).toNat < S200x128.size a := fun v388 v978 k0_hw489 => k0_hw489

def k0_chk490 (v981 : IVec S16 32) : Prop :=
  (∀ a x, ((![v981] : Fin 1 → IVec S16 32) a x).toNat < S25600.size a)
instance k0_chk490.dec : ∀ (v981 : IVec S16 32), Decidable (k0_chk490 v981) := fun v981 => decidable_of_iff' _ (Iff.of_eq (k0_chk490.eq_1 v981))
theorem k0_idx490_inb : ∀ (v981 : IVec S16 32) (k0_hw490 : k0_chk490 v981), ∀ a x, ((![v981] : Fin 1 → IVec S16 32) a x).toNat < S25600.size a := fun v981 k0_hw490 => k0_hw490

def k0_chk491 (v388 : IVec S16 32) (v983 : IVec S16 32) : Prop :=
  (∀ a x, ((![v388, v983] : Fin 2 → IVec S16 32) a x).toNat < S200x128.size a)
instance k0_chk491.dec : ∀ (v388 : IVec S16 32) (v983 : IVec S16 32), Decidable (k0_chk491 v388 v983) := fun v388 v983 => decidable_of_iff' _ (Iff.of_eq (k0_chk491.eq_1 v388 v983))
theorem k0_idx491_inb : ∀ (v388 : IVec S16 32) (v983 : IVec S16 32) (k0_hw491 : k0_chk491 v388 v983), ∀ a x, ((![v388, v983] : Fin 2 → IVec S16 32) a x).toNat < S200x128.size a := fun v388 v983 k0_hw491 => k0_hw491

def k0_chk492 (v986 : IVec S16 32) : Prop :=
  (∀ a x, ((![v986] : Fin 1 → IVec S16 32) a x).toNat < S25600.size a)
instance k0_chk492.dec : ∀ (v986 : IVec S16 32), Decidable (k0_chk492 v986) := fun v986 => decidable_of_iff' _ (Iff.of_eq (k0_chk492.eq_1 v986))
theorem k0_idx492_inb : ∀ (v986 : IVec S16 32) (k0_hw492 : k0_chk492 v986), ∀ a x, ((![v986] : Fin 1 → IVec S16 32) a x).toNat < S25600.size a := fun v986 k0_hw492 => k0_hw492

def k0_chk493 (v388 : IVec S16 32) (v988 : IVec S16 32) : Prop :=
  (∀ a x, ((![v388, v988] : Fin 2 → IVec S16 32) a x).toNat < S200x128.size a)
instance k0_chk493.dec : ∀ (v388 : IVec S16 32) (v988 : IVec S16 32), Decidable (k0_chk493 v388 v988) := fun v388 v988 => decidable_of_iff' _ (Iff.of_eq (k0_chk493.eq_1 v388 v988))
theorem k0_idx493_inb : ∀ (v388 : IVec S16 32) (v988 : IVec S16 32) (k0_hw493 : k0_chk493 v388 v988), ∀ a x, ((![v388, v988] : Fin 2 → IVec S16 32) a x).toNat < S200x128.size a := fun v388 v988 k0_hw493 => k0_hw493

def k0_chk494 (v991 : IVec S16 32) : Prop :=
  (∀ a x, ((![v991] : Fin 1 → IVec S16 32) a x).toNat < S25600.size a)
instance k0_chk494.dec : ∀ (v991 : IVec S16 32), Decidable (k0_chk494 v991) := fun v991 => decidable_of_iff' _ (Iff.of_eq (k0_chk494.eq_1 v991))
theorem k0_idx494_inb : ∀ (v991 : IVec S16 32) (k0_hw494 : k0_chk494 v991), ∀ a x, ((![v991] : Fin 1 → IVec S16 32) a x).toNat < S25600.size a := fun v991 k0_hw494 => k0_hw494

def k0_chk495 (v388 : IVec S16 32) (v993 : IVec S16 32) : Prop :=
  (∀ a x, ((![v388, v993] : Fin 2 → IVec S16 32) a x).toNat < S200x128.size a)
instance k0_chk495.dec : ∀ (v388 : IVec S16 32) (v993 : IVec S16 32), Decidable (k0_chk495 v388 v993) := fun v388 v993 => decidable_of_iff' _ (Iff.of_eq (k0_chk495.eq_1 v388 v993))
theorem k0_idx495_inb : ∀ (v388 : IVec S16 32) (v993 : IVec S16 32) (k0_hw495 : k0_chk495 v388 v993), ∀ a x, ((![v388, v993] : Fin 2 → IVec S16 32) a x).toNat < S200x128.size a := fun v388 v993 k0_hw495 => k0_hw495

def k0_chk496 (v996 : IVec S16 32) : Prop :=
  (∀ a x, ((![v996] : Fin 1 → IVec S16 32) a x).toNat < S25600.size a)
instance k0_chk496.dec : ∀ (v996 : IVec S16 32), Decidable (k0_chk496 v996) := fun v996 => decidable_of_iff' _ (Iff.of_eq (k0_chk496.eq_1 v996))
theorem k0_idx496_inb : ∀ (v996 : IVec S16 32) (k0_hw496 : k0_chk496 v996), ∀ a x, ((![v996] : Fin 1 → IVec S16 32) a x).toNat < S25600.size a := fun v996 k0_hw496 => k0_hw496

def k0_chk497 (v388 : IVec S16 32) (v998 : IVec S16 32) : Prop :=
  (∀ a x, ((![v388, v998] : Fin 2 → IVec S16 32) a x).toNat < S200x128.size a)
instance k0_chk497.dec : ∀ (v388 : IVec S16 32) (v998 : IVec S16 32), Decidable (k0_chk497 v388 v998) := fun v388 v998 => decidable_of_iff' _ (Iff.of_eq (k0_chk497.eq_1 v388 v998))
theorem k0_idx497_inb : ∀ (v388 : IVec S16 32) (v998 : IVec S16 32) (k0_hw497 : k0_chk497 v388 v998), ∀ a x, ((![v388, v998] : Fin 2 → IVec S16 32) a x).toNat < S200x128.size a := fun v388 v998 k0_hw497 => k0_hw497

def k0_chk498 (v1001 : IVec S16 32) : Prop :=
  (∀ a x, ((![v1001] : Fin 1 → IVec S16 32) a x).toNat < S25600.size a)
instance k0_chk498.dec : ∀ (v1001 : IVec S16 32), Decidable (k0_chk498 v1001) := fun v1001 => decidable_of_iff' _ (Iff.of_eq (k0_chk498.eq_1 v1001))
theorem k0_idx498_inb : ∀ (v1001 : IVec S16 32) (k0_hw498 : k0_chk498 v1001), ∀ a x, ((![v1001] : Fin 1 → IVec S16 32) a x).toNat < S25600.size a := fun v1001 k0_hw498 => k0_hw498

def k0_chk499 (v388 : IVec S16 32) (v1003 : IVec S16 32) : Prop :=
  (∀ a x, ((![v388, v1003] : Fin 2 → IVec S16 32) a x).toNat < S200x128.size a)
instance k0_chk499.dec : ∀ (v388 : IVec S16 32) (v1003 : IVec S16 32), Decidable (k0_chk499 v388 v1003) := fun v388 v1003 => decidable_of_iff' _ (Iff.of_eq (k0_chk499.eq_1 v388 v1003))
theorem k0_idx499_inb : ∀ (v388 : IVec S16 32) (v1003 : IVec S16 32) (k0_hw499 : k0_chk499 v388 v1003), ∀ a x, ((![v388, v1003] : Fin 2 → IVec S16 32) a x).toNat < S200x128.size a := fun v388 v1003 k0_hw499 => k0_hw499

def k0_chk500 (v1006 : IVec S16 32) : Prop :=
  (∀ a x, ((![v1006] : Fin 1 → IVec S16 32) a x).toNat < S25600.size a)
instance k0_chk500.dec : ∀ (v1006 : IVec S16 32), Decidable (k0_chk500 v1006) := fun v1006 => decidable_of_iff' _ (Iff.of_eq (k0_chk500.eq_1 v1006))
theorem k0_idx500_inb : ∀ (v1006 : IVec S16 32) (k0_hw500 : k0_chk500 v1006), ∀ a x, ((![v1006] : Fin 1 → IVec S16 32) a x).toNat < S25600.size a := fun v1006 k0_hw500 => k0_hw500

def k0_chk501 (v388 : IVec S16 32) (v1008 : IVec S16 32) : Prop :=
  (∀ a x, ((![v388, v1008] : Fin 2 → IVec S16 32) a x).toNat < S200x128.size a)
instance k0_chk501.dec : ∀ (v388 : IVec S16 32) (v1008 : IVec S16 32), Decidable (k0_chk501 v388 v1008) := fun v388 v1008 => decidable_of_iff' _ (Iff.of_eq (k0_chk501.eq_1 v388 v1008))
theorem k0_idx501_inb : ∀ (v388 : IVec S16 32) (v1008 : IVec S16 32) (k0_hw501 : k0_chk501 v388 v1008), ∀ a x, ((![v388, v1008] : Fin 2 → IVec S16 32) a x).toNat < S200x128.size a := fun v388 v1008 k0_hw501 => k0_hw501

def k0_chk502 (v1011 : IVec S16 32) : Prop :=
  (∀ a x, ((![v1011] : Fin 1 → IVec S16 32) a x).toNat < S25600.size a)
instance k0_chk502.dec : ∀ (v1011 : IVec S16 32), Decidable (k0_chk502 v1011) := fun v1011 => decidable_of_iff' _ (Iff.of_eq (k0_chk502.eq_1 v1011))
theorem k0_idx502_inb : ∀ (v1011 : IVec S16 32) (k0_hw502 : k0_chk502 v1011), ∀ a x, ((![v1011] : Fin 1 → IVec S16 32) a x).toNat < S25600.size a := fun v1011 k0_hw502 => k0_hw502

def k0_chk503 (v388 : IVec S16 32) (v1013 : IVec S16 32) : Prop :=
  (∀ a x, ((![v388, v1013] : Fin 2 → IVec S16 32) a x).toNat < S200x128.size a)
instance k0_chk503.dec : ∀ (v388 : IVec S16 32) (v1013 : IVec S16 32), Decidable (k0_chk503 v388 v1013) := fun v388 v1013 => decidable_of_iff' _ (Iff.of_eq (k0_chk503.eq_1 v388 v1013))
theorem k0_idx503_inb : ∀ (v388 : IVec S16 32) (v1013 : IVec S16 32) (k0_hw503 : k0_chk503 v388 v1013), ∀ a x, ((![v388, v1013] : Fin 2 → IVec S16 32) a x).toNat < S200x128.size a := fun v388 v1013 k0_hw503 => k0_hw503

def k0_chk504 (v1016 : IVec S16 32) : Prop :=
  (∀ a x, ((![v1016] : Fin 1 → IVec S16 32) a x).toNat < S25600.size a)
instance k0_chk504.dec : ∀ (v1016 : IVec S16 32), Decidable (k0_chk504 v1016) := fun v1016 => decidable_of_iff' _ (Iff.of_eq (k0_chk504.eq_1 v1016))
theorem k0_idx504_inb : ∀ (v1016 : IVec S16 32) (k0_hw504 : k0_chk504 v1016), ∀ a x, ((![v1016] : Fin 1 → IVec S16 32) a x).toNat < S25600.size a := fun v1016 k0_hw504 => k0_hw504

def k0_chk505 (v388 : IVec S16 32) (v1018 : IVec S16 32) : Prop :=
  (∀ a x, ((![v388, v1018] : Fin 2 → IVec S16 32) a x).toNat < S200x128.size a)
instance k0_chk505.dec : ∀ (v388 : IVec S16 32) (v1018 : IVec S16 32), Decidable (k0_chk505 v388 v1018) := fun v388 v1018 => decidable_of_iff' _ (Iff.of_eq (k0_chk505.eq_1 v388 v1018))
theorem k0_idx505_inb : ∀ (v388 : IVec S16 32) (v1018 : IVec S16 32) (k0_hw505 : k0_chk505 v388 v1018), ∀ a x, ((![v388, v1018] : Fin 2 → IVec S16 32) a x).toNat < S200x128.size a := fun v388 v1018 k0_hw505 => k0_hw505

def k0_chk506 (v1021 : IVec S16 32) : Prop :=
  (∀ a x, ((![v1021] : Fin 1 → IVec S16 32) a x).toNat < S25600.size a)
instance k0_chk506.dec : ∀ (v1021 : IVec S16 32), Decidable (k0_chk506 v1021) := fun v1021 => decidable_of_iff' _ (Iff.of_eq (k0_chk506.eq_1 v1021))
theorem k0_idx506_inb : ∀ (v1021 : IVec S16 32) (k0_hw506 : k0_chk506 v1021), ∀ a x, ((![v1021] : Fin 1 → IVec S16 32) a x).toNat < S25600.size a := fun v1021 k0_hw506 => k0_hw506

def k0_chk507 (v388 : IVec S16 32) (v1023 : IVec S16 32) : Prop :=
  (∀ a x, ((![v388, v1023] : Fin 2 → IVec S16 32) a x).toNat < S200x128.size a)
instance k0_chk507.dec : ∀ (v388 : IVec S16 32) (v1023 : IVec S16 32), Decidable (k0_chk507 v388 v1023) := fun v388 v1023 => decidable_of_iff' _ (Iff.of_eq (k0_chk507.eq_1 v388 v1023))
theorem k0_idx507_inb : ∀ (v388 : IVec S16 32) (v1023 : IVec S16 32) (k0_hw507 : k0_chk507 v388 v1023), ∀ a x, ((![v388, v1023] : Fin 2 → IVec S16 32) a x).toNat < S200x128.size a := fun v388 v1023 k0_hw507 => k0_hw507

def k0_chk508 (v1026 : IVec S16 32) : Prop :=
  (∀ a x, ((![v1026] : Fin 1 → IVec S16 32) a x).toNat < S25600.size a)
instance k0_chk508.dec : ∀ (v1026 : IVec S16 32), Decidable (k0_chk508 v1026) := fun v1026 => decidable_of_iff' _ (Iff.of_eq (k0_chk508.eq_1 v1026))
theorem k0_idx508_inb : ∀ (v1026 : IVec S16 32) (k0_hw508 : k0_chk508 v1026), ∀ a x, ((![v1026] : Fin 1 → IVec S16 32) a x).toNat < S25600.size a := fun v1026 k0_hw508 => k0_hw508

def k0_chk509 (v388 : IVec S16 32) (v1028 : IVec S16 32) : Prop :=
  (∀ a x, ((![v388, v1028] : Fin 2 → IVec S16 32) a x).toNat < S200x128.size a)
instance k0_chk509.dec : ∀ (v388 : IVec S16 32) (v1028 : IVec S16 32), Decidable (k0_chk509 v388 v1028) := fun v388 v1028 => decidable_of_iff' _ (Iff.of_eq (k0_chk509.eq_1 v388 v1028))
theorem k0_idx509_inb : ∀ (v388 : IVec S16 32) (v1028 : IVec S16 32) (k0_hw509 : k0_chk509 v388 v1028), ∀ a x, ((![v388, v1028] : Fin 2 → IVec S16 32) a x).toNat < S200x128.size a := fun v388 v1028 k0_hw509 => k0_hw509

def k0_chk510 (v1031 : IVec S16 32) : Prop :=
  (∀ a x, ((![v1031] : Fin 1 → IVec S16 32) a x).toNat < S25600.size a)
instance k0_chk510.dec : ∀ (v1031 : IVec S16 32), Decidable (k0_chk510 v1031) := fun v1031 => decidable_of_iff' _ (Iff.of_eq (k0_chk510.eq_1 v1031))
theorem k0_idx510_inb : ∀ (v1031 : IVec S16 32) (k0_hw510 : k0_chk510 v1031), ∀ a x, ((![v1031] : Fin 1 → IVec S16 32) a x).toNat < S25600.size a := fun v1031 k0_hw510 => k0_hw510

def k0_chk511 (v388 : IVec S16 32) (v1033 : IVec S16 32) : Prop :=
  (∀ a x, ((![v388, v1033] : Fin 2 → IVec S16 32) a x).toNat < S200x128.size a)
instance k0_chk511.dec : ∀ (v388 : IVec S16 32) (v1033 : IVec S16 32), Decidable (k0_chk511 v388 v1033) := fun v388 v1033 => decidable_of_iff' _ (Iff.of_eq (k0_chk511.eq_1 v388 v1033))
theorem k0_idx511_inb : ∀ (v388 : IVec S16 32) (v1033 : IVec S16 32) (k0_hw511 : k0_chk511 v388 v1033), ∀ a x, ((![v388, v1033] : Fin 2 → IVec S16 32) a x).toNat < S200x128.size a := fun v388 v1033 k0_hw511 => k0_hw511

def k0_chk512 (v1036 : IVec S16 32) : Prop :=
  (∀ a x, ((![v1036] : Fin 1 → IVec S16 32) a x).toNat < S25600.size a)
instance k0_chk512.dec : ∀ (v1036 : IVec S16 32), Decidable (k0_chk512 v1036) := fun v1036 => decidable_of_iff' _ (Iff.of_eq (k0_chk512.eq_1 v1036))
theorem k0_idx512_inb : ∀ (v1036 : IVec S16 32) (k0_hw512 : k0_chk512 v1036), ∀ a x, ((![v1036] : Fin 1 → IVec S16 32) a x).toNat < S25600.size a := fun v1036 k0_hw512 => k0_hw512
def k0_cond4 (k0_t1 : Fin k0_t1_loop.trips) : BitVec 1 :=
  let c2_i32_141 : BitVec 32 := 2#32
  let c0_i32_118 : BitVec 32 := 0#32
  let c1_i32_119 : BitVec 32 := 1#32
  let arg15 : BitVec 32 := Scf.iv c0_i32_118 c1_i32_119 k0_t1
  let v369 : BitVec 32 := Scalar.muli c2_i32_141 arg15
  let c1_i32_142 : BitVec 32 := 1#32
  let v370 : BitVec 32 := Scalar.addi v369 c1_i32_142
  let c2_i32_154 : BitVec 32 := 2#32
  let v381 : BitVec 32 := Scalar.addi v370 c2_i32_154
  let c128_i32_155 : BitVec 32 := 128#32
  let v382 : BitVec 1 := Scalar.cmpi .slt v381 c128_i32_155
  let v383 : BitVec 32 := Scalar.extui v382
  let c0_i32_156 : BitVec 32 := 0#32
  let v384 : BitVec 1 := Scalar.cmpi .ne v383 c0_i32_156
  v384

def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_141 : BitVec 32 := 2#32
  let c0_i32_118 : BitVec 32 := 0#32
  let c1_i32_119 : BitVec 32 := 1#32
  let arg15 : BitVec 32 := Scf.iv c0_i32_118 c1_i32_119 k0_t1
  let v369 : BitVec 32 := Scalar.muli c2_i32_141 arg15
  let c1_i32_142 : BitVec 32 := 1#32
  let v370 : BitVec 32 := Scalar.addi v369 c1_i32_142
  let c2_i32_157 : BitVec 32 := 2#32
  let v385 : BitVec 32 := Scalar.addi v370 c2_i32_157
  let v386 : BitVec 32 := Scalar.addi v2 v385
  let c0_i32_160_r3 : BitVec 32 := 0#32
  ![v386.toNat, 0]
def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_121 : BitVec 32 := 0#32
  ![v2.toNat, 0]
abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 1 → Memref sig .tc .vmem S4096x1x200 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4096x1x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  iota_S16_d0_w32_scVector : S16.Iotas .scVector 32 [0]
  broadcasts_S16_S16 : S16.Broadcasts S16
  squeezes_S1x200_S200 : S1x200.Squeezes S200
  inb_S100000x128_S100000x128_0_0 : ∀ a, (![0, 0] : Fin 2 → Nat) a + S100000x128.size a ≤ S100000x128.size a
  gathers_S100000x128_S200x128 : S100000x128.Gathers 0 S200x128
  squeezes_S1x25600_S25600 : S1x25600.Squeezes S25600
  h_S200x128 : 0 < S200x128.numel
  h_S25600 : 0 < S25600.numel
  shapeCasts_S4096x200_S4096x1x200 : S4096x200.ShapeCasts S4096x1x200
  inb_S4096x1x200_S4096x1x200_0_0_0 : ∀ a, (![0, 0, 0] : Fin 3 → Nat) a + S4096x1x200.size a ≤ S4096x1x200.size a
  h_S4096x1x200 : 0 < S4096x1x200.numel
  shapeCasts_S4096x1x200_S4096x1x200 : S4096x1x200.ShapeCasts S4096x1x200
  natLt_1_32 : 1 < 32
  reduces_S4096x1x200_S4096x1 : S4096x1x200.Reduces [2] S4096x1
  shapeCasts_S4096x1_S4096x1x1 : S4096x1.ShapeCasts S4096x1x1
  inb_S4096x1x1_S4096x1x1_0_0_0 : ∀ a, (![0, 0, 0] : Fin 3 → Nat) a + S4096x1x1.size a ≤ S4096x1x1.size a
  h_S4096x1x1 : 0 < S4096x1x1.numel
  shapeCasts_S4096x25600_S4096x128x200 : S4096x25600.ShapeCasts S4096x128x200
  shapeCasts_S4096x1x1_S4096 : S4096x1x1.ShapeCasts S4096
  hcc0_scratch6 : 0 + S_.numel ≤ 10
  hcc0_scratch7 : 1 + S_.numel ≤ 10
  hcc0_scratch8 : 2 + S_.numel ≤ 10
  hcc0_scratch9 : 3 + S_.numel ≤ 10
  hcc0_scoped0 : 4 + S_.numel ≤ 10
  hcc0_scoped1 : 5 + S_.numel ≤ 10
  hcc0_scoped2 : 6 + S_.numel ≤ 10
  hcc0_scoped3 : 7 + S_.numel ≤ 10
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 r.val)) a + S1x200.size a ≤ S4096x200.size a
  k0_t1_ok : k0_t1_loop.OK
  k0_off2_inb : ∀ (i : grid0.Coords) (k0_t1 : Fin k0_t1_loop.trips), ∀ (k0_h1 : k0_cond1 k0_t1 = 1#1), ∀ a, (k0_off2 i k0_t1) a + S1x25600.size a ≤ S4096x25600.size a
  k0_t2_ok : k0_t2_loop.OK
  k0_off3_inb : ∀ (i : grid0.Coords) (k0_t1 : Fin k0_t1_loop.trips), ∀ (r : Fin 2), ∀ a, (k0_off3 i k0_t1 (BitVec.ofNat 32 r.val)) a + S1x25600.size a ≤ S4096x25600.size a
  k0_off4_inb : ∀ (i : grid0.Coords) (k0_t1 : Fin k0_t1_loop.trips), ∀ (k0_h2 : k0_cond2 k0_t1 = 1#1), ∀ a, (k0_off4 i k0_t1) a + S1x200.size a ≤ S4096x200.size a
  k0_off5_inb : ∀ (i : grid0.Coords) (k0_t1 : Fin k0_t1_loop.trips), ∀ (k0_h3 : k0_cond3 k0_t1 = 1#1), ∀ a, (k0_off5 i k0_t1) a + S1x25600.size a ≤ S4096x25600.size a
  k0_t3_ok : k0_t3_loop.OK
  k0_off6_inb : ∀ (i : grid0.Coords) (k0_t1 : Fin k0_t1_loop.trips), ∀ (k0_h4 : k0_cond4 k0_t1 = 1#1), ∀ a, (k0_off6 i k0_t1) a + S1x200.size a ≤ S4096x200.size a
  k0_off7_inb : ∀ i : grid0.Coords, ∀ a, (k0_off7 i) a + S1x25600.size a ≤ S4096x25600.size a
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x1x200.size a ≤ S4096x1x200.size a
  hwx1_0 : ∀ i : grid1.Coords, EltTy.bits .i32 = 32 ∨ (Rect.block (s := S4096x1x200) S4096x1x200.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1x1.size a ≤ S4096x1x1.size a
  hwx1_1 : ∀ i : grid1.Coords, EltTy.bits .i32 = 32 ∨ (Rect.block (s := S4096x1x1) S4096x1x1.size (cc1_transform_1 i) (hinb1_1 i)).WholeWords (EltTy.packing .i32)

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scoped0 : DmaSems sig S_ := SemArray.consecutive 4 S_ hcc0_scoped0
abbrev cc0_scoped1 : DmaSems sig S_ := SemArray.consecutive 5 S_ hcc0_scoped1
abbrev cc0_scoped2 : DmaSems sig S_ := SemArray.consecutive 6 S_ hcc0_scoped2
abbrev cc0_scoped3 : DmaSems sig S_ := SemArray.consecutive 7 S_ hcc0_scoped3

abbrev win1_0 : Pipeline.Window sig grid1 :=
  Pipeline.Window.ofSpec (Memref.whole main_v1) S4096x1x200.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S4096x1x1.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S4096x200 : Shape := ⟨2, ![4096, 200]⟩
abbrev S100000x128 : Shape := ⟨2, ![100000, 128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩
abbrev S4096x128x200 : Shape := ⟨3, ![4096, 128, 200]⟩
abbrev S4096 : Shape := ⟨1, ![4096]⟩

abbrev nBuf : Space → Nat
  | .hbm => 32
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100000x128, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x128, .f32⟩
  | .hbm, ⟨21, _⟩ => ⟨S4096x200x128, .i1⟩
  | .hbm, ⟨22, _⟩ => ⟨S_, .f32⟩
  | .hbm, ⟨23, _⟩ => ⟨S4096x200x128, .f32⟩
  | .hbm, ⟨24, _⟩ => ⟨S4096x200x128, .f32⟩
  | .hbm, ⟨25, _⟩ => ⟨S4096x128x200, .f32⟩
  | .hbm, ⟨26, _⟩ => ⟨S_, .i32⟩
  | .hbm, ⟨27, _⟩ => ⟨S4096x200, .i32⟩
  | .hbm, ⟨28, _⟩ => ⟨S4096x200, .i1⟩
  | .hbm, ⟨29, _⟩ => ⟨S4096x200, .i32⟩
  | .hbm, ⟨30, _⟩ => ⟨S_, .i32⟩
  | .hbm, ⟨31, _⟩ => ⟨S4096, .i32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩
abbrev main_c : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_c_0 : Ref sig .tc := ⟨.hbm, 30, rfl⟩
abbrev main_v5 : Ref sig .tc := ⟨.hbm, 31, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x128_0_1 : S4096x200.BroadcastsInDim S4096x200x128 (![0, 1] : Fin 2 → Fin S4096x200x128.rank)
  bcast_S_S4096x200x128 : S_.BroadcastsInDim S4096x200x128 (![] : Fin 0 → Fin S4096x200x128.rank)
  transposes_S4096x200x128_S4096x128x200_0_2_1 : S4096x200x128.Transposes [0, 2, 1] S4096x128x200
  natLt_1_32 : 1 < 32
  reducesTo_S4096x200_S4096_d1 : S4096x200.ReducesTo [1] S4096
  gather_S100000x128_S4096x200x1_S4096x200x128_2_0_n_n_0_2_1128_wf : GatherDims.WF S100000x128 S4096x200x1 S4096x200x128 [2] [0] [] [0] [] 2 ![1, 128]

variable [Facts₀]

def gather_S100000x128_S4096x200x1_S4096x200x128_2_0_n_n_0_2_1128 : GatherDims S100000x128 S4096x200x1 S4096x200x128 where
  offsetDims := [2]
  collapsedSliceDims := [0]
  operandBatchingDims := []
  startIndicesBatchingDims := []
  startIndexMap := [0]
  indexVectorDim := 2
  sliceSizes := ![1, 128]
  wf := gather_S100000x128_S4096x200x1_S4096x200x128_2_0_n_n_0_2_1128_wf

class Facts : Prop extends Facts₀ where

variable [Facts]
-- ==== Proof.Spec.lean ====
/-
  What both programs compute, as pure functions of the two argument arrays.

  The first result is an embedding lookup followed by a swap of the last two axes: entry (b, d, l) of the
  result is entry d of the table row that token (b, l) names. The second result counts, for each batch row b,
  the tokens of that row that are not the padding token 0; the count is taken in 32-bit integers.

  The lookup is pure data movement, so the function is stated for any type of table entries.
-/
import Idealize.ShloMosaic.PureOps
import Idealize.ShloMosaic.Lib.ValueIdx

namespace Cert.Proof.Spec

open Idealize.ShloMosaic Idealize.ShloMosaic.ValueIdx

/-- tokens: 4096 rows of 200 -/
abbrev SX : Shape := ⟨2, ![4096, 200]⟩
/-- the table: 100000 rows of 128 entries -/
abbrev ST : Shape := ⟨2, ![100000, 128]⟩
/-- the looked-up rows, swapped: batch × entry × position -/
abbrev SOut : Shape := ⟨3, ![4096, 128, 200]⟩
/-- the same array before its last axis is split: batch × (entry · 200 + position) -/
abbrev SFlat : Shape := ⟨2, ![4096, 25600]⟩
/-- one count per batch row -/
abbrev SLen : Shape := ⟨1, ![4096]⟩

/-- The table row a token names. Tokens lie in [0, 100000) under the precondition; taking the remainder makes
    the function total without changing it there. -/
def rowOf (w : BitVec 32) : Fin 100000 := ⟨w.toNat % 100000, Nat.mod_lt _ (by decide)⟩

theorem rowOf_val_of_lt {w : BitVec 32} (h : w.toNat < 100000) : (rowOf w).val = w.toNat := Nat.mod_eq_of_lt h

/-- Entry (b, d, l) of the first result: entry d of the row named by token (b, l). -/
def fmap {V : Type} (x : SX.Idx → BitVec 32) (t : ST.Idx → V) : SOut.Idx → V :=
  fun j => t (ix2 (rowOf (x (ix2 (j 0) (j 2)))) (j 1))

/-- The same values in the flat layout the kernel writes: column d · 200 + l of row b. -/
def fmapFlat {V : Type} (x : SX.Idx → BitVec 32) (t : ST.Idx → V) : SFlat.Idx → V :=
  fun j => t (ix2 (rowOf (x (ix2 (j 0) ⟨(j 1).val % 200, Nat.mod_lt _ (by decide)⟩)))
    ⟨(j 1).val / 200, (Nat.div_lt_iff_lt_mul (by decide)).2 (j 1).isLt⟩)

/-- 1 for a token that is not the padding token, 0 for the padding token. -/
def nonPad (w : BitVec 32) : BitVec 32 := if w = 0#32 then 0#32 else 1#32

/-- Entry b of the second result: how many tokens of row b are not padding, as a 32-bit sum. -/
def lens (x : SX.Idx → BitVec 32) : SLen.Idx → BitVec 32 :=
  fun j => (Finset.univ : Finset (Fin 200)).fold (fun a b : BitVec 32 => a + b) 0#32 (fun l => nonPad (x (ix2 (j 0) l)))

end Cert.Proof.Spec
-- ==== Proof.RefTerm.lean ====
/-
  The reference's two results as pure functions of its argument arrays: the terms its operations compose to.

  The lookup first normalizes each token (a negative token w is replaced by w + 100000), gives the tokens a trailing
  unit axis, tests each normalized token for lying in [0, 99999], gathers the table row each one names (the start
  index read signed and clamped into the table), keeps the gathered row where the test holds and a fill value
  elsewhere, and swaps the last two axes. The count compares each token with 0, widens the one-bit answers to
  32 bits and adds them along each row.
-/
import proofs.«206347_g23639499997337_cont_sun_m_514_14_alg».proof.Proof.Gen.ReferenceIdeal

noncomputable section

namespace Cert.Proof.Ref

open Cert.ReferenceIdeal Cert.ReferenceIdeal.Gen Idealize.ShloMosaic

variable {F : FTy → Type} [FloatOps F]

/-- The tokens with the negative ones shifted up by the table's height. -/
def norm (x : IVec S4096x200 32) : IVec S4096x200 32 :=
  select (cmpi .slt x (broadcastInDim S4096x200 ![] bcast_S_S4096x200 (constantI S_ 32 0#32)))
    (addi x (broadcastInDim S4096x200 ![] bcast_S_S4096x200 (constantI S_ 32 100000#32))) x

/-- The normalized tokens as start indices: a trailing unit axis added. -/
def starts (x : IVec S4096x200 32) : IVec S4096x200x1 32 :=
  broadcastInDim S4096x200x1 ![0, 1] bcast_S4096x200_S4096x200x1_0_1 (norm x)

/-- Per start index: does it lie in [0, 99999]? -/
def inRange (x : IVec S4096x200 32) : IVec S4096x200x1 1 :=
  andi (cmpi .sge (starts x) (broadcastInDim S4096x200x1 ![] bcast_S_S4096x200x1 (constantI S_ 32 0#32)))
    (cmpi .sle (starts x)
      (broadcastInDim S4096x200x1 ![0, 1, 2] bcast_S1x1x1_S4096x200x1_0_1_2
        (broadcastInDim S1x1x1 ![2] bcast_S1_S1x1x1_2 (constantI S1 32 99999#32))))

/-- Per token: the conjunction of the test over the unit axis. -/
def mask (x : IVec S4096x200 32) : IVec S4096x200 1 :=
  Host.reduce IntOp.andi (inRange x) (constantI S_ 1 1#1) reducesTo_S4096x200x1_S4096x200_d2 h_S_

/-- The looked-up rows, batch × position × entry. -/
def rows (x : IVec S4096x200 32) (t : FVec F S100000x128 .f32) : FVec F S4096x200x128 .f32 :=
  select (broadcastInDim S4096x200x128 ![0, 1] bcast_S4096x200_S4096x200x128_0_1 (mask x))
    (Host.gather gather_S100000x128_S4096x200x1_S4096x200x128_2_0_n_n_0_2_1128 t (starts x))
    (broadcastInDim S4096x200x128 ![] bcast_S_S4096x200x128 (constant S_ .f32 0x7FC00000#32))

/-- The first result: the looked-up rows with the last two axes swapped. -/
def out0 (x : IVec S4096x200 32) (t : FVec F S100000x128 .f32) : FVec F S4096x128x200 .f32 :=
  transpose S4096x128x200 [0, 2, 1] (rows x t) transposes_S4096x200x128_S4096x128x200_0_2_1

/-- The second result: per batch row, the 32-bit sum of the indicators "token ≠ 0". -/
def out1 (x : IVec S4096x200 32) : IVec S4096 32 :=
  Host.reduce IntOp.addi
    (extui 32 (cmpi .ne x (broadcastInDim S4096x200 ![] bcast_S_S4096x200 (constantI S_ 32 0#32))) natLt_1_32)
    (constantI S_ 32 0#32) reducesTo_S4096x200_S4096_d1 h_S_

end Cert.Proof.Ref

end
-- ==== Proof.RefOps.lean ====
/-
  The reference program as a straight line of its thirty host operations, the two calls unfolded at their sites, and
  its run: every weakly fair execution terminates with each buffer at the fold of the operations' results over the
  launch contents. At the two result buffers that fold is the composed term of the argument arrays; the argument
  buffers are written by no operation.
-/
import proofs.«206347_g23639499997337_cont_sun_m_514_14_alg».proof.Proof.RefTerm
import Idealize.ShloMosaic.Lib.StableHlo.Run

noncomputable section

namespace Cert.Proof.Ref

open Cert.ReferenceIdeal Cert.ReferenceIdeal.Gen Idealize.ShloMosaic Idealize.ShloMosaic.TcCoe Idealize.SL.Sem
  Idealize.ShloMosaic.StableHlo

variable {F : FTy → Type} [FloatOps F]

/-- The operations in order: the lookup's twenty-three (the token normalization's select among them), then the
    transpose and the count's six. -/
abbrev ops : List (HloOp τ sig (Elt F)) :=
  [ TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 100000#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 99999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1) main_call0.v5 main_call0.v13 (fun x i => Host.gather gather_S100000x128_S4096x200x1_S4096x200x128_2_0_n_n_0_2_1128 x i),
    TRef.unary main_call0.v12 main_call0.v14 (broadcastInDim S4096x200x128 ![0, 1] bcast_S4096x200_S4096x200x128_0_1),
    TRef.nullary main_call0.cst (constant S_ .f32 0x7FC00000#32),
    TRef.unary main_call0.cst main_call0.v15 (broadcastInDim S4096x200x128 ![] bcast_S_S4096x200x128),
    TRef.ternary main_call0.v14 main_call0.v13 main_call0.v15 main_call0.v16 select,
    unary main_v0 main_v1 ((transpose S4096x128x200 [0, 2, 1] · transposes_S4096x200x128_S4096x128x200_0_2_1) : (⟨S4096x200x128, .f32⟩ : BufTy).Contents (Elt F) → (⟨S4096x128x200, .f32⟩ : BufTy).Contents (Elt F)),
    nullary main_c (constantI S_ 32 0#32),
    unary main_c main_v2 (broadcastInDim S4096x200 ![] bcast_S_S4096x200 : (⟨S_, .i32⟩ : BufTy).Contents (Elt F) → (⟨S4096x200, .i32⟩ : BufTy).Contents (Elt F)),
    binary main_arg0 main_v2 main_v3 (cmpi .ne : (⟨S4096x200, .i32⟩ : BufTy).Contents (Elt F) → (⟨S4096x200, .i32⟩ : BufTy).Contents (Elt F) → (⟨S4096x200, .i1⟩ : BufTy).Contents (Elt F)),
    unary main_v3 main_v4 ((extui 32 · natLt_1_32) : (⟨S4096x200, .i1⟩ : BufTy).Contents (Elt F) → (⟨S4096x200, .i32⟩ : BufTy).Contents (Elt F)),
    nullary main_c_0 (constantI S_ 32 0#32),
    binary main_v4 main_c_0 main_v5 ((fun x v => Host.reduce IntOp.addi x v reducesTo_S4096x200_S4096_d1 h_S_) : (⟨S4096x200, .i32⟩ : BufTy).Contents (Elt F) → (⟨S_, .i32⟩ : BufTy).Contents (Elt F) → (⟨S4096, .i32⟩ : BufTy).Contents (Elt F)) ]

/-- The program is that straight line: the two functions' bodies unfolded at their calls, both sides are one chain of
    steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., nullary_bufs_sub .., unary_bufs_sub .., binary_bufs_sub .., unary_bufs_sub .., nullary_bufs_sub ..,
    binary_bufs_sub ..⟩

/-- Every weakly fair execution terminates, each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.Ref

end
-- ==== Proof.RefAfter.lean ====
/-
  What the reference's straight line leaves in its two result buffers and in its two argument buffers.

  The line is read in four stretches, each a short line of its own whose fold is read off directly (each operation's
  result taken at its own buffer and passed over at every other): the token normalization up to the start indices;
  the range test up to the mask; the gather and the select; the transpose and the count. A fold over consecutive
  stretches is the later stretch's fold of the earlier one's, so the four readings compose to the terms of the two
  argument arrays.
-/
import proofs.«206347_g23639499997337_cont_sun_m_514_14_alg».proof.Proof.RefOps

noncomputable section

namespace Cert.Proof.Ref

open Cert.ReferenceIdeal Cert.ReferenceIdeal.Gen Idealize.ShloMosaic Idealize.ShloMosaic.TcCoe Idealize.SL.Sem
  Idealize.ShloMosaic.StableHlo

variable {F : FTy → Type} [FloatOps F]

/-- Operations 1–8: the tokens normalized and given their unit axis. -/
abbrev opsNorm : List (HloOp τ sig (Elt F)) :=
  [ TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 100000#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1) ]

/-- Operations 9–18: the range test of the start indices and its conjunction over the unit axis. -/
abbrev opsMask : List (HloOp τ sig (Elt F)) :=
  [ TRef.nullary main_call0.c_1 (constantI S1 32 99999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_) ]

/-- Operations 19–23: the gather, the mask broadcast along the rows, the fill value, the select. -/
abbrev opsTail : List (HloOp τ sig (Elt F)) :=
  [ TRef.binary (.of main_arg1) main_call0.v5 main_call0.v13 (fun x i => Host.gather gather_S100000x128_S4096x200x1_S4096x200x128_2_0_n_n_0_2_1128 x i),
    TRef.unary main_call0.v12 main_call0.v14 (broadcastInDim S4096x200x128 ![0, 1] bcast_S4096x200_S4096x200x128_0_1),
    TRef.nullary main_call0.cst (constant S_ .f32 0x7FC00000#32),
    TRef.unary main_call0.cst main_call0.v15 (broadcastInDim S4096x200x128 ![] bcast_S_S4096x200x128),
    TRef.ternary main_call0.v14 main_call0.v13 main_call0.v15 main_call0.v16 select ]

/-- Operations 24–30: the transpose, and the count. -/
abbrev opsRest : List (HloOp τ sig (Elt F)) :=
  [ unary main_v0 main_v1 ((transpose S4096x128x200 [0, 2, 1] · transposes_S4096x200x128_S4096x128x200_0_2_1) : (⟨S4096x200x128, .f32⟩ : BufTy).Contents (Elt F) → (⟨S4096x128x200, .f32⟩ : BufTy).Contents (Elt F)),
    nullary main_c (constantI S_ 32 0#32),
    unary main_c main_v2 (broadcastInDim S4096x200 ![] bcast_S_S4096x200 : (⟨S_, .i32⟩ : BufTy).Contents (Elt F) → (⟨S4096x200, .i32⟩ : BufTy).Contents (Elt F)),
    binary main_arg0 main_v2 main_v3 (cmpi .ne : (⟨S4096x200, .i32⟩ : BufTy).Contents (Elt F) → (⟨S4096x200, .i32⟩ : BufTy).Contents (Elt F) → (⟨S4096x200, .i1⟩ : BufTy).Contents (Elt F)),
    unary main_v3 main_v4 ((extui 32 · natLt_1_32) : (⟨S4096x200, .i1⟩ : BufTy).Contents (Elt F) → (⟨S4096x200, .i32⟩ : BufTy).Contents (Elt F)),
    nullary main_c_0 (constantI S_ 32 0#32),
    binary main_v4 main_c_0 main_v5 ((fun x v => Host.reduce IntOp.addi x v reducesTo_S4096x200_S4096_d1 h_S_) : (⟨S4096x200, .i32⟩ : BufTy).Contents (Elt F) → (⟨S_, .i32⟩ : BufTy).Contents (Elt F) → (⟨S4096, .i32⟩ : BufTy).Contents (Elt F)) ]

/-- The line is its four stretches in a row. -/
theorem ops_eq : (ops : List (HloOp τ sig (Elt F))) = opsNorm ++ (opsMask ++ (opsTail ++ opsRest)) := rfl

/-- A fold over two lines in a row is the second's fold of the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The fold over the line is the stretches' folds composed. -/
theorem after_ops (V : Valuation τ sig (Elt F)) :
    after ops V = after opsRest (after opsTail (after opsMask (after opsNorm V))) := by
  rw [ops_eq, after_app, after_app, after_app]

/-! ### First stretch -/

theorem norm_v5 (V : Valuation τ sig (Elt F)) :
    after opsNorm V (main_call0_v5 : DevRef τ sig) = starts (V (main_arg0 : DevRef τ sig)) := by
  after_results
  rfl
theorem norm_arg0 (V : Valuation τ sig (Elt F)) :
    after opsNorm V (main_arg0 : DevRef τ sig) = V (main_arg0 : DevRef τ sig) := by after_results
theorem norm_arg1 (V : Valuation τ sig (Elt F)) :
    after opsNorm V (main_arg1 : DevRef τ sig) = V (main_arg1 : DevRef τ sig) := by after_results

/-! ### Second stretch -/

/-- The range test and its conjunction, as a function of the start indices. -/
def maskOf (s : IVec S4096x200x1 32) : IVec S4096x200 1 :=
  Host.reduce IntOp.andi
    (andi (cmpi .sge s (broadcastInDim S4096x200x1 ![] bcast_S_S4096x200x1 (constantI S_ 32 0#32)))
      (cmpi .sle s
        (broadcastInDim S4096x200x1 ![0, 1, 2] bcast_S1x1x1_S4096x200x1_0_1_2
          (broadcastInDim S1x1x1 ![2] bcast_S1_S1x1x1_2 (constantI S1 32 99999#32)))))
    (constantI S_ 1 1#1) reducesTo_S4096x200x1_S4096x200_d2 h_S_

attribute [local irreducible] Host.reduce in
theorem mask_v12 (W : Valuation τ sig (Elt F)) :
    after opsMask W (main_call0_v12 : DevRef τ sig) = maskOf (W (main_call0_v5 : DevRef τ sig)) := by
  unfold maskOf
  after_results
  rfl
theorem mask_v5 (W : Valuation τ sig (Elt F)) :
    after opsMask W (main_call0_v5 : DevRef τ sig) = W (main_call0_v5 : DevRef τ sig) := by after_results
theorem mask_arg0 (W : Valuation τ sig (Elt F)) :
    after opsMask W (main_arg0 : DevRef τ sig) = W (main_arg0 : DevRef τ sig) := by after_results
theorem mask_arg1 (W : Valuation τ sig (Elt F)) :
    after opsMask W (main_arg1 : DevRef τ sig) = W (main_arg1 : DevRef τ sig) := by after_results

/-! ### Third stretch -/

attribute [local irreducible] Host.gather in
theorem tail_v0 (W : Valuation τ sig (Elt F)) :
    after opsTail W (main_v0 : DevRef τ sig)
      = select (broadcastInDim S4096x200x128 ![0, 1] bcast_S4096x200_S4096x200x128_0_1 (W (main_call0_v12 : DevRef τ sig)))
          (Host.gather gather_S100000x128_S4096x200x1_S4096x200x128_2_0_n_n_0_2_1128 (W (main_arg1 : DevRef τ sig))
            (W (main_call0_v5 : DevRef τ sig)))
          (broadcastInDim S4096x200x128 ![] bcast_S_S4096x200x128 (constant S_ .f32 0x7FC00000#32)) := by
  after_results
  rfl
theorem tail_arg0 (W : Valuation τ sig (Elt F)) :
    after opsTail W (main_arg0 : DevRef τ sig) = W (main_arg0 : DevRef τ sig) := by after_results
theorem tail_arg1 (W : Valuation τ sig (Elt F)) :
    after opsTail W (main_arg1 : DevRef τ sig) = W (main_arg1 : DevRef τ sig) := by after_results

/-! ### Fourth stretch -/

theorem rest_v1 (W : Valuation τ sig (Elt F)) :
    after opsRest W (main_v1 : DevRef τ sig)
      = transpose S4096x128x200 [0, 2, 1] (W (main_v0 : DevRef τ sig)) transposes_S4096x200x128_S4096x128x200_0_2_1 := by
  after_results
attribute [local irreducible] Host.reduce in
theorem rest_v5 (W : Valuation τ sig (Elt F)) :
    after opsRest W (main_v5 : DevRef τ sig) = out1 (W (main_arg0 : DevRef τ sig)) := by
  unfold out1
  after_results
theorem rest_arg0 (W : Valuation τ sig (Elt F)) :
    after opsRest W (main_arg0 : DevRef τ sig) = W (main_arg0 : DevRef τ sig) := by after_results
theorem rest_arg1 (W : Valuation τ sig (Elt F)) :
    after opsRest W (main_arg1 : DevRef τ sig) = W (main_arg1 : DevRef τ sig) := by after_results

/-! ### The four composed -/

/-- No operation writes the tokens' buffer. -/
theorem after_arg0 (V : Valuation τ sig (Elt F)) :
    after ops V (main_arg0 : DevRef τ sig) = V (main_arg0 : DevRef τ sig) := by
  rw [after_ops, rest_arg0, tail_arg0, mask_arg0, norm_arg0]

/-- No operation writes the table's buffer. -/
theorem after_arg1 (V : Valuation τ sig (Elt F)) :
    after ops V (main_arg1 : DevRef τ sig) = V (main_arg1 : DevRef τ sig) := by
  rw [after_ops, rest_arg1, tail_arg1, mask_arg1, norm_arg1]

/-- The fold at the second result's buffer is the composed count. -/
theorem after_v5 (V : Valuation τ sig (Elt F)) :
    after ops V (main_v5 : DevRef τ sig) = out1 (V (main_arg0 : DevRef τ sig)) := by
  rw [after_ops, rest_v5, tail_arg0, mask_arg0, norm_arg0]

attribute [local irreducible] Host.reduce Host.gather in
/-- The fold at the first result's buffer is the composed lookup. -/
theorem after_v1 (V : Valuation τ sig (Elt F)) :
    after ops V (main_v1 : DevRef τ sig) = out0 (V (main_arg0 : DevRef τ sig)) (V (main_arg1 : DevRef τ sig)) := by
  rw [after_ops, rest_v1, tail_v0, mask_v12, mask_arg1, mask_v5, norm_v5, norm_arg1]
  unfold out0 rows mask inRange maskOf
  rfl

end Cert.Proof.Ref

end
-- ==== Proof.RefPre.lean ====
/-
  What the precondition says of one token: read as a signed 32-bit integer it lies in [0, 99999].

  The precondition is the conjunction of two "all" reductions; the second is over the tokens, of the conjunction
  (0 ≤ w) ∧ (w ≤ 99999) in signed comparisons. A conjunction of one-bit words that is 1 has both words 1, and an
  "all" that is 1 met a 1 at every index.
-/
import proofs.«206347_g23639499997337_cont_sun_m_514_14_alg».proof.Proof.Gen.Pre_input_domain
import Idealize.ShloMosaic.Lib.ReduceAll
import Idealize.ShloMosaic.Lib.ValueIdx

namespace Cert.Proof.Ref

open Idealize.ShloMosaic Idealize.ShloMosaic.ValueIdx

/-- Under the precondition every token, read signed, lies in [0, 99999]. -/
theorem token_bounds {F : FTy → Type} [FloatOps F] (x : IVec Cert.Pre_input_domain.S4096x200 32)
    (t : FVec F Cert.Pre_input_domain.S100000x128 .f32)
    (h : Cert.Pre_input_domain.fn (F := F) x t = fun _ => 1#1) (i : Cert.Pre_input_domain.S4096x200.Idx) :
    0 ≤ (x i).toInt ∧ (x i).toInt ≤ 99999 := by
  have h0 := congrFun h ix0
  dsimp only [Cert.Pre_input_domain.fn] at h0
  obtain ⟨-, h9⟩ := IntOp.andi_eq_one.1 h0
  have hi := Host.reduce_andi_all _ _ _ _ _ h9 i
  obtain ⟨hge, hle⟩ := IntOp.andi_eq_one.1 hi
  have hge' := IntOp.cmpi_sge.1 hge
  have hle' := IntOp.cmpi_sle.1 hle
  exact ⟨hge', hle'⟩

end Cert.Proof.Ref
-- ==== Proof.RefGather.lean ====
/-
  The lookup's gather read at one result index. The operand is the table, 100000 rows of 128 entries; the start
  indices are the tokens with a trailing unit axis; a start index names a row (axis 0 of the table is collapsed to a
  slice of one row), and the result's last axis runs over that row's 128 entries. So result entry (b, l, d) is entry d
  of the row whose number is start index (b, l, 0) read as a signed integer and clamped into [0, 99999].
-/
import proofs.«206347_g23639499997337_cont_sun_m_514_14_alg».proof.Proof.Gen.ReferenceIdeal
import Idealize.ShloMosaic.Lib.ValueIdx

noncomputable section

namespace Cert.Proof.Ref

open Cert.ReferenceIdeal Cert.ReferenceIdeal.Gen Idealize.ShloMosaic Idealize.ShloMosaic.ValueIdx

/-- The lookup's dimension numbers: the result's last axis is the offset axis, the table's row axis is collapsed and
    is the one axis the start index names, the start indices' last axis holds the index vector, a slice is one row. -/
abbrev gd : GatherDims S100000x128 S4096x200x1 S4096x200x128 :=
  gather_S100000x128_S4096x200x1_S4096x200x128_2_0_n_n_0_2_1128

/-- The gather at (b, l, d): the table at (the clamped signed start index (b, l, 0), d). -/
theorem gather_apply {α : Type} (x : S100000x128.Idx → α) (idx : IVec S4096x200x1 32) (j : S4096x200x128.Idx) :
    Host.gather gd x idx j
      = x (ix2 ⟨min (idx (ix3 (j 0) (j 1) (0 : Fin 1))).toInt.toNat 99999, by omega⟩ (j 2)) := by
  unfold Host.gather
  congr 1
  funext a
  refine Fin.ext ?_
  match a with
  | ⟨0, _⟩ =>
    show gd.start j idx 0 + gd.batchCoord j 0 + gd.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    have hsi : gd.siIdx j ⟨List.idxOf (0 : Fin 2) gd.startIndexMap,
        List.idxOf_lt_length_iff.2 (List.mem_singleton.mpr rfl)⟩ = ix3 (j 0) (j 1) (0 : Fin 1) := by
      funext b; refine Fin.ext ?_
      match b with
      | ⟨0, _⟩ => rfl
      | ⟨1, _⟩ => rfl
      | ⟨2, _⟩ => rfl
    rw [hsi]
    rfl
  | ⟨1, _⟩ =>
    show gd.start j idx 1 + gd.batchCoord j 1 + gd.offCoord j 1 = _
    rw [GatherDims.batchCoord_eq_zero _ _ _ List.not_mem_nil]
    have hs : gd.start j idx 1 = 0 := by
      unfold GatherDims.start
      rw [dif_neg (show (1 : Fin 2) ∉ gd.startIndexMap from by decide)]
    have ho : gd.offCoord j 1 = (j 2).val := by
      unfold GatherDims.offCoord
      rw [dif_pos ((GatherDims.mem_sKept _ _).2 ⟨by decide, List.not_mem_nil⟩)]
      rfl
    rw [hs, ho]
    simp only [Nat.zero_add, Nat.add_zero]

end Cert.Proof.Ref

end
-- ==== Proof.RefValue.lean ====
/-
  The reference's composed terms are the specification, given that every token lies in [0, 99999] read signed.

  For such a token w: the normalization's test w < 0 fails, so the normalized token is w; it passes the range test,
  so the mask is 1 and the select keeps the gathered entry; its signed reading is its unsigned one and is at most
  99999, so the clamp does nothing and the gathered row is row w. Swapping the last two axes gives entry (b, d, l) =
  table (w(b, l), d). The count needs no hypothesis: the widened indicator of w ≠ 0 is 1 or 0, and the reduction along
  a row is the fold of 32-bit addition over the row's 200 positions.
-/
import proofs.«206347_g23639499997337_cont_sun_m_514_14_alg».proof.Proof.RefTerm
import proofs.«206347_g23639499997337_cont_sun_m_514_14_alg».proof.Proof.RefGather
import proofs.«206347_g23639499997337_cont_sun_m_514_14_alg».proof.Proof.Spec
import Idealize.ShloMosaic.Lib.ReduceAll
import Idealize.ShloMosaic.Lib.ValueLayout

noncomputable section

namespace Cert.Proof.Ref

open Cert.ReferenceIdeal Cert.ReferenceIdeal.Gen Idealize.ShloMosaic Idealize.ShloMosaic.ValueIdx

variable {F : FTy → Type} [FloatOps F]

/-- A token in range: read as a signed integer it lies in [0, 99999]. -/
def InRange (w : BitVec 32) : Prop := 0 ≤ w.toInt ∧ w.toInt ≤ 99999

theorem toInt_zero32 : (0#32 : BitVec 32).toInt = 0 := by decide
theorem toInt_99999 : (99999#32 : BitVec 32).toInt = 99999 := by decide

/-- A token that is not negative is its own normalization. -/
theorem norm_apply_of_nonneg (x : IVec S4096x200 32) (i : S4096x200.Idx) (h : 0 ≤ (x i).toInt) : norm x i = x i := by
  have hc : IntOp.cmpi .slt (x i) 0#32 = 0#1 :=
    eq_zero_of_ne_one fun h1 => by
      have h2 := IntOp.cmpi_slt.1 h1
      rw [toInt_zero32] at h2
      omega
  show Scalar.select (IntOp.cmpi .slt (x i) 0#32) _ (x i) = x i
  rw [hc, select_zero]

/-- The start index at (b, l, ·) is the normalized token (b, l). -/
theorem starts_apply (x : IVec S4096x200 32) (b : Fin 4096) (l : Fin 200) (u : Fin 1) :
    starts x (ix3 b l u) = norm x (ix2 b l) := by
  unfold starts
  exact broadcastInDim_apply _ _ _ _ (ix2 b l) fun a => match a with | ⟨0, _⟩ => rfl | ⟨1, _⟩ => rfl

/-- For a token in range the start index is the token. -/
theorem starts_eq (x : IVec S4096x200 32) (hb : ∀ i, InRange (x i)) (b : Fin 4096) (l : Fin 200) (u : Fin 1) :
    starts x (ix3 b l u) = x (ix2 b l) := by
  rw [starts_apply, norm_apply_of_nonneg _ _ (hb _).1]

/-- Every start index passes the range test. -/
theorem inRange_apply (x : IVec S4096x200 32) (hb : ∀ i, InRange (x i)) (i : S4096x200x1.Idx) : inRange x i = 1#1 := by
  obtain ⟨b, l, u, rfl⟩ : ∃ (b : Fin 4096) (l : Fin 200) (u : Fin 1), i = ix3 b l u := ⟨i 0, i 1, i 2, eq_ix3 i⟩
  show IntOp.andi (IntOp.cmpi .sge (starts x (ix3 b l u)) 0#32) (IntOp.cmpi .sle (starts x (ix3 b l u)) 99999#32) = 1#1
  rw [starts_eq x hb]
  refine IntOp.andi_eq_one.2 ⟨IntOp.cmpi_sge.2 ?_, IntOp.cmpi_sle.2 ?_⟩
  · rw [toInt_zero32]; exact (hb _).1
  · rw [toInt_99999]; exact (hb _).2

/-- A left fold of "and" from 1 over words that are all 1 is 1. -/
theorem foldl_andi_one {ι : Type} (p : ι → BitVec 1) (hp : ∀ i, p i = 1#1) :
    ∀ L : List ι, L.foldl (fun r i => IntOp.andi r (p i)) 1#1 = 1#1
  | [] => rfl
  | a :: L => by
    rw [List.foldl_cons, hp a, show IntOp.andi 1#1 1#1 = 1#1 from by decide]
    exact foldl_andi_one p hp L

/-- So the mask is 1 at every token. -/
theorem mask_apply (x : IVec S4096x200 32) (hb : ∀ i, InRange (x i)) (i : S4096x200.Idx) : mask x i = 1#1 := by
  unfold mask
  rw [Host.reduce_eq_foldl]
  exact foldl_andi_one _ (inRange_apply x hb) _

/-- The looked-up entry (b, l, d) is entry d of the row token (b, l) names. -/
theorem rows_apply (x : IVec S4096x200 32) (t : FVec F S100000x128 .f32) (hb : ∀ i, InRange (x i))
    (b : Fin 4096) (l : Fin 200) (d : Fin 128) :
    rows x t (ix3 b l d) = t (ix2 (Spec.rowOf (x (ix2 b l))) d) := by
  have hm : broadcastInDim S4096x200x128 ![0, 1] bcast_S4096x200_S4096x200x128_0_1 (mask x) (ix3 b l d) = 1#1 := by
    rw [broadcastInDim_apply _ _ _ _ (ix2 b l) fun a => match a with | ⟨0, _⟩ => rfl | ⟨1, _⟩ => rfl]
    exact mask_apply x hb _
  have hrow : (⟨min (starts x (ix3 b l (0 : Fin 1))).toInt.toNat 99999, by omega⟩ : Fin 100000)
      = Spec.rowOf (x (ix2 b l)) := by
    apply Fin.ext
    show min (starts x (ix3 b l (0 : Fin 1))).toInt.toNat 99999 = (x (ix2 b l)).toNat % 100000
    rw [starts_eq x hb]
    have e := BitVec.toInt_eq_toNat_cond (x (ix2 b l))
    have hlt := (x (ix2 b l)).isLt
    obtain ⟨h0, h1⟩ := hb (ix2 b l)
    omega
  unfold rows
  rw [select_apply, hm, select_one, gather_apply]
  exact congrArg (fun r => t (ix2 r d)) hrow

/-- The first result is the specification's lookup. -/
theorem out0_eq (x : IVec S4096x200 32) (t : FVec F S100000x128 .f32) (hb : ∀ i, InRange (x i)) :
    out0 x t = Spec.fmap x t := by
  funext j
  obtain ⟨b, d, l, rfl⟩ : ∃ (b : Fin 4096) (d : Fin 128) (l : Fin 200), j = ix3 b d l := ⟨j 0, j 1, j 2, eq_ix3 j⟩
  unfold out0
  rw [transpose_ix3_021_apply, rows_apply x t hb]
  rfl

/-- Over a batch row, the source index with position l inserted is (row, l). -/
theorem lift_eq (h : S4096x200.Reduces [1] S4096) (j : S4096.Idx) (l : Fin 200) : h.lift j l = ix2 (j 0) l := by
  funext c; refine Fin.ext ?_
  match c with
  | ⟨0, _⟩ => rfl
  | ⟨1, _⟩ => rfl

/-- The widened indicator of "w ≠ 0". -/
theorem nonPad_eq (w : BitVec 32) : (IntOp.cmpi .ne w 0#32).setWidth 32 = Spec.nonPad w := by
  show (BitVec.ofBool (w != 0#32)).setWidth 32 = Spec.nonPad w
  unfold Spec.nonPad
  by_cases h : w = 0#32
  · rw [if_pos h, h]; rfl
  · rw [if_neg h, bne_iff_ne.2 h]; rfl

/-- The second result is the specification's count. -/
theorem out1_eq (x : IVec S4096x200 32) : out1 x = Spec.lens x := by
  funext j
  have h : S4096x200.Reduces [1] S4096 := by decide
  unfold out1
  rw [Host.reduce_eq_fold_single IntOp.addi _ _ _ h]
  unfold Spec.lens
  refine Finset.fold_congr (fun l _ => ?_)
  show (IntOp.cmpi .ne (x (h.lift j l)) 0#32).setWidth 32 = _
  exact (congrArg (fun i => (IntOp.cmpi .ne (x i) 0#32).setWidth 32) (lift_eq h j l)).trans (nonPad_eq _)

end Cert.Proof.Ref

end
-- ==== Proof.RefRun.lean ====
/-
  The reference's run against the specification. Every weakly fair execution of the reference from a memory whose
  tokens all lie in [0, 99999] terminates without a fault, its first result the specification's lookup of the launch
  arguments, its second the specification's count, both arguments unchanged: the straight line's fold at the four
  buffers, then the composed terms identified with the specification under the precondition's bounds. The frame is
  the same run with the two values dropped.
-/
import proofs.«206347_g23639499997337_cont_sun_m_514_14_alg».proof.Defs
import proofs.«206347_g23639499997337_cont_sun_m_514_14_alg».proof.Proof.Gen.ReferenceIdeal
import proofs.«206347_g23639499997337_cont_sun_m_514_14_alg».proof.Proof.Gen.Pre_input_domain
import proofs.«206347_g23639499997337_cont_sun_m_514_14_alg».proof.Proof.Spec
import proofs.«206347_g23639499997337_cont_sun_m_514_14_alg».proof.Proof.RefAfter
import proofs.«206347_g23639499997337_cont_sun_m_514_14_alg».proof.Proof.RefPre
import proofs.«206347_g23639499997337_cont_sun_m_514_14_alg».proof.Proof.RefValue

noncomputable section

namespace Cert.Proof.Ref

open Cert.ReferenceIdeal Idealize.ShloMosaic Idealize.ShloMosaic.TcCoe Idealize.SL.Sem Idealize.ShloMosaic.StableHlo

/-- The reference's run: both results are the specification's functions of the launch arguments, which end unchanged. -/
theorem run (m' : (l : Loc nD τ sig) → Buf (Elt Ideal) l) (g' : Dev nD → PrngReg) (hpre : Cert.Pre_ReferenceIdeal m') :
    θ_run (defs (F := Ideal)) (onTc (τ := τ) (main (F := Ideal))) ⟨m', fun _ => 0, g'⟩ (fun r => ∀ c : Dev nD,
        r.2.mem ((c.tc : Thread nD τ).loc main_v1) = Cert.Proof.Spec.fmap (m' ((c.tc : Thread nD τ).loc main_arg0)) (m' ((c.tc : Thread nD τ).loc main_arg1))
      ∧ r.2.mem ((c.tc : Thread nD τ).loc main_v5) = Cert.Proof.Spec.lens (m' ((c.tc : Thread nD τ).loc main_arg0))
      ∧ r.2.mem ((c.tc : Thread nD τ).loc main_arg0) = m' ((c.tc : Thread nD τ).loc main_arg0)
      ∧ r.2.mem ((c.tc : Thread nD τ).loc main_arg1) = m' ((c.tc : Thread nD τ).loc main_arg1)) :=
  (θ_run (defs (F := Ideal)) _ _).mono (fun _ h c => by
      have hb : ∀ i, InRange (m' ((c.tc : Thread nD τ).loc main_arg0) i) :=
        fun i => token_bounds (F := Ideal) _ _ (hpre c) i
      exact ⟨(h c main_v1).trans ((after_v1 _).trans (out0_eq _ _ hb)),
        (h c main_v5).trans ((after_v5 _).trans (out1_eq _)),
        (h c main_arg0).trans (after_arg0 _),
        (h c main_arg1).trans (after_arg1 _)⟩)
    (run_main m' g')

/-- The reference terminates without a fault and leaves its arguments as it found them. -/
theorem frame : Cert.frame_ReferenceIdeal :=
  fun m g hpre => (θ_run (defs (F := Ideal)) _ _).mono (fun _ h c => ⟨(h c).2.2.1, (h c).2.2.2⟩) (run m g hpre)

end Cert.Proof.Ref

end
-- ==== Proof.SetupI.lean ====
/-
  The kernel program as the launch theorem reads it, and what travels with each handshake.

  One vector-subcore kernel runs on 2 SparseCores × 16 tiles. Tile (c, s) is worker w = 2·s + c and owns the 128 batch
  rows w·128 … w·128 + 127 of the flat output (4096 × 25600). It reads the tokens and the table, never writes them,
  so each tile holds a read share of both arrays whole; its output rows it holds one by one, each whole, and gives
  each back at the lookup's values (Spec.fmapFlat).
-/
import proofs.«206347_g23639499997337_cont_sun_m_514_14_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206347_g23639499997337_cont_sun_m_514_14_alg».proof.Proof.Gen.KernelIdeal
import proofs.«206347_g23639499997337_cont_sun_m_514_14_alg».proof.Proof.Gen.KernelIdeal.Skeleton
import proofs.«206347_g23639499997337_cont_sun_m_514_14_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the local transfers' counters -/

abbrev UH : Type := URounds (GSem nD τ sig) ℕ
/-- the staging cells of the TensorCore region: rounds over the same semaphores, one duty each -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- tokens, table, the flat output: as locations of device d -/
abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

/-- The flat output at the lookup's values: column e · 200 + l of row b is entry e of the table row token (b, l) names. -/
def G0 (d : Dev nD) : Buf (Elt F) (oLoc d) := Cert.Proof.Spec.fmapFlat (m (xLoc d)) (m (tLoc d))

/-- batch row b of the flat output, as a rectangle of one row and as a set of indices -/
theorem rowRect_inb (b : Fin 4096) : ∀ a, (![b.val, 0] : Fin 2 → Nat) a + S1x25600.size a ≤ S4096x25600.size a := by
  have hb : b.val < 4096 := b.isLt
  intro a; fin_cases a <;> simp <;> omega
abbrev rowRect (b : Fin 4096) : Rect S4096x25600 := Rect.unit (s := S4096x25600) ![b.val, 0] S1x25600.size (rowRect_inb b)
abbrev rowSet (b : Fin 4096) : Finset S4096x25600.Idx := (rowRect b).set

/-- worker number of tile (c, s): 2 · s + c -/
def wid (c : Fin 2) (s : Fin 16) : ℕ := 2 * s.val + c.val
theorem wid_lt (c : Fin 2) (s : Fin 16) : wid c s < 32 := by unfold wid; omega

/-- batch row j of worker (c, s) -/
def rowOfTile (c : Fin 2) (s : Fin 16) (j : Fin 128) : Fin 4096 := ⟨wid c s * 128 + j.val, by have := wid_lt c s; omega⟩

/-- the read share tile (c, s) holds of the tokens and of the table -/
abbrev tileShare (c : Fin 2) (s : Fin 16) : PosShare TreeShare := shareTok (shareTok fullShare 2 c) 16 s
/-- the read share a SparseCore holds for its sixteen tiles -/
abbrev coreShare (c : Fin 2) : PosShare TreeShare := shareTok fullShare 2 c

/-- What is known of an output row when a tile gives it back: a property of the array's contents that only reads
    that row. The frames need none (RTriv); the values need the lookup's (RVal). -/
abbrev RowProp : Type := (d : Dev nD) → Fin 4096 → Buf (Elt F) (oLoc d) → Prop
def RTriv : RowProp (F := F) := fun _ _ _ => True
def RVal : RowProp (F := F) := fun d b f => ∀ j ∈ rowSet b, f j = G0 m d j

variable (R : RowProp (F := F))

variable [FloatOps F]

/-- batch row b of the flat output, given back at some contents of which R holds -/
def rowOut (d : Dev nD) (b : Fin 4096) : sProp 𝕄 := iprop(∃ f, ⌜R d b f⌝ ∗ oLoc d ↦[rowSet b]{fullShare} f)

/-- what SparseCore c takes at the call: its share of tokens and table, and the output rows of its sixteen tiles as they stand -/
def coreIn (d : Dev nD) (c : Fin 2) : sProp 𝕄 :=
  iprop((xLoc d ↦{coreShare c} m (xLoc d)) ∗ (tLoc d ↦{coreShare c} m (tLoc d))
    ∗ bigSep Finset.univ fun s : Fin 16 => bigSep Finset.univ fun j : Fin 128 => oLoc d ↦[rowSet (rowOfTile c s j)]{fullShare} m (oLoc d))
/-- what it gives back: the same shares, the rows at the lookup's values -/
def coreOut (d : Dev nD) (c : Fin 2) : sProp 𝕄 :=
  iprop((xLoc d ↦{coreShare c} m (xLoc d)) ∗ (tLoc d ↦{coreShare c} m (tLoc d))
    ∗ bigSep Finset.univ fun s : Fin 16 => bigSep Finset.univ fun j : Fin 128 => rowOut R d (rowOfTile c s j))
/-- what tile (c, s) takes with its task -/
def tileIn (d : Dev nD) (c : Fin 2) (s : Fin 16) : sProp 𝕄 :=
  iprop((xLoc d ↦{tileShare c s} m (xLoc d)) ∗ (tLoc d ↦{tileShare c s} m (tLoc d))
    ∗ bigSep Finset.univ fun j : Fin 128 => oLoc d ↦[rowSet (rowOfTile c s j)]{fullShare} m (oLoc d))
/-- and gives back -/
def tileOut (d : Dev nD) (c : Fin 2) (s : Fin 16) : sProp 𝕄 :=
  iprop((xLoc d ↦{tileShare c s} m (xLoc d)) ∗ (tLoc d ↦{tileShare c s} m (tLoc d))
    ∗ bigSep Finset.univ fun j : Fin 128 => rowOut R d (rowOfTile c s j))

instance rowOut_storable (d : Dev nD) (b : Fin 4096) : BI.Storable (upEmb : UEmb _ 𝕄) (rowOut R d b) := by unfold rowOut; infer_instance
instance coreIn_storable (d : Dev nD) (c : Fin 2) : BI.Storable (upEmb : UEmb _ 𝕄) (coreIn m d c) := by unfold coreIn; infer_instance
instance coreOut_storable (d : Dev nD) (c : Fin 2) : BI.Storable (upEmb : UEmb _ 𝕄) (coreOut m R d c) := by unfold coreOut; infer_instance
instance tileIn_storable (d : Dev nD) (c : Fin 2) (s : Fin 16) : BI.Storable (upEmb : UEmb _ 𝕄) (tileIn m d c s) := by unfold tileIn; infer_instance
instance tileOut_storable (d : Dev nD) (c : Fin 2) (s : Fin 16) : BI.Storable (upEmb : UEmb _ 𝕄) (tileOut m R d c s) := by unfold tileOut; infer_instance

/-- The one call's payloads. Nothing of the launch's own is consumed by the kernel. -/
def P : (K (F := F)).Pay (nD := nD) (Val := Elt F) (Name := ℕ) (U := UU) where
  st := fun q d c => match q with | 0 => coreIn m d (Fin.cast nCore_zero c)
  dn := fun q d c => match q with | 0 => coreOut m R d (Fin.cast nCore_zero c)
  go := fun q d c i => match q with | 0 => tileIn m d (Fin.cast nCore_zero c) (Fin.cast nSub_zero i)
  td := fun q d c i => match q with | 0 => tileOut m R d (Fin.cast nCore_zero c) (Fin.cast nSub_zero i)
  x := fun _ _ => iprop(emp)

instance P_storable : (P (F := F) m R).IsStorable where
  st q d c := match q with | 0 => (inferInstance : BI.Storable (upEmb : UEmb _ 𝕄) (coreIn m d (Fin.cast nCore_zero c)))
  dn q d c := match q with | 0 => (inferInstance : BI.Storable (upEmb : UEmb _ 𝕄) (coreOut m R d (Fin.cast nCore_zero c)))
  go q d c i := match q with | 0 => (inferInstance : BI.Storable (upEmb : UEmb _ 𝕄) (tileIn m d (Fin.cast nCore_zero c) (Fin.cast nSub_zero i)))
  td q d c i := match q with | 0 => (inferInstance : BI.Storable (upEmb : UEmb _ 𝕄) (tileOut m R d (Fin.cast nCore_zero c) (Fin.cast nSub_zero i)))

end Cert.Proof.KI

end
-- ==== Proof.LaunchSplitI.lean ====
/-
  How one SparseCore's operands split among its sixteen tiles, and how the tiles' results join.

  The tokens and the table are only read: a SparseCore's read share of each splits into sixteen tile shares and a
  remainder, which stays with the split until the tiles' shares come back. The output rows are already held one by
  one, grouped by tile, so they pass through unchanged.
-/
import proofs.«206347_g23639499997337_cont_sun_m_514_14_alg».proof.Proof.SetupI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg) (R : RowProp (F := F))

variable [FloatOps F]

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m R) 0 := by
  intro d c
  show coreIn m d (Fin.cast nCore_zero c) ⊢ |={Set.univ}=> iprop(
      (bigSep Finset.univ fun i : Fin ((K (F := F)).nSub 0) => tileIn m d (Fin.cast nCore_zero c) (Fin.cast nSub_zero i))
      ∗ ((bigSep Finset.univ fun i : Fin ((K (F := F)).nSub 0) => tileOut m R d (Fin.cast nCore_zero c) (Fin.cast nSub_zero i))
          -∗ coreOut m R d (Fin.cast nCore_zero c)))
  generalize Fin.cast nCore_zero c = c'
  rw [bigSep_tasks (F := F) (fun i => tileIn m d c' i), bigSep_tasks (F := F) (fun i => tileOut m R d c' i)]
  unfold coreIn coreOut tileIn tileOut
  rw [bigSep_sep', bigSep_sep', bigSep_sep', bigSep_sep']
  iintro ⟨Hx, Ht, Ho⟩
  ihave Hx' := (pointsTo_toks_split (coreShare c') 16) $$ Hx
  icases Hx' with ⟨Hxd, Hxs⟩
  ihave Ht' := (pointsTo_toks_split (coreShare c') 16) $$ Ht
  icases Ht' with ⟨Htd, Hts⟩
  imodintro
  isplitl [Hxs Hts Ho]
  · isplitl [Hxs]; · iexact Hxs
    isplitl [Hts]; · iexact Hts
    iexact Ho
  iintro ⟨Hxs, Hts, Ho⟩
  isplitl [Hxd Hxs]
  · iapply (pointsTo_toks_join (coreShare c') 16)
    isplitl [Hxd]; · iexact Hxd
    iexact Hxs
  isplitl [Htd Hts]
  · iapply (pointsTo_toks_join (coreShare c') 16)
    isplitl [Htd]; · iexact Htd
    iexact Hts
  iexact Ho

end Cert.Proof.KI

end
-- ==== Proof.LaunchRowsI.lean ====
/-
  The flat output as its 4096 batch rows, grouped by SparseCore, tile and row of the tile.

  Tile (c, s) is worker 2·s + c and owns rows (2·s + c)·128 + j, j < 128. Every row index below 4096 is of that form
  in exactly one way, so the rows' index sets are pairwise disjoint and cover the array: the array held whole is the
  rows held one by one.
-/
import proofs.«206347_g23639499997337_cont_sun_m_514_14_alg».proof.Proof.SetupI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg) (R : RowProp (F := F))

/-- the row a (core, tile, row-of-tile) triple names -/
def rowOf3 (x : Fin 2 × Fin 16 × Fin 128) : Fin 4096 := rowOfTile x.1 x.2.1 x.2.2

theorem rowOf3_inj : Function.Injective rowOf3 := by
  rintro ⟨⟨c, hc⟩, ⟨s, hs⟩, ⟨j, hj⟩⟩ ⟨⟨c', hc'⟩, ⟨s', hs'⟩, ⟨j', hj'⟩⟩ h
  simp only [rowOf3, rowOfTile, wid, Fin.mk.injEq] at h
  simp only [Prod.mk.injEq, Fin.mk.injEq]
  omega

theorem rowOf3_surj (b : Fin 4096) : ∃ x, rowOf3 x = b := by
  obtain ⟨b, hb⟩ := b
  refine ⟨(⟨(b / 128) % 2, Nat.mod_lt _ (by decide)⟩, ⟨b / 256, by omega⟩, ⟨b % 128, Nat.mod_lt _ (by decide)⟩), ?_⟩
  simp only [rowOf3, rowOfTile, wid, Fin.mk.injEq]
  omega

theorem rows_disjoint {b b' : Fin 4096} (h : b ≠ b') : Disjoint (rowSet b) (rowSet b') := by
  refine Rect.unit_disjoint (0 : Fin S4096x25600.rank) ?_
  show b.val + 1 ≤ b'.val ∨ b'.val + 1 ≤ b.val
  have := Fin.val_ne_of_ne h
  omega

theorem mem_rowSet {b : Fin 4096} {i : S4096x25600.Idx} : i ∈ rowSet b ↔ (i 0).val = b.val := by
  unfold rowSet rowRect
  rw [Rect.mem_set_unit]
  constructor
  · intro h
    have h0 := h 0
    change b.val ≤ (i 0).val ∧ (i 0).val < b.val + 1 at h0
    omega
  · intro h a
    fin_cases a
    · change b.val ≤ (i 0).val ∧ (i 0).val < b.val + 1; omega
    · change 0 ≤ (i 1).val ∧ (i 1).val < 0 + 25600
      have := (i 1).isLt
      change (i 1).val < 25600 at this
      omega

theorem rows_cover : (Finset.univ : Finset (Fin 2 × Fin 16 × Fin 128)).biUnion (fun x => rowSet (rowOf3 x)) = Finset.univ := by
  ext i
  simp only [Finset.mem_biUnion, Finset.mem_univ, true_and, iff_true]
  obtain ⟨x, hx⟩ := rowOf3_surj ⟨(i 0).val, (i 0).isLt⟩
  exact ⟨x, mem_rowSet.mpr (by rw [hx])⟩

/-- The flat output held whole is its rows held one by one, grouped by SparseCore, tile, row of the tile. -/
theorem o_rows (d : Dev nD) (f : Buf (Elt F) (oLoc d)) :
    (oLoc d ↦{fullShare} f : sProp 𝕄)
      = bigSep Finset.univ fun c : Fin 2 => bigSep Finset.univ fun s : Fin 16 => bigSep Finset.univ fun j : Fin 128 =>
          oLoc d ↦[rowSet (rowOfTile c s j)]{fullShare} f := by
  have h3 : (bigSep Finset.univ fun c : Fin 2 => bigSep Finset.univ fun s : Fin 16 => bigSep Finset.univ fun j : Fin 128 =>
      (oLoc d ↦[rowSet (rowOfTile c s j)]{fullShare} f : sProp 𝕄))
      = bigSep Finset.univ fun x : Fin 2 × Fin 16 × Fin 128 => oLoc d ↦[rowSet (rowOf3 x)]{fullShare} f := by
    rw [bigSep_univ_prod]
    refine bigSep_congr fun c _ => ?_
    rw [bigSep_univ_prod]
    rfl
  rw [h3, ← pointsTo_biUnion Finset.univ (ℓ := oLoc d) (fun x => rowSet (rowOf3 x))
    (fun x _ y _ hxy => rows_disjoint (fun e => hxy (rowOf3_inj e))), rows_cover]
  try rfl

variable [FloatOps F]

/-- What is known of an array put together from rows the tiles gave back: on each row it agrees with contents of which
    the row's property holds. -/
def RowsAt (d : Dev nD) (g : Buf (Elt F) (oLoc d)) : Prop :=
  ∀ x : Fin 2 × Fin 16 × Fin 128, ∃ f, R d (rowOf3 x) f ∧ ∀ i ∈ rowSet (rowOf3 x), g i = f i

include m in
/-- The rows the SparseCores give back join to the flat output held whole, at contents that agree with each row's. -/
theorem rows_join (d : Dev nD) :
    (bigSep Finset.univ fun c : Fin 2 => bigSep Finset.univ fun s : Fin 16 => bigSep Finset.univ fun j : Fin 128 => rowOut R d (rowOfTile c s j))
      ⊢ (iprop(∃ g, ⌜RowsAt R d g⌝ ∗ oLoc d ↦{fullShare} g) : sProp 𝕄) := by
  have h3 : (bigSep Finset.univ fun c : Fin 2 => bigSep Finset.univ fun s : Fin 16 => bigSep Finset.univ fun j : Fin 128 =>
      (rowOut R d (rowOfTile c s j) : sProp 𝕄))
      = bigSep Finset.univ fun x : Fin 2 × Fin 16 × Fin 128 => rowOut R d (rowOf3 x) := by
    rw [bigSep_univ_prod]
    refine bigSep_congr fun c _ => ?_
    rw [bigSep_univ_prod]
    rfl
  rw [h3]; unfold rowOut
  haveI : ∀ _ : Fin 2 × Fin 16 × Fin 128, Nonempty (Buf (Elt F) (oLoc d)) := fun _ => ⟨m (oLoc d)⟩
  refine (bigSep_exists_pi Finset.univ (fun (x : Fin 2 × Fin 16 × Fin 128) (f : Buf (Elt F) (oLoc d)) =>
    iprop(⌜R d (rowOf3 x) f⌝ ∗ oLoc d ↦[rowSet (rowOf3 x)]{fullShare} f))).trans ?_
  iintro ⟨%fs, H⟩
  have hp := bigSep_pure_sep (M := 𝕄) Finset.univ (fun x : Fin 2 × Fin 16 × Fin 128 => R d (rowOf3 x) (fs x))
    (fun x => (oLoc d ↦[rowSet (rowOf3 x)]{fullShare} fs x : sProp 𝕄))
  have hj := pointsTo_biUnion_join (Ix := HIx 1) (Name := ℕ) (U := UU) (Lvl := ℕ) (ℓ := oLoc d) (q := fullShare)
    (Finset.univ : Finset (Fin 2 × Fin 16 × Fin 128)) (fun x => rowSet (rowOf3 x)) fs (m (oLoc d))
    (fun x _ y _ hxy => rows_disjoint (fun e => hxy (rowOf3_inj e)))
  ihave H' := hp $$ H
  icases H' with ⟨%hR, H⟩
  ihave H'' := hj $$ H
  icases H'' with ⟨%g, %hg, Hg⟩
  rw [rows_cover]
  iexists g; isplitr
  · ipureintro; intro x; exact ⟨fs x, hR x (Finset.mem_univ x), fun i hi => hg x (Finset.mem_univ x) i hi⟩
  iexact Hg

end Cert.Proof.KI

end
-- ==== Proof.LaunchElemI.lean ====
/-
  The launch element of the ghost state.

  Three components side by side: the handshakes' rounds, the rounds of the TensorCore pipeline's staging cells, and
  the local transfers' counters. The launch hands the handshakes' part to the launch theorem, funds the pipeline's
  staging cells and duty tokens for each device's TensorCore (what the region is later entered with), and drops the
  counters, which start at the unit.
-/
import proofs.«206347_g23639499997337_cont_sun_m_514_14_alg».proof.Proof.SetupI
import proofs.«206347_g23639499997337_cont_sun_m_514_14_alg».proof.Proof.Gen.KernelIdeal.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg) (R : RowProp (F := F))

/-- the pipeline's rounds: the middle component -/
abbrev EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

/-- what each TensorCore starts @main with beyond what the launch deals it: its pipeline's staging cells' ghost state
    and duty tokens -/
def G (d : Dev nD) : sProp 𝕄 := iprop(Pipeline.cellsGhost cfgs EP 0 d ∗ Pipeline.toksInit cfgs EP 0 d)

def u₀ : UU :=
  (initOf (K (F := F)).hsCells (K (F := F)).hsToks,
    (initOf (Pipeline.cells (nD := nD) (τ := τ) cfgs cellOf_inj) (Pipeline.launchToks (nD := nD) (τ := τ) cfgs cellOf_inj), 1))

theorem bigSep_emp' {I : Type} (s : Finset I) : (bigSep s fun _ => iprop(emp)) = (iprop(emp) : sProp 𝕄) := bigSep_emp_const s

theorem bigSep_pipes (Φ : Fin 1 → sProp 𝕄) : bigSep Finset.univ Φ = Φ 0 := bigSep_univ_of_subsingleton (0 : Fin 1)

theorem G_all :
    (bigSep Finset.univ fun d : Dev nD => G (F := F) d)
      = iprop((bigSep Finset.univ fun d : Dev nD => bigSep Finset.univ fun p : Fin 1 => Pipeline.cellsGhost cfgs (EP (F := F)) p d)
          ∗ (bigSep Finset.univ fun d : Dev nD => bigSep Finset.univ fun p : Fin 1 => (Pipeline.toksInit cfgs (EP (F := F)) p d : sProp 𝕄))) := by
  unfold G
  rw [bigSep_sep', bigSep_congr fun d _ => bigSep_pipes (F := F) (fun p => Pipeline.cellsGhost cfgs EP p d),
    bigSep_congr fun d _ => bigSep_pipes (F := F) (fun p => (Pipeline.toksInit cfgs EP p d : sProp 𝕄))]

variable [FloatOps F]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m R).x q thr) := by
  unfold u₀
  rw [G_all]
  iintro Hu
  ihave H := (ownU_pair _ _) $$ Hu
  icases H with ⟨HH, HR⟩
  ihave H2 := (own_pair_emb embR _ _) $$ HR
  icases H2 with ⟨HP, -⟩
  imod (Pipeline.fund_ghost cfgs (EP (F := F)) cellOf_inj) $$ HP with ⟨Hg, Ht⟩
  imodintro
  isplitl [HH]; · iexact HH
  isplitl [Hg Ht]
  · isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KI

end
-- ==== Proof.LaunchBodyI.lean ====
/-
  The TensorCore kernel that counts the non-padding tokens of each batch row, as the pipeline runs it.

  The grid has one point. The kernel loads the staged tokens whole (4096 × 1 × 200), compares each with 0, widens the
  one-bit answers to 32 bits, sums the 200 of each row in 32-bit integers, and stores the 4096 × 1 × 1 sums over its
  whole result buffer. The tokens' buffer is left as it was.
-/
import proofs.«206347_g23639499997337_cont_sun_m_514_14_alg».proof.Proof.LaunchElemI
import proofs.«206347_g23639499997337_cont_sun_m_514_14_alg».proof.Proof.Gen.KernelIdeal.Points
import Idealize.ShloMosaic.Lib.Pipeline.FrameBody
import Idealize.ShloMosaic.Lib.Pipeline.Regions

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg) (R : RowProp (F := F))

open Idealize.ShloMosaic.TcCoe Idealize.ShloMosaic.Tactic
open Idealize.ShloMosaic.Pipeline (Dat BodyObligation)

variable [FloatOps F]

/-- the rectangles of the kernel's three accesses: each the whole of its buffer -/
abbrev rIn : Rect S4096x1x200 := Rect.unit (s := S4096x1x200) ![0, 0, 0] S4096x1x200.size inb_S4096x1x200_S4096x1x200_0_0_0
abbrev rOut : Rect S4096x1x1 := Rect.unit (s := S4096x1x1) ![0, 0, 0] S4096x1x1.size inb_S4096x1x1_S4096x1x1_0_0_0

/-- What the kernel leaves in its result buffer, from the staged tokens: its one store's payload over the whole buffer. -/
def lenOut (x0 : Vec F S4096x1x200 .i32) : Vec F S4096x1x1 .i32 :=
  View.canon [⟨rOut, k1_pay1 (View.ld x0 rIn)⟩]

theorem lenCover (p0 : Vec F S4096x1x1 .i32) (y : S4096x1x1.Idx) :
    ∃ pc ∈ ([⟨rOut, p0⟩] : List (View.Piece (Elt F) S4096x1x1 .i32)), y ∈ pc.1.set :=
  View.cover_of_tiled [⟨rOut, p0⟩] S4096x1x1.size (by rfl) y

set_option maxHeartbeats 1000000 in
/-- The kernel on whole buffers, the tokens' at contents x0 and the result's at anything: it returns with the tokens'
    buffer as it was and the result's at lenOut x0. -/
theorem len_kernel (c : Dev nD) (E : Set ℕ) (i : grid1.Coords) (arg1 : Memref sig .tc .vmem S4096x1x200 .i32) (harg1 : arg1.IsWhole)
    (arg2 : Memref sig .tc .vmem S4096x1x1 .i32) (harg2 : arg2.IsWhole) (x0 : Vec F S4096x1x200 .i32) (Q : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (lenOut x0)) -∗ Q ⟨⟩))
      ⊢ wp frame (wpE (defs₀ (F := F)) Variants.none c none) E (cc1__len_body i arg1 harg1 arg2 harg2) Q := by
  simp only [cc1__len_body_eq_skeleton]; unfold cc1__len_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (lenCover _)

/-! ## The proof data of the one pipeline -/

/-- the reshape of the tokens that @main runs before the region -/
abbrev opTok : HloOp τ sig (Elt F) := StableHlo.reshape main_arg0 main_v1 rfl shapeCasts_S4096x200_S4096x1x200

/-- the launch valuation of device c's buffers -/
def V0 (c : Dev nD) : Valuation τ sig (Elt F) := fun b => m (c, b)

/-- the tokens as the region finds them: reshaped to 4096 × 1 × 200 -/
def tok3 (c : Dev nD) : Buf (Elt F) ((c.tc : Thread nD τ).loc main_v1) := (opTok (F := F)).result (V0 m c) (Proc.devRef .tc main_v1)

/-- the staged tokens: the one block of the reshaped array -/
def iblk (c : Dev nD) (t : Fin cfg1.N) : ((cfg1.win 0).xblock (cfg1.grid.coords t)).Idx → Elt F (cfg1.win 0).elt :=
  ((cfg1.win 0).blk t).view.read (Elt F) (tok3 m c)

/-- The proof data on core c: the reshaped tokens and the result array as launched; after the body the tokens' buffer
    as staged and the result's at the counts; the invariant is the scoped rest, untouched; nothing owed; full shares. -/
def lenDat (_ : Fin 1) (c : Dev nD) : Dat τ (Elt F) (HIx 1) ℕ UU ℕ cfg1 c where
  A w := match w with
    | ⟨0, _⟩ => tok3 m c
    | ⟨1, _⟩ => m ((c.tc : Thread nD τ).loc main_v2)
  after w t := match w with
    | ⟨0, _⟩ => iblk m c t
    | ⟨1, _⟩ => lenOut (iblk m c t)
  Φ _ := Pipeline.scopedRest (Ix := HIx 1) (Name := ℕ) (U := UU) (Lvl := ℕ) (Val := Elt F) spec1 c
  q _ := fullShare
  owed _ := 0
  recorded _ := {p | (K (F := F)).lev ((c.tc : Thread nD τ), p.1) p.2 ≤ 8}

theorem lenDat_A0 (c : Dev nD) : (lenDat m 0 c).A 0 = tok3 m c := by dsimp only [lenDat]
theorem lenDat_A1 (c : Dev nD) : (lenDat m 0 c).A 1 = m ((c.tc : Thread nD τ).loc main_v2) := by dsimp only [lenDat]
theorem lenDat_after0 (c : Dev nD) (t : Fin cfg1.N) : (lenDat m 0 c).after 0 t = iblk m c t := by dsimp only [lenDat]
theorem lenDat_after1 (c : Dev nD) (t : Fin cfg1.N) : (lenDat m 0 c).after 1 t = lenOut (iblk m c t) := by dsimp only [lenDat]

/-- The tokens' staging buffer holds the block when the body runs: the one point fetches it. -/
theorem lenDat_before0 (c : Dev nD) (t : Fin cfg1.N) (d) : (lenDat m 0 c).before 0 t d = iblk m c t := by
  unfold Dat.before; rw [if_pos (fetch1_0 t)]
  unfold Dat.fetched Dat.blockOf iblk; rw [lenDat_A0]; try rfl

/-- the core owes nothing, and what its waits have recorded sits at or below the first call's band -/
abbrev owesB (c : Dev nD) : sProp 𝕄 :=
  iprop(∃ W, ⌜(K (F := F)).WBelow (c.tc : Thread nD τ) W 8⌝ ∗ owes (c.tc : Thread nD τ) (0 : CellTallies nD τ sig (HIx 1)) W)

theorem lenDat_owesAt (c : Dev nD) (t : Fin (cfg1.N + 1)) :
    ((lenDat m 0 c).owesAt (none : HIx 1) t : sProp 𝕄) ⊣⊢ owesB (F := F) c := by
  unfold Dat.owesAt Pipeline.owesWithin
  constructor
  · iintro ⟨%W, %hW, HO⟩; iexists W; isplitr
    · ipureintro
      intro p hp
      rcases hW (Finset.mem_coe.mpr hp) with h | ⟨w, s, rfl⟩
      · exact h
      · exact Nat.zero_le _
    iexact HO
  · iintro ⟨%W, %hW, HO⟩; iexists W; isplitr
    · ipureintro; exact fun p hp => Or.inl (hW p (Finset.mem_coe.mp hp))
    iexact HO

/-- The body at the one point. -/
theorem body_obligation (c : Dev nD) : BodyObligation (lenDat (F := F) m 0 c) (defs₀ (F := F)) 𝒱₀ (none : HIx 1) Set.univ := fun t => by
  rw [bigSep_W1, bigSep_W1]
  show iprop((lenDat m 0 c).Φ t.castSucc ∗ (lenDat m 0 c).owesAt none t.castSucc
      ∗ (∃ d, owns (c : Thread nD τ) (st1_0 t) fullShare ((lenDat m 0 c).before 0 t d))
      ∗ (∃ d, owns (c : Thread nD τ) (st1_1 t) fullShare ((lenDat m 0 c).before 1 t d)))
    ⊢ wp frame (wpE (defs₀ (F := F)) Variants.none c none) Set.univ (bodyAt1 t) fun _ =>
      iprop((lenDat m 0 c).Φ t.succ ∗ (lenDat m 0 c).owesAt none t.succ
        ∗ owns (c : Thread nD τ) (st1_0 t) fullShare ((lenDat m 0 c).after 0 t)
        ∗ owns (c : Thread nD τ) (st1_1 t) fullShare ((lenDat m 0 c).after 1 t))
  simp only [lenDat_before0]
  rw [show (lenDat m 0 c).Φ t.succ = (lenDat m 0 c).Φ t.castSucc from rfl,
    show (lenDat m 0 c).owesAt none t.succ = (lenDat m 0 c).owesAt none t.castSucc from rfl,
    lenDat_after0, lenDat_after1]
  unfold bodyAt1
  iintro ⟨HΦ, Ho, ⟨%d0, H0⟩, ⟨%d1, H1⟩⟩
  iapply (len_kernel c Set.univ _ _ _ _ _ (iblk m c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

end Cert.Proof.KI

end
-- ==== Proof.LaunchRegionI.lean ====
/-
  The TensorCore region as @main meets it: entered holding the reshaped tokens and the result array whole, left
  holding them at what the pipeline computes; the core owes nothing before or after.
-/
import proofs.«206347_g23639499997337_cont_sun_m_514_14_alg».proof.Proof.LaunchBodyI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg) (R : RowProp (F := F))

open Idealize.ShloMosaic.TcCoe Idealize.ShloMosaic.Tactic
open Idealize.ShloMosaic.Pipeline (Dat BodyObligation)

variable [FloatOps F]

/-- no prefetched table -/
abbrev adm : (p : Fin 1) → (pcfgs (F := F) p).Adm := fun p => (cfgs p).toPCfg_adm
/-- the levels are the launch theorem's -/
abbrev Lk : GSem nD τ sig → Finset (HIx 1) := (K (F := F)).L
abbrev lvk : GSem nD τ sig → HIx 1 → ℕ := (K (F := F)).lev

/-- the region's two arrays held whole at contents f1, f2 -/
abbrev arrs (c : Dev nD) (f1 : Buf (Elt F) ((c.tc : Thread nD τ).loc main_v1)) (f2 : Buf (Elt F) ((c.tc : Thread nD τ).loc main_v2)) : sProp 𝕄 :=
  iprop((((c.tc : Thread nD τ).loc main_v1) ↦{fullShare} f1) ∗ (((c.tc : Thread nD τ).loc main_v2) ↦{fullShare} f2))

theorem lenDat_share (c : Dev nD) : ∀ w, (lenDat (F := F) m 0 c).share w = fullShare := (lenDat m 0 c).share_full fun _ => rfl

/-- the proof data's arrays, one by one -/
theorem lenDat_arrays (c : Dev nD) (Fa : (w : Fin cfg1.W) → Buf (Elt F) ((cfg1.win w).arr.view.loc (c.tc : Thread nD τ))) :
    ((lenDat (F := F) m 0 c).arrays Fa : sProp 𝕄) = arrs c (Fa 0) (Fa 1) := by
  rw [Pipeline.arrays_eq cfgs (lenDat m) 0 c launch1.arr_whole (lenDat_share m c) Fa, bigSep_W1]

set_option backward.isDefEq.respectTransparency.types false in
def lenReg : Pipeline.RegionSeg (pcfgs (F := F)) adm (lenDat m) (none : HIx 1) defs₀ 𝒱₀ (Lk (F := F)) (lvk (F := F)) 0 where
  win := launch1.win.to₀
  block_pos := launch1.block_pos
  stage_whole := launch1.stage_whole
  K := PEmpty
  osem := fun k => k.elim
  ho := Pipeline.OwnSemFacts.none _
  hbody c := (body_obligation m c).loose
  hwaits := Pipeline.hwaits_of_owed_zero _ _ _ _ (Lk (F := F)) (lvk (F := F)) 0 fun _ _ => rfl
  pre c := iprop(arrs c (tok3 m c) (m ((c.tc : Thread nD τ).loc main_v2)) ∗ owesB (F := F) c)
  post c := iprop(arrs c ((lenDat m 0 c).arrAt 0 cfg1.N) ((lenDat m 0 c).arrAt 1 cfg1.N) ∗ owesB (F := F) c)
  X _ := iprop(emp)
  Y _ := iprop(emp)
  Z _ := iprop(emp)
  hentry c := by
    rw [show ((lenDat m 0 c).arrays ((lenDat m 0 c).arrAt · 0) : sProp 𝕄) = arrs c (tok3 m c) (m ((c.tc : Thread nD τ).loc main_v2)) from
      (lenDat_arrays m c _).trans (by rw [show (lenDat m 0 c).arrAt 0 0 = (lenDat m 0 c).A 0 from rfl,
        show (lenDat m 0 c).arrAt 1 0 = (lenDat m 0 c).A 1 from rfl, lenDat_A0, lenDat_A1])]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iapply (lenDat_owesAt m c 0).2; iexact HO
    isplitr <;> iempintro
  hin c := by
    rw [show (lenDat m 0 c).Φ 0 = Pipeline.scopedRest (Ix := HIx 1) (Name := ℕ) (U := UU) (Lvl := ℕ) (Val := Elt F) spec1 c from rfl]
    iintro ⟨-, -, Hr⟩; iexact Hr
  hout c := by
    rw [show (lenDat m 0 c).Φ (Fin.last cfg1.N) = Pipeline.scopedRest (Ix := HIx 1) (Name := ℕ) (U := UU) (Lvl := ℕ) (Val := Elt F) spec1 c from rfl,
      Pipeline.ownSems0_none]
    iintro Hr
    isplitr; · iempintro
    isplitr; · iempintro
    iexact Hr
  hexit c := by
    rw [lenDat_arrays]
    iintro ⟨Ha, HO, -, -⟩
    imodintro
    isplitl [Ha]; · iexact Ha
    iapply (lenDat_owesAt m c _).1; iexact HO

set_option backward.isDefEq.respectTransparency.types false in
/-- The region on core c, under the program's own body table: from the boundary, the two arrays, the level facts and the
    staging cells' ghost state, to the boundary and the arrays at what the pipeline leaves. -/
theorem wp_region [∀ e, Nonempty (Elt F e)] (c : Dev nD) {α : Type} (k : PUnit → Prog (TpuEff nD τ sig (Elt F) (ΛP (F := F)) .tc) α) (Q : α → sProp 𝕄) :
    iprop((iprop(boundary (c.tc : Thread nD τ) ∗ (lenReg m).post c) -∗ wp frame (wpE (D (F := F)) 𝒱 (c.tc : Thread nD τ) none) Set.univ (k ⟨⟩) Q)
        ∗ boundary (c.tc : Thread nD τ) ∗ (lenReg m).pre c ∗ levAts (Lk (F := F)) (lvk (F := F)) ∗ G (F := F) c)
      ⊢ wp frame (wpE (D (F := F)) 𝒱 (c.tc : Thread nD τ) none) Set.univ (.op (.customCall (Pipeline.entry 0) ()) k) Q :=
  Pipeline.RegionSeg.wp (pcfgs (F := F)) adm (lenDat m) (none : HIx 1) cellOf_inj EP defs₀ 𝒱₀ (Lk (F := F)) (lvk (F := F)) (lenReg m) c none (fun _ h => nomatch h) k Q

end Cert.Proof.KI

end
-- ==== Proof.LaunchRegionMainI.lean ====
/-
  The TensorCore region under the whole program's body table, as @main spells the call.
-/
import proofs.«206347_g23639499997337_cont_sun_m_514_14_alg».proof.Proof.LaunchRegionI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg) (R : RowProp (F := F))

open Idealize.ShloMosaic.TcCoe Idealize.ShloMosaic.Tactic

variable [FloatOps F]

/-- the region's call in the pipeline's signature -/
abbrev callP : Prog (TpuEff nD τ sig (Elt F) (ΛP (F := F)) .tc) PUnit := .op (.customCall (Pipeline.entry 0) ()) fun u => .ret u

theorem callP_lift : SparseCore.liftProg (Q := 1) (callP (F := F)) = Prog.lift (.customCall (SparseCore.inner (Pipeline.entry 0)) ()) := rfl

set_option backward.isDefEq.respectTransparency.types false in
theorem wp_region_main [∀ e, Nonempty (Elt F e)] (d : Dev nD) (Φ : PUnit → sProp 𝕄) :
    iprop((iprop(boundary (SparseCore.T d) ∗ arrs d (lenDat m 0 d |>.arrAt 0 cfg1.N) (lenDat m 0 d |>.arrAt 1 cfg1.N) ∗ owesB (F := F) d) -∗ Φ ⟨⟩)
        ∗ boundary (SparseCore.T d) ∗ (arrs d (tok3 m d) (m ((d.tc : Thread nD τ).loc main_v2)) ∗ owesB (F := F) d)
        ∗ levAts (Lk (F := F)) (lvk (F := F)) ∗ G (F := F) d)
      ⊢ wp frame (wpE ((K (F := F)).defs (D (F := F))) 𝒱 (SparseCore.T d) none) Set.univ
          (Prog.lift (.customCall (SparseCore.inner (Pipeline.entry 0)) ())) Φ := by
  rw [← callP_lift]
  have h1 := (K (F := F)).wp_liftProg (D (F := F)) 𝒱 (SparseCore.T d) Set.univ none (callP (F := F)) Φ
  have h2 := wp_region m d (fun u => .ret u) Φ
  have h0 : iprop((iprop(boundary (SparseCore.T d) ∗ arrs d (lenDat m 0 d |>.arrAt 0 cfg1.N) (lenDat m 0 d |>.arrAt 1 cfg1.N) ∗ owesB (F := F) d) -∗ Φ ⟨⟩)
        ∗ boundary (SparseCore.T d) ∗ (arrs d (tok3 m d) (m ((d.tc : Thread nD τ).loc main_v2)) ∗ owesB (F := F) d)
        ∗ levAts (Lk (F := F)) (lvk (F := F)) ∗ G (F := F) d)
      ⊢ iprop((iprop(boundary (d.tc : Thread nD τ) ∗ (lenReg m).post d) -∗ wp frame (wpE (D (F := F)) 𝒱 (d.tc : Thread nD τ) none) Set.univ (.ret ⟨⟩) Φ)
        ∗ boundary (d.tc : Thread nD τ) ∗ (lenReg m).pre d ∗ levAts (Lk (F := F)) (lvk (F := F)) ∗ G (F := F) d) := by
    iintro ⟨Hk, H⟩
    isplitl [Hk]
    · iintro Hp
      rw [wp_ret]; imodintro
      iapply Hk; iexact Hp
    iexact H
  exact h0.trans (h2.trans h1)

end Cert.Proof.KI

end
-- ==== Proof.LaunchI.lean ====
/-
  @main on the TensorCore, the final assertion, and the run of the whole program.

  @main starts the two SparseCores on the lookup — handing each a read share of the tokens and of the table and its 2048
  rows of the flat output, keeping a remainder of the read shares — and takes back the shares and the rows, which join to
  the flat output held whole. It then reshapes the tokens, runs the counting kernel on the TensorCore, and reshapes the two
  results. The tokens and the table are never written, so they end as launched; the first result is the reshape of the flat
  output, the second the reshape of what the counting kernel's pipeline leaves.
-/
import proofs.«206347_g23639499997337_cont_sun_m_514_14_alg».proof.Proof.LaunchSplitI
import proofs.«206347_g23639499997337_cont_sun_m_514_14_alg».proof.Proof.LaunchRowsI
import proofs.«206347_g23639499997337_cont_sun_m_514_14_alg».proof.Proof.LaunchRegionMainI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg) (R : RowProp (F := F))

open Idealize.ShloMosaic.TcCoe Idealize.ShloMosaic.Tactic
open Idealize.ShloMosaic.Pipeline (Dat BodyObligation)
open Idealize.ShloMosaic.StableHlo (held held_split held_sdiff_result wp_hlo_within)

variable [FloatOps F]

/-! ## The TensorCore's arrays -/

abbrev x' : DevRef τ sig := Proc.devRef .tc (main_arg0 : Ref sig .tc)
abbrev t' : DevRef τ sig := Proc.devRef .tc (main_arg1 : Ref sig .tc)
abbrev o' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ (oLoc d ↦{fullShare} W main_v0)
      ∗ (v1Loc d ↦{fullShare} W main_v1) ∗ (v2Loc d ↦{fullShare} W main_v2) ∗ (v3Loc d ↦{fullShare} W main_v3) ∗ v4Loc d ↦{fullShare} W main_v4) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The two result reshapes -/

abbrev opFlat : HloOp τ sig (Elt F) := StableHlo.reshape main_v0 main_v3 rfl shapeCasts_S4096x25600_S4096x128x200
abbrev opLen : HloOp τ sig (Elt F) := StableHlo.reshape main_v2 main_v4 rfl shapeCasts_S4096x1x1_S4096

/-- the launch valuation with the flat output at g -/
def Vg (d : Dev nD) (g : Buf (Elt F) (oLoc d)) : Valuation τ sig (Elt F) := Function.update (V0 m d) o' g
/-- and with the counting kernel's result array at h -/
def Vh (d : Dev nD) (h : Buf (Elt F) (v2Loc d)) : Valuation τ sig (Elt F) := Function.update (V0 m d) v2' h

/-- the first result: the reshape of the flat output g -/
def out3 (d : Dev nD) (g : Buf (Elt F) (oLoc d)) : Buf (Elt F) (v3Loc d) := (opFlat (F := F)).result (Vg m d g) v3'
/-- the second result: the reshape of the counting kernel's result array h -/
def out4 (d : Dev nD) (h : Buf (Elt F) (v2Loc d)) : Buf (Elt F) (v4Loc d) := (opLen (F := F)).result (Vh m d h) v4'

/-- what the counting kernel's pipeline leaves in its result array -/
def lenArr (d : Dev nD) : Buf (Elt F) (v2Loc d) := (lenDat m 0 d).arrAt 1 cfg1.N

abbrev S1 : Finset (DevRef τ sig) := {x', v1'}
abbrev S3 : Finset (DevRef τ sig) := {o', v3'}
abbrev S4 : Finset (DevRef τ sig) := {v2', v4'}

omit [FloatOps F] in
theorem held_S1 (d : Dev nD) (W : Valuation τ sig (Elt F)) :
    (held (T d) S1 W : sProp 𝕄) = iprop((xLoc d ↦{fullShare} W x') ∗ v1Loc d ↦{fullShare} W v1') := by
  unfold held S1; rw [SparseCore.bigSep_insert' (by decide), bigSep_singleton]
omit [FloatOps F] in
theorem held_S3 (d : Dev nD) (W : Valuation τ sig (Elt F)) :
    (held (T d) S3 W : sProp 𝕄) = iprop((oLoc d ↦{fullShare} W o') ∗ v3Loc d ↦{fullShare} W v3') := by
  unfold held S3; rw [SparseCore.bigSep_insert' (by decide), bigSep_singleton]
omit [FloatOps F] in
theorem held_S4 (d : Dev nD) (W : Valuation τ sig (Elt F)) :
    (held (T d) S4 W : sProp 𝕄) = iprop((v2Loc d ↦{fullShare} W v2') ∗ v4Loc d ↦{fullShare} W v4') := by
  unfold held S4; rw [SparseCore.bigSep_insert' (by decide), bigSep_singleton]

theorem hTok : (opTok (F := F)).bufs ⊆ S1 := show ({x', v1'} : Finset (DevRef τ sig)) ⊆ S1 by decide
theorem hFlat : (opFlat (F := F)).bufs ⊆ S3 := show ({o', v3'} : Finset (DevRef τ sig)) ⊆ S3 by decide
theorem hLen : (opLen (F := F)).bufs ⊆ S4 := show ({v2', v4'} : Finset (DevRef τ sig)) ⊆ S4 by decide

theorem tok_x (d : Dev nD) : (opTok (F := F)).result (V0 m d) x' = m (xLoc d) :=
  (opTok (F := F)).result_of_not_mem (V0 m d) (b := x') (show x' ∉ ({v1'} : Finset (DevRef τ sig)) by decide)
theorem flat_o (d : Dev nD) (g : Buf (Elt F) (oLoc d)) : (opFlat (F := F)).result (Vg m d g) o' = g :=
  ((opFlat (F := F)).result_of_not_mem (Vg m d g) (b := o') (show o' ∉ ({v3'} : Finset (DevRef τ sig)) by decide)).trans (Function.update_self _ _ _)
theorem Vg_o (d : Dev nD) (g : Buf (Elt F) (oLoc d)) : Vg m d g o' = g := Function.update_self _ _ _
theorem Vg_v3 (d : Dev nD) (g : Buf (Elt F) (oLoc d)) : Vg m d g v3' = m (v3Loc d) := Function.update_of_ne (show v3' ≠ o' by decide) _ _
theorem Vh_v2 (d : Dev nD) (h : Buf (Elt F) (v2Loc d)) : Vh m d h v2' = h := Function.update_self _ _ _
theorem Vh_v4 (d : Dev nD) (h : Buf (Elt F) (v2Loc d)) : Vh m d h v4' = m (v4Loc d) := Function.update_of_ne (show v4' ≠ v2' by decide) _ _

/-! ## The call's operands and results, over the two SparseCores -/

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) : (bigSep Finset.univ fun c : Fin ((K (F := F)).nCore 0) => (P m R).st 0 d c)
    = iprop((bigSep Finset.univ fun c : Fin 2 => xLoc d ↦{coreShare c} m (xLoc d)) ∗ (bigSep Finset.univ fun c : Fin 2 => tLoc d ↦{coreShare c} m (tLoc d))
      ∗ bigSep Finset.univ fun c : Fin 2 => bigSep Finset.univ fun s : Fin 16 => bigSep Finset.univ fun j : Fin 128 =>
          oLoc d ↦[rowSet (rowOfTile c s j)]{fullShare} m (oLoc d)) := by
  show (bigSep Finset.univ fun c : Fin ((K (F := F)).nCore 0) => coreIn m d (Fin.cast nCore_zero c)) = _
  rw [bigSep_cores (F := F) (fun c => coreIn m d c)]
  unfold coreIn
  rw [bigSep_sep', bigSep_sep']

theorem dn0_eq (d : Dev nD) : (bigSep Finset.univ fun c : Fin ((K (F := F)).nCore 0) => (P m R).dn 0 d c)
    = iprop((bigSep Finset.univ fun c : Fin 2 => xLoc d ↦{coreShare c} m (xLoc d)) ∗ (bigSep Finset.univ fun c : Fin 2 => tLoc d ↦{coreShare c} m (tLoc d))
      ∗ bigSep Finset.univ fun c : Fin 2 => bigSep Finset.univ fun s : Fin 16 => bigSep Finset.univ fun j : Fin 128 => rowOut R d (rowOfTile c s j)) := by
  show (bigSep Finset.univ fun c : Fin ((K (F := F)).nCore 0) => coreOut m R d (Fin.cast nCore_zero c)) = _
  rw [bigSep_cores (F := F) (fun c => coreOut m R d c)]
  unfold coreOut
  rw [bigSep_sep', bigSep_sep']

/-! ## @main -/

/-- What @main leaves the claim: tokens and table as launched; the two results as the reshapes of a flat output that
    agrees with the rows given back, and of the counting pipeline's result. -/
def FIN (d : Dev nD) : sProp 𝕄 :=
  iprop((xLoc d ↦{fullShare} m (xLoc d)) ∗ (tLoc d ↦{fullShare} m (tLoc d))
    ∗ ∃ g, ⌜RowsAt R d g⌝ ∗ (v3Loc d ↦{fullShare} out3 m d g) ∗ v4Loc d ↦{fullShare} out4 m d (lenArr m d))

set_option backward.isDefEq.respectTransparency.types false in
theorem hmain [∀ e, Nonempty (Elt F e)] (κ : GSem nD τ sig → ℕ) (d : Dev nD) :
    iprop((K (F := F)).ctx EH (P m R) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m R d) := by
  obtain ⟨Rst, hRst⟩ : ∃ Rst : sProp 𝕄, (K (F := F)).tcSt EH d 1
      = iprop((∃ W, ⌜(K (F := F)).WBelow (SparseCore.T d) W (8 * 1)⌝ ∗ owes (SparseCore.T d) ((K (F := F)).Otc d 1) W) ∗ Rst) := ⟨_, rfl⟩
  unfold SparseCore.Cfg.tcRes
  rw [unscopedBufs_eq, hRst, (K (F := F)).Otc_end d (le_refl 1)]
  simp only [main, wp_bind, wp_pure]
  iintro ⟨#Hctx, Hst, ⟨Hb, ⟨Hx, Ht, Ho, H1, H2, H3, H4⟩, -, -⟩, HG⟩
  ihave #Hlev := (SparseCore.Cfg.ctx_levAts (K := K (F := F)) (EH := EH) (P := P m R) κ) $$ Hctx
  -- the read shares for the two SparseCores, the remainder kept; the flat output as its rows
  ihave Hx' := (pointsTo_toks_split fullShare 2) $$ Hx
  icases Hx' with ⟨Hxd, Hxs⟩
  ihave Ht' := (pointsTo_toks_split fullShare 2) $$ Ht
  icases Ht' with ⟨Htd, Hts⟩
  ihave Hor := (Entails.of_eq (o_rows d (m (oLoc d)))) $$ Ho
  -- the call
  iapply ((K (F := F)).wp_run (D (F := F)) 𝒱 (EH := EH) (P := P m R) κ d 0) $$ [Hst Hxs Hts Hor Hb Hxd Htd H1 H2 H3 H4 HG]
  isplitr; · iexact Hctx
  isplitl [Hst]; · iexact Hst
  isplitl [Hxs Hts Hor]
  · rw [st0_eq]
    isplitl [Hxs]; · iexact Hxs
    isplitl [Hts]; · iexact Hts
    iexact Hor
  iintro ⟨Hst, Hdn⟩
  ihave Hdn' := (Entails.of_eq (dn0_eq m R d)) $$ Hdn
  icases Hdn' with ⟨Hxs, Hts, Hrows⟩
  ihave Hx := (pointsTo_toks_join fullShare 2) $$ [Hxd Hxs]
  · isplitl [Hxd] <;> iassumption
  ihave Ht := (pointsTo_toks_join fullShare 2) $$ [Htd Hts]
  · isplitl [Htd] <;> iassumption
  ihave Hj := (rows_join m R d) $$ Hrows
  icases Hj with ⟨%g, %hg, Ho⟩
  ihave Hst' := (Entails.of_eq (show (K (F := F)).tcSt EH d ((0 : Fin 1).val + 1) = _ from hRst)) $$ Hst
  rw [(K (F := F)).Otc_end d (le_refl 1)]
  icases Hst' with ⟨⟨%W, %hW, HO⟩, Hrst⟩
  -- the reshape of the tokens
  iapply (wp_hlo_within 𝒱 (SparseCore.T d) none Set.univ (op := opTok) (S := S1) hTok (V := V0 m d)) $$ [Hb Hx H1]
  · isplitl [Hb]; · iexact Hb
    rw [held_S1]
    isplitl [Hx]; · iexact Hx
    iexact H1
  iintro ⟨Hb, Hheld⟩
  ihave Hh := (Entails.of_eq (held_S1 (F := F) d _)) $$ Hheld
  icases Hh with ⟨Hx, H1⟩
  rw [wp_ret]; imodintro
  -- the counting kernel's region
  iapply (wp_region_main m d _) $$ [Hb H1 H2 HO HG Hx Ht Ho H3 H4 Hrst]
  isplitr [Hb H1 H2 HO HG]
  swap
  · isplitl [Hb]; · iexact Hb
    isplitl [H1 H2 HO]
    · isplitl [H1 H2]
      · isplitl [H1]; · iexact H1
        iexact H2
      iexists W; isplitr; · ipureintro; exact hW
      iexact HO
    isplitr; · iexact Hlev
    iexact HG
  iintro ⟨Hb, ⟨H1, H2⟩, HO⟩
  -- the reshape of the flat output
  iapply (wp_hlo_within 𝒱 (SparseCore.T d) none Set.univ (op := opFlat) (S := S3) hFlat (V := Vg m d g)) $$ [Hb Ho H3]
  · isplitl [Hb]; · iexact Hb
    rw [held_S3, Vg_o, Vg_v3]
    isplitl [Ho]; · iexact Ho
    iexact H3
  iintro ⟨Hb, Hheld⟩
  ihave Hh := (Entails.of_eq (held_S3 (F := F) d _)) $$ Hheld
  icases Hh with ⟨Ho, H3⟩
  rw [wp_ret]; imodintro
  -- the reshape of the counts
  iapply (wp_hlo_within 𝒱 (SparseCore.T d) none Set.univ (op := opLen) (S := S4) hLen (V := Vh m d (lenArr m d))) $$ [Hb H2 H4]
  · isplitl [Hb]; · iexact Hb
    rw [held_S4, Vh_v2, Vh_v4]
    isplitl [H2]; · iexact H2
    iexact H4
  iintro ⟨Hb, Hheld⟩
  ihave Hh := (Entails.of_eq (held_S4 (F := F) d _)) $$ Hheld
  icases Hh with ⟨H2, H4⟩
  rw [wp_ret]; imodintro; imodintro
  isplitl [HO Hrst]
  · isplitl [HO]; · iexact HO
    iexact Hrst
  unfold FIN
  isplitl [Hx]; · rw [← tok_x m d]; iexact Hx
  isplitl [Ht]; · iexact Ht
  iexists g; isplitr; · ipureintro; exact hg
  isplitl [H3]; · iexact H3
  iexact H4

/-! ## Reading the final memory -/

def fq (d : Dev nD) (s' : Phys nD τ sig (Elt F)) : Prop :=
  s'.mem.mem (xLoc d) = m (xLoc d) ∧ s'.mem.mem (tLoc d) = m (tLoc d)
    ∧ ∃ g, RowsAt R d g ∧ s'.mem.mem (v3Loc d) = out3 m d g ∧ s'.mem.mem (v4Loc d) = out4 m d (lenArr m d)

theorem hfin (d : Dev nD) (s' : Phys nD τ sig (Elt F)) : iprop(FIN m R d ∗ SI s') ⊢ (⌜fq m R d s'⌝ : sProp 𝕄) := by
  unfold FIN
  iintro ⟨⟨Hx, Ht, %g, %hg, H3, H4⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (persistent_entails_right (SI_pointsTo_agree (st := s') (ℓ := v3Loc d) (I := Finset.univ) (q := fullShare) (f := out3 m d g))) $$ [HSI H3]
  · isplitl [HSI] <;> iassumption
  icases H with ⟨%h3, HSI, -⟩
  ihave H := (SI_pointsTo_agree (st := s') (ℓ := v4Loc d) (I := Finset.univ) (q := fullShare) (f := out4 m d (lenArr m d))) $$ [HSI H4]
  · isplitl [HSI] <;> iassumption
  icases H with %h4
  ipureintro
  exact ⟨funext fun i => h1 i (Finset.mem_univ i), funext fun i => h2 i (Finset.mem_univ i), g, hg,
    funext fun i => h3 i (Finset.mem_univ i), funext fun i => h4 i (Finset.mem_univ i)⟩

/-! ## The program's run -/

/-- What every final memory satisfies, on every device: tokens and table as launched; the first result the reshape of a
    flat output that agrees with the rows the tiles gave back; the second the reshape of the counting pipeline's result. -/
def QC : PUnit × MemSt nD τ sig (Elt F) → Prop := fun r => ∀ c : Dev nD,
  r.2.mem (xLoc c) = m (xLoc c) ∧ r.2.mem (tLoc c) = m (tLoc c)
    ∧ ∃ g, RowsAt R c g ∧ r.2.mem (v3Loc c) = out3 m c g ∧ r.2.mem (v4Loc c) = out4 m c (lenArr m c)

theorem run_gen [∀ e, Nonempty (Elt F e)] (hT : (K (F := F)).TileObl (D (F := F)) 𝒱 (P m R) v₀ 0) :
    θ_run (Cert.KernelIdeal.defs (F := F)) (Cert.KernelIdeal.threads (F := F)) ⟨m, fun _ => 0, ρ⟩ (QC m R) :=
  SparseCore.Cfg.θ_run_sc (K := K (F := F)) (D := D (F := F)) (𝒱 := 𝒱) (EH := EH) (P := P m R) facts v₀
    (fun q hq => match q with | 0 => nomatch hq)
    (fun q _ => match q with | 0 => hT)
    (fun q _ => match q with | 0 => SparseCore.Cfg.VecSplit.of_plain (vecSplit m R))
    m ρ main (G (F := F)) (FIN m R) (u₀ (F := F)) (sep_elim_left.trans (hu₀ m R)) (hmain m ρ R) (fq m R) (hfin m R) (QC m R) (fun _ h => h)

/-- The frame: the program runs to the end from any launch memory with every counter at zero, and the tokens and the
    table end as launched. -/
theorem run_frame [∀ e, Nonempty (Elt F e)] (hT : (K (F := F)).TileObl (D (F := F)) 𝒱 (P m R) v₀ 0) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (Cert.KernelIdeal.defs (F := F)) _ _).mono (fun _ h c => ⟨(h c).1, (h c).2.1⟩) (run_gen m ρ R hT)

end Cert.Proof.KI

end
-- ==== Proof.LaunchValI.lean ====
/-
  The two results as pure functions of the arguments.

  The first result is the reshape 4096 × 25600 → 4096 × 128 × 200 of the flat output. Row-major, column e · 200 + l of
  row b of the flat array is entry (b, e, l) of the reshaped one, and there the flat array holds entry e of the table row
  that token (b, l) names: the lookup with its last two axes swapped. The second result is the reshape to 4096 of the
  counting kernel's 4096 × 1 × 1 result, whose entry b is the 32-bit sum over the 200 tokens of row b of 1 for a token
  that is not 0 and 0 for one that is.
-/
import proofs.«206347_g23639499997337_cont_sun_m_514_14_alg».proof.Proof.LaunchI
import Idealize.ShloMosaic.Lib.Pipeline.Value
import Idealize.ShloMosaic.PureOps.Reduce

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg) (R : RowProp (F := F))

open Idealize.ShloMosaic.TcCoe Idealize.ShloMosaic.Tactic
open Idealize.ShloMosaic.Pipeline (Dat BodyObligation)
open Idealize.ShloMosaic.ValueIdx
open Cert.Proof.Spec (fmap fmapFlat lens nonPad rowOf)

variable [FloatOps F]

/-- An array that agrees on every row with contents at the lookup's values is the flat output at the lookup's values. -/
theorem eq_G0_of_rows (d : Dev nD) (g : Buf (Elt F) (oLoc d)) (h : RowsAt (RVal m) d g) : g = G0 m d := by
  funext i
  obtain ⟨x, hx⟩ := rowOf3_surj ⟨(i 0).val, (i 0).isLt⟩
  obtain ⟨f, hf, hgf⟩ := h x
  have hi : i ∈ rowSet (rowOf3 x) := mem_rowSet.mpr (by rw [hx])
  rw [hgf i hi]; exact hf i hi

/-- the reshape of the flat output at the lookup's values is the lookup with its last two axes swapped -/
theorem out3_G0 (d : Dev nD) : out3 m d (G0 m d) = fmap (m (xLoc d)) (m (tLoc d)) := by
  funext j
  have hk1 : (j 1).val * 200 + (j 2).val < 25600 := by
    have h1 := (j 1).isLt; have h2 := (j 2).isLt
    change (j 1).val < 128 at h1; change (j 2).val < 200 at h2; omega
  have h0 : (j 0).val < 4096 := (j 0).isLt
  let k : S4096x25600.Idx := ix2 ⟨(j 0).val, h0⟩ ⟨(j 1).val * 200 + (j 2).val, hk1⟩
  have hres : out3 m d (G0 m d) j = G0 m d k := by
    unfold out3
    rw [StableHlo.reshape_result', Vg_o]
    have r2 := Shape.rowMajor_val_two (d := ![4096, 25600]) k
    have r3 := Shape.rowMajor_val_three (d := ![4096, 128, 200]) j
    exact shapeCast_apply (G0 m d) _ j k (r2.trans (Eq.trans (by
      show (j 0).val * 25600 + ((j 1).val * 200 + (j 2).val) = ((j 0).val * 128 + (j 1).val) * 200 + (j 2).val
      ring) r3.symm))
  rw [hres]
  unfold G0 fmapFlat fmap
  have e1 : ((j 1).val * 200 + (j 2).val) % 200 = (j 2).val := by
    have h2 := (j 2).isLt; change (j 2).val < 200 at h2; omega
  have e2 : ((j 1).val * 200 + (j 2).val) / 200 = (j 1).val := by
    have h2 := (j 2).isLt; change (j 2).val < 200 at h2; omega
  show m (tLoc d) (ix2 (rowOf (m (xLoc d) (ix2 (k 0) ⟨(k 1).val % 200, _⟩))) ⟨(k 1).val / 200, _⟩) = _
  congr 1
  · funext a
    match a with
    | ⟨0, _⟩ =>
      show rowOf (m (xLoc d) (ix2 (k 0) ⟨(k 1).val % 200, _⟩)) = rowOf (m (xLoc d) (ix2 (j 0) (j 2)))
      congr 2
      funext a'
      match a' with
      | ⟨0, _⟩ => rfl
      | ⟨1, _⟩ => exact Fin.ext e1
    | ⟨1, _⟩ => exact Fin.ext e2

theorem z3 : (![0, 0, 0] : Fin 3 → Nat) = fun _ => 0 := by funext a; fin_cases a <;> rfl

theorem lenOut_eq (x0 : Vec F S4096x1x200 .i32) : lenOut x0 = k1_pay1 x0 := by
  unfold lenOut
  rw [View.canon_unit_zero z3, View.ld_unit_zero z3]

theorem cmp_ext (w : BitVec 32) : (IntOp.cmpi .ne w 0#32).setWidth 32 = nonPad w := by
  unfold IntOp.cmpi nonPad
  by_cases h : w = 0#32
  · subst h; decide
  · rw [if_neg h]
    have : (w != 0#32) = true := by simpa using h
    show BitVec.setWidth 32 (BitVec.ofBool (w != 0#32)) = 1#32
    rw [this]; rfl

theorem emb1 (y : S4096x1x1.Idx) : (((cfg1.win 1).blk t1_0).view.emb y) = y := by
  funext a
  apply Fin.ext
  show ((((cfg1.win 1).rect t1_0).emb y) a : Nat) = _
  rw [Pipeline.Window.rect_emb_val]
  have : (cfg1.win 1).index t1_0 a = 0 := by fin_cases a <;> rfl
  rw [this]; omega

theorem emb0 (y : S4096x1x200.Idx) : (((cfg1.win 0).blk t1_0).view.emb y) = y := by
  funext a
  apply Fin.ext
  show ((((cfg1.win 0).rect t1_0).emb y) a : Nat) = _
  rw [Pipeline.Window.rect_emb_val]
  have : (cfg1.win 0).index t1_0 a = 0 := by fin_cases a <;> rfl
  rw [this]; omega

/-- the staged tokens are the tokens -/
theorem iblk_apply (d : Dev nD) (b : Fin 4096) (l : Fin 200) :
    iblk m d t1_0 (ix3 b (0 : Fin 1) l) = m (xLoc d) (ix2 b l) := by
  unfold iblk
  rw [View.read_apply, emb0]
  show tok3 m d (ix3 b (0 : Fin 1) l) = _
  unfold tok3
  rw [StableHlo.reshape_result']
  have r2 := Shape.rowMajor_val_two (d := ![4096, 200]) (ix2 b l)
  have r3 := Shape.rowMajor_val_three (d := ![4096, 1, 200]) (ix3 b (0 : Fin 1) l)
  exact shapeCast_apply (V0 m d x') _ (ix3 b (0 : Fin 1) l) (ix2 b l) (r2.trans (Eq.trans (by
    show b.val * 200 + l.val = (b.val * 1 + 0) * 200 + l.val
    ring) r3.symm))

/-- The kernel's result at a row: the 32-bit sum over the row's 200 staged tokens of 1 for a token that is not 0. -/
theorem pay1_apply (x0 : Vec F S4096x1x200 .i32) (y : S4096x1x1.Idx) :
    k1_pay1 x0 y = (Finset.univ : Finset (Fin 200)).fold (fun a b : BitVec 32 => a + b) 0#32
      (fun l => nonPad (x0 (ix3 (⟨(y 0).val, (y 0).isLt⟩ : Fin 4096) (0 : Fin 1) l))) := by
  let b : Fin 4096 := ⟨(y 0).val, (y 0).isLt⟩
  let k' : S4096x1.Idx := ix2 b (0 : Fin 1)
  have hy1 : (y 1).val = 0 := by have := (y 1).isLt; change (y 1).val < 1 at this; omega
  have hy2 : (y 2).val = 0 := by have := (y 2).isLt; change (y 2).val < 1 at this; omega
  have r2 := Shape.rowMajor_val_two (d := ![4096, 1]) k'
  have r3 := Shape.rowMajor_val_three (d := ![4096, 1, 1]) y
  have e0 : k1_pay1 x0 = shapeCast S4096x1x1 (multiReductionI .add [2] S4096x1
      (extui 32 (cmpi .ne (shapeCast S4096x1x200 x0 shapeCasts_S4096x1x200_S4096x1x200) (broadcast S4096x1x200 0#32)) natLt_1_32)
      0#32 reduces_S4096x1x200_S4096x1 rfl) shapeCasts_S4096x1_S4096x1x1 := rfl
  have hk : (S4096x1.rowMajor k').val = (S4096x1x1.rowMajor y).val := r2.trans (Eq.trans (by
      show (y 0).val * 1 + 0 = ((y 0).val * 1 + (y 1).val) * 1 + (y 2).val
      omega) r3.symm)
  rw [e0, shapeCast_apply _ shapeCasts_S4096x1_S4096x1x1 y k' hk]
  refine (multiReductionI_eq_fold IKind.add _ (0#32) reduces_S4096x1x200_S4096x1 rfl k').trans ?_
  rw [shapeCast_self]
  have hset : (Finset.univ.filter fun i : S4096x1x200.Idx => reduces_S4096x1x200_S4096x1.drop i = k')
      = (Finset.univ : Finset (Fin 200)).image (fun l => ix3 b (0 : Fin 1) l) := by
    ext i
    simp only [Finset.mem_filter, Finset.mem_univ, true_and, Finset.mem_image]
    constructor
    · intro h
      refine ⟨⟨(i 2).val, (i 2).isLt⟩, ?_⟩
      funext a
      match a with
      | ⟨0, _⟩ =>
        have h0 : (reduces_S4096x1x200_S4096x1.drop i 0).val = (k' 0).val := by rw [h]
        exact Fin.ext h0.symm
      | ⟨1, _⟩ =>
        have := (i 1).isLt; change (i 1).val < 1 at this
        exact Fin.ext (show 0 = (i 1).val by omega)
      | ⟨2, _⟩ => rfl
    · rintro ⟨l, -, rfl⟩
      funext a
      match a with
      | ⟨0, _⟩ => rfl
      | ⟨1, _⟩ => rfl
  rw [hset, Finset.fold_image (fun l _ l' _ e => by have := congrFun e 2; exact this)]
  show (Finset.univ : Finset (Fin 200)).fold (fun a b : BitVec 32 => a + b) 0#32
    ((extui 32 (cmpi .ne x0 (broadcast S4096x1x200 0#32)) natLt_1_32) ∘ fun l => ix3 b (0 : Fin 1) l) = _
  refine congrArg (fun f => Finset.fold (fun a b : BitVec 32 => a + b) 0#32 f (Finset.univ : Finset (Fin 200))) (funext fun l => ?_)
  exact cmp_ext _

/-- What the counting pipeline leaves in its result array: the kernel's result from the staged tokens. -/
theorem lenArr_apply (d : Dev nD) (y : S4096x1x1.Idx) : lenArr m d y = k1_pay1 (iblk m d t1_0) y := by
  have hdisj : ∀ t t' : Fin cfg1.N, (cfg1.win 1).flush t = true → (cfg1.win 1).flush t' = true → t ≠ t' →
      Disjoint ((cfg1.win 1).blk t).view.set ((cfg1.win 1).blk t').view.set :=
    fun t t' _ _ h => absurd ((fin_N1 t).trans (fin_N1 t').symm) h
  have h := (lenDat m 0 d).arrAt_emb_eq_flushed 1 hdisj t1_0 (flush1_1 t1_0) y
  rw [emb1] at h
  unfold lenArr
  rw [h]
  show (lenDat m 0 d).flushed 1 t1_0 y = _
  unfold Dat.flushed
  rw [lenDat_after1, lenOut_eq]
  rfl

/-- the reshape of the counting pipeline's result is the per-row count of the tokens that are not 0 -/
theorem out4_lens (d : Dev nD) : out4 m d (lenArr m d) = lens (m (xLoc d)) := by
  funext j
  let y : S4096x1x1.Idx := ix3 (⟨(j 0).val, (j 0).isLt⟩ : Fin 4096) (0 : Fin 1) (0 : Fin 1)
  have hres : out4 m d (lenArr m d) j = lenArr m d y := by
    unfold out4
    rw [StableHlo.reshape_result', Vh_v2]
    have r1 := Shape.rowMajor_val_one (d := ![4096]) j
    have r3 := Shape.rowMajor_val_three (d := ![4096, 1, 1]) y
    exact shapeCast_apply (lenArr m d) _ j y (r3.trans (Eq.trans (by
      show ((j 0).val * 1 + 0) * 1 + 0 = (j 0).val
      omega) r1.symm))
  rw [hres, lenArr_apply, pay1_apply]
  unfold lens
  refine congrArg (fun f => Finset.fold (fun a b : BitVec 32 => a + b) 0#32 f (Finset.univ : Finset (Fin 200))) (funext fun l => ?_)
  show nonPad (iblk m d t1_0 (ix3 (⟨(j 0).val, (j 0).isLt⟩ : Fin 4096) (0 : Fin 1) l)) = nonPad (m (xLoc d) (ix2 (j 0) l))
  rw [iblk_apply]
  rfl

/-! ## The run with the two values -/

/-- Given the tile obligation with the rows given back at the lookup's values: every run of the program from a launch
    memory with every counter at zero ends, and ends with the first result the lookup with its last two axes swapped, the
    second the per-row count of the tokens that are not 0, and the tokens and the table as launched. -/
theorem run_val [∀ e, Nonempty (Elt F e)] (hT : (K (F := F)).TileObl (D (F := F)) 𝒱 (P m (RVal m)) v₀ 0) :
    θ_run (Cert.KernelIdeal.defs (F := F)) (Cert.KernelIdeal.threads (F := F)) ⟨m, fun _ => 0, ρ⟩ (fun r => ∀ c : Dev nD,
        r.2.mem ((c.tc : Thread nD τ).loc main_v3) = Cert.Proof.Spec.fmap (m ((c.tc : Thread nD τ).loc main_arg0)) (m ((c.tc : Thread nD τ).loc main_arg1))
      ∧ r.2.mem ((c.tc : Thread nD τ).loc main_v4) = Cert.Proof.Spec.lens (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (Cert.KernelIdeal.defs (F := F)) _ _).mono (fun _ h c => by
    obtain ⟨hx, ht, g, hg, h3, h4⟩ := h c
    have eg := eq_G0_of_rows m c g hg
    rw [eg] at h3
    exact ⟨h3.trans (out3_G0 m c), h4.trans (out4_lens m c), hx, ht⟩) (run_gen m ρ (RVal m) hT)

/-- the same statement, under a second name -/
theorem run_main [∀ e, Nonempty (Elt F e)] (hT : (K (F := F)).TileObl (D (F := F)) 𝒱 (P m (RVal m)) v₀ 0) :
    θ_run (Cert.KernelIdeal.defs (F := F)) (Cert.KernelIdeal.threads (F := F)) ⟨m, fun _ => 0, ρ⟩ (fun r => ∀ c : Dev nD,
        r.2.mem ((c.tc : Thread nD τ).loc main_v3) = Cert.Proof.Spec.fmap (m ((c.tc : Thread nD τ).loc main_arg0)) (m ((c.tc : Thread nD τ).loc main_arg1))
      ∧ r.2.mem ((c.tc : Thread nD τ).loc main_v4) = Cert.Proof.Spec.lens (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_val m ρ hT

end Cert.Proof.KI

end
-- ==== Proof.PreI.lean ====
/-
  What the tile kernel's gathers need of the launch memory: every token names a row of the table.
-/
import proofs.«206347_g23639499997337_cont_sun_m_514_14_alg».proof.Proof.SetupI

noncomputable section

namespace Cert.Proof.KI

open Cert.KernelIdeal Idealize.ShloMosaic

variable {F : FTy → Type}

/-- every token, read as an unsigned word, is below the table's 100000 rows -/
def PreOK (m : (ℓ : Loc nD τ sig) → Buf (Elt F) ℓ) : Prop :=
  ∀ (d : Dev nD) (j : S4096x200.Idx), (m (xLoc d) j).toNat < 100000

end Cert.Proof.KI

end
-- ==== Proof.PreLemI.lean ====
/-
  The precondition gives what the tile kernel's gathers need: a token that, read signed, lies in [0, 99999] is, read
  unsigned, below 100000.
-/
import proofs.«206347_g23639499997337_cont_sun_m_514_14_alg».proof.Proof.PreI
import proofs.«206347_g23639499997337_cont_sun_m_514_14_alg».proof.Proof.RefPre

namespace Cert.Proof.KI

open Cert.KernelIdeal Idealize.ShloMosaic

/-- a 32-bit word whose signed value lies in [0, 99999] has unsigned value below 100000 -/
theorem toNat_lt_of_toInt (w : BitVec 32) (h0 : 0 ≤ w.toInt) (h9 : w.toInt ≤ 99999) : w.toNat < 100000 := by
  have hc := BitVec.toInt_eq_toNat_cond w
  have hlt := w.isLt
  split at hc <;> omega

theorem preOK_of_pre (m : (ℓ : Loc nD τ sig) → Buf (Elt Ideal) ℓ) (h : Cert.Pre_KernelIdeal m) : PreOK (F := Ideal) m := by
  intro d j
  obtain ⟨h0, h9⟩ := Cert.Proof.Ref.token_bounds (F := Ideal) (m (xLoc d)) (m (tLoc d)) (h d) j
  exact toNat_lt_of_toInt _ h0 h9

end Cert.Proof.KI
-- ==== Proof.AssembleI.lean ====
/-
  The two value runs side by side.

  From memories agreeing on tokens and table, the kernel program ends with the lookup swapped (Spec.fmap) and the
  per-row counts of non-padding tokens (Spec.lens) in its two results, and the reference program ends with the same
  two arrays: both are stated against one specification, so the results are equal entry by entry. The kernel's run
  needs one thing of its tiles: that each gives its 128 output rows back at the lookup's values.
-/
import proofs.«206347_g23639499997337_cont_sun_m_514_14_alg».proof.Defs
import proofs.«206347_g23639499997337_cont_sun_m_514_14_alg».proof.Proof.RefRun
import proofs.«206347_g23639499997337_cont_sun_m_514_14_alg».proof.Proof.LaunchValI
import proofs.«206347_g23639499997337_cont_sun_m_514_14_alg».proof.Proof.PreLemI

noncomputable section

namespace Cert.Proof

open Idealize.ShloMosaic Idealize.SL.Sem

/-- The algebraic conjunct, from the tiles' obligation at the lookup's values. -/
theorem algebraic_of
    (hT : ∀ (m : (ℓ : Loc Cert.KernelIdeal.nD Cert.KernelIdeal.τ Cert.KernelIdeal.sig) → Buf (Elt Ideal) ℓ), KI.PreOK m →
        (KI.K (F := Ideal)).TileObl (KI.D (F := Ideal)) KI.𝒱 (KI.P m (KI.RVal m)) KI.v₀ 0) :
    Cert.algebraic_KernelIdeal_ReferenceIdeal := by
  intro m g m' g' hpre hagree
  have hpre' : Cert.Pre_ReferenceIdeal m' := fun c => by
    have h := hpre c
    rw [(hagree c).1, (hagree c).2]
    exact h
  refine ⟨_, _, KI.run_val m g (hT m (KI.preOK_of_pre m hpre)), ?_⟩
  refine (θ_run (Cert.ReferenceIdeal.defs (F := Ideal)) _ _).mono (fun r h c => ?_) (Cert.Proof.Ref.run m' g' hpre')
  obtain ⟨h1, h2, h3, h4⟩ := h c
  refine ⟨?_, ?_, h3, h4⟩
  · rw [h1, (hagree c).1, (hagree c).2]
  · rw [h2, (hagree c).1]

end Cert.Proof

end
-- ==== Proof.TileDefsI.lean ====
import proofs.«206347_g23639499997337_cont_sun_m_514_14_alg».proof.Proof.PreI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (R : RowProp (F := F)) (d : Dev nD) (L : grid0.Coords)

/-- the tile the body runs on: SparseCore L 0, vector subcore L 1 -/
abbrev cT : Fin τ.nSC := (L 0).castLE hcore0
abbrev sT : Fin τ.nSub := (L 1).castLE hsub0
abbrev thr : Thread nD τ := V d (cT L) (sT L)

local notation "xW" => (Memref.whole Cert.KernelIdeal.main_arg0_scv : Memref Cert.KernelIdeal.sig Kind.scVector Space.hbm Cert.KernelIdeal.S4096x200 EltTy.i32)
local notation "tW" => (Memref.whole Cert.KernelIdeal.main_arg1_scv : Memref Cert.KernelIdeal.sig Kind.scVector Space.hbm Cert.KernelIdeal.S100000x128 EltTy.f32)
local notation "oW" => (Memref.whole Cert.KernelIdeal.main_v0_scv : Memref Cert.KernelIdeal.sig Kind.scVector Space.hbm Cert.KernelIdeal.S4096x25600 EltTy.f32)
local notation "i0W" => (Memref.whole Cert.KernelIdeal.cc0_scratch0 : Memref Cert.KernelIdeal.sig Kind.scVector Space.vmem Cert.KernelIdeal.S200 EltTy.i32)
local notation "i1W" => (Memref.whole Cert.KernelIdeal.cc0_scratch1 : Memref Cert.KernelIdeal.sig Kind.scVector Space.vmem Cert.KernelIdeal.S200 EltTy.i32)
local notation "e0W" => (Memref.whole Cert.KernelIdeal.cc0_scratch2 : Memref Cert.KernelIdeal.sig Kind.scVector Space.vmem Cert.KernelIdeal.S200x128 EltTy.f32)
local notation "e1W" => (Memref.whole Cert.KernelIdeal.cc0_scratch3 : Memref Cert.KernelIdeal.sig Kind.scVector Space.vmem Cert.KernelIdeal.S200x128 EltTy.f32)
local notation "o0W" => (Memref.whole Cert.KernelIdeal.cc0_scratch4 : Memref Cert.KernelIdeal.sig Kind.scVector Space.vmem Cert.KernelIdeal.S25600 EltTy.f32)
local notation "o1W" => (Memref.whole Cert.KernelIdeal.cc0_scratch5 : Memref Cert.KernelIdeal.sig Kind.scVector Space.vmem Cert.KernelIdeal.S25600 EltTy.f32)

/-- the table whole, as each gather slices it -/
abbrev tSl : Memref sig .scVector .hbm S100000x128 .f32 :=
  (tW).slice (Rect.unit (s := S100000x128) ![0, 0] S100000x128.size inb_S100000x128_S100000x128_0_0) (fun _ => rfl)

/-- the output row the even slot copies out at pair-trip t, and the odd slot's, as the program slices them -/
abbrev oRow0 (t : Fin k0_t1_loop.trips) : Memref sig .scVector .hbm S25600 .f32 :=
  ((oW).slice (Rect.unit (s := S4096x25600) (k0_off3 L t 0#32) S1x25600.size (k0_off3_inb L t 0)) (fun _ => rfl)).squeeze S25600 squeezes_S1x25600_S25600
abbrev oRow1 (t : Fin k0_t1_loop.trips) : Memref sig .scVector .hbm S25600 .f32 :=
  ((oW).slice (Rect.unit (s := S4096x25600) (k0_off3 L t 1#32) S1x25600.size (k0_off3_inb L t 1)) (fun _ => rfl)).squeeze S25600 squeezes_S1x25600_S25600

/-- row n of this tile's 128 rows, as a batch row: worker · 128 + n (reduced mod 4096 to be total) -/
def rowB (n : ℕ) : Fin 4096 := ⟨((256 * (L 1).val + 128 * (L 0).val) + n) % 4096, Nat.mod_lt _ (by decide)⟩

theorem trips64 : k0_t1_loop.trips = 64 := by decide

theorem cond1_iff : ∀ t : Fin k0_t1_loop.trips, k0_cond1 t = 1#1 ↔ 1 ≤ t.val := by decide
theorem cond3_iff : ∀ t : Fin k0_t1_loop.trips, k0_cond3 t = 1#1 ↔ 1 ≤ t.val := by decide
theorem cond2_iff : ∀ t : Fin k0_t1_loop.trips, k0_cond2 t = 1#1 ↔ t.val + 1 < 64 := by decide
theorem cond4_iff : ∀ t : Fin k0_t1_loop.trips, k0_cond4 t = 1#1 ↔ t.val + 1 < 64 := by decide

end Cert.Proof.KI

end
-- ==== Proof.TileInvI.lean ====
import proofs.«206347_g23639499997337_cont_sun_m_514_14_alg».proof.Proof.TileDefsI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (d : Dev nD) (L : grid0.Coords)

local notation "xW" => (Memref.whole Cert.KernelIdeal.main_arg0_scv : Memref Cert.KernelIdeal.sig Kind.scVector Space.hbm Cert.KernelIdeal.S4096x200 EltTy.i32)
local notation "tW" => (Memref.whole Cert.KernelIdeal.main_arg1_scv : Memref Cert.KernelIdeal.sig Kind.scVector Space.hbm Cert.KernelIdeal.S100000x128 EltTy.f32)
local notation "oW" => (Memref.whole Cert.KernelIdeal.main_v0_scv : Memref Cert.KernelIdeal.sig Kind.scVector Space.hbm Cert.KernelIdeal.S4096x25600 EltTy.f32)
local notation "i0W" => (Memref.whole Cert.KernelIdeal.cc0_scratch0 : Memref Cert.KernelIdeal.sig Kind.scVector Space.vmem Cert.KernelIdeal.S200 EltTy.i32)
local notation "i1W" => (Memref.whole Cert.KernelIdeal.cc0_scratch1 : Memref Cert.KernelIdeal.sig Kind.scVector Space.vmem Cert.KernelIdeal.S200 EltTy.i32)
local notation "e0W" => (Memref.whole Cert.KernelIdeal.cc0_scratch2 : Memref Cert.KernelIdeal.sig Kind.scVector Space.vmem Cert.KernelIdeal.S200x128 EltTy.f32)
local notation "e1W" => (Memref.whole Cert.KernelIdeal.cc0_scratch3 : Memref Cert.KernelIdeal.sig Kind.scVector Space.vmem Cert.KernelIdeal.S200x128 EltTy.f32)
local notation "o0W" => (Memref.whole Cert.KernelIdeal.cc0_scratch4 : Memref Cert.KernelIdeal.sig Kind.scVector Space.vmem Cert.KernelIdeal.S25600 EltTy.f32)
local notation "o1W" => (Memref.whole Cert.KernelIdeal.cc0_scratch5 : Memref Cert.KernelIdeal.sig Kind.scVector Space.vmem Cert.KernelIdeal.S25600 EltTy.f32)

variable (qx q0 q1 : PosShare TreeShare) (O : CellTallies nD τ sig (HIx 1)) (W : Waits sig (HIx 1))

/-! ## What is held between two pair-trips

Before pair-trip i: both gathers for rows 2i and 2i+1 are in flight (none after the last trip); for i ≥ 1 both
copies-out of rows 2i-2 and 2i-1 are in flight; rows of earlier trips are finished, rows from trip i on untouched. -/

/-- an untouched output row, held on exactly the set the copy-out writes -/
def rowIn0 (t : Fin k0_t1_loop.trips) : sProp 𝕄 := (oRow0 L t).view.loc (thr d L) ↦[(oRow0 L t).view.set]{fullShare} m (oLoc d)
def rowIn1 (t : Fin k0_t1_loop.trips) : sProp 𝕄 := (oRow1 L t).view.loc (thr d L) ↦[(oRow1 L t).view.set]{fullShare} m (oLoc d)
/-- a finished output row, at whatever the copy-out left -/
def rowFin0 (t : Fin k0_t1_loop.trips) : sProp 𝕄 := iprop(∃ g, (oRow0 L t).view.loc (thr d L) ↦[(oRow0 L t).view.set]{fullShare} g)
def rowFin1 (t : Fin k0_t1_loop.trips) : sProp 𝕄 := iprop(∃ g, (oRow1 L t).view.loc (thr d L) ↦[(oRow1 L t).view.set]{fullShare} g)

def rowsTodo (i : ℕ) : sProp 𝕄 :=
  bigSep (Finset.univ.filter fun t : Fin k0_t1_loop.trips => i ≤ t.val) fun t => iprop(rowIn0 m d L t ∗ rowIn1 m d L t)
def rowsDone (i : ℕ) : sProp 𝕄 :=
  bigSep (Finset.univ.filter fun t : Fin k0_t1_loop.trips => t.val + 1 < i) fun t => iprop(rowFin0 (F := F) d L t ∗ rowFin1 (F := F) d L t)

/-- slot 0's gather in flight: its destination, its index list and its share of the table are the flight's to deliver -/
def gathFl0 : sProp 𝕄 :=
  iprop(∃ fe fi, ((tW).view.loc (thr d L) ↦[Finset.univ \ (tSl).view.set]{q0} m (tLoc d))
      ∗ Transfers.Flight countersEmb (thr d L) (SemLoc.dma cc0_scratch6.sem) default 819200
          iprop((((e0W).view.loc (thr d L) ↦{fullShare} fe) ∗ ((i0W).view.loc (thr d L) ↦{fullShare} fi))
            ∗ ((tW).view.loc (thr d L) ↦[(tSl).view.set]{q0} m (tLoc d))))
/-- slot 0's gather at rest -/
def gathRest0 : sProp 𝕄 :=
  iprop(((tW).view.loc (thr d L) ↦{q0} m (tLoc d)) ∗ semVal (thr d L, SemLoc.dma cc0_scratch6.sem) 0
      ∗ (∃ fe, (e0W).view.loc (thr d L) ↦{fullShare} fe) ∗ (∃ fi, (i0W).view.loc (thr d L) ↦{fullShare} fi))
def gath0 (i : ℕ) : sProp 𝕄 := if i < 64 then gathFl0 m d L q0 else gathRest0 m d L q0
/-- slot 0's copy-out: none yet -/
def outNone0 : sProp 𝕄 :=
  iprop(semVal (thr d L, SemLoc.dma cc0_scratch8.sem) 0 ∗ ∃ fo, (o0W).view.loc (thr d L) ↦{fullShare} fo)
/-- slot 0's copy-out of pair-trip t in flight: the row it writes and the flat buffer it reads are the flight's to deliver -/
def outFl0 (t : Fin k0_t1_loop.trips) : sProp 𝕄 :=
  iprop(∃ g fo, ((o0W).view.loc (thr d L) ↦[Finset.univ \ (o0W).view.set]{fullShare} fo)
      ∗ Transfers.Flight countersEmb (thr d L) (SemLoc.dma cc0_scratch8.sem) default 819200
          iprop(((oRow0 L t).view.loc (thr d L) ↦[(oRow0 L t).view.set]{fullShare} g)
            ∗ ((o0W).view.loc (thr d L) ↦[(o0W).view.set]{fullShare} fo)))
def out0 (i : ℕ) : sProp 𝕄 :=
  if i = 0 then outNone0 (F := F) d L else iprop(∃ t : Fin k0_t1_loop.trips, ⌜t.val + 1 = i⌝ ∗ outFl0 (F := F) d L t)
/-- slot 1's gather in flight: its destination, its index list and its share of the table are the flight's to deliver -/
def gathFl1 : sProp 𝕄 :=
  iprop(∃ fe fi, ((tW).view.loc (thr d L) ↦[Finset.univ \ (tSl).view.set]{q1} m (tLoc d))
      ∗ Transfers.Flight countersEmb (thr d L) (SemLoc.dma cc0_scratch7.sem) default 819200
          iprop((((e1W).view.loc (thr d L) ↦{fullShare} fe) ∗ ((i1W).view.loc (thr d L) ↦{fullShare} fi))
            ∗ ((tW).view.loc (thr d L) ↦[(tSl).view.set]{q1} m (tLoc d))))
/-- slot 1's gather at rest -/
def gathRest1 : sProp 𝕄 :=
  iprop(((tW).view.loc (thr d L) ↦{q1} m (tLoc d)) ∗ semVal (thr d L, SemLoc.dma cc0_scratch7.sem) 0
      ∗ (∃ fe, (e1W).view.loc (thr d L) ↦{fullShare} fe) ∗ (∃ fi, (i1W).view.loc (thr d L) ↦{fullShare} fi))
def gath1 (i : ℕ) : sProp 𝕄 := if i < 64 then gathFl1 m d L q1 else gathRest1 m d L q1
/-- slot 1's copy-out: none yet -/
def outNone1 : sProp 𝕄 :=
  iprop(semVal (thr d L, SemLoc.dma cc0_scratch9.sem) 0 ∗ ∃ fo, (o1W).view.loc (thr d L) ↦{fullShare} fo)
/-- slot 1's copy-out of pair-trip t in flight: the row it writes and the flat buffer it reads are the flight's to deliver -/
def outFl1 (t : Fin k0_t1_loop.trips) : sProp 𝕄 :=
  iprop(∃ g fo, ((o1W).view.loc (thr d L) ↦[Finset.univ \ (o1W).view.set]{fullShare} fo)
      ∗ Transfers.Flight countersEmb (thr d L) (SemLoc.dma cc0_scratch9.sem) default 819200
          iprop(((oRow1 L t).view.loc (thr d L) ↦[(oRow1 L t).view.set]{fullShare} g)
            ∗ ((o1W).view.loc (thr d L) ↦[(o1W).view.set]{fullShare} fo)))
def out1 (i : ℕ) : sProp 𝕄 :=
  if i = 0 then outNone1 (F := F) d L else iprop(∃ t : Fin k0_t1_loop.trips, ⌜t.val + 1 = i⌝ ∗ outFl1 (F := F) d L t)
/-- what the tile owes, with the waits it has made on its own semaphores recorded -/
def owesEx : sProp 𝕄 := iprop(∃ W', ⌜∀ p ∈ W', p ∈ W ∨ p.2 = none⌝ ∗ owes (thr d L) O W')

/-- the pair loop's invariant -/
def pinv (i : ℕ) (_ : Unit) : sProp 𝕄 :=
  iprop(Transfers.MayWaits (thr d L) (none : HIx 1) O
    ∗ ((xW).view.loc (thr d L) ↦{qx} m (xLoc d))
    ∗ gath0 m d L q0 i ∗ gath1 m d L q1 i ∗ out0 (F := F) d L i ∗ out1 (F := F) d L i
    ∗ rowsTodo m d L i ∗ rowsDone (F := F) d L i
    ∗ semVal (thr d L, SemLoc.dma cc0_scoped2.sem) 0 ∗ semVal (thr d L, SemLoc.dma cc0_scoped3.sem) 0
    ∗ owesEx (F := F) d L O W)

/-! ## Which trips are before, at and after a given one -/

theorem filter_le_succ {n : ℕ} (k : Fin n) :
    (Finset.univ.filter fun t : Fin n => k.val ≤ t.val) = insert k (Finset.univ.filter fun t : Fin n => k.val + 1 ≤ t.val) := by
  ext t; simp only [Finset.mem_filter, Finset.mem_univ, true_and, Finset.mem_insert, Fin.ext_iff]; omega
theorem not_mem_filter_succ {n : ℕ} (k : Fin n) : k ∉ (Finset.univ.filter fun t : Fin n => k.val + 1 ≤ t.val) := by
  simp
theorem filter_lt_succ {n : ℕ} (k' : Fin n) :
    (Finset.univ.filter fun t : Fin n => t.val + 1 < k'.val + 2) = insert k' (Finset.univ.filter fun t : Fin n => t.val + 1 < k'.val + 1) := by
  ext t; simp only [Finset.mem_filter, Finset.mem_univ, true_and, Finset.mem_insert, Fin.ext_iff]; omega
theorem not_mem_filter_lt {n : ℕ} (k' : Fin n) : k' ∉ (Finset.univ.filter fun t : Fin n => t.val + 1 < k'.val + 1) := by
  simp

end Cert.Proof.KI

end
-- ==== Proof.InnerI0.lean ====
import proofs.«206347_g23639499997337_cont_sun_m_514_14_alg».proof.Proof.SetupI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

/-! ## Lane bounds

Every indexed access of the transposition is in range because its index vectors are sums of a constant lane vector
and a scalar: lanes of a rotation of 0..15 are at most 15; lanes of a write diagonal (rotation · 200 + lane) are at
most 3015; the scalars are a row offset at most 184, a column offset at most 112, and a flat offset at most 22584. -/

private theorem add_bc_lt {v : IVec S16 32} {c : BitVec 32} {A B N : Nat} (hv : ∀ x, (v x).toNat ≤ A) (hc : c.toNat ≤ B) (hN : A + B < N)
    (hN' : N ≤ 4294967296) : ∀ x, ((addi v (broadcast S16 c)) x).toNat < N := by
  intro x
  have h1 := hv x
  show ((v x) + c).toNat < N
  rw [BitVec.toNat_add]
  have : ((v x).toNat + c.toNat) % 4294967296 = (v x).toNat + c.toNat := Nat.mod_eq_of_lt (by omega)
  omega

private theorem chk_rows_cols {rows cols : IVec S16 32} (hr : ∀ x, (rows x).toNat < 200) (hc : ∀ x, (cols x).toNat < 128) :
    ∀ a x, ((![rows, cols] : Fin 2 → IVec S16 32) a x).toNat < S200x128.size a := by
  intro a x
  match a with
  | ⟨0, _⟩ => exact hr x
  | ⟨1, _⟩ => exact hc x

private theorem chk_flat {idx : IVec S16 32} (h : ∀ x, (idx x).toNat < 25600) :
    ∀ a x, ((![idx] : Fin 1 → IVec S16 32) a x).toNat < S25600.size a := by
  intro a x
  match a with
  | ⟨0, _⟩ => exact h x

set_option hygiene false in
/-- An index condition of the transposition, from the lane bounds in the context: a condition on one index vector is a
    flat offset's, a condition on two is a (row, column) pair's. -/
local elab "chk_disch" : tactic => do
  let g ← Lean.Elab.Tactic.getMainTarget
  if g.getAppNumArgs == 1 then
    Lean.Elab.Tactic.evalTactic (← `(tactic| exact chk_flat (add_bc_lt (A := 3015) (B := 22584) (by assumption) (by (try clear hrows); decide +revert) (by decide) (by decide))))
  else
    Lean.Elab.Tactic.evalTactic (← `(tactic| exact chk_rows_cols
      (by first | assumption | exact add_bc_lt (A := 15) (B := 184) (by assumption) (by decide +revert) (by decide) (by decide))
      (add_bc_lt (A := 15) (B := 112) (by assumption) (by decide) (by decide) (by decide))))

variable (m : (ℓ : Loc nD τ sig) → Buf (Elt F) ℓ) (d : Dev nD) (L : grid0.Coords)

abbrev cV0 : Fin τ.nSC := (L 0).castLE hcore0
abbrev jV0 : Fin τ.nSub := (L 1).castLE hsub0
abbrev thr0 : Thread nD τ := V d (cV0 L) (jV0 L)

local notation "xW" => (Memref.whole Cert.KernelIdeal.main_arg0_scv : Memref Cert.KernelIdeal.sig Kind.scVector Space.hbm Cert.KernelIdeal.S4096x200 EltTy.i32)
local notation "tW" => (Memref.whole Cert.KernelIdeal.main_arg1_scv : Memref Cert.KernelIdeal.sig Kind.scVector Space.hbm Cert.KernelIdeal.S100000x128 EltTy.f32)
local notation "oW" => (Memref.whole Cert.KernelIdeal.main_v0_scv : Memref Cert.KernelIdeal.sig Kind.scVector Space.hbm Cert.KernelIdeal.S4096x25600 EltTy.f32)
local notation "i0W" => (Memref.whole Cert.KernelIdeal.cc0_scratch0 : Memref Cert.KernelIdeal.sig Kind.scVector Space.vmem Cert.KernelIdeal.S200 EltTy.i32)
local notation "i1W" => (Memref.whole Cert.KernelIdeal.cc0_scratch1 : Memref Cert.KernelIdeal.sig Kind.scVector Space.vmem Cert.KernelIdeal.S200 EltTy.i32)
local notation "e0W" => (Memref.whole Cert.KernelIdeal.cc0_scratch2 : Memref Cert.KernelIdeal.sig Kind.scVector Space.vmem Cert.KernelIdeal.S200x128 EltTy.f32)
local notation "e1W" => (Memref.whole Cert.KernelIdeal.cc0_scratch3 : Memref Cert.KernelIdeal.sig Kind.scVector Space.vmem Cert.KernelIdeal.S200x128 EltTy.f32)
local notation "o0W" => (Memref.whole Cert.KernelIdeal.cc0_scratch4 : Memref Cert.KernelIdeal.sig Kind.scVector Space.vmem Cert.KernelIdeal.S25600 EltTy.f32)
local notation "o1W" => (Memref.whole Cert.KernelIdeal.cc0_scratch5 : Memref Cert.KernelIdeal.sig Kind.scVector Space.vmem Cert.KernelIdeal.S25600 EltTy.f32)

variable [FloatOps F]

set_option hygiene false in
/-- one indexed load: a load of the whole scratch, then the lanes picked -/
local macro "tr_load" : tactic => `(tactic| (
  rw [SparseCore.vectorLoadIdx_bind (c := thr0 d L)]
  sl_exec (disch := chk_disch)))
set_option hygiene false in
/-- one indexed store: a load and a store of the whole scratch; what the scratch then holds is kept as some contents -/
local macro "tr_store" : tactic => `(tactic| (
  rw [SparseCore.vectorStoreIdx_bind (c := thr0 d L)]
  sl_exec (disch := chk_disch)
  ihave Hog : (∃ fo2, (o0W).view.loc (thr0 d L) ↦{fullShare} fo2) $$ [Ho]
  · iexists _; iexact Ho
  icases Hog with ⟨%fo2, Ho⟩))

/-- the transposition keeps both scratches held: the gathered rows unchanged, the flat buffer at some contents -/
def tinv0 (O : CellTallies nD τ sig (HIx 1)) (W : Waits sig (HIx 1)) (fe : Buf (Elt F) ((e0W).view.loc (thr0 d L))) (_ : Nat) (_ : Unit) : sProp 𝕄 :=
  iprop(Transfers.MayWaits (thr0 d L) (none : HIx 1) O
    ∗ ((e0W).view.loc (thr0 d L) ↦{fullShare} fe)
    ∗ (∃ fo, (o0W).view.loc (thr0 d L) ↦{fullShare} fo)
    ∗ owes (thr0 d L) O W)

set_option sl_exec.dischHeartbeats 100000 in
set_option maxHeartbeats 4000000 in
theorem transpose0 (O : CellTallies nD τ sig (HIx 1)) (W : Waits sig (HIx 1))
    (fe : Buf (Elt F) ((e0W).view.loc (thr0 d L))) (fo : Buf (Elt F) ((o0W).view.loc (thr0 d L)))
    (v2 : BitVec 32) (v3 v21 v39 v57 v75 v93 v111 v129 v147 v165 v183 v201 v219 v237 v255 v273 v291 v294 v297 v300 v303 v306 v309 v312 v315 v318 v321 v324 v327 v330 v333 v336 v339 : IVec S16 32) (c0 c1 : BitVec 32) (k0_t1 : Fin k0_t1_loop.trips)
    (hv3 : ∀ x, (v3 x).toNat ≤ 15) (hv21 : ∀ x, (v21 x).toNat ≤ 15) (hv39 : ∀ x, (v39 x).toNat ≤ 15) (hv57 : ∀ x, (v57 x).toNat ≤ 15) (hv75 : ∀ x, (v75 x).toNat ≤ 15) (hv93 : ∀ x, (v93 x).toNat ≤ 15) (hv111 : ∀ x, (v111 x).toNat ≤ 15) (hv129 : ∀ x, (v129 x).toNat ≤ 15) (hv147 : ∀ x, (v147 x).toNat ≤ 15) (hv165 : ∀ x, (v165 x).toNat ≤ 15) (hv183 : ∀ x, (v183 x).toNat ≤ 15) (hv201 : ∀ x, (v201 x).toNat ≤ 15) (hv219 : ∀ x, (v219 x).toNat ≤ 15) (hv237 : ∀ x, (v237 x).toNat ≤ 15) (hv255 : ∀ x, (v255 x).toNat ≤ 15) (hv273 : ∀ x, (v273 x).toNat ≤ 15) (hv291 : ∀ x, (v291 x).toNat ≤ 15)
    (hv294 : ∀ x, (v294 x).toNat ≤ 3015) (hv297 : ∀ x, (v297 x).toNat ≤ 3015) (hv300 : ∀ x, (v300 x).toNat ≤ 3015) (hv303 : ∀ x, (v303 x).toNat ≤ 3015) (hv306 : ∀ x, (v306 x).toNat ≤ 3015) (hv309 : ∀ x, (v309 x).toNat ≤ 3015) (hv312 : ∀ x, (v312 x).toNat ≤ 3015) (hv315 : ∀ x, (v315 x).toNat ≤ 3015) (hv318 : ∀ x, (v318 x).toNat ≤ 3015) (hv321 : ∀ x, (v321 x).toNat ≤ 3015) (hv324 : ∀ x, (v324 x).toNat ≤ 3015) (hv327 : ∀ x, (v327 x).toNat ≤ 3015) (hv330 : ∀ x, (v330 x).toNat ≤ 3015) (hv333 : ∀ x, (v333 x).toNat ≤ 3015) (hv336 : ∀ x, (v336 x).toNat ≤ 3015) (hv339 : ∀ x, (v339 x).toNat ≤ 3015) :
    (iprop(Transfers.MayWaits (thr0 d L) (none : HIx 1) O
        ∗ ((e0W).view.loc (thr0 d L) ↦{fullShare} fe) ∗ ((o0W).view.loc (thr0 d L) ↦{fullShare} fo)
        ∗ owes (thr0 d L) O W) : sProp 𝕄)
      ⊢ wp frame (wpE (defs₀ (F := F)) 𝒱₀ (thr0 d L) none) Set.univ
          (Scf.Loop.for k0_t2_loop k0_t2_ok ⟨⟩ (k0_t2_body L xW (Memref.isWhole_whole _) tW (Memref.isWhole_whole _) oW (Memref.isWhole_whole _)
            i0W (Memref.isWhole_whole _) i1W (Memref.isWhole_whole _) e0W (Memref.isWhole_whole _) e1W (Memref.isWhole_whole _)
            o0W (Memref.isWhole_whole _) o1W (Memref.isWhole_whole _)
            cc0_scratch6 cc0_scratch7 cc0_scratch8 cc0_scratch9 cc0_scoped0 cc0_scoped1 cc0_scoped2 cc0_scoped3
            v2 v3 v21 v39 v57 v75 v93 v111 v129 v147 v165 v183 v201 v219 v237 v255 v273 v291 v294 v297 v300 v303 v306 v309 v312 v315 v318 v321 v324 v327 v330 v333 v336 v339 c0 c1 k0_t1))
          fun _ => iprop(((e0W).view.loc (thr0 d L) ↦{fullShare} fe) ∗ (∃ fo', (o0W).view.loc (thr0 d L) ↦{fullShare} fo')
            ∗ owes (thr0 d L) O W) := by
  iintro ⟨Hmw, He, Ho, HO⟩
  sl_for (tinv0 d L O W fe) $$ [Hmw He Ho HO]
  case region =>
    intro k _
    unfold tinv0
    iintro ⟨Hmw, He, ⟨%fo', Ho⟩, HO⟩
    sl_exec (disch := chk_disch)
    have hrows : ∀ x, ((transpose0.sl.v388 v3 k) x).toNat < 200 :=
      add_bc_lt (A := 15) (B := 184) hv3 (by decide +revert) (by decide) (by decide)
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    sl_step
    isplitl [Hmw]; · iexact Hmw
    isplitl [He]; · iexact He
    isplitl [Ho]; · iexists _; iexact Ho
    iexact HO
  unfold tinv0
  isplitl [Hmw He Ho HO]
  · isplitl [Hmw]; · iexact Hmw
    isplitl [He]; · iexact He
    isplitl [Ho]; · iexists _; iexact Ho
    iexact HO
  iintro %_ HI
  icases HI with ⟨-, He, Ho, HO⟩
  isplitl [He]; · iexact He
  isplitl [Ho]; · iexact Ho
  iexact HO

end Cert.Proof.KI

end
-- ==== Proof.InnerI1.lean ====
import proofs.«206347_g23639499997337_cont_sun_m_514_14_alg».proof.Proof.SetupI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

/-! ## Lane bounds

Every indexed access of the transposition is in range because its index vectors are sums of a constant lane vector
and a scalar: lanes of a rotation of 0..15 are at most 15; lanes of a write diagonal (rotation · 200 + lane) are at
most 3015; the scalars are a row offset at most 184, a column offset at most 112, and a flat offset at most 22584. -/

private theorem add_bc_lt {v : IVec S16 32} {c : BitVec 32} {A B N : Nat} (hv : ∀ x, (v x).toNat ≤ A) (hc : c.toNat ≤ B) (hN : A + B < N)
    (hN' : N ≤ 4294967296) : ∀ x, ((addi v (broadcast S16 c)) x).toNat < N := by
  intro x
  have h1 := hv x
  show ((v x) + c).toNat < N
  rw [BitVec.toNat_add]
  have : ((v x).toNat + c.toNat) % 4294967296 = (v x).toNat + c.toNat := Nat.mod_eq_of_lt (by omega)
  omega

private theorem chk_rows_cols {rows cols : IVec S16 32} (hr : ∀ x, (rows x).toNat < 200) (hc : ∀ x, (cols x).toNat < 128) :
    ∀ a x, ((![rows, cols] : Fin 2 → IVec S16 32) a x).toNat < S200x128.size a := by
  intro a x
  match a with
  | ⟨0, _⟩ => exact hr x
  | ⟨1, _⟩ => exact hc x

private theorem chk_flat {idx : IVec S16 32} (h : ∀ x, (idx x).toNat < 25600) :
    ∀ a x, ((![idx] : Fin 1 → IVec S16 32) a x).toNat < S25600.size a := by
  intro a x
  match a with
  | ⟨0, _⟩ => exact h x

set_option hygiene false in
/-- An index condition of the transposition, from the lane bounds in the context: a condition on one index vector is a
    flat offset's, a condition on two is a (row, column) pair's. -/
local elab "chk_disch" : tactic => do
  let g ← Lean.Elab.Tactic.getMainTarget
  if g.getAppNumArgs == 1 then
    Lean.Elab.Tactic.evalTactic (← `(tactic| exact chk_flat (add_bc_lt (A := 3015) (B := 22584) (by assumption) (by (try clear hrows); decide +revert) (by decide) (by decide))))
  else
    Lean.Elab.Tactic.evalTactic (← `(tactic| exact chk_rows_cols
      (by first | assumption | exact add_bc_lt (A := 15) (B := 184) (by assumption) (by decide +revert) (by decide) (by decide))
      (add_bc_lt (A := 15) (B := 112) (by assumption) (by decide) (by decide) (by decide))))

variable (m : (ℓ : Loc nD τ sig) → Buf (Elt F) ℓ) (d : Dev nD) (L : grid0.Coords)

abbrev cV1 : Fin τ.nSC := (L 0).castLE hcore0
abbrev jV1 : Fin τ.nSub := (L 1).castLE hsub0
abbrev thr1 : Thread nD τ := V d (cV1 L) (jV1 L)

local notation "xW" => (Memref.whole Cert.KernelIdeal.main_arg0_scv : Memref Cert.KernelIdeal.sig Kind.scVector Space.hbm Cert.KernelIdeal.S4096x200 EltTy.i32)
local notation "tW" => (Memref.whole Cert.KernelIdeal.main_arg1_scv : Memref Cert.KernelIdeal.sig Kind.scVector Space.hbm Cert.KernelIdeal.S100000x128 EltTy.f32)
local notation "oW" => (Memref.whole Cert.KernelIdeal.main_v0_scv : Memref Cert.KernelIdeal.sig Kind.scVector Space.hbm Cert.KernelIdeal.S4096x25600 EltTy.f32)
local notation "i0W" => (Memref.whole Cert.KernelIdeal.cc0_scratch0 : Memref Cert.KernelIdeal.sig Kind.scVector Space.vmem Cert.KernelIdeal.S200 EltTy.i32)
local notation "i1W" => (Memref.whole Cert.KernelIdeal.cc0_scratch1 : Memref Cert.KernelIdeal.sig Kind.scVector Space.vmem Cert.KernelIdeal.S200 EltTy.i32)
local notation "e0W" => (Memref.whole Cert.KernelIdeal.cc0_scratch2 : Memref Cert.KernelIdeal.sig Kind.scVector Space.vmem Cert.KernelIdeal.S200x128 EltTy.f32)
local notation "e1W" => (Memref.whole Cert.KernelIdeal.cc0_scratch3 : Memref Cert.KernelIdeal.sig Kind.scVector Space.vmem Cert.KernelIdeal.S200x128 EltTy.f32)
local notation "o0W" => (Memref.whole Cert.KernelIdeal.cc0_scratch4 : Memref Cert.KernelIdeal.sig Kind.scVector Space.vmem Cert.KernelIdeal.S25600 EltTy.f32)
local notation "o1W" => (Memref.whole Cert.KernelIdeal.cc0_scratch5 : Memref Cert.KernelIdeal.sig Kind.scVector Space.vmem Cert.KernelIdeal.S25600 EltTy.f32)

variable [FloatOps F]

set_option hygiene false in
/-- one indexed load: a load of the whole scratch, then the lanes picked -/
local macro "tr_load" : tactic => `(tactic| (
  rw [SparseCore.vectorLoadIdx_bind (c := thr1 d L)]
  sl_exec (disch := chk_disch)))
set_option hygiene false in
/-- one indexed store: a load and a store of the whole scratch; what the scratch then holds is kept as some contents -/
local macro "tr_store" : tactic => `(tactic| (
  rw [SparseCore.vectorStoreIdx_bind (c := thr1 d L)]
  sl_exec (disch := chk_disch)
  ihave Hog : (∃ fo2, (o1W).view.loc (thr1 d L) ↦{fullShare} fo2) $$ [Ho]
  · iexists _; iexact Ho
  icases Hog with ⟨%fo2, Ho⟩))

/-- the transposition keeps both scratches held: the gathered rows unchanged, the flat buffer at some contents -/
def tinv1 (O : CellTallies nD τ sig (HIx 1)) (W : Waits sig (HIx 1)) (fe : Buf (Elt F) ((e1W).view.loc (thr1 d L))) (_ : Nat) (_ : Unit) : sProp 𝕄 :=
  iprop(Transfers.MayWaits (thr1 d L) (none : HIx 1) O
    ∗ ((e1W).view.loc (thr1 d L) ↦{fullShare} fe)
    ∗ (∃ fo, (o1W).view.loc (thr1 d L) ↦{fullShare} fo)
    ∗ owes (thr1 d L) O W)

set_option sl_exec.dischHeartbeats 100000 in
set_option maxHeartbeats 4000000 in
theorem transpose1 (O : CellTallies nD τ sig (HIx 1)) (W : Waits sig (HIx 1))
    (fe : Buf (Elt F) ((e1W).view.loc (thr1 d L))) (fo : Buf (Elt F) ((o1W).view.loc (thr1 d L)))
    (v2 : BitVec 32) (v3 v21 v39 v57 v75 v93 v111 v129 v147 v165 v183 v201 v219 v237 v255 v273 v291 v294 v297 v300 v303 v306 v309 v312 v315 v318 v321 v324 v327 v330 v333 v336 v339 : IVec S16 32) (c0 c1 : BitVec 32) (k0_t1 : Fin k0_t1_loop.trips)
    (hv3 : ∀ x, (v3 x).toNat ≤ 15) (hv21 : ∀ x, (v21 x).toNat ≤ 15) (hv39 : ∀ x, (v39 x).toNat ≤ 15) (hv57 : ∀ x, (v57 x).toNat ≤ 15) (hv75 : ∀ x, (v75 x).toNat ≤ 15) (hv93 : ∀ x, (v93 x).toNat ≤ 15) (hv111 : ∀ x, (v111 x).toNat ≤ 15) (hv129 : ∀ x, (v129 x).toNat ≤ 15) (hv147 : ∀ x, (v147 x).toNat ≤ 15) (hv165 : ∀ x, (v165 x).toNat ≤ 15) (hv183 : ∀ x, (v183 x).toNat ≤ 15) (hv201 : ∀ x, (v201 x).toNat ≤ 15) (hv219 : ∀ x, (v219 x).toNat ≤ 15) (hv237 : ∀ x, (v237 x).toNat ≤ 15) (hv255 : ∀ x, (v255 x).toNat ≤ 15) (hv273 : ∀ x, (v273 x).toNat ≤ 15) (hv291 : ∀ x, (v291 x).toNat ≤ 15)
    (hv294 : ∀ x, (v294 x).toNat ≤ 3015) (hv297 : ∀ x, (v297 x).toNat ≤ 3015) (hv300 : ∀ x, (v300 x).toNat ≤ 3015) (hv303 : ∀ x, (v303 x).toNat ≤ 3015) (hv306 : ∀ x, (v306 x).toNat ≤ 3015) (hv309 : ∀ x, (v309 x).toNat ≤ 3015) (hv312 : ∀ x, (v312 x).toNat ≤ 3015) (hv315 : ∀ x, (v315 x).toNat ≤ 3015) (hv318 : ∀ x, (v318 x).toNat ≤ 3015) (hv321 : ∀ x, (v321 x).toNat ≤ 3015) (hv324 : ∀ x, (v324 x).toNat ≤ 3015) (hv327 : ∀ x, (v327 x).toNat ≤ 3015) (hv330 : ∀ x, (v330 x).toNat ≤ 3015) (hv333 : ∀ x, (v333 x).toNat ≤ 3015) (hv336 : ∀ x, (v336 x).toNat ≤ 3015) (hv339 : ∀ x, (v339 x).toNat ≤ 3015) :
    (iprop(Transfers.MayWaits (thr1 d L) (none : HIx 1) O
        ∗ ((e1W).view.loc (thr1 d L) ↦{fullShare} fe) ∗ ((o1W).view.loc (thr1 d L) ↦{fullShare} fo)
        ∗ owes (thr1 d L) O W) : sProp 𝕄)
      ⊢ wp frame (wpE (defs₀ (F := F)) 𝒱₀ (thr1 d L) none) Set.univ
          (Scf.Loop.for k0_t3_loop k0_t3_ok ⟨⟩ (k0_t3_body L xW (Memref.isWhole_whole _) tW (Memref.isWhole_whole _) oW (Memref.isWhole_whole _)
            i0W (Memref.isWhole_whole _) i1W (Memref.isWhole_whole _) e0W (Memref.isWhole_whole _) e1W (Memref.isWhole_whole _)
            o0W (Memref.isWhole_whole _) o1W (Memref.isWhole_whole _)
            cc0_scratch6 cc0_scratch7 cc0_scratch8 cc0_scratch9 cc0_scoped0 cc0_scoped1 cc0_scoped2 cc0_scoped3
            v2 v3 v21 v39 v57 v75 v93 v111 v129 v147 v165 v183 v201 v219 v237 v255 v273 v291 v294 v297 v300 v303 v306 v309 v312 v315 v318 v321 v324 v327 v330 v333 v336 v339 c0 c1 k0_t1))
          fun _ => iprop(((e1W).view.loc (thr1 d L) ↦{fullShare} fe) ∗ (∃ fo', (o1W).view.loc (thr1 d L) ↦{fullShare} fo')
            ∗ owes (thr1 d L) O W) := by
  iintro ⟨Hmw, He, Ho, HO⟩
  sl_for (tinv1 d L O W fe) $$ [Hmw He Ho HO]
  case region =>
    intro k _
    unfold tinv1
    iintro ⟨Hmw, He, ⟨%fo', Ho⟩, HO⟩
    sl_exec (disch := chk_disch)
    have hrows : ∀ x, ((transpose1.sl.v388 v3 k) x).toNat < 200 :=
      add_bc_lt (A := 15) (B := 184) hv3 (by decide +revert) (by decide) (by decide)
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    sl_step
    isplitl [Hmw]; · iexact Hmw
    isplitl [He]; · iexact He
    isplitl [Ho]; · iexists _; iexact Ho
    iexact HO
  unfold tinv1
  isplitl [Hmw He Ho HO]
  · isplitl [Hmw]; · iexact Hmw
    isplitl [He]; · iexact He
    isplitl [Ho]; · iexists _; iexact Ho
    iexact HO
  iintro %_ HI
  icases HI with ⟨-, He, Ho, HO⟩
  isplitl [He]; · iexact He
  isplitl [Ho]; · iexact Ho
  iexact HO

end Cert.Proof.KI

end
-- ==== Proof.TileTripI.lean ====
import proofs.«206347_g23639499997337_cont_sun_m_514_14_alg».proof.Proof.TileInvI
import proofs.«206347_g23639499997337_cont_sun_m_514_14_alg».proof.Proof.InnerI0
import proofs.«206347_g23639499997337_cont_sun_m_514_14_alg».proof.Proof.InnerI1

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (d : Dev nD) (L : grid0.Coords)

local notation "xW" => (Memref.whole Cert.KernelIdeal.main_arg0_scv : Memref Cert.KernelIdeal.sig Kind.scVector Space.hbm Cert.KernelIdeal.S4096x200 EltTy.i32)
local notation "tW" => (Memref.whole Cert.KernelIdeal.main_arg1_scv : Memref Cert.KernelIdeal.sig Kind.scVector Space.hbm Cert.KernelIdeal.S100000x128 EltTy.f32)
local notation "oW" => (Memref.whole Cert.KernelIdeal.main_v0_scv : Memref Cert.KernelIdeal.sig Kind.scVector Space.hbm Cert.KernelIdeal.S4096x25600 EltTy.f32)
local notation "i0W" => (Memref.whole Cert.KernelIdeal.cc0_scratch0 : Memref Cert.KernelIdeal.sig Kind.scVector Space.vmem Cert.KernelIdeal.S200 EltTy.i32)
local notation "i1W" => (Memref.whole Cert.KernelIdeal.cc0_scratch1 : Memref Cert.KernelIdeal.sig Kind.scVector Space.vmem Cert.KernelIdeal.S200 EltTy.i32)
local notation "e0W" => (Memref.whole Cert.KernelIdeal.cc0_scratch2 : Memref Cert.KernelIdeal.sig Kind.scVector Space.vmem Cert.KernelIdeal.S200x128 EltTy.f32)
local notation "e1W" => (Memref.whole Cert.KernelIdeal.cc0_scratch3 : Memref Cert.KernelIdeal.sig Kind.scVector Space.vmem Cert.KernelIdeal.S200x128 EltTy.f32)
local notation "o0W" => (Memref.whole Cert.KernelIdeal.cc0_scratch4 : Memref Cert.KernelIdeal.sig Kind.scVector Space.vmem Cert.KernelIdeal.S25600 EltTy.f32)
local notation "o1W" => (Memref.whole Cert.KernelIdeal.cc0_scratch5 : Memref Cert.KernelIdeal.sig Kind.scVector Space.vmem Cert.KernelIdeal.S25600 EltTy.f32)

variable (qx q0 q1 : PosShare TreeShare) (O : CellTallies nD τ sig (HIx 1)) (W : Waits sig (HIx 1))

/-- a token row fetched into index scratch 0 names rows of the table: reading back what the copy wrote gives tokens, and every token is in range -/
theorem hin_row0 (hpre : PreOK m) (off : Fin 2 → Nat) (inb : ∀ a, off a + S1x200.size a ≤ S4096x200.size a)
    (fi : Buf (Elt F) ((i0W).view.loc (thr d L))) :
    ∀ j, ((i0W).view.read (Elt F) (View.write (Elt F) (i0W).view fi
        (ReadAs.same.apply (View.read (Elt F) (((xW).slice (Rect.unit (s := S4096x200) off S1x200.size inb) (fun _ => rfl)).squeeze S200 squeezes_S1x200_S200).view (m (xLoc d))))
        Finset.univ) j).toNat < S100000x128.size gathers_S100000x128_S200x128.axis := by
  intro j
  rw [View.read_write_univ]
  exact hpre d _

/-- a token row fetched into index scratch 1 names rows of the table: reading back what the copy wrote gives tokens, and every token is in range -/
theorem hin_row1 (hpre : PreOK m) (off : Fin 2 → Nat) (inb : ∀ a, off a + S1x200.size a ≤ S4096x200.size a)
    (fi : Buf (Elt F) ((i1W).view.loc (thr d L))) :
    ∀ j, ((i1W).view.read (Elt F) (View.write (Elt F) (i1W).view fi
        (ReadAs.same.apply (View.read (Elt F) (((xW).slice (Rect.unit (s := S4096x200) off S1x200.size inb) (fun _ => rfl)).squeeze S200 squeezes_S1x200_S200).view (m (xLoc d))))
        Finset.univ) j).toNat < S100000x128.size gathers_S100000x128_S200x128.axis := by
  intro j
  rw [View.read_write_univ]
  exact hpre d _

/-- a wait on one of the tile's own semaphores, recorded: it is at index none -/
theorem waits_insert {W' : Waits sig (HIx 1)} (h : ∀ p ∈ W', p ∈ W ∨ p.2 = none) (sm : SemLoc sig) :
    ∀ p ∈ insert (sm, (default : HIx 1)) W', p ∈ W ∨ p.2 = none := by
  intro p hp
  rcases Finset.mem_insert.mp hp with h' | h'
  · exact .inr (h' ▸ rfl)
  · exact h p h'

variable [FloatOps F]

set_option maxHeartbeats 4000000 in
theorem tripA (hpre : PreOK m) (k : Fin k0_t1_loop.trips) (hk0 : k.val = 0) (hks : k.val + 1 < 64)
    (v2 : BitVec 32) (v3 v21 v39 v57 v75 v93 v111 v129 v147 v165 v183 v201 v219 v237 v255 v273 v291 v294 v297 v300 v303 v306 v309 v312 v315 v318 v321 v324 v327 v330 v333 v336 v339 : IVec S16 32) (hv3 : ∀ x, (v3 x).toNat ≤ 15) (hv21 : ∀ x, (v21 x).toNat ≤ 15) (hv39 : ∀ x, (v39 x).toNat ≤ 15) (hv57 : ∀ x, (v57 x).toNat ≤ 15) (hv75 : ∀ x, (v75 x).toNat ≤ 15) (hv93 : ∀ x, (v93 x).toNat ≤ 15) (hv111 : ∀ x, (v111 x).toNat ≤ 15) (hv129 : ∀ x, (v129 x).toNat ≤ 15) (hv147 : ∀ x, (v147 x).toNat ≤ 15) (hv165 : ∀ x, (v165 x).toNat ≤ 15) (hv183 : ∀ x, (v183 x).toNat ≤ 15) (hv201 : ∀ x, (v201 x).toNat ≤ 15) (hv219 : ∀ x, (v219 x).toNat ≤ 15) (hv237 : ∀ x, (v237 x).toNat ≤ 15) (hv255 : ∀ x, (v255 x).toNat ≤ 15) (hv273 : ∀ x, (v273 x).toNat ≤ 15) (hv291 : ∀ x, (v291 x).toNat ≤ 15) (hv294 : ∀ x, (v294 x).toNat ≤ 3015) (hv297 : ∀ x, (v297 x).toNat ≤ 3015) (hv300 : ∀ x, (v300 x).toNat ≤ 3015) (hv303 : ∀ x, (v303 x).toNat ≤ 3015) (hv306 : ∀ x, (v306 x).toNat ≤ 3015) (hv309 : ∀ x, (v309 x).toNat ≤ 3015) (hv312 : ∀ x, (v312 x).toNat ≤ 3015) (hv315 : ∀ x, (v315 x).toNat ≤ 3015) (hv318 : ∀ x, (v318 x).toNat ≤ 3015) (hv321 : ∀ x, (v321 x).toNat ≤ 3015) (hv324 : ∀ x, (v324 x).toNat ≤ 3015) (hv327 : ∀ x, (v327 x).toNat ≤ 3015) (hv330 : ∀ x, (v330 x).toNat ≤ 3015) (hv333 : ∀ x, (v333 x).toNat ≤ 3015) (hv336 : ∀ x, (v336 x).toNat ≤ 3015) (hv339 : ∀ x, (v339 x).toNat ≤ 3015) :
    (iprop(Transfers.MayWaits (thr d L) (none : HIx 1) O
        ∗ ((xW).view.loc (thr d L) ↦{qx} m (xLoc d))
        ∗ gathFl0 m d L q0 ∗ gathFl1 m d L q1
        ∗ outNone0 (F := F) d L ∗ outNone1 (F := F) d L
        ∗ rowIn0 m d L k ∗ rowIn1 m d L k
        ∗ semVal (thr d L, SemLoc.dma cc0_scoped2.sem) 0 ∗ semVal (thr d L, SemLoc.dma cc0_scoped3.sem) 0
        ∗ owesEx (F := F) d L O W) : sProp 𝕄)
      ⊢ wp frame (wpE (defs₀ (F := F)) 𝒱₀ (thr d L) none) Set.univ
          (k0_t1_body L xW (Memref.isWhole_whole _) tW (Memref.isWhole_whole _) oW (Memref.isWhole_whole _)
            i0W (Memref.isWhole_whole _) i1W (Memref.isWhole_whole _) e0W (Memref.isWhole_whole _) e1W (Memref.isWhole_whole _)
            o0W (Memref.isWhole_whole _) o1W (Memref.isWhole_whole _)
            cc0_scratch6 cc0_scratch7 cc0_scratch8 cc0_scratch9 cc0_scoped0 cc0_scoped1 cc0_scoped2 cc0_scoped3
            v2 v3 v21 v39 v57 v75 v93 v111 v129 v147 v165 v183 v201 v219 v237 v255 v273 v291 v294 v297 v300 v303 v306 v309 v312 v315 v318 v321 v324 v327 v330 v333 v336 v339 k ⟨⟩)
          fun _ => iprop(Transfers.MayWaits (thr d L) (none : HIx 1) O
        ∗ ((xW).view.loc (thr d L) ↦{qx} m (xLoc d))
        ∗ gathFl0 m d L q0 ∗ gathFl1 m d L q1
        ∗ outFl0 (F := F) d L k ∗ outFl1 (F := F) d L k

        ∗ semVal (thr d L, SemLoc.dma cc0_scoped2.sem) 0 ∗ semVal (thr d L, SemLoc.dma cc0_scoped3.sem) 0
        ∗ owesEx (F := F) d L O W) := by
  have hn1 : ¬ k0_cond1 k = 1#1 := by rw [cond1_iff]; omega
  have hn3 : ¬ k0_cond3 k = 1#1 := by rw [cond3_iff]; omega
  have k0_h2 : k0_cond2 k = 1#1 := (cond2_iff k).2 hks
  have k0_h4 : k0_cond4 k = 1#1 := (cond4_iff k).2 hks
  unfold k0_t1_body gathFl0 gathFl1 outFl0 outFl1 outNone0 outNone1 rowIn0 rowIn1 owesEx
  iintro ⟨#Hmw, Hx, ⟨%fe0, %fi0, Ht0, F0⟩, ⟨%fe1, %fi1, Ht1, F1⟩, ⟨Hs8, %fo0, Ho0⟩, ⟨Hs9, %fo1, Ho1⟩, Hr0, Hr1, Hc2, Hc3, %W', %hW', HO⟩
  sl_exec
  rw [wp_bind]
  iapply (wp_wand_r frame _ Set.univ)
  isplitl [F0_dst Ho0 HO]
  · iapply (transpose0 d L O _ fe0 fo0 v2 v3 v21 v39 v57 v75 v93 v111 v129 v147 v165 v183 v201 v219 v237 v255 v273 v291 v294 v297 v300 v303 v306 v309 v312 v315 v318 v321 v324 v327 v330 v333 v336 v339 (0#32) (1#32) k hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339)
    isplitr; · iexact Hmw
    isplitl [F0_dst]; · iexact F0_dst
    isplitl [Ho0]; · iexact Ho0
    iexact HO
  iintro %_ ⟨He0, ⟨%fo0', Ho0⟩, HO⟩
  sl_exec
  have hin0 := hin_row0 m d L hpre (k0_off4 L k) (k0_off4_inb L k k0_h2) fi0
  sl_exec
  rw [wp_bind]
  iapply (wp_wand_r frame _ Set.univ)
  isplitl [F1_dst Ho1 HO]
  · iapply (transpose1 d L O _ fe1 fo1 v2 v3 v21 v39 v57 v75 v93 v111 v129 v147 v165 v183 v201 v219 v237 v255 v273 v291 v294 v297 v300 v303 v306 v309 v312 v315 v318 v321 v324 v327 v330 v333 v336 v339 (0#32) (1#32) k hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339)
    isplitr; · iexact Hmw
    isplitl [F1_dst]; · iexact F1_dst
    isplitl [Ho1]; · iexact Ho1
    iexact HO
  iintro %_ ⟨He1, ⟨%fo1', Ho1⟩, HO⟩
  sl_exec
  have hin1 := hin_row1 m d L hpre (k0_off6 L k) (k0_off6_inb L k k0_h4) fi1
  sl_exec

  sl_step
  isplitr; · iexact Hmw
  isplitl [Hx]; · iexact Hx
  isplitl [Ht0 F0]
  · iexists _, _; isplitl [Ht0]; · iexact Ht0
    iexact F0
  isplitl [Ht1 F1]
  · iexists _, _; isplitl [Ht1]; · iexact Ht1
    iexact F1
  isplitl [Ho0 Hs8]
  · iexists _, _; isplitl [Ho0]; · iexact Ho0
    iexact Hs8
  isplitl [Ho1 Hs9]
  · iexists _, _; isplitl [Ho1]; · iexact Ho1
    iexact Hs9
  isplitl [Hc2]; · iexact Hc2
  isplitl [Hc3]; · iexact Hc3
  iexists _; isplitr
  rotate_left
  · iexact HO
  · ipureintro; repeat (first | exact hW' | apply waits_insert)

set_option maxHeartbeats 4000000 in
theorem tripB (hpre : PreOK m) (k : Fin k0_t1_loop.trips) (k' : Fin k0_t1_loop.trips) (hk' : k'.val + 1 = k.val) (hks : k.val + 1 < 64)
    (v2 : BitVec 32) (v3 v21 v39 v57 v75 v93 v111 v129 v147 v165 v183 v201 v219 v237 v255 v273 v291 v294 v297 v300 v303 v306 v309 v312 v315 v318 v321 v324 v327 v330 v333 v336 v339 : IVec S16 32) (hv3 : ∀ x, (v3 x).toNat ≤ 15) (hv21 : ∀ x, (v21 x).toNat ≤ 15) (hv39 : ∀ x, (v39 x).toNat ≤ 15) (hv57 : ∀ x, (v57 x).toNat ≤ 15) (hv75 : ∀ x, (v75 x).toNat ≤ 15) (hv93 : ∀ x, (v93 x).toNat ≤ 15) (hv111 : ∀ x, (v111 x).toNat ≤ 15) (hv129 : ∀ x, (v129 x).toNat ≤ 15) (hv147 : ∀ x, (v147 x).toNat ≤ 15) (hv165 : ∀ x, (v165 x).toNat ≤ 15) (hv183 : ∀ x, (v183 x).toNat ≤ 15) (hv201 : ∀ x, (v201 x).toNat ≤ 15) (hv219 : ∀ x, (v219 x).toNat ≤ 15) (hv237 : ∀ x, (v237 x).toNat ≤ 15) (hv255 : ∀ x, (v255 x).toNat ≤ 15) (hv273 : ∀ x, (v273 x).toNat ≤ 15) (hv291 : ∀ x, (v291 x).toNat ≤ 15) (hv294 : ∀ x, (v294 x).toNat ≤ 3015) (hv297 : ∀ x, (v297 x).toNat ≤ 3015) (hv300 : ∀ x, (v300 x).toNat ≤ 3015) (hv303 : ∀ x, (v303 x).toNat ≤ 3015) (hv306 : ∀ x, (v306 x).toNat ≤ 3015) (hv309 : ∀ x, (v309 x).toNat ≤ 3015) (hv312 : ∀ x, (v312 x).toNat ≤ 3015) (hv315 : ∀ x, (v315 x).toNat ≤ 3015) (hv318 : ∀ x, (v318 x).toNat ≤ 3015) (hv321 : ∀ x, (v321 x).toNat ≤ 3015) (hv324 : ∀ x, (v324 x).toNat ≤ 3015) (hv327 : ∀ x, (v327 x).toNat ≤ 3015) (hv330 : ∀ x, (v330 x).toNat ≤ 3015) (hv333 : ∀ x, (v333 x).toNat ≤ 3015) (hv336 : ∀ x, (v336 x).toNat ≤ 3015) (hv339 : ∀ x, (v339 x).toNat ≤ 3015) :
    (iprop(Transfers.MayWaits (thr d L) (none : HIx 1) O
        ∗ ((xW).view.loc (thr d L) ↦{qx} m (xLoc d))
        ∗ gathFl0 m d L q0 ∗ gathFl1 m d L q1
        ∗ outFl0 (F := F) d L k' ∗ outFl1 (F := F) d L k'
        ∗ rowIn0 m d L k ∗ rowIn1 m d L k
        ∗ semVal (thr d L, SemLoc.dma cc0_scoped2.sem) 0 ∗ semVal (thr d L, SemLoc.dma cc0_scoped3.sem) 0
        ∗ owesEx (F := F) d L O W) : sProp 𝕄)
      ⊢ wp frame (wpE (defs₀ (F := F)) 𝒱₀ (thr d L) none) Set.univ
          (k0_t1_body L xW (Memref.isWhole_whole _) tW (Memref.isWhole_whole _) oW (Memref.isWhole_whole _)
            i0W (Memref.isWhole_whole _) i1W (Memref.isWhole_whole _) e0W (Memref.isWhole_whole _) e1W (Memref.isWhole_whole _)
            o0W (Memref.isWhole_whole _) o1W (Memref.isWhole_whole _)
            cc0_scratch6 cc0_scratch7 cc0_scratch8 cc0_scratch9 cc0_scoped0 cc0_scoped1 cc0_scoped2 cc0_scoped3
            v2 v3 v21 v39 v57 v75 v93 v111 v129 v147 v165 v183 v201 v219 v237 v255 v273 v291 v294 v297 v300 v303 v306 v309 v312 v315 v318 v321 v324 v327 v330 v333 v336 v339 k ⟨⟩)
          fun _ => iprop(Transfers.MayWaits (thr d L) (none : HIx 1) O
        ∗ ((xW).view.loc (thr d L) ↦{qx} m (xLoc d))
        ∗ gathFl0 m d L q0 ∗ gathFl1 m d L q1
        ∗ outFl0 (F := F) d L k ∗ outFl1 (F := F) d L k
        ∗ rowFin0 (F := F) d L k' ∗ rowFin1 (F := F) d L k'
        ∗ semVal (thr d L, SemLoc.dma cc0_scoped2.sem) 0 ∗ semVal (thr d L, SemLoc.dma cc0_scoped3.sem) 0
        ∗ owesEx (F := F) d L O W) := by
  have k0_h1 : k0_cond1 k = 1#1 := (cond1_iff k).2 (by omega)
  have k0_h3 : k0_cond3 k = 1#1 := (cond3_iff k).2 (by omega)
  have k0_h2 : k0_cond2 k = 1#1 := (cond2_iff k).2 hks
  have k0_h4 : k0_cond4 k = 1#1 := (cond4_iff k).2 hks
  unfold k0_t1_body gathFl0 gathFl1 outFl0 outFl1 rowIn0 rowIn1 owesEx
  iintro ⟨#Hmw, Hx, ⟨%fe0, %fi0, Ht0, F0⟩, ⟨%fe1, %fi1, Ht1, F1⟩, ⟨%g0, %fo0, Ho0, FO0⟩, ⟨%g1, %fo1, Ho1, FO1⟩, Hr0, Hr1, Hc2, Hc3, %W', %hW', HO⟩
  sl_exec
  rw [wp_bind]
  iapply (wp_wand_r frame _ Set.univ)
  isplitl [F0_dst Ho0 HO]
  · iapply (transpose0 d L O _ fe0 fo0 v2 v3 v21 v39 v57 v75 v93 v111 v129 v147 v165 v183 v201 v219 v237 v255 v273 v291 v294 v297 v300 v303 v306 v309 v312 v315 v318 v321 v324 v327 v330 v333 v336 v339 (0#32) (1#32) k hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339)
    isplitr; · iexact Hmw
    isplitl [F0_dst]; · iexact F0_dst
    isplitl [Ho0]; · iexact Ho0
    iexact HO
  iintro %_ ⟨He0, ⟨%fo0', Ho0⟩, HO⟩
  sl_exec
  have hin0 := hin_row0 m d L hpre (k0_off4 L k) (k0_off4_inb L k k0_h2) fi0
  sl_exec
  rw [wp_bind]
  iapply (wp_wand_r frame _ Set.univ)
  isplitl [F1_dst Ho1 HO]
  · iapply (transpose1 d L O _ fe1 fo1 v2 v3 v21 v39 v57 v75 v93 v111 v129 v147 v165 v183 v201 v219 v237 v255 v273 v291 v294 v297 v300 v303 v306 v309 v312 v315 v318 v321 v324 v327 v330 v333 v336 v339 (0#32) (1#32) k hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339)
    isplitr; · iexact Hmw
    isplitl [F1_dst]; · iexact F1_dst
    isplitl [Ho1]; · iexact Ho1
    iexact HO
  iintro %_ ⟨He1, ⟨%fo1', Ho1⟩, HO⟩
  sl_exec
  have hin1 := hin_row1 m d L hpre (k0_off6 L k) (k0_off6_inb L k k0_h4) fi1
  sl_exec

  sl_step
  unfold rowFin0 rowFin1
  isplitr; · iexact Hmw
  isplitl [Hx]; · iexact Hx
  isplitl [Ht0 F0]
  · iexists _, _; isplitl [Ht0]; · iexact Ht0
    iexact F0
  isplitl [Ht1 F1]
  · iexists _, _; isplitl [Ht1]; · iexact Ht1
    iexact F1
  isplitl [Ho0 FO0]
  · iexists _, _; isplitl [Ho0]; · iexact Ho0
    iexact FO0
  isplitl [Ho1 FO1]
  · iexists _, _; isplitl [Ho1]; · iexact Ho1
    iexact FO1
  isplitl [FO0_dst]; · iexists _; iexact FO0_dst
  isplitl [FO1_dst]; · iexists _; iexact FO1_dst
  isplitl [Hc2]; · iexact Hc2
  isplitl [Hc3]; · iexact Hc3
  iexists _; isplitr
  rotate_left
  · iexact HO
  · ipureintro; repeat (first | exact hW' | apply waits_insert)

set_option maxHeartbeats 4000000 in
theorem tripC (hpre : PreOK m) (k : Fin k0_t1_loop.trips) (k' : Fin k0_t1_loop.trips) (hk' : k'.val + 1 = k.val) (hks : ¬ k.val + 1 < 64)
    (v2 : BitVec 32) (v3 v21 v39 v57 v75 v93 v111 v129 v147 v165 v183 v201 v219 v237 v255 v273 v291 v294 v297 v300 v303 v306 v309 v312 v315 v318 v321 v324 v327 v330 v333 v336 v339 : IVec S16 32) (hv3 : ∀ x, (v3 x).toNat ≤ 15) (hv21 : ∀ x, (v21 x).toNat ≤ 15) (hv39 : ∀ x, (v39 x).toNat ≤ 15) (hv57 : ∀ x, (v57 x).toNat ≤ 15) (hv75 : ∀ x, (v75 x).toNat ≤ 15) (hv93 : ∀ x, (v93 x).toNat ≤ 15) (hv111 : ∀ x, (v111 x).toNat ≤ 15) (hv129 : ∀ x, (v129 x).toNat ≤ 15) (hv147 : ∀ x, (v147 x).toNat ≤ 15) (hv165 : ∀ x, (v165 x).toNat ≤ 15) (hv183 : ∀ x, (v183 x).toNat ≤ 15) (hv201 : ∀ x, (v201 x).toNat ≤ 15) (hv219 : ∀ x, (v219 x).toNat ≤ 15) (hv237 : ∀ x, (v237 x).toNat ≤ 15) (hv255 : ∀ x, (v255 x).toNat ≤ 15) (hv273 : ∀ x, (v273 x).toNat ≤ 15) (hv291 : ∀ x, (v291 x).toNat ≤ 15) (hv294 : ∀ x, (v294 x).toNat ≤ 3015) (hv297 : ∀ x, (v297 x).toNat ≤ 3015) (hv300 : ∀ x, (v300 x).toNat ≤ 3015) (hv303 : ∀ x, (v303 x).toNat ≤ 3015) (hv306 : ∀ x, (v306 x).toNat ≤ 3015) (hv309 : ∀ x, (v309 x).toNat ≤ 3015) (hv312 : ∀ x, (v312 x).toNat ≤ 3015) (hv315 : ∀ x, (v315 x).toNat ≤ 3015) (hv318 : ∀ x, (v318 x).toNat ≤ 3015) (hv321 : ∀ x, (v321 x).toNat ≤ 3015) (hv324 : ∀ x, (v324 x).toNat ≤ 3015) (hv327 : ∀ x, (v327 x).toNat ≤ 3015) (hv330 : ∀ x, (v330 x).toNat ≤ 3015) (hv333 : ∀ x, (v333 x).toNat ≤ 3015) (hv336 : ∀ x, (v336 x).toNat ≤ 3015) (hv339 : ∀ x, (v339 x).toNat ≤ 3015) :
    (iprop(Transfers.MayWaits (thr d L) (none : HIx 1) O
        ∗ ((xW).view.loc (thr d L) ↦{qx} m (xLoc d))
        ∗ gathFl0 m d L q0 ∗ gathFl1 m d L q1
        ∗ outFl0 (F := F) d L k' ∗ outFl1 (F := F) d L k'
        ∗ rowIn0 m d L k ∗ rowIn1 m d L k
        ∗ semVal (thr d L, SemLoc.dma cc0_scoped2.sem) 0 ∗ semVal (thr d L, SemLoc.dma cc0_scoped3.sem) 0
        ∗ owesEx (F := F) d L O W) : sProp 𝕄)
      ⊢ wp frame (wpE (defs₀ (F := F)) 𝒱₀ (thr d L) none) Set.univ
          (k0_t1_body L xW (Memref.isWhole_whole _) tW (Memref.isWhole_whole _) oW (Memref.isWhole_whole _)
            i0W (Memref.isWhole_whole _) i1W (Memref.isWhole_whole _) e0W (Memref.isWhole_whole _) e1W (Memref.isWhole_whole _)
            o0W (Memref.isWhole_whole _) o1W (Memref.isWhole_whole _)
            cc0_scratch6 cc0_scratch7 cc0_scratch8 cc0_scratch9 cc0_scoped0 cc0_scoped1 cc0_scoped2 cc0_scoped3
            v2 v3 v21 v39 v57 v75 v93 v111 v129 v147 v165 v183 v201 v219 v237 v255 v273 v291 v294 v297 v300 v303 v306 v309 v312 v315 v318 v321 v324 v327 v330 v333 v336 v339 k ⟨⟩)
          fun _ => iprop(Transfers.MayWaits (thr d L) (none : HIx 1) O
        ∗ ((xW).view.loc (thr d L) ↦{qx} m (xLoc d))
        ∗ gathRest0 m d L q0 ∗ gathRest1 m d L q1
        ∗ outFl0 (F := F) d L k ∗ outFl1 (F := F) d L k
        ∗ rowFin0 (F := F) d L k' ∗ rowFin1 (F := F) d L k'
        ∗ semVal (thr d L, SemLoc.dma cc0_scoped2.sem) 0 ∗ semVal (thr d L, SemLoc.dma cc0_scoped3.sem) 0
        ∗ owesEx (F := F) d L O W) := by
  have k0_h1 : k0_cond1 k = 1#1 := (cond1_iff k).2 (by omega)
  have k0_h3 : k0_cond3 k = 1#1 := (cond3_iff k).2 (by omega)
  have hn2 : ¬ k0_cond2 k = 1#1 := by rw [cond2_iff]; exact hks
  have hn4 : ¬ k0_cond4 k = 1#1 := by rw [cond4_iff]; exact hks
  unfold k0_t1_body gathFl0 gathFl1 gathRest0 gathRest1 outFl0 outFl1 rowIn0 rowIn1 owesEx
  iintro ⟨#Hmw, Hx, ⟨%fe0, %fi0, Ht0, F0⟩, ⟨%fe1, %fi1, Ht1, F1⟩, ⟨%g0, %fo0, Ho0, FO0⟩, ⟨%g1, %fo1, Ho1, FO1⟩, Hr0, Hr1, Hc2, Hc3, %W', %hW', HO⟩
  sl_exec
  rw [wp_bind]
  iapply (wp_wand_r frame _ Set.univ)
  isplitl [F0_dst Ho0 HO]
  · iapply (transpose0 d L O _ fe0 fo0 v2 v3 v21 v39 v57 v75 v93 v111 v129 v147 v165 v183 v201 v219 v237 v255 v273 v291 v294 v297 v300 v303 v306 v309 v312 v315 v318 v321 v324 v327 v330 v333 v336 v339 (0#32) (1#32) k hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339)
    isplitr; · iexact Hmw
    isplitl [F0_dst]; · iexact F0_dst
    isplitl [Ho0]; · iexact Ho0
    iexact HO
  iintro %_ ⟨He0, ⟨%fo0', Ho0⟩, HO⟩
  sl_exec
  rw [wp_bind]
  iapply (wp_wand_r frame _ Set.univ)
  isplitl [F1_dst Ho1 HO]
  · iapply (transpose1 d L O _ fe1 fo1 v2 v3 v21 v39 v57 v75 v93 v111 v129 v147 v165 v183 v201 v219 v237 v255 v273 v291 v294 v297 v300 v303 v306 v309 v312 v315 v318 v321 v324 v327 v330 v333 v336 v339 (0#32) (1#32) k hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339)
    isplitr; · iexact Hmw
    isplitl [F1_dst]; · iexact F1_dst
    isplitl [Ho1]; · iexact Ho1
    iexact HO
  iintro %_ ⟨He1, ⟨%fo1', Ho1⟩, HO⟩
  sl_exec

  sl_step
  unfold rowFin0 rowFin1
  isplitr; · iexact Hmw
  isplitl [Hx]; · iexact Hx
  isplitl [Ht0 F0 He0 F0_dst_and]
  · isplitl [Ht0]; · iexact Ht0
    isplitl [F0]; · iexact F0
    isplitl [He0]; · iexists _; iexact He0
    iexists _; iexact F0_dst_and
  isplitl [Ht1 F1 He1 F1_dst_and]
  · isplitl [Ht1]; · iexact Ht1
    isplitl [F1]; · iexact F1
    isplitl [He1]; · iexists _; iexact He1
    iexists _; iexact F1_dst_and
  isplitl [Ho0 FO0]
  · iexists _, _; isplitl [Ho0]; · iexact Ho0
    iexact FO0
  isplitl [Ho1 FO1]
  · iexists _, _; isplitl [Ho1]; · iexact Ho1
    iexact FO1
  isplitl [FO0_dst]; · iexists _; iexact FO0_dst
  isplitl [FO1_dst]; · iexists _; iexact FO1_dst
  isplitl [Hc2]; · iexact Hc2
  isplitl [Hc3]; · iexact Hc3
  iexists _; isplitr
  rotate_left
  · iexact HO
  · ipureintro; repeat (first | exact hW' | apply waits_insert)

end Cert.Proof.KI

end
-- ==== Proof.TileLoopI.lean ====
import proofs.«206347_g23639499997337_cont_sun_m_514_14_alg».proof.Proof.TileTripI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (d : Dev nD) (L : grid0.Coords)

local notation "xW" => (Memref.whole Cert.KernelIdeal.main_arg0_scv : Memref Cert.KernelIdeal.sig Kind.scVector Space.hbm Cert.KernelIdeal.S4096x200 EltTy.i32)
local notation "tW" => (Memref.whole Cert.KernelIdeal.main_arg1_scv : Memref Cert.KernelIdeal.sig Kind.scVector Space.hbm Cert.KernelIdeal.S100000x128 EltTy.f32)
local notation "oW" => (Memref.whole Cert.KernelIdeal.main_v0_scv : Memref Cert.KernelIdeal.sig Kind.scVector Space.hbm Cert.KernelIdeal.S4096x25600 EltTy.f32)
local notation "i0W" => (Memref.whole Cert.KernelIdeal.cc0_scratch0 : Memref Cert.KernelIdeal.sig Kind.scVector Space.vmem Cert.KernelIdeal.S200 EltTy.i32)
local notation "i1W" => (Memref.whole Cert.KernelIdeal.cc0_scratch1 : Memref Cert.KernelIdeal.sig Kind.scVector Space.vmem Cert.KernelIdeal.S200 EltTy.i32)
local notation "e0W" => (Memref.whole Cert.KernelIdeal.cc0_scratch2 : Memref Cert.KernelIdeal.sig Kind.scVector Space.vmem Cert.KernelIdeal.S200x128 EltTy.f32)
local notation "e1W" => (Memref.whole Cert.KernelIdeal.cc0_scratch3 : Memref Cert.KernelIdeal.sig Kind.scVector Space.vmem Cert.KernelIdeal.S200x128 EltTy.f32)
local notation "o0W" => (Memref.whole Cert.KernelIdeal.cc0_scratch4 : Memref Cert.KernelIdeal.sig Kind.scVector Space.vmem Cert.KernelIdeal.S25600 EltTy.f32)
local notation "o1W" => (Memref.whole Cert.KernelIdeal.cc0_scratch5 : Memref Cert.KernelIdeal.sig Kind.scVector Space.vmem Cert.KernelIdeal.S25600 EltTy.f32)

variable (qx q0 q1 : PosShare TreeShare) (O : CellTallies nD τ sig (HIx 1)) (W : Waits sig (HIx 1))

/-! ## Moving one trip's rows -/

theorem rowsTodo_succ (k : Fin k0_t1_loop.trips) :
    rowsTodo m d L k.val = iprop((rowIn0 m d L k ∗ rowIn1 m d L k) ∗ rowsTodo m d L (k.val + 1)) := by
  unfold rowsTodo
  rw [filter_le_succ k, SparseCore.bigSep_insert' (not_mem_filter_succ k)]

theorem rowsDone_succ (k' : Fin k0_t1_loop.trips) :
    rowsDone (F := F) d L (k'.val + 2)
      = iprop((rowFin0 (F := F) d L k' ∗ rowFin1 (F := F) d L k') ∗ rowsDone (F := F) d L (k'.val + 1)) := by
  unfold rowsDone
  rw [filter_lt_succ k', SparseCore.bigSep_insert' (not_mem_filter_lt k')]

theorem rowsDone_one : rowsDone (F := F) d L 1 = rowsDone (F := F) d L 0 := by
  unfold rowsDone
  rw [show (Finset.univ.filter fun t : Fin k0_t1_loop.trips => t.val + 1 < 1) = (Finset.univ.filter fun t : Fin k0_t1_loop.trips => t.val + 1 < 0) from by
    ext t; simp]

variable [FloatOps F]

/-! ## One pair-trip keeps the invariant -/

set_option maxHeartbeats 2000000 in
theorem pair_trip (hpre : PreOK m) (k : Fin k0_t1_loop.trips) (acc : Unit)
    (v2 : BitVec 32) (v3 v21 v39 v57 v75 v93 v111 v129 v147 v165 v183 v201 v219 v237 v255 v273 v291 v294 v297 v300 v303 v306 v309 v312 v315 v318 v321 v324 v327 v330 v333 v336 v339 : IVec S16 32) (hv3 : ∀ x, (v3 x).toNat ≤ 15) (hv21 : ∀ x, (v21 x).toNat ≤ 15) (hv39 : ∀ x, (v39 x).toNat ≤ 15) (hv57 : ∀ x, (v57 x).toNat ≤ 15) (hv75 : ∀ x, (v75 x).toNat ≤ 15) (hv93 : ∀ x, (v93 x).toNat ≤ 15) (hv111 : ∀ x, (v111 x).toNat ≤ 15) (hv129 : ∀ x, (v129 x).toNat ≤ 15) (hv147 : ∀ x, (v147 x).toNat ≤ 15) (hv165 : ∀ x, (v165 x).toNat ≤ 15) (hv183 : ∀ x, (v183 x).toNat ≤ 15) (hv201 : ∀ x, (v201 x).toNat ≤ 15) (hv219 : ∀ x, (v219 x).toNat ≤ 15) (hv237 : ∀ x, (v237 x).toNat ≤ 15) (hv255 : ∀ x, (v255 x).toNat ≤ 15) (hv273 : ∀ x, (v273 x).toNat ≤ 15) (hv291 : ∀ x, (v291 x).toNat ≤ 15) (hv294 : ∀ x, (v294 x).toNat ≤ 3015) (hv297 : ∀ x, (v297 x).toNat ≤ 3015) (hv300 : ∀ x, (v300 x).toNat ≤ 3015) (hv303 : ∀ x, (v303 x).toNat ≤ 3015) (hv306 : ∀ x, (v306 x).toNat ≤ 3015) (hv309 : ∀ x, (v309 x).toNat ≤ 3015) (hv312 : ∀ x, (v312 x).toNat ≤ 3015) (hv315 : ∀ x, (v315 x).toNat ≤ 3015) (hv318 : ∀ x, (v318 x).toNat ≤ 3015) (hv321 : ∀ x, (v321 x).toNat ≤ 3015) (hv324 : ∀ x, (v324 x).toNat ≤ 3015) (hv327 : ∀ x, (v327 x).toNat ≤ 3015) (hv330 : ∀ x, (v330 x).toNat ≤ 3015) (hv333 : ∀ x, (v333 x).toNat ≤ 3015) (hv336 : ∀ x, (v336 x).toNat ≤ 3015) (hv339 : ∀ x, (v339 x).toNat ≤ 3015) :
    pinv m d L qx q0 q1 O W k.val acc
      ⊢ wp frame (wpE (defs₀ (F := F)) 𝒱₀ (thr d L) none) Set.univ
          (k0_t1_body L xW (Memref.isWhole_whole _) tW (Memref.isWhole_whole _) oW (Memref.isWhole_whole _)
            i0W (Memref.isWhole_whole _) i1W (Memref.isWhole_whole _) e0W (Memref.isWhole_whole _) e1W (Memref.isWhole_whole _)
            o0W (Memref.isWhole_whole _) o1W (Memref.isWhole_whole _)
            cc0_scratch6 cc0_scratch7 cc0_scratch8 cc0_scratch9 cc0_scoped0 cc0_scoped1 cc0_scoped2 cc0_scoped3
            v2 v3 v21 v39 v57 v75 v93 v111 v129 v147 v165 v183 v201 v219 v237 v255 v273 v291 v294 v297 v300 v303 v306 v309 v312 v315 v318 v321 v324 v327 v330 v333 v336 v339 k acc)
          (pinv m d L qx q0 q1 O W (k.val + 1)) := by
  have hk : k.val < 64 := lt_of_lt_of_eq k.isLt trips64
  cases acc
  unfold pinv gath0 gath1 out0 out1
  rw [rowsTodo_succ m d L k, if_pos hk, if_pos hk]
  rcases Nat.eq_zero_or_pos k.val with h0 | hpos
  · have hks : k.val + 1 < 64 := by omega
    have hd : rowsDone (F := F) d L (k.val + 1) = rowsDone (F := F) d L k.val := by rw [h0]; exact rowsDone_one d L
    rw [if_pos hks, if_pos hks, if_pos h0, if_pos h0, if_neg (Nat.succ_ne_zero _), if_neg (Nat.succ_ne_zero _), hd]
    iintro ⟨Hmw, Hx, Hg0, Hg1, Ho0, Ho1, ⟨⟨Hr0, Hr1⟩, Htodo⟩, Hdone, Hc2, Hc3, HO⟩
    iapply (wp_wand_r frame _ Set.univ)
    isplitl [Hmw Hx Hg0 Hg1 Ho0 Ho1 Hr0 Hr1 Hc2 Hc3 HO]
    · iapply (tripA m d L qx q0 q1 O W hpre k h0 hks v2 v3 v21 v39 v57 v75 v93 v111 v129 v147 v165 v183 v201 v219 v237 v255 v273 v291 v294 v297 v300 v303 v306 v309 v312 v315 v318 v321 v324 v327 v330 v333 v336 v339 hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339)
      isplitl [Hmw]; · iexact Hmw
      isplitl [Hx]; · iexact Hx
      isplitl [Hg0]; · iexact Hg0
      isplitl [Hg1]; · iexact Hg1
      isplitl [Ho0]; · iexact Ho0
      isplitl [Ho1]; · iexact Ho1
      isplitl [Hr0]; · iexact Hr0
      isplitl [Hr1]; · iexact Hr1
      isplitl [Hc2]; · iexact Hc2
      isplitl [Hc3]; · iexact Hc3
      iexact HO
    iintro %_ ⟨Hmw, Hx, Hg0, Hg1, Ho0, Ho1, Hc2, Hc3, HO⟩
    isplitl [Hmw]; · iexact Hmw
    isplitl [Hx]; · iexact Hx
    isplitl [Hg0]; · iexact Hg0
    isplitl [Hg1]; · iexact Hg1
    isplitl [Ho0]
    · iexists k; isplitr
      · ipureintro; rfl
      · iexact Ho0
    isplitl [Ho1]
    · iexists k; isplitr
      · ipureintro; rfl
      · iexact Ho1
    isplitl [Htodo]; · iexact Htodo
    isplitl [Hdone]
    · iexact Hdone
    isplitl [Hc2]; · iexact Hc2
    isplitl [Hc3]; · iexact Hc3
    iexact HO
  · have hk0 : ¬ k.val = 0 := by omega
    let k' : Fin k0_t1_loop.trips := ⟨k.val - 1, by have := k.isLt; omega⟩
    have hk' : k'.val + 1 = k.val := by show k.val - 1 + 1 = k.val; omega
    have hd : rowsDone (F := F) d L (k.val + 1)
        = iprop((rowFin0 (F := F) d L k' ∗ rowFin1 (F := F) d L k') ∗ rowsDone (F := F) d L k.val) := by
      rw [← hk']; exact rowsDone_succ d L k'
    rw [if_neg hk0, if_neg hk0, if_neg (Nat.succ_ne_zero _), if_neg (Nat.succ_ne_zero _), hd]
    by_cases hks : k.val + 1 < 64
    · rw [if_pos hks, if_pos hks]
      iintro ⟨Hmw, Hx, Hg0, Hg1, ⟨%t0, %ht0, Ho0⟩, ⟨%t1, %ht1, Ho1⟩, ⟨⟨Hr0, Hr1⟩, Htodo⟩, Hdone, Hc2, Hc3, HO⟩
      obtain rfl : t0 = k' := Fin.ext (by omega)
      obtain rfl : t1 = k' := Fin.ext (by omega)
      iapply (wp_wand_r frame _ Set.univ)
      isplitl [Hmw Hx Hg0 Hg1 Ho0 Ho1 Hr0 Hr1 Hc2 Hc3 HO]
      · iapply (tripB m d L qx q0 q1 O W hpre k k' hk' hks v2 v3 v21 v39 v57 v75 v93 v111 v129 v147 v165 v183 v201 v219 v237 v255 v273 v291 v294 v297 v300 v303 v306 v309 v312 v315 v318 v321 v324 v327 v330 v333 v336 v339 hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339)
        isplitl [Hmw]; · iexact Hmw
        isplitl [Hx]; · iexact Hx
        isplitl [Hg0]; · iexact Hg0
        isplitl [Hg1]; · iexact Hg1
        isplitl [Ho0]; · iexact Ho0
        isplitl [Ho1]; · iexact Ho1
        isplitl [Hr0]; · iexact Hr0
        isplitl [Hr1]; · iexact Hr1
        isplitl [Hc2]; · iexact Hc2
        isplitl [Hc3]; · iexact Hc3
        iexact HO
      iintro %_ ⟨Hmw, Hx, Hg0, Hg1, Ho0, Ho1, Hf0, Hf1, Hc2, Hc3, HO⟩
      isplitl [Hmw]; · iexact Hmw
      isplitl [Hx]; · iexact Hx
      isplitl [Hg0]; · iexact Hg0
      isplitl [Hg1]; · iexact Hg1
      isplitl [Ho0]
      · iexists k; isplitr
        · ipureintro; rfl
        · iexact Ho0
      isplitl [Ho1]
      · iexists k; isplitr
        · ipureintro; rfl
        · iexact Ho1
      isplitl [Htodo]; · iexact Htodo
      isplitl [Hdone Hf0 Hf1]
      · isplitl [Hf0 Hf1]
        · isplitl [Hf0]; · iexact Hf0
          iexact Hf1
        · iexact Hdone
      isplitl [Hc2]; · iexact Hc2
      isplitl [Hc3]; · iexact Hc3
      iexact HO
    · rw [if_neg hks, if_neg hks]
      iintro ⟨Hmw, Hx, Hg0, Hg1, ⟨%t0, %ht0, Ho0⟩, ⟨%t1, %ht1, Ho1⟩, ⟨⟨Hr0, Hr1⟩, Htodo⟩, Hdone, Hc2, Hc3, HO⟩
      obtain rfl : t0 = k' := Fin.ext (by omega)
      obtain rfl : t1 = k' := Fin.ext (by omega)
      iapply (wp_wand_r frame _ Set.univ)
      isplitl [Hmw Hx Hg0 Hg1 Ho0 Ho1 Hr0 Hr1 Hc2 Hc3 HO]
      · iapply (tripC m d L qx q0 q1 O W hpre k k' hk' hks v2 v3 v21 v39 v57 v75 v93 v111 v129 v147 v165 v183 v201 v219 v237 v255 v273 v291 v294 v297 v300 v303 v306 v309 v312 v315 v318 v321 v324 v327 v330 v333 v336 v339 hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339)
        isplitl [Hmw]; · iexact Hmw
        isplitl [Hx]; · iexact Hx
        isplitl [Hg0]; · iexact Hg0
        isplitl [Hg1]; · iexact Hg1
        isplitl [Ho0]; · iexact Ho0
        isplitl [Ho1]; · iexact Ho1
        isplitl [Hr0]; · iexact Hr0
        isplitl [Hr1]; · iexact Hr1
        isplitl [Hc2]; · iexact Hc2
        isplitl [Hc3]; · iexact Hc3
        iexact HO
      iintro %_ ⟨Hmw, Hx, Hg0, Hg1, Ho0, Ho1, Hf0, Hf1, Hc2, Hc3, HO⟩
      isplitl [Hmw]; · iexact Hmw
      isplitl [Hx]; · iexact Hx
      isplitl [Hg0]; · iexact Hg0
      isplitl [Hg1]; · iexact Hg1
      isplitl [Ho0]
      · iexists k; isplitr
        · ipureintro; rfl
        · iexact Ho0
      isplitl [Ho1]
      · iexists k; isplitr
        · ipureintro; rfl
        · iexact Ho1
      isplitl [Htodo]; · iexact Htodo
      isplitl [Hdone Hf0 Hf1]
      · isplitl [Hf0 Hf1]
        · isplitl [Hf0]; · iexact Hf0
          iexact Hf1
        · iexact Hdone
      isplitl [Hc2]; · iexact Hc2
      isplitl [Hc3]; · iexact Hc3
      iexact HO

end Cert.Proof.KI

end
-- ==== Proof.TileCoreI.lean ====
import proofs.«206347_g23639499997337_cont_sun_m_514_14_alg».proof.Proof.TileLoopI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (d : Dev nD) (L : grid0.Coords)

local notation "xW" => (Memref.whole Cert.KernelIdeal.main_arg0_scv : Memref Cert.KernelIdeal.sig Kind.scVector Space.hbm Cert.KernelIdeal.S4096x200 EltTy.i32)
local notation "tW" => (Memref.whole Cert.KernelIdeal.main_arg1_scv : Memref Cert.KernelIdeal.sig Kind.scVector Space.hbm Cert.KernelIdeal.S100000x128 EltTy.f32)
local notation "oW" => (Memref.whole Cert.KernelIdeal.main_v0_scv : Memref Cert.KernelIdeal.sig Kind.scVector Space.hbm Cert.KernelIdeal.S4096x25600 EltTy.f32)
local notation "i0W" => (Memref.whole Cert.KernelIdeal.cc0_scratch0 : Memref Cert.KernelIdeal.sig Kind.scVector Space.vmem Cert.KernelIdeal.S200 EltTy.i32)
local notation "i1W" => (Memref.whole Cert.KernelIdeal.cc0_scratch1 : Memref Cert.KernelIdeal.sig Kind.scVector Space.vmem Cert.KernelIdeal.S200 EltTy.i32)
local notation "e0W" => (Memref.whole Cert.KernelIdeal.cc0_scratch2 : Memref Cert.KernelIdeal.sig Kind.scVector Space.vmem Cert.KernelIdeal.S200x128 EltTy.f32)
local notation "e1W" => (Memref.whole Cert.KernelIdeal.cc0_scratch3 : Memref Cert.KernelIdeal.sig Kind.scVector Space.vmem Cert.KernelIdeal.S200x128 EltTy.f32)
local notation "o0W" => (Memref.whole Cert.KernelIdeal.cc0_scratch4 : Memref Cert.KernelIdeal.sig Kind.scVector Space.vmem Cert.KernelIdeal.S25600 EltTy.f32)
local notation "o1W" => (Memref.whole Cert.KernelIdeal.cc0_scratch5 : Memref Cert.KernelIdeal.sig Kind.scVector Space.vmem Cert.KernelIdeal.S25600 EltTy.f32)

variable (qx q0 q1 : PosShare TreeShare) (O : CellTallies nD τ sig (HIx 1)) (W : Waits sig (HIx 1))

variable [FloatOps F]

set_option maxHeartbeats 4000000 in
/-- The tile's whole task, from its resources laid out one by one: every row of its 64 pair-trips ends finished, the
    arguments' shares, the scratch and the semaphores come back. -/
theorem tile_core (hpre : PreOK m)
    (fi0 : Buf (Elt F) ((i0W).view.loc (thr d L))) (fi1 : Buf (Elt F) ((i1W).view.loc (thr d L)))
    (fe0 : Buf (Elt F) ((e0W).view.loc (thr d L))) (fe1 : Buf (Elt F) ((e1W).view.loc (thr d L)))
    (fo0 : Buf (Elt F) ((o0W).view.loc (thr d L))) (fo1 : Buf (Elt F) ((o1W).view.loc (thr d L))) :
    (iprop(Transfers.MayWaits (thr d L) (none : HIx 1) O
        ∗ ((xW).view.loc (thr d L) ↦{qx} m (xLoc d)) ∗ ((tW).view.loc (thr d L) ↦{q0} m (tLoc d)) ∗ ((tW).view.loc (thr d L) ↦{q1} m (tLoc d))
        ∗ rowsTodo m d L 0
        ∗ ((i0W).view.loc (thr d L) ↦{fullShare} fi0) ∗ ((i1W).view.loc (thr d L) ↦{fullShare} fi1)
        ∗ ((e0W).view.loc (thr d L) ↦{fullShare} fe0) ∗ ((e1W).view.loc (thr d L) ↦{fullShare} fe1)
        ∗ ((o0W).view.loc (thr d L) ↦{fullShare} fo0) ∗ ((o1W).view.loc (thr d L) ↦{fullShare} fo1)
        ∗ semVal (thr d L, SemLoc.dma cc0_scratch6.sem) 0 ∗ semVal (thr d L, SemLoc.dma cc0_scratch7.sem) 0 ∗ semVal (thr d L, SemLoc.dma cc0_scratch8.sem) 0 ∗ semVal (thr d L, SemLoc.dma cc0_scratch9.sem) 0 ∗ semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0
        ∗ owes (thr d L) O W) : sProp 𝕄)
      ⊢ wp frame (wpE (defs₀ (F := F)) 𝒱₀ (thr d L) none) Set.univ
          (cc0__sc_fused L xW (Memref.isWhole_whole _) tW (Memref.isWhole_whole _) oW (Memref.isWhole_whole _)
            i0W (Memref.isWhole_whole _) i1W (Memref.isWhole_whole _) e0W (Memref.isWhole_whole _) e1W (Memref.isWhole_whole _)
            o0W (Memref.isWhole_whole _) o1W (Memref.isWhole_whole _)
            cc0_scratch6 cc0_scratch7 cc0_scratch8 cc0_scratch9 cc0_scoped0 cc0_scoped1 cc0_scoped2 cc0_scoped3)
          fun _ => iprop(((xW).view.loc (thr d L) ↦{qx} m (xLoc d)) ∗ ((tW).view.loc (thr d L) ↦{q0} m (tLoc d)) ∗ ((tW).view.loc (thr d L) ↦{q1} m (tLoc d))
            ∗ rowsDone (F := F) d L 65
            ∗ (∃ f, (i0W).view.loc (thr d L) ↦{fullShare} f) ∗ (∃ f, (i1W).view.loc (thr d L) ↦{fullShare} f)
            ∗ (∃ f, (e0W).view.loc (thr d L) ↦{fullShare} f) ∗ (∃ f, (e1W).view.loc (thr d L) ↦{fullShare} f)
            ∗ (∃ f, (o0W).view.loc (thr d L) ↦{fullShare} f) ∗ (∃ f, (o1W).view.loc (thr d L) ↦{fullShare} f)
            ∗ semVal (thr d L, SemLoc.dma cc0_scratch6.sem) 0 ∗ semVal (thr d L, SemLoc.dma cc0_scratch7.sem) 0 ∗ semVal (thr d L, SemLoc.dma cc0_scratch8.sem) 0 ∗ semVal (thr d L, SemLoc.dma cc0_scratch9.sem) 0 ∗ semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0
            ∗ owesEx (F := F) d L O W) := by
  rw [cc0__sc_fused_eq_skeleton]; unfold cc0__sc_fused_skel
  iintro ⟨#Hmw, Hx, Ht0, Ht1, Htodo, Hi0, Hi1, He0, He1, Ho0, Ho1, Hs6, Hs7, Hs8, Hs9, Hc0, Hc1, Hc2, Hc3, HO⟩
  sl_exec
  have hin0 := hin_row0 m d L hpre (k0_off1 L 0#32) (k0_off1_inb L 0) fi0
  sl_exec
  have hin1 := hin_row1 m d L hpre (k0_off1 L 1#32) (k0_off1_inb L 1) fi1
  sl_exec
  -- lanes of the prologue's constant vectors: rotations of 0..15, and write diagonals rotation·200 + lane
  have hv3 : ∀ x : S16.Idx, (tile_core.sl.v3 x).toNat ≤ 15 := by decide
  have hv21 : ∀ x : S16.Idx, (tile_core.sl.v21 x).toNat ≤ 15 := by decide
  have hv39 : ∀ x : S16.Idx, (tile_core.sl.v39 x).toNat ≤ 15 := by decide
  have hv57 : ∀ x : S16.Idx, (tile_core.sl.v57 x).toNat ≤ 15 := by decide
  have hv75 : ∀ x : S16.Idx, (tile_core.sl.v75 x).toNat ≤ 15 := by decide
  have hv93 : ∀ x : S16.Idx, (tile_core.sl.v93 x).toNat ≤ 15 := by decide
  have hv111 : ∀ x : S16.Idx, (tile_core.sl.v111 x).toNat ≤ 15 := by decide
  have hv129 : ∀ x : S16.Idx, (tile_core.sl.v129 x).toNat ≤ 15 := by decide
  have hv147 : ∀ x : S16.Idx, (tile_core.sl.v147 x).toNat ≤ 15 := by decide
  have hv165 : ∀ x : S16.Idx, (tile_core.sl.v165 x).toNat ≤ 15 := by decide
  have hv183 : ∀ x : S16.Idx, (tile_core.sl.v183 x).toNat ≤ 15 := by decide
  have hv201 : ∀ x : S16.Idx, (tile_core.sl.v201 x).toNat ≤ 15 := by decide
  have hv219 : ∀ x : S16.Idx, (tile_core.sl.v219 x).toNat ≤ 15 := by decide
  have hv237 : ∀ x : S16.Idx, (tile_core.sl.v237 x).toNat ≤ 15 := by decide
  have hv255 : ∀ x : S16.Idx, (tile_core.sl.v255 x).toNat ≤ 15 := by decide
  have hv273 : ∀ x : S16.Idx, (tile_core.sl.v273 x).toNat ≤ 15 := by decide
  have hv291 : ∀ x : S16.Idx, (tile_core.sl.v291 x).toNat ≤ 15 := by decide
  have hv294 : ∀ x : S16.Idx, (tile_core.sl.v294 x).toNat ≤ 3015 := by decide
  have hv297 : ∀ x : S16.Idx, (tile_core.sl.v297 x).toNat ≤ 3015 := by decide
  have hv300 : ∀ x : S16.Idx, (tile_core.sl.v300 x).toNat ≤ 3015 := by decide
  have hv303 : ∀ x : S16.Idx, (tile_core.sl.v303 x).toNat ≤ 3015 := by decide
  have hv306 : ∀ x : S16.Idx, (tile_core.sl.v306 x).toNat ≤ 3015 := by decide
  have hv309 : ∀ x : S16.Idx, (tile_core.sl.v309 x).toNat ≤ 3015 := by decide
  have hv312 : ∀ x : S16.Idx, (tile_core.sl.v312 x).toNat ≤ 3015 := by decide
  have hv315 : ∀ x : S16.Idx, (tile_core.sl.v315 x).toNat ≤ 3015 := by decide
  have hv318 : ∀ x : S16.Idx, (tile_core.sl.v318 x).toNat ≤ 3015 := by decide
  have hv321 : ∀ x : S16.Idx, (tile_core.sl.v321 x).toNat ≤ 3015 := by decide
  have hv324 : ∀ x : S16.Idx, (tile_core.sl.v324 x).toNat ≤ 3015 := by decide
  have hv327 : ∀ x : S16.Idx, (tile_core.sl.v327 x).toNat ≤ 3015 := by decide
  have hv330 : ∀ x : S16.Idx, (tile_core.sl.v330 x).toNat ≤ 3015 := by decide
  have hv333 : ∀ x : S16.Idx, (tile_core.sl.v333 x).toNat ≤ 3015 := by decide
  have hv336 : ∀ x : S16.Idx, (tile_core.sl.v336 x).toNat ≤ 3015 := by decide
  have hv339 : ∀ x : S16.Idx, (tile_core.sl.v339 x).toNat ≤ 3015 := by decide
  sl_for (pinv m d L qx q0 q1 O W) $$ [Hx Ht0 Hs6 Ht1 Hs7 Hs8 Ho0 Hs9 Ho1 Htodo Hc2 Hc3 HO]
  case region =>
    intro k acc
    exact pair_trip m d L qx q0 q1 O W hpre k acc (tile_core.sl.v2 L) tile_core.sl.v3 tile_core.sl.v21 tile_core.sl.v39 tile_core.sl.v57 tile_core.sl.v75 tile_core.sl.v93 tile_core.sl.v111 tile_core.sl.v129 tile_core.sl.v147 tile_core.sl.v165 tile_core.sl.v183 tile_core.sl.v201 tile_core.sl.v219 tile_core.sl.v237 tile_core.sl.v255 tile_core.sl.v273 tile_core.sl.v291 tile_core.sl.v294 tile_core.sl.v297 tile_core.sl.v300 tile_core.sl.v303 tile_core.sl.v306 tile_core.sl.v309 tile_core.sl.v312 tile_core.sl.v315 tile_core.sl.v318 tile_core.sl.v321 tile_core.sl.v324 tile_core.sl.v327 tile_core.sl.v330 tile_core.sl.v333 tile_core.sl.v336 tile_core.sl.v339 hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339
  · unfold pinv gath0 gath1 out0 out1 gathFl0 gathFl1 outNone0 outNone1 owesEx
    rw [if_pos (by decide : (0 : ℕ) < 64), if_pos (by decide : (0 : ℕ) < 64), if_pos rfl, if_pos rfl]
    isplitr; · iexact Hmw
    isplitl [Hx]; · iexact Hx
    isplitl [Ht0 Hs6]
    · iexists _, _; isplitl [Ht0]; · iexact Ht0
      iexact Hs6
    isplitl [Ht1 Hs7]
    · iexists _, _; isplitl [Ht1]; · iexact Ht1
      iexact Hs7
    isplitl [Hs8 Ho0]
    · isplitl [Hs8]; · iexact Hs8
      iexists _; iexact Ho0
    isplitl [Hs9 Ho1]
    · isplitl [Hs9]; · iexact Hs9
      iexists _; iexact Ho1
    isplitl [Htodo]; · iexact Htodo
    isplitr
    · unfold rowsDone
      rw [show (Finset.univ.filter fun t : Fin k0_t1_loop.trips => t.val + 1 < 0) = ∅ from by ext t; simp, bigSep_empty]
      iempintro
    isplitl [Hc2]; · iexact Hc2
    isplitl [Hc3]; · iexact Hc3
    iexists _; isplitr
    rotate_left
    · iexact HO
    · ipureintro; repeat (first | exact (fun p hp => Or.inl hp) | apply waits_insert)
  iintro %_ HI
  have e64 : Scf.trips k0_t1_loop.lb k0_t1_loop.ub k0_t1_loop.st = 64 := trips64
  rw [e64]
  unfold pinv gath0 gath1 out0 out1 gathRest0 gathRest1 outFl0 outFl1 owesEx
  rw [if_neg (by decide : ¬ (64 : ℕ) < 64), if_neg (by decide : ¬ (64 : ℕ) < 64), if_neg (by decide : ¬ (64 : ℕ) = 0), if_neg (by decide : ¬ (64 : ℕ) = 0)]
  icases HI with ⟨-, Hx, ⟨Ht0, Hs6, ⟨%fe0', He0⟩, ⟨%fi0', Hi0⟩⟩, ⟨Ht1, Hs7, ⟨%fe1', He1⟩, ⟨%fi1', Hi1⟩⟩, ⟨%t0, %ht0, %g0, %fo0', Ho0, FO0⟩, ⟨%t1, %ht1, %g1, %fo1', Ho1, FO1⟩, -, Hdone, Hc2, Hc3, %W', %hW', HO⟩
  obtain rfl : t1 = t0 := Fin.ext (by omega)
  sl_exec
  sl_step
  isplitl [Hx]; · iexact Hx
  isplitl [Ht0]; · iexact Ht0
  isplitl [Ht1]; · iexact Ht1
  isplitl [Hdone FO0_dst FO1_dst]
  · have e65 : rowsDone (F := F) d L 65
        = iprop((rowFin0 (F := F) d L t1 ∗ rowFin1 (F := F) d L t1) ∗ rowsDone (F := F) d L 64) := by
      have h := rowsDone_succ (F := F) d L t1
      rw [show t1.val + 2 = 65 by omega, show t1.val + 1 = 64 by omega] at h
      exact h
    rw [e65]; unfold rowFin0 rowFin1
    isplitl [FO0_dst FO1_dst]
    · isplitl [FO0_dst]; · iexists _; iexact FO0_dst
      iexists _; iexact FO1_dst
    · iexact Hdone
  isplitl [Hi0]; · iexists _; iexact Hi0
  isplitl [Hi1]; · iexists _; iexact Hi1
  isplitl [He0]; · iexists _; iexact He0
  isplitl [He1]; · iexists _; iexact He1
  isplitl [Ho0]; · iexists _; iexact Ho0
  isplitl [Ho1]; · iexists _; iexact Ho1
  isplitl [Hs6]; · iexact Hs6
  isplitl [Hs7]; · iexact Hs7
  isplitl [FO0]; · iexact FO0
  isplitl [FO1]; · iexact FO1
  isplitl [Hc0]; · iexact Hc0
  isplitl [Hc1]; · iexact Hc1
  isplitl [Hc2]; · iexact Hc2
  isplitl [Hc3]; · iexact Hc3
  iexists _; isplitr
  rotate_left
  · iexact HO
  · ipureintro; repeat (first | exact hW' | apply waits_insert)

end Cert.Proof.KI

end
-- ==== Proof.TileRowsI.lean ====
/-
  A tile's 128 output rows, as the launch hands them over and as the tile's body holds them.

  The launch hands tile (c, s) its rows one by one, row j being batch row (2·s + c)·128 + j. The body works in 64
  pair-trips: at trip t it copies out rows 2t and 2t + 1, each through a one-row slice of the flat output whose offset
  is 256·s + 128·c + 2t + r. So row j of the tile is the slice of trip j / 2, slot j mod 2, and the 128 rows regroup
  as 64 pairs.
-/
import proofs.«206347_g23639499997337_cont_sun_m_514_14_alg».proof.Proof.TileInvI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks_split pointsTo_toks_join)

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S4096x200 EltTy.i32)
local notation "tW" => (Memref.whole Cert.KernelIdeal.main_arg1_scv : Memref Cert.KernelIdeal.sig Kind.scVector Space.hbm Cert.KernelIdeal.S100000x128 EltTy.f32)
local notation "oW" => (Memref.whole Cert.KernelIdeal.main_v0_scv : Memref Cert.KernelIdeal.sig Kind.scVector Space.hbm Cert.KernelIdeal.S4096x25600 EltTy.f32)
local notation "i0W" => (Memref.whole Cert.KernelIdeal.cc0_scratch0 : Memref Cert.KernelIdeal.sig Kind.scVector Space.vmem Cert.KernelIdeal.S200 EltTy.i32)
local notation "i1W" => (Memref.whole Cert.KernelIdeal.cc0_scratch1 : Memref Cert.KernelIdeal.sig Kind.scVector Space.vmem Cert.KernelIdeal.S200 EltTy.i32)
local notation "e0W" => (Memref.whole Cert.KernelIdeal.cc0_scratch2 : Memref Cert.KernelIdeal.sig Kind.scVector Space.vmem Cert.KernelIdeal.S200x128 EltTy.f32)
local notation "e1W" => (Memref.whole Cert.KernelIdeal.cc0_scratch3 : Memref Cert.KernelIdeal.sig Kind.scVector Space.vmem Cert.KernelIdeal.S200x128 EltTy.f32)
local notation "o0W" => (Memref.whole Cert.KernelIdeal.cc0_scratch4 : Memref Cert.KernelIdeal.sig Kind.scVector Space.vmem Cert.KernelIdeal.S25600 EltTy.f32)
local notation "o1W" => (Memref.whole Cert.KernelIdeal.cc0_scratch5 : Memref Cert.KernelIdeal.sig Kind.scVector Space.vmem Cert.KernelIdeal.S25600 EltTy.f32)

variable (d : Dev nD) (L : grid0.Coords)

/-- the tile's SparseCore and subcore as the launch numbers them -/
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)

theorem trip_lt (t : Fin k0_t1_loop.trips) : t.val < 64 := trips64 ▸ t.isLt

/-- the batch row that slot r of pair-trip t writes -/
def tripRow (t : Fin k0_t1_loop.trips) (r : Fin 2) : Fin 4096 :=
  ⟨256 * (L 1).val + 128 * (L 0).val + 2 * t.val + r.val, by
    have h1 : (L 1).val < 16 := (L 1).isLt
    have h0 : (L 0).val < 2 := (L 0).isLt
    have ht := trip_lt t
    have hr := r.isLt
    omega⟩

/-- which is row 2t + r of the tile -/
theorem tripRow_eq (t : Fin k0_t1_loop.trips) (r : Fin 2) (h : 2 * t.val + r.val < 128) :
    tripRow L t r = rowOfTile (cL L) (sL L) ⟨2 * t.val + r.val, h⟩ := by
  apply Fin.ext
  show 256 * (L 1).val + 128 * (L 0).val + 2 * t.val + r.val = (2 * (L 1).val + (L 0).val) * 128 + (2 * t.val + r.val)
  ring

theorem unit_congr {s : Shape} {off off' size : Fin s.rank → Nat} (h : off = off') (inb : ∀ a, off a + size a ≤ s.size a)
    (inb' : ∀ a, off' a + size a ≤ s.size a) : Rect.unit off size inb = Rect.unit off' size inb' := by
  subst h; rfl

/-- The slice the even slot copies out at trip t is the batch row's rectangle, -/
theorem set_oRow0 (t : Fin k0_t1_loop.trips) : (oRow0 L t).view.set = rowSet (tripRow L t 0) := by
  show (((oW).view.slice (Rect.unit (s := S4096x25600) (k0_off3 L t 0#32) S1x25600.size (k0_off3_inb L t 0))).reshape S25600
      squeezes_S1x25600_S25600.numel_eq).set = (rowRect (tripRow L t 0)).set
  rw [View.set_reshape]
  show ((View.whole (main_v0_scv : Ref sig .scVector)).slice _).set = _
  rw [View.set_slice_whole]
  have hoff : k0_off3 L t 0#32 = ![(tripRow L t 0).val, 0] := (k0_off3_eq L t ⟨0, by decide⟩).trans (by simp [tripRow])
  exact congrArg (fun r : Rect S4096x25600 => r.set) (unit_congr hoff _ _)

/-- and the odd slot's likewise. -/
theorem set_oRow1 (t : Fin k0_t1_loop.trips) : (oRow1 L t).view.set = rowSet (tripRow L t 1) := by
  show (((oW).view.slice (Rect.unit (s := S4096x25600) (k0_off3 L t 1#32) S1x25600.size (k0_off3_inb L t 1))).reshape S25600
      squeezes_S1x25600_S25600.numel_eq).set = (rowRect (tripRow L t 1)).set
  rw [View.set_reshape]
  show ((View.whole (main_v0_scv : Ref sig .scVector)).slice _).set = _
  rw [View.set_slice_whole]
  have hoff : k0_off3 L t 1#32 = ![(tripRow L t 1).val, 0] := (k0_off3_eq L t ⟨1, by decide⟩).trans (by simp [tripRow])
  exact congrArg (fun r : Rect S4096x25600 => r.set) (unit_congr hoff _ _)

/-! ## The 128 rows as 64 pairs -/

/-- trip t, slot r ↦ row 2t + r of the tile -/
def pairEquiv : Fin k0_t1_loop.trips × Fin 2 ≃ Fin 128 where
  toFun p := ⟨2 * p.1.val + p.2.val, by have := trip_lt p.1; have := p.2.isLt; omega⟩
  invFun j := (⟨j.val / 2, by rw [trips64]; have := j.isLt; omega⟩, ⟨j.val % 2, Nat.mod_lt _ (by decide)⟩)
  left_inv p := by
    obtain ⟨⟨t, ht⟩, ⟨r, hr⟩⟩ := p
    simp only [Prod.mk.injEq, Fin.mk.injEq]
    omega
  right_inv j := by
    apply Fin.ext
    show 2 * (j.val / 2) + j.val % 2 = j.val
    omega

theorem bigSep_pairs (Φ : Fin 128 → sProp 𝕄) :
    bigSep Finset.univ Φ = bigSep Finset.univ fun t : Fin k0_t1_loop.trips => iprop(Φ (pairEquiv (t, 0)) ∗ Φ (pairEquiv (t, 1))) := by
  rw [← Finset.map_univ_equiv pairEquiv, bigSep_map, bigSep_univ_prod]
  refine bigSep_congr fun t _ => ?_
  rw [bigSep_fin_two]
  rfl

variable (m : (ℓ : Loc nD τ sig) → Buf (Elt F) ℓ) (R : RowProp (F := F))

/-- The rows the launch hands the tile are the rows the body's 64 pair-trips have to do. -/
theorem rowsIn_eq :
    (bigSep Finset.univ fun j : Fin 128 => (oLoc d ↦[rowSet (rowOfTile (cL L) (sL L) j)]{fullShare} m (oLoc d) : sProp 𝕄))
      = rowsTodo m d L 0 := by
  unfold rowsTodo
  rw [Finset.filter_true_of_mem (fun t _ => Nat.zero_le _), bigSep_pairs]
  refine bigSep_congr fun t _ => ?_
  unfold rowIn0 rowIn1
  rw [set_oRow0, set_oRow1, tripRow_eq L t 0 (by have := trip_lt t; show 2 * t.val + 0 < 128; omega),
    tripRow_eq L t 1 (by have := trip_lt t; show 2 * t.val + 1 < 128; omega)]
  rfl

variable [FloatOps F]

/-- A finished pair of rows is the two rows given back, each at some contents; what is said of a row's contents holds of
    any. -/
theorem rowPair_out (hR : ∀ d b f, R d b f) (t : Fin k0_t1_loop.trips) :
    iprop(rowFin0 (F := F) d L t ∗ rowFin1 (F := F) d L t)
      ⊢ iprop(rowOut R d (rowOfTile (cL L) (sL L) (pairEquiv (t, 0))) ∗ rowOut R d (rowOfTile (cL L) (sL L) (pairEquiv (t, 1)))) := by
  unfold rowFin0 rowFin1 rowOut
  rw [set_oRow0, set_oRow1, tripRow_eq L t 0 (by have := trip_lt t; show 2 * t.val + 0 < 128; omega),
    tripRow_eq L t 1 (by have := trip_lt t; show 2 * t.val + 1 < 128; omega)]
  iintro ⟨⟨%g0, H0⟩, ⟨%g1, H1⟩⟩
  isplitl [H0]
  · iexists g0; isplitr; · ipureintro; exact hR _ _ _
    iexact H0
  · iexists g1; isplitr; · ipureintro; exact hR _ _ _
    iexact H1

/-- The rows the body has finished are the rows the tile gives back. -/
theorem rowsOut_of_done (hR : ∀ d b f, R d b f) :
    rowsDone (F := F) d L 65 ⊢ bigSep Finset.univ fun j : Fin 128 => rowOut R d (rowOfTile (cL L) (sL L) j) := by
  unfold rowsDone
  rw [Finset.filter_true_of_mem (fun t _ => by have := trip_lt t; omega), bigSep_pairs]
  exact bigSep_mono fun t _ => rowPair_out d L R hR t

end Cert.Proof.KI

end
-- ==== Proof.ScopedI.lean ====
/-
  A tile's scoped storage, opened and closed. Between regions a vector subcore holds every scoped buffer in its scope
  whole at some contents and every scoped semaphore cell in its scope at zero; for a tile these are exactly its own.
  Among its own buffers are the kernel's six scratch buffers, among its own cells the kernel's eight transfer
  semaphores: a product over a finite set splits at a subset, and the product over the image of a list under a
  one-to-one map is the product of the list's members. So the tile's holdings are the fourteen named pieces and a
  remainder, in either direction.
-/
import proofs.«206347_g23639499997337_cont_sun_m_514_14_alg».proof.Proof.TileDefsI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (d : Dev nD) (L : grid0.Coords)

/-- The six scratch buffers, as a vector subcore's references. -/
abbrev scrRefs : Finset (Ref sig .scVector) :=
  {cc0_scratch0, cc0_scratch1, cc0_scratch2, cc0_scratch3, cc0_scratch4, cc0_scratch5}

/-- The eight transfer semaphores. -/
abbrev scrSems : Finset (SemLoc sig) :=
  {SemLoc.dma cc0_scratch6.sem, SemLoc.dma cc0_scratch7.sem, SemLoc.dma cc0_scratch8.sem, SemLoc.dma cc0_scratch9.sem,
    SemLoc.dma cc0_scoped0.sem, SemLoc.dma cc0_scoped1.sem, SemLoc.dma cc0_scoped2.sem, SemLoc.dma cc0_scoped3.sem}

/-- The tile's references as buffers of its device: distinct references are distinct buffers. -/
abbrev refEmb : Ref sig .scVector ↪ DevRef τ sig :=
  ⟨(Proc.scVector (cT L) (sT L)).devRef, Proc.devRef_injective _⟩

/-- A semaphore as the tile's cell. -/
abbrev cellEmb : SemLoc sig ↪ GSem nD τ sig :=
  ⟨fun sm => (thr d L, sm), fun _ _ h => congrArg Prod.snd h⟩

/-- The six scratch buffers are among the tile's own. -/
theorem scrRefs_sub : scrRefs.map (refEmb L) ⊆ ownRefs (τ := τ) (sig := sig) (.scVector (cT L) (sT L)) := by
  intro b hb
  obtain ⟨r, hr, rfl⟩ := Finset.mem_map.mp hb
  simp only [Finset.mem_insert, Finset.mem_singleton] at hr
  rcases hr with rfl | rfl | rfl | rfl | rfl | rfl <;> exact SparseCore.Cfg.mem_ownRefs_of_owner rfl

/-- The eight semaphores' cells are among the tile's own scoped cells. -/
theorem scrSems_sub : scrSems.map (cellEmb d L) ⊆ ownCells (thr d L) := by
  intro g hg
  obtain ⟨sm, hs, rfl⟩ := Finset.mem_map.mp hg
  simp only [Finset.mem_insert, Finset.mem_singleton] at hs
  rcases hs with rfl | rfl | rfl | rfl | rfl | rfl | rfl | rfl
  · exact mem_ownCells.mpr ⟨rfl, by show (SemLoc.dma cc0_scratch6.sem : SemLoc sig).isScoped .scVector = true; decide⟩
  · exact mem_ownCells.mpr ⟨rfl, by show (SemLoc.dma cc0_scratch7.sem : SemLoc sig).isScoped .scVector = true; decide⟩
  · exact mem_ownCells.mpr ⟨rfl, by show (SemLoc.dma cc0_scratch8.sem : SemLoc sig).isScoped .scVector = true; decide⟩
  · exact mem_ownCells.mpr ⟨rfl, by show (SemLoc.dma cc0_scratch9.sem : SemLoc sig).isScoped .scVector = true; decide⟩
  · exact mem_ownCells.mpr ⟨rfl, by show (SemLoc.dma cc0_scoped0.sem : SemLoc sig).isScoped .scVector = true; decide⟩
  · exact mem_ownCells.mpr ⟨rfl, by show (SemLoc.dma cc0_scoped1.sem : SemLoc sig).isScoped .scVector = true; decide⟩
  · exact mem_ownCells.mpr ⟨rfl, by show (SemLoc.dma cc0_scoped2.sem : SemLoc sig).isScoped .scVector = true; decide⟩
  · exact mem_ownCells.mpr ⟨rfl, by show (SemLoc.dma cc0_scoped3.sem : SemLoc sig).isScoped .scVector = true; decide⟩

/-- The tile's other buffers, each whole at some contents. -/
def restB : sProp 𝕄 :=
  bigSep (ownRefs (τ := τ) (sig := sig) (.scVector (cT L) (sT L)) \ scrRefs.map (refEmb L))
    fun b => iprop(∃ f, ((d, b) : Loc nD τ sig) ↦{fullShare} f)

/-- The tile's other scoped cells, each at zero. -/
def restC : sProp 𝕄 := bigSep (ownCells (thr d L) \ scrSems.map (cellEmb d L)) fun g => semVal g 0

/-- What the tile holds besides the fourteen named pieces. -/
def restS : sProp 𝕄 := iprop(restB (F := F) d L ∗ restC (F := F) d L)

/-- The tile's own buffers are the six scratch buffers and the rest. -/
theorem ownBufs_eq :
    (ownBufs (thr d L) : sProp 𝕄)
      = iprop(((∃ f, (Memref.whole cc0_scratch0 : Memref sig .scVector .vmem S200 .i32).view.loc (thr d L) ↦{fullShare} f)
          ∗ (∃ f, (Memref.whole cc0_scratch1 : Memref sig .scVector .vmem S200 .i32).view.loc (thr d L) ↦{fullShare} f)
          ∗ (∃ f, (Memref.whole cc0_scratch2 : Memref sig .scVector .vmem S200x128 .f32).view.loc (thr d L) ↦{fullShare} f)
          ∗ (∃ f, (Memref.whole cc0_scratch3 : Memref sig .scVector .vmem S200x128 .f32).view.loc (thr d L) ↦{fullShare} f)
          ∗ (∃ f, (Memref.whole cc0_scratch4 : Memref sig .scVector .vmem S25600 .f32).view.loc (thr d L) ↦{fullShare} f)
          ∗ (∃ f, (Memref.whole cc0_scratch5 : Memref sig .scVector .vmem S25600 .f32).view.loc (thr d L) ↦{fullShare} f))
          ∗ restB (F := F) d L) := by
  unfold SparseCore.Cfg.ownBufs restB
  rw [SparseCore.bigSep_sdiff_split' (scrRefs_sub L), BI.bigSep_map,
    SparseCore.bigSep_insert' (by decide), SparseCore.bigSep_insert' (by decide), SparseCore.bigSep_insert' (by decide),
    SparseCore.bigSep_insert' (by decide), SparseCore.bigSep_insert' (by decide), BI.bigSep_singleton]
  rfl

/-- The tile's own cells at zero are the eight semaphores at zero and the rest. -/
theorem ownSems0_eq :
    (ownSems0 (thr d L) : sProp 𝕄)
      = iprop((semVal (thr d L, SemLoc.dma cc0_scratch6.sem) 0 ∗ semVal (thr d L, SemLoc.dma cc0_scratch7.sem) 0 ∗ semVal (thr d L, SemLoc.dma cc0_scratch8.sem) 0 ∗ semVal (thr d L, SemLoc.dma cc0_scratch9.sem) 0 ∗ semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0)
          ∗ restC (F := F) d L) := by
  unfold SparseCore.Cfg.ownSems0 restC
  rw [SparseCore.bigSep_sdiff_split' (scrSems_sub d L), BI.bigSep_map,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), BI.bigSep_singleton]
  rfl

/-- Opening: the tile's scoped storage is the six scratch buffers, the eight semaphores at zero, and the rest. -/
theorem scoped_open (hF : (K (F := F)).Facts) :
    iprop(scopedBufs (thr d L) ∗ scopedSems0 (thr d L))
      ⊢ (iprop((∃ f, (Memref.whole cc0_scratch0 : Memref sig .scVector .vmem S200 .i32).view.loc (thr d L) ↦{fullShare} f)
        ∗ (∃ f, (Memref.whole cc0_scratch1 : Memref sig .scVector .vmem S200 .i32).view.loc (thr d L) ↦{fullShare} f)
        ∗ (∃ f, (Memref.whole cc0_scratch2 : Memref sig .scVector .vmem S200x128 .f32).view.loc (thr d L) ↦{fullShare} f)
        ∗ (∃ f, (Memref.whole cc0_scratch3 : Memref sig .scVector .vmem S200x128 .f32).view.loc (thr d L) ↦{fullShare} f)
        ∗ (∃ f, (Memref.whole cc0_scratch4 : Memref sig .scVector .vmem S25600 .f32).view.loc (thr d L) ↦{fullShare} f)
        ∗ (∃ f, (Memref.whole cc0_scratch5 : Memref sig .scVector .vmem S25600 .f32).view.loc (thr d L) ↦{fullShare} f)
        ∗ semVal (thr d L, SemLoc.dma cc0_scratch6.sem) 0 ∗ semVal (thr d L, SemLoc.dma cc0_scratch7.sem) 0 ∗ semVal (thr d L, SemLoc.dma cc0_scratch8.sem) 0 ∗ semVal (thr d L, SemLoc.dma cc0_scratch9.sem) 0 ∗ semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0
        ∗ restS d L) : sProp 𝕄) := by
  rw [(K (F := F)).scopedBufs_V hF d (cT L) (sT L), SparseCore.Cfg.scopedSems0_V (Val := Elt F) d (cT L) (sT L),
    ownBufs_eq, ownSems0_eq]
  unfold restS
  iintro ⟨⟨⟨H0, H1, H2, H3, H4, H5⟩, HrB⟩, ⟨⟨G0, G1, G2, G3, G4, G5, G6, G7⟩, HrC⟩⟩
  isplitl [H0]; · iexact H0
  isplitl [H1]; · iexact H1
  isplitl [H2]; · iexact H2
  isplitl [H3]; · iexact H3
  isplitl [H4]; · iexact H4
  isplitl [H5]; · iexact H5
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [HrB]; · iexact HrB
  iexact HrC

/-- Closing: the same pieces make up the tile's scoped storage again. -/
theorem scoped_close (hF : (K (F := F)).Facts) :
    (iprop((∃ f, (Memref.whole cc0_scratch0 : Memref sig .scVector .vmem S200 .i32).view.loc (thr d L) ↦{fullShare} f)
        ∗ (∃ f, (Memref.whole cc0_scratch1 : Memref sig .scVector .vmem S200 .i32).view.loc (thr d L) ↦{fullShare} f)
        ∗ (∃ f, (Memref.whole cc0_scratch2 : Memref sig .scVector .vmem S200x128 .f32).view.loc (thr d L) ↦{fullShare} f)
        ∗ (∃ f, (Memref.whole cc0_scratch3 : Memref sig .scVector .vmem S200x128 .f32).view.loc (thr d L) ↦{fullShare} f)
        ∗ (∃ f, (Memref.whole cc0_scratch4 : Memref sig .scVector .vmem S25600 .f32).view.loc (thr d L) ↦{fullShare} f)
        ∗ (∃ f, (Memref.whole cc0_scratch5 : Memref sig .scVector .vmem S25600 .f32).view.loc (thr d L) ↦{fullShare} f)
        ∗ semVal (thr d L, SemLoc.dma cc0_scratch6.sem) 0 ∗ semVal (thr d L, SemLoc.dma cc0_scratch7.sem) 0 ∗ semVal (thr d L, SemLoc.dma cc0_scratch8.sem) 0 ∗ semVal (thr d L, SemLoc.dma cc0_scratch9.sem) 0 ∗ semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0
        ∗ restS d L) : sProp 𝕄)
      ⊢ iprop(scopedBufs (thr d L) ∗ scopedSems0 (thr d L)) := by
  rw [(K (F := F)).scopedBufs_V hF d (cT L) (sT L), SparseCore.Cfg.scopedSems0_V (Val := Elt F) d (cT L) (sT L),
    ownBufs_eq, ownSems0_eq]
  unfold restS
  iintro ⟨H0, H1, H2, H3, H4, H5, G0, G1, G2, G3, G4, G5, G6, G7, HrB, HrC⟩
  isplitl [H0 H1 H2 H3 H4 H5 HrB]
  · isplitr [HrB]
    isplitl [H0]; · iexact H0
    isplitl [H1]; · iexact H1
    isplitl [H2]; · iexact H2
    isplitl [H3]; · iexact H3
    isplitl [H4]; · iexact H4
    · iexact H5
    · iexact HrB
  · isplitr [HrC]
    isplitl [G0]; · iexact G0
    isplitl [G1]; · iexact G1
    isplitl [G2]; · iexact G2
    isplitl [G3]; · iexact G3
    isplitl [G4]; · iexact G4
    isplitl [G5]; · iexact G5
    isplitl [G6]; · iexact G6
    · iexact G7
    · iexact HrC

end Cert.Proof.KI

end
-- ==== Proof.TileOblI.lean ====
/-
  The tile kernel's obligation to the launch theorem.

  A tile's task is handed its read shares of the tokens and of the table, its 128 output rows as they stand, and the
  subcore's scoped storage. The body's theorem is stated over the resources laid out one by one: the table's share in two
  halves (one per gather slot), the rows as 64 pairs, the six scratch buffers and the eight transfer semaphores. This
  module lays the handed resources out so, applies the body's theorem, and puts what comes back together again.
-/
import proofs.«206347_g23639499997337_cont_sun_m_514_14_alg».proof.Proof.TileCoreI
import proofs.«206347_g23639499997337_cont_sun_m_514_14_alg».proof.Proof.TileRowsI
import proofs.«206347_g23639499997337_cont_sun_m_514_14_alg».proof.Proof.ScopedI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg) (R : RowProp (F := F))

local notation "xW" => (Memref.whole Cert.KernelIdeal.main_arg0_scv : Memref Cert.KernelIdeal.sig Kind.scVector Space.hbm Cert.KernelIdeal.S4096x200 EltTy.i32)
local notation "tW" => (Memref.whole Cert.KernelIdeal.main_arg1_scv : Memref Cert.KernelIdeal.sig Kind.scVector Space.hbm Cert.KernelIdeal.S100000x128 EltTy.f32)
local notation "oW" => (Memref.whole Cert.KernelIdeal.main_v0_scv : Memref Cert.KernelIdeal.sig Kind.scVector Space.hbm Cert.KernelIdeal.S4096x25600 EltTy.f32)
local notation "i0W" => (Memref.whole Cert.KernelIdeal.cc0_scratch0 : Memref Cert.KernelIdeal.sig Kind.scVector Space.vmem Cert.KernelIdeal.S200 EltTy.i32)
local notation "i1W" => (Memref.whole Cert.KernelIdeal.cc0_scratch1 : Memref Cert.KernelIdeal.sig Kind.scVector Space.vmem Cert.KernelIdeal.S200 EltTy.i32)
local notation "e0W" => (Memref.whole Cert.KernelIdeal.cc0_scratch2 : Memref Cert.KernelIdeal.sig Kind.scVector Space.vmem Cert.KernelIdeal.S200x128 EltTy.f32)
local notation "e1W" => (Memref.whole Cert.KernelIdeal.cc0_scratch3 : Memref Cert.KernelIdeal.sig Kind.scVector Space.vmem Cert.KernelIdeal.S200x128 EltTy.f32)
local notation "o0W" => (Memref.whole Cert.KernelIdeal.cc0_scratch4 : Memref Cert.KernelIdeal.sig Kind.scVector Space.vmem Cert.KernelIdeal.S25600 EltTy.f32)
local notation "o1W" => (Memref.whole Cert.KernelIdeal.cc0_scratch5 : Memref Cert.KernelIdeal.sig Kind.scVector Space.vmem Cert.KernelIdeal.S25600 EltTy.f32)

variable (d : Dev nD) (L : grid0.Coords)

variable [FloatOps F]

/-- The task on the tile of coordinates L: from what the launch hands it to what it hands back. -/
theorem tile_body (hF : (K (F := F)).Facts) (hpre : PreOK m) (hR : ∀ d b f, R d b f)
    (O : CellTallies nD τ sig (HIx 1)) (W : Waits sig (HIx 1)) (hO : ∀ g, O g none = 0) :
    iprop(levAts (K (F := F)).L (K (F := F)).lev ∗ (iprop(emp) : sProp 𝕄) ∗ tileIn m d (cL L) (sL L)
        ∗ scopedBufs (thr d L) ∗ scopedSems0 (thr d L) ∗ owes (thr d L) O W)
      ⊢ wp frame (wpE (defs₀ (F := F)) 𝒱₀ (thr d L) none) Set.univ
          (cc0__sc_fused L xW (Memref.isWhole_whole _) tW (Memref.isWhole_whole _) oW (Memref.isWhole_whole _)
            i0W (Memref.isWhole_whole _) i1W (Memref.isWhole_whole _) e0W (Memref.isWhole_whole _) e1W (Memref.isWhole_whole _)
            o0W (Memref.isWhole_whole _) o1W (Memref.isWhole_whole _)
            cc0_scratch6 cc0_scratch7 cc0_scratch8 cc0_scratch9 cc0_scoped0 cc0_scoped1 cc0_scoped2 cc0_scoped3)
          fun _ => iprop(tileOut m R d (cL L) (sL L) ∗ scopedBufs (thr d L) ∗ scopedSems0 (thr d L)
            ∗ ∃ W', ⌜∀ p ∈ W', p ∈ W ∨ p.2 = none⌝ ∗ owes (thr d L) O W') := by
  unfold tileIn tileOut
  rw [rowsIn_eq]
  iintro ⟨#Hlv, -, ⟨Hx, Ht, Hrows⟩, Hsb, Hss, HO⟩
  ihave #Hmw := ((K (F := F)).mayWaits_none (thr := thr d L) hO) $$ Hlv
  ihave Hsc := (scoped_open (F := F) d L hF) $$ [Hsb Hss]
  · isplitl [Hsb] <;> iassumption
  icases Hsc with ⟨⟨%fi0, Hi0⟩, ⟨%fi1, Hi1⟩, ⟨%fe0, He0⟩, ⟨%fe1, He1⟩, ⟨%fo0, Ho0⟩, ⟨%fo1, Ho1⟩, Hs6, Hs7, Hs8, Hs9, Hc0, Hc1, Hc2, Hc3, Hrest⟩
  ihave Ht' := (pointsTo_share (PosShare.mem_left_op_right (tileShare (cL L) (sL L)))).1 $$ Ht
  icases Ht' with ⟨Ht0, Ht1⟩
  iapply (wp_wand_r frame _ Set.univ)
  isplitr [Hrest]
  · iapply (tile_core m d L (tileShare (cL L) (sL L)) (tileShare (cL L) (sL L)).left (tileShare (cL L) (sL L)).right O W hpre fi0 fi1 fe0 fe1 fo0 fo1)
    isplitr; · iexact Hmw
    isplitl [Hx]; · iexact Hx
    isplitl [Ht0]; · iexact Ht0
    isplitl [Ht1]; · iexact Ht1
    isplitl [Hrows]; · iexact Hrows
    isplitl [Hi0]; · iexact Hi0
    isplitl [Hi1]; · iexact Hi1
    isplitl [He0]; · iexact He0
    isplitl [He1]; · iexact He1
    isplitl [Ho0]; · iexact Ho0
    isplitl [Ho1]; · iexact Ho1
    isplitl [Hs6]; · iexact Hs6
    isplitl [Hs7]; · iexact Hs7
    isplitl [Hs8]; · iexact Hs8
    isplitl [Hs9]; · iexact Hs9
    isplitl [Hc0]; · iexact Hc0
    isplitl [Hc1]; · iexact Hc1
    isplitl [Hc2]; · iexact Hc2
    isplitl [Hc3]; · iexact Hc3
    iexact HO
  iintro %u ⟨Hx, Ht0, Ht1, Hdone, Hi0, Hi1, He0, He1, Ho0, Ho1, Hs6, Hs7, Hs8, Hs9, Hc0, Hc1, Hc2, Hc3, HO⟩
  ihave Ht := (pointsTo_share (PosShare.mem_left_op_right (tileShare (cL L) (sL L)))).2 $$ [Ht0 Ht1]
  · isplitl [Ht0] <;> iassumption
  ihave Hout := (rowsOut_of_done d L R hR) $$ Hdone
  ihave Hsc := (scoped_close (F := F) d L hF) $$ [Hi0 Hi1 He0 He1 Ho0 Ho1 Hs6 Hs7 Hs8 Hs9 Hc0 Hc1 Hc2 Hc3 Hrest]
  · isplitl [Hi0]; · iexact Hi0
    isplitl [Hi1]; · iexact Hi1
    isplitl [He0]; · iexact He0
    isplitl [He1]; · iexact He1
    isplitl [Ho0]; · iexact Ho0
    isplitl [Ho1]; · iexact Ho1
    isplitl [Hs6]; · iexact Hs6
    isplitl [Hs7]; · iexact Hs7
    isplitl [Hs8]; · iexact Hs8
    isplitl [Hs9]; · iexact Hs9
    isplitl [Hc0]; · iexact Hc0
    isplitl [Hc1]; · iexact Hc1
    isplitl [Hc2]; · iexact Hc2
    isplitl [Hc3]; · iexact Hc3
    iexact Hrest
  icases Hsc with ⟨Hsb, Hss⟩
  isplitl [Hx Ht Hout]
  · isplitl [Hx]; · iexact Hx
    isplitl [Ht]; · iexact Ht
    iexact Hout
  isplitl [Hsb]; · iexact Hsb
  isplitl [Hss]; · iexact Hss
  ihave HO' := (Entails.of_eq (show owesEx (F := F) d L O W
    = iprop(∃ W', ⌜∀ p ∈ W', p ∈ W ∨ p.2 = none⌝ ∗ owes (thr d L) O W') from rfl)) $$ HO
  iexact HO'

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_fused (coordsV c s) xW (Memref.isWhole_whole _) tW (Memref.isWhole_whole _) oW (Memref.isWhole_whole _)
            i0W (Memref.isWhole_whole _) i1W (Memref.isWhole_whole _) e0W (Memref.isWhole_whole _) e1W (Memref.isWhole_whole _)
            o0W (Memref.isWhole_whole _) o1W (Memref.isWhole_whole _)
            cc0_scratch6 cc0_scratch7 cc0_scratch8 cc0_scratch9 cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile kernel's obligation, for a row property that holds of any contents. -/
theorem tileObl (hF : (K (F := F)).Facts) (hpre : PreOK m) (hR : ∀ d b f, R d b f) :
    (K (F := F)).TileObl (D (F := F)) 𝒱 (P m R) v₀ 0 := by
  intro d c i O W hO _ _
  simp only [show (P m R).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m R d (coordsV ⟨_, hc.1⟩ ⟨_, hc.2⟩) hF hpre hR O W hO).trans (wp_mono frame _ _ fun _ => obl_post)

end Cert.Proof.KI

end
-- ==== Proof.TileValDefsI.lean ====
/-
  The lookup's values, piece by piece, for one batch row b of the flat output:
  the fetched token row holds x[b, ·]; the gathered block holds table[x[b, l], e] at (l, e); the flat buffer holds the
  transposed block, which is row b of Spec.fmapFlat.
-/
import proofs.«206347_g23639499997337_cont_sun_m_514_14_alg».proof.Proof.TileInvI

noncomputable section

namespace Cert.Proof.KI

open Cert.KernelIdeal Idealize.ShloMosaic Idealize.ShloMosaic.ValueIdx

variable {F : FTy → Type}
variable (m : (ℓ : Loc nD τ sig) → Buf (Elt F) ℓ) (d : Dev nD)

/-- an index scratch holds the tokens of batch row b -/
def IdxOK (b : Fin 4096) (fi : S200.Idx → Elt F .i32) : Prop := ∀ j, fi j = m (xLoc d) (ix2 b (j 0))
/-- a gathered block holds, at (l, e), entry e of the table row that token (b, l) names -/
def EmbOK (b : Fin 4096) (fe : S200x128.Idx → Elt F .f32) : Prop :=
  ∀ j, fe j = m (tLoc d) (ix2 (Cert.Proof.Spec.rowOf (m (xLoc d) (ix2 b (j 0)))) (j 1))
/-- a flat buffer holds row b of the lookup's flat values -/
def FlatOK (b : Fin 4096) (fo : S25600.Idx → Elt F .f32) : Prop := ∀ p, fo p = G0 m d (ix2 b (p 0))

end Cert.Proof.KI

end
-- ==== Proof.LibScatterTranspose.lean ====
/-
  A 200 × 128 block transposed into a flat buffer of 25600 entries by indexed loads and stores of sixteen lanes.

  The flat buffer's target contents put entry (l, c) of the block at position c · 200 + l. One step loads sixteen
  entries of the block at (rows x, cols x) and stores them at positions idx x. If each lane's position is
  cols x · 200 + rows x, the stored value is the target's value at that position; so after the step the buffer agrees
  with the target wherever it did before, and at the sixteen positions just written. The store takes its lanes one
  after another, each overwriting one position: the statement is the invariant of that fold. A sequence of steps whose
  positions follow a rotating diagonal pattern then fills, sixteen columns of the block at a time, every position of
  those columns.
-/
import Idealize.ShloMosaic.PureOps
import Idealize.ShloMosaic.Lib.ValueIdx

noncomputable section

namespace Cert.Proof.Lib

open Idealize.ShloMosaic Idealize.ShloMosaic.ValueIdx

/-- the block: 200 rows of 128 entries -/
abbrev SE : Shape := ⟨2, ![200, 128]⟩
/-- the flat buffer -/
abbrev SO : Shape := ⟨1, ![25600]⟩
/-- sixteen lanes -/
abbrev S16 : Shape := ⟨1, ![16]⟩

variable {F : FTy → Type} [FloatOps F] {e : EltTy}

/-- The transposed block, flat: position p holds entry (p mod 200, p div 200). -/
def target (fe : Vec F SE e) : Vec F SO e :=
  fun p => fe (ix2 ⟨(p 0).val % 200, Nat.mod_lt _ (by decide)⟩
    ⟨(p 0).val / 200, (Nat.div_lt_iff_lt_mul (by decide)).2 (p 0).isLt⟩)

/-- One lane of an unmasked indexed store that does not add: the buffer with lane k's value put at lane k's
    position. -/
def put (idx : IVec S16 32) (hS : ∀ a x, ((![idx] : Fin 1 → IVec S16 32) a x).toNat < SO.size a) (v : Vec F S16 e)
    (g : Vec F SO e) (k : Fin 16) : Vec F SO e :=
  fun j => if (∀ a, (j a).val = (idxAt ![idx] hS (Shape.ofLane k) a).val) then v (Shape.ofLane k) else g j

/-- The unmasked indexed store that does not add is the lanes put one after another, in ascending order. -/
theorem storeIdx_eq_foldl (fo : Vec F SO e) (idx : IVec S16 32)
    (hS : ∀ a x, ((![idx] : Fin 1 → IVec S16 32) a x).toNat < SO.size a) (v : Vec F S16 e) :
    storeIdx fo ![idx] v (fun _ => 1#1) false hS = (List.finRange 16).foldl (put idx hS v) fo := rfl

/-- A position that held the target's value still does after one lane is put, if that lane's value is the target's
    at its position. -/
theorem put_keep (T : Vec F SO e) (idx : IVec S16 32)
    (hS : ∀ a x, ((![idx] : Fin 1 → IVec S16 32) a x).toNat < SO.size a) (v : Vec F S16 e)
    (hv : ∀ x, v x = T (idxAt ![idx] hS x)) (g : Vec F SO e) (k : Fin 16) (p : SO.Idx) (hp : g p = T p) :
    put idx hS v g k p = T p := by
  unfold put
  split
  · next h =>
    have hpk : p = idxAt ![idx] hS (Shape.ofLane k) := funext fun a => Fin.ext (h a)
    rw [hv, hpk]
  · exact hp

/-- The lane's own position holds the lane's value. -/
theorem put_hit (idx : IVec S16 32) (hS : ∀ a x, ((![idx] : Fin 1 → IVec S16 32) a x).toNat < SO.size a)
    (v : Vec F S16 e) (g : Vec F SO e) (k : Fin 16) :
    put idx hS v g k (idxAt ![idx] hS (Shape.ofLane k)) = v (Shape.ofLane k) := by
  unfold put
  exact if_pos fun _ => rfl

/-- The fold's invariant: after the lanes of a list are put, the buffer agrees with the target wherever it did
    before, and at the position of every lane of the list. -/
theorem foldl_put (T : Vec F SO e) (idx : IVec S16 32)
    (hS : ∀ a x, ((![idx] : Fin 1 → IVec S16 32) a x).toNat < SO.size a) (v : Vec F S16 e)
    (hv : ∀ x, v x = T (idxAt ![idx] hS x)) :
    ∀ (ks : List (Fin 16)) (g : Vec F SO e),
      (∀ p, g p = T p → ks.foldl (put idx hS v) g p = T p)
      ∧ (∀ k ∈ ks, ks.foldl (put idx hS v) g (idxAt ![idx] hS (Shape.ofLane k)) = T (idxAt ![idx] hS (Shape.ofLane k)))
  | [], _ => ⟨fun _ hp => hp, fun _ hk => absurd hk List.not_mem_nil⟩
  | k :: ks, g => by
    obtain ⟨ha, hb⟩ := foldl_put T idx hS v hv ks (put idx hS v g k)
    simp only [List.foldl_cons]
    refine ⟨fun p hp => ha p (put_keep T idx hS v hv g k p hp), fun k' hk' => ?_⟩
    rcases List.mem_cons.1 hk' with rfl | hk'
    · exact ha _ (by rw [put_hit, hv])
    · exact hb k' hk'

/-- A lane whose position is cols · 200 + rows, with rows < 200, loads the target's value at that position. -/
theorem lane_value (fe : Vec F SE e) (rows cols idx : IVec S16 32)
    (hL : ∀ a x, ((![rows, cols] : Fin 2 → IVec S16 32) a x).toNat < SE.size a)
    (hS : ∀ a x, ((![idx] : Fin 1 → IVec S16 32) a x).toNat < SO.size a)
    (hmatch : ∀ x, (idx x).toNat = (cols x).toNat * 200 + (rows x).toNat) (x : S16.Idx) :
    loadIdx fe ![rows, cols] hL x = target fe (idxAt ![idx] hS x) := by
  unfold loadIdx target
  refine congrArg fe (funext fun a => Fin.ext ?_)
  have hr : (rows x).toNat < 200 := hL 0 x
  have hm := hmatch x
  match a with
  | ⟨0, _⟩ =>
    show (rows x).toNat = (idx x).toNat % 200
    omega
  | ⟨1, _⟩ =>
    show (cols x).toNat = (idx x).toNat / 200
    omega

/-- Every lane index is the index of its lane number. -/
theorem eq_ofLane (x : S16.Idx) : x = Shape.ofLane (d := ![16]) (x 0) := by
  funext a
  obtain rfl : a = 0 := Fin.eq_zero a
  rfl

/-- ONE STEP: sixteen entries of the block loaded at (rows, cols) and stored at positions idx = cols · 200 + rows
    leave the flat buffer agreeing with the target wherever it did, and at the sixteen positions written. -/
theorem scatter_agree (fe : Vec F SE e) (fo : Vec F SO e) (rows cols idx : IVec S16 32)
    (hL : ∀ a x, ((![rows, cols] : Fin 2 → IVec S16 32) a x).toNat < SE.size a)
    (hS : ∀ a x, ((![idx] : Fin 1 → IVec S16 32) a x).toNat < SO.size a)
    (hmatch : ∀ x, (idx x).toNat = (cols x).toNat * 200 + (rows x).toNat) :
    (∀ p, fo p = target fe p →
        storeIdx fo ![idx] (loadIdx fe ![rows, cols] hL) (fun _ => 1#1) false hS p = target fe p)
    ∧ (∀ x, storeIdx fo ![idx] (loadIdx fe ![rows, cols] hL) (fun _ => 1#1) false hS (idxAt ![idx] hS x)
        = target fe (idxAt ![idx] hS x)) := by
  rw [storeIdx_eq_foldl]
  obtain ⟨ha, hb⟩ := foldl_put (target fe) idx hS (loadIdx fe ![rows, cols] hL)
    (lane_value fe rows cols idx hL hS hmatch) (List.finRange 16) fo
  refine ⟨ha, fun x => ?_⟩
  have h := hb (x 0) (List.mem_finRange _)
  rwa [← eq_ofLane x] at h

/-! ### A sweep of steps

Step n of a sweep that starts at block row l0 has lane x handle block row l0 + x and block column
(x + n mod 16) mod 16 + 16 · (n div 16): within each group of sixteen columns the lanes run down a diagonal that
rotates by one column per step, so sixteen steps visit every (row, column) pair of the group once. -/

/-- The flat position lane x writes at step n: column · 200 + row. -/
def posVal (l0 n x : ℕ) : ℕ := ((x + n % 16) % 16 + 16 * (n / 16)) * 200 + l0 + x

/-- The buffer agrees with the target at every position the first n steps write. -/
def Acc (fe : Vec F SE e) (l0 n : ℕ) (fo : Vec F SO e) : Prop :=
  ∀ j, j < n → ∀ x : Fin 16, ∀ p : SO.Idx, (p 0).val = posVal l0 j x.val → fo p = target fe p

/-- Before any step nothing is asked. -/
theorem acc_zero (fe : Vec F SE e) (l0 : ℕ) (fo : Vec F SO e) : Acc fe l0 0 fo :=
  fun _ hj => absurd hj (Nat.not_lt_zero _)

/-- Step n, storing at the positions posVal l0 n, extends the agreement from the first n steps' positions to the
    first n + 1 steps': the earlier positions keep the target's values, the sixteen new ones receive them. -/
theorem acc_step (fe : Vec F SE e) (fo : Vec F SO e) (rows cols idx : IVec S16 32)
    (hL : ∀ a x, ((![rows, cols] : Fin 2 → IVec S16 32) a x).toNat < SE.size a)
    (hS : ∀ a x, ((![idx] : Fin 1 → IVec S16 32) a x).toNat < SO.size a)
    (hmatch : ∀ x, (idx x).toNat = (cols x).toNat * 200 + (rows x).toNat)
    (l0 n : ℕ) (hidx : ∀ x, (idx x).toNat = posVal l0 n (x 0).val) (h : Acc fe l0 n fo) :
    Acc fe l0 (n + 1) (storeIdx fo ![idx] (loadIdx fe ![rows, cols] hL) (fun _ => 1#1) false hS) := by
  obtain ⟨ha, hb⟩ := scatter_agree fe fo rows cols idx hL hS hmatch
  intro j hj x p hp
  rcases Nat.lt_succ_iff_lt_or_eq.1 hj with hlt | hjn
  · exact ha p (h j hlt x p hp)
  · have hpx : p = idxAt ![idx] hS (ix1 x) := funext fun a => Fin.ext (by
      obtain rfl : a = 0 := Fin.eq_zero a
      show (p 0).val = (idx (ix1 x)).toNat
      rw [hp, hidx, hjn])
    rw [hpx]
    exact hb _

/-- THE COVER: the 128 steps of a sweep write, for every lane x, the positions of all 128 columns of block row
    l0 + x: column c is written at step 16 · (c div 16) + (c mod 16 + 16 − x) mod 16. -/
theorem cover (l0 : ℕ) (_hl : l0 + 15 < 200) (c : ℕ) (hc : c < 128) (x : ℕ) (hx : x < 16) :
    ∃ j, j < 128 ∧ posVal l0 j x = c * 200 + l0 + x := by
  refine ⟨16 * (c / 16) + (c % 16 + 16 - x) % 16, by omega, ?_⟩
  unfold posVal
  omega

/-- After the 128 steps the buffer holds the target at column c of block row l0 + x, for every column and lane. -/
theorem acc_full (fe : Vec F SE e) (l0 : ℕ) (hl : l0 + 15 < 200) (fo : Vec F SO e) (h : Acc fe l0 128 fo)
    (c : Fin 128) (x : Fin 16) (p : SO.Idx) (hp : (p 0).val = c.val * 200 + l0 + x.val) : fo p = target fe p := by
  obtain ⟨j, hj, hpos⟩ := cover l0 hl c.val c.isLt x.val x.isLt
  exact h j hj x p (hp.trans hpos.symm)

end Cert.Proof.Lib

end
-- ==== Proof.TileValI.lean ====
/-
  The lookup's values through one pair-trip's transfers, as the terms the transfers leave.

  The token-row copy leaves the index scratch holding row b of the tokens. The gather then delivers, at (l, e) of its
  block, entry e of the table row that token (b, l) names — the token, below the table's 100000 rows, names the row
  of its own number. The transposition leaves the flat buffer holding, at position e · 200 + l, the block's entry
  (l, e): row b of the lookup's flat values. The copy-out writes the flat buffer over row b of the flat output.
-/
import proofs.«206347_g23639499997337_cont_sun_m_514_14_alg».proof.Proof.TileValDefsI
import proofs.«206347_g23639499997337_cont_sun_m_514_14_alg».proof.Proof.LibScatterTranspose
import proofs.«206347_g23639499997337_cont_sun_m_514_14_alg».proof.Proof.TileRowsI
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (d : Dev nD) (L : grid0.Coords)

local notation "xW" => (Memref.whole Cert.KernelIdeal.main_arg0_scv : Memref Cert.KernelIdeal.sig Kind.scVector Space.hbm Cert.KernelIdeal.S4096x200 EltTy.i32)
local notation "tW" => (Memref.whole Cert.KernelIdeal.main_arg1_scv : Memref Cert.KernelIdeal.sig Kind.scVector Space.hbm Cert.KernelIdeal.S100000x128 EltTy.f32)
local notation "oW" => (Memref.whole Cert.KernelIdeal.main_v0_scv : Memref Cert.KernelIdeal.sig Kind.scVector Space.hbm Cert.KernelIdeal.S4096x25600 EltTy.f32)
local notation "i0W" => (Memref.whole Cert.KernelIdeal.cc0_scratch0 : Memref Cert.KernelIdeal.sig Kind.scVector Space.vmem Cert.KernelIdeal.S200 EltTy.i32)
local notation "i1W" => (Memref.whole Cert.KernelIdeal.cc0_scratch1 : Memref Cert.KernelIdeal.sig Kind.scVector Space.vmem Cert.KernelIdeal.S200 EltTy.i32)
local notation "e0W" => (Memref.whole Cert.KernelIdeal.cc0_scratch2 : Memref Cert.KernelIdeal.sig Kind.scVector Space.vmem Cert.KernelIdeal.S200x128 EltTy.f32)
local notation "e1W" => (Memref.whole Cert.KernelIdeal.cc0_scratch3 : Memref Cert.KernelIdeal.sig Kind.scVector Space.vmem Cert.KernelIdeal.S200x128 EltTy.f32)
local notation "o0W" => (Memref.whole Cert.KernelIdeal.cc0_scratch4 : Memref Cert.KernelIdeal.sig Kind.scVector Space.vmem Cert.KernelIdeal.S25600 EltTy.f32)
local notation "o1W" => (Memref.whole Cert.KernelIdeal.cc0_scratch5 : Memref Cert.KernelIdeal.sig Kind.scVector Space.vmem Cert.KernelIdeal.S25600 EltTy.f32)

open Idealize.ShloMosaic.ValueIdx

/-- an element of the one-row slice at row b of the tokens is (b, position) -/
theorem xRow_emb0 (off : Fin 2 → Nat) (inb : ∀ a, off a + S1x200.size a ≤ S4096x200.size a) (b : Fin 4096) (hoff : off = ![b.val, 0])
    (y : S200.Idx) :
    (((xW).slice (Rect.unit (s := S4096x200) off S1x200.size inb) (fun _ => rfl)).squeeze S200 squeezes_S1x200_S200).view.emb y = ix2 b (y 0) := by
  have hz : Shape.reshapeEquiv (s := S1x200) (s' := S200) squeezes_S1x200_S200.numel_eq y = (ix2 (0 : Fin 1) (y 0) : S1x200.Idx) :=
    Shape.reshapeEquiv_eq_of_rowMajor _ ((Shape.rowMajor_val_two (d := ![1, 200]) (ix2 (0 : Fin 1) (y 0))).trans (Eq.trans (by
      show 0 * 200 + (y 0).val = (y 0).val
      omega) (Shape.rowMajor_val_one (d := ![200]) y).symm))
  funext a
  apply Fin.ext
  show ((Rect.unit (s := S4096x200) off S1x200.size inb).emb
    (Shape.reshapeEquiv (s := S1x200) (s' := S200) squeezes_S1x200_S200.numel_eq y) a : Nat) = _
  rw [hz, Rect.emb_apply]
  show off a + 1 * ((ix2 (0 : Fin 1) (y 0) : S1x200.Idx) a).val = ((ix2 b (y 0) : S4096x200.Idx) a).val
  rw [hoff]
  match a with
  | ⟨0, _⟩ => show b.val + 1 * 0 = b.val; omega
  | ⟨1, _⟩ => show 0 + 1 * (y 0).val = (y 0).val; omega

/-- the index scratch after the token-row copy holds row b of the tokens -/
theorem FI_apply0 (off : Fin 2 → Nat) (inb : ∀ a, off a + S1x200.size a ≤ S4096x200.size a) (b : Fin 4096) (hoff : off = ![b.val, 0])
    (fi_old : Buf (Elt F) ((i0W).view.loc (thr d L))) (y : S200.Idx) :
    (i0W).view.read (Elt F) ((i0W).view.write (Elt F) fi_old (ReadAs.same.apply (View.read (Elt F) (((xW).slice (Rect.unit (s := S4096x200) off S1x200.size inb) (fun _ => rfl)).squeeze S200 squeezes_S1x200_S200).view (m (xLoc d)))) Finset.univ) y = m (xLoc d) (ix2 b (y 0)) := by
  have e1 : ((i0W).view.write (Elt F) fi_old (ReadAs.same.apply (View.read (Elt F) (((xW).slice (Rect.unit (s := S4096x200) off S1x200.size inb) (fun _ => rfl)).squeeze S200 squeezes_S1x200_S200).view (m (xLoc d)))) Finset.univ) = (ReadAs.same.apply (View.read (Elt F) (((xW).slice (Rect.unit (s := S4096x200) off S1x200.size inb) (fun _ => rfl)).squeeze S200 squeezes_S1x200_S200).view (m (xLoc d)))) :=
    View.write_whole_univ (cc0_scratch0 : Ref sig .scVector) fi_old _
  rw [e1]
  show View.read (Elt F) (((xW).slice (Rect.unit (s := S4096x200) off S1x200.size inb) (fun _ => rfl)).squeeze S200 squeezes_S1x200_S200).view (m (xLoc d)) y = _
  rw [View.read_apply, cast_eq, xRow_emb0 off inb b hoff y]
  rfl

/-- an element of the one-row slice at row b of the tokens is (b, position) -/
theorem xRow_emb1 (off : Fin 2 → Nat) (inb : ∀ a, off a + S1x200.size a ≤ S4096x200.size a) (b : Fin 4096) (hoff : off = ![b.val, 0])
    (y : S200.Idx) :
    (((xW).slice (Rect.unit (s := S4096x200) off S1x200.size inb) (fun _ => rfl)).squeeze S200 squeezes_S1x200_S200).view.emb y = ix2 b (y 0) := by
  have hz : Shape.reshapeEquiv (s := S1x200) (s' := S200) squeezes_S1x200_S200.numel_eq y = (ix2 (0 : Fin 1) (y 0) : S1x200.Idx) :=
    Shape.reshapeEquiv_eq_of_rowMajor _ ((Shape.rowMajor_val_two (d := ![1, 200]) (ix2 (0 : Fin 1) (y 0))).trans (Eq.trans (by
      show 0 * 200 + (y 0).val = (y 0).val
      omega) (Shape.rowMajor_val_one (d := ![200]) y).symm))
  funext a
  apply Fin.ext
  show ((Rect.unit (s := S4096x200) off S1x200.size inb).emb
    (Shape.reshapeEquiv (s := S1x200) (s' := S200) squeezes_S1x200_S200.numel_eq y) a : Nat) = _
  rw [hz, Rect.emb_apply]
  show off a + 1 * ((ix2 (0 : Fin 1) (y 0) : S1x200.Idx) a).val = ((ix2 b (y 0) : S4096x200.Idx) a).val
  rw [hoff]
  match a with
  | ⟨0, _⟩ => show b.val + 1 * 0 = b.val; omega
  | ⟨1, _⟩ => show 0 + 1 * (y 0).val = (y 0).val; omega

/-- the index scratch after the token-row copy holds row b of the tokens -/
theorem FI_apply1 (off : Fin 2 → Nat) (inb : ∀ a, off a + S1x200.size a ≤ S4096x200.size a) (b : Fin 4096) (hoff : off = ![b.val, 0])
    (fi_old : Buf (Elt F) ((i1W).view.loc (thr d L))) (y : S200.Idx) :
    (i1W).view.read (Elt F) ((i1W).view.write (Elt F) fi_old (ReadAs.same.apply (View.read (Elt F) (((xW).slice (Rect.unit (s := S4096x200) off S1x200.size inb) (fun _ => rfl)).squeeze S200 squeezes_S1x200_S200).view (m (xLoc d)))) Finset.univ) y = m (xLoc d) (ix2 b (y 0)) := by
  have e1 : ((i1W).view.write (Elt F) fi_old (ReadAs.same.apply (View.read (Elt F) (((xW).slice (Rect.unit (s := S4096x200) off S1x200.size inb) (fun _ => rfl)).squeeze S200 squeezes_S1x200_S200).view (m (xLoc d)))) Finset.univ) = (ReadAs.same.apply (View.read (Elt F) (((xW).slice (Rect.unit (s := S4096x200) off S1x200.size inb) (fun _ => rfl)).squeeze S200 squeezes_S1x200_S200).view (m (xLoc d)))) :=
    View.write_whole_univ (cc0_scratch1 : Ref sig .scVector) fi_old _
  rw [e1]
  show View.read (Elt F) (((xW).slice (Rect.unit (s := S4096x200) off S1x200.size inb) (fun _ => rfl)).squeeze S200 squeezes_S1x200_S200).view (m (xLoc d)) y = _
  rw [View.read_apply, cast_eq, xRow_emb1 off inb b hoff y]
  rfl

theorem emb_ok0 (off : Fin 2 → Nat) (inb : ∀ a, off a + S1x200.size a ≤ S4096x200.size a) (b : Fin 4096) (hoff : off = ![b.val, 0])
    (fi_old : Buf (Elt F) ((i0W).view.loc (thr d L))) (fe_old : Buf (Elt F) ((e0W).view.loc (thr d L)))
    (h13 : (cc0_scratch0 : Ref sig .scVector).ty.shape.numel = (Rect.whole (cc0_scratch2 : Ref sig .scVector).ty.shape).shape.size gathers_S100000x128_S200x128.axis')
    (hin : ∀ j : (cc0_scratch0 : Ref sig .scVector).ty.shape.Idx, ((i0W).view.read (Elt F) ((i0W).view.write (Elt F) fi_old (ReadAs.same.apply (View.read (Elt F) (((xW).slice (Rect.unit (s := S4096x200) off S1x200.size inb) (fun _ => rfl)).squeeze S200 squeezes_S1x200_S200).view (m (xLoc d)))) Finset.univ) j).toNat < S100000x128.size gathers_S100000x128_S200x128.axis) :
    EmbOK m d b ((e0W).view.writes (Elt F) fe_old [⟨Rect.whole (cc0_scratch2 : Ref sig .scVector).ty.shape,
      SparseCore.gatherPayload gathers_S100000x128_S200x128 (View.read (Elt F) (tSl).view (m (tLoc d)))
        (SparseCore.rows (View.read (Elt F) (i0W).view ((i0W).view.write (Elt F) fi_old (ReadAs.same.apply (View.read (Elt F) (((xW).slice (Rect.unit (s := S4096x200) off S1x200.size inb) (fun _ => rfl)).squeeze S200 squeezes_S1x200_S200).view (m (xLoc d)))) Finset.univ)) h13 hin)⟩]) := by
  intro j
  have hw := View.read_writes_cons_emb (e0W).view fe_old (Rect.whole (cc0_scratch2 : Ref sig .scVector).ty.shape)
    (SparseCore.gatherPayload gathers_S100000x128_S200x128 (View.read (Elt F) (tSl).view (m (tLoc d)))
        (SparseCore.rows (View.read (Elt F) (i0W).view ((i0W).view.write (Elt F) fi_old (ReadAs.same.apply (View.read (Elt F) (((xW).slice (Rect.unit (s := S4096x200) off S1x200.size inb) (fun _ => rfl)).squeeze S200 squeezes_S1x200_S200).view (m (xLoc d)))) Finset.univ)) h13 hin)) [] j
  rw [Rect.emb_whole_apply, View.read_apply, cast_eq] at hw
  show ((e0W).view.writes (Elt F) fe_old _) ((e0W).view.emb j) = _
  rw [hw]
  unfold SparseCore.gatherPayload
  rw [View.read_apply, cast_eq]
  -- the token the gather read for block row j 0
  let y' : S200.Idx := S200.rowMajor.symm ((j gathers_S100000x128_S200x128.axis').cast h13.symm)
  have hy0 : (y' 0).val = (j 0).val := by
    have h1 := Shape.rowMajor_val_one (d := ![200]) y'
    have h2 : (S200.rowMajor y').val = (j gathers_S100000x128_S200x128.axis').val := by
      show (S200.rowMajor (S200.rowMajor.symm _)).val = _
      rw [Equiv.apply_symm_apply]; rfl
    exact h1.symm.trans h2
  have hyj : (ix2 b (y' 0) : S4096x200.Idx) = ix2 b (j 0) := by
    funext a
    match a with
    | ⟨0, _⟩ => rfl
    | ⟨1, _⟩ => exact Fin.ext hy0
  have hrd := FI_apply0 m d L off inb b hoff fi_old y'
  have hlt := hin y'
  rw [hrd, hyj] at hlt
  congr 1
  funext a
  apply Fin.ext
  match a with
  | ⟨0, _⟩ =>
    show ((Rect.unit (s := S100000x128) ![0, 0] S100000x128.size inb_S100000x128_S100000x128_0_0).emb _ ⟨0, _⟩ : Nat) = _
    rw [Rect.emb_apply]
    show 0 + 1 * ((i0W).view.read (Elt F) ((i0W).view.write (Elt F) fi_old (ReadAs.same.apply (View.read (Elt F) (((xW).slice (Rect.unit (s := S4096x200) off S1x200.size inb) (fun _ => rfl)).squeeze S200 squeezes_S1x200_S200).view (m (xLoc d)))) Finset.univ) y').toNat = (Cert.Proof.Spec.rowOf (m (xLoc d) (ix2 b (j 0)))).val
    rw [hrd, hyj]
    refine Eq.trans ?_ (Cert.Proof.Spec.rowOf_val_of_lt hlt).symm
    omega
  | ⟨1, _⟩ =>
    show ((Rect.unit (s := S100000x128) ![0, 0] S100000x128.size inb_S100000x128_S100000x128_0_0).emb _ ⟨1, _⟩ : Nat) = _
    rw [Rect.emb_apply]
    show 0 + 1 * (gathers_S100000x128_S200x128.idx _ j ⟨1, _⟩).val = (j 1).val
    rw [Shape.Gathers.idx_of_ne _ _ _ _ Nat.one_ne_zero]
    show 0 + 1 * (j 1).val = (j 1).val
    omega

theorem emb_ok1 (off : Fin 2 → Nat) (inb : ∀ a, off a + S1x200.size a ≤ S4096x200.size a) (b : Fin 4096) (hoff : off = ![b.val, 0])
    (fi_old : Buf (Elt F) ((i1W).view.loc (thr d L))) (fe_old : Buf (Elt F) ((e1W).view.loc (thr d L)))
    (h13 : (cc0_scratch1 : Ref sig .scVector).ty.shape.numel = (Rect.whole (cc0_scratch3 : Ref sig .scVector).ty.shape).shape.size gathers_S100000x128_S200x128.axis')
    (hin : ∀ j : (cc0_scratch1 : Ref sig .scVector).ty.shape.Idx, ((i1W).view.read (Elt F) ((i1W).view.write (Elt F) fi_old (ReadAs.same.apply (View.read (Elt F) (((xW).slice (Rect.unit (s := S4096x200) off S1x200.size inb) (fun _ => rfl)).squeeze S200 squeezes_S1x200_S200).view (m (xLoc d)))) Finset.univ) j).toNat < S100000x128.size gathers_S100000x128_S200x128.axis) :
    EmbOK m d b ((e1W).view.writes (Elt F) fe_old [⟨Rect.whole (cc0_scratch3 : Ref sig .scVector).ty.shape,
      SparseCore.gatherPayload gathers_S100000x128_S200x128 (View.read (Elt F) (tSl).view (m (tLoc d)))
        (SparseCore.rows (View.read (Elt F) (i1W).view ((i1W).view.write (Elt F) fi_old (ReadAs.same.apply (View.read (Elt F) (((xW).slice (Rect.unit (s := S4096x200) off S1x200.size inb) (fun _ => rfl)).squeeze S200 squeezes_S1x200_S200).view (m (xLoc d)))) Finset.univ)) h13 hin)⟩]) := by
  intro j
  have hw := View.read_writes_cons_emb (e1W).view fe_old (Rect.whole (cc0_scratch3 : Ref sig .scVector).ty.shape)
    (SparseCore.gatherPayload gathers_S100000x128_S200x128 (View.read (Elt F) (tSl).view (m (tLoc d)))
        (SparseCore.rows (View.read (Elt F) (i1W).view ((i1W).view.write (Elt F) fi_old (ReadAs.same.apply (View.read (Elt F) (((xW).slice (Rect.unit (s := S4096x200) off S1x200.size inb) (fun _ => rfl)).squeeze S200 squeezes_S1x200_S200).view (m (xLoc d)))) Finset.univ)) h13 hin)) [] j
  rw [Rect.emb_whole_apply, View.read_apply, cast_eq] at hw
  show ((e1W).view.writes (Elt F) fe_old _) ((e1W).view.emb j) = _
  rw [hw]
  unfold SparseCore.gatherPayload
  rw [View.read_apply, cast_eq]
  -- the token the gather read for block row j 0
  let y' : S200.Idx := S200.rowMajor.symm ((j gathers_S100000x128_S200x128.axis').cast h13.symm)
  have hy0 : (y' 0).val = (j 0).val := by
    have h1 := Shape.rowMajor_val_one (d := ![200]) y'
    have h2 : (S200.rowMajor y').val = (j gathers_S100000x128_S200x128.axis').val := by
      show (S200.rowMajor (S200.rowMajor.symm _)).val = _
      rw [Equiv.apply_symm_apply]; rfl
    exact h1.symm.trans h2
  have hyj : (ix2 b (y' 0) : S4096x200.Idx) = ix2 b (j 0) := by
    funext a
    match a with
    | ⟨0, _⟩ => rfl
    | ⟨1, _⟩ => exact Fin.ext hy0
  have hrd := FI_apply1 m d L off inb b hoff fi_old y'
  have hlt := hin y'
  rw [hrd, hyj] at hlt
  congr 1
  funext a
  apply Fin.ext
  match a with
  | ⟨0, _⟩ =>
    show ((Rect.unit (s := S100000x128) ![0, 0] S100000x128.size inb_S100000x128_S100000x128_0_0).emb _ ⟨0, _⟩ : Nat) = _
    rw [Rect.emb_apply]
    show 0 + 1 * ((i1W).view.read (Elt F) ((i1W).view.write (Elt F) fi_old (ReadAs.same.apply (View.read (Elt F) (((xW).slice (Rect.unit (s := S4096x200) off S1x200.size inb) (fun _ => rfl)).squeeze S200 squeezes_S1x200_S200).view (m (xLoc d)))) Finset.univ) y').toNat = (Cert.Proof.Spec.rowOf (m (xLoc d) (ix2 b (j 0)))).val
    rw [hrd, hyj]
    refine Eq.trans ?_ (Cert.Proof.Spec.rowOf_val_of_lt hlt).symm
    omega
  | ⟨1, _⟩ =>
    show ((Rect.unit (s := S100000x128) ![0, 0] S100000x128.size inb_S100000x128_S100000x128_0_0).emb _ ⟨1, _⟩ : Nat) = _
    rw [Rect.emb_apply]
    show 0 + 1 * (gathers_S100000x128_S200x128.idx _ j ⟨1, _⟩).val = (j 1).val
    rw [Shape.Gathers.idx_of_ne _ _ _ _ Nat.one_ne_zero]
    show 0 + 1 * (j 1).val = (j 1).val
    omega

theorem flat_of_emb (b : Fin 4096) (fe : S200x128.Idx → Elt F .f32) (fo : S25600.Idx → Elt F .f32) (he : EmbOK m d b fe)
    (ht : ∀ p, fo p = Cert.Proof.Lib.target fe p) : FlatOK m d b fo := by
  intro p
  rw [ht p]
  unfold Cert.Proof.Lib.target
  rw [he]
  rfl

/-- an element of the one-row slice at row b of the flat output is (b, column) -/
theorem oRow0_emb (t : Fin k0_t1_loop.trips) (b : Fin 4096) (hb : k0_off3 L t 0#32 = ![b.val, 0]) (y : S25600.Idx) :
    (oRow0 L t).view.emb y = ix2 b (y 0) := by
  have hz : Shape.reshapeEquiv (s := S1x25600) (s' := S25600) squeezes_S1x25600_S25600.numel_eq y = (ix2 (0 : Fin 1) (y 0) : S1x25600.Idx) :=
    Shape.reshapeEquiv_eq_of_rowMajor _ ((Shape.rowMajor_val_two (d := ![1, 25600]) (ix2 (0 : Fin 1) (y 0))).trans (Eq.trans (by
      show 0 * 25600 + (y 0).val = (y 0).val
      omega) (Shape.rowMajor_val_one (d := ![25600]) y).symm))
  funext a
  apply Fin.ext
  show ((Rect.unit (s := S4096x25600) (k0_off3 L t 0#32) S1x25600.size (k0_off3_inb L t 0)).emb
    (Shape.reshapeEquiv (s := S1x25600) (s' := S25600) squeezes_S1x25600_S25600.numel_eq y) a : Nat) = _
  rw [hz, Rect.emb_apply]
  show k0_off3 L t 0#32 a + 1 * ((ix2 (0 : Fin 1) (y 0) : S1x25600.Idx) a).val = ((ix2 b (y 0) : S4096x25600.Idx) a).val
  rw [hb]
  match a with
  | ⟨0, _⟩ => show b.val + 1 * 0 = b.val; omega
  | ⟨1, _⟩ => show 0 + 1 * (y 0).val = (y 0).val; omega

/-- an element of the one-row slice at row b of the flat output is (b, column) -/
theorem oRow1_emb (t : Fin k0_t1_loop.trips) (b : Fin 4096) (hb : k0_off3 L t 1#32 = ![b.val, 0]) (y : S25600.Idx) :
    (oRow1 L t).view.emb y = ix2 b (y 0) := by
  have hz : Shape.reshapeEquiv (s := S1x25600) (s' := S25600) squeezes_S1x25600_S25600.numel_eq y = (ix2 (0 : Fin 1) (y 0) : S1x25600.Idx) :=
    Shape.reshapeEquiv_eq_of_rowMajor _ ((Shape.rowMajor_val_two (d := ![1, 25600]) (ix2 (0 : Fin 1) (y 0))).trans (Eq.trans (by
      show 0 * 25600 + (y 0).val = (y 0).val
      omega) (Shape.rowMajor_val_one (d := ![25600]) y).symm))
  funext a
  apply Fin.ext
  show ((Rect.unit (s := S4096x25600) (k0_off3 L t 1#32) S1x25600.size (k0_off3_inb L t 1)).emb
    (Shape.reshapeEquiv (s := S1x25600) (s' := S25600) squeezes_S1x25600_S25600.numel_eq y) a : Nat) = _
  rw [hz, Rect.emb_apply]
  show k0_off3 L t 1#32 a + 1 * ((ix2 (0 : Fin 1) (y 0) : S1x25600.Idx) a).val = ((ix2 b (y 0) : S4096x25600.Idx) a).val
  rw [hb]
  match a with
  | ⟨0, _⟩ => show b.val + 1 * 0 = b.val; omega
  | ⟨1, _⟩ => show 0 + 1 * (y 0).val = (y 0).val; omega

theorem row_ok0 (t : Fin k0_t1_loop.trips) (b : Fin 4096) (hb : k0_off3 L t 0#32 = ![b.val, 0])
    (fo : Buf (Elt F) ((o0W).view.loc (thr d L))) (hf : FlatOK m d b fo) :
    RVal m d b ((oRow0 L t).view.writes (Elt F) (m (oLoc d)) [⟨Rect.whole S25600, ReadAs.same.apply (View.read (Elt F) (o0W).view fo)⟩]) := by
  intro j hj
  have hset : (oRow0 L t).view.set = rowSet b := by
    show (((oW).view.slice (Rect.unit (s := S4096x25600) (k0_off3 L t 0#32) S1x25600.size (k0_off3_inb L t 0))).reshape S25600
        squeezes_S1x25600_S25600.numel_eq).set = (rowRect b).set
    rw [View.set_reshape]
    show ((View.whole (main_v0_scv : Ref sig .scVector)).slice _).set = _
    rw [View.set_slice_whole]
    exact congrArg (fun r : Rect S4096x25600 => r.set) (unit_congr hb _ _)
  rw [← hset] at hj
  obtain ⟨y, hy⟩ := View.exists_emb_of_mem_set _ hj
  subst hy
  have hw := View.read_writes_cons_emb (oRow0 L t).view (m (oLoc d)) (Rect.whole S25600)
    (ReadAs.same.apply (View.read (Elt F) (o0W).view fo)) [] y
  rw [Rect.emb_whole_apply, View.read_apply, cast_eq] at hw
  rw [hw]
  show fo y = _
  rw [hf y, oRow0_emb L t b hb y]
  rfl

theorem row_ok1 (t : Fin k0_t1_loop.trips) (b : Fin 4096) (hb : k0_off3 L t 1#32 = ![b.val, 0])
    (fo : Buf (Elt F) ((o1W).view.loc (thr d L))) (hf : FlatOK m d b fo) :
    RVal m d b ((oRow1 L t).view.writes (Elt F) (m (oLoc d)) [⟨Rect.whole S25600, ReadAs.same.apply (View.read (Elt F) (o1W).view fo)⟩]) := by
  intro j hj
  have hset : (oRow1 L t).view.set = rowSet b := by
    show (((oW).view.slice (Rect.unit (s := S4096x25600) (k0_off3 L t 1#32) S1x25600.size (k0_off3_inb L t 1))).reshape S25600
        squeezes_S1x25600_S25600.numel_eq).set = (rowRect b).set
    rw [View.set_reshape]
    show ((View.whole (main_v0_scv : Ref sig .scVector)).slice _).set = _
    rw [View.set_slice_whole]
    exact congrArg (fun r : Rect S4096x25600 => r.set) (unit_congr hb _ _)
  rw [← hset] at hj
  obtain ⟨y, hy⟩ := View.exists_emb_of_mem_set _ hj
  subst hy
  have hw := View.read_writes_cons_emb (oRow1 L t).view (m (oLoc d)) (Rect.whole S25600)
    (ReadAs.same.apply (View.read (Elt F) (o1W).view fo)) [] y
  rw [Rect.emb_whole_apply, View.read_apply, cast_eq] at hw
  rw [hw]
  show fo y = _
  rw [hf y, oRow1_emb L t b hb y]
  rfl

end Cert.Proof.KI

end
-- ==== Proof.TileInvVI.lean ====
import proofs.«206347_g23639499997337_cont_sun_m_514_14_alg».proof.Proof.TileValI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (d : Dev nD) (L : grid0.Coords)

local notation "xW" => (Memref.whole Cert.KernelIdeal.main_arg0_scv : Memref Cert.KernelIdeal.sig Kind.scVector Space.hbm Cert.KernelIdeal.S4096x200 EltTy.i32)
local notation "tW" => (Memref.whole Cert.KernelIdeal.main_arg1_scv : Memref Cert.KernelIdeal.sig Kind.scVector Space.hbm Cert.KernelIdeal.S100000x128 EltTy.f32)
local notation "oW" => (Memref.whole Cert.KernelIdeal.main_v0_scv : Memref Cert.KernelIdeal.sig Kind.scVector Space.hbm Cert.KernelIdeal.S4096x25600 EltTy.f32)
local notation "i0W" => (Memref.whole Cert.KernelIdeal.cc0_scratch0 : Memref Cert.KernelIdeal.sig Kind.scVector Space.vmem Cert.KernelIdeal.S200 EltTy.i32)
local notation "i1W" => (Memref.whole Cert.KernelIdeal.cc0_scratch1 : Memref Cert.KernelIdeal.sig Kind.scVector Space.vmem Cert.KernelIdeal.S200 EltTy.i32)
local notation "e0W" => (Memref.whole Cert.KernelIdeal.cc0_scratch2 : Memref Cert.KernelIdeal.sig Kind.scVector Space.vmem Cert.KernelIdeal.S200x128 EltTy.f32)
local notation "e1W" => (Memref.whole Cert.KernelIdeal.cc0_scratch3 : Memref Cert.KernelIdeal.sig Kind.scVector Space.vmem Cert.KernelIdeal.S200x128 EltTy.f32)
local notation "o0W" => (Memref.whole Cert.KernelIdeal.cc0_scratch4 : Memref Cert.KernelIdeal.sig Kind.scVector Space.vmem Cert.KernelIdeal.S25600 EltTy.f32)
local notation "o1W" => (Memref.whole Cert.KernelIdeal.cc0_scratch5 : Memref Cert.KernelIdeal.sig Kind.scVector Space.vmem Cert.KernelIdeal.S25600 EltTy.f32)

variable (qx q0 q1 : PosShare TreeShare) (O : CellTallies nD τ sig (HIx 1)) (W : Waits sig (HIx 1))

/-! ## The pair loop's invariant with the lookup's values -/

/-- a finished output row of slot 0, at the lookup's values -/
def rowFinV0 (t : Fin k0_t1_loop.trips) : sProp 𝕄 :=
  iprop(∃ g, ⌜RVal m d (rowB L (2 * t.val)) g⌝ ∗ (oRow0 L t).view.loc (thr d L) ↦[(oRow0 L t).view.set]{fullShare} g)
/-- slot 0's gather for the tile's row n in flight: what it delivers is that row's table rows -/
def gathFlV0 (n : ℕ) : sProp 𝕄 :=
  iprop(∃ fe fi, ⌜EmbOK m d (rowB L n) fe⌝ ∗ ((tW).view.loc (thr d L) ↦[Finset.univ \ (tSl).view.set]{q0} m (tLoc d))
      ∗ Transfers.Flight countersEmb (thr d L) (SemLoc.dma cc0_scratch6.sem) default 819200
          iprop((((e0W).view.loc (thr d L) ↦{fullShare} fe) ∗ ((i0W).view.loc (thr d L) ↦{fullShare} fi))
            ∗ ((tW).view.loc (thr d L) ↦[(tSl).view.set]{q0} m (tLoc d))))
def gathV0 (i : ℕ) : sProp 𝕄 := if i < 64 then gathFlV0 m d L q0 (2 * i) else gathRest0 m d L q0
/-- slot 0's copy-out of pair-trip t in flight: the row it delivers is at the lookup's values -/
def outFlV0 (t : Fin k0_t1_loop.trips) : sProp 𝕄 :=
  iprop(∃ g fo, ⌜RVal m d (rowB L (2 * t.val)) g⌝ ∗ ((o0W).view.loc (thr d L) ↦[Finset.univ \ (o0W).view.set]{fullShare} fo)
      ∗ Transfers.Flight countersEmb (thr d L) (SemLoc.dma cc0_scratch8.sem) default 819200
          iprop(((oRow0 L t).view.loc (thr d L) ↦[(oRow0 L t).view.set]{fullShare} g)
            ∗ ((o0W).view.loc (thr d L) ↦[(o0W).view.set]{fullShare} fo)))
def outV0 (i : ℕ) : sProp 𝕄 :=
  if i = 0 then outNone0 (F := F) d L else iprop(∃ t : Fin k0_t1_loop.trips, ⌜t.val + 1 = i⌝ ∗ outFlV0 m d L t)
/-- a finished output row of slot 1, at the lookup's values -/
def rowFinV1 (t : Fin k0_t1_loop.trips) : sProp 𝕄 :=
  iprop(∃ g, ⌜RVal m d (rowB L (2 * t.val + 1)) g⌝ ∗ (oRow1 L t).view.loc (thr d L) ↦[(oRow1 L t).view.set]{fullShare} g)
/-- slot 1's gather for the tile's row n in flight: what it delivers is that row's table rows -/
def gathFlV1 (n : ℕ) : sProp 𝕄 :=
  iprop(∃ fe fi, ⌜EmbOK m d (rowB L n) fe⌝ ∗ ((tW).view.loc (thr d L) ↦[Finset.univ \ (tSl).view.set]{q1} m (tLoc d))
      ∗ Transfers.Flight countersEmb (thr d L) (SemLoc.dma cc0_scratch7.sem) default 819200
          iprop((((e1W).view.loc (thr d L) ↦{fullShare} fe) ∗ ((i1W).view.loc (thr d L) ↦{fullShare} fi))
            ∗ ((tW).view.loc (thr d L) ↦[(tSl).view.set]{q1} m (tLoc d))))
def gathV1 (i : ℕ) : sProp 𝕄 := if i < 64 then gathFlV1 m d L q1 (2 * i + 1) else gathRest1 m d L q1
/-- slot 1's copy-out of pair-trip t in flight: the row it delivers is at the lookup's values -/
def outFlV1 (t : Fin k0_t1_loop.trips) : sProp 𝕄 :=
  iprop(∃ g fo, ⌜RVal m d (rowB L (2 * t.val + 1)) g⌝ ∗ ((o1W).view.loc (thr d L) ↦[Finset.univ \ (o1W).view.set]{fullShare} fo)
      ∗ Transfers.Flight countersEmb (thr d L) (SemLoc.dma cc0_scratch9.sem) default 819200
          iprop(((oRow1 L t).view.loc (thr d L) ↦[(oRow1 L t).view.set]{fullShare} g)
            ∗ ((o1W).view.loc (thr d L) ↦[(o1W).view.set]{fullShare} fo)))
def outV1 (i : ℕ) : sProp 𝕄 :=
  if i = 0 then outNone1 (F := F) d L else iprop(∃ t : Fin k0_t1_loop.trips, ⌜t.val + 1 = i⌝ ∗ outFlV1 m d L t)

def rowsDoneV (i : ℕ) : sProp 𝕄 :=
  bigSep (Finset.univ.filter fun t : Fin k0_t1_loop.trips => t.val + 1 < i) fun t => iprop(rowFinV0 m d L t ∗ rowFinV1 m d L t)

def pinvV (i : ℕ) (_ : Unit) : sProp 𝕄 :=
  iprop(Transfers.MayWaits (thr d L) (none : HIx 1) O
    ∗ ((xW).view.loc (thr d L) ↦{qx} m (xLoc d))
    ∗ gathV0 m d L q0 i ∗ gathV1 m d L q1 i ∗ outV0 m d L i ∗ outV1 m d L i
    ∗ rowsTodo m d L i ∗ rowsDoneV m d L i
    ∗ semVal (thr d L, SemLoc.dma cc0_scoped2.sem) 0 ∗ semVal (thr d L, SemLoc.dma cc0_scoped3.sem) 0
    ∗ owesEx (F := F) d L O W)

/-- a tile's row n < 128 as a batch row: no wrap-around -/
theorem rowB_val (n : ℕ) (hn : n < 128) : (rowB L n).val = 256 * (L 1).val + 128 * (L 0).val + n := by
  have h0 : (L 0).val < 2 := (L 0).isLt
  have h1 : (L 1).val < 16 := (L 1).isLt
  unfold rowB
  exact Nat.mod_eq_of_lt (by omega)

end Cert.Proof.KI

end
-- ==== Proof.LibTransposeStep.lean ====
/-
  One trip of the transposition, step by step, and what thirteen trips give.

  Trip k of the sweep works on the sixteen block rows l0 … l0 + 15 with l0 = min (16 · k) 184 (the last trip overlaps
  the one before). Its 128 steps run over the column groups d0 = 0, 16, …, 112 and, within a group, the rotations
  r = 0 … 15: step d0 + r loads at rows lane + l0 and columns (lane + r) mod 16 + d0, and stores at
  ((lane + r) mod 16) · 200 + lane + (d0 · 200 + l0). That is the sweep's step d0 + r, so the agreement with the
  target grows by that step's sixteen positions while the rows finished by earlier trips are kept. After the 128 steps
  rows l0 … l0 + 15 are complete; with the earlier rows that is rows 0 … min (16 · (k + 1)) 200 − 1.
-/
import proofs.«206347_g23639499997337_cont_sun_m_514_14_alg».proof.Proof.LibScatterTranspose

noncomputable section

namespace Cert.Proof.Lib

open Idealize.ShloMosaic Idealize.ShloMosaic.ValueIdx

variable {F : FTy → Type} [FloatOps F] {e : EltTy}

/-- A lane of a lane vector plus a broadcast scalar, when the sum does not wrap. -/
theorem addi_bc_toNat (v : IVec S16 32) (c : BitVec 32) (x : S16.Idx) (h : (v x).toNat + c.toNat < 4294967296) :
    ((addi v (broadcast S16 c)) x).toNat = (v x).toNat + c.toNat := by
  show ((v x) + c).toNat = _
  rw [BitVec.toNat_add]
  exact Nat.mod_eq_of_lt h

/-- Within trip kv, after n steps: the rows finished by earlier trips hold the target, and so do the positions the
    trip's first n steps wrote. -/
def SI (fe : Vec F SE e) (kv n : ℕ) (fo : Vec F SO e) : Prop :=
  (∀ p : SO.Idx, (p 0).val % 200 < min (16 * kv) 200 → fo p = target fe p) ∧ Acc fe (min (16 * kv) 184) n fo

/-- A trip starts from what the earlier trips finished. -/
theorem si_zero (fe : Vec F SE e) (kv : ℕ) (fo : Vec F SO e)
    (h : ∀ p : SO.Idx, (p 0).val % 200 < min (16 * kv) 200 → fo p = target fe p) : SI fe kv 0 fo :=
  ⟨h, acc_zero fe _ fo⟩

/-- STEP d0 + r of trip kv. -/
theorem step_ok (fe : Vec F SE e) (fo : Vec F SO e) (kv D0 R OFF : ℕ) (V3 ROT WD : IVec S16 32) (cl : BitVec 32)
    (hL : ∀ a x, ((![addi V3 (broadcast S16 cl), addi ROT (broadcast S16 (BitVec.ofNat 32 D0))] : Fin 2 → IVec S16 32) a x).toNat < SE.size a)
    (hS : ∀ a x, ((![addi WD (broadcast S16 (Scalar.addi (BitVec.ofNat 32 OFF) cl))] : Fin 1 → IVec S16 32) a x).toNat < SO.size a)
    (ex3 : ∀ x, (V3 x).toNat = (x 0).val) (erot : ∀ x, (ROT x).toNat = ((x 0).val + R) % 16)
    (ewd : ∀ x, (WD x).toNat = (((x 0).val + R) % 16) * 200 + (x 0).val)
    (hcl : cl.toNat = min (16 * kv) 184) (hR : R < 16) (hD : D0 % 16 = 0) (hD' : D0 ≤ 112) (hOFF : OFF = D0 * 200)
    (h : SI fe kv (D0 + R) fo) :
    SI fe kv (D0 + R + 1)
      (storeIdx fo ![addi WD (broadcast S16 (Scalar.addi (BitVec.ofNat 32 OFF) cl))]
        (loadIdx fe ![addi V3 (broadcast S16 cl), addi ROT (broadcast S16 (BitVec.ofNat 32 D0))] hL) (fun _ => 1#1) false hS) := by
  have hl0 : min (16 * kv) 184 ≤ 184 := Nat.min_le_right _ _
  have hd0 : (BitVec.ofNat 32 D0).toNat = D0 := by rw [BitVec.toNat_ofNat]; exact Nat.mod_eq_of_lt (by omega)
  have hoff : (Scalar.addi (BitVec.ofNat 32 OFF) cl).toNat = OFF + min (16 * kv) 184 := by
    show ((BitVec.ofNat 32 OFF) + cl).toNat = _
    rw [BitVec.toNat_add, BitVec.toNat_ofNat, hcl]
    omega
  have hrows : ∀ x, ((addi V3 (broadcast S16 cl)) x).toNat = (x 0).val + min (16 * kv) 184 := fun x => by
    have hx : (x 0).val < 16 := (x 0).isLt
    rw [addi_bc_toNat _ _ _ (by rw [ex3, hcl]; omega), ex3, hcl]
  have hcols : ∀ x, ((addi ROT (broadcast S16 (BitVec.ofNat 32 D0))) x).toNat = ((x 0).val + R) % 16 + D0 := fun x => by
    rw [addi_bc_toNat _ _ _ (by rw [erot, hd0]; omega), erot, hd0]
  have hidx : ∀ x, ((addi WD (broadcast S16 (Scalar.addi (BitVec.ofNat 32 OFF) cl))) x).toNat
      = (((x 0).val + R) % 16) * 200 + (x 0).val + (OFF + min (16 * kv) 184) := fun x => by
    have hx : (x 0).val < 16 := (x 0).isLt
    rw [addi_bc_toNat _ _ _ (by rw [ewd, hoff]; omega), ewd, hoff]
  obtain ⟨hprev, hacc⟩ := h
  have hmatch : ∀ x, ((addi WD (broadcast S16 (Scalar.addi (BitVec.ofNat 32 OFF) cl))) x).toNat
      = ((addi ROT (broadcast S16 (BitVec.ofNat 32 D0))) x).toNat * 200 + ((addi V3 (broadcast S16 cl)) x).toNat := fun x => by
    rw [hidx, hcols, hrows]; omega
  refine ⟨fun p hp => (scatter_agree fe fo _ _ _ hL hS hmatch).1 p (hprev p hp), ?_⟩
  refine acc_step fe fo _ _ _ hL hS hmatch _ (D0 + R) (fun x => ?_) hacc
  rw [hidx]
  unfold posVal
  omega

/-- A trip's 128 steps finish its sixteen rows: with the earlier rows, every row below min (16 · (kv + 1)) 200. -/
theorem trip_done (fe : Vec F SE e) (fo : Vec F SO e) (kv : ℕ) (hk : kv < 13) (h : SI fe kv 128 fo) :
    ∀ p : SO.Idx, (p 0).val % 200 < min (16 * (kv + 1)) 200 → fo p = target fe p := by
  intro p hp
  obtain ⟨hprev, hacc⟩ := h
  by_cases hlt : (p 0).val % 200 < min (16 * kv) 200
  · exact hprev p hlt
  · have hp25 : (p 0).val < 25600 := (p 0).isLt
    have hc : (p 0).val / 200 < 128 := by omega
    have hx : (p 0).val % 200 - min (16 * kv) 184 < 16 := by omega
    exact acc_full fe (min (16 * kv) 184) (by omega) fo hacc ⟨(p 0).val / 200, hc⟩
      ⟨(p 0).val % 200 - min (16 * kv) 184, hx⟩ p (by simp only; omega)

/-- After the thirteen trips every position holds the target. -/
theorem all_done (fe : Vec F SE e) (fo : Vec F SO e)
    (h : ∀ p : SO.Idx, (p 0).val % 200 < min (16 * 13) 200 → fo p = target fe p) : ∀ p, fo p = target fe p :=
  fun p => h p (by have := Nat.mod_lt (p 0).val (show 200 > 0 by decide); omega)

end Cert.Proof.Lib

end
-- ==== Proof.InnerVI0.lean ====
import proofs.«206347_g23639499997337_cont_sun_m_514_14_alg».proof.Proof.SetupI
import proofs.«206347_g23639499997337_cont_sun_m_514_14_alg».proof.Proof.LibTransposeStep

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

/-! ## Lane bounds

Every indexed access of the transposition is in range because its index vectors are sums of a constant lane vector
and a scalar: lanes of a rotation of 0..15 are at most 15; lanes of a write diagonal (rotation · 200 + lane) are at
most 3015; the scalars are a row offset at most 184, a column offset at most 112, and a flat offset at most 22584. -/

private theorem add_bc_lt {v : IVec S16 32} {c : BitVec 32} {A B N : Nat} (hv : ∀ x, (v x).toNat ≤ A) (hc : c.toNat ≤ B) (hN : A + B < N)
    (hN' : N ≤ 4294967296) : ∀ x, ((addi v (broadcast S16 c)) x).toNat < N := by
  intro x
  have h1 := hv x
  show ((v x) + c).toNat < N
  rw [BitVec.toNat_add]
  have : ((v x).toNat + c.toNat) % 4294967296 = (v x).toNat + c.toNat := Nat.mod_eq_of_lt (by omega)
  omega

private theorem chk_rows_cols {rows cols : IVec S16 32} (hr : ∀ x, (rows x).toNat < 200) (hc : ∀ x, (cols x).toNat < 128) :
    ∀ a x, ((![rows, cols] : Fin 2 → IVec S16 32) a x).toNat < S200x128.size a := by
  intro a x
  match a with
  | ⟨0, _⟩ => exact hr x
  | ⟨1, _⟩ => exact hc x

private theorem chk_flat {idx : IVec S16 32} (h : ∀ x, (idx x).toNat < 25600) :
    ∀ a x, ((![idx] : Fin 1 → IVec S16 32) a x).toNat < S25600.size a := by
  intro a x
  match a with
  | ⟨0, _⟩ => exact h x

set_option hygiene false in
/-- An index condition of the transposition, from the lane bounds in the context: a condition on one index vector is a
    flat offset's, a condition on two is a (row, column) pair's. -/
local elab "chk_disch" : tactic => do
  let g ← Lean.Elab.Tactic.getMainTarget
  if g.getAppNumArgs == 1 then
    Lean.Elab.Tactic.evalTactic (← `(tactic| exact chk_flat (add_bc_lt (A := 3015) (B := 22584) (by assumption) (by (try clear hrows); (try clear hinv); decide +revert) (by decide) (by decide))))
  else
    Lean.Elab.Tactic.evalTactic (← `(tactic| exact chk_rows_cols
      (by first | assumption | exact add_bc_lt (A := 15) (B := 184) (by assumption) (by (try clear hrows); (try clear hinv); decide +revert) (by decide) (by decide))
      (add_bc_lt (A := 15) (B := 112) (by assumption) (by decide) (by decide) (by decide))))

variable (m : (ℓ : Loc nD τ sig) → Buf (Elt F) ℓ) (d : Dev nD) (L : grid0.Coords)

abbrev cVv0 : Fin τ.nSC := (L 0).castLE hcore0
abbrev jVv0 : Fin τ.nSub := (L 1).castLE hsub0
abbrev thrV0 : Thread nD τ := V d (cVv0 L) (jVv0 L)

local notation "xW" => (Memref.whole Cert.KernelIdeal.main_arg0_scv : Memref Cert.KernelIdeal.sig Kind.scVector Space.hbm Cert.KernelIdeal.S4096x200 EltTy.i32)
local notation "tW" => (Memref.whole Cert.KernelIdeal.main_arg1_scv : Memref Cert.KernelIdeal.sig Kind.scVector Space.hbm Cert.KernelIdeal.S100000x128 EltTy.f32)
local notation "oW" => (Memref.whole Cert.KernelIdeal.main_v0_scv : Memref Cert.KernelIdeal.sig Kind.scVector Space.hbm Cert.KernelIdeal.S4096x25600 EltTy.f32)
local notation "i0W" => (Memref.whole Cert.KernelIdeal.cc0_scratch0 : Memref Cert.KernelIdeal.sig Kind.scVector Space.vmem Cert.KernelIdeal.S200 EltTy.i32)
local notation "i1W" => (Memref.whole Cert.KernelIdeal.cc0_scratch1 : Memref Cert.KernelIdeal.sig Kind.scVector Space.vmem Cert.KernelIdeal.S200 EltTy.i32)
local notation "e0W" => (Memref.whole Cert.KernelIdeal.cc0_scratch2 : Memref Cert.KernelIdeal.sig Kind.scVector Space.vmem Cert.KernelIdeal.S200x128 EltTy.f32)
local notation "e1W" => (Memref.whole Cert.KernelIdeal.cc0_scratch3 : Memref Cert.KernelIdeal.sig Kind.scVector Space.vmem Cert.KernelIdeal.S200x128 EltTy.f32)
local notation "o0W" => (Memref.whole Cert.KernelIdeal.cc0_scratch4 : Memref Cert.KernelIdeal.sig Kind.scVector Space.vmem Cert.KernelIdeal.S25600 EltTy.f32)
local notation "o1W" => (Memref.whole Cert.KernelIdeal.cc0_scratch5 : Memref Cert.KernelIdeal.sig Kind.scVector Space.vmem Cert.KernelIdeal.S25600 EltTy.f32)

variable [FloatOps F]

set_option hygiene false in
/-- one indexed load: a load of the whole scratch, then the lanes picked -/
local macro "tr_load" : tactic => `(tactic| (
  rw [SparseCore.vectorLoadIdx_bind (c := thrV0 d L)]
  sl_exec (disch := chk_disch)))
/-- The block row a trip starts at, as the program computes it: the least of 16 · trip and 184. -/
def clV0 (k : Fin k0_t2_loop.trips) : BitVec 32 := Scalar.minsi (Scalar.muli (Scf.iv 0#32 1#32 k) 16#32) 184#32

theorem clV0_toNat : ∀ k : Fin k0_t2_loop.trips, (clV0 k).toNat = min (16 * k.val) 184 := by decide

theorem tripsV0 : ∀ k : Fin k0_t2_loop.trips, k.val < 13 := by decide

/-- A write of the whole buffer leaves the written contents. -/
theorem written_o0 (f w : Buf (Elt F) ((o0W).view.loc (thrV0 d L))) :
    (o0W).view.writes (Elt F) f [⟨Rect.whole S25600, w⟩] = w :=
  Memref.write_access_whole_univ (Elt F) cc0_scratch4 f w

/-- A load of the whole flat buffer reads its contents, -/
theorem readAt_o0 (f : Buf (Elt F) ((o0W).view.loc (thrV0 d L))) :
    View.readAt (Elt F) (o0W).view (LoadRect.whole S25600) f = f :=
  Memref.readAt_whole (Elt F) cc0_scratch4 f

/-- and a load of the whole block its contents. -/
theorem readAt_e0 (f : Buf (Elt F) ((e0W).view.loc (thrV0 d L))) :
    View.readAt (Elt F) (e0W).view (LoadRect.whole S200x128) f = f :=
  Memref.readAt_whole (Elt F) cc0_scratch2 f

set_option hygiene false in
/-- one indexed store, step D0 + R of the trip: a load and a store of the whole scratch; the new contents keep the
    trip's invariant one step further -/
local macro "tr_storeV" D0:num R:num OFF:num ROT:ident WD:ident ER:ident EW:ident : tactic => `(tactic| (
  rw [SparseCore.vectorStoreIdx_bind (c := thrV0 d L)]
  sl_exec (disch := chk_disch)
  ihave Hog : (∃ fo2, ⌜Cert.Proof.Lib.SI fe k.val ($D0 + $R + 1) fo2⌝ ∗ (o0W).view.loc (thrV0 d L) ↦{fullShare} fo2) $$ [Ho]
  · iexists _
    isplitr [Ho]
    rotate_left
    · iexact Ho
    · ipureintro
      sl_unfold_run_names
      rw [written_o0 d L, readAt_o0 d L, readAt_e0 d L]
      exact Cert.Proof.Lib.step_ok fe _ k.val $D0 $R $OFF v3 $ROT $WD (clV0 k) _ _ ex3 $ER $EW (clV0_toNat k) (by decide) (by decide) (by decide) (by decide) hinv
  clear hinv
  icases Hog with ⟨%fo2, %hinv, Ho⟩))

/-- Before trip i the gathered rows are held unchanged and the flat buffer holds the target on every block row below
    min (16 · i) 200. -/
def tinvV0 (O : CellTallies nD τ sig (HIx 1)) (W : Waits sig (HIx 1)) (fe : Buf (Elt F) ((e0W).view.loc (thrV0 d L))) (i : Nat) (_ : Unit) : sProp 𝕄 :=
  iprop(Transfers.MayWaits (thrV0 d L) (none : HIx 1) O
    ∗ ((e0W).view.loc (thrV0 d L) ↦{fullShare} fe)
    ∗ (∃ fo, ⌜∀ p : Cert.Proof.Lib.SO.Idx, (p 0).val % 200 < min (16 * i) 200 → fo p = Cert.Proof.Lib.target fe p⌝
        ∗ (o0W).view.loc (thrV0 d L) ↦{fullShare} fo)
    ∗ owes (thrV0 d L) O W)

set_option sl_exec.dischHeartbeats 100000 in
set_option maxHeartbeats 4000000 in
theorem transposeV0 (O : CellTallies nD τ sig (HIx 1)) (W : Waits sig (HIx 1))
    (fe : Buf (Elt F) ((e0W).view.loc (thrV0 d L))) (fo : Buf (Elt F) ((o0W).view.loc (thrV0 d L)))
    (v2 : BitVec 32) (v3 v21 v39 v57 v75 v93 v111 v129 v147 v165 v183 v201 v219 v237 v255 v273 v291 v294 v297 v300 v303 v306 v309 v312 v315 v318 v321 v324 v327 v330 v333 v336 v339 : IVec S16 32) (c0 c1 : BitVec 32) (k0_t1 : Fin k0_t1_loop.trips)
    (hv3 : ∀ x, (v3 x).toNat ≤ 15) (hv21 : ∀ x, (v21 x).toNat ≤ 15) (hv39 : ∀ x, (v39 x).toNat ≤ 15) (hv57 : ∀ x, (v57 x).toNat ≤ 15) (hv75 : ∀ x, (v75 x).toNat ≤ 15) (hv93 : ∀ x, (v93 x).toNat ≤ 15) (hv111 : ∀ x, (v111 x).toNat ≤ 15) (hv129 : ∀ x, (v129 x).toNat ≤ 15) (hv147 : ∀ x, (v147 x).toNat ≤ 15) (hv165 : ∀ x, (v165 x).toNat ≤ 15) (hv183 : ∀ x, (v183 x).toNat ≤ 15) (hv201 : ∀ x, (v201 x).toNat ≤ 15) (hv219 : ∀ x, (v219 x).toNat ≤ 15) (hv237 : ∀ x, (v237 x).toNat ≤ 15) (hv255 : ∀ x, (v255 x).toNat ≤ 15) (hv273 : ∀ x, (v273 x).toNat ≤ 15) (hv291 : ∀ x, (v291 x).toNat ≤ 15)
    (hv294 : ∀ x, (v294 x).toNat ≤ 3015) (hv297 : ∀ x, (v297 x).toNat ≤ 3015) (hv300 : ∀ x, (v300 x).toNat ≤ 3015) (hv303 : ∀ x, (v303 x).toNat ≤ 3015) (hv306 : ∀ x, (v306 x).toNat ≤ 3015) (hv309 : ∀ x, (v309 x).toNat ≤ 3015) (hv312 : ∀ x, (v312 x).toNat ≤ 3015) (hv315 : ∀ x, (v315 x).toNat ≤ 3015) (hv318 : ∀ x, (v318 x).toNat ≤ 3015) (hv321 : ∀ x, (v321 x).toNat ≤ 3015) (hv324 : ∀ x, (v324 x).toNat ≤ 3015) (hv327 : ∀ x, (v327 x).toNat ≤ 3015) (hv330 : ∀ x, (v330 x).toNat ≤ 3015) (hv333 : ∀ x, (v333 x).toNat ≤ 3015) (hv336 : ∀ x, (v336 x).toNat ≤ 3015) (hv339 : ∀ x, (v339 x).toNat ≤ 3015)
    (ex3 : ∀ x, (v3 x).toNat = (x 0).val) (er0 : ∀ x, (v21 x).toNat = ((x 0).val + 0) % 16) (er1 : ∀ x, (v39 x).toNat = ((x 0).val + 1) % 16) (er2 : ∀ x, (v57 x).toNat = ((x 0).val + 2) % 16) (er3 : ∀ x, (v75 x).toNat = ((x 0).val + 3) % 16) (er4 : ∀ x, (v93 x).toNat = ((x 0).val + 4) % 16) (er5 : ∀ x, (v111 x).toNat = ((x 0).val + 5) % 16) (er6 : ∀ x, (v129 x).toNat = ((x 0).val + 6) % 16) (er7 : ∀ x, (v147 x).toNat = ((x 0).val + 7) % 16) (er8 : ∀ x, (v165 x).toNat = ((x 0).val + 8) % 16) (er9 : ∀ x, (v183 x).toNat = ((x 0).val + 9) % 16) (er10 : ∀ x, (v201 x).toNat = ((x 0).val + 10) % 16) (er11 : ∀ x, (v219 x).toNat = ((x 0).val + 11) % 16) (er12 : ∀ x, (v237 x).toNat = ((x 0).val + 12) % 16) (er13 : ∀ x, (v255 x).toNat = ((x 0).val + 13) % 16) (er14 : ∀ x, (v273 x).toNat = ((x 0).val + 14) % 16) (er15 : ∀ x, (v291 x).toNat = ((x 0).val + 15) % 16) (ew0 : ∀ x, (v294 x).toNat = (((x 0).val + 0) % 16) * 200 + (x 0).val) (ew1 : ∀ x, (v297 x).toNat = (((x 0).val + 1) % 16) * 200 + (x 0).val) (ew2 : ∀ x, (v300 x).toNat = (((x 0).val + 2) % 16) * 200 + (x 0).val) (ew3 : ∀ x, (v303 x).toNat = (((x 0).val + 3) % 16) * 200 + (x 0).val) (ew4 : ∀ x, (v306 x).toNat = (((x 0).val + 4) % 16) * 200 + (x 0).val) (ew5 : ∀ x, (v309 x).toNat = (((x 0).val + 5) % 16) * 200 + (x 0).val) (ew6 : ∀ x, (v312 x).toNat = (((x 0).val + 6) % 16) * 200 + (x 0).val) (ew7 : ∀ x, (v315 x).toNat = (((x 0).val + 7) % 16) * 200 + (x 0).val) (ew8 : ∀ x, (v318 x).toNat = (((x 0).val + 8) % 16) * 200 + (x 0).val) (ew9 : ∀ x, (v321 x).toNat = (((x 0).val + 9) % 16) * 200 + (x 0).val) (ew10 : ∀ x, (v324 x).toNat = (((x 0).val + 10) % 16) * 200 + (x 0).val) (ew11 : ∀ x, (v327 x).toNat = (((x 0).val + 11) % 16) * 200 + (x 0).val) (ew12 : ∀ x, (v330 x).toNat = (((x 0).val + 12) % 16) * 200 + (x 0).val) (ew13 : ∀ x, (v333 x).toNat = (((x 0).val + 13) % 16) * 200 + (x 0).val) (ew14 : ∀ x, (v336 x).toNat = (((x 0).val + 14) % 16) * 200 + (x 0).val) (ew15 : ∀ x, (v339 x).toNat = (((x 0).val + 15) % 16) * 200 + (x 0).val) :
    (iprop(Transfers.MayWaits (thrV0 d L) (none : HIx 1) O
        ∗ ((e0W).view.loc (thrV0 d L) ↦{fullShare} fe) ∗ ((o0W).view.loc (thrV0 d L) ↦{fullShare} fo)
        ∗ owes (thrV0 d L) O W) : sProp 𝕄)
      ⊢ wp frame (wpE (defs₀ (F := F)) 𝒱₀ (thrV0 d L) none) Set.univ
          (Scf.Loop.for k0_t2_loop k0_t2_ok ⟨⟩ (k0_t2_body L xW (Memref.isWhole_whole _) tW (Memref.isWhole_whole _) oW (Memref.isWhole_whole _)
            i0W (Memref.isWhole_whole _) i1W (Memref.isWhole_whole _) e0W (Memref.isWhole_whole _) e1W (Memref.isWhole_whole _)
            o0W (Memref.isWhole_whole _) o1W (Memref.isWhole_whole _)
            cc0_scratch6 cc0_scratch7 cc0_scratch8 cc0_scratch9 cc0_scoped0 cc0_scoped1 cc0_scoped2 cc0_scoped3
            v2 v3 v21 v39 v57 v75 v93 v111 v129 v147 v165 v183 v201 v219 v237 v255 v273 v291 v294 v297 v300 v303 v306 v309 v312 v315 v318 v321 v324 v327 v330 v333 v336 v339 c0 c1 k0_t1))
          fun _ => iprop(((e0W).view.loc (thrV0 d L) ↦{fullShare} fe) ∗ (∃ fo', ⌜∀ p, fo' p = Cert.Proof.Lib.target fe p⌝ ∗ (o0W).view.loc (thrV0 d L) ↦{fullShare} fo')
            ∗ owes (thrV0 d L) O W) := by
  iintro ⟨Hmw, He, Ho, HO⟩
  sl_for (tinvV0 d L O W fe) $$ [Hmw He Ho HO]
  case region =>
    intro k _
    unfold tinvV0
    iintro ⟨Hmw, He, ⟨%fo', %hprev, Ho⟩, HO⟩
    have hinv := Cert.Proof.Lib.si_zero fe k.val fo' hprev
    clear hprev
    sl_exec (disch := chk_disch)
    have hrows : ∀ x, ((transposeV0.sl.v388 v3 k) x).toNat < 200 :=
      add_bc_lt (A := 15) (B := 184) hv3 (by (try clear hrows); (try clear hinv); decide +revert) (by decide) (by decide)
    tr_load
    tr_storeV 0 0 0 v21 v294 er0 ew0
    tr_load
    tr_storeV 0 1 0 v39 v297 er1 ew1
    tr_load
    tr_storeV 0 2 0 v57 v300 er2 ew2
    tr_load
    tr_storeV 0 3 0 v75 v303 er3 ew3
    tr_load
    tr_storeV 0 4 0 v93 v306 er4 ew4
    tr_load
    tr_storeV 0 5 0 v111 v309 er5 ew5
    tr_load
    tr_storeV 0 6 0 v129 v312 er6 ew6
    tr_load
    tr_storeV 0 7 0 v147 v315 er7 ew7
    tr_load
    tr_storeV 0 8 0 v165 v318 er8 ew8
    tr_load
    tr_storeV 0 9 0 v183 v321 er9 ew9
    tr_load
    tr_storeV 0 10 0 v201 v324 er10 ew10
    tr_load
    tr_storeV 0 11 0 v219 v327 er11 ew11
    tr_load
    tr_storeV 0 12 0 v237 v330 er12 ew12
    tr_load
    tr_storeV 0 13 0 v255 v333 er13 ew13
    tr_load
    tr_storeV 0 14 0 v273 v336 er14 ew14
    tr_load
    tr_storeV 0 15 0 v291 v339 er15 ew15
    tr_load
    tr_storeV 16 0 3200 v21 v294 er0 ew0
    tr_load
    tr_storeV 16 1 3200 v39 v297 er1 ew1
    tr_load
    tr_storeV 16 2 3200 v57 v300 er2 ew2
    tr_load
    tr_storeV 16 3 3200 v75 v303 er3 ew3
    tr_load
    tr_storeV 16 4 3200 v93 v306 er4 ew4
    tr_load
    tr_storeV 16 5 3200 v111 v309 er5 ew5
    tr_load
    tr_storeV 16 6 3200 v129 v312 er6 ew6
    tr_load
    tr_storeV 16 7 3200 v147 v315 er7 ew7
    tr_load
    tr_storeV 16 8 3200 v165 v318 er8 ew8
    tr_load
    tr_storeV 16 9 3200 v183 v321 er9 ew9
    tr_load
    tr_storeV 16 10 3200 v201 v324 er10 ew10
    tr_load
    tr_storeV 16 11 3200 v219 v327 er11 ew11
    tr_load
    tr_storeV 16 12 3200 v237 v330 er12 ew12
    tr_load
    tr_storeV 16 13 3200 v255 v333 er13 ew13
    tr_load
    tr_storeV 16 14 3200 v273 v336 er14 ew14
    tr_load
    tr_storeV 16 15 3200 v291 v339 er15 ew15
    tr_load
    tr_storeV 32 0 6400 v21 v294 er0 ew0
    tr_load
    tr_storeV 32 1 6400 v39 v297 er1 ew1
    tr_load
    tr_storeV 32 2 6400 v57 v300 er2 ew2
    tr_load
    tr_storeV 32 3 6400 v75 v303 er3 ew3
    tr_load
    tr_storeV 32 4 6400 v93 v306 er4 ew4
    tr_load
    tr_storeV 32 5 6400 v111 v309 er5 ew5
    tr_load
    tr_storeV 32 6 6400 v129 v312 er6 ew6
    tr_load
    tr_storeV 32 7 6400 v147 v315 er7 ew7
    tr_load
    tr_storeV 32 8 6400 v165 v318 er8 ew8
    tr_load
    tr_storeV 32 9 6400 v183 v321 er9 ew9
    tr_load
    tr_storeV 32 10 6400 v201 v324 er10 ew10
    tr_load
    tr_storeV 32 11 6400 v219 v327 er11 ew11
    tr_load
    tr_storeV 32 12 6400 v237 v330 er12 ew12
    tr_load
    tr_storeV 32 13 6400 v255 v333 er13 ew13
    tr_load
    tr_storeV 32 14 6400 v273 v336 er14 ew14
    tr_load
    tr_storeV 32 15 6400 v291 v339 er15 ew15
    tr_load
    tr_storeV 48 0 9600 v21 v294 er0 ew0
    tr_load
    tr_storeV 48 1 9600 v39 v297 er1 ew1
    tr_load
    tr_storeV 48 2 9600 v57 v300 er2 ew2
    tr_load
    tr_storeV 48 3 9600 v75 v303 er3 ew3
    tr_load
    tr_storeV 48 4 9600 v93 v306 er4 ew4
    tr_load
    tr_storeV 48 5 9600 v111 v309 er5 ew5
    tr_load
    tr_storeV 48 6 9600 v129 v312 er6 ew6
    tr_load
    tr_storeV 48 7 9600 v147 v315 er7 ew7
    tr_load
    tr_storeV 48 8 9600 v165 v318 er8 ew8
    tr_load
    tr_storeV 48 9 9600 v183 v321 er9 ew9
    tr_load
    tr_storeV 48 10 9600 v201 v324 er10 ew10
    tr_load
    tr_storeV 48 11 9600 v219 v327 er11 ew11
    tr_load
    tr_storeV 48 12 9600 v237 v330 er12 ew12
    tr_load
    tr_storeV 48 13 9600 v255 v333 er13 ew13
    tr_load
    tr_storeV 48 14 9600 v273 v336 er14 ew14
    tr_load
    tr_storeV 48 15 9600 v291 v339 er15 ew15
    tr_load
    tr_storeV 64 0 12800 v21 v294 er0 ew0
    tr_load
    tr_storeV 64 1 12800 v39 v297 er1 ew1
    tr_load
    tr_storeV 64 2 12800 v57 v300 er2 ew2
    tr_load
    tr_storeV 64 3 12800 v75 v303 er3 ew3
    tr_load
    tr_storeV 64 4 12800 v93 v306 er4 ew4
    tr_load
    tr_storeV 64 5 12800 v111 v309 er5 ew5
    tr_load
    tr_storeV 64 6 12800 v129 v312 er6 ew6
    tr_load
    tr_storeV 64 7 12800 v147 v315 er7 ew7
    tr_load
    tr_storeV 64 8 12800 v165 v318 er8 ew8
    tr_load
    tr_storeV 64 9 12800 v183 v321 er9 ew9
    tr_load
    tr_storeV 64 10 12800 v201 v324 er10 ew10
    tr_load
    tr_storeV 64 11 12800 v219 v327 er11 ew11
    tr_load
    tr_storeV 64 12 12800 v237 v330 er12 ew12
    tr_load
    tr_storeV 64 13 12800 v255 v333 er13 ew13
    tr_load
    tr_storeV 64 14 12800 v273 v336 er14 ew14
    tr_load
    tr_storeV 64 15 12800 v291 v339 er15 ew15
    tr_load
    tr_storeV 80 0 16000 v21 v294 er0 ew0
    tr_load
    tr_storeV 80 1 16000 v39 v297 er1 ew1
    tr_load
    tr_storeV 80 2 16000 v57 v300 er2 ew2
    tr_load
    tr_storeV 80 3 16000 v75 v303 er3 ew3
    tr_load
    tr_storeV 80 4 16000 v93 v306 er4 ew4
    tr_load
    tr_storeV 80 5 16000 v111 v309 er5 ew5
    tr_load
    tr_storeV 80 6 16000 v129 v312 er6 ew6
    tr_load
    tr_storeV 80 7 16000 v147 v315 er7 ew7
    tr_load
    tr_storeV 80 8 16000 v165 v318 er8 ew8
    tr_load
    tr_storeV 80 9 16000 v183 v321 er9 ew9
    tr_load
    tr_storeV 80 10 16000 v201 v324 er10 ew10
    tr_load
    tr_storeV 80 11 16000 v219 v327 er11 ew11
    tr_load
    tr_storeV 80 12 16000 v237 v330 er12 ew12
    tr_load
    tr_storeV 80 13 16000 v255 v333 er13 ew13
    tr_load
    tr_storeV 80 14 16000 v273 v336 er14 ew14
    tr_load
    tr_storeV 80 15 16000 v291 v339 er15 ew15
    tr_load
    tr_storeV 96 0 19200 v21 v294 er0 ew0
    tr_load
    tr_storeV 96 1 19200 v39 v297 er1 ew1
    tr_load
    tr_storeV 96 2 19200 v57 v300 er2 ew2
    tr_load
    tr_storeV 96 3 19200 v75 v303 er3 ew3
    tr_load
    tr_storeV 96 4 19200 v93 v306 er4 ew4
    tr_load
    tr_storeV 96 5 19200 v111 v309 er5 ew5
    tr_load
    tr_storeV 96 6 19200 v129 v312 er6 ew6
    tr_load
    tr_storeV 96 7 19200 v147 v315 er7 ew7
    tr_load
    tr_storeV 96 8 19200 v165 v318 er8 ew8
    tr_load
    tr_storeV 96 9 19200 v183 v321 er9 ew9
    tr_load
    tr_storeV 96 10 19200 v201 v324 er10 ew10
    tr_load
    tr_storeV 96 11 19200 v219 v327 er11 ew11
    tr_load
    tr_storeV 96 12 19200 v237 v330 er12 ew12
    tr_load
    tr_storeV 96 13 19200 v255 v333 er13 ew13
    tr_load
    tr_storeV 96 14 19200 v273 v336 er14 ew14
    tr_load
    tr_storeV 96 15 19200 v291 v339 er15 ew15
    tr_load
    tr_storeV 112 0 22400 v21 v294 er0 ew0
    tr_load
    tr_storeV 112 1 22400 v39 v297 er1 ew1
    tr_load
    tr_storeV 112 2 22400 v57 v300 er2 ew2
    tr_load
    tr_storeV 112 3 22400 v75 v303 er3 ew3
    tr_load
    tr_storeV 112 4 22400 v93 v306 er4 ew4
    tr_load
    tr_storeV 112 5 22400 v111 v309 er5 ew5
    tr_load
    tr_storeV 112 6 22400 v129 v312 er6 ew6
    tr_load
    tr_storeV 112 7 22400 v147 v315 er7 ew7
    tr_load
    tr_storeV 112 8 22400 v165 v318 er8 ew8
    tr_load
    tr_storeV 112 9 22400 v183 v321 er9 ew9
    tr_load
    tr_storeV 112 10 22400 v201 v324 er10 ew10
    tr_load
    tr_storeV 112 11 22400 v219 v327 er11 ew11
    tr_load
    tr_storeV 112 12 22400 v237 v330 er12 ew12
    tr_load
    tr_storeV 112 13 22400 v255 v333 er13 ew13
    tr_load
    tr_storeV 112 14 22400 v273 v336 er14 ew14
    tr_load
    tr_storeV 112 15 22400 v291 v339 er15 ew15
    sl_step
    isplitl [Hmw]; · iexact Hmw
    isplitl [He]; · iexact He
    isplitl [Ho]
    · iexists fo2
      isplitr [Ho]
      · ipureintro; exact Cert.Proof.Lib.trip_done fe fo2 k.val (tripsV0 k) hinv
      · iexact Ho
    iexact HO
  unfold tinvV0
  isplitl [Hmw He Ho HO]
  · isplitl [Hmw]; · iexact Hmw
    isplitl [He]; · iexact He
    isplitl [Ho]
    · iexists fo
      isplitr [Ho]
      · ipureintro; intro p hp; exact absurd hp (by omega)
      · iexact Ho
    iexact HO
  iintro %_ HI
  icases HI with ⟨-, He, ⟨%fo', %hfin, Ho⟩, HO⟩
  isplitl [He]; · iexact He
  isplitl [Ho]
  · iexists fo'
    isplitr [Ho]
    · ipureintro; exact Cert.Proof.Lib.all_done fe fo' (fun p hp => hfin p (lt_of_lt_of_eq hp (by decide)))
    · iexact Ho
  iexact HO

end Cert.Proof.KI

end
-- ==== Proof.InnerVI1.lean ====
import proofs.«206347_g23639499997337_cont_sun_m_514_14_alg».proof.Proof.SetupI
import proofs.«206347_g23639499997337_cont_sun_m_514_14_alg».proof.Proof.LibTransposeStep

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

/-! ## Lane bounds

Every indexed access of the transposition is in range because its index vectors are sums of a constant lane vector
and a scalar: lanes of a rotation of 0..15 are at most 15; lanes of a write diagonal (rotation · 200 + lane) are at
most 3015; the scalars are a row offset at most 184, a column offset at most 112, and a flat offset at most 22584. -/

private theorem add_bc_lt {v : IVec S16 32} {c : BitVec 32} {A B N : Nat} (hv : ∀ x, (v x).toNat ≤ A) (hc : c.toNat ≤ B) (hN : A + B < N)
    (hN' : N ≤ 4294967296) : ∀ x, ((addi v (broadcast S16 c)) x).toNat < N := by
  intro x
  have h1 := hv x
  show ((v x) + c).toNat < N
  rw [BitVec.toNat_add]
  have : ((v x).toNat + c.toNat) % 4294967296 = (v x).toNat + c.toNat := Nat.mod_eq_of_lt (by omega)
  omega

private theorem chk_rows_cols {rows cols : IVec S16 32} (hr : ∀ x, (rows x).toNat < 200) (hc : ∀ x, (cols x).toNat < 128) :
    ∀ a x, ((![rows, cols] : Fin 2 → IVec S16 32) a x).toNat < S200x128.size a := by
  intro a x
  match a with
  | ⟨0, _⟩ => exact hr x
  | ⟨1, _⟩ => exact hc x

private theorem chk_flat {idx : IVec S16 32} (h : ∀ x, (idx x).toNat < 25600) :
    ∀ a x, ((![idx] : Fin 1 → IVec S16 32) a x).toNat < S25600.size a := by
  intro a x
  match a with
  | ⟨0, _⟩ => exact h x

set_option hygiene false in
/-- An index condition of the transposition, from the lane bounds in the context: a condition on one index vector is a
    flat offset's, a condition on two is a (row, column) pair's. -/
local elab "chk_disch" : tactic => do
  let g ← Lean.Elab.Tactic.getMainTarget
  if g.getAppNumArgs == 1 then
    Lean.Elab.Tactic.evalTactic (← `(tactic| exact chk_flat (add_bc_lt (A := 3015) (B := 22584) (by assumption) (by (try clear hrows); (try clear hinv); decide +revert) (by decide) (by decide))))
  else
    Lean.Elab.Tactic.evalTactic (← `(tactic| exact chk_rows_cols
      (by first | assumption | exact add_bc_lt (A := 15) (B := 184) (by assumption) (by (try clear hrows); (try clear hinv); decide +revert) (by decide) (by decide))
      (add_bc_lt (A := 15) (B := 112) (by assumption) (by decide) (by decide) (by decide))))

variable (m : (ℓ : Loc nD τ sig) → Buf (Elt F) ℓ) (d : Dev nD) (L : grid0.Coords)

abbrev cVv1 : Fin τ.nSC := (L 0).castLE hcore0
abbrev jVv1 : Fin τ.nSub := (L 1).castLE hsub0
abbrev thrV1 : Thread nD τ := V d (cVv1 L) (jVv1 L)

local notation "xW" => (Memref.whole Cert.KernelIdeal.main_arg0_scv : Memref Cert.KernelIdeal.sig Kind.scVector Space.hbm Cert.KernelIdeal.S4096x200 EltTy.i32)
local notation "tW" => (Memref.whole Cert.KernelIdeal.main_arg1_scv : Memref Cert.KernelIdeal.sig Kind.scVector Space.hbm Cert.KernelIdeal.S100000x128 EltTy.f32)
local notation "oW" => (Memref.whole Cert.KernelIdeal.main_v0_scv : Memref Cert.KernelIdeal.sig Kind.scVector Space.hbm Cert.KernelIdeal.S4096x25600 EltTy.f32)
local notation "i0W" => (Memref.whole Cert.KernelIdeal.cc0_scratch0 : Memref Cert.KernelIdeal.sig Kind.scVector Space.vmem Cert.KernelIdeal.S200 EltTy.i32)
local notation "i1W" => (Memref.whole Cert.KernelIdeal.cc0_scratch1 : Memref Cert.KernelIdeal.sig Kind.scVector Space.vmem Cert.KernelIdeal.S200 EltTy.i32)
local notation "e0W" => (Memref.whole Cert.KernelIdeal.cc0_scratch2 : Memref Cert.KernelIdeal.sig Kind.scVector Space.vmem Cert.KernelIdeal.S200x128 EltTy.f32)
local notation "e1W" => (Memref.whole Cert.KernelIdeal.cc0_scratch3 : Memref Cert.KernelIdeal.sig Kind.scVector Space.vmem Cert.KernelIdeal.S200x128 EltTy.f32)
local notation "o0W" => (Memref.whole Cert.KernelIdeal.cc0_scratch4 : Memref Cert.KernelIdeal.sig Kind.scVector Space.vmem Cert.KernelIdeal.S25600 EltTy.f32)
local notation "o1W" => (Memref.whole Cert.KernelIdeal.cc0_scratch5 : Memref Cert.KernelIdeal.sig Kind.scVector Space.vmem Cert.KernelIdeal.S25600 EltTy.f32)

variable [FloatOps F]

set_option hygiene false in
/-- one indexed load: a load of the whole scratch, then the lanes picked -/
local macro "tr_load" : tactic => `(tactic| (
  rw [SparseCore.vectorLoadIdx_bind (c := thrV1 d L)]
  sl_exec (disch := chk_disch)))
/-- The block row a trip starts at, as the program computes it: the least of 16 · trip and 184. -/
def clV1 (k : Fin k0_t3_loop.trips) : BitVec 32 := Scalar.minsi (Scalar.muli (Scf.iv 0#32 1#32 k) 16#32) 184#32

theorem clV1_toNat : ∀ k : Fin k0_t3_loop.trips, (clV1 k).toNat = min (16 * k.val) 184 := by decide

theorem tripsV1 : ∀ k : Fin k0_t3_loop.trips, k.val < 13 := by decide

/-- A write of the whole buffer leaves the written contents. -/
theorem written_o1 (f w : Buf (Elt F) ((o1W).view.loc (thrV1 d L))) :
    (o1W).view.writes (Elt F) f [⟨Rect.whole S25600, w⟩] = w :=
  Memref.write_access_whole_univ (Elt F) cc0_scratch5 f w

/-- A load of the whole flat buffer reads its contents, -/
theorem readAt_o1 (f : Buf (Elt F) ((o1W).view.loc (thrV1 d L))) :
    View.readAt (Elt F) (o1W).view (LoadRect.whole S25600) f = f :=
  Memref.readAt_whole (Elt F) cc0_scratch5 f

/-- and a load of the whole block its contents. -/
theorem readAt_e1 (f : Buf (Elt F) ((e1W).view.loc (thrV1 d L))) :
    View.readAt (Elt F) (e1W).view (LoadRect.whole S200x128) f = f :=
  Memref.readAt_whole (Elt F) cc0_scratch3 f

set_option hygiene false in
/-- one indexed store, step D0 + R of the trip: a load and a store of the whole scratch; the new contents keep the
    trip's invariant one step further -/
local macro "tr_storeV" D0:num R:num OFF:num ROT:ident WD:ident ER:ident EW:ident : tactic => `(tactic| (
  rw [SparseCore.vectorStoreIdx_bind (c := thrV1 d L)]
  sl_exec (disch := chk_disch)
  ihave Hog : (∃ fo2, ⌜Cert.Proof.Lib.SI fe k.val ($D0 + $R + 1) fo2⌝ ∗ (o1W).view.loc (thrV1 d L) ↦{fullShare} fo2) $$ [Ho]
  · iexists _
    isplitr [Ho]
    rotate_left
    · iexact Ho
    · ipureintro
      sl_unfold_run_names
      rw [written_o1 d L, readAt_o1 d L, readAt_e1 d L]
      exact Cert.Proof.Lib.step_ok fe _ k.val $D0 $R $OFF v3 $ROT $WD (clV1 k) _ _ ex3 $ER $EW (clV1_toNat k) (by decide) (by decide) (by decide) (by decide) hinv
  clear hinv
  icases Hog with ⟨%fo2, %hinv, Ho⟩))

/-- Before trip i the gathered rows are held unchanged and the flat buffer holds the target on every block row below
    min (16 · i) 200. -/
def tinvV1 (O : CellTallies nD τ sig (HIx 1)) (W : Waits sig (HIx 1)) (fe : Buf (Elt F) ((e1W).view.loc (thrV1 d L))) (i : Nat) (_ : Unit) : sProp 𝕄 :=
  iprop(Transfers.MayWaits (thrV1 d L) (none : HIx 1) O
    ∗ ((e1W).view.loc (thrV1 d L) ↦{fullShare} fe)
    ∗ (∃ fo, ⌜∀ p : Cert.Proof.Lib.SO.Idx, (p 0).val % 200 < min (16 * i) 200 → fo p = Cert.Proof.Lib.target fe p⌝
        ∗ (o1W).view.loc (thrV1 d L) ↦{fullShare} fo)
    ∗ owes (thrV1 d L) O W)

set_option sl_exec.dischHeartbeats 100000 in
set_option maxHeartbeats 4000000 in
theorem transposeV1 (O : CellTallies nD τ sig (HIx 1)) (W : Waits sig (HIx 1))
    (fe : Buf (Elt F) ((e1W).view.loc (thrV1 d L))) (fo : Buf (Elt F) ((o1W).view.loc (thrV1 d L)))
    (v2 : BitVec 32) (v3 v21 v39 v57 v75 v93 v111 v129 v147 v165 v183 v201 v219 v237 v255 v273 v291 v294 v297 v300 v303 v306 v309 v312 v315 v318 v321 v324 v327 v330 v333 v336 v339 : IVec S16 32) (c0 c1 : BitVec 32) (k0_t1 : Fin k0_t1_loop.trips)
    (hv3 : ∀ x, (v3 x).toNat ≤ 15) (hv21 : ∀ x, (v21 x).toNat ≤ 15) (hv39 : ∀ x, (v39 x).toNat ≤ 15) (hv57 : ∀ x, (v57 x).toNat ≤ 15) (hv75 : ∀ x, (v75 x).toNat ≤ 15) (hv93 : ∀ x, (v93 x).toNat ≤ 15) (hv111 : ∀ x, (v111 x).toNat ≤ 15) (hv129 : ∀ x, (v129 x).toNat ≤ 15) (hv147 : ∀ x, (v147 x).toNat ≤ 15) (hv165 : ∀ x, (v165 x).toNat ≤ 15) (hv183 : ∀ x, (v183 x).toNat ≤ 15) (hv201 : ∀ x, (v201 x).toNat ≤ 15) (hv219 : ∀ x, (v219 x).toNat ≤ 15) (hv237 : ∀ x, (v237 x).toNat ≤ 15) (hv255 : ∀ x, (v255 x).toNat ≤ 15) (hv273 : ∀ x, (v273 x).toNat ≤ 15) (hv291 : ∀ x, (v291 x).toNat ≤ 15)
    (hv294 : ∀ x, (v294 x).toNat ≤ 3015) (hv297 : ∀ x, (v297 x).toNat ≤ 3015) (hv300 : ∀ x, (v300 x).toNat ≤ 3015) (hv303 : ∀ x, (v303 x).toNat ≤ 3015) (hv306 : ∀ x, (v306 x).toNat ≤ 3015) (hv309 : ∀ x, (v309 x).toNat ≤ 3015) (hv312 : ∀ x, (v312 x).toNat ≤ 3015) (hv315 : ∀ x, (v315 x).toNat ≤ 3015) (hv318 : ∀ x, (v318 x).toNat ≤ 3015) (hv321 : ∀ x, (v321 x).toNat ≤ 3015) (hv324 : ∀ x, (v324 x).toNat ≤ 3015) (hv327 : ∀ x, (v327 x).toNat ≤ 3015) (hv330 : ∀ x, (v330 x).toNat ≤ 3015) (hv333 : ∀ x, (v333 x).toNat ≤ 3015) (hv336 : ∀ x, (v336 x).toNat ≤ 3015) (hv339 : ∀ x, (v339 x).toNat ≤ 3015)
    (ex3 : ∀ x, (v3 x).toNat = (x 0).val) (er0 : ∀ x, (v21 x).toNat = ((x 0).val + 0) % 16) (er1 : ∀ x, (v39 x).toNat = ((x 0).val + 1) % 16) (er2 : ∀ x, (v57 x).toNat = ((x 0).val + 2) % 16) (er3 : ∀ x, (v75 x).toNat = ((x 0).val + 3) % 16) (er4 : ∀ x, (v93 x).toNat = ((x 0).val + 4) % 16) (er5 : ∀ x, (v111 x).toNat = ((x 0).val + 5) % 16) (er6 : ∀ x, (v129 x).toNat = ((x 0).val + 6) % 16) (er7 : ∀ x, (v147 x).toNat = ((x 0).val + 7) % 16) (er8 : ∀ x, (v165 x).toNat = ((x 0).val + 8) % 16) (er9 : ∀ x, (v183 x).toNat = ((x 0).val + 9) % 16) (er10 : ∀ x, (v201 x).toNat = ((x 0).val + 10) % 16) (er11 : ∀ x, (v219 x).toNat = ((x 0).val + 11) % 16) (er12 : ∀ x, (v237 x).toNat = ((x 0).val + 12) % 16) (er13 : ∀ x, (v255 x).toNat = ((x 0).val + 13) % 16) (er14 : ∀ x, (v273 x).toNat = ((x 0).val + 14) % 16) (er15 : ∀ x, (v291 x).toNat = ((x 0).val + 15) % 16) (ew0 : ∀ x, (v294 x).toNat = (((x 0).val + 0) % 16) * 200 + (x 0).val) (ew1 : ∀ x, (v297 x).toNat = (((x 0).val + 1) % 16) * 200 + (x 0).val) (ew2 : ∀ x, (v300 x).toNat = (((x 0).val + 2) % 16) * 200 + (x 0).val) (ew3 : ∀ x, (v303 x).toNat = (((x 0).val + 3) % 16) * 200 + (x 0).val) (ew4 : ∀ x, (v306 x).toNat = (((x 0).val + 4) % 16) * 200 + (x 0).val) (ew5 : ∀ x, (v309 x).toNat = (((x 0).val + 5) % 16) * 200 + (x 0).val) (ew6 : ∀ x, (v312 x).toNat = (((x 0).val + 6) % 16) * 200 + (x 0).val) (ew7 : ∀ x, (v315 x).toNat = (((x 0).val + 7) % 16) * 200 + (x 0).val) (ew8 : ∀ x, (v318 x).toNat = (((x 0).val + 8) % 16) * 200 + (x 0).val) (ew9 : ∀ x, (v321 x).toNat = (((x 0).val + 9) % 16) * 200 + (x 0).val) (ew10 : ∀ x, (v324 x).toNat = (((x 0).val + 10) % 16) * 200 + (x 0).val) (ew11 : ∀ x, (v327 x).toNat = (((x 0).val + 11) % 16) * 200 + (x 0).val) (ew12 : ∀ x, (v330 x).toNat = (((x 0).val + 12) % 16) * 200 + (x 0).val) (ew13 : ∀ x, (v333 x).toNat = (((x 0).val + 13) % 16) * 200 + (x 0).val) (ew14 : ∀ x, (v336 x).toNat = (((x 0).val + 14) % 16) * 200 + (x 0).val) (ew15 : ∀ x, (v339 x).toNat = (((x 0).val + 15) % 16) * 200 + (x 0).val) :
    (iprop(Transfers.MayWaits (thrV1 d L) (none : HIx 1) O
        ∗ ((e1W).view.loc (thrV1 d L) ↦{fullShare} fe) ∗ ((o1W).view.loc (thrV1 d L) ↦{fullShare} fo)
        ∗ owes (thrV1 d L) O W) : sProp 𝕄)
      ⊢ wp frame (wpE (defs₀ (F := F)) 𝒱₀ (thrV1 d L) none) Set.univ
          (Scf.Loop.for k0_t3_loop k0_t3_ok ⟨⟩ (k0_t3_body L xW (Memref.isWhole_whole _) tW (Memref.isWhole_whole _) oW (Memref.isWhole_whole _)
            i0W (Memref.isWhole_whole _) i1W (Memref.isWhole_whole _) e0W (Memref.isWhole_whole _) e1W (Memref.isWhole_whole _)
            o0W (Memref.isWhole_whole _) o1W (Memref.isWhole_whole _)
            cc0_scratch6 cc0_scratch7 cc0_scratch8 cc0_scratch9 cc0_scoped0 cc0_scoped1 cc0_scoped2 cc0_scoped3
            v2 v3 v21 v39 v57 v75 v93 v111 v129 v147 v165 v183 v201 v219 v237 v255 v273 v291 v294 v297 v300 v303 v306 v309 v312 v315 v318 v321 v324 v327 v330 v333 v336 v339 c0 c1 k0_t1))
          fun _ => iprop(((e1W).view.loc (thrV1 d L) ↦{fullShare} fe) ∗ (∃ fo', ⌜∀ p, fo' p = Cert.Proof.Lib.target fe p⌝ ∗ (o1W).view.loc (thrV1 d L) ↦{fullShare} fo')
            ∗ owes (thrV1 d L) O W) := by
  iintro ⟨Hmw, He, Ho, HO⟩
  sl_for (tinvV1 d L O W fe) $$ [Hmw He Ho HO]
  case region =>
    intro k _
    unfold tinvV1
    iintro ⟨Hmw, He, ⟨%fo', %hprev, Ho⟩, HO⟩
    have hinv := Cert.Proof.Lib.si_zero fe k.val fo' hprev
    clear hprev
    sl_exec (disch := chk_disch)
    have hrows : ∀ x, ((transposeV1.sl.v388 v3 k) x).toNat < 200 :=
      add_bc_lt (A := 15) (B := 184) hv3 (by (try clear hrows); (try clear hinv); decide +revert) (by decide) (by decide)
    tr_load
    tr_storeV 0 0 0 v21 v294 er0 ew0
    tr_load
    tr_storeV 0 1 0 v39 v297 er1 ew1
    tr_load
    tr_storeV 0 2 0 v57 v300 er2 ew2
    tr_load
    tr_storeV 0 3 0 v75 v303 er3 ew3
    tr_load
    tr_storeV 0 4 0 v93 v306 er4 ew4
    tr_load
    tr_storeV 0 5 0 v111 v309 er5 ew5
    tr_load
    tr_storeV 0 6 0 v129 v312 er6 ew6
    tr_load
    tr_storeV 0 7 0 v147 v315 er7 ew7
    tr_load
    tr_storeV 0 8 0 v165 v318 er8 ew8
    tr_load
    tr_storeV 0 9 0 v183 v321 er9 ew9
    tr_load
    tr_storeV 0 10 0 v201 v324 er10 ew10
    tr_load
    tr_storeV 0 11 0 v219 v327 er11 ew11
    tr_load
    tr_storeV 0 12 0 v237 v330 er12 ew12
    tr_load
    tr_storeV 0 13 0 v255 v333 er13 ew13
    tr_load
    tr_storeV 0 14 0 v273 v336 er14 ew14
    tr_load
    tr_storeV 0 15 0 v291 v339 er15 ew15
    tr_load
    tr_storeV 16 0 3200 v21 v294 er0 ew0
    tr_load
    tr_storeV 16 1 3200 v39 v297 er1 ew1
    tr_load
    tr_storeV 16 2 3200 v57 v300 er2 ew2
    tr_load
    tr_storeV 16 3 3200 v75 v303 er3 ew3
    tr_load
    tr_storeV 16 4 3200 v93 v306 er4 ew4
    tr_load
    tr_storeV 16 5 3200 v111 v309 er5 ew5
    tr_load
    tr_storeV 16 6 3200 v129 v312 er6 ew6
    tr_load
    tr_storeV 16 7 3200 v147 v315 er7 ew7
    tr_load
    tr_storeV 16 8 3200 v165 v318 er8 ew8
    tr_load
    tr_storeV 16 9 3200 v183 v321 er9 ew9
    tr_load
    tr_storeV 16 10 3200 v201 v324 er10 ew10
    tr_load
    tr_storeV 16 11 3200 v219 v327 er11 ew11
    tr_load
    tr_storeV 16 12 3200 v237 v330 er12 ew12
    tr_load
    tr_storeV 16 13 3200 v255 v333 er13 ew13
    tr_load
    tr_storeV 16 14 3200 v273 v336 er14 ew14
    tr_load
    tr_storeV 16 15 3200 v291 v339 er15 ew15
    tr_load
    tr_storeV 32 0 6400 v21 v294 er0 ew0
    tr_load
    tr_storeV 32 1 6400 v39 v297 er1 ew1
    tr_load
    tr_storeV 32 2 6400 v57 v300 er2 ew2
    tr_load
    tr_storeV 32 3 6400 v75 v303 er3 ew3
    tr_load
    tr_storeV 32 4 6400 v93 v306 er4 ew4
    tr_load
    tr_storeV 32 5 6400 v111 v309 er5 ew5
    tr_load
    tr_storeV 32 6 6400 v129 v312 er6 ew6
    tr_load
    tr_storeV 32 7 6400 v147 v315 er7 ew7
    tr_load
    tr_storeV 32 8 6400 v165 v318 er8 ew8
    tr_load
    tr_storeV 32 9 6400 v183 v321 er9 ew9
    tr_load
    tr_storeV 32 10 6400 v201 v324 er10 ew10
    tr_load
    tr_storeV 32 11 6400 v219 v327 er11 ew11
    tr_load
    tr_storeV 32 12 6400 v237 v330 er12 ew12
    tr_load
    tr_storeV 32 13 6400 v255 v333 er13 ew13
    tr_load
    tr_storeV 32 14 6400 v273 v336 er14 ew14
    tr_load
    tr_storeV 32 15 6400 v291 v339 er15 ew15
    tr_load
    tr_storeV 48 0 9600 v21 v294 er0 ew0
    tr_load
    tr_storeV 48 1 9600 v39 v297 er1 ew1
    tr_load
    tr_storeV 48 2 9600 v57 v300 er2 ew2
    tr_load
    tr_storeV 48 3 9600 v75 v303 er3 ew3
    tr_load
    tr_storeV 48 4 9600 v93 v306 er4 ew4
    tr_load
    tr_storeV 48 5 9600 v111 v309 er5 ew5
    tr_load
    tr_storeV 48 6 9600 v129 v312 er6 ew6
    tr_load
    tr_storeV 48 7 9600 v147 v315 er7 ew7
    tr_load
    tr_storeV 48 8 9600 v165 v318 er8 ew8
    tr_load
    tr_storeV 48 9 9600 v183 v321 er9 ew9
    tr_load
    tr_storeV 48 10 9600 v201 v324 er10 ew10
    tr_load
    tr_storeV 48 11 9600 v219 v327 er11 ew11
    tr_load
    tr_storeV 48 12 9600 v237 v330 er12 ew12
    tr_load
    tr_storeV 48 13 9600 v255 v333 er13 ew13
    tr_load
    tr_storeV 48 14 9600 v273 v336 er14 ew14
    tr_load
    tr_storeV 48 15 9600 v291 v339 er15 ew15
    tr_load
    tr_storeV 64 0 12800 v21 v294 er0 ew0
    tr_load
    tr_storeV 64 1 12800 v39 v297 er1 ew1
    tr_load
    tr_storeV 64 2 12800 v57 v300 er2 ew2
    tr_load
    tr_storeV 64 3 12800 v75 v303 er3 ew3
    tr_load
    tr_storeV 64 4 12800 v93 v306 er4 ew4
    tr_load
    tr_storeV 64 5 12800 v111 v309 er5 ew5
    tr_load
    tr_storeV 64 6 12800 v129 v312 er6 ew6
    tr_load
    tr_storeV 64 7 12800 v147 v315 er7 ew7
    tr_load
    tr_storeV 64 8 12800 v165 v318 er8 ew8
    tr_load
    tr_storeV 64 9 12800 v183 v321 er9 ew9
    tr_load
    tr_storeV 64 10 12800 v201 v324 er10 ew10
    tr_load
    tr_storeV 64 11 12800 v219 v327 er11 ew11
    tr_load
    tr_storeV 64 12 12800 v237 v330 er12 ew12
    tr_load
    tr_storeV 64 13 12800 v255 v333 er13 ew13
    tr_load
    tr_storeV 64 14 12800 v273 v336 er14 ew14
    tr_load
    tr_storeV 64 15 12800 v291 v339 er15 ew15
    tr_load
    tr_storeV 80 0 16000 v21 v294 er0 ew0
    tr_load
    tr_storeV 80 1 16000 v39 v297 er1 ew1
    tr_load
    tr_storeV 80 2 16000 v57 v300 er2 ew2
    tr_load
    tr_storeV 80 3 16000 v75 v303 er3 ew3
    tr_load
    tr_storeV 80 4 16000 v93 v306 er4 ew4
    tr_load
    tr_storeV 80 5 16000 v111 v309 er5 ew5
    tr_load
    tr_storeV 80 6 16000 v129 v312 er6 ew6
    tr_load
    tr_storeV 80 7 16000 v147 v315 er7 ew7
    tr_load
    tr_storeV 80 8 16000 v165 v318 er8 ew8
    tr_load
    tr_storeV 80 9 16000 v183 v321 er9 ew9
    tr_load
    tr_storeV 80 10 16000 v201 v324 er10 ew10
    tr_load
    tr_storeV 80 11 16000 v219 v327 er11 ew11
    tr_load
    tr_storeV 80 12 16000 v237 v330 er12 ew12
    tr_load
    tr_storeV 80 13 16000 v255 v333 er13 ew13
    tr_load
    tr_storeV 80 14 16000 v273 v336 er14 ew14
    tr_load
    tr_storeV 80 15 16000 v291 v339 er15 ew15
    tr_load
    tr_storeV 96 0 19200 v21 v294 er0 ew0
    tr_load
    tr_storeV 96 1 19200 v39 v297 er1 ew1
    tr_load
    tr_storeV 96 2 19200 v57 v300 er2 ew2
    tr_load
    tr_storeV 96 3 19200 v75 v303 er3 ew3
    tr_load
    tr_storeV 96 4 19200 v93 v306 er4 ew4
    tr_load
    tr_storeV 96 5 19200 v111 v309 er5 ew5
    tr_load
    tr_storeV 96 6 19200 v129 v312 er6 ew6
    tr_load
    tr_storeV 96 7 19200 v147 v315 er7 ew7
    tr_load
    tr_storeV 96 8 19200 v165 v318 er8 ew8
    tr_load
    tr_storeV 96 9 19200 v183 v321 er9 ew9
    tr_load
    tr_storeV 96 10 19200 v201 v324 er10 ew10
    tr_load
    tr_storeV 96 11 19200 v219 v327 er11 ew11
    tr_load
    tr_storeV 96 12 19200 v237 v330 er12 ew12
    tr_load
    tr_storeV 96 13 19200 v255 v333 er13 ew13
    tr_load
    tr_storeV 96 14 19200 v273 v336 er14 ew14
    tr_load
    tr_storeV 96 15 19200 v291 v339 er15 ew15
    tr_load
    tr_storeV 112 0 22400 v21 v294 er0 ew0
    tr_load
    tr_storeV 112 1 22400 v39 v297 er1 ew1
    tr_load
    tr_storeV 112 2 22400 v57 v300 er2 ew2
    tr_load
    tr_storeV 112 3 22400 v75 v303 er3 ew3
    tr_load
    tr_storeV 112 4 22400 v93 v306 er4 ew4
    tr_load
    tr_storeV 112 5 22400 v111 v309 er5 ew5
    tr_load
    tr_storeV 112 6 22400 v129 v312 er6 ew6
    tr_load
    tr_storeV 112 7 22400 v147 v315 er7 ew7
    tr_load
    tr_storeV 112 8 22400 v165 v318 er8 ew8
    tr_load
    tr_storeV 112 9 22400 v183 v321 er9 ew9
    tr_load
    tr_storeV 112 10 22400 v201 v324 er10 ew10
    tr_load
    tr_storeV 112 11 22400 v219 v327 er11 ew11
    tr_load
    tr_storeV 112 12 22400 v237 v330 er12 ew12
    tr_load
    tr_storeV 112 13 22400 v255 v333 er13 ew13
    tr_load
    tr_storeV 112 14 22400 v273 v336 er14 ew14
    tr_load
    tr_storeV 112 15 22400 v291 v339 er15 ew15
    sl_step
    isplitl [Hmw]; · iexact Hmw
    isplitl [He]; · iexact He
    isplitl [Ho]
    · iexists fo2
      isplitr [Ho]
      · ipureintro; exact Cert.Proof.Lib.trip_done fe fo2 k.val (tripsV1 k) hinv
      · iexact Ho
    iexact HO
  unfold tinvV1
  isplitl [Hmw He Ho HO]
  · isplitl [Hmw]; · iexact Hmw
    isplitl [He]; · iexact He
    isplitl [Ho]
    · iexists fo
      isplitr [Ho]
      · ipureintro; intro p hp; exact absurd hp (by omega)
      · iexact Ho
    iexact HO
  iintro %_ HI
  icases HI with ⟨-, He, ⟨%fo', %hfin, Ho⟩, HO⟩
  isplitl [He]; · iexact He
  isplitl [Ho]
  · iexists fo'
    isplitr [Ho]
    · ipureintro; exact Cert.Proof.Lib.all_done fe fo' (fun p hp => hfin p (lt_of_lt_of_eq hp (by decide)))
    · iexact Ho
  iexact HO

end Cert.Proof.KI

end
-- ==== Proof.TileTripVI.lean ====
import proofs.«206347_g23639499997337_cont_sun_m_514_14_alg».proof.Proof.TileInvVI
import proofs.«206347_g23639499997337_cont_sun_m_514_14_alg».proof.Proof.TileTripI
import proofs.«206347_g23639499997337_cont_sun_m_514_14_alg».proof.Proof.InnerVI0
import proofs.«206347_g23639499997337_cont_sun_m_514_14_alg».proof.Proof.InnerVI1

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (d : Dev nD) (L : grid0.Coords)

local notation "xW" => (Memref.whole Cert.KernelIdeal.main_arg0_scv : Memref Cert.KernelIdeal.sig Kind.scVector Space.hbm Cert.KernelIdeal.S4096x200 EltTy.i32)
local notation "tW" => (Memref.whole Cert.KernelIdeal.main_arg1_scv : Memref Cert.KernelIdeal.sig Kind.scVector Space.hbm Cert.KernelIdeal.S100000x128 EltTy.f32)
local notation "oW" => (Memref.whole Cert.KernelIdeal.main_v0_scv : Memref Cert.KernelIdeal.sig Kind.scVector Space.hbm Cert.KernelIdeal.S4096x25600 EltTy.f32)
local notation "i0W" => (Memref.whole Cert.KernelIdeal.cc0_scratch0 : Memref Cert.KernelIdeal.sig Kind.scVector Space.vmem Cert.KernelIdeal.S200 EltTy.i32)
local notation "i1W" => (Memref.whole Cert.KernelIdeal.cc0_scratch1 : Memref Cert.KernelIdeal.sig Kind.scVector Space.vmem Cert.KernelIdeal.S200 EltTy.i32)
local notation "e0W" => (Memref.whole Cert.KernelIdeal.cc0_scratch2 : Memref Cert.KernelIdeal.sig Kind.scVector Space.vmem Cert.KernelIdeal.S200x128 EltTy.f32)
local notation "e1W" => (Memref.whole Cert.KernelIdeal.cc0_scratch3 : Memref Cert.KernelIdeal.sig Kind.scVector Space.vmem Cert.KernelIdeal.S200x128 EltTy.f32)
local notation "o0W" => (Memref.whole Cert.KernelIdeal.cc0_scratch4 : Memref Cert.KernelIdeal.sig Kind.scVector Space.vmem Cert.KernelIdeal.S25600 EltTy.f32)
local notation "o1W" => (Memref.whole Cert.KernelIdeal.cc0_scratch5 : Memref Cert.KernelIdeal.sig Kind.scVector Space.vmem Cert.KernelIdeal.S25600 EltTy.f32)

variable (qx q0 q1 : PosShare TreeShare) (O : CellTallies nD τ sig (HIx 1)) (W : Waits sig (HIx 1))

/-! ## The program's row offsets are the tile's rows 2k and 2k+1 (this trip's) and 2k+2, 2k+3 (the next's) -/

theorem vec2_congr {a b : ℕ} (h : a = b) : (![a, 0] : Fin 2 → ℕ) = ![b, 0] := by rw [h]

theorem off3_0 (k : Fin k0_t1_loop.trips) : k0_off3 L k 0#32 = ![(rowB L (2 * k.val)).val, 0] := by
  have hk : k.val < 64 := lt_of_lt_of_eq k.isLt trips64
  refine (k0_off3_eq L k ⟨0, by decide⟩).trans (vec2_congr ?_)
  rw [rowB_val L _ (by omega)]; rfl
theorem off3_1 (k : Fin k0_t1_loop.trips) : k0_off3 L k 1#32 = ![(rowB L (2 * k.val + 1)).val, 0] := by
  have hk : k.val < 64 := lt_of_lt_of_eq k.isLt trips64
  refine (k0_off3_eq L k ⟨1, by decide⟩).trans (vec2_congr ?_)
  rw [rowB_val L _ (by omega)]
  show 256 * (L 1).val + 128 * (L 0).val + 2 * k.val + 1 = _
  omega
theorem off4 (k : Fin k0_t1_loop.trips) (h : k.val + 1 < 64) : k0_off4 L k = ![(rowB L (2 * (k.val + 1))).val, 0] := by
  refine (k0_off4_eq L k).trans (vec2_congr ?_)
  rw [rowB_val L _ (by omega)]; omega
theorem off6 (k : Fin k0_t1_loop.trips) (h : k.val + 1 < 64) : k0_off6 L k = ![(rowB L (2 * (k.val + 1) + 1)).val, 0] := by
  refine (k0_off6_eq L k).trans (vec2_congr ?_)
  rw [rowB_val L _ (by omega)]; omega

variable [FloatOps F]

set_option maxHeartbeats 4000000 in
theorem tripAV (hpre : PreOK m) (k : Fin k0_t1_loop.trips) (hk0 : k.val = 0) (hks : k.val + 1 < 64)
    (v2 : BitVec 32) (v3 v21 v39 v57 v75 v93 v111 v129 v147 v165 v183 v201 v219 v237 v255 v273 v291 v294 v297 v300 v303 v306 v309 v312 v315 v318 v321 v324 v327 v330 v333 v336 v339 : IVec S16 32) (hv3 : ∀ x, (v3 x).toNat ≤ 15) (hv21 : ∀ x, (v21 x).toNat ≤ 15) (hv39 : ∀ x, (v39 x).toNat ≤ 15) (hv57 : ∀ x, (v57 x).toNat ≤ 15) (hv75 : ∀ x, (v75 x).toNat ≤ 15) (hv93 : ∀ x, (v93 x).toNat ≤ 15) (hv111 : ∀ x, (v111 x).toNat ≤ 15) (hv129 : ∀ x, (v129 x).toNat ≤ 15) (hv147 : ∀ x, (v147 x).toNat ≤ 15) (hv165 : ∀ x, (v165 x).toNat ≤ 15) (hv183 : ∀ x, (v183 x).toNat ≤ 15) (hv201 : ∀ x, (v201 x).toNat ≤ 15) (hv219 : ∀ x, (v219 x).toNat ≤ 15) (hv237 : ∀ x, (v237 x).toNat ≤ 15) (hv255 : ∀ x, (v255 x).toNat ≤ 15) (hv273 : ∀ x, (v273 x).toNat ≤ 15) (hv291 : ∀ x, (v291 x).toNat ≤ 15) (hv294 : ∀ x, (v294 x).toNat ≤ 3015) (hv297 : ∀ x, (v297 x).toNat ≤ 3015) (hv300 : ∀ x, (v300 x).toNat ≤ 3015) (hv303 : ∀ x, (v303 x).toNat ≤ 3015) (hv306 : ∀ x, (v306 x).toNat ≤ 3015) (hv309 : ∀ x, (v309 x).toNat ≤ 3015) (hv312 : ∀ x, (v312 x).toNat ≤ 3015) (hv315 : ∀ x, (v315 x).toNat ≤ 3015) (hv318 : ∀ x, (v318 x).toNat ≤ 3015) (hv321 : ∀ x, (v321 x).toNat ≤ 3015) (hv324 : ∀ x, (v324 x).toNat ≤ 3015) (hv327 : ∀ x, (v327 x).toNat ≤ 3015) (hv330 : ∀ x, (v330 x).toNat ≤ 3015) (hv333 : ∀ x, (v333 x).toNat ≤ 3015) (hv336 : ∀ x, (v336 x).toNat ≤ 3015) (hv339 : ∀ x, (v339 x).toNat ≤ 3015)
    (ex3 : ∀ x, (v3 x).toNat = (x 0).val) (er0 : ∀ x, (v21 x).toNat = ((x 0).val + 0) % 16) (er1 : ∀ x, (v39 x).toNat = ((x 0).val + 1) % 16) (er2 : ∀ x, (v57 x).toNat = ((x 0).val + 2) % 16) (er3 : ∀ x, (v75 x).toNat = ((x 0).val + 3) % 16) (er4 : ∀ x, (v93 x).toNat = ((x 0).val + 4) % 16) (er5 : ∀ x, (v111 x).toNat = ((x 0).val + 5) % 16) (er6 : ∀ x, (v129 x).toNat = ((x 0).val + 6) % 16) (er7 : ∀ x, (v147 x).toNat = ((x 0).val + 7) % 16) (er8 : ∀ x, (v165 x).toNat = ((x 0).val + 8) % 16) (er9 : ∀ x, (v183 x).toNat = ((x 0).val + 9) % 16) (er10 : ∀ x, (v201 x).toNat = ((x 0).val + 10) % 16) (er11 : ∀ x, (v219 x).toNat = ((x 0).val + 11) % 16) (er12 : ∀ x, (v237 x).toNat = ((x 0).val + 12) % 16) (er13 : ∀ x, (v255 x).toNat = ((x 0).val + 13) % 16) (er14 : ∀ x, (v273 x).toNat = ((x 0).val + 14) % 16) (er15 : ∀ x, (v291 x).toNat = ((x 0).val + 15) % 16) (ew0 : ∀ x, (v294 x).toNat = (((x 0).val + 0) % 16) * 200 + (x 0).val) (ew1 : ∀ x, (v297 x).toNat = (((x 0).val + 1) % 16) * 200 + (x 0).val) (ew2 : ∀ x, (v300 x).toNat = (((x 0).val + 2) % 16) * 200 + (x 0).val) (ew3 : ∀ x, (v303 x).toNat = (((x 0).val + 3) % 16) * 200 + (x 0).val) (ew4 : ∀ x, (v306 x).toNat = (((x 0).val + 4) % 16) * 200 + (x 0).val) (ew5 : ∀ x, (v309 x).toNat = (((x 0).val + 5) % 16) * 200 + (x 0).val) (ew6 : ∀ x, (v312 x).toNat = (((x 0).val + 6) % 16) * 200 + (x 0).val) (ew7 : ∀ x, (v315 x).toNat = (((x 0).val + 7) % 16) * 200 + (x 0).val) (ew8 : ∀ x, (v318 x).toNat = (((x 0).val + 8) % 16) * 200 + (x 0).val) (ew9 : ∀ x, (v321 x).toNat = (((x 0).val + 9) % 16) * 200 + (x 0).val) (ew10 : ∀ x, (v324 x).toNat = (((x 0).val + 10) % 16) * 200 + (x 0).val) (ew11 : ∀ x, (v327 x).toNat = (((x 0).val + 11) % 16) * 200 + (x 0).val) (ew12 : ∀ x, (v330 x).toNat = (((x 0).val + 12) % 16) * 200 + (x 0).val) (ew13 : ∀ x, (v333 x).toNat = (((x 0).val + 13) % 16) * 200 + (x 0).val) (ew14 : ∀ x, (v336 x).toNat = (((x 0).val + 14) % 16) * 200 + (x 0).val) (ew15 : ∀ x, (v339 x).toNat = (((x 0).val + 15) % 16) * 200 + (x 0).val) :
    (iprop(Transfers.MayWaits (thr d L) (none : HIx 1) O
        ∗ ((xW).view.loc (thr d L) ↦{qx} m (xLoc d))
        ∗ gathFlV0 m d L q0 (2 * k.val) ∗ gathFlV1 m d L q1 (2 * k.val + 1)
        ∗ outNone0 (F := F) d L ∗ outNone1 (F := F) d L
        ∗ rowIn0 m d L k ∗ rowIn1 m d L k
        ∗ semVal (thr d L, SemLoc.dma cc0_scoped2.sem) 0 ∗ semVal (thr d L, SemLoc.dma cc0_scoped3.sem) 0
        ∗ owesEx (F := F) d L O W) : sProp 𝕄)
      ⊢ wp frame (wpE (defs₀ (F := F)) 𝒱₀ (thr d L) none) Set.univ
          (k0_t1_body L xW (Memref.isWhole_whole _) tW (Memref.isWhole_whole _) oW (Memref.isWhole_whole _)
            i0W (Memref.isWhole_whole _) i1W (Memref.isWhole_whole _) e0W (Memref.isWhole_whole _) e1W (Memref.isWhole_whole _)
            o0W (Memref.isWhole_whole _) o1W (Memref.isWhole_whole _)
            cc0_scratch6 cc0_scratch7 cc0_scratch8 cc0_scratch9 cc0_scoped0 cc0_scoped1 cc0_scoped2 cc0_scoped3
            v2 v3 v21 v39 v57 v75 v93 v111 v129 v147 v165 v183 v201 v219 v237 v255 v273 v291 v294 v297 v300 v303 v306 v309 v312 v315 v318 v321 v324 v327 v330 v333 v336 v339 k ⟨⟩)
          fun _ => iprop(Transfers.MayWaits (thr d L) (none : HIx 1) O
        ∗ ((xW).view.loc (thr d L) ↦{qx} m (xLoc d))
        ∗ gathFlV0 m d L q0 (2 * (k.val + 1)) ∗ gathFlV1 m d L q1 (2 * (k.val + 1) + 1)
        ∗ outFlV0 m d L k ∗ outFlV1 m d L k

        ∗ semVal (thr d L, SemLoc.dma cc0_scoped2.sem) 0 ∗ semVal (thr d L, SemLoc.dma cc0_scoped3.sem) 0
        ∗ owesEx (F := F) d L O W) := by
  have hn1 : ¬ k0_cond1 k = 1#1 := by rw [cond1_iff]; omega
  have hn3 : ¬ k0_cond3 k = 1#1 := by rw [cond3_iff]; omega
  have k0_h2 : k0_cond2 k = 1#1 := (cond2_iff k).2 hks
  have k0_h4 : k0_cond4 k = 1#1 := (cond4_iff k).2 hks
  unfold k0_t1_body gathFlV0 gathFlV1 outFlV0 outFlV1 outNone0 outNone1 rowIn0 rowIn1 owesEx
  iintro ⟨#Hmw, Hx, ⟨%fe0, %fi0, %hE0, Ht0, F0⟩, ⟨%fe1, %fi1, %hE1, Ht1, F1⟩, ⟨Hs8, %fo0, Ho0⟩, ⟨Hs9, %fo1, Ho1⟩, Hr0, Hr1, Hc2, Hc3, %W', %hW', HO⟩
  sl_exec
  rw [wp_bind]
  iapply (wp_wand_r frame _ Set.univ)
  isplitl [F0_dst Ho0 HO]
  · iapply (transposeV0 d L O _ fe0 fo0 v2 v3 v21 v39 v57 v75 v93 v111 v129 v147 v165 v183 v201 v219 v237 v255 v273 v291 v294 v297 v300 v303 v306 v309 v312 v315 v318 v321 v324 v327 v330 v333 v336 v339 (0#32) (1#32) k hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339 ex3 er0 er1 er2 er3 er4 er5 er6 er7 er8 er9 er10 er11 er12 er13 er14 er15 ew0 ew1 ew2 ew3 ew4 ew5 ew6 ew7 ew8 ew9 ew10 ew11 ew12 ew13 ew14 ew15)
    isplitr; · iexact Hmw
    isplitl [F0_dst]; · iexact F0_dst
    isplitl [Ho0]; · iexact Ho0
    iexact HO
  iintro %_ ⟨He0, ⟨%fo0', %hT0, Ho0⟩, HO⟩
  have hF0 : FlatOK m d (rowB L (2 * k.val)) fo0' := flat_of_emb m d _ fe0 fo0' hE0 hT0
  sl_exec
  have hin0 := hin_row0 m d L hpre (k0_off4 L k) (k0_off4_inb L k k0_h2) fi0
  sl_exec
  rw [wp_bind]
  iapply (wp_wand_r frame _ Set.univ)
  isplitl [F1_dst Ho1 HO]
  · iapply (transposeV1 d L O _ fe1 fo1 v2 v3 v21 v39 v57 v75 v93 v111 v129 v147 v165 v183 v201 v219 v237 v255 v273 v291 v294 v297 v300 v303 v306 v309 v312 v315 v318 v321 v324 v327 v330 v333 v336 v339 (0#32) (1#32) k hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339 ex3 er0 er1 er2 er3 er4 er5 er6 er7 er8 er9 er10 er11 er12 er13 er14 er15 ew0 ew1 ew2 ew3 ew4 ew5 ew6 ew7 ew8 ew9 ew10 ew11 ew12 ew13 ew14 ew15)
    isplitr; · iexact Hmw
    isplitl [F1_dst]; · iexact F1_dst
    isplitl [Ho1]; · iexact Ho1
    iexact HO
  iintro %_ ⟨He1, ⟨%fo1', %hT1, Ho1⟩, HO⟩
  have hF1 : FlatOK m d (rowB L (2 * k.val + 1)) fo1' := flat_of_emb m d _ fe1 fo1' hE1 hT1
  sl_exec
  have hin1 := hin_row1 m d L hpre (k0_off6 L k) (k0_off6_inb L k k0_h4) fi1
  sl_exec

  sl_step
  isplitr; · iexact Hmw
  isplitl [Hx]; · iexact Hx
  isplitl [Ht0 F0]
  · iexists _, _; isplitr
    rotate_left
    · isplitl [Ht0]; · iexact Ht0
      iexact F0
    · ipureintro
      exact emb_ok0 m d L (k0_off4 L k) (k0_off4_inb L k k0_h2) (rowB L (2 * (k.val + 1))) (off4 L k hks) fi0 fe0 _ hin0
  isplitl [Ht1 F1]
  · iexists _, _; isplitr
    rotate_left
    · isplitl [Ht1]; · iexact Ht1
      iexact F1
    · ipureintro
      exact emb_ok1 m d L (k0_off6 L k) (k0_off6_inb L k k0_h4) (rowB L (2 * (k.val + 1) + 1)) (off6 L k hks) fi1 fe1 _ hin1
  isplitl [Ho0 Hs8]
  · iexists _, _; isplitr
    rotate_left
    · isplitl [Ho0]; · iexact Ho0
      iexact Hs8
    · ipureintro
      exact row_ok0 m d L k (rowB L (2 * k.val)) (off3_0 L k) fo0' hF0
  isplitl [Ho1 Hs9]
  · iexists _, _; isplitr
    rotate_left
    · isplitl [Ho1]; · iexact Ho1
      iexact Hs9
    · ipureintro
      exact row_ok1 m d L k (rowB L (2 * k.val + 1)) (off3_1 L k) fo1' hF1
  isplitl [Hc2]; · iexact Hc2
  isplitl [Hc3]; · iexact Hc3
  iexists _; isplitr
  rotate_left
  · iexact HO
  · ipureintro; repeat (first | exact hW' | apply waits_insert)

set_option maxHeartbeats 4000000 in
theorem tripBV (hpre : PreOK m) (k : Fin k0_t1_loop.trips) (k' : Fin k0_t1_loop.trips) (hk' : k'.val + 1 = k.val) (hks : k.val + 1 < 64)
    (v2 : BitVec 32) (v3 v21 v39 v57 v75 v93 v111 v129 v147 v165 v183 v201 v219 v237 v255 v273 v291 v294 v297 v300 v303 v306 v309 v312 v315 v318 v321 v324 v327 v330 v333 v336 v339 : IVec S16 32) (hv3 : ∀ x, (v3 x).toNat ≤ 15) (hv21 : ∀ x, (v21 x).toNat ≤ 15) (hv39 : ∀ x, (v39 x).toNat ≤ 15) (hv57 : ∀ x, (v57 x).toNat ≤ 15) (hv75 : ∀ x, (v75 x).toNat ≤ 15) (hv93 : ∀ x, (v93 x).toNat ≤ 15) (hv111 : ∀ x, (v111 x).toNat ≤ 15) (hv129 : ∀ x, (v129 x).toNat ≤ 15) (hv147 : ∀ x, (v147 x).toNat ≤ 15) (hv165 : ∀ x, (v165 x).toNat ≤ 15) (hv183 : ∀ x, (v183 x).toNat ≤ 15) (hv201 : ∀ x, (v201 x).toNat ≤ 15) (hv219 : ∀ x, (v219 x).toNat ≤ 15) (hv237 : ∀ x, (v237 x).toNat ≤ 15) (hv255 : ∀ x, (v255 x).toNat ≤ 15) (hv273 : ∀ x, (v273 x).toNat ≤ 15) (hv291 : ∀ x, (v291 x).toNat ≤ 15) (hv294 : ∀ x, (v294 x).toNat ≤ 3015) (hv297 : ∀ x, (v297 x).toNat ≤ 3015) (hv300 : ∀ x, (v300 x).toNat ≤ 3015) (hv303 : ∀ x, (v303 x).toNat ≤ 3015) (hv306 : ∀ x, (v306 x).toNat ≤ 3015) (hv309 : ∀ x, (v309 x).toNat ≤ 3015) (hv312 : ∀ x, (v312 x).toNat ≤ 3015) (hv315 : ∀ x, (v315 x).toNat ≤ 3015) (hv318 : ∀ x, (v318 x).toNat ≤ 3015) (hv321 : ∀ x, (v321 x).toNat ≤ 3015) (hv324 : ∀ x, (v324 x).toNat ≤ 3015) (hv327 : ∀ x, (v327 x).toNat ≤ 3015) (hv330 : ∀ x, (v330 x).toNat ≤ 3015) (hv333 : ∀ x, (v333 x).toNat ≤ 3015) (hv336 : ∀ x, (v336 x).toNat ≤ 3015) (hv339 : ∀ x, (v339 x).toNat ≤ 3015)
    (ex3 : ∀ x, (v3 x).toNat = (x 0).val) (er0 : ∀ x, (v21 x).toNat = ((x 0).val + 0) % 16) (er1 : ∀ x, (v39 x).toNat = ((x 0).val + 1) % 16) (er2 : ∀ x, (v57 x).toNat = ((x 0).val + 2) % 16) (er3 : ∀ x, (v75 x).toNat = ((x 0).val + 3) % 16) (er4 : ∀ x, (v93 x).toNat = ((x 0).val + 4) % 16) (er5 : ∀ x, (v111 x).toNat = ((x 0).val + 5) % 16) (er6 : ∀ x, (v129 x).toNat = ((x 0).val + 6) % 16) (er7 : ∀ x, (v147 x).toNat = ((x 0).val + 7) % 16) (er8 : ∀ x, (v165 x).toNat = ((x 0).val + 8) % 16) (er9 : ∀ x, (v183 x).toNat = ((x 0).val + 9) % 16) (er10 : ∀ x, (v201 x).toNat = ((x 0).val + 10) % 16) (er11 : ∀ x, (v219 x).toNat = ((x 0).val + 11) % 16) (er12 : ∀ x, (v237 x).toNat = ((x 0).val + 12) % 16) (er13 : ∀ x, (v255 x).toNat = ((x 0).val + 13) % 16) (er14 : ∀ x, (v273 x).toNat = ((x 0).val + 14) % 16) (er15 : ∀ x, (v291 x).toNat = ((x 0).val + 15) % 16) (ew0 : ∀ x, (v294 x).toNat = (((x 0).val + 0) % 16) * 200 + (x 0).val) (ew1 : ∀ x, (v297 x).toNat = (((x 0).val + 1) % 16) * 200 + (x 0).val) (ew2 : ∀ x, (v300 x).toNat = (((x 0).val + 2) % 16) * 200 + (x 0).val) (ew3 : ∀ x, (v303 x).toNat = (((x 0).val + 3) % 16) * 200 + (x 0).val) (ew4 : ∀ x, (v306 x).toNat = (((x 0).val + 4) % 16) * 200 + (x 0).val) (ew5 : ∀ x, (v309 x).toNat = (((x 0).val + 5) % 16) * 200 + (x 0).val) (ew6 : ∀ x, (v312 x).toNat = (((x 0).val + 6) % 16) * 200 + (x 0).val) (ew7 : ∀ x, (v315 x).toNat = (((x 0).val + 7) % 16) * 200 + (x 0).val) (ew8 : ∀ x, (v318 x).toNat = (((x 0).val + 8) % 16) * 200 + (x 0).val) (ew9 : ∀ x, (v321 x).toNat = (((x 0).val + 9) % 16) * 200 + (x 0).val) (ew10 : ∀ x, (v324 x).toNat = (((x 0).val + 10) % 16) * 200 + (x 0).val) (ew11 : ∀ x, (v327 x).toNat = (((x 0).val + 11) % 16) * 200 + (x 0).val) (ew12 : ∀ x, (v330 x).toNat = (((x 0).val + 12) % 16) * 200 + (x 0).val) (ew13 : ∀ x, (v333 x).toNat = (((x 0).val + 13) % 16) * 200 + (x 0).val) (ew14 : ∀ x, (v336 x).toNat = (((x 0).val + 14) % 16) * 200 + (x 0).val) (ew15 : ∀ x, (v339 x).toNat = (((x 0).val + 15) % 16) * 200 + (x 0).val) :
    (iprop(Transfers.MayWaits (thr d L) (none : HIx 1) O
        ∗ ((xW).view.loc (thr d L) ↦{qx} m (xLoc d))
        ∗ gathFlV0 m d L q0 (2 * k.val) ∗ gathFlV1 m d L q1 (2 * k.val + 1)
        ∗ outFlV0 m d L k' ∗ outFlV1 m d L k'
        ∗ rowIn0 m d L k ∗ rowIn1 m d L k
        ∗ semVal (thr d L, SemLoc.dma cc0_scoped2.sem) 0 ∗ semVal (thr d L, SemLoc.dma cc0_scoped3.sem) 0
        ∗ owesEx (F := F) d L O W) : sProp 𝕄)
      ⊢ wp frame (wpE (defs₀ (F := F)) 𝒱₀ (thr d L) none) Set.univ
          (k0_t1_body L xW (Memref.isWhole_whole _) tW (Memref.isWhole_whole _) oW (Memref.isWhole_whole _)
            i0W (Memref.isWhole_whole _) i1W (Memref.isWhole_whole _) e0W (Memref.isWhole_whole _) e1W (Memref.isWhole_whole _)
            o0W (Memref.isWhole_whole _) o1W (Memref.isWhole_whole _)
            cc0_scratch6 cc0_scratch7 cc0_scratch8 cc0_scratch9 cc0_scoped0 cc0_scoped1 cc0_scoped2 cc0_scoped3
            v2 v3 v21 v39 v57 v75 v93 v111 v129 v147 v165 v183 v201 v219 v237 v255 v273 v291 v294 v297 v300 v303 v306 v309 v312 v315 v318 v321 v324 v327 v330 v333 v336 v339 k ⟨⟩)
          fun _ => iprop(Transfers.MayWaits (thr d L) (none : HIx 1) O
        ∗ ((xW).view.loc (thr d L) ↦{qx} m (xLoc d))
        ∗ gathFlV0 m d L q0 (2 * (k.val + 1)) ∗ gathFlV1 m d L q1 (2 * (k.val + 1) + 1)
        ∗ outFlV0 m d L k ∗ outFlV1 m d L k
        ∗ rowFinV0 m d L k' ∗ rowFinV1 m d L k'
        ∗ semVal (thr d L, SemLoc.dma cc0_scoped2.sem) 0 ∗ semVal (thr d L, SemLoc.dma cc0_scoped3.sem) 0
        ∗ owesEx (F := F) d L O W) := by
  have k0_h1 : k0_cond1 k = 1#1 := (cond1_iff k).2 (by omega)
  have k0_h3 : k0_cond3 k = 1#1 := (cond3_iff k).2 (by omega)
  have k0_h2 : k0_cond2 k = 1#1 := (cond2_iff k).2 hks
  have k0_h4 : k0_cond4 k = 1#1 := (cond4_iff k).2 hks
  unfold k0_t1_body gathFlV0 gathFlV1 outFlV0 outFlV1 rowIn0 rowIn1 owesEx
  iintro ⟨#Hmw, Hx, ⟨%fe0, %fi0, %hE0, Ht0, F0⟩, ⟨%fe1, %fi1, %hE1, Ht1, F1⟩, ⟨%g0, %fo0, %hG0, Ho0, FO0⟩, ⟨%g1, %fo1, %hG1, Ho1, FO1⟩, Hr0, Hr1, Hc2, Hc3, %W', %hW', HO⟩
  sl_exec
  rw [wp_bind]
  iapply (wp_wand_r frame _ Set.univ)
  isplitl [F0_dst Ho0 HO]
  · iapply (transposeV0 d L O _ fe0 fo0 v2 v3 v21 v39 v57 v75 v93 v111 v129 v147 v165 v183 v201 v219 v237 v255 v273 v291 v294 v297 v300 v303 v306 v309 v312 v315 v318 v321 v324 v327 v330 v333 v336 v339 (0#32) (1#32) k hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339 ex3 er0 er1 er2 er3 er4 er5 er6 er7 er8 er9 er10 er11 er12 er13 er14 er15 ew0 ew1 ew2 ew3 ew4 ew5 ew6 ew7 ew8 ew9 ew10 ew11 ew12 ew13 ew14 ew15)
    isplitr; · iexact Hmw
    isplitl [F0_dst]; · iexact F0_dst
    isplitl [Ho0]; · iexact Ho0
    iexact HO
  iintro %_ ⟨He0, ⟨%fo0', %hT0, Ho0⟩, HO⟩
  have hF0 : FlatOK m d (rowB L (2 * k.val)) fo0' := flat_of_emb m d _ fe0 fo0' hE0 hT0
  sl_exec
  have hin0 := hin_row0 m d L hpre (k0_off4 L k) (k0_off4_inb L k k0_h2) fi0
  sl_exec
  rw [wp_bind]
  iapply (wp_wand_r frame _ Set.univ)
  isplitl [F1_dst Ho1 HO]
  · iapply (transposeV1 d L O _ fe1 fo1 v2 v3 v21 v39 v57 v75 v93 v111 v129 v147 v165 v183 v201 v219 v237 v255 v273 v291 v294 v297 v300 v303 v306 v309 v312 v315 v318 v321 v324 v327 v330 v333 v336 v339 (0#32) (1#32) k hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339 ex3 er0 er1 er2 er3 er4 er5 er6 er7 er8 er9 er10 er11 er12 er13 er14 er15 ew0 ew1 ew2 ew3 ew4 ew5 ew6 ew7 ew8 ew9 ew10 ew11 ew12 ew13 ew14 ew15)
    isplitr; · iexact Hmw
    isplitl [F1_dst]; · iexact F1_dst
    isplitl [Ho1]; · iexact Ho1
    iexact HO
  iintro %_ ⟨He1, ⟨%fo1', %hT1, Ho1⟩, HO⟩
  have hF1 : FlatOK m d (rowB L (2 * k.val + 1)) fo1' := flat_of_emb m d _ fe1 fo1' hE1 hT1
  sl_exec
  have hin1 := hin_row1 m d L hpre (k0_off6 L k) (k0_off6_inb L k k0_h4) fi1
  sl_exec

  sl_step
  unfold rowFinV0 rowFinV1
  isplitr; · iexact Hmw
  isplitl [Hx]; · iexact Hx
  isplitl [Ht0 F0]
  · iexists _, _; isplitr
    rotate_left
    · isplitl [Ht0]; · iexact Ht0
      iexact F0
    · ipureintro
      exact emb_ok0 m d L (k0_off4 L k) (k0_off4_inb L k k0_h2) (rowB L (2 * (k.val + 1))) (off4 L k hks) fi0 fe0 _ hin0
  isplitl [Ht1 F1]
  · iexists _, _; isplitr
    rotate_left
    · isplitl [Ht1]; · iexact Ht1
      iexact F1
    · ipureintro
      exact emb_ok1 m d L (k0_off6 L k) (k0_off6_inb L k k0_h4) (rowB L (2 * (k.val + 1) + 1)) (off6 L k hks) fi1 fe1 _ hin1
  isplitl [Ho0 FO0]
  · iexists _, _; isplitr
    rotate_left
    · isplitl [Ho0]; · iexact Ho0
      iexact FO0
    · ipureintro
      exact row_ok0 m d L k (rowB L (2 * k.val)) (off3_0 L k) fo0' hF0
  isplitl [Ho1 FO1]
  · iexists _, _; isplitr
    rotate_left
    · isplitl [Ho1]; · iexact Ho1
      iexact FO1
    · ipureintro
      exact row_ok1 m d L k (rowB L (2 * k.val + 1)) (off3_1 L k) fo1' hF1
  isplitl [FO0_dst]
  · iexists _; isplitr
    · ipureintro; exact hG0
    · iexact FO0_dst
  isplitl [FO1_dst]
  · iexists _; isplitr
    · ipureintro; exact hG1
    · iexact FO1_dst
  isplitl [Hc2]; · iexact Hc2
  isplitl [Hc3]; · iexact Hc3
  iexists _; isplitr
  rotate_left
  · iexact HO
  · ipureintro; repeat (first | exact hW' | apply waits_insert)

set_option maxHeartbeats 4000000 in
theorem tripCV (hpre : PreOK m) (k : Fin k0_t1_loop.trips) (k' : Fin k0_t1_loop.trips) (hk' : k'.val + 1 = k.val) (hks : ¬ k.val + 1 < 64)
    (v2 : BitVec 32) (v3 v21 v39 v57 v75 v93 v111 v129 v147 v165 v183 v201 v219 v237 v255 v273 v291 v294 v297 v300 v303 v306 v309 v312 v315 v318 v321 v324 v327 v330 v333 v336 v339 : IVec S16 32) (hv3 : ∀ x, (v3 x).toNat ≤ 15) (hv21 : ∀ x, (v21 x).toNat ≤ 15) (hv39 : ∀ x, (v39 x).toNat ≤ 15) (hv57 : ∀ x, (v57 x).toNat ≤ 15) (hv75 : ∀ x, (v75 x).toNat ≤ 15) (hv93 : ∀ x, (v93 x).toNat ≤ 15) (hv111 : ∀ x, (v111 x).toNat ≤ 15) (hv129 : ∀ x, (v129 x).toNat ≤ 15) (hv147 : ∀ x, (v147 x).toNat ≤ 15) (hv165 : ∀ x, (v165 x).toNat ≤ 15) (hv183 : ∀ x, (v183 x).toNat ≤ 15) (hv201 : ∀ x, (v201 x).toNat ≤ 15) (hv219 : ∀ x, (v219 x).toNat ≤ 15) (hv237 : ∀ x, (v237 x).toNat ≤ 15) (hv255 : ∀ x, (v255 x).toNat ≤ 15) (hv273 : ∀ x, (v273 x).toNat ≤ 15) (hv291 : ∀ x, (v291 x).toNat ≤ 15) (hv294 : ∀ x, (v294 x).toNat ≤ 3015) (hv297 : ∀ x, (v297 x).toNat ≤ 3015) (hv300 : ∀ x, (v300 x).toNat ≤ 3015) (hv303 : ∀ x, (v303 x).toNat ≤ 3015) (hv306 : ∀ x, (v306 x).toNat ≤ 3015) (hv309 : ∀ x, (v309 x).toNat ≤ 3015) (hv312 : ∀ x, (v312 x).toNat ≤ 3015) (hv315 : ∀ x, (v315 x).toNat ≤ 3015) (hv318 : ∀ x, (v318 x).toNat ≤ 3015) (hv321 : ∀ x, (v321 x).toNat ≤ 3015) (hv324 : ∀ x, (v324 x).toNat ≤ 3015) (hv327 : ∀ x, (v327 x).toNat ≤ 3015) (hv330 : ∀ x, (v330 x).toNat ≤ 3015) (hv333 : ∀ x, (v333 x).toNat ≤ 3015) (hv336 : ∀ x, (v336 x).toNat ≤ 3015) (hv339 : ∀ x, (v339 x).toNat ≤ 3015)
    (ex3 : ∀ x, (v3 x).toNat = (x 0).val) (er0 : ∀ x, (v21 x).toNat = ((x 0).val + 0) % 16) (er1 : ∀ x, (v39 x).toNat = ((x 0).val + 1) % 16) (er2 : ∀ x, (v57 x).toNat = ((x 0).val + 2) % 16) (er3 : ∀ x, (v75 x).toNat = ((x 0).val + 3) % 16) (er4 : ∀ x, (v93 x).toNat = ((x 0).val + 4) % 16) (er5 : ∀ x, (v111 x).toNat = ((x 0).val + 5) % 16) (er6 : ∀ x, (v129 x).toNat = ((x 0).val + 6) % 16) (er7 : ∀ x, (v147 x).toNat = ((x 0).val + 7) % 16) (er8 : ∀ x, (v165 x).toNat = ((x 0).val + 8) % 16) (er9 : ∀ x, (v183 x).toNat = ((x 0).val + 9) % 16) (er10 : ∀ x, (v201 x).toNat = ((x 0).val + 10) % 16) (er11 : ∀ x, (v219 x).toNat = ((x 0).val + 11) % 16) (er12 : ∀ x, (v237 x).toNat = ((x 0).val + 12) % 16) (er13 : ∀ x, (v255 x).toNat = ((x 0).val + 13) % 16) (er14 : ∀ x, (v273 x).toNat = ((x 0).val + 14) % 16) (er15 : ∀ x, (v291 x).toNat = ((x 0).val + 15) % 16) (ew0 : ∀ x, (v294 x).toNat = (((x 0).val + 0) % 16) * 200 + (x 0).val) (ew1 : ∀ x, (v297 x).toNat = (((x 0).val + 1) % 16) * 200 + (x 0).val) (ew2 : ∀ x, (v300 x).toNat = (((x 0).val + 2) % 16) * 200 + (x 0).val) (ew3 : ∀ x, (v303 x).toNat = (((x 0).val + 3) % 16) * 200 + (x 0).val) (ew4 : ∀ x, (v306 x).toNat = (((x 0).val + 4) % 16) * 200 + (x 0).val) (ew5 : ∀ x, (v309 x).toNat = (((x 0).val + 5) % 16) * 200 + (x 0).val) (ew6 : ∀ x, (v312 x).toNat = (((x 0).val + 6) % 16) * 200 + (x 0).val) (ew7 : ∀ x, (v315 x).toNat = (((x 0).val + 7) % 16) * 200 + (x 0).val) (ew8 : ∀ x, (v318 x).toNat = (((x 0).val + 8) % 16) * 200 + (x 0).val) (ew9 : ∀ x, (v321 x).toNat = (((x 0).val + 9) % 16) * 200 + (x 0).val) (ew10 : ∀ x, (v324 x).toNat = (((x 0).val + 10) % 16) * 200 + (x 0).val) (ew11 : ∀ x, (v327 x).toNat = (((x 0).val + 11) % 16) * 200 + (x 0).val) (ew12 : ∀ x, (v330 x).toNat = (((x 0).val + 12) % 16) * 200 + (x 0).val) (ew13 : ∀ x, (v333 x).toNat = (((x 0).val + 13) % 16) * 200 + (x 0).val) (ew14 : ∀ x, (v336 x).toNat = (((x 0).val + 14) % 16) * 200 + (x 0).val) (ew15 : ∀ x, (v339 x).toNat = (((x 0).val + 15) % 16) * 200 + (x 0).val) :
    (iprop(Transfers.MayWaits (thr d L) (none : HIx 1) O
        ∗ ((xW).view.loc (thr d L) ↦{qx} m (xLoc d))
        ∗ gathFlV0 m d L q0 (2 * k.val) ∗ gathFlV1 m d L q1 (2 * k.val + 1)
        ∗ outFlV0 m d L k' ∗ outFlV1 m d L k'
        ∗ rowIn0 m d L k ∗ rowIn1 m d L k
        ∗ semVal (thr d L, SemLoc.dma cc0_scoped2.sem) 0 ∗ semVal (thr d L, SemLoc.dma cc0_scoped3.sem) 0
        ∗ owesEx (F := F) d L O W) : sProp 𝕄)
      ⊢ wp frame (wpE (defs₀ (F := F)) 𝒱₀ (thr d L) none) Set.univ
          (k0_t1_body L xW (Memref.isWhole_whole _) tW (Memref.isWhole_whole _) oW (Memref.isWhole_whole _)
            i0W (Memref.isWhole_whole _) i1W (Memref.isWhole_whole _) e0W (Memref.isWhole_whole _) e1W (Memref.isWhole_whole _)
            o0W (Memref.isWhole_whole _) o1W (Memref.isWhole_whole _)
            cc0_scratch6 cc0_scratch7 cc0_scratch8 cc0_scratch9 cc0_scoped0 cc0_scoped1 cc0_scoped2 cc0_scoped3
            v2 v3 v21 v39 v57 v75 v93 v111 v129 v147 v165 v183 v201 v219 v237 v255 v273 v291 v294 v297 v300 v303 v306 v309 v312 v315 v318 v321 v324 v327 v330 v333 v336 v339 k ⟨⟩)
          fun _ => iprop(Transfers.MayWaits (thr d L) (none : HIx 1) O
        ∗ ((xW).view.loc (thr d L) ↦{qx} m (xLoc d))
        ∗ gathRest0 m d L q0 ∗ gathRest1 m d L q1
        ∗ outFlV0 m d L k ∗ outFlV1 m d L k
        ∗ rowFinV0 m d L k' ∗ rowFinV1 m d L k'
        ∗ semVal (thr d L, SemLoc.dma cc0_scoped2.sem) 0 ∗ semVal (thr d L, SemLoc.dma cc0_scoped3.sem) 0
        ∗ owesEx (F := F) d L O W) := by
  have k0_h1 : k0_cond1 k = 1#1 := (cond1_iff k).2 (by omega)
  have k0_h3 : k0_cond3 k = 1#1 := (cond3_iff k).2 (by omega)
  have hn2 : ¬ k0_cond2 k = 1#1 := by rw [cond2_iff]; exact hks
  have hn4 : ¬ k0_cond4 k = 1#1 := by rw [cond4_iff]; exact hks
  unfold k0_t1_body gathFlV0 gathFlV1 gathRest0 gathRest1 outFlV0 outFlV1 rowIn0 rowIn1 owesEx
  iintro ⟨#Hmw, Hx, ⟨%fe0, %fi0, %hE0, Ht0, F0⟩, ⟨%fe1, %fi1, %hE1, Ht1, F1⟩, ⟨%g0, %fo0, %hG0, Ho0, FO0⟩, ⟨%g1, %fo1, %hG1, Ho1, FO1⟩, Hr0, Hr1, Hc2, Hc3, %W', %hW', HO⟩
  sl_exec
  rw [wp_bind]
  iapply (wp_wand_r frame _ Set.univ)
  isplitl [F0_dst Ho0 HO]
  · iapply (transposeV0 d L O _ fe0 fo0 v2 v3 v21 v39 v57 v75 v93 v111 v129 v147 v165 v183 v201 v219 v237 v255 v273 v291 v294 v297 v300 v303 v306 v309 v312 v315 v318 v321 v324 v327 v330 v333 v336 v339 (0#32) (1#32) k hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339 ex3 er0 er1 er2 er3 er4 er5 er6 er7 er8 er9 er10 er11 er12 er13 er14 er15 ew0 ew1 ew2 ew3 ew4 ew5 ew6 ew7 ew8 ew9 ew10 ew11 ew12 ew13 ew14 ew15)
    isplitr; · iexact Hmw
    isplitl [F0_dst]; · iexact F0_dst
    isplitl [Ho0]; · iexact Ho0
    iexact HO
  iintro %_ ⟨He0, ⟨%fo0', %hT0, Ho0⟩, HO⟩
  have hF0 : FlatOK m d (rowB L (2 * k.val)) fo0' := flat_of_emb m d _ fe0 fo0' hE0 hT0
  sl_exec
  rw [wp_bind]
  iapply (wp_wand_r frame _ Set.univ)
  isplitl [F1_dst Ho1 HO]
  · iapply (transposeV1 d L O _ fe1 fo1 v2 v3 v21 v39 v57 v75 v93 v111 v129 v147 v165 v183 v201 v219 v237 v255 v273 v291 v294 v297 v300 v303 v306 v309 v312 v315 v318 v321 v324 v327 v330 v333 v336 v339 (0#32) (1#32) k hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339 ex3 er0 er1 er2 er3 er4 er5 er6 er7 er8 er9 er10 er11 er12 er13 er14 er15 ew0 ew1 ew2 ew3 ew4 ew5 ew6 ew7 ew8 ew9 ew10 ew11 ew12 ew13 ew14 ew15)
    isplitr; · iexact Hmw
    isplitl [F1_dst]; · iexact F1_dst
    isplitl [Ho1]; · iexact Ho1
    iexact HO
  iintro %_ ⟨He1, ⟨%fo1', %hT1, Ho1⟩, HO⟩
  have hF1 : FlatOK m d (rowB L (2 * k.val + 1)) fo1' := flat_of_emb m d _ fe1 fo1' hE1 hT1
  sl_exec

  sl_step
  unfold rowFinV0 rowFinV1
  isplitr; · iexact Hmw
  isplitl [Hx]; · iexact Hx
  isplitl [Ht0 F0 He0 F0_dst_and]
  · isplitl [Ht0]; · iexact Ht0
    isplitl [F0]; · iexact F0
    isplitl [He0]; · iexists _; iexact He0
    iexists _; iexact F0_dst_and
  isplitl [Ht1 F1 He1 F1_dst_and]
  · isplitl [Ht1]; · iexact Ht1
    isplitl [F1]; · iexact F1
    isplitl [He1]; · iexists _; iexact He1
    iexists _; iexact F1_dst_and
  isplitl [Ho0 FO0]
  · iexists _, _; isplitr
    rotate_left
    · isplitl [Ho0]; · iexact Ho0
      iexact FO0
    · ipureintro
      exact row_ok0 m d L k (rowB L (2 * k.val)) (off3_0 L k) fo0' hF0
  isplitl [Ho1 FO1]
  · iexists _, _; isplitr
    rotate_left
    · isplitl [Ho1]; · iexact Ho1
      iexact FO1
    · ipureintro
      exact row_ok1 m d L k (rowB L (2 * k.val + 1)) (off3_1 L k) fo1' hF1
  isplitl [FO0_dst]
  · iexists _; isplitr
    · ipureintro; exact hG0
    · iexact FO0_dst
  isplitl [FO1_dst]
  · iexists _; isplitr
    · ipureintro; exact hG1
    · iexact FO1_dst
  isplitl [Hc2]; · iexact Hc2
  isplitl [Hc3]; · iexact Hc3
  iexists _; isplitr
  rotate_left
  · iexact HO
  · ipureintro; repeat (first | exact hW' | apply waits_insert)

end Cert.Proof.KI

end
-- ==== Proof.TileLoopVI.lean ====
import proofs.«206347_g23639499997337_cont_sun_m_514_14_alg».proof.Proof.TileTripVI
import proofs.«206347_g23639499997337_cont_sun_m_514_14_alg».proof.Proof.TileLoopI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (d : Dev nD) (L : grid0.Coords)

local notation "xW" => (Memref.whole Cert.KernelIdeal.main_arg0_scv : Memref Cert.KernelIdeal.sig Kind.scVector Space.hbm Cert.KernelIdeal.S4096x200 EltTy.i32)
local notation "tW" => (Memref.whole Cert.KernelIdeal.main_arg1_scv : Memref Cert.KernelIdeal.sig Kind.scVector Space.hbm Cert.KernelIdeal.S100000x128 EltTy.f32)
local notation "oW" => (Memref.whole Cert.KernelIdeal.main_v0_scv : Memref Cert.KernelIdeal.sig Kind.scVector Space.hbm Cert.KernelIdeal.S4096x25600 EltTy.f32)
local notation "i0W" => (Memref.whole Cert.KernelIdeal.cc0_scratch0 : Memref Cert.KernelIdeal.sig Kind.scVector Space.vmem Cert.KernelIdeal.S200 EltTy.i32)
local notation "i1W" => (Memref.whole Cert.KernelIdeal.cc0_scratch1 : Memref Cert.KernelIdeal.sig Kind.scVector Space.vmem Cert.KernelIdeal.S200 EltTy.i32)
local notation "e0W" => (Memref.whole Cert.KernelIdeal.cc0_scratch2 : Memref Cert.KernelIdeal.sig Kind.scVector Space.vmem Cert.KernelIdeal.S200x128 EltTy.f32)
local notation "e1W" => (Memref.whole Cert.KernelIdeal.cc0_scratch3 : Memref Cert.KernelIdeal.sig Kind.scVector Space.vmem Cert.KernelIdeal.S200x128 EltTy.f32)
local notation "o0W" => (Memref.whole Cert.KernelIdeal.cc0_scratch4 : Memref Cert.KernelIdeal.sig Kind.scVector Space.vmem Cert.KernelIdeal.S25600 EltTy.f32)
local notation "o1W" => (Memref.whole Cert.KernelIdeal.cc0_scratch5 : Memref Cert.KernelIdeal.sig Kind.scVector Space.vmem Cert.KernelIdeal.S25600 EltTy.f32)

variable (qx q0 q1 : PosShare TreeShare) (O : CellTallies nD τ sig (HIx 1)) (W : Waits sig (HIx 1))

/-! ## Moving one trip's finished rows, with their values -/

theorem rowsDoneV_succ (k' : Fin k0_t1_loop.trips) :
    rowsDoneV m d L (k'.val + 2)
      = iprop((rowFinV0 m d L k' ∗ rowFinV1 m d L k') ∗ rowsDoneV m d L (k'.val + 1)) := by
  unfold rowsDoneV
  rw [filter_lt_succ k', SparseCore.bigSep_insert' (not_mem_filter_lt k')]

theorem rowsDoneV_one : rowsDoneV m d L 1 = rowsDoneV m d L 0 := by
  unfold rowsDoneV
  rw [show (Finset.univ.filter fun t : Fin k0_t1_loop.trips => t.val + 1 < 1) = (Finset.univ.filter fun t : Fin k0_t1_loop.trips => t.val + 1 < 0) from by
    ext t; simp]

variable [FloatOps F]

/-! ## One pair-trip keeps the invariant -/

set_option maxHeartbeats 2000000 in
theorem pair_tripV (hpre : PreOK m) (k : Fin k0_t1_loop.trips) (acc : Unit)
    (v2 : BitVec 32) (v3 v21 v39 v57 v75 v93 v111 v129 v147 v165 v183 v201 v219 v237 v255 v273 v291 v294 v297 v300 v303 v306 v309 v312 v315 v318 v321 v324 v327 v330 v333 v336 v339 : IVec S16 32) (hv3 : ∀ x, (v3 x).toNat ≤ 15) (hv21 : ∀ x, (v21 x).toNat ≤ 15) (hv39 : ∀ x, (v39 x).toNat ≤ 15) (hv57 : ∀ x, (v57 x).toNat ≤ 15) (hv75 : ∀ x, (v75 x).toNat ≤ 15) (hv93 : ∀ x, (v93 x).toNat ≤ 15) (hv111 : ∀ x, (v111 x).toNat ≤ 15) (hv129 : ∀ x, (v129 x).toNat ≤ 15) (hv147 : ∀ x, (v147 x).toNat ≤ 15) (hv165 : ∀ x, (v165 x).toNat ≤ 15) (hv183 : ∀ x, (v183 x).toNat ≤ 15) (hv201 : ∀ x, (v201 x).toNat ≤ 15) (hv219 : ∀ x, (v219 x).toNat ≤ 15) (hv237 : ∀ x, (v237 x).toNat ≤ 15) (hv255 : ∀ x, (v255 x).toNat ≤ 15) (hv273 : ∀ x, (v273 x).toNat ≤ 15) (hv291 : ∀ x, (v291 x).toNat ≤ 15) (hv294 : ∀ x, (v294 x).toNat ≤ 3015) (hv297 : ∀ x, (v297 x).toNat ≤ 3015) (hv300 : ∀ x, (v300 x).toNat ≤ 3015) (hv303 : ∀ x, (v303 x).toNat ≤ 3015) (hv306 : ∀ x, (v306 x).toNat ≤ 3015) (hv309 : ∀ x, (v309 x).toNat ≤ 3015) (hv312 : ∀ x, (v312 x).toNat ≤ 3015) (hv315 : ∀ x, (v315 x).toNat ≤ 3015) (hv318 : ∀ x, (v318 x).toNat ≤ 3015) (hv321 : ∀ x, (v321 x).toNat ≤ 3015) (hv324 : ∀ x, (v324 x).toNat ≤ 3015) (hv327 : ∀ x, (v327 x).toNat ≤ 3015) (hv330 : ∀ x, (v330 x).toNat ≤ 3015) (hv333 : ∀ x, (v333 x).toNat ≤ 3015) (hv336 : ∀ x, (v336 x).toNat ≤ 3015) (hv339 : ∀ x, (v339 x).toNat ≤ 3015)
    (ex3 : ∀ x, (v3 x).toNat = (x 0).val) (er0 : ∀ x, (v21 x).toNat = ((x 0).val + 0) % 16) (er1 : ∀ x, (v39 x).toNat = ((x 0).val + 1) % 16) (er2 : ∀ x, (v57 x).toNat = ((x 0).val + 2) % 16) (er3 : ∀ x, (v75 x).toNat = ((x 0).val + 3) % 16) (er4 : ∀ x, (v93 x).toNat = ((x 0).val + 4) % 16) (er5 : ∀ x, (v111 x).toNat = ((x 0).val + 5) % 16) (er6 : ∀ x, (v129 x).toNat = ((x 0).val + 6) % 16) (er7 : ∀ x, (v147 x).toNat = ((x 0).val + 7) % 16) (er8 : ∀ x, (v165 x).toNat = ((x 0).val + 8) % 16) (er9 : ∀ x, (v183 x).toNat = ((x 0).val + 9) % 16) (er10 : ∀ x, (v201 x).toNat = ((x 0).val + 10) % 16) (er11 : ∀ x, (v219 x).toNat = ((x 0).val + 11) % 16) (er12 : ∀ x, (v237 x).toNat = ((x 0).val + 12) % 16) (er13 : ∀ x, (v255 x).toNat = ((x 0).val + 13) % 16) (er14 : ∀ x, (v273 x).toNat = ((x 0).val + 14) % 16) (er15 : ∀ x, (v291 x).toNat = ((x 0).val + 15) % 16) (ew0 : ∀ x, (v294 x).toNat = (((x 0).val + 0) % 16) * 200 + (x 0).val) (ew1 : ∀ x, (v297 x).toNat = (((x 0).val + 1) % 16) * 200 + (x 0).val) (ew2 : ∀ x, (v300 x).toNat = (((x 0).val + 2) % 16) * 200 + (x 0).val) (ew3 : ∀ x, (v303 x).toNat = (((x 0).val + 3) % 16) * 200 + (x 0).val) (ew4 : ∀ x, (v306 x).toNat = (((x 0).val + 4) % 16) * 200 + (x 0).val) (ew5 : ∀ x, (v309 x).toNat = (((x 0).val + 5) % 16) * 200 + (x 0).val) (ew6 : ∀ x, (v312 x).toNat = (((x 0).val + 6) % 16) * 200 + (x 0).val) (ew7 : ∀ x, (v315 x).toNat = (((x 0).val + 7) % 16) * 200 + (x 0).val) (ew8 : ∀ x, (v318 x).toNat = (((x 0).val + 8) % 16) * 200 + (x 0).val) (ew9 : ∀ x, (v321 x).toNat = (((x 0).val + 9) % 16) * 200 + (x 0).val) (ew10 : ∀ x, (v324 x).toNat = (((x 0).val + 10) % 16) * 200 + (x 0).val) (ew11 : ∀ x, (v327 x).toNat = (((x 0).val + 11) % 16) * 200 + (x 0).val) (ew12 : ∀ x, (v330 x).toNat = (((x 0).val + 12) % 16) * 200 + (x 0).val) (ew13 : ∀ x, (v333 x).toNat = (((x 0).val + 13) % 16) * 200 + (x 0).val) (ew14 : ∀ x, (v336 x).toNat = (((x 0).val + 14) % 16) * 200 + (x 0).val) (ew15 : ∀ x, (v339 x).toNat = (((x 0).val + 15) % 16) * 200 + (x 0).val) :
    pinvV m d L qx q0 q1 O W k.val acc
      ⊢ wp frame (wpE (defs₀ (F := F)) 𝒱₀ (thr d L) none) Set.univ
          (k0_t1_body L xW (Memref.isWhole_whole _) tW (Memref.isWhole_whole _) oW (Memref.isWhole_whole _)
            i0W (Memref.isWhole_whole _) i1W (Memref.isWhole_whole _) e0W (Memref.isWhole_whole _) e1W (Memref.isWhole_whole _)
            o0W (Memref.isWhole_whole _) o1W (Memref.isWhole_whole _)
            cc0_scratch6 cc0_scratch7 cc0_scratch8 cc0_scratch9 cc0_scoped0 cc0_scoped1 cc0_scoped2 cc0_scoped3
            v2 v3 v21 v39 v57 v75 v93 v111 v129 v147 v165 v183 v201 v219 v237 v255 v273 v291 v294 v297 v300 v303 v306 v309 v312 v315 v318 v321 v324 v327 v330 v333 v336 v339 k acc)
          (pinvV m d L qx q0 q1 O W (k.val + 1)) := by
  have hk : k.val < 64 := lt_of_lt_of_eq k.isLt trips64
  cases acc
  unfold pinvV gathV0 gathV1 outV0 outV1
  rw [rowsTodo_succ m d L k, if_pos hk, if_pos hk]
  rcases Nat.eq_zero_or_pos k.val with h0 | hpos
  · have hks : k.val + 1 < 64 := by omega
    have hd : rowsDoneV m d L (k.val + 1) = rowsDoneV m d L k.val := by rw [h0]; exact rowsDoneV_one m d L
    rw [if_pos hks, if_pos hks, if_pos h0, if_pos h0, if_neg (Nat.succ_ne_zero _), if_neg (Nat.succ_ne_zero _), hd]
    iintro ⟨Hmw, Hx, Hg0, Hg1, Ho0, Ho1, ⟨⟨Hr0, Hr1⟩, Htodo⟩, Hdone, Hc2, Hc3, HO⟩
    iapply (wp_wand_r frame _ Set.univ)
    isplitl [Hmw Hx Hg0 Hg1 Ho0 Ho1 Hr0 Hr1 Hc2 Hc3 HO]
    · iapply (tripAV m d L qx q0 q1 O W hpre k h0 hks v2 v3 v21 v39 v57 v75 v93 v111 v129 v147 v165 v183 v201 v219 v237 v255 v273 v291 v294 v297 v300 v303 v306 v309 v312 v315 v318 v321 v324 v327 v330 v333 v336 v339 hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339 ex3 er0 er1 er2 er3 er4 er5 er6 er7 er8 er9 er10 er11 er12 er13 er14 er15 ew0 ew1 ew2 ew3 ew4 ew5 ew6 ew7 ew8 ew9 ew10 ew11 ew12 ew13 ew14 ew15)
      isplitl [Hmw]; · iexact Hmw
      isplitl [Hx]; · iexact Hx
      isplitl [Hg0]; · iexact Hg0
      isplitl [Hg1]; · iexact Hg1
      isplitl [Ho0]; · iexact Ho0
      isplitl [Ho1]; · iexact Ho1
      isplitl [Hr0]; · iexact Hr0
      isplitl [Hr1]; · iexact Hr1
      isplitl [Hc2]; · iexact Hc2
      isplitl [Hc3]; · iexact Hc3
      iexact HO
    iintro %_ ⟨Hmw, Hx, Hg0, Hg1, Ho0, Ho1, Hc2, Hc3, HO⟩
    isplitl [Hmw]; · iexact Hmw
    isplitl [Hx]; · iexact Hx
    isplitl [Hg0]; · iexact Hg0
    isplitl [Hg1]; · iexact Hg1
    isplitl [Ho0]
    · iexists k; isplitr
      · ipureintro; rfl
      · iexact Ho0
    isplitl [Ho1]
    · iexists k; isplitr
      · ipureintro; rfl
      · iexact Ho1
    isplitl [Htodo]; · iexact Htodo
    isplitl [Hdone]
    · iexact Hdone
    isplitl [Hc2]; · iexact Hc2
    isplitl [Hc3]; · iexact Hc3
    iexact HO
  · have hk0 : ¬ k.val = 0 := by omega
    let k' : Fin k0_t1_loop.trips := ⟨k.val - 1, by have := k.isLt; omega⟩
    have hk' : k'.val + 1 = k.val := by show k.val - 1 + 1 = k.val; omega
    have hd : rowsDoneV m d L (k.val + 1)
        = iprop((rowFinV0 m d L k' ∗ rowFinV1 m d L k') ∗ rowsDoneV m d L k.val) := by
      rw [← hk']; exact rowsDoneV_succ m d L k'
    rw [if_neg hk0, if_neg hk0, if_neg (Nat.succ_ne_zero _), if_neg (Nat.succ_ne_zero _), hd]
    by_cases hks : k.val + 1 < 64
    · rw [if_pos hks, if_pos hks]
      iintro ⟨Hmw, Hx, Hg0, Hg1, ⟨%t0, %ht0, Ho0⟩, ⟨%t1, %ht1, Ho1⟩, ⟨⟨Hr0, Hr1⟩, Htodo⟩, Hdone, Hc2, Hc3, HO⟩
      obtain rfl : t0 = k' := Fin.ext (by omega)
      obtain rfl : t1 = k' := Fin.ext (by omega)
      iapply (wp_wand_r frame _ Set.univ)
      isplitl [Hmw Hx Hg0 Hg1 Ho0 Ho1 Hr0 Hr1 Hc2 Hc3 HO]
      · iapply (tripBV m d L qx q0 q1 O W hpre k k' hk' hks v2 v3 v21 v39 v57 v75 v93 v111 v129 v147 v165 v183 v201 v219 v237 v255 v273 v291 v294 v297 v300 v303 v306 v309 v312 v315 v318 v321 v324 v327 v330 v333 v336 v339 hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339 ex3 er0 er1 er2 er3 er4 er5 er6 er7 er8 er9 er10 er11 er12 er13 er14 er15 ew0 ew1 ew2 ew3 ew4 ew5 ew6 ew7 ew8 ew9 ew10 ew11 ew12 ew13 ew14 ew15)
        isplitl [Hmw]; · iexact Hmw
        isplitl [Hx]; · iexact Hx
        isplitl [Hg0]; · iexact Hg0
        isplitl [Hg1]; · iexact Hg1
        isplitl [Ho0]; · iexact Ho0
        isplitl [Ho1]; · iexact Ho1
        isplitl [Hr0]; · iexact Hr0
        isplitl [Hr1]; · iexact Hr1
        isplitl [Hc2]; · iexact Hc2
        isplitl [Hc3]; · iexact Hc3
        iexact HO
      iintro %_ ⟨Hmw, Hx, Hg0, Hg1, Ho0, Ho1, Hf0, Hf1, Hc2, Hc3, HO⟩
      isplitl [Hmw]; · iexact Hmw
      isplitl [Hx]; · iexact Hx
      isplitl [Hg0]; · iexact Hg0
      isplitl [Hg1]; · iexact Hg1
      isplitl [Ho0]
      · iexists k; isplitr
        · ipureintro; rfl
        · iexact Ho0
      isplitl [Ho1]
      · iexists k; isplitr
        · ipureintro; rfl
        · iexact Ho1
      isplitl [Htodo]; · iexact Htodo
      isplitl [Hdone Hf0 Hf1]
      · isplitl [Hf0 Hf1]
        · isplitl [Hf0]; · iexact Hf0
          iexact Hf1
        · iexact Hdone
      isplitl [Hc2]; · iexact Hc2
      isplitl [Hc3]; · iexact Hc3
      iexact HO
    · rw [if_neg hks, if_neg hks]
      iintro ⟨Hmw, Hx, Hg0, Hg1, ⟨%t0, %ht0, Ho0⟩, ⟨%t1, %ht1, Ho1⟩, ⟨⟨Hr0, Hr1⟩, Htodo⟩, Hdone, Hc2, Hc3, HO⟩
      obtain rfl : t0 = k' := Fin.ext (by omega)
      obtain rfl : t1 = k' := Fin.ext (by omega)
      iapply (wp_wand_r frame _ Set.univ)
      isplitl [Hmw Hx Hg0 Hg1 Ho0 Ho1 Hr0 Hr1 Hc2 Hc3 HO]
      · iapply (tripCV m d L qx q0 q1 O W hpre k k' hk' hks v2 v3 v21 v39 v57 v75 v93 v111 v129 v147 v165 v183 v201 v219 v237 v255 v273 v291 v294 v297 v300 v303 v306 v309 v312 v315 v318 v321 v324 v327 v330 v333 v336 v339 hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339 ex3 er0 er1 er2 er3 er4 er5 er6 er7 er8 er9 er10 er11 er12 er13 er14 er15 ew0 ew1 ew2 ew3 ew4 ew5 ew6 ew7 ew8 ew9 ew10 ew11 ew12 ew13 ew14 ew15)
        isplitl [Hmw]; · iexact Hmw
        isplitl [Hx]; · iexact Hx
        isplitl [Hg0]; · iexact Hg0
        isplitl [Hg1]; · iexact Hg1
        isplitl [Ho0]; · iexact Ho0
        isplitl [Ho1]; · iexact Ho1
        isplitl [Hr0]; · iexact Hr0
        isplitl [Hr1]; · iexact Hr1
        isplitl [Hc2]; · iexact Hc2
        isplitl [Hc3]; · iexact Hc3
        iexact HO
      iintro %_ ⟨Hmw, Hx, Hg0, Hg1, Ho0, Ho1, Hf0, Hf1, Hc2, Hc3, HO⟩
      isplitl [Hmw]; · iexact Hmw
      isplitl [Hx]; · iexact Hx
      isplitl [Hg0]; · iexact Hg0
      isplitl [Hg1]; · iexact Hg1
      isplitl [Ho0]
      · iexists k; isplitr
        · ipureintro; rfl
        · iexact Ho0
      isplitl [Ho1]
      · iexists k; isplitr
        · ipureintro; rfl
        · iexact Ho1
      isplitl [Htodo]; · iexact Htodo
      isplitl [Hdone Hf0 Hf1]
      · isplitl [Hf0 Hf1]
        · isplitl [Hf0]; · iexact Hf0
          iexact Hf1
        · iexact Hdone
      isplitl [Hc2]; · iexact Hc2
      isplitl [Hc3]; · iexact Hc3
      iexact HO

end Cert.Proof.KI

end
-- ==== Proof.TileCoreVI.lean ====
import proofs.«206347_g23639499997337_cont_sun_m_514_14_alg».proof.Proof.TileLoopVI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (d : Dev nD) (L : grid0.Coords)

local notation "xW" => (Memref.whole Cert.KernelIdeal.main_arg0_scv : Memref Cert.KernelIdeal.sig Kind.scVector Space.hbm Cert.KernelIdeal.S4096x200 EltTy.i32)
local notation "tW" => (Memref.whole Cert.KernelIdeal.main_arg1_scv : Memref Cert.KernelIdeal.sig Kind.scVector Space.hbm Cert.KernelIdeal.S100000x128 EltTy.f32)
local notation "oW" => (Memref.whole Cert.KernelIdeal.main_v0_scv : Memref Cert.KernelIdeal.sig Kind.scVector Space.hbm Cert.KernelIdeal.S4096x25600 EltTy.f32)
local notation "i0W" => (Memref.whole Cert.KernelIdeal.cc0_scratch0 : Memref Cert.KernelIdeal.sig Kind.scVector Space.vmem Cert.KernelIdeal.S200 EltTy.i32)
local notation "i1W" => (Memref.whole Cert.KernelIdeal.cc0_scratch1 : Memref Cert.KernelIdeal.sig Kind.scVector Space.vmem Cert.KernelIdeal.S200 EltTy.i32)
local notation "e0W" => (Memref.whole Cert.KernelIdeal.cc0_scratch2 : Memref Cert.KernelIdeal.sig Kind.scVector Space.vmem Cert.KernelIdeal.S200x128 EltTy.f32)
local notation "e1W" => (Memref.whole Cert.KernelIdeal.cc0_scratch3 : Memref Cert.KernelIdeal.sig Kind.scVector Space.vmem Cert.KernelIdeal.S200x128 EltTy.f32)
local notation "o0W" => (Memref.whole Cert.KernelIdeal.cc0_scratch4 : Memref Cert.KernelIdeal.sig Kind.scVector Space.vmem Cert.KernelIdeal.S25600 EltTy.f32)
local notation "o1W" => (Memref.whole Cert.KernelIdeal.cc0_scratch5 : Memref Cert.KernelIdeal.sig Kind.scVector Space.vmem Cert.KernelIdeal.S25600 EltTy.f32)

variable (qx q0 q1 : PosShare TreeShare) (O : CellTallies nD τ sig (HIx 1)) (W : Waits sig (HIx 1))

/-- the first two token rows fetched are the tile's rows 0 and 1 -/
theorem off1_0 : k0_off1 L 0#32 = ![(rowB L (2 * 0)).val, 0] := by
  refine (k0_off1_eq L ⟨0, by decide⟩).trans (vec2_congr ?_)
  rw [rowB_val L _ (by omega)]
theorem off1_1 : k0_off1 L 1#32 = ![(rowB L (2 * 0 + 1)).val, 0] := by
  refine (k0_off1_eq L ⟨1, by decide⟩).trans (vec2_congr ?_)
  rw [rowB_val L _ (by omega)]

variable [FloatOps F]

set_option maxHeartbeats 4000000 in
/-- The tile's whole task, from its resources laid out one by one: every row of its 64 pair-trips ends finished, the
    arguments' shares, the scratch and the semaphores come back. -/
theorem tile_coreV (hpre : PreOK m)
    (fi0 : Buf (Elt F) ((i0W).view.loc (thr d L))) (fi1 : Buf (Elt F) ((i1W).view.loc (thr d L)))
    (fe0 : Buf (Elt F) ((e0W).view.loc (thr d L))) (fe1 : Buf (Elt F) ((e1W).view.loc (thr d L)))
    (fo0 : Buf (Elt F) ((o0W).view.loc (thr d L))) (fo1 : Buf (Elt F) ((o1W).view.loc (thr d L))) :
    (iprop(Transfers.MayWaits (thr d L) (none : HIx 1) O
        ∗ ((xW).view.loc (thr d L) ↦{qx} m (xLoc d)) ∗ ((tW).view.loc (thr d L) ↦{q0} m (tLoc d)) ∗ ((tW).view.loc (thr d L) ↦{q1} m (tLoc d))
        ∗ rowsTodo m d L 0
        ∗ ((i0W).view.loc (thr d L) ↦{fullShare} fi0) ∗ ((i1W).view.loc (thr d L) ↦{fullShare} fi1)
        ∗ ((e0W).view.loc (thr d L) ↦{fullShare} fe0) ∗ ((e1W).view.loc (thr d L) ↦{fullShare} fe1)
        ∗ ((o0W).view.loc (thr d L) ↦{fullShare} fo0) ∗ ((o1W).view.loc (thr d L) ↦{fullShare} fo1)
        ∗ semVal (thr d L, SemLoc.dma cc0_scratch6.sem) 0 ∗ semVal (thr d L, SemLoc.dma cc0_scratch7.sem) 0 ∗ semVal (thr d L, SemLoc.dma cc0_scratch8.sem) 0 ∗ semVal (thr d L, SemLoc.dma cc0_scratch9.sem) 0 ∗ semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0
        ∗ owes (thr d L) O W) : sProp 𝕄)
      ⊢ wp frame (wpE (defs₀ (F := F)) 𝒱₀ (thr d L) none) Set.univ
          (cc0__sc_fused L xW (Memref.isWhole_whole _) tW (Memref.isWhole_whole _) oW (Memref.isWhole_whole _)
            i0W (Memref.isWhole_whole _) i1W (Memref.isWhole_whole _) e0W (Memref.isWhole_whole _) e1W (Memref.isWhole_whole _)
            o0W (Memref.isWhole_whole _) o1W (Memref.isWhole_whole _)
            cc0_scratch6 cc0_scratch7 cc0_scratch8 cc0_scratch9 cc0_scoped0 cc0_scoped1 cc0_scoped2 cc0_scoped3)
          fun _ => iprop(((xW).view.loc (thr d L) ↦{qx} m (xLoc d)) ∗ ((tW).view.loc (thr d L) ↦{q0} m (tLoc d)) ∗ ((tW).view.loc (thr d L) ↦{q1} m (tLoc d))
            ∗ rowsDoneV m d L 65
            ∗ (∃ f, (i0W).view.loc (thr d L) ↦{fullShare} f) ∗ (∃ f, (i1W).view.loc (thr d L) ↦{fullShare} f)
            ∗ (∃ f, (e0W).view.loc (thr d L) ↦{fullShare} f) ∗ (∃ f, (e1W).view.loc (thr d L) ↦{fullShare} f)
            ∗ (∃ f, (o0W).view.loc (thr d L) ↦{fullShare} f) ∗ (∃ f, (o1W).view.loc (thr d L) ↦{fullShare} f)
            ∗ semVal (thr d L, SemLoc.dma cc0_scratch6.sem) 0 ∗ semVal (thr d L, SemLoc.dma cc0_scratch7.sem) 0 ∗ semVal (thr d L, SemLoc.dma cc0_scratch8.sem) 0 ∗ semVal (thr d L, SemLoc.dma cc0_scratch9.sem) 0 ∗ semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0
            ∗ owesEx (F := F) d L O W) := by
  rw [cc0__sc_fused_eq_skeleton]; unfold cc0__sc_fused_skel
  iintro ⟨#Hmw, Hx, Ht0, Ht1, Htodo, Hi0, Hi1, He0, He1, Ho0, Ho1, Hs6, Hs7, Hs8, Hs9, Hc0, Hc1, Hc2, Hc3, HO⟩
  sl_exec
  have hin0 := hin_row0 m d L hpre (k0_off1 L 0#32) (k0_off1_inb L 0) fi0
  sl_exec
  have hin1 := hin_row1 m d L hpre (k0_off1 L 1#32) (k0_off1_inb L 1) fi1
  sl_exec
  -- lanes of the prologue's constant vectors: rotations of 0..15, and write diagonals rotation·200 + lane
  have hv3 : ∀ x : S16.Idx, (tile_coreV.sl.v3 x).toNat ≤ 15 := by decide
  have hv21 : ∀ x : S16.Idx, (tile_coreV.sl.v21 x).toNat ≤ 15 := by decide
  have hv39 : ∀ x : S16.Idx, (tile_coreV.sl.v39 x).toNat ≤ 15 := by decide
  have hv57 : ∀ x : S16.Idx, (tile_coreV.sl.v57 x).toNat ≤ 15 := by decide
  have hv75 : ∀ x : S16.Idx, (tile_coreV.sl.v75 x).toNat ≤ 15 := by decide
  have hv93 : ∀ x : S16.Idx, (tile_coreV.sl.v93 x).toNat ≤ 15 := by decide
  have hv111 : ∀ x : S16.Idx, (tile_coreV.sl.v111 x).toNat ≤ 15 := by decide
  have hv129 : ∀ x : S16.Idx, (tile_coreV.sl.v129 x).toNat ≤ 15 := by decide
  have hv147 : ∀ x : S16.Idx, (tile_coreV.sl.v147 x).toNat ≤ 15 := by decide
  have hv165 : ∀ x : S16.Idx, (tile_coreV.sl.v165 x).toNat ≤ 15 := by decide
  have hv183 : ∀ x : S16.Idx, (tile_coreV.sl.v183 x).toNat ≤ 15 := by decide
  have hv201 : ∀ x : S16.Idx, (tile_coreV.sl.v201 x).toNat ≤ 15 := by decide
  have hv219 : ∀ x : S16.Idx, (tile_coreV.sl.v219 x).toNat ≤ 15 := by decide
  have hv237 : ∀ x : S16.Idx, (tile_coreV.sl.v237 x).toNat ≤ 15 := by decide
  have hv255 : ∀ x : S16.Idx, (tile_coreV.sl.v255 x).toNat ≤ 15 := by decide
  have hv273 : ∀ x : S16.Idx, (tile_coreV.sl.v273 x).toNat ≤ 15 := by decide
  have hv291 : ∀ x : S16.Idx, (tile_coreV.sl.v291 x).toNat ≤ 15 := by decide
  have hv294 : ∀ x : S16.Idx, (tile_coreV.sl.v294 x).toNat ≤ 3015 := by decide
  have hv297 : ∀ x : S16.Idx, (tile_coreV.sl.v297 x).toNat ≤ 3015 := by decide
  have hv300 : ∀ x : S16.Idx, (tile_coreV.sl.v300 x).toNat ≤ 3015 := by decide
  have hv303 : ∀ x : S16.Idx, (tile_coreV.sl.v303 x).toNat ≤ 3015 := by decide
  have hv306 : ∀ x : S16.Idx, (tile_coreV.sl.v306 x).toNat ≤ 3015 := by decide
  have hv309 : ∀ x : S16.Idx, (tile_coreV.sl.v309 x).toNat ≤ 3015 := by decide
  have hv312 : ∀ x : S16.Idx, (tile_coreV.sl.v312 x).toNat ≤ 3015 := by decide
  have hv315 : ∀ x : S16.Idx, (tile_coreV.sl.v315 x).toNat ≤ 3015 := by decide
  have hv318 : ∀ x : S16.Idx, (tile_coreV.sl.v318 x).toNat ≤ 3015 := by decide
  have hv321 : ∀ x : S16.Idx, (tile_coreV.sl.v321 x).toNat ≤ 3015 := by decide
  have hv324 : ∀ x : S16.Idx, (tile_coreV.sl.v324 x).toNat ≤ 3015 := by decide
  have hv327 : ∀ x : S16.Idx, (tile_coreV.sl.v327 x).toNat ≤ 3015 := by decide
  have hv330 : ∀ x : S16.Idx, (tile_coreV.sl.v330 x).toNat ≤ 3015 := by decide
  have hv333 : ∀ x : S16.Idx, (tile_coreV.sl.v333 x).toNat ≤ 3015 := by decide
  have hv336 : ∀ x : S16.Idx, (tile_coreV.sl.v336 x).toNat ≤ 3015 := by decide
  have hv339 : ∀ x : S16.Idx, (tile_coreV.sl.v339 x).toNat ≤ 3015 := by decide
  have ex3 : ∀ x : S16.Idx, (tile_coreV.sl.v3 x).toNat = (x 0).val := by decide
  have er0 : ∀ x : S16.Idx, (tile_coreV.sl.v21 x).toNat = ((x 0).val + 0) % 16 := by decide
  have er1 : ∀ x : S16.Idx, (tile_coreV.sl.v39 x).toNat = ((x 0).val + 1) % 16 := by decide
  have er2 : ∀ x : S16.Idx, (tile_coreV.sl.v57 x).toNat = ((x 0).val + 2) % 16 := by decide
  have er3 : ∀ x : S16.Idx, (tile_coreV.sl.v75 x).toNat = ((x 0).val + 3) % 16 := by decide
  have er4 : ∀ x : S16.Idx, (tile_coreV.sl.v93 x).toNat = ((x 0).val + 4) % 16 := by decide
  have er5 : ∀ x : S16.Idx, (tile_coreV.sl.v111 x).toNat = ((x 0).val + 5) % 16 := by decide
  have er6 : ∀ x : S16.Idx, (tile_coreV.sl.v129 x).toNat = ((x 0).val + 6) % 16 := by decide
  have er7 : ∀ x : S16.Idx, (tile_coreV.sl.v147 x).toNat = ((x 0).val + 7) % 16 := by decide
  have er8 : ∀ x : S16.Idx, (tile_coreV.sl.v165 x).toNat = ((x 0).val + 8) % 16 := by decide
  have er9 : ∀ x : S16.Idx, (tile_coreV.sl.v183 x).toNat = ((x 0).val + 9) % 16 := by decide
  have er10 : ∀ x : S16.Idx, (tile_coreV.sl.v201 x).toNat = ((x 0).val + 10) % 16 := by decide
  have er11 : ∀ x : S16.Idx, (tile_coreV.sl.v219 x).toNat = ((x 0).val + 11) % 16 := by decide
  have er12 : ∀ x : S16.Idx, (tile_coreV.sl.v237 x).toNat = ((x 0).val + 12) % 16 := by decide
  have er13 : ∀ x : S16.Idx, (tile_coreV.sl.v255 x).toNat = ((x 0).val + 13) % 16 := by decide
  have er14 : ∀ x : S16.Idx, (tile_coreV.sl.v273 x).toNat = ((x 0).val + 14) % 16 := by decide
  have er15 : ∀ x : S16.Idx, (tile_coreV.sl.v291 x).toNat = ((x 0).val + 15) % 16 := by decide
  have ew0 : ∀ x : S16.Idx, (tile_coreV.sl.v294 x).toNat = (((x 0).val + 0) % 16) * 200 + (x 0).val := by decide
  have ew1 : ∀ x : S16.Idx, (tile_coreV.sl.v297 x).toNat = (((x 0).val + 1) % 16) * 200 + (x 0).val := by decide
  have ew2 : ∀ x : S16.Idx, (tile_coreV.sl.v300 x).toNat = (((x 0).val + 2) % 16) * 200 + (x 0).val := by decide
  have ew3 : ∀ x : S16.Idx, (tile_coreV.sl.v303 x).toNat = (((x 0).val + 3) % 16) * 200 + (x 0).val := by decide
  have ew4 : ∀ x : S16.Idx, (tile_coreV.sl.v306 x).toNat = (((x 0).val + 4) % 16) * 200 + (x 0).val := by decide
  have ew5 : ∀ x : S16.Idx, (tile_coreV.sl.v309 x).toNat = (((x 0).val + 5) % 16) * 200 + (x 0).val := by decide
  have ew6 : ∀ x : S16.Idx, (tile_coreV.sl.v312 x).toNat = (((x 0).val + 6) % 16) * 200 + (x 0).val := by decide
  have ew7 : ∀ x : S16.Idx, (tile_coreV.sl.v315 x).toNat = (((x 0).val + 7) % 16) * 200 + (x 0).val := by decide
  have ew8 : ∀ x : S16.Idx, (tile_coreV.sl.v318 x).toNat = (((x 0).val + 8) % 16) * 200 + (x 0).val := by decide
  have ew9 : ∀ x : S16.Idx, (tile_coreV.sl.v321 x).toNat = (((x 0).val + 9) % 16) * 200 + (x 0).val := by decide
  have ew10 : ∀ x : S16.Idx, (tile_coreV.sl.v324 x).toNat = (((x 0).val + 10) % 16) * 200 + (x 0).val := by decide
  have ew11 : ∀ x : S16.Idx, (tile_coreV.sl.v327 x).toNat = (((x 0).val + 11) % 16) * 200 + (x 0).val := by decide
  have ew12 : ∀ x : S16.Idx, (tile_coreV.sl.v330 x).toNat = (((x 0).val + 12) % 16) * 200 + (x 0).val := by decide
  have ew13 : ∀ x : S16.Idx, (tile_coreV.sl.v333 x).toNat = (((x 0).val + 13) % 16) * 200 + (x 0).val := by decide
  have ew14 : ∀ x : S16.Idx, (tile_coreV.sl.v336 x).toNat = (((x 0).val + 14) % 16) * 200 + (x 0).val := by decide
  have ew15 : ∀ x : S16.Idx, (tile_coreV.sl.v339 x).toNat = (((x 0).val + 15) % 16) * 200 + (x 0).val := by decide
  sl_for (pinvV m d L qx q0 q1 O W) $$ [Hx Ht0 Hs6 Ht1 Hs7 Hs8 Ho0 Hs9 Ho1 Htodo Hc2 Hc3 HO]
  case region =>
    intro k acc
    exact pair_tripV m d L qx q0 q1 O W hpre k acc (tile_coreV.sl.v2 L) tile_coreV.sl.v3 tile_coreV.sl.v21 tile_coreV.sl.v39 tile_coreV.sl.v57 tile_coreV.sl.v75 tile_coreV.sl.v93 tile_coreV.sl.v111 tile_coreV.sl.v129 tile_coreV.sl.v147 tile_coreV.sl.v165 tile_coreV.sl.v183 tile_coreV.sl.v201 tile_coreV.sl.v219 tile_coreV.sl.v237 tile_coreV.sl.v255 tile_coreV.sl.v273 tile_coreV.sl.v291 tile_coreV.sl.v294 tile_coreV.sl.v297 tile_coreV.sl.v300 tile_coreV.sl.v303 tile_coreV.sl.v306 tile_coreV.sl.v309 tile_coreV.sl.v312 tile_coreV.sl.v315 tile_coreV.sl.v318 tile_coreV.sl.v321 tile_coreV.sl.v324 tile_coreV.sl.v327 tile_coreV.sl.v330 tile_coreV.sl.v333 tile_coreV.sl.v336 tile_coreV.sl.v339 hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339 ex3 er0 er1 er2 er3 er4 er5 er6 er7 er8 er9 er10 er11 er12 er13 er14 er15 ew0 ew1 ew2 ew3 ew4 ew5 ew6 ew7 ew8 ew9 ew10 ew11 ew12 ew13 ew14 ew15
  · unfold pinvV gathV0 gathV1 outV0 outV1 gathFlV0 gathFlV1 outNone0 outNone1 owesEx
    rw [if_pos (by decide : (0 : ℕ) < 64), if_pos (by decide : (0 : ℕ) < 64), if_pos rfl, if_pos rfl]
    isplitr; · iexact Hmw
    isplitl [Hx]; · iexact Hx
    isplitl [Ht0 Hs6]
    · iexists _, _; isplitr
      rotate_left
      · isplitl [Ht0]; · iexact Ht0
        iexact Hs6
      · ipureintro
        exact emb_ok0 m d L (k0_off1 L 0#32) (k0_off1_inb L 0) (rowB L (2 * 0)) (off1_0 L) fi0 fe0 _ hin0
    isplitl [Ht1 Hs7]
    · iexists _, _; isplitr
      rotate_left
      · isplitl [Ht1]; · iexact Ht1
        iexact Hs7
      · ipureintro
        exact emb_ok1 m d L (k0_off1 L 1#32) (k0_off1_inb L 1) (rowB L (2 * 0 + 1)) (off1_1 L) fi1 fe1 _ hin1
    isplitl [Hs8 Ho0]
    · isplitl [Hs8]; · iexact Hs8
      iexists _; iexact Ho0
    isplitl [Hs9 Ho1]
    · isplitl [Hs9]; · iexact Hs9
      iexists _; iexact Ho1
    isplitl [Htodo]; · iexact Htodo
    isplitr
    · unfold rowsDoneV
      rw [show (Finset.univ.filter fun t : Fin k0_t1_loop.trips => t.val + 1 < 0) = ∅ from by ext t; simp, bigSep_empty]
      iempintro
    isplitl [Hc2]; · iexact Hc2
    isplitl [Hc3]; · iexact Hc3
    iexists _; isplitr
    rotate_left
    · iexact HO
    · ipureintro; repeat (first | exact (fun p hp => Or.inl hp) | apply waits_insert)
  iintro %_ HI
  have e64 : Scf.trips k0_t1_loop.lb k0_t1_loop.ub k0_t1_loop.st = 64 := trips64
  rw [e64]
  unfold pinvV gathV0 gathV1 outV0 outV1 gathRest0 gathRest1 outFlV0 outFlV1 owesEx
  rw [if_neg (by decide : ¬ (64 : ℕ) < 64), if_neg (by decide : ¬ (64 : ℕ) < 64), if_neg (by decide : ¬ (64 : ℕ) = 0), if_neg (by decide : ¬ (64 : ℕ) = 0)]
  icases HI with ⟨-, Hx, ⟨Ht0, Hs6, ⟨%fe0', He0⟩, ⟨%fi0', Hi0⟩⟩, ⟨Ht1, Hs7, ⟨%fe1', He1⟩, ⟨%fi1', Hi1⟩⟩, ⟨%t0, %ht0, %g0, %fo0', %hG0, Ho0, FO0⟩, ⟨%t1, %ht1, %g1, %fo1', %hG1, Ho1, FO1⟩, -, Hdone, Hc2, Hc3, %W', %hW', HO⟩
  obtain rfl : t1 = t0 := Fin.ext (by omega)
  sl_exec
  sl_step
  isplitl [Hx]; · iexact Hx
  isplitl [Ht0]; · iexact Ht0
  isplitl [Ht1]; · iexact Ht1
  isplitl [Hdone FO0_dst FO1_dst]
  · have e65 : rowsDoneV m d L 65
        = iprop((rowFinV0 m d L t1 ∗ rowFinV1 m d L t1) ∗ rowsDoneV m d L 64) := by
      have h := rowsDoneV_succ m d L t1
      rw [show t1.val + 2 = 65 by omega, show t1.val + 1 = 64 by omega] at h
      exact h
    rw [e65]; unfold rowFinV0 rowFinV1
    isplitl [FO0_dst FO1_dst]
    · isplitl [FO0_dst]
      · iexists _; isplitr
        · ipureintro; exact hG0
        · iexact FO0_dst
      · iexists _; isplitr
        · ipureintro; exact hG1
        · iexact FO1_dst
    · iexact Hdone
  isplitl [Hi0]; · iexists _; iexact Hi0
  isplitl [Hi1]; · iexists _; iexact Hi1
  isplitl [He0]; · iexists _; iexact He0
  isplitl [He1]; · iexists _; iexact He1
  isplitl [Ho0]; · iexists _; iexact Ho0
  isplitl [Ho1]; · iexists _; iexact Ho1
  isplitl [Hs6]; · iexact Hs6
  isplitl [Hs7]; · iexact Hs7
  isplitl [FO0]; · iexact FO0
  isplitl [FO1]; · iexact FO1
  isplitl [Hc0]; · iexact Hc0
  isplitl [Hc1]; · iexact Hc1
  isplitl [Hc2]; · iexact Hc2
  isplitl [Hc3]; · iexact Hc3
  iexists _; isplitr
  rotate_left
  · iexact HO
  · ipureintro; repeat (first | exact hW' | apply waits_insert)

end Cert.Proof.KI

end
-- ==== Proof.TileRowsVI.lean ====
/-
  A tile's finished rows at the lookup's values, as the rows the tile gives back.

  Row 2t + r of the tile is the batch row slot r of pair-trip t writes; what the body knows of a finished row — that on
  the row's elements it holds the lookup's flat values — is what the launch is told of the row given back.
-/
import proofs.«206347_g23639499997337_cont_sun_m_514_14_alg».proof.Proof.TileInvVI
import proofs.«206347_g23639499997337_cont_sun_m_514_14_alg».proof.Proof.TileRowsI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (d : Dev nD) (L : grid0.Coords)

local notation "xW" => (Memref.whole Cert.KernelIdeal.main_arg0_scv : Memref Cert.KernelIdeal.sig Kind.scVector Space.hbm Cert.KernelIdeal.S4096x200 EltTy.i32)
local notation "tW" => (Memref.whole Cert.KernelIdeal.main_arg1_scv : Memref Cert.KernelIdeal.sig Kind.scVector Space.hbm Cert.KernelIdeal.S100000x128 EltTy.f32)
local notation "oW" => (Memref.whole Cert.KernelIdeal.main_v0_scv : Memref Cert.KernelIdeal.sig Kind.scVector Space.hbm Cert.KernelIdeal.S4096x25600 EltTy.f32)
local notation "i0W" => (Memref.whole Cert.KernelIdeal.cc0_scratch0 : Memref Cert.KernelIdeal.sig Kind.scVector Space.vmem Cert.KernelIdeal.S200 EltTy.i32)
local notation "i1W" => (Memref.whole Cert.KernelIdeal.cc0_scratch1 : Memref Cert.KernelIdeal.sig Kind.scVector Space.vmem Cert.KernelIdeal.S200 EltTy.i32)
local notation "e0W" => (Memref.whole Cert.KernelIdeal.cc0_scratch2 : Memref Cert.KernelIdeal.sig Kind.scVector Space.vmem Cert.KernelIdeal.S200x128 EltTy.f32)
local notation "e1W" => (Memref.whole Cert.KernelIdeal.cc0_scratch3 : Memref Cert.KernelIdeal.sig Kind.scVector Space.vmem Cert.KernelIdeal.S200x128 EltTy.f32)
local notation "o0W" => (Memref.whole Cert.KernelIdeal.cc0_scratch4 : Memref Cert.KernelIdeal.sig Kind.scVector Space.vmem Cert.KernelIdeal.S25600 EltTy.f32)
local notation "o1W" => (Memref.whole Cert.KernelIdeal.cc0_scratch5 : Memref Cert.KernelIdeal.sig Kind.scVector Space.vmem Cert.KernelIdeal.S25600 EltTy.f32)

variable [FloatOps F]

theorem rowB_trip0 (t : Fin k0_t1_loop.trips) : rowB L (2 * t.val) = tripRow L t 0 := by
  apply Fin.ext
  rw [rowB_val L _ (by have := trip_lt t; omega)]
  show _ = 256 * (L 1).val + 128 * (L 0).val + 2 * t.val + 0
  omega

theorem rowB_trip1 (t : Fin k0_t1_loop.trips) : rowB L (2 * t.val + 1) = tripRow L t 1 := by
  apply Fin.ext
  rw [rowB_val L _ (by have := trip_lt t; omega)]
  show _ = 256 * (L 1).val + 128 * (L 0).val + 2 * t.val + 1
  omega

/-- A finished pair of rows at the lookup's values is the two rows given back, each with its fact. -/
theorem rowPair_outV (t : Fin k0_t1_loop.trips) :
    iprop(rowFinV0 m d L t ∗ rowFinV1 m d L t)
      ⊢ iprop(rowOut (RVal m) d (rowOfTile (cL L) (sL L) (pairEquiv (t, 0))) ∗ rowOut (RVal m) d (rowOfTile (cL L) (sL L) (pairEquiv (t, 1)))) := by
  unfold rowFinV0 rowFinV1 rowOut
  rw [set_oRow0, set_oRow1, rowB_trip0, rowB_trip1, tripRow_eq L t 0 (by have := trip_lt t; show 2 * t.val + 0 < 128; omega),
    tripRow_eq L t 1 (by have := trip_lt t; show 2 * t.val + 1 < 128; omega)]
  iintro ⟨⟨%g0, %h0, H0⟩, ⟨%g1, %h1, H1⟩⟩
  isplitl [H0]
  · iexists g0; isplitr; · ipureintro; exact h0
    iexact H0
  · iexists g1; isplitr; · ipureintro; exact h1
    iexact H1

/-- The rows the body has finished at the lookup's values are the rows the tile gives back. -/
theorem rowsOut_of_doneV :
    rowsDoneV m d L 65 ⊢ bigSep Finset.univ fun j : Fin 128 => rowOut (RVal m) d (rowOfTile (cL L) (sL L) j) := by
  unfold rowsDoneV
  rw [Finset.filter_true_of_mem (fun t _ => by have := trip_lt t; omega), bigSep_pairs]
  exact bigSep_mono fun t _ => rowPair_outV m d L t

end Cert.Proof.KI

end
-- ==== Proof.TileOblVI.lean ====
/-
  The tile kernel's obligation to the launch theorem, with the rows given back at the lookup's values.
-/
import proofs.«206347_g23639499997337_cont_sun_m_514_14_alg».proof.Proof.TileCoreVI
import proofs.«206347_g23639499997337_cont_sun_m_514_14_alg».proof.Proof.TileRowsVI
import proofs.«206347_g23639499997337_cont_sun_m_514_14_alg».proof.Proof.TileOblI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (d : Dev nD) (L : grid0.Coords)

local notation "xW" => (Memref.whole Cert.KernelIdeal.main_arg0_scv : Memref Cert.KernelIdeal.sig Kind.scVector Space.hbm Cert.KernelIdeal.S4096x200 EltTy.i32)
local notation "tW" => (Memref.whole Cert.KernelIdeal.main_arg1_scv : Memref Cert.KernelIdeal.sig Kind.scVector Space.hbm Cert.KernelIdeal.S100000x128 EltTy.f32)
local notation "oW" => (Memref.whole Cert.KernelIdeal.main_v0_scv : Memref Cert.KernelIdeal.sig Kind.scVector Space.hbm Cert.KernelIdeal.S4096x25600 EltTy.f32)
local notation "i0W" => (Memref.whole Cert.KernelIdeal.cc0_scratch0 : Memref Cert.KernelIdeal.sig Kind.scVector Space.vmem Cert.KernelIdeal.S200 EltTy.i32)
local notation "i1W" => (Memref.whole Cert.KernelIdeal.cc0_scratch1 : Memref Cert.KernelIdeal.sig Kind.scVector Space.vmem Cert.KernelIdeal.S200 EltTy.i32)
local notation "e0W" => (Memref.whole Cert.KernelIdeal.cc0_scratch2 : Memref Cert.KernelIdeal.sig Kind.scVector Space.vmem Cert.KernelIdeal.S200x128 EltTy.f32)
local notation "e1W" => (Memref.whole Cert.KernelIdeal.cc0_scratch3 : Memref Cert.KernelIdeal.sig Kind.scVector Space.vmem Cert.KernelIdeal.S200x128 EltTy.f32)
local notation "o0W" => (Memref.whole Cert.KernelIdeal.cc0_scratch4 : Memref Cert.KernelIdeal.sig Kind.scVector Space.vmem Cert.KernelIdeal.S25600 EltTy.f32)
local notation "o1W" => (Memref.whole Cert.KernelIdeal.cc0_scratch5 : Memref Cert.KernelIdeal.sig Kind.scVector Space.vmem Cert.KernelIdeal.S25600 EltTy.f32)

variable [FloatOps F]

/-- The task on the tile of coordinates L, with the rows it hands back at the lookup's values. -/
theorem tile_bodyV (hF : (K (F := F)).Facts) (hpre : PreOK m)
    (O : CellTallies nD τ sig (HIx 1)) (W : Waits sig (HIx 1)) (hO : ∀ g, O g none = 0) :
    iprop(levAts (K (F := F)).L (K (F := F)).lev ∗ (iprop(emp) : sProp 𝕄) ∗ tileIn m d (cL L) (sL L)
        ∗ scopedBufs (thr d L) ∗ scopedSems0 (thr d L) ∗ owes (thr d L) O W)
      ⊢ wp frame (wpE (defs₀ (F := F)) 𝒱₀ (thr d L) none) Set.univ
          (cc0__sc_fused L xW (Memref.isWhole_whole _) tW (Memref.isWhole_whole _) oW (Memref.isWhole_whole _)
            i0W (Memref.isWhole_whole _) i1W (Memref.isWhole_whole _) e0W (Memref.isWhole_whole _) e1W (Memref.isWhole_whole _)
            o0W (Memref.isWhole_whole _) o1W (Memref.isWhole_whole _)
            cc0_scratch6 cc0_scratch7 cc0_scratch8 cc0_scratch9 cc0_scoped0 cc0_scoped1 cc0_scoped2 cc0_scoped3)
          fun _ => iprop(tileOut m (RVal m) d (cL L) (sL L) ∗ scopedBufs (thr d L) ∗ scopedSems0 (thr d L)
            ∗ ∃ W', ⌜∀ p ∈ W', p ∈ W ∨ p.2 = none⌝ ∗ owes (thr d L) O W') := by
  unfold tileIn tileOut
  rw [rowsIn_eq]
  iintro ⟨#Hlv, -, ⟨Hx, Ht, Hrows⟩, Hsb, Hss, HO⟩
  ihave #Hmw := ((K (F := F)).mayWaits_none (thr := thr d L) hO) $$ Hlv
  ihave Hsc := (scoped_open (F := F) d L hF) $$ [Hsb Hss]
  · isplitl [Hsb] <;> iassumption
  icases Hsc with ⟨⟨%fi0, Hi0⟩, ⟨%fi1, Hi1⟩, ⟨%fe0, He0⟩, ⟨%fe1, He1⟩, ⟨%fo0, Ho0⟩, ⟨%fo1, Ho1⟩, Hs6, Hs7, Hs8, Hs9, Hc0, Hc1, Hc2, Hc3, Hrest⟩
  ihave Ht' := (pointsTo_share (PosShare.mem_left_op_right (tileShare (cL L) (sL L)))).1 $$ Ht
  icases Ht' with ⟨Ht0, Ht1⟩
  iapply (wp_wand_r frame _ Set.univ)
  isplitr [Hrest]
  · iapply (tile_coreV m d L (tileShare (cL L) (sL L)) (tileShare (cL L) (sL L)).left (tileShare (cL L) (sL L)).right O W hpre fi0 fi1 fe0 fe1 fo0 fo1)
    isplitr; · iexact Hmw
    isplitl [Hx]; · iexact Hx
    isplitl [Ht0]; · iexact Ht0
    isplitl [Ht1]; · iexact Ht1
    isplitl [Hrows]; · iexact Hrows
    isplitl [Hi0]; · iexact Hi0
    isplitl [Hi1]; · iexact Hi1
    isplitl [He0]; · iexact He0
    isplitl [He1]; · iexact He1
    isplitl [Ho0]; · iexact Ho0
    isplitl [Ho1]; · iexact Ho1
    isplitl [Hs6]; · iexact Hs6
    isplitl [Hs7]; · iexact Hs7
    isplitl [Hs8]; · iexact Hs8
    isplitl [Hs9]; · iexact Hs9
    isplitl [Hc0]; · iexact Hc0
    isplitl [Hc1]; · iexact Hc1
    isplitl [Hc2]; · iexact Hc2
    isplitl [Hc3]; · iexact Hc3
    iexact HO
  iintro %u ⟨Hx, Ht0, Ht1, Hdone, Hi0, Hi1, He0, He1, Ho0, Ho1, Hs6, Hs7, Hs8, Hs9, Hc0, Hc1, Hc2, Hc3, HO⟩
  ihave Ht := (pointsTo_share (PosShare.mem_left_op_right (tileShare (cL L) (sL L)))).2 $$ [Ht0 Ht1]
  · isplitl [Ht0] <;> iassumption
  ihave Hout := (rowsOut_of_doneV m d L) $$ Hdone
  ihave Hsc := (scoped_close (F := F) d L hF) $$ [Hi0 Hi1 He0 He1 Ho0 Ho1 Hs6 Hs7 Hs8 Hs9 Hc0 Hc1 Hc2 Hc3 Hrest]
  · isplitl [Hi0]; · iexact Hi0
    isplitl [Hi1]; · iexact Hi1
    isplitl [He0]; · iexact He0
    isplitl [He1]; · iexact He1
    isplitl [Ho0]; · iexact Ho0
    isplitl [Ho1]; · iexact Ho1
    isplitl [Hs6]; · iexact Hs6
    isplitl [Hs7]; · iexact Hs7
    isplitl [Hs8]; · iexact Hs8
    isplitl [Hs9]; · iexact Hs9
    isplitl [Hc0]; · iexact Hc0
    isplitl [Hc1]; · iexact Hc1
    isplitl [Hc2]; · iexact Hc2
    isplitl [Hc3]; · iexact Hc3
    iexact Hrest
  icases Hsc with ⟨Hsb, Hss⟩
  isplitl [Hx Ht Hout]
  · isplitl [Hx]; · iexact Hx
    isplitl [Ht]; · iexact Ht
    iexact Hout
  isplitl [Hsb]; · iexact Hsb
  isplitl [Hss]; · iexact Hss
  ihave HO' := (Entails.of_eq (show owesEx (F := F) d L O W
    = iprop(∃ W', ⌜∀ p ∈ W', p ∈ W ∨ p.2 = none⌝ ∗ owes (thr d L) O W') from rfl)) $$ HO
  iexact HO'

/-- The tile kernel's obligation, the rows given back at the lookup's values. -/
theorem tileOblV (hF : (K (F := F)).Facts) (hpre : PreOK m) :
    (K (F := F)).TileObl (D (F := F)) 𝒱 (P m (RVal m)) v₀ 0 := by
  intro d c i O W hO _ _
  simp only [show (P m (RVal m)).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_bodyV m d (coordsV ⟨_, hc.1⟩ ⟨_, hc.2⟩) hF hpre O W hO).trans (wp_mono frame _ _ fun _ => obl_post)

end Cert.Proof.KI

end
-- ==== Proof.SetupB.lean ====
/-
  The kernel program as the launch theorem reads it, and what travels with each handshake.

  One vector-subcore kernel runs on 2 SparseCores × 16 tiles. Tile (c, s) is worker w = 2·s + c and owns the 128 batch
  rows w·128 … w·128 + 127 of the flat output (4096 × 25600). It reads the tokens and the table, never writes them,
  so each tile holds a read share of both arrays whole; its output rows it holds one by one, each whole, and gives
  each back at the lookup's values (Spec.fmapFlat).
-/
import proofs.«206347_g23639499997337_cont_sun_m_514_14_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206347_g23639499997337_cont_sun_m_514_14_alg».proof.Proof.Gen.Kernel
import proofs.«206347_g23639499997337_cont_sun_m_514_14_alg».proof.Proof.Gen.Kernel.Skeleton
import proofs.«206347_g23639499997337_cont_sun_m_514_14_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the local transfers' counters -/

abbrev UH : Type := URounds (GSem nD τ sig) ℕ
/-- the staging cells of the TensorCore region: rounds over the same semaphores, one duty each -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- tokens, table, the flat output: as locations of device d -/
abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

/-- The flat output at the lookup's values: column e · 200 + l of row b is entry e of the table row token (b, l) names. -/
def G0 (d : Dev nD) : Buf (Elt F) (oLoc d) := Cert.Proof.Spec.fmapFlat (m (xLoc d)) (m (tLoc d))

/-- batch row b of the flat output, as a rectangle of one row and as a set of indices -/
theorem rowRect_inb (b : Fin 4096) : ∀ a, (![b.val, 0] : Fin 2 → Nat) a + S1x25600.size a ≤ S4096x25600.size a := by
  have hb : b.val < 4096 := b.isLt
  intro a; fin_cases a <;> simp <;> omega
abbrev rowRect (b : Fin 4096) : Rect S4096x25600 := Rect.unit (s := S4096x25600) ![b.val, 0] S1x25600.size (rowRect_inb b)
abbrev rowSet (b : Fin 4096) : Finset S4096x25600.Idx := (rowRect b).set

/-- worker number of tile (c, s): 2 · s + c -/
def wid (c : Fin 2) (s : Fin 16) : ℕ := 2 * s.val + c.val
theorem wid_lt (c : Fin 2) (s : Fin 16) : wid c s < 32 := by unfold wid; omega

/-- batch row j of worker (c, s) -/
def rowOfTile (c : Fin 2) (s : Fin 16) (j : Fin 128) : Fin 4096 := ⟨wid c s * 128 + j.val, by have := wid_lt c s; omega⟩

/-- the read share tile (c, s) holds of the tokens and of the table -/
abbrev tileShare (c : Fin 2) (s : Fin 16) : PosShare TreeShare := shareTok (shareTok fullShare 2 c) 16 s
/-- the read share a SparseCore holds for its sixteen tiles -/
abbrev coreShare (c : Fin 2) : PosShare TreeShare := shareTok fullShare 2 c

/-- What is known of an output row when a tile gives it back: a property of the array's contents that only reads
    that row. The frames need none (RTriv); the values need the lookup's (RVal). -/
abbrev RowProp : Type := (d : Dev nD) → Fin 4096 → Buf (Elt F) (oLoc d) → Prop
def RTriv : RowProp (F := F) := fun _ _ _ => True
def RVal : RowProp (F := F) := fun d b f => ∀ j ∈ rowSet b, f j = G0 m d j

variable (R : RowProp (F := F))

variable [FloatOps F]

/-- batch row b of the flat output, given back at some contents of which R holds -/
def rowOut (d : Dev nD) (b : Fin 4096) : sProp 𝕄 := iprop(∃ f, ⌜R d b f⌝ ∗ oLoc d ↦[rowSet b]{fullShare} f)

/-- what SparseCore c takes at the call: its share of tokens and table, and the output rows of its sixteen tiles as they stand -/
def coreIn (d : Dev nD) (c : Fin 2) : sProp 𝕄 :=
  iprop((xLoc d ↦{coreShare c} m (xLoc d)) ∗ (tLoc d ↦{coreShare c} m (tLoc d))
    ∗ bigSep Finset.univ fun s : Fin 16 => bigSep Finset.univ fun j : Fin 128 => oLoc d ↦[rowSet (rowOfTile c s j)]{fullShare} m (oLoc d))
/-- what it gives back: the same shares, the rows at the lookup's values -/
def coreOut (d : Dev nD) (c : Fin 2) : sProp 𝕄 :=
  iprop((xLoc d ↦{coreShare c} m (xLoc d)) ∗ (tLoc d ↦{coreShare c} m (tLoc d))
    ∗ bigSep Finset.univ fun s : Fin 16 => bigSep Finset.univ fun j : Fin 128 => rowOut R d (rowOfTile c s j))
/-- what tile (c, s) takes with its task -/
def tileIn (d : Dev nD) (c : Fin 2) (s : Fin 16) : sProp 𝕄 :=
  iprop((xLoc d ↦{tileShare c s} m (xLoc d)) ∗ (tLoc d ↦{tileShare c s} m (tLoc d))
    ∗ bigSep Finset.univ fun j : Fin 128 => oLoc d ↦[rowSet (rowOfTile c s j)]{fullShare} m (oLoc d))
/-- and gives back -/
def tileOut (d : Dev nD) (c : Fin 2) (s : Fin 16) : sProp 𝕄 :=
  iprop((xLoc d ↦{tileShare c s} m (xLoc d)) ∗ (tLoc d ↦{tileShare c s} m (tLoc d))
    ∗ bigSep Finset.univ fun j : Fin 128 => rowOut R d (rowOfTile c s j))

instance rowOut_storable (d : Dev nD) (b : Fin 4096) : BI.Storable (upEmb : UEmb _ 𝕄) (rowOut R d b) := by unfold rowOut; infer_instance
instance coreIn_storable (d : Dev nD) (c : Fin 2) : BI.Storable (upEmb : UEmb _ 𝕄) (coreIn m d c) := by unfold coreIn; infer_instance
instance coreOut_storable (d : Dev nD) (c : Fin 2) : BI.Storable (upEmb : UEmb _ 𝕄) (coreOut m R d c) := by unfold coreOut; infer_instance
instance tileIn_storable (d : Dev nD) (c : Fin 2) (s : Fin 16) : BI.Storable (upEmb : UEmb _ 𝕄) (tileIn m d c s) := by unfold tileIn; infer_instance
instance tileOut_storable (d : Dev nD) (c : Fin 2) (s : Fin 16) : BI.Storable (upEmb : UEmb _ 𝕄) (tileOut m R d c s) := by unfold tileOut; infer_instance

/-- The one call's payloads. Nothing of the launch's own is consumed by the kernel. -/
def P : (K (F := F)).Pay (nD := nD) (Val := Elt F) (Name := ℕ) (U := UU) where
  st := fun q d c => match q with | 0 => coreIn m d (Fin.cast nCore_zero c)
  dn := fun q d c => match q with | 0 => coreOut m R d (Fin.cast nCore_zero c)
  go := fun q d c i => match q with | 0 => tileIn m d (Fin.cast nCore_zero c) (Fin.cast nSub_zero i)
  td := fun q d c i => match q with | 0 => tileOut m R d (Fin.cast nCore_zero c) (Fin.cast nSub_zero i)
  x := fun _ _ => iprop(emp)

instance P_storable : (P (F := F) m R).IsStorable where
  st q d c := match q with | 0 => (inferInstance : BI.Storable (upEmb : UEmb _ 𝕄) (coreIn m d (Fin.cast nCore_zero c)))
  dn q d c := match q with | 0 => (inferInstance : BI.Storable (upEmb : UEmb _ 𝕄) (coreOut m R d (Fin.cast nCore_zero c)))
  go q d c i := match q with | 0 => (inferInstance : BI.Storable (upEmb : UEmb _ 𝕄) (tileIn m d (Fin.cast nCore_zero c) (Fin.cast nSub_zero i)))
  td q d c i := match q with | 0 => (inferInstance : BI.Storable (upEmb : UEmb _ 𝕄) (tileOut m R d (Fin.cast nCore_zero c) (Fin.cast nSub_zero i)))

end Cert.Proof.KB

end
-- ==== Proof.LaunchSplitB.lean ====
/-
  How one SparseCore's operands split among its sixteen tiles, and how the tiles' results join.

  The tokens and the table are only read: a SparseCore's read share of each splits into sixteen tile shares and a
  remainder, which stays with the split until the tiles' shares come back. The output rows are already held one by
  one, grouped by tile, so they pass through unchanged.
-/
import proofs.«206347_g23639499997337_cont_sun_m_514_14_alg».proof.Proof.SetupB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg) (R : RowProp (F := F))

variable [FloatOps F]

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m R) 0 := by
  intro d c
  show coreIn m d (Fin.cast nCore_zero c) ⊢ |={Set.univ}=> iprop(
      (bigSep Finset.univ fun i : Fin ((K (F := F)).nSub 0) => tileIn m d (Fin.cast nCore_zero c) (Fin.cast nSub_zero i))
      ∗ ((bigSep Finset.univ fun i : Fin ((K (F := F)).nSub 0) => tileOut m R d (Fin.cast nCore_zero c) (Fin.cast nSub_zero i))
          -∗ coreOut m R d (Fin.cast nCore_zero c)))
  generalize Fin.cast nCore_zero c = c'
  rw [bigSep_tasks (F := F) (fun i => tileIn m d c' i), bigSep_tasks (F := F) (fun i => tileOut m R d c' i)]
  unfold coreIn coreOut tileIn tileOut
  rw [bigSep_sep', bigSep_sep', bigSep_sep', bigSep_sep']
  iintro ⟨Hx, Ht, Ho⟩
  ihave Hx' := (pointsTo_toks_split (coreShare c') 16) $$ Hx
  icases Hx' with ⟨Hxd, Hxs⟩
  ihave Ht' := (pointsTo_toks_split (coreShare c') 16) $$ Ht
  icases Ht' with ⟨Htd, Hts⟩
  imodintro
  isplitl [Hxs Hts Ho]
  · isplitl [Hxs]; · iexact Hxs
    isplitl [Hts]; · iexact Hts
    iexact Ho
  iintro ⟨Hxs, Hts, Ho⟩
  isplitl [Hxd Hxs]
  · iapply (pointsTo_toks_join (coreShare c') 16)
    isplitl [Hxd]; · iexact Hxd
    iexact Hxs
  isplitl [Htd Hts]
  · iapply (pointsTo_toks_join (coreShare c') 16)
    isplitl [Htd]; · iexact Htd
    iexact Hts
  iexact Ho

end Cert.Proof.KB

end
-- ==== Proof.LaunchRowsB.lean ====
/-
  The flat output as its 4096 batch rows, grouped by SparseCore, tile and row of the tile.

  Tile (c, s) is worker 2·s + c and owns rows (2·s + c)·128 + j, j < 128. Every row index below 4096 is of that form
  in exactly one way, so the rows' index sets are pairwise disjoint and cover the array: the array held whole is the
  rows held one by one.
-/
import proofs.«206347_g23639499997337_cont_sun_m_514_14_alg».proof.Proof.SetupB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg) (R : RowProp (F := F))

/-- the row a (core, tile, row-of-tile) triple names -/
def rowOf3 (x : Fin 2 × Fin 16 × Fin 128) : Fin 4096 := rowOfTile x.1 x.2.1 x.2.2

theorem rowOf3_inj : Function.Injective rowOf3 := by
  rintro ⟨⟨c, hc⟩, ⟨s, hs⟩, ⟨j, hj⟩⟩ ⟨⟨c', hc'⟩, ⟨s', hs'⟩, ⟨j', hj'⟩⟩ h
  simp only [rowOf3, rowOfTile, wid, Fin.mk.injEq] at h
  simp only [Prod.mk.injEq, Fin.mk.injEq]
  omega

theorem rowOf3_surj (b : Fin 4096) : ∃ x, rowOf3 x = b := by
  obtain ⟨b, hb⟩ := b
  refine ⟨(⟨(b / 128) % 2, Nat.mod_lt _ (by decide)⟩, ⟨b / 256, by omega⟩, ⟨b % 128, Nat.mod_lt _ (by decide)⟩), ?_⟩
  simp only [rowOf3, rowOfTile, wid, Fin.mk.injEq]
  omega

theorem rows_disjoint {b b' : Fin 4096} (h : b ≠ b') : Disjoint (rowSet b) (rowSet b') := by
  refine Rect.unit_disjoint (0 : Fin S4096x25600.rank) ?_
  show b.val + 1 ≤ b'.val ∨ b'.val + 1 ≤ b.val
  have := Fin.val_ne_of_ne h
  omega

theorem mem_rowSet {b : Fin 4096} {i : S4096x25600.Idx} : i ∈ rowSet b ↔ (i 0).val = b.val := by
  unfold rowSet rowRect
  rw [Rect.mem_set_unit]
  constructor
  · intro h
    have h0 := h 0
    change b.val ≤ (i 0).val ∧ (i 0).val < b.val + 1 at h0
    omega
  · intro h a
    fin_cases a
    · change b.val ≤ (i 0).val ∧ (i 0).val < b.val + 1; omega
    · change 0 ≤ (i 1).val ∧ (i 1).val < 0 + 25600
      have := (i 1).isLt
      change (i 1).val < 25600 at this
      omega

theorem rows_cover : (Finset.univ : Finset (Fin 2 × Fin 16 × Fin 128)).biUnion (fun x => rowSet (rowOf3 x)) = Finset.univ := by
  ext i
  simp only [Finset.mem_biUnion, Finset.mem_univ, true_and, iff_true]
  obtain ⟨x, hx⟩ := rowOf3_surj ⟨(i 0).val, (i 0).isLt⟩
  exact ⟨x, mem_rowSet.mpr (by rw [hx])⟩

/-- The flat output held whole is its rows held one by one, grouped by SparseCore, tile, row of the tile. -/
theorem o_rows (d : Dev nD) (f : Buf (Elt F) (oLoc d)) :
    (oLoc d ↦{fullShare} f : sProp 𝕄)
      = bigSep Finset.univ fun c : Fin 2 => bigSep Finset.univ fun s : Fin 16 => bigSep Finset.univ fun j : Fin 128 =>
          oLoc d ↦[rowSet (rowOfTile c s j)]{fullShare} f := by
  have h3 : (bigSep Finset.univ fun c : Fin 2 => bigSep Finset.univ fun s : Fin 16 => bigSep Finset.univ fun j : Fin 128 =>
      (oLoc d ↦[rowSet (rowOfTile c s j)]{fullShare} f : sProp 𝕄))
      = bigSep Finset.univ fun x : Fin 2 × Fin 16 × Fin 128 => oLoc d ↦[rowSet (rowOf3 x)]{fullShare} f := by
    rw [bigSep_univ_prod]
    refine bigSep_congr fun c _ => ?_
    rw [bigSep_univ_prod]
    rfl
  rw [h3, ← pointsTo_biUnion Finset.univ (ℓ := oLoc d) (fun x => rowSet (rowOf3 x))
    (fun x _ y _ hxy => rows_disjoint (fun e => hxy (rowOf3_inj e))), rows_cover]
  try rfl

variable [FloatOps F]

/-- What is known of an array put together from rows the tiles gave back: on each row it agrees with contents of which
    the row's property holds. -/
def RowsAt (d : Dev nD) (g : Buf (Elt F) (oLoc d)) : Prop :=
  ∀ x : Fin 2 × Fin 16 × Fin 128, ∃ f, R d (rowOf3 x) f ∧ ∀ i ∈ rowSet (rowOf3 x), g i = f i

include m in
/-- The rows the SparseCores give back join to the flat output held whole, at contents that agree with each row's. -/
theorem rows_join (d : Dev nD) :
    (bigSep Finset.univ fun c : Fin 2 => bigSep Finset.univ fun s : Fin 16 => bigSep Finset.univ fun j : Fin 128 => rowOut R d (rowOfTile c s j))
      ⊢ (iprop(∃ g, ⌜RowsAt R d g⌝ ∗ oLoc d ↦{fullShare} g) : sProp 𝕄) := by
  have h3 : (bigSep Finset.univ fun c : Fin 2 => bigSep Finset.univ fun s : Fin 16 => bigSep Finset.univ fun j : Fin 128 =>
      (rowOut R d (rowOfTile c s j) : sProp 𝕄))
      = bigSep Finset.univ fun x : Fin 2 × Fin 16 × Fin 128 => rowOut R d (rowOf3 x) := by
    rw [bigSep_univ_prod]
    refine bigSep_congr fun c _ => ?_
    rw [bigSep_univ_prod]
    rfl
  rw [h3]; unfold rowOut
  haveI : ∀ _ : Fin 2 × Fin 16 × Fin 128, Nonempty (Buf (Elt F) (oLoc d)) := fun _ => ⟨m (oLoc d)⟩
  refine (bigSep_exists_pi Finset.univ (fun (x : Fin 2 × Fin 16 × Fin 128) (f : Buf (Elt F) (oLoc d)) =>
    iprop(⌜R d (rowOf3 x) f⌝ ∗ oLoc d ↦[rowSet (rowOf3 x)]{fullShare} f))).trans ?_
  iintro ⟨%fs, H⟩
  have hp := bigSep_pure_sep (M := 𝕄) Finset.univ (fun x : Fin 2 × Fin 16 × Fin 128 => R d (rowOf3 x) (fs x))
    (fun x => (oLoc d ↦[rowSet (rowOf3 x)]{fullShare} fs x : sProp 𝕄))
  have hj := pointsTo_biUnion_join (Ix := HIx 1) (Name := ℕ) (U := UU) (Lvl := ℕ) (ℓ := oLoc d) (q := fullShare)
    (Finset.univ : Finset (Fin 2 × Fin 16 × Fin 128)) (fun x => rowSet (rowOf3 x)) fs (m (oLoc d))
    (fun x _ y _ hxy => rows_disjoint (fun e => hxy (rowOf3_inj e)))
  ihave H' := hp $$ H
  icases H' with ⟨%hR, H⟩
  ihave H'' := hj $$ H
  icases H'' with ⟨%g, %hg, Hg⟩
  rw [rows_cover]
  iexists g; isplitr
  · ipureintro; intro x; exact ⟨fs x, hR x (Finset.mem_univ x), fun i hi => hg x (Finset.mem_univ x) i hi⟩
  iexact Hg

end Cert.Proof.KB

end
-- ==== Proof.LaunchElemB.lean ====
/-
  The launch element of the ghost state.

  Three components side by side: the handshakes' rounds, the rounds of the TensorCore pipeline's staging cells, and
  the local transfers' counters. The launch hands the handshakes' part to the launch theorem, funds the pipeline's
  staging cells and duty tokens for each device's TensorCore (what the region is later entered with), and drops the
  counters, which start at the unit.
-/
import proofs.«206347_g23639499997337_cont_sun_m_514_14_alg».proof.Proof.SetupB
import proofs.«206347_g23639499997337_cont_sun_m_514_14_alg».proof.Proof.Gen.Kernel.Launch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg) (R : RowProp (F := F))

/-- the pipeline's rounds: the middle component -/
abbrev EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

/-- what each TensorCore starts @main with beyond what the launch deals it: its pipeline's staging cells' ghost state
    and duty tokens -/
def G (d : Dev nD) : sProp 𝕄 := iprop(Pipeline.cellsGhost cfgs EP 0 d ∗ Pipeline.toksInit cfgs EP 0 d)

def u₀ : UU :=
  (initOf (K (F := F)).hsCells (K (F := F)).hsToks,
    (initOf (Pipeline.cells (nD := nD) (τ := τ) cfgs cellOf_inj) (Pipeline.launchToks (nD := nD) (τ := τ) cfgs cellOf_inj), 1))

theorem bigSep_emp' {I : Type} (s : Finset I) : (bigSep s fun _ => iprop(emp)) = (iprop(emp) : sProp 𝕄) := bigSep_emp_const s

theorem bigSep_pipes (Φ : Fin 1 → sProp 𝕄) : bigSep Finset.univ Φ = Φ 0 := bigSep_univ_of_subsingleton (0 : Fin 1)

theorem G_all :
    (bigSep Finset.univ fun d : Dev nD => G (F := F) d)
      = iprop((bigSep Finset.univ fun d : Dev nD => bigSep Finset.univ fun p : Fin 1 => Pipeline.cellsGhost cfgs (EP (F := F)) p d)
          ∗ (bigSep Finset.univ fun d : Dev nD => bigSep Finset.univ fun p : Fin 1 => (Pipeline.toksInit cfgs (EP (F := F)) p d : sProp 𝕄))) := by
  unfold G
  rw [bigSep_sep', bigSep_congr fun d _ => bigSep_pipes (F := F) (fun p => Pipeline.cellsGhost cfgs EP p d),
    bigSep_congr fun d _ => bigSep_pipes (F := F) (fun p => (Pipeline.toksInit cfgs EP p d : sProp 𝕄))]

variable [FloatOps F]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m R).x q thr) := by
  unfold u₀
  rw [G_all]
  iintro Hu
  ihave H := (ownU_pair _ _) $$ Hu
  icases H with ⟨HH, HR⟩
  ihave H2 := (own_pair_emb embR _ _) $$ HR
  icases H2 with ⟨HP, -⟩
  imod (Pipeline.fund_ghost cfgs (EP (F := F)) cellOf_inj) $$ HP with ⟨Hg, Ht⟩
  imodintro
  isplitl [HH]; · iexact HH
  isplitl [Hg Ht]
  · isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KB

end
-- ==== Proof.LaunchBodyB.lean ====
/-
  The TensorCore kernel that counts the non-padding tokens of each batch row, as the pipeline runs it.

  The grid has one point. The kernel loads the staged tokens whole (4096 × 1 × 200), compares each with 0, widens the
  one-bit answers to 32 bits, sums the 200 of each row in 32-bit integers, and stores the 4096 × 1 × 1 sums over its
  whole result buffer. The tokens' buffer is left as it was.
-/
import proofs.«206347_g23639499997337_cont_sun_m_514_14_alg».proof.Proof.LaunchElemB
import proofs.«206347_g23639499997337_cont_sun_m_514_14_alg».proof.Proof.Gen.Kernel.Points
import Idealize.ShloMosaic.Lib.Pipeline.FrameBody
import Idealize.ShloMosaic.Lib.Pipeline.Regions

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg) (R : RowProp (F := F))

open Idealize.ShloMosaic.TcCoe Idealize.ShloMosaic.Tactic
open Idealize.ShloMosaic.Pipeline (Dat BodyObligation)

variable [FloatOps F]

/-- the rectangles of the kernel's three accesses: each the whole of its buffer -/
abbrev rIn : Rect S4096x1x200 := Rect.unit (s := S4096x1x200) ![0, 0, 0] S4096x1x200.size inb_S4096x1x200_S4096x1x200_0_0_0
abbrev rOut : Rect S4096x1x1 := Rect.unit (s := S4096x1x1) ![0, 0, 0] S4096x1x1.size inb_S4096x1x1_S4096x1x1_0_0_0

/-- What the kernel leaves in its result buffer, from the staged tokens: its one store's payload over the whole buffer. -/
def lenOut (x0 : Vec F S4096x1x200 .i32) : Vec F S4096x1x1 .i32 :=
  View.canon [⟨rOut, k1_pay1 (View.ld x0 rIn)⟩]

theorem lenCover (p0 : Vec F S4096x1x1 .i32) (y : S4096x1x1.Idx) :
    ∃ pc ∈ ([⟨rOut, p0⟩] : List (View.Piece (Elt F) S4096x1x1 .i32)), y ∈ pc.1.set :=
  View.cover_of_tiled [⟨rOut, p0⟩] S4096x1x1.size (by rfl) y

set_option maxHeartbeats 1000000 in
/-- The kernel on whole buffers, the tokens' at contents x0 and the result's at anything: it returns with the tokens'
    buffer as it was and the result's at lenOut x0. -/
theorem len_kernel (c : Dev nD) (E : Set ℕ) (i : grid1.Coords) (arg1 : Memref sig .tc .vmem S4096x1x200 .i32) (harg1 : arg1.IsWhole)
    (arg2 : Memref sig .tc .vmem S4096x1x1 .i32) (harg2 : arg2.IsWhole) (x0 : Vec F S4096x1x200 .i32) (Q : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (lenOut x0)) -∗ Q ⟨⟩))
      ⊢ wp frame (wpE (defs₀ (F := F)) Variants.none c none) E (cc1__len_body i arg1 harg1 arg2 harg2) Q := by
  simp only [cc1__len_body_eq_skeleton]; unfold cc1__len_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (lenCover _)

/-! ## The proof data of the one pipeline -/

/-- the reshape of the tokens that @main runs before the region -/
abbrev opTok : HloOp τ sig (Elt F) := StableHlo.reshape main_arg0 main_v1 rfl shapeCasts_S4096x200_S4096x1x200

/-- the launch valuation of device c's buffers -/
def V0 (c : Dev nD) : Valuation τ sig (Elt F) := fun b => m (c, b)

/-- the tokens as the region finds them: reshaped to 4096 × 1 × 200 -/
def tok3 (c : Dev nD) : Buf (Elt F) ((c.tc : Thread nD τ).loc main_v1) := (opTok (F := F)).result (V0 m c) (Proc.devRef .tc main_v1)

/-- the staged tokens: the one block of the reshaped array -/
def iblk (c : Dev nD) (t : Fin cfg1.N) : ((cfg1.win 0).xblock (cfg1.grid.coords t)).Idx → Elt F (cfg1.win 0).elt :=
  ((cfg1.win 0).blk t).view.read (Elt F) (tok3 m c)

/-- The proof data on core c: the reshaped tokens and the result array as launched; after the body the tokens' buffer
    as staged and the result's at the counts; the invariant is the scoped rest, untouched; nothing owed; full shares. -/
def lenDat (_ : Fin 1) (c : Dev nD) : Dat τ (Elt F) (HIx 1) ℕ UU ℕ cfg1 c where
  A w := match w with
    | ⟨0, _⟩ => tok3 m c
    | ⟨1, _⟩ => m ((c.tc : Thread nD τ).loc main_v2)
  after w t := match w with
    | ⟨0, _⟩ => iblk m c t
    | ⟨1, _⟩ => lenOut (iblk m c t)
  Φ _ := Pipeline.scopedRest (Ix := HIx 1) (Name := ℕ) (U := UU) (Lvl := ℕ) (Val := Elt F) spec1 c
  q _ := fullShare
  owed _ := 0
  recorded _ := {p | (K (F := F)).lev ((c.tc : Thread nD τ), p.1) p.2 ≤ 8}

theorem lenDat_A0 (c : Dev nD) : (lenDat m 0 c).A 0 = tok3 m c := by dsimp only [lenDat]
theorem lenDat_A1 (c : Dev nD) : (lenDat m 0 c).A 1 = m ((c.tc : Thread nD τ).loc main_v2) := by dsimp only [lenDat]
theorem lenDat_after0 (c : Dev nD) (t : Fin cfg1.N) : (lenDat m 0 c).after 0 t = iblk m c t := by dsimp only [lenDat]
theorem lenDat_after1 (c : Dev nD) (t : Fin cfg1.N) : (lenDat m 0 c).after 1 t = lenOut (iblk m c t) := by dsimp only [lenDat]

/-- The tokens' staging buffer holds the block when the body runs: the one point fetches it. -/
theorem lenDat_before0 (c : Dev nD) (t : Fin cfg1.N) (d) : (lenDat m 0 c).before 0 t d = iblk m c t := by
  unfold Dat.before; rw [if_pos (fetch1_0 t)]
  unfold Dat.fetched Dat.blockOf iblk; rw [lenDat_A0]; try rfl

/-- the core owes nothing, and what its waits have recorded sits at or below the first call's band -/
abbrev owesB (c : Dev nD) : sProp 𝕄 :=
  iprop(∃ W, ⌜(K (F := F)).WBelow (c.tc : Thread nD τ) W 8⌝ ∗ owes (c.tc : Thread nD τ) (0 : CellTallies nD τ sig (HIx 1)) W)

theorem lenDat_owesAt (c : Dev nD) (t : Fin (cfg1.N + 1)) :
    ((lenDat m 0 c).owesAt (none : HIx 1) t : sProp 𝕄) ⊣⊢ owesB (F := F) c := by
  unfold Dat.owesAt Pipeline.owesWithin
  constructor
  · iintro ⟨%W, %hW, HO⟩; iexists W; isplitr
    · ipureintro
      intro p hp
      rcases hW (Finset.mem_coe.mpr hp) with h | ⟨w, s, rfl⟩
      · exact h
      · exact Nat.zero_le _
    iexact HO
  · iintro ⟨%W, %hW, HO⟩; iexists W; isplitr
    · ipureintro; exact fun p hp => Or.inl (hW p (Finset.mem_coe.mp hp))
    iexact HO

/-- The body at the one point. -/
theorem body_obligation (c : Dev nD) : BodyObligation (lenDat (F := F) m 0 c) (defs₀ (F := F)) 𝒱₀ (none : HIx 1) Set.univ := fun t => by
  rw [bigSep_W1, bigSep_W1]
  show iprop((lenDat m 0 c).Φ t.castSucc ∗ (lenDat m 0 c).owesAt none t.castSucc
      ∗ (∃ d, owns (c : Thread nD τ) (st1_0 t) fullShare ((lenDat m 0 c).before 0 t d))
      ∗ (∃ d, owns (c : Thread nD τ) (st1_1 t) fullShare ((lenDat m 0 c).before 1 t d)))
    ⊢ wp frame (wpE (defs₀ (F := F)) Variants.none c none) Set.univ (bodyAt1 t) fun _ =>
      iprop((lenDat m 0 c).Φ t.succ ∗ (lenDat m 0 c).owesAt none t.succ
        ∗ owns (c : Thread nD τ) (st1_0 t) fullShare ((lenDat m 0 c).after 0 t)
        ∗ owns (c : Thread nD τ) (st1_1 t) fullShare ((lenDat m 0 c).after 1 t))
  simp only [lenDat_before0]
  rw [show (lenDat m 0 c).Φ t.succ = (lenDat m 0 c).Φ t.castSucc from rfl,
    show (lenDat m 0 c).owesAt none t.succ = (lenDat m 0 c).owesAt none t.castSucc from rfl,
    lenDat_after0, lenDat_after1]
  unfold bodyAt1
  iintro ⟨HΦ, Ho, ⟨%d0, H0⟩, ⟨%d1, H1⟩⟩
  iapply (len_kernel c Set.univ _ _ _ _ _ (iblk m c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

end Cert.Proof.KB

end
-- ==== Proof.LaunchRegionB.lean ====
/-
  The TensorCore region as @main meets it: entered holding the reshaped tokens and the result array whole, left
  holding them at what the pipeline computes; the core owes nothing before or after.
-/
import proofs.«206347_g23639499997337_cont_sun_m_514_14_alg».proof.Proof.LaunchBodyB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg) (R : RowProp (F := F))

open Idealize.ShloMosaic.TcCoe Idealize.ShloMosaic.Tactic
open Idealize.ShloMosaic.Pipeline (Dat BodyObligation)

variable [FloatOps F]

/-- no prefetched table -/
abbrev adm : (p : Fin 1) → (pcfgs (F := F) p).Adm := fun p => (cfgs p).toPCfg_adm
/-- the levels are the launch theorem's -/
abbrev Lk : GSem nD τ sig → Finset (HIx 1) := (K (F := F)).L
abbrev lvk : GSem nD τ sig → HIx 1 → ℕ := (K (F := F)).lev

/-- the region's two arrays held whole at contents f1, f2 -/
abbrev arrs (c : Dev nD) (f1 : Buf (Elt F) ((c.tc : Thread nD τ).loc main_v1)) (f2 : Buf (Elt F) ((c.tc : Thread nD τ).loc main_v2)) : sProp 𝕄 :=
  iprop((((c.tc : Thread nD τ).loc main_v1) ↦{fullShare} f1) ∗ (((c.tc : Thread nD τ).loc main_v2) ↦{fullShare} f2))

theorem lenDat_share (c : Dev nD) : ∀ w, (lenDat (F := F) m 0 c).share w = fullShare := (lenDat m 0 c).share_full fun _ => rfl

/-- the proof data's arrays, one by one -/
theorem lenDat_arrays (c : Dev nD) (Fa : (w : Fin cfg1.W) → Buf (Elt F) ((cfg1.win w).arr.view.loc (c.tc : Thread nD τ))) :
    ((lenDat (F := F) m 0 c).arrays Fa : sProp 𝕄) = arrs c (Fa 0) (Fa 1) := by
  rw [Pipeline.arrays_eq cfgs (lenDat m) 0 c launch1.arr_whole (lenDat_share m c) Fa, bigSep_W1]

set_option backward.isDefEq.respectTransparency.types false in
def lenReg : Pipeline.RegionSeg (pcfgs (F := F)) adm (lenDat m) (none : HIx 1) defs₀ 𝒱₀ (Lk (F := F)) (lvk (F := F)) 0 where
  win := launch1.win.to₀
  block_pos := launch1.block_pos
  stage_whole := launch1.stage_whole
  K := PEmpty
  osem := fun k => k.elim
  ho := Pipeline.OwnSemFacts.none _
  hbody c := (body_obligation m c).loose
  hwaits := Pipeline.hwaits_of_owed_zero _ _ _ _ (Lk (F := F)) (lvk (F := F)) 0 fun _ _ => rfl
  pre c := iprop(arrs c (tok3 m c) (m ((c.tc : Thread nD τ).loc main_v2)) ∗ owesB (F := F) c)
  post c := iprop(arrs c ((lenDat m 0 c).arrAt 0 cfg1.N) ((lenDat m 0 c).arrAt 1 cfg1.N) ∗ owesB (F := F) c)
  X _ := iprop(emp)
  Y _ := iprop(emp)
  Z _ := iprop(emp)
  hentry c := by
    rw [show ((lenDat m 0 c).arrays ((lenDat m 0 c).arrAt · 0) : sProp 𝕄) = arrs c (tok3 m c) (m ((c.tc : Thread nD τ).loc main_v2)) from
      (lenDat_arrays m c _).trans (by rw [show (lenDat m 0 c).arrAt 0 0 = (lenDat m 0 c).A 0 from rfl,
        show (lenDat m 0 c).arrAt 1 0 = (lenDat m 0 c).A 1 from rfl, lenDat_A0, lenDat_A1])]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iapply (lenDat_owesAt m c 0).2; iexact HO
    isplitr <;> iempintro
  hin c := by
    rw [show (lenDat m 0 c).Φ 0 = Pipeline.scopedRest (Ix := HIx 1) (Name := ℕ) (U := UU) (Lvl := ℕ) (Val := Elt F) spec1 c from rfl]
    iintro ⟨-, -, Hr⟩; iexact Hr
  hout c := by
    rw [show (lenDat m 0 c).Φ (Fin.last cfg1.N) = Pipeline.scopedRest (Ix := HIx 1) (Name := ℕ) (U := UU) (Lvl := ℕ) (Val := Elt F) spec1 c from rfl,
      Pipeline.ownSems0_none]
    iintro Hr
    isplitr; · iempintro
    isplitr; · iempintro
    iexact Hr
  hexit c := by
    rw [lenDat_arrays]
    iintro ⟨Ha, HO, -, -⟩
    imodintro
    isplitl [Ha]; · iexact Ha
    iapply (lenDat_owesAt m c _).1; iexact HO

set_option backward.isDefEq.respectTransparency.types false in
/-- The region on core c, under the program's own body table: from the boundary, the two arrays, the level facts and the
    staging cells' ghost state, to the boundary and the arrays at what the pipeline leaves. -/
theorem wp_region [∀ e, Nonempty (Elt F e)] (c : Dev nD) {α : Type} (k : PUnit → Prog (TpuEff nD τ sig (Elt F) (ΛP (F := F)) .tc) α) (Q : α → sProp 𝕄) :
    iprop((iprop(boundary (c.tc : Thread nD τ) ∗ (lenReg m).post c) -∗ wp frame (wpE (D (F := F)) 𝒱 (c.tc : Thread nD τ) none) Set.univ (k ⟨⟩) Q)
        ∗ boundary (c.tc : Thread nD τ) ∗ (lenReg m).pre c ∗ levAts (Lk (F := F)) (lvk (F := F)) ∗ G (F := F) c)
      ⊢ wp frame (wpE (D (F := F)) 𝒱 (c.tc : Thread nD τ) none) Set.univ (.op (.customCall (Pipeline.entry 0) ()) k) Q :=
  Pipeline.RegionSeg.wp (pcfgs (F := F)) adm (lenDat m) (none : HIx 1) cellOf_inj EP defs₀ 𝒱₀ (Lk (F := F)) (lvk (F := F)) (lenReg m) c none (fun _ h => nomatch h) k Q

end Cert.Proof.KB

end
-- ==== Proof.LaunchRegionMainB.lean ====
/-
  The TensorCore region under the whole program's body table, as @main spells the call.
-/
import proofs.«206347_g23639499997337_cont_sun_m_514_14_alg».proof.Proof.LaunchRegionB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg) (R : RowProp (F := F))

open Idealize.ShloMosaic.TcCoe Idealize.ShloMosaic.Tactic

variable [FloatOps F]

/-- the region's call in the pipeline's signature -/
abbrev callP : Prog (TpuEff nD τ sig (Elt F) (ΛP (F := F)) .tc) PUnit := .op (.customCall (Pipeline.entry 0) ()) fun u => .ret u

theorem callP_lift : SparseCore.liftProg (Q := 1) (callP (F := F)) = Prog.lift (.customCall (SparseCore.inner (Pipeline.entry 0)) ()) := rfl

set_option backward.isDefEq.respectTransparency.types false in
theorem wp_region_main [∀ e, Nonempty (Elt F e)] (d : Dev nD) (Φ : PUnit → sProp 𝕄) :
    iprop((iprop(boundary (SparseCore.T d) ∗ arrs d (lenDat m 0 d |>.arrAt 0 cfg1.N) (lenDat m 0 d |>.arrAt 1 cfg1.N) ∗ owesB (F := F) d) -∗ Φ ⟨⟩)
        ∗ boundary (SparseCore.T d) ∗ (arrs d (tok3 m d) (m ((d.tc : Thread nD τ).loc main_v2)) ∗ owesB (F := F) d)
        ∗ levAts (Lk (F := F)) (lvk (F := F)) ∗ G (F := F) d)
      ⊢ wp frame (wpE ((K (F := F)).defs (D (F := F))) 𝒱 (SparseCore.T d) none) Set.univ
          (Prog.lift (.customCall (SparseCore.inner (Pipeline.entry 0)) ())) Φ := by
  rw [← callP_lift]
  have h1 := (K (F := F)).wp_liftProg (D (F := F)) 𝒱 (SparseCore.T d) Set.univ none (callP (F := F)) Φ
  have h2 := wp_region m d (fun u => .ret u) Φ
  have h0 : iprop((iprop(boundary (SparseCore.T d) ∗ arrs d (lenDat m 0 d |>.arrAt 0 cfg1.N) (lenDat m 0 d |>.arrAt 1 cfg1.N) ∗ owesB (F := F) d) -∗ Φ ⟨⟩)
        ∗ boundary (SparseCore.T d) ∗ (arrs d (tok3 m d) (m ((d.tc : Thread nD τ).loc main_v2)) ∗ owesB (F := F) d)
        ∗ levAts (Lk (F := F)) (lvk (F := F)) ∗ G (F := F) d)
      ⊢ iprop((iprop(boundary (d.tc : Thread nD τ) ∗ (lenReg m).post d) -∗ wp frame (wpE (D (F := F)) 𝒱 (d.tc : Thread nD τ) none) Set.univ (.ret ⟨⟩) Φ)
        ∗ boundary (d.tc : Thread nD τ) ∗ (lenReg m).pre d ∗ levAts (Lk (F := F)) (lvk (F := F)) ∗ G (F := F) d) := by
    iintro ⟨Hk, H⟩
    isplitl [Hk]
    · iintro Hp
      rw [wp_ret]; imodintro
      iapply Hk; iexact Hp
    iexact H
  exact h0.trans (h2.trans h1)

end Cert.Proof.KB

end
-- ==== Proof.LaunchB.lean ====
/-
  @main on the TensorCore, the final assertion, and the run of the whole program.

  @main starts the two SparseCores on the lookup — handing each a read share of the tokens and of the table and its 2048
  rows of the flat output, keeping a remainder of the read shares — and takes back the shares and the rows, which join to
  the flat output held whole. It then reshapes the tokens, runs the counting kernel on the TensorCore, and reshapes the two
  results. The tokens and the table are never written, so they end as launched; the first result is the reshape of the flat
  output, the second the reshape of what the counting kernel's pipeline leaves.
-/
import proofs.«206347_g23639499997337_cont_sun_m_514_14_alg».proof.Proof.LaunchSplitB
import proofs.«206347_g23639499997337_cont_sun_m_514_14_alg».proof.Proof.LaunchRowsB
import proofs.«206347_g23639499997337_cont_sun_m_514_14_alg».proof.Proof.LaunchRegionMainB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg) (R : RowProp (F := F))

open Idealize.ShloMosaic.TcCoe Idealize.ShloMosaic.Tactic
open Idealize.ShloMosaic.Pipeline (Dat BodyObligation)
open Idealize.ShloMosaic.StableHlo (held held_split held_sdiff_result wp_hlo_within)

variable [FloatOps F]

/-! ## The TensorCore's arrays -/

abbrev x' : DevRef τ sig := Proc.devRef .tc (main_arg0 : Ref sig .tc)
abbrev t' : DevRef τ sig := Proc.devRef .tc (main_arg1 : Ref sig .tc)
abbrev o' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ (oLoc d ↦{fullShare} W main_v0)
      ∗ (v1Loc d ↦{fullShare} W main_v1) ∗ (v2Loc d ↦{fullShare} W main_v2) ∗ (v3Loc d ↦{fullShare} W main_v3) ∗ v4Loc d ↦{fullShare} W main_v4) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The two result reshapes -/

abbrev opFlat : HloOp τ sig (Elt F) := StableHlo.reshape main_v0 main_v3 rfl shapeCasts_S4096x25600_S4096x128x200
abbrev opLen : HloOp τ sig (Elt F) := StableHlo.reshape main_v2 main_v4 rfl shapeCasts_S4096x1x1_S4096

/-- the launch valuation with the flat output at g -/
def Vg (d : Dev nD) (g : Buf (Elt F) (oLoc d)) : Valuation τ sig (Elt F) := Function.update (V0 m d) o' g
/-- and with the counting kernel's result array at h -/
def Vh (d : Dev nD) (h : Buf (Elt F) (v2Loc d)) : Valuation τ sig (Elt F) := Function.update (V0 m d) v2' h

/-- the first result: the reshape of the flat output g -/
def out3 (d : Dev nD) (g : Buf (Elt F) (oLoc d)) : Buf (Elt F) (v3Loc d) := (opFlat (F := F)).result (Vg m d g) v3'
/-- the second result: the reshape of the counting kernel's result array h -/
def out4 (d : Dev nD) (h : Buf (Elt F) (v2Loc d)) : Buf (Elt F) (v4Loc d) := (opLen (F := F)).result (Vh m d h) v4'

/-- what the counting kernel's pipeline leaves in its result array -/
def lenArr (d : Dev nD) : Buf (Elt F) (v2Loc d) := (lenDat m 0 d).arrAt 1 cfg1.N

abbrev S1 : Finset (DevRef τ sig) := {x', v1'}
abbrev S3 : Finset (DevRef τ sig) := {o', v3'}
abbrev S4 : Finset (DevRef τ sig) := {v2', v4'}

omit [FloatOps F] in
theorem held_S1 (d : Dev nD) (W : Valuation τ sig (Elt F)) :
    (held (T d) S1 W : sProp 𝕄) = iprop((xLoc d ↦{fullShare} W x') ∗ v1Loc d ↦{fullShare} W v1') := by
  unfold held S1; rw [SparseCore.bigSep_insert' (by decide), bigSep_singleton]
omit [FloatOps F] in
theorem held_S3 (d : Dev nD) (W : Valuation τ sig (Elt F)) :
    (held (T d) S3 W : sProp 𝕄) = iprop((oLoc d ↦{fullShare} W o') ∗ v3Loc d ↦{fullShare} W v3') := by
  unfold held S3; rw [SparseCore.bigSep_insert' (by decide), bigSep_singleton]
omit [FloatOps F] in
theorem held_S4 (d : Dev nD) (W : Valuation τ sig (Elt F)) :
    (held (T d) S4 W : sProp 𝕄) = iprop((v2Loc d ↦{fullShare} W v2') ∗ v4Loc d ↦{fullShare} W v4') := by
  unfold held S4; rw [SparseCore.bigSep_insert' (by decide), bigSep_singleton]

theorem hTok : (opTok (F := F)).bufs ⊆ S1 := show ({x', v1'} : Finset (DevRef τ sig)) ⊆ S1 by decide
theorem hFlat : (opFlat (F := F)).bufs ⊆ S3 := show ({o', v3'} : Finset (DevRef τ sig)) ⊆ S3 by decide
theorem hLen : (opLen (F := F)).bufs ⊆ S4 := show ({v2', v4'} : Finset (DevRef τ sig)) ⊆ S4 by decide

theorem tok_x (d : Dev nD) : (opTok (F := F)).result (V0 m d) x' = m (xLoc d) :=
  (opTok (F := F)).result_of_not_mem (V0 m d) (b := x') (show x' ∉ ({v1'} : Finset (DevRef τ sig)) by decide)
theorem flat_o (d : Dev nD) (g : Buf (Elt F) (oLoc d)) : (opFlat (F := F)).result (Vg m d g) o' = g :=
  ((opFlat (F := F)).result_of_not_mem (Vg m d g) (b := o') (show o' ∉ ({v3'} : Finset (DevRef τ sig)) by decide)).trans (Function.update_self _ _ _)
theorem Vg_o (d : Dev nD) (g : Buf (Elt F) (oLoc d)) : Vg m d g o' = g := Function.update_self _ _ _
theorem Vg_v3 (d : Dev nD) (g : Buf (Elt F) (oLoc d)) : Vg m d g v3' = m (v3Loc d) := Function.update_of_ne (show v3' ≠ o' by decide) _ _
theorem Vh_v2 (d : Dev nD) (h : Buf (Elt F) (v2Loc d)) : Vh m d h v2' = h := Function.update_self _ _ _
theorem Vh_v4 (d : Dev nD) (h : Buf (Elt F) (v2Loc d)) : Vh m d h v4' = m (v4Loc d) := Function.update_of_ne (show v4' ≠ v2' by decide) _ _

/-! ## The call's operands and results, over the two SparseCores -/

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) : (bigSep Finset.univ fun c : Fin ((K (F := F)).nCore 0) => (P m R).st 0 d c)
    = iprop((bigSep Finset.univ fun c : Fin 2 => xLoc d ↦{coreShare c} m (xLoc d)) ∗ (bigSep Finset.univ fun c : Fin 2 => tLoc d ↦{coreShare c} m (tLoc d))
      ∗ bigSep Finset.univ fun c : Fin 2 => bigSep Finset.univ fun s : Fin 16 => bigSep Finset.univ fun j : Fin 128 =>
          oLoc d ↦[rowSet (rowOfTile c s j)]{fullShare} m (oLoc d)) := by
  show (bigSep Finset.univ fun c : Fin ((K (F := F)).nCore 0) => coreIn m d (Fin.cast nCore_zero c)) = _
  rw [bigSep_cores (F := F) (fun c => coreIn m d c)]
  unfold coreIn
  rw [bigSep_sep', bigSep_sep']

theorem dn0_eq (d : Dev nD) : (bigSep Finset.univ fun c : Fin ((K (F := F)).nCore 0) => (P m R).dn 0 d c)
    = iprop((bigSep Finset.univ fun c : Fin 2 => xLoc d ↦{coreShare c} m (xLoc d)) ∗ (bigSep Finset.univ fun c : Fin 2 => tLoc d ↦{coreShare c} m (tLoc d))
      ∗ bigSep Finset.univ fun c : Fin 2 => bigSep Finset.univ fun s : Fin 16 => bigSep Finset.univ fun j : Fin 128 => rowOut R d (rowOfTile c s j)) := by
  show (bigSep Finset.univ fun c : Fin ((K (F := F)).nCore 0) => coreOut m R d (Fin.cast nCore_zero c)) = _
  rw [bigSep_cores (F := F) (fun c => coreOut m R d c)]
  unfold coreOut
  rw [bigSep_sep', bigSep_sep']

/-! ## @main -/

/-- What @main leaves the claim: tokens and table as launched; the two results as the reshapes of a flat output that
    agrees with the rows given back, and of the counting pipeline's result. -/
def FIN (d : Dev nD) : sProp 𝕄 :=
  iprop((xLoc d ↦{fullShare} m (xLoc d)) ∗ (tLoc d ↦{fullShare} m (tLoc d))
    ∗ ∃ g, ⌜RowsAt R d g⌝ ∗ (v3Loc d ↦{fullShare} out3 m d g) ∗ v4Loc d ↦{fullShare} out4 m d (lenArr m d))

set_option backward.isDefEq.respectTransparency.types false in
theorem hmain [∀ e, Nonempty (Elt F e)] (κ : GSem nD τ sig → ℕ) (d : Dev nD) :
    iprop((K (F := F)).ctx EH (P m R) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m R d) := by
  obtain ⟨Rst, hRst⟩ : ∃ Rst : sProp 𝕄, (K (F := F)).tcSt EH d 1
      = iprop((∃ W, ⌜(K (F := F)).WBelow (SparseCore.T d) W (8 * 1)⌝ ∗ owes (SparseCore.T d) ((K (F := F)).Otc d 1) W) ∗ Rst) := ⟨_, rfl⟩
  unfold SparseCore.Cfg.tcRes
  rw [unscopedBufs_eq, hRst, (K (F := F)).Otc_end d (le_refl 1)]
  simp only [main, wp_bind, wp_pure]
  iintro ⟨#Hctx, Hst, ⟨Hb, ⟨Hx, Ht, Ho, H1, H2, H3, H4⟩, -, -⟩, HG⟩
  ihave #Hlev := (SparseCore.Cfg.ctx_levAts (K := K (F := F)) (EH := EH) (P := P m R) κ) $$ Hctx
  -- the read shares for the two SparseCores, the remainder kept; the flat output as its rows
  ihave Hx' := (pointsTo_toks_split fullShare 2) $$ Hx
  icases Hx' with ⟨Hxd, Hxs⟩
  ihave Ht' := (pointsTo_toks_split fullShare 2) $$ Ht
  icases Ht' with ⟨Htd, Hts⟩
  ihave Hor := (Entails.of_eq (o_rows d (m (oLoc d)))) $$ Ho
  -- the call
  iapply ((K (F := F)).wp_run (D (F := F)) 𝒱 (EH := EH) (P := P m R) κ d 0) $$ [Hst Hxs Hts Hor Hb Hxd Htd H1 H2 H3 H4 HG]
  isplitr; · iexact Hctx
  isplitl [Hst]; · iexact Hst
  isplitl [Hxs Hts Hor]
  · rw [st0_eq]
    isplitl [Hxs]; · iexact Hxs
    isplitl [Hts]; · iexact Hts
    iexact Hor
  iintro ⟨Hst, Hdn⟩
  ihave Hdn' := (Entails.of_eq (dn0_eq m R d)) $$ Hdn
  icases Hdn' with ⟨Hxs, Hts, Hrows⟩
  ihave Hx := (pointsTo_toks_join fullShare 2) $$ [Hxd Hxs]
  · isplitl [Hxd] <;> iassumption
  ihave Ht := (pointsTo_toks_join fullShare 2) $$ [Htd Hts]
  · isplitl [Htd] <;> iassumption
  ihave Hj := (rows_join m R d) $$ Hrows
  icases Hj with ⟨%g, %hg, Ho⟩
  ihave Hst' := (Entails.of_eq (show (K (F := F)).tcSt EH d ((0 : Fin 1).val + 1) = _ from hRst)) $$ Hst
  rw [(K (F := F)).Otc_end d (le_refl 1)]
  icases Hst' with ⟨⟨%W, %hW, HO⟩, Hrst⟩
  -- the reshape of the tokens
  iapply (wp_hlo_within 𝒱 (SparseCore.T d) none Set.univ (op := opTok) (S := S1) hTok (V := V0 m d)) $$ [Hb Hx H1]
  · isplitl [Hb]; · iexact Hb
    rw [held_S1]
    isplitl [Hx]; · iexact Hx
    iexact H1
  iintro ⟨Hb, Hheld⟩
  ihave Hh := (Entails.of_eq (held_S1 (F := F) d _)) $$ Hheld
  icases Hh with ⟨Hx, H1⟩
  rw [wp_ret]; imodintro
  -- the counting kernel's region
  iapply (wp_region_main m d _) $$ [Hb H1 H2 HO HG Hx Ht Ho H3 H4 Hrst]
  isplitr [Hb H1 H2 HO HG]
  swap
  · isplitl [Hb]; · iexact Hb
    isplitl [H1 H2 HO]
    · isplitl [H1 H2]
      · isplitl [H1]; · iexact H1
        iexact H2
      iexists W; isplitr; · ipureintro; exact hW
      iexact HO
    isplitr; · iexact Hlev
    iexact HG
  iintro ⟨Hb, ⟨H1, H2⟩, HO⟩
  -- the reshape of the flat output
  iapply (wp_hlo_within 𝒱 (SparseCore.T d) none Set.univ (op := opFlat) (S := S3) hFlat (V := Vg m d g)) $$ [Hb Ho H3]
  · isplitl [Hb]; · iexact Hb
    rw [held_S3, Vg_o, Vg_v3]
    isplitl [Ho]; · iexact Ho
    iexact H3
  iintro ⟨Hb, Hheld⟩
  ihave Hh := (Entails.of_eq (held_S3 (F := F) d _)) $$ Hheld
  icases Hh with ⟨Ho, H3⟩
  rw [wp_ret]; imodintro
  -- the reshape of the counts
  iapply (wp_hlo_within 𝒱 (SparseCore.T d) none Set.univ (op := opLen) (S := S4) hLen (V := Vh m d (lenArr m d))) $$ [Hb H2 H4]
  · isplitl [Hb]; · iexact Hb
    rw [held_S4, Vh_v2, Vh_v4]
    isplitl [H2]; · iexact H2
    iexact H4
  iintro ⟨Hb, Hheld⟩
  ihave Hh := (Entails.of_eq (held_S4 (F := F) d _)) $$ Hheld
  icases Hh with ⟨H2, H4⟩
  rw [wp_ret]; imodintro; imodintro
  isplitl [HO Hrst]
  · isplitl [HO]; · iexact HO
    iexact Hrst
  unfold FIN
  isplitl [Hx]; · rw [← tok_x m d]; iexact Hx
  isplitl [Ht]; · iexact Ht
  iexists g; isplitr; · ipureintro; exact hg
  isplitl [H3]; · iexact H3
  iexact H4

/-! ## Reading the final memory -/

def fq (d : Dev nD) (s' : Phys nD τ sig (Elt F)) : Prop :=
  s'.mem.mem (xLoc d) = m (xLoc d) ∧ s'.mem.mem (tLoc d) = m (tLoc d)
    ∧ ∃ g, RowsAt R d g ∧ s'.mem.mem (v3Loc d) = out3 m d g ∧ s'.mem.mem (v4Loc d) = out4 m d (lenArr m d)

theorem hfin (d : Dev nD) (s' : Phys nD τ sig (Elt F)) : iprop(FIN m R d ∗ SI s') ⊢ (⌜fq m R d s'⌝ : sProp 𝕄) := by
  unfold FIN
  iintro ⟨⟨Hx, Ht, %g, %hg, H3, H4⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (persistent_entails_right (SI_pointsTo_agree (st := s') (ℓ := v3Loc d) (I := Finset.univ) (q := fullShare) (f := out3 m d g))) $$ [HSI H3]
  · isplitl [HSI] <;> iassumption
  icases H with ⟨%h3, HSI, -⟩
  ihave H := (SI_pointsTo_agree (st := s') (ℓ := v4Loc d) (I := Finset.univ) (q := fullShare) (f := out4 m d (lenArr m d))) $$ [HSI H4]
  · isplitl [HSI] <;> iassumption
  icases H with %h4
  ipureintro
  exact ⟨funext fun i => h1 i (Finset.mem_univ i), funext fun i => h2 i (Finset.mem_univ i), g, hg,
    funext fun i => h3 i (Finset.mem_univ i), funext fun i => h4 i (Finset.mem_univ i)⟩

/-! ## The program's run -/

/-- What every final memory satisfies, on every device: tokens and table as launched; the first result the reshape of a
    flat output that agrees with the rows the tiles gave back; the second the reshape of the counting pipeline's result. -/
def QC : PUnit × MemSt nD τ sig (Elt F) → Prop := fun r => ∀ c : Dev nD,
  r.2.mem (xLoc c) = m (xLoc c) ∧ r.2.mem (tLoc c) = m (tLoc c)
    ∧ ∃ g, RowsAt R c g ∧ r.2.mem (v3Loc c) = out3 m c g ∧ r.2.mem (v4Loc c) = out4 m c (lenArr m c)

theorem run_gen [∀ e, Nonempty (Elt F e)] (hT : (K (F := F)).TileObl (D (F := F)) 𝒱 (P m R) v₀ 0) :
    θ_run (Cert.Kernel.defs (F := F)) (Cert.Kernel.threads (F := F)) ⟨m, fun _ => 0, ρ⟩ (QC m R) :=
  SparseCore.Cfg.θ_run_sc (K := K (F := F)) (D := D (F := F)) (𝒱 := 𝒱) (EH := EH) (P := P m R) facts v₀
    (fun q hq => match q with | 0 => nomatch hq)
    (fun q _ => match q with | 0 => hT)
    (fun q _ => match q with | 0 => SparseCore.Cfg.VecSplit.of_plain (vecSplit m R))
    m ρ main (G (F := F)) (FIN m R) (u₀ (F := F)) (sep_elim_left.trans (hu₀ m R)) (hmain m ρ R) (fq m R) (hfin m R) (QC m R) (fun _ h => h)

/-- The frame: the program runs to the end from any launch memory with every counter at zero, and the tokens and the
    table end as launched. -/
theorem run_frame [∀ e, Nonempty (Elt F e)] (hT : (K (F := F)).TileObl (D (F := F)) 𝒱 (P m R) v₀ 0) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (Cert.Kernel.defs (F := F)) _ _).mono (fun _ h c => ⟨(h c).1, (h c).2.1⟩) (run_gen m ρ R hT)

end Cert.Proof.KB

end
-- ==== Proof.PreB.lean ====
/-
  What the tile kernel's gathers need of the launch memory: every token names a row of the table.
-/
import proofs.«206347_g23639499997337_cont_sun_m_514_14_alg».proof.Proof.SetupB

noncomputable section

namespace Cert.Proof.KB

open Cert.Kernel Idealize.ShloMosaic

variable {F : FTy → Type}

/-- every token, read as an unsigned word, is below the table's 100000 rows -/
def PreOK (m : (ℓ : Loc nD τ sig) → Buf (Elt F) ℓ) : Prop :=
  ∀ (d : Dev nD) (j : S4096x200.Idx), (m (xLoc d) j).toNat < 100000

end Cert.Proof.KB

end
-- ==== Proof.PreLemB.lean ====
/-
  The precondition gives what the tile kernel's gathers need: a token that, read signed, lies in [0, 99999] is, read
  unsigned, below 100000.
-/
import proofs.«206347_g23639499997337_cont_sun_m_514_14_alg».proof.Proof.PreB
import proofs.«206347_g23639499997337_cont_sun_m_514_14_alg».proof.Proof.RefPre

namespace Cert.Proof.KB

open Cert.Kernel Idealize.ShloMosaic

/-- a 32-bit word whose signed value lies in [0, 99999] has unsigned value below 100000 -/
theorem toNat_lt_of_toInt (w : BitVec 32) (h0 : 0 ≤ w.toInt) (h9 : w.toInt ≤ 99999) : w.toNat < 100000 := by
  have hc := BitVec.toInt_eq_toNat_cond w
  have hlt := w.isLt
  split at hc <;> omega

theorem preOK_of_pre (m : (ℓ : Loc nD τ sig) → Buf (Elt Bits) ℓ) (h : Cert.Pre_Kernel m) : PreOK (F := Bits) m := by
  intro d j
  obtain ⟨h0, h9⟩ := Cert.Proof.Ref.token_bounds (F := Bits) (m (xLoc d)) (m (tLoc d)) (h d) j
  exact toNat_lt_of_toInt _ h0 h9

end Cert.Proof.KB
-- ==== Proof.TileDefsB.lean ====
import proofs.«206347_g23639499997337_cont_sun_m_514_14_alg».proof.Proof.PreB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (R : RowProp (F := F)) (d : Dev nD) (L : grid0.Coords)

/-- the tile the body runs on: SparseCore L 0, vector subcore L 1 -/
abbrev cT : Fin τ.nSC := (L 0).castLE hcore0
abbrev sT : Fin τ.nSub := (L 1).castLE hsub0
abbrev thr : Thread nD τ := V d (cT L) (sT L)

local notation "xW" => (Memref.whole Cert.Kernel.main_arg0_scv : Memref Cert.Kernel.sig Kind.scVector Space.hbm Cert.Kernel.S4096x200 EltTy.i32)
local notation "tW" => (Memref.whole Cert.Kernel.main_arg1_scv : Memref Cert.Kernel.sig Kind.scVector Space.hbm Cert.Kernel.S100000x128 EltTy.f32)
local notation "oW" => (Memref.whole Cert.Kernel.main_v0_scv : Memref Cert.Kernel.sig Kind.scVector Space.hbm Cert.Kernel.S4096x25600 EltTy.f32)
local notation "i0W" => (Memref.whole Cert.Kernel.cc0_scratch0 : Memref Cert.Kernel.sig Kind.scVector Space.vmem Cert.Kernel.S200 EltTy.i32)
local notation "i1W" => (Memref.whole Cert.Kernel.cc0_scratch1 : Memref Cert.Kernel.sig Kind.scVector Space.vmem Cert.Kernel.S200 EltTy.i32)
local notation "e0W" => (Memref.whole Cert.Kernel.cc0_scratch2 : Memref Cert.Kernel.sig Kind.scVector Space.vmem Cert.Kernel.S200x128 EltTy.f32)
local notation "e1W" => (Memref.whole Cert.Kernel.cc0_scratch3 : Memref Cert.Kernel.sig Kind.scVector Space.vmem Cert.Kernel.S200x128 EltTy.f32)
local notation "o0W" => (Memref.whole Cert.Kernel.cc0_scratch4 : Memref Cert.Kernel.sig Kind.scVector Space.vmem Cert.Kernel.S25600 EltTy.f32)
local notation "o1W" => (Memref.whole Cert.Kernel.cc0_scratch5 : Memref Cert.Kernel.sig Kind.scVector Space.vmem Cert.Kernel.S25600 EltTy.f32)

/-- the table whole, as each gather slices it -/
abbrev tSl : Memref sig .scVector .hbm S100000x128 .f32 :=
  (tW).slice (Rect.unit (s := S100000x128) ![0, 0] S100000x128.size inb_S100000x128_S100000x128_0_0) (fun _ => rfl)

/-- the output row the even slot copies out at pair-trip t, and the odd slot's, as the program slices them -/
abbrev oRow0 (t : Fin k0_t1_loop.trips) : Memref sig .scVector .hbm S25600 .f32 :=
  ((oW).slice (Rect.unit (s := S4096x25600) (k0_off3 L t 0#32) S1x25600.size (k0_off3_inb L t 0)) (fun _ => rfl)).squeeze S25600 squeezes_S1x25600_S25600
abbrev oRow1 (t : Fin k0_t1_loop.trips) : Memref sig .scVector .hbm S25600 .f32 :=
  ((oW).slice (Rect.unit (s := S4096x25600) (k0_off3 L t 1#32) S1x25600.size (k0_off3_inb L t 1)) (fun _ => rfl)).squeeze S25600 squeezes_S1x25600_S25600

/-- row n of this tile's 128 rows, as a batch row: worker · 128 + n (reduced mod 4096 to be total) -/
def rowB (n : ℕ) : Fin 4096 := ⟨((256 * (L 1).val + 128 * (L 0).val) + n) % 4096, Nat.mod_lt _ (by decide)⟩

theorem trips64 : k0_t1_loop.trips = 64 := by decide

theorem cond1_iff : ∀ t : Fin k0_t1_loop.trips, k0_cond1 t = 1#1 ↔ 1 ≤ t.val := by decide
theorem cond3_iff : ∀ t : Fin k0_t1_loop.trips, k0_cond3 t = 1#1 ↔ 1 ≤ t.val := by decide
theorem cond2_iff : ∀ t : Fin k0_t1_loop.trips, k0_cond2 t = 1#1 ↔ t.val + 1 < 64 := by decide
theorem cond4_iff : ∀ t : Fin k0_t1_loop.trips, k0_cond4 t = 1#1 ↔ t.val + 1 < 64 := by decide

end Cert.Proof.KB

end
-- ==== Proof.TileInvB.lean ====
import proofs.«206347_g23639499997337_cont_sun_m_514_14_alg».proof.Proof.TileDefsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (d : Dev nD) (L : grid0.Coords)

local notation "xW" => (Memref.whole Cert.Kernel.main_arg0_scv : Memref Cert.Kernel.sig Kind.scVector Space.hbm Cert.Kernel.S4096x200 EltTy.i32)
local notation "tW" => (Memref.whole Cert.Kernel.main_arg1_scv : Memref Cert.Kernel.sig Kind.scVector Space.hbm Cert.Kernel.S100000x128 EltTy.f32)
local notation "oW" => (Memref.whole Cert.Kernel.main_v0_scv : Memref Cert.Kernel.sig Kind.scVector Space.hbm Cert.Kernel.S4096x25600 EltTy.f32)
local notation "i0W" => (Memref.whole Cert.Kernel.cc0_scratch0 : Memref Cert.Kernel.sig Kind.scVector Space.vmem Cert.Kernel.S200 EltTy.i32)
local notation "i1W" => (Memref.whole Cert.Kernel.cc0_scratch1 : Memref Cert.Kernel.sig Kind.scVector Space.vmem Cert.Kernel.S200 EltTy.i32)
local notation "e0W" => (Memref.whole Cert.Kernel.cc0_scratch2 : Memref Cert.Kernel.sig Kind.scVector Space.vmem Cert.Kernel.S200x128 EltTy.f32)
local notation "e1W" => (Memref.whole Cert.Kernel.cc0_scratch3 : Memref Cert.Kernel.sig Kind.scVector Space.vmem Cert.Kernel.S200x128 EltTy.f32)
local notation "o0W" => (Memref.whole Cert.Kernel.cc0_scratch4 : Memref Cert.Kernel.sig Kind.scVector Space.vmem Cert.Kernel.S25600 EltTy.f32)
local notation "o1W" => (Memref.whole Cert.Kernel.cc0_scratch5 : Memref Cert.Kernel.sig Kind.scVector Space.vmem Cert.Kernel.S25600 EltTy.f32)

variable (qx q0 q1 : PosShare TreeShare) (O : CellTallies nD τ sig (HIx 1)) (W : Waits sig (HIx 1))

/-! ## What is held between two pair-trips

Before pair-trip i: both gathers for rows 2i and 2i+1 are in flight (none after the last trip); for i ≥ 1 both
copies-out of rows 2i-2 and 2i-1 are in flight; rows of earlier trips are finished, rows from trip i on untouched. -/

/-- an untouched output row, held on exactly the set the copy-out writes -/
def rowIn0 (t : Fin k0_t1_loop.trips) : sProp 𝕄 := (oRow0 L t).view.loc (thr d L) ↦[(oRow0 L t).view.set]{fullShare} m (oLoc d)
def rowIn1 (t : Fin k0_t1_loop.trips) : sProp 𝕄 := (oRow1 L t).view.loc (thr d L) ↦[(oRow1 L t).view.set]{fullShare} m (oLoc d)
/-- a finished output row, at whatever the copy-out left -/
def rowFin0 (t : Fin k0_t1_loop.trips) : sProp 𝕄 := iprop(∃ g, (oRow0 L t).view.loc (thr d L) ↦[(oRow0 L t).view.set]{fullShare} g)
def rowFin1 (t : Fin k0_t1_loop.trips) : sProp 𝕄 := iprop(∃ g, (oRow1 L t).view.loc (thr d L) ↦[(oRow1 L t).view.set]{fullShare} g)

def rowsTodo (i : ℕ) : sProp 𝕄 :=
  bigSep (Finset.univ.filter fun t : Fin k0_t1_loop.trips => i ≤ t.val) fun t => iprop(rowIn0 m d L t ∗ rowIn1 m d L t)
def rowsDone (i : ℕ) : sProp 𝕄 :=
  bigSep (Finset.univ.filter fun t : Fin k0_t1_loop.trips => t.val + 1 < i) fun t => iprop(rowFin0 (F := F) d L t ∗ rowFin1 (F := F) d L t)

/-- slot 0's gather in flight: its destination, its index list and its share of the table are the flight's to deliver -/
def gathFl0 : sProp 𝕄 :=
  iprop(∃ fe fi, ((tW).view.loc (thr d L) ↦[Finset.univ \ (tSl).view.set]{q0} m (tLoc d))
      ∗ Transfers.Flight countersEmb (thr d L) (SemLoc.dma cc0_scratch6.sem) default 819200
          iprop((((e0W).view.loc (thr d L) ↦{fullShare} fe) ∗ ((i0W).view.loc (thr d L) ↦{fullShare} fi))
            ∗ ((tW).view.loc (thr d L) ↦[(tSl).view.set]{q0} m (tLoc d))))
/-- slot 0's gather at rest -/
def gathRest0 : sProp 𝕄 :=
  iprop(((tW).view.loc (thr d L) ↦{q0} m (tLoc d)) ∗ semVal (thr d L, SemLoc.dma cc0_scratch6.sem) 0
      ∗ (∃ fe, (e0W).view.loc (thr d L) ↦{fullShare} fe) ∗ (∃ fi, (i0W).view.loc (thr d L) ↦{fullShare} fi))
def gath0 (i : ℕ) : sProp 𝕄 := if i < 64 then gathFl0 m d L q0 else gathRest0 m d L q0
/-- slot 0's copy-out: none yet -/
def outNone0 : sProp 𝕄 :=
  iprop(semVal (thr d L, SemLoc.dma cc0_scratch8.sem) 0 ∗ ∃ fo, (o0W).view.loc (thr d L) ↦{fullShare} fo)
/-- slot 0's copy-out of pair-trip t in flight: the row it writes and the flat buffer it reads are the flight's to deliver -/
def outFl0 (t : Fin k0_t1_loop.trips) : sProp 𝕄 :=
  iprop(∃ g fo, ((o0W).view.loc (thr d L) ↦[Finset.univ \ (o0W).view.set]{fullShare} fo)
      ∗ Transfers.Flight countersEmb (thr d L) (SemLoc.dma cc0_scratch8.sem) default 819200
          iprop(((oRow0 L t).view.loc (thr d L) ↦[(oRow0 L t).view.set]{fullShare} g)
            ∗ ((o0W).view.loc (thr d L) ↦[(o0W).view.set]{fullShare} fo)))
def out0 (i : ℕ) : sProp 𝕄 :=
  if i = 0 then outNone0 (F := F) d L else iprop(∃ t : Fin k0_t1_loop.trips, ⌜t.val + 1 = i⌝ ∗ outFl0 (F := F) d L t)
/-- slot 1's gather in flight: its destination, its index list and its share of the table are the flight's to deliver -/
def gathFl1 : sProp 𝕄 :=
  iprop(∃ fe fi, ((tW).view.loc (thr d L) ↦[Finset.univ \ (tSl).view.set]{q1} m (tLoc d))
      ∗ Transfers.Flight countersEmb (thr d L) (SemLoc.dma cc0_scratch7.sem) default 819200
          iprop((((e1W).view.loc (thr d L) ↦{fullShare} fe) ∗ ((i1W).view.loc (thr d L) ↦{fullShare} fi))
            ∗ ((tW).view.loc (thr d L) ↦[(tSl).view.set]{q1} m (tLoc d))))
/-- slot 1's gather at rest -/
def gathRest1 : sProp 𝕄 :=
  iprop(((tW).view.loc (thr d L) ↦{q1} m (tLoc d)) ∗ semVal (thr d L, SemLoc.dma cc0_scratch7.sem) 0
      ∗ (∃ fe, (e1W).view.loc (thr d L) ↦{fullShare} fe) ∗ (∃ fi, (i1W).view.loc (thr d L) ↦{fullShare} fi))
def gath1 (i : ℕ) : sProp 𝕄 := if i < 64 then gathFl1 m d L q1 else gathRest1 m d L q1
/-- slot 1's copy-out: none yet -/
def outNone1 : sProp 𝕄 :=
  iprop(semVal (thr d L, SemLoc.dma cc0_scratch9.sem) 0 ∗ ∃ fo, (o1W).view.loc (thr d L) ↦{fullShare} fo)
/-- slot 1's copy-out of pair-trip t in flight: the row it writes and the flat buffer it reads are the flight's to deliver -/
def outFl1 (t : Fin k0_t1_loop.trips) : sProp 𝕄 :=
  iprop(∃ g fo, ((o1W).view.loc (thr d L) ↦[Finset.univ \ (o1W).view.set]{fullShare} fo)
      ∗ Transfers.Flight countersEmb (thr d L) (SemLoc.dma cc0_scratch9.sem) default 819200
          iprop(((oRow1 L t).view.loc (thr d L) ↦[(oRow1 L t).view.set]{fullShare} g)
            ∗ ((o1W).view.loc (thr d L) ↦[(o1W).view.set]{fullShare} fo)))
def out1 (i : ℕ) : sProp 𝕄 :=
  if i = 0 then outNone1 (F := F) d L else iprop(∃ t : Fin k0_t1_loop.trips, ⌜t.val + 1 = i⌝ ∗ outFl1 (F := F) d L t)
/-- what the tile owes, with the waits it has made on its own semaphores recorded -/
def owesEx : sProp 𝕄 := iprop(∃ W', ⌜∀ p ∈ W', p ∈ W ∨ p.2 = none⌝ ∗ owes (thr d L) O W')

/-- the pair loop's invariant -/
def pinv (i : ℕ) (_ : Unit) : sProp 𝕄 :=
  iprop(Transfers.MayWaits (thr d L) (none : HIx 1) O
    ∗ ((xW).view.loc (thr d L) ↦{qx} m (xLoc d))
    ∗ gath0 m d L q0 i ∗ gath1 m d L q1 i ∗ out0 (F := F) d L i ∗ out1 (F := F) d L i
    ∗ rowsTodo m d L i ∗ rowsDone (F := F) d L i
    ∗ semVal (thr d L, SemLoc.dma cc0_scoped2.sem) 0 ∗ semVal (thr d L, SemLoc.dma cc0_scoped3.sem) 0
    ∗ owesEx (F := F) d L O W)

/-! ## Which trips are before, at and after a given one -/

theorem filter_le_succ {n : ℕ} (k : Fin n) :
    (Finset.univ.filter fun t : Fin n => k.val ≤ t.val) = insert k (Finset.univ.filter fun t : Fin n => k.val + 1 ≤ t.val) := by
  ext t; simp only [Finset.mem_filter, Finset.mem_univ, true_and, Finset.mem_insert, Fin.ext_iff]; omega
theorem not_mem_filter_succ {n : ℕ} (k : Fin n) : k ∉ (Finset.univ.filter fun t : Fin n => k.val + 1 ≤ t.val) := by
  simp
theorem filter_lt_succ {n : ℕ} (k' : Fin n) :
    (Finset.univ.filter fun t : Fin n => t.val + 1 < k'.val + 2) = insert k' (Finset.univ.filter fun t : Fin n => t.val + 1 < k'.val + 1) := by
  ext t; simp only [Finset.mem_filter, Finset.mem_univ, true_and, Finset.mem_insert, Fin.ext_iff]; omega
theorem not_mem_filter_lt {n : ℕ} (k' : Fin n) : k' ∉ (Finset.univ.filter fun t : Fin n => t.val + 1 < k'.val + 1) := by
  simp

end Cert.Proof.KB

end
-- ==== Proof.InnerB0.lean ====
import proofs.«206347_g23639499997337_cont_sun_m_514_14_alg».proof.Proof.SetupB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

/-! ## Lane bounds

Every indexed access of the transposition is in range because its index vectors are sums of a constant lane vector
and a scalar: lanes of a rotation of 0..15 are at most 15; lanes of a write diagonal (rotation · 200 + lane) are at
most 3015; the scalars are a row offset at most 184, a column offset at most 112, and a flat offset at most 22584. -/

private theorem add_bc_lt {v : IVec S16 32} {c : BitVec 32} {A B N : Nat} (hv : ∀ x, (v x).toNat ≤ A) (hc : c.toNat ≤ B) (hN : A + B < N)
    (hN' : N ≤ 4294967296) : ∀ x, ((addi v (broadcast S16 c)) x).toNat < N := by
  intro x
  have h1 := hv x
  show ((v x) + c).toNat < N
  rw [BitVec.toNat_add]
  have : ((v x).toNat + c.toNat) % 4294967296 = (v x).toNat + c.toNat := Nat.mod_eq_of_lt (by omega)
  omega

private theorem chk_rows_cols {rows cols : IVec S16 32} (hr : ∀ x, (rows x).toNat < 200) (hc : ∀ x, (cols x).toNat < 128) :
    ∀ a x, ((![rows, cols] : Fin 2 → IVec S16 32) a x).toNat < S200x128.size a := by
  intro a x
  match a with
  | ⟨0, _⟩ => exact hr x
  | ⟨1, _⟩ => exact hc x

private theorem chk_flat {idx : IVec S16 32} (h : ∀ x, (idx x).toNat < 25600) :
    ∀ a x, ((![idx] : Fin 1 → IVec S16 32) a x).toNat < S25600.size a := by
  intro a x
  match a with
  | ⟨0, _⟩ => exact h x

set_option hygiene false in
/-- An index condition of the transposition, from the lane bounds in the context: a condition on one index vector is a
    flat offset's, a condition on two is a (row, column) pair's. -/
local elab "chk_disch" : tactic => do
  let g ← Lean.Elab.Tactic.getMainTarget
  if g.getAppNumArgs == 1 then
    Lean.Elab.Tactic.evalTactic (← `(tactic| exact chk_flat (add_bc_lt (A := 3015) (B := 22584) (by assumption) (by (try clear hrows); decide +revert) (by decide) (by decide))))
  else
    Lean.Elab.Tactic.evalTactic (← `(tactic| exact chk_rows_cols
      (by first | assumption | exact add_bc_lt (A := 15) (B := 184) (by assumption) (by decide +revert) (by decide) (by decide))
      (add_bc_lt (A := 15) (B := 112) (by assumption) (by decide) (by decide) (by decide))))

variable (m : (ℓ : Loc nD τ sig) → Buf (Elt F) ℓ) (d : Dev nD) (L : grid0.Coords)

abbrev cV0 : Fin τ.nSC := (L 0).castLE hcore0
abbrev jV0 : Fin τ.nSub := (L 1).castLE hsub0
abbrev thr0 : Thread nD τ := V d (cV0 L) (jV0 L)

local notation "xW" => (Memref.whole Cert.Kernel.main_arg0_scv : Memref Cert.Kernel.sig Kind.scVector Space.hbm Cert.Kernel.S4096x200 EltTy.i32)
local notation "tW" => (Memref.whole Cert.Kernel.main_arg1_scv : Memref Cert.Kernel.sig Kind.scVector Space.hbm Cert.Kernel.S100000x128 EltTy.f32)
local notation "oW" => (Memref.whole Cert.Kernel.main_v0_scv : Memref Cert.Kernel.sig Kind.scVector Space.hbm Cert.Kernel.S4096x25600 EltTy.f32)
local notation "i0W" => (Memref.whole Cert.Kernel.cc0_scratch0 : Memref Cert.Kernel.sig Kind.scVector Space.vmem Cert.Kernel.S200 EltTy.i32)
local notation "i1W" => (Memref.whole Cert.Kernel.cc0_scratch1 : Memref Cert.Kernel.sig Kind.scVector Space.vmem Cert.Kernel.S200 EltTy.i32)
local notation "e0W" => (Memref.whole Cert.Kernel.cc0_scratch2 : Memref Cert.Kernel.sig Kind.scVector Space.vmem Cert.Kernel.S200x128 EltTy.f32)
local notation "e1W" => (Memref.whole Cert.Kernel.cc0_scratch3 : Memref Cert.Kernel.sig Kind.scVector Space.vmem Cert.Kernel.S200x128 EltTy.f32)
local notation "o0W" => (Memref.whole Cert.Kernel.cc0_scratch4 : Memref Cert.Kernel.sig Kind.scVector Space.vmem Cert.Kernel.S25600 EltTy.f32)
local notation "o1W" => (Memref.whole Cert.Kernel.cc0_scratch5 : Memref Cert.Kernel.sig Kind.scVector Space.vmem Cert.Kernel.S25600 EltTy.f32)

variable [FloatOps F]

set_option hygiene false in
/-- one indexed load: a load of the whole scratch, then the lanes picked -/
local macro "tr_load" : tactic => `(tactic| (
  rw [SparseCore.vectorLoadIdx_bind (c := thr0 d L)]
  sl_exec (disch := chk_disch)))
set_option hygiene false in
/-- one indexed store: a load and a store of the whole scratch; what the scratch then holds is kept as some contents -/
local macro "tr_store" : tactic => `(tactic| (
  rw [SparseCore.vectorStoreIdx_bind (c := thr0 d L)]
  sl_exec (disch := chk_disch)
  ihave Hog : (∃ fo2, (o0W).view.loc (thr0 d L) ↦{fullShare} fo2) $$ [Ho]
  · iexists _; iexact Ho
  icases Hog with ⟨%fo2, Ho⟩))

/-- the transposition keeps both scratches held: the gathered rows unchanged, the flat buffer at some contents -/
def tinv0 (O : CellTallies nD τ sig (HIx 1)) (W : Waits sig (HIx 1)) (fe : Buf (Elt F) ((e0W).view.loc (thr0 d L))) (_ : Nat) (_ : Unit) : sProp 𝕄 :=
  iprop(Transfers.MayWaits (thr0 d L) (none : HIx 1) O
    ∗ ((e0W).view.loc (thr0 d L) ↦{fullShare} fe)
    ∗ (∃ fo, (o0W).view.loc (thr0 d L) ↦{fullShare} fo)
    ∗ owes (thr0 d L) O W)

set_option sl_exec.dischHeartbeats 100000 in
set_option maxHeartbeats 4000000 in
theorem transpose0 (O : CellTallies nD τ sig (HIx 1)) (W : Waits sig (HIx 1))
    (fe : Buf (Elt F) ((e0W).view.loc (thr0 d L))) (fo : Buf (Elt F) ((o0W).view.loc (thr0 d L)))
    (v2 : BitVec 32) (v3 v21 v39 v57 v75 v93 v111 v129 v147 v165 v183 v201 v219 v237 v255 v273 v291 v294 v297 v300 v303 v306 v309 v312 v315 v318 v321 v324 v327 v330 v333 v336 v339 : IVec S16 32) (c0 c1 : BitVec 32) (k0_t1 : Fin k0_t1_loop.trips)
    (hv3 : ∀ x, (v3 x).toNat ≤ 15) (hv21 : ∀ x, (v21 x).toNat ≤ 15) (hv39 : ∀ x, (v39 x).toNat ≤ 15) (hv57 : ∀ x, (v57 x).toNat ≤ 15) (hv75 : ∀ x, (v75 x).toNat ≤ 15) (hv93 : ∀ x, (v93 x).toNat ≤ 15) (hv111 : ∀ x, (v111 x).toNat ≤ 15) (hv129 : ∀ x, (v129 x).toNat ≤ 15) (hv147 : ∀ x, (v147 x).toNat ≤ 15) (hv165 : ∀ x, (v165 x).toNat ≤ 15) (hv183 : ∀ x, (v183 x).toNat ≤ 15) (hv201 : ∀ x, (v201 x).toNat ≤ 15) (hv219 : ∀ x, (v219 x).toNat ≤ 15) (hv237 : ∀ x, (v237 x).toNat ≤ 15) (hv255 : ∀ x, (v255 x).toNat ≤ 15) (hv273 : ∀ x, (v273 x).toNat ≤ 15) (hv291 : ∀ x, (v291 x).toNat ≤ 15)
    (hv294 : ∀ x, (v294 x).toNat ≤ 3015) (hv297 : ∀ x, (v297 x).toNat ≤ 3015) (hv300 : ∀ x, (v300 x).toNat ≤ 3015) (hv303 : ∀ x, (v303 x).toNat ≤ 3015) (hv306 : ∀ x, (v306 x).toNat ≤ 3015) (hv309 : ∀ x, (v309 x).toNat ≤ 3015) (hv312 : ∀ x, (v312 x).toNat ≤ 3015) (hv315 : ∀ x, (v315 x).toNat ≤ 3015) (hv318 : ∀ x, (v318 x).toNat ≤ 3015) (hv321 : ∀ x, (v321 x).toNat ≤ 3015) (hv324 : ∀ x, (v324 x).toNat ≤ 3015) (hv327 : ∀ x, (v327 x).toNat ≤ 3015) (hv330 : ∀ x, (v330 x).toNat ≤ 3015) (hv333 : ∀ x, (v333 x).toNat ≤ 3015) (hv336 : ∀ x, (v336 x).toNat ≤ 3015) (hv339 : ∀ x, (v339 x).toNat ≤ 3015) :
    (iprop(Transfers.MayWaits (thr0 d L) (none : HIx 1) O
        ∗ ((e0W).view.loc (thr0 d L) ↦{fullShare} fe) ∗ ((o0W).view.loc (thr0 d L) ↦{fullShare} fo)
        ∗ owes (thr0 d L) O W) : sProp 𝕄)
      ⊢ wp frame (wpE (defs₀ (F := F)) 𝒱₀ (thr0 d L) none) Set.univ
          (Scf.Loop.for k0_t2_loop k0_t2_ok ⟨⟩ (k0_t2_body L xW (Memref.isWhole_whole _) tW (Memref.isWhole_whole _) oW (Memref.isWhole_whole _)
            i0W (Memref.isWhole_whole _) i1W (Memref.isWhole_whole _) e0W (Memref.isWhole_whole _) e1W (Memref.isWhole_whole _)
            o0W (Memref.isWhole_whole _) o1W (Memref.isWhole_whole _)
            cc0_scratch6 cc0_scratch7 cc0_scratch8 cc0_scratch9 cc0_scoped0 cc0_scoped1 cc0_scoped2 cc0_scoped3
            v2 v3 v21 v39 v57 v75 v93 v111 v129 v147 v165 v183 v201 v219 v237 v255 v273 v291 v294 v297 v300 v303 v306 v309 v312 v315 v318 v321 v324 v327 v330 v333 v336 v339 c0 c1 k0_t1))
          fun _ => iprop(((e0W).view.loc (thr0 d L) ↦{fullShare} fe) ∗ (∃ fo', (o0W).view.loc (thr0 d L) ↦{fullShare} fo')
            ∗ owes (thr0 d L) O W) := by
  iintro ⟨Hmw, He, Ho, HO⟩
  sl_for (tinv0 d L O W fe) $$ [Hmw He Ho HO]
  case region =>
    intro k _
    unfold tinv0
    iintro ⟨Hmw, He, ⟨%fo', Ho⟩, HO⟩
    sl_exec (disch := chk_disch)
    have hrows : ∀ x, ((transpose0.sl.v388 v3 k) x).toNat < 200 :=
      add_bc_lt (A := 15) (B := 184) hv3 (by decide +revert) (by decide) (by decide)
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    sl_step
    isplitl [Hmw]; · iexact Hmw
    isplitl [He]; · iexact He
    isplitl [Ho]; · iexists _; iexact Ho
    iexact HO
  unfold tinv0
  isplitl [Hmw He Ho HO]
  · isplitl [Hmw]; · iexact Hmw
    isplitl [He]; · iexact He
    isplitl [Ho]; · iexists _; iexact Ho
    iexact HO
  iintro %_ HI
  icases HI with ⟨-, He, Ho, HO⟩
  isplitl [He]; · iexact He
  isplitl [Ho]; · iexact Ho
  iexact HO

end Cert.Proof.KB

end
-- ==== Proof.InnerB1.lean ====
import proofs.«206347_g23639499997337_cont_sun_m_514_14_alg».proof.Proof.SetupB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

/-! ## Lane bounds

Every indexed access of the transposition is in range because its index vectors are sums of a constant lane vector
and a scalar: lanes of a rotation of 0..15 are at most 15; lanes of a write diagonal (rotation · 200 + lane) are at
most 3015; the scalars are a row offset at most 184, a column offset at most 112, and a flat offset at most 22584. -/

private theorem add_bc_lt {v : IVec S16 32} {c : BitVec 32} {A B N : Nat} (hv : ∀ x, (v x).toNat ≤ A) (hc : c.toNat ≤ B) (hN : A + B < N)
    (hN' : N ≤ 4294967296) : ∀ x, ((addi v (broadcast S16 c)) x).toNat < N := by
  intro x
  have h1 := hv x
  show ((v x) + c).toNat < N
  rw [BitVec.toNat_add]
  have : ((v x).toNat + c.toNat) % 4294967296 = (v x).toNat + c.toNat := Nat.mod_eq_of_lt (by omega)
  omega

private theorem chk_rows_cols {rows cols : IVec S16 32} (hr : ∀ x, (rows x).toNat < 200) (hc : ∀ x, (cols x).toNat < 128) :
    ∀ a x, ((![rows, cols] : Fin 2 → IVec S16 32) a x).toNat < S200x128.size a := by
  intro a x
  match a with
  | ⟨0, _⟩ => exact hr x
  | ⟨1, _⟩ => exact hc x

private theorem chk_flat {idx : IVec S16 32} (h : ∀ x, (idx x).toNat < 25600) :
    ∀ a x, ((![idx] : Fin 1 → IVec S16 32) a x).toNat < S25600.size a := by
  intro a x
  match a with
  | ⟨0, _⟩ => exact h x

set_option hygiene false in
/-- An index condition of the transposition, from the lane bounds in the context: a condition on one index vector is a
    flat offset's, a condition on two is a (row, column) pair's. -/
local elab "chk_disch" : tactic => do
  let g ← Lean.Elab.Tactic.getMainTarget
  if g.getAppNumArgs == 1 then
    Lean.Elab.Tactic.evalTactic (← `(tactic| exact chk_flat (add_bc_lt (A := 3015) (B := 22584) (by assumption) (by (try clear hrows); decide +revert) (by decide) (by decide))))
  else
    Lean.Elab.Tactic.evalTactic (← `(tactic| exact chk_rows_cols
      (by first | assumption | exact add_bc_lt (A := 15) (B := 184) (by assumption) (by decide +revert) (by decide) (by decide))
      (add_bc_lt (A := 15) (B := 112) (by assumption) (by decide) (by decide) (by decide))))

variable (m : (ℓ : Loc nD τ sig) → Buf (Elt F) ℓ) (d : Dev nD) (L : grid0.Coords)

abbrev cV1 : Fin τ.nSC := (L 0).castLE hcore0
abbrev jV1 : Fin τ.nSub := (L 1).castLE hsub0
abbrev thr1 : Thread nD τ := V d (cV1 L) (jV1 L)

local notation "xW" => (Memref.whole Cert.Kernel.main_arg0_scv : Memref Cert.Kernel.sig Kind.scVector Space.hbm Cert.Kernel.S4096x200 EltTy.i32)
local notation "tW" => (Memref.whole Cert.Kernel.main_arg1_scv : Memref Cert.Kernel.sig Kind.scVector Space.hbm Cert.Kernel.S100000x128 EltTy.f32)
local notation "oW" => (Memref.whole Cert.Kernel.main_v0_scv : Memref Cert.Kernel.sig Kind.scVector Space.hbm Cert.Kernel.S4096x25600 EltTy.f32)
local notation "i0W" => (Memref.whole Cert.Kernel.cc0_scratch0 : Memref Cert.Kernel.sig Kind.scVector Space.vmem Cert.Kernel.S200 EltTy.i32)
local notation "i1W" => (Memref.whole Cert.Kernel.cc0_scratch1 : Memref Cert.Kernel.sig Kind.scVector Space.vmem Cert.Kernel.S200 EltTy.i32)
local notation "e0W" => (Memref.whole Cert.Kernel.cc0_scratch2 : Memref Cert.Kernel.sig Kind.scVector Space.vmem Cert.Kernel.S200x128 EltTy.f32)
local notation "e1W" => (Memref.whole Cert.Kernel.cc0_scratch3 : Memref Cert.Kernel.sig Kind.scVector Space.vmem Cert.Kernel.S200x128 EltTy.f32)
local notation "o0W" => (Memref.whole Cert.Kernel.cc0_scratch4 : Memref Cert.Kernel.sig Kind.scVector Space.vmem Cert.Kernel.S25600 EltTy.f32)
local notation "o1W" => (Memref.whole Cert.Kernel.cc0_scratch5 : Memref Cert.Kernel.sig Kind.scVector Space.vmem Cert.Kernel.S25600 EltTy.f32)

variable [FloatOps F]

set_option hygiene false in
/-- one indexed load: a load of the whole scratch, then the lanes picked -/
local macro "tr_load" : tactic => `(tactic| (
  rw [SparseCore.vectorLoadIdx_bind (c := thr1 d L)]
  sl_exec (disch := chk_disch)))
set_option hygiene false in
/-- one indexed store: a load and a store of the whole scratch; what the scratch then holds is kept as some contents -/
local macro "tr_store" : tactic => `(tactic| (
  rw [SparseCore.vectorStoreIdx_bind (c := thr1 d L)]
  sl_exec (disch := chk_disch)
  ihave Hog : (∃ fo2, (o1W).view.loc (thr1 d L) ↦{fullShare} fo2) $$ [Ho]
  · iexists _; iexact Ho
  icases Hog with ⟨%fo2, Ho⟩))

/-- the transposition keeps both scratches held: the gathered rows unchanged, the flat buffer at some contents -/
def tinv1 (O : CellTallies nD τ sig (HIx 1)) (W : Waits sig (HIx 1)) (fe : Buf (Elt F) ((e1W).view.loc (thr1 d L))) (_ : Nat) (_ : Unit) : sProp 𝕄 :=
  iprop(Transfers.MayWaits (thr1 d L) (none : HIx 1) O
    ∗ ((e1W).view.loc (thr1 d L) ↦{fullShare} fe)
    ∗ (∃ fo, (o1W).view.loc (thr1 d L) ↦{fullShare} fo)
    ∗ owes (thr1 d L) O W)

set_option sl_exec.dischHeartbeats 100000 in
set_option maxHeartbeats 4000000 in
theorem transpose1 (O : CellTallies nD τ sig (HIx 1)) (W : Waits sig (HIx 1))
    (fe : Buf (Elt F) ((e1W).view.loc (thr1 d L))) (fo : Buf (Elt F) ((o1W).view.loc (thr1 d L)))
    (v2 : BitVec 32) (v3 v21 v39 v57 v75 v93 v111 v129 v147 v165 v183 v201 v219 v237 v255 v273 v291 v294 v297 v300 v303 v306 v309 v312 v315 v318 v321 v324 v327 v330 v333 v336 v339 : IVec S16 32) (c0 c1 : BitVec 32) (k0_t1 : Fin k0_t1_loop.trips)
    (hv3 : ∀ x, (v3 x).toNat ≤ 15) (hv21 : ∀ x, (v21 x).toNat ≤ 15) (hv39 : ∀ x, (v39 x).toNat ≤ 15) (hv57 : ∀ x, (v57 x).toNat ≤ 15) (hv75 : ∀ x, (v75 x).toNat ≤ 15) (hv93 : ∀ x, (v93 x).toNat ≤ 15) (hv111 : ∀ x, (v111 x).toNat ≤ 15) (hv129 : ∀ x, (v129 x).toNat ≤ 15) (hv147 : ∀ x, (v147 x).toNat ≤ 15) (hv165 : ∀ x, (v165 x).toNat ≤ 15) (hv183 : ∀ x, (v183 x).toNat ≤ 15) (hv201 : ∀ x, (v201 x).toNat ≤ 15) (hv219 : ∀ x, (v219 x).toNat ≤ 15) (hv237 : ∀ x, (v237 x).toNat ≤ 15) (hv255 : ∀ x, (v255 x).toNat ≤ 15) (hv273 : ∀ x, (v273 x).toNat ≤ 15) (hv291 : ∀ x, (v291 x).toNat ≤ 15)
    (hv294 : ∀ x, (v294 x).toNat ≤ 3015) (hv297 : ∀ x, (v297 x).toNat ≤ 3015) (hv300 : ∀ x, (v300 x).toNat ≤ 3015) (hv303 : ∀ x, (v303 x).toNat ≤ 3015) (hv306 : ∀ x, (v306 x).toNat ≤ 3015) (hv309 : ∀ x, (v309 x).toNat ≤ 3015) (hv312 : ∀ x, (v312 x).toNat ≤ 3015) (hv315 : ∀ x, (v315 x).toNat ≤ 3015) (hv318 : ∀ x, (v318 x).toNat ≤ 3015) (hv321 : ∀ x, (v321 x).toNat ≤ 3015) (hv324 : ∀ x, (v324 x).toNat ≤ 3015) (hv327 : ∀ x, (v327 x).toNat ≤ 3015) (hv330 : ∀ x, (v330 x).toNat ≤ 3015) (hv333 : ∀ x, (v333 x).toNat ≤ 3015) (hv336 : ∀ x, (v336 x).toNat ≤ 3015) (hv339 : ∀ x, (v339 x).toNat ≤ 3015) :
    (iprop(Transfers.MayWaits (thr1 d L) (none : HIx 1) O
        ∗ ((e1W).view.loc (thr1 d L) ↦{fullShare} fe) ∗ ((o1W).view.loc (thr1 d L) ↦{fullShare} fo)
        ∗ owes (thr1 d L) O W) : sProp 𝕄)
      ⊢ wp frame (wpE (defs₀ (F := F)) 𝒱₀ (thr1 d L) none) Set.univ
          (Scf.Loop.for k0_t3_loop k0_t3_ok ⟨⟩ (k0_t3_body L xW (Memref.isWhole_whole _) tW (Memref.isWhole_whole _) oW (Memref.isWhole_whole _)
            i0W (Memref.isWhole_whole _) i1W (Memref.isWhole_whole _) e0W (Memref.isWhole_whole _) e1W (Memref.isWhole_whole _)
            o0W (Memref.isWhole_whole _) o1W (Memref.isWhole_whole _)
            cc0_scratch6 cc0_scratch7 cc0_scratch8 cc0_scratch9 cc0_scoped0 cc0_scoped1 cc0_scoped2 cc0_scoped3
            v2 v3 v21 v39 v57 v75 v93 v111 v129 v147 v165 v183 v201 v219 v237 v255 v273 v291 v294 v297 v300 v303 v306 v309 v312 v315 v318 v321 v324 v327 v330 v333 v336 v339 c0 c1 k0_t1))
          fun _ => iprop(((e1W).view.loc (thr1 d L) ↦{fullShare} fe) ∗ (∃ fo', (o1W).view.loc (thr1 d L) ↦{fullShare} fo')
            ∗ owes (thr1 d L) O W) := by
  iintro ⟨Hmw, He, Ho, HO⟩
  sl_for (tinv1 d L O W fe) $$ [Hmw He Ho HO]
  case region =>
    intro k _
    unfold tinv1
    iintro ⟨Hmw, He, ⟨%fo', Ho⟩, HO⟩
    sl_exec (disch := chk_disch)
    have hrows : ∀ x, ((transpose1.sl.v388 v3 k) x).toNat < 200 :=
      add_bc_lt (A := 15) (B := 184) hv3 (by decide +revert) (by decide) (by decide)
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    tr_load
    tr_store
    sl_step
    isplitl [Hmw]; · iexact Hmw
    isplitl [He]; · iexact He
    isplitl [Ho]; · iexists _; iexact Ho
    iexact HO
  unfold tinv1
  isplitl [Hmw He Ho HO]
  · isplitl [Hmw]; · iexact Hmw
    isplitl [He]; · iexact He
    isplitl [Ho]; · iexists _; iexact Ho
    iexact HO
  iintro %_ HI
  icases HI with ⟨-, He, Ho, HO⟩
  isplitl [He]; · iexact He
  isplitl [Ho]; · iexact Ho
  iexact HO

end Cert.Proof.KB

end
-- ==== Proof.TileTripB.lean ====
import proofs.«206347_g23639499997337_cont_sun_m_514_14_alg».proof.Proof.TileInvB
import proofs.«206347_g23639499997337_cont_sun_m_514_14_alg».proof.Proof.InnerB0
import proofs.«206347_g23639499997337_cont_sun_m_514_14_alg».proof.Proof.InnerB1

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (d : Dev nD) (L : grid0.Coords)

local notation "xW" => (Memref.whole Cert.Kernel.main_arg0_scv : Memref Cert.Kernel.sig Kind.scVector Space.hbm Cert.Kernel.S4096x200 EltTy.i32)
local notation "tW" => (Memref.whole Cert.Kernel.main_arg1_scv : Memref Cert.Kernel.sig Kind.scVector Space.hbm Cert.Kernel.S100000x128 EltTy.f32)
local notation "oW" => (Memref.whole Cert.Kernel.main_v0_scv : Memref Cert.Kernel.sig Kind.scVector Space.hbm Cert.Kernel.S4096x25600 EltTy.f32)
local notation "i0W" => (Memref.whole Cert.Kernel.cc0_scratch0 : Memref Cert.Kernel.sig Kind.scVector Space.vmem Cert.Kernel.S200 EltTy.i32)
local notation "i1W" => (Memref.whole Cert.Kernel.cc0_scratch1 : Memref Cert.Kernel.sig Kind.scVector Space.vmem Cert.Kernel.S200 EltTy.i32)
local notation "e0W" => (Memref.whole Cert.Kernel.cc0_scratch2 : Memref Cert.Kernel.sig Kind.scVector Space.vmem Cert.Kernel.S200x128 EltTy.f32)
local notation "e1W" => (Memref.whole Cert.Kernel.cc0_scratch3 : Memref Cert.Kernel.sig Kind.scVector Space.vmem Cert.Kernel.S200x128 EltTy.f32)
local notation "o0W" => (Memref.whole Cert.Kernel.cc0_scratch4 : Memref Cert.Kernel.sig Kind.scVector Space.vmem Cert.Kernel.S25600 EltTy.f32)
local notation "o1W" => (Memref.whole Cert.Kernel.cc0_scratch5 : Memref Cert.Kernel.sig Kind.scVector Space.vmem Cert.Kernel.S25600 EltTy.f32)

variable (qx q0 q1 : PosShare TreeShare) (O : CellTallies nD τ sig (HIx 1)) (W : Waits sig (HIx 1))

/-- a token row fetched into index scratch 0 names rows of the table: reading back what the copy wrote gives tokens, and every token is in range -/
theorem hin_row0 (hpre : PreOK m) (off : Fin 2 → Nat) (inb : ∀ a, off a + S1x200.size a ≤ S4096x200.size a)
    (fi : Buf (Elt F) ((i0W).view.loc (thr d L))) :
    ∀ j, ((i0W).view.read (Elt F) (View.write (Elt F) (i0W).view fi
        (ReadAs.same.apply (View.read (Elt F) (((xW).slice (Rect.unit (s := S4096x200) off S1x200.size inb) (fun _ => rfl)).squeeze S200 squeezes_S1x200_S200).view (m (xLoc d))))
        Finset.univ) j).toNat < S100000x128.size gathers_S100000x128_S200x128.axis := by
  intro j
  rw [View.read_write_univ]
  exact hpre d _

/-- a token row fetched into index scratch 1 names rows of the table: reading back what the copy wrote gives tokens, and every token is in range -/
theorem hin_row1 (hpre : PreOK m) (off : Fin 2 → Nat) (inb : ∀ a, off a + S1x200.size a ≤ S4096x200.size a)
    (fi : Buf (Elt F) ((i1W).view.loc (thr d L))) :
    ∀ j, ((i1W).view.read (Elt F) (View.write (Elt F) (i1W).view fi
        (ReadAs.same.apply (View.read (Elt F) (((xW).slice (Rect.unit (s := S4096x200) off S1x200.size inb) (fun _ => rfl)).squeeze S200 squeezes_S1x200_S200).view (m (xLoc d))))
        Finset.univ) j).toNat < S100000x128.size gathers_S100000x128_S200x128.axis := by
  intro j
  rw [View.read_write_univ]
  exact hpre d _

/-- a wait on one of the tile's own semaphores, recorded: it is at index none -/
theorem waits_insert {W' : Waits sig (HIx 1)} (h : ∀ p ∈ W', p ∈ W ∨ p.2 = none) (sm : SemLoc sig) :
    ∀ p ∈ insert (sm, (default : HIx 1)) W', p ∈ W ∨ p.2 = none := by
  intro p hp
  rcases Finset.mem_insert.mp hp with h' | h'
  · exact .inr (h' ▸ rfl)
  · exact h p h'

variable [FloatOps F]

set_option maxHeartbeats 4000000 in
theorem tripA (hpre : PreOK m) (k : Fin k0_t1_loop.trips) (hk0 : k.val = 0) (hks : k.val + 1 < 64)
    (v2 : BitVec 32) (v3 v21 v39 v57 v75 v93 v111 v129 v147 v165 v183 v201 v219 v237 v255 v273 v291 v294 v297 v300 v303 v306 v309 v312 v315 v318 v321 v324 v327 v330 v333 v336 v339 : IVec S16 32) (hv3 : ∀ x, (v3 x).toNat ≤ 15) (hv21 : ∀ x, (v21 x).toNat ≤ 15) (hv39 : ∀ x, (v39 x).toNat ≤ 15) (hv57 : ∀ x, (v57 x).toNat ≤ 15) (hv75 : ∀ x, (v75 x).toNat ≤ 15) (hv93 : ∀ x, (v93 x).toNat ≤ 15) (hv111 : ∀ x, (v111 x).toNat ≤ 15) (hv129 : ∀ x, (v129 x).toNat ≤ 15) (hv147 : ∀ x, (v147 x).toNat ≤ 15) (hv165 : ∀ x, (v165 x).toNat ≤ 15) (hv183 : ∀ x, (v183 x).toNat ≤ 15) (hv201 : ∀ x, (v201 x).toNat ≤ 15) (hv219 : ∀ x, (v219 x).toNat ≤ 15) (hv237 : ∀ x, (v237 x).toNat ≤ 15) (hv255 : ∀ x, (v255 x).toNat ≤ 15) (hv273 : ∀ x, (v273 x).toNat ≤ 15) (hv291 : ∀ x, (v291 x).toNat ≤ 15) (hv294 : ∀ x, (v294 x).toNat ≤ 3015) (hv297 : ∀ x, (v297 x).toNat ≤ 3015) (hv300 : ∀ x, (v300 x).toNat ≤ 3015) (hv303 : ∀ x, (v303 x).toNat ≤ 3015) (hv306 : ∀ x, (v306 x).toNat ≤ 3015) (hv309 : ∀ x, (v309 x).toNat ≤ 3015) (hv312 : ∀ x, (v312 x).toNat ≤ 3015) (hv315 : ∀ x, (v315 x).toNat ≤ 3015) (hv318 : ∀ x, (v318 x).toNat ≤ 3015) (hv321 : ∀ x, (v321 x).toNat ≤ 3015) (hv324 : ∀ x, (v324 x).toNat ≤ 3015) (hv327 : ∀ x, (v327 x).toNat ≤ 3015) (hv330 : ∀ x, (v330 x).toNat ≤ 3015) (hv333 : ∀ x, (v333 x).toNat ≤ 3015) (hv336 : ∀ x, (v336 x).toNat ≤ 3015) (hv339 : ∀ x, (v339 x).toNat ≤ 3015) :
    (iprop(Transfers.MayWaits (thr d L) (none : HIx 1) O
        ∗ ((xW).view.loc (thr d L) ↦{qx} m (xLoc d))
        ∗ gathFl0 m d L q0 ∗ gathFl1 m d L q1
        ∗ outNone0 (F := F) d L ∗ outNone1 (F := F) d L
        ∗ rowIn0 m d L k ∗ rowIn1 m d L k
        ∗ semVal (thr d L, SemLoc.dma cc0_scoped2.sem) 0 ∗ semVal (thr d L, SemLoc.dma cc0_scoped3.sem) 0
        ∗ owesEx (F := F) d L O W) : sProp 𝕄)
      ⊢ wp frame (wpE (defs₀ (F := F)) 𝒱₀ (thr d L) none) Set.univ
          (k0_t1_body L xW (Memref.isWhole_whole _) tW (Memref.isWhole_whole _) oW (Memref.isWhole_whole _)
            i0W (Memref.isWhole_whole _) i1W (Memref.isWhole_whole _) e0W (Memref.isWhole_whole _) e1W (Memref.isWhole_whole _)
            o0W (Memref.isWhole_whole _) o1W (Memref.isWhole_whole _)
            cc0_scratch6 cc0_scratch7 cc0_scratch8 cc0_scratch9 cc0_scoped0 cc0_scoped1 cc0_scoped2 cc0_scoped3
            v2 v3 v21 v39 v57 v75 v93 v111 v129 v147 v165 v183 v201 v219 v237 v255 v273 v291 v294 v297 v300 v303 v306 v309 v312 v315 v318 v321 v324 v327 v330 v333 v336 v339 k ⟨⟩)
          fun _ => iprop(Transfers.MayWaits (thr d L) (none : HIx 1) O
        ∗ ((xW).view.loc (thr d L) ↦{qx} m (xLoc d))
        ∗ gathFl0 m d L q0 ∗ gathFl1 m d L q1
        ∗ outFl0 (F := F) d L k ∗ outFl1 (F := F) d L k

        ∗ semVal (thr d L, SemLoc.dma cc0_scoped2.sem) 0 ∗ semVal (thr d L, SemLoc.dma cc0_scoped3.sem) 0
        ∗ owesEx (F := F) d L O W) := by
  have hn1 : ¬ k0_cond1 k = 1#1 := by rw [cond1_iff]; omega
  have hn3 : ¬ k0_cond3 k = 1#1 := by rw [cond3_iff]; omega
  have k0_h2 : k0_cond2 k = 1#1 := (cond2_iff k).2 hks
  have k0_h4 : k0_cond4 k = 1#1 := (cond4_iff k).2 hks
  unfold k0_t1_body gathFl0 gathFl1 outFl0 outFl1 outNone0 outNone1 rowIn0 rowIn1 owesEx
  iintro ⟨#Hmw, Hx, ⟨%fe0, %fi0, Ht0, F0⟩, ⟨%fe1, %fi1, Ht1, F1⟩, ⟨Hs8, %fo0, Ho0⟩, ⟨Hs9, %fo1, Ho1⟩, Hr0, Hr1, Hc2, Hc3, %W', %hW', HO⟩
  sl_exec
  rw [wp_bind]
  iapply (wp_wand_r frame _ Set.univ)
  isplitl [F0_dst Ho0 HO]
  · iapply (transpose0 d L O _ fe0 fo0 v2 v3 v21 v39 v57 v75 v93 v111 v129 v147 v165 v183 v201 v219 v237 v255 v273 v291 v294 v297 v300 v303 v306 v309 v312 v315 v318 v321 v324 v327 v330 v333 v336 v339 (0#32) (1#32) k hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339)
    isplitr; · iexact Hmw
    isplitl [F0_dst]; · iexact F0_dst
    isplitl [Ho0]; · iexact Ho0
    iexact HO
  iintro %_ ⟨He0, ⟨%fo0', Ho0⟩, HO⟩
  sl_exec
  have hin0 := hin_row0 m d L hpre (k0_off4 L k) (k0_off4_inb L k k0_h2) fi0
  sl_exec
  rw [wp_bind]
  iapply (wp_wand_r frame _ Set.univ)
  isplitl [F1_dst Ho1 HO]
  · iapply (transpose1 d L O _ fe1 fo1 v2 v3 v21 v39 v57 v75 v93 v111 v129 v147 v165 v183 v201 v219 v237 v255 v273 v291 v294 v297 v300 v303 v306 v309 v312 v315 v318 v321 v324 v327 v330 v333 v336 v339 (0#32) (1#32) k hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339)
    isplitr; · iexact Hmw
    isplitl [F1_dst]; · iexact F1_dst
    isplitl [Ho1]; · iexact Ho1
    iexact HO
  iintro %_ ⟨He1, ⟨%fo1', Ho1⟩, HO⟩
  sl_exec
  have hin1 := hin_row1 m d L hpre (k0_off6 L k) (k0_off6_inb L k k0_h4) fi1
  sl_exec

  sl_step
  isplitr; · iexact Hmw
  isplitl [Hx]; · iexact Hx
  isplitl [Ht0 F0]
  · iexists _, _; isplitl [Ht0]; · iexact Ht0
    iexact F0
  isplitl [Ht1 F1]
  · iexists _, _; isplitl [Ht1]; · iexact Ht1
    iexact F1
  isplitl [Ho0 Hs8]
  · iexists _, _; isplitl [Ho0]; · iexact Ho0
    iexact Hs8
  isplitl [Ho1 Hs9]
  · iexists _, _; isplitl [Ho1]; · iexact Ho1
    iexact Hs9
  isplitl [Hc2]; · iexact Hc2
  isplitl [Hc3]; · iexact Hc3
  iexists _; isplitr
  rotate_left
  · iexact HO
  · ipureintro; repeat (first | exact hW' | apply waits_insert)

set_option maxHeartbeats 4000000 in
theorem tripB (hpre : PreOK m) (k : Fin k0_t1_loop.trips) (k' : Fin k0_t1_loop.trips) (hk' : k'.val + 1 = k.val) (hks : k.val + 1 < 64)
    (v2 : BitVec 32) (v3 v21 v39 v57 v75 v93 v111 v129 v147 v165 v183 v201 v219 v237 v255 v273 v291 v294 v297 v300 v303 v306 v309 v312 v315 v318 v321 v324 v327 v330 v333 v336 v339 : IVec S16 32) (hv3 : ∀ x, (v3 x).toNat ≤ 15) (hv21 : ∀ x, (v21 x).toNat ≤ 15) (hv39 : ∀ x, (v39 x).toNat ≤ 15) (hv57 : ∀ x, (v57 x).toNat ≤ 15) (hv75 : ∀ x, (v75 x).toNat ≤ 15) (hv93 : ∀ x, (v93 x).toNat ≤ 15) (hv111 : ∀ x, (v111 x).toNat ≤ 15) (hv129 : ∀ x, (v129 x).toNat ≤ 15) (hv147 : ∀ x, (v147 x).toNat ≤ 15) (hv165 : ∀ x, (v165 x).toNat ≤ 15) (hv183 : ∀ x, (v183 x).toNat ≤ 15) (hv201 : ∀ x, (v201 x).toNat ≤ 15) (hv219 : ∀ x, (v219 x).toNat ≤ 15) (hv237 : ∀ x, (v237 x).toNat ≤ 15) (hv255 : ∀ x, (v255 x).toNat ≤ 15) (hv273 : ∀ x, (v273 x).toNat ≤ 15) (hv291 : ∀ x, (v291 x).toNat ≤ 15) (hv294 : ∀ x, (v294 x).toNat ≤ 3015) (hv297 : ∀ x, (v297 x).toNat ≤ 3015) (hv300 : ∀ x, (v300 x).toNat ≤ 3015) (hv303 : ∀ x, (v303 x).toNat ≤ 3015) (hv306 : ∀ x, (v306 x).toNat ≤ 3015) (hv309 : ∀ x, (v309 x).toNat ≤ 3015) (hv312 : ∀ x, (v312 x).toNat ≤ 3015) (hv315 : ∀ x, (v315 x).toNat ≤ 3015) (hv318 : ∀ x, (v318 x).toNat ≤ 3015) (hv321 : ∀ x, (v321 x).toNat ≤ 3015) (hv324 : ∀ x, (v324 x).toNat ≤ 3015) (hv327 : ∀ x, (v327 x).toNat ≤ 3015) (hv330 : ∀ x, (v330 x).toNat ≤ 3015) (hv333 : ∀ x, (v333 x).toNat ≤ 3015) (hv336 : ∀ x, (v336 x).toNat ≤ 3015) (hv339 : ∀ x, (v339 x).toNat ≤ 3015) :
    (iprop(Transfers.MayWaits (thr d L) (none : HIx 1) O
        ∗ ((xW).view.loc (thr d L) ↦{qx} m (xLoc d))
        ∗ gathFl0 m d L q0 ∗ gathFl1 m d L q1
        ∗ outFl0 (F := F) d L k' ∗ outFl1 (F := F) d L k'
        ∗ rowIn0 m d L k ∗ rowIn1 m d L k
        ∗ semVal (thr d L, SemLoc.dma cc0_scoped2.sem) 0 ∗ semVal (thr d L, SemLoc.dma cc0_scoped3.sem) 0
        ∗ owesEx (F := F) d L O W) : sProp 𝕄)
      ⊢ wp frame (wpE (defs₀ (F := F)) 𝒱₀ (thr d L) none) Set.univ
          (k0_t1_body L xW (Memref.isWhole_whole _) tW (Memref.isWhole_whole _) oW (Memref.isWhole_whole _)
            i0W (Memref.isWhole_whole _) i1W (Memref.isWhole_whole _) e0W (Memref.isWhole_whole _) e1W (Memref.isWhole_whole _)
            o0W (Memref.isWhole_whole _) o1W (Memref.isWhole_whole _)
            cc0_scratch6 cc0_scratch7 cc0_scratch8 cc0_scratch9 cc0_scoped0 cc0_scoped1 cc0_scoped2 cc0_scoped3
            v2 v3 v21 v39 v57 v75 v93 v111 v129 v147 v165 v183 v201 v219 v237 v255 v273 v291 v294 v297 v300 v303 v306 v309 v312 v315 v318 v321 v324 v327 v330 v333 v336 v339 k ⟨⟩)
          fun _ => iprop(Transfers.MayWaits (thr d L) (none : HIx 1) O
        ∗ ((xW).view.loc (thr d L) ↦{qx} m (xLoc d))
        ∗ gathFl0 m d L q0 ∗ gathFl1 m d L q1
        ∗ outFl0 (F := F) d L k ∗ outFl1 (F := F) d L k
        ∗ rowFin0 (F := F) d L k' ∗ rowFin1 (F := F) d L k'
        ∗ semVal (thr d L, SemLoc.dma cc0_scoped2.sem) 0 ∗ semVal (thr d L, SemLoc.dma cc0_scoped3.sem) 0
        ∗ owesEx (F := F) d L O W) := by
  have k0_h1 : k0_cond1 k = 1#1 := (cond1_iff k).2 (by omega)
  have k0_h3 : k0_cond3 k = 1#1 := (cond3_iff k).2 (by omega)
  have k0_h2 : k0_cond2 k = 1#1 := (cond2_iff k).2 hks
  have k0_h4 : k0_cond4 k = 1#1 := (cond4_iff k).2 hks
  unfold k0_t1_body gathFl0 gathFl1 outFl0 outFl1 rowIn0 rowIn1 owesEx
  iintro ⟨#Hmw, Hx, ⟨%fe0, %fi0, Ht0, F0⟩, ⟨%fe1, %fi1, Ht1, F1⟩, ⟨%g0, %fo0, Ho0, FO0⟩, ⟨%g1, %fo1, Ho1, FO1⟩, Hr0, Hr1, Hc2, Hc3, %W', %hW', HO⟩
  sl_exec
  rw [wp_bind]
  iapply (wp_wand_r frame _ Set.univ)
  isplitl [F0_dst Ho0 HO]
  · iapply (transpose0 d L O _ fe0 fo0 v2 v3 v21 v39 v57 v75 v93 v111 v129 v147 v165 v183 v201 v219 v237 v255 v273 v291 v294 v297 v300 v303 v306 v309 v312 v315 v318 v321 v324 v327 v330 v333 v336 v339 (0#32) (1#32) k hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339)
    isplitr; · iexact Hmw
    isplitl [F0_dst]; · iexact F0_dst
    isplitl [Ho0]; · iexact Ho0
    iexact HO
  iintro %_ ⟨He0, ⟨%fo0', Ho0⟩, HO⟩
  sl_exec
  have hin0 := hin_row0 m d L hpre (k0_off4 L k) (k0_off4_inb L k k0_h2) fi0
  sl_exec
  rw [wp_bind]
  iapply (wp_wand_r frame _ Set.univ)
  isplitl [F1_dst Ho1 HO]
  · iapply (transpose1 d L O _ fe1 fo1 v2 v3 v21 v39 v57 v75 v93 v111 v129 v147 v165 v183 v201 v219 v237 v255 v273 v291 v294 v297 v300 v303 v306 v309 v312 v315 v318 v321 v324 v327 v330 v333 v336 v339 (0#32) (1#32) k hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339)
    isplitr; · iexact Hmw
    isplitl [F1_dst]; · iexact F1_dst
    isplitl [Ho1]; · iexact Ho1
    iexact HO
  iintro %_ ⟨He1, ⟨%fo1', Ho1⟩, HO⟩
  sl_exec
  have hin1 := hin_row1 m d L hpre (k0_off6 L k) (k0_off6_inb L k k0_h4) fi1
  sl_exec

  sl_step
  unfold rowFin0 rowFin1
  isplitr; · iexact Hmw
  isplitl [Hx]; · iexact Hx
  isplitl [Ht0 F0]
  · iexists _, _; isplitl [Ht0]; · iexact Ht0
    iexact F0
  isplitl [Ht1 F1]
  · iexists _, _; isplitl [Ht1]; · iexact Ht1
    iexact F1
  isplitl [Ho0 FO0]
  · iexists _, _; isplitl [Ho0]; · iexact Ho0
    iexact FO0
  isplitl [Ho1 FO1]
  · iexists _, _; isplitl [Ho1]; · iexact Ho1
    iexact FO1
  isplitl [FO0_dst]; · iexists _; iexact FO0_dst
  isplitl [FO1_dst]; · iexists _; iexact FO1_dst
  isplitl [Hc2]; · iexact Hc2
  isplitl [Hc3]; · iexact Hc3
  iexists _; isplitr
  rotate_left
  · iexact HO
  · ipureintro; repeat (first | exact hW' | apply waits_insert)

set_option maxHeartbeats 4000000 in
theorem tripC (hpre : PreOK m) (k : Fin k0_t1_loop.trips) (k' : Fin k0_t1_loop.trips) (hk' : k'.val + 1 = k.val) (hks : ¬ k.val + 1 < 64)
    (v2 : BitVec 32) (v3 v21 v39 v57 v75 v93 v111 v129 v147 v165 v183 v201 v219 v237 v255 v273 v291 v294 v297 v300 v303 v306 v309 v312 v315 v318 v321 v324 v327 v330 v333 v336 v339 : IVec S16 32) (hv3 : ∀ x, (v3 x).toNat ≤ 15) (hv21 : ∀ x, (v21 x).toNat ≤ 15) (hv39 : ∀ x, (v39 x).toNat ≤ 15) (hv57 : ∀ x, (v57 x).toNat ≤ 15) (hv75 : ∀ x, (v75 x).toNat ≤ 15) (hv93 : ∀ x, (v93 x).toNat ≤ 15) (hv111 : ∀ x, (v111 x).toNat ≤ 15) (hv129 : ∀ x, (v129 x).toNat ≤ 15) (hv147 : ∀ x, (v147 x).toNat ≤ 15) (hv165 : ∀ x, (v165 x).toNat ≤ 15) (hv183 : ∀ x, (v183 x).toNat ≤ 15) (hv201 : ∀ x, (v201 x).toNat ≤ 15) (hv219 : ∀ x, (v219 x).toNat ≤ 15) (hv237 : ∀ x, (v237 x).toNat ≤ 15) (hv255 : ∀ x, (v255 x).toNat ≤ 15) (hv273 : ∀ x, (v273 x).toNat ≤ 15) (hv291 : ∀ x, (v291 x).toNat ≤ 15) (hv294 : ∀ x, (v294 x).toNat ≤ 3015) (hv297 : ∀ x, (v297 x).toNat ≤ 3015) (hv300 : ∀ x, (v300 x).toNat ≤ 3015) (hv303 : ∀ x, (v303 x).toNat ≤ 3015) (hv306 : ∀ x, (v306 x).toNat ≤ 3015) (hv309 : ∀ x, (v309 x).toNat ≤ 3015) (hv312 : ∀ x, (v312 x).toNat ≤ 3015) (hv315 : ∀ x, (v315 x).toNat ≤ 3015) (hv318 : ∀ x, (v318 x).toNat ≤ 3015) (hv321 : ∀ x, (v321 x).toNat ≤ 3015) (hv324 : ∀ x, (v324 x).toNat ≤ 3015) (hv327 : ∀ x, (v327 x).toNat ≤ 3015) (hv330 : ∀ x, (v330 x).toNat ≤ 3015) (hv333 : ∀ x, (v333 x).toNat ≤ 3015) (hv336 : ∀ x, (v336 x).toNat ≤ 3015) (hv339 : ∀ x, (v339 x).toNat ≤ 3015) :
    (iprop(Transfers.MayWaits (thr d L) (none : HIx 1) O
        ∗ ((xW).view.loc (thr d L) ↦{qx} m (xLoc d))
        ∗ gathFl0 m d L q0 ∗ gathFl1 m d L q1
        ∗ outFl0 (F := F) d L k' ∗ outFl1 (F := F) d L k'
        ∗ rowIn0 m d L k ∗ rowIn1 m d L k
        ∗ semVal (thr d L, SemLoc.dma cc0_scoped2.sem) 0 ∗ semVal (thr d L, SemLoc.dma cc0_scoped3.sem) 0
        ∗ owesEx (F := F) d L O W) : sProp 𝕄)
      ⊢ wp frame (wpE (defs₀ (F := F)) 𝒱₀ (thr d L) none) Set.univ
          (k0_t1_body L xW (Memref.isWhole_whole _) tW (Memref.isWhole_whole _) oW (Memref.isWhole_whole _)
            i0W (Memref.isWhole_whole _) i1W (Memref.isWhole_whole _) e0W (Memref.isWhole_whole _) e1W (Memref.isWhole_whole _)
            o0W (Memref.isWhole_whole _) o1W (Memref.isWhole_whole _)
            cc0_scratch6 cc0_scratch7 cc0_scratch8 cc0_scratch9 cc0_scoped0 cc0_scoped1 cc0_scoped2 cc0_scoped3
            v2 v3 v21 v39 v57 v75 v93 v111 v129 v147 v165 v183 v201 v219 v237 v255 v273 v291 v294 v297 v300 v303 v306 v309 v312 v315 v318 v321 v324 v327 v330 v333 v336 v339 k ⟨⟩)
          fun _ => iprop(Transfers.MayWaits (thr d L) (none : HIx 1) O
        ∗ ((xW).view.loc (thr d L) ↦{qx} m (xLoc d))
        ∗ gathRest0 m d L q0 ∗ gathRest1 m d L q1
        ∗ outFl0 (F := F) d L k ∗ outFl1 (F := F) d L k
        ∗ rowFin0 (F := F) d L k' ∗ rowFin1 (F := F) d L k'
        ∗ semVal (thr d L, SemLoc.dma cc0_scoped2.sem) 0 ∗ semVal (thr d L, SemLoc.dma cc0_scoped3.sem) 0
        ∗ owesEx (F := F) d L O W) := by
  have k0_h1 : k0_cond1 k = 1#1 := (cond1_iff k).2 (by omega)
  have k0_h3 : k0_cond3 k = 1#1 := (cond3_iff k).2 (by omega)
  have hn2 : ¬ k0_cond2 k = 1#1 := by rw [cond2_iff]; exact hks
  have hn4 : ¬ k0_cond4 k = 1#1 := by rw [cond4_iff]; exact hks
  unfold k0_t1_body gathFl0 gathFl1 gathRest0 gathRest1 outFl0 outFl1 rowIn0 rowIn1 owesEx
  iintro ⟨#Hmw, Hx, ⟨%fe0, %fi0, Ht0, F0⟩, ⟨%fe1, %fi1, Ht1, F1⟩, ⟨%g0, %fo0, Ho0, FO0⟩, ⟨%g1, %fo1, Ho1, FO1⟩, Hr0, Hr1, Hc2, Hc3, %W', %hW', HO⟩
  sl_exec
  rw [wp_bind]
  iapply (wp_wand_r frame _ Set.univ)
  isplitl [F0_dst Ho0 HO]
  · iapply (transpose0 d L O _ fe0 fo0 v2 v3 v21 v39 v57 v75 v93 v111 v129 v147 v165 v183 v201 v219 v237 v255 v273 v291 v294 v297 v300 v303 v306 v309 v312 v315 v318 v321 v324 v327 v330 v333 v336 v339 (0#32) (1#32) k hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339)
    isplitr; · iexact Hmw
    isplitl [F0_dst]; · iexact F0_dst
    isplitl [Ho0]; · iexact Ho0
    iexact HO
  iintro %_ ⟨He0, ⟨%fo0', Ho0⟩, HO⟩
  sl_exec
  rw [wp_bind]
  iapply (wp_wand_r frame _ Set.univ)
  isplitl [F1_dst Ho1 HO]
  · iapply (transpose1 d L O _ fe1 fo1 v2 v3 v21 v39 v57 v75 v93 v111 v129 v147 v165 v183 v201 v219 v237 v255 v273 v291 v294 v297 v300 v303 v306 v309 v312 v315 v318 v321 v324 v327 v330 v333 v336 v339 (0#32) (1#32) k hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339)
    isplitr; · iexact Hmw
    isplitl [F1_dst]; · iexact F1_dst
    isplitl [Ho1]; · iexact Ho1
    iexact HO
  iintro %_ ⟨He1, ⟨%fo1', Ho1⟩, HO⟩
  sl_exec

  sl_step
  unfold rowFin0 rowFin1
  isplitr; · iexact Hmw
  isplitl [Hx]; · iexact Hx
  isplitl [Ht0 F0 He0 F0_dst_and]
  · isplitl [Ht0]; · iexact Ht0
    isplitl [F0]; · iexact F0
    isplitl [He0]; · iexists _; iexact He0
    iexists _; iexact F0_dst_and
  isplitl [Ht1 F1 He1 F1_dst_and]
  · isplitl [Ht1]; · iexact Ht1
    isplitl [F1]; · iexact F1
    isplitl [He1]; · iexists _; iexact He1
    iexists _; iexact F1_dst_and
  isplitl [Ho0 FO0]
  · iexists _, _; isplitl [Ho0]; · iexact Ho0
    iexact FO0
  isplitl [Ho1 FO1]
  · iexists _, _; isplitl [Ho1]; · iexact Ho1
    iexact FO1
  isplitl [FO0_dst]; · iexists _; iexact FO0_dst
  isplitl [FO1_dst]; · iexists _; iexact FO1_dst
  isplitl [Hc2]; · iexact Hc2
  isplitl [Hc3]; · iexact Hc3
  iexists _; isplitr
  rotate_left
  · iexact HO
  · ipureintro; repeat (first | exact hW' | apply waits_insert)

end Cert.Proof.KB

end
-- ==== Proof.TileLoopB.lean ====
import proofs.«206347_g23639499997337_cont_sun_m_514_14_alg».proof.Proof.TileTripB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (d : Dev nD) (L : grid0.Coords)

local notation "xW" => (Memref.whole Cert.Kernel.main_arg0_scv : Memref Cert.Kernel.sig Kind.scVector Space.hbm Cert.Kernel.S4096x200 EltTy.i32)
local notation "tW" => (Memref.whole Cert.Kernel.main_arg1_scv : Memref Cert.Kernel.sig Kind.scVector Space.hbm Cert.Kernel.S100000x128 EltTy.f32)
local notation "oW" => (Memref.whole Cert.Kernel.main_v0_scv : Memref Cert.Kernel.sig Kind.scVector Space.hbm Cert.Kernel.S4096x25600 EltTy.f32)
local notation "i0W" => (Memref.whole Cert.Kernel.cc0_scratch0 : Memref Cert.Kernel.sig Kind.scVector Space.vmem Cert.Kernel.S200 EltTy.i32)
local notation "i1W" => (Memref.whole Cert.Kernel.cc0_scratch1 : Memref Cert.Kernel.sig Kind.scVector Space.vmem Cert.Kernel.S200 EltTy.i32)
local notation "e0W" => (Memref.whole Cert.Kernel.cc0_scratch2 : Memref Cert.Kernel.sig Kind.scVector Space.vmem Cert.Kernel.S200x128 EltTy.f32)
local notation "e1W" => (Memref.whole Cert.Kernel.cc0_scratch3 : Memref Cert.Kernel.sig Kind.scVector Space.vmem Cert.Kernel.S200x128 EltTy.f32)
local notation "o0W" => (Memref.whole Cert.Kernel.cc0_scratch4 : Memref Cert.Kernel.sig Kind.scVector Space.vmem Cert.Kernel.S25600 EltTy.f32)
local notation "o1W" => (Memref.whole Cert.Kernel.cc0_scratch5 : Memref Cert.Kernel.sig Kind.scVector Space.vmem Cert.Kernel.S25600 EltTy.f32)

variable (qx q0 q1 : PosShare TreeShare) (O : CellTallies nD τ sig (HIx 1)) (W : Waits sig (HIx 1))

/-! ## Moving one trip's rows -/

theorem rowsTodo_succ (k : Fin k0_t1_loop.trips) :
    rowsTodo m d L k.val = iprop((rowIn0 m d L k ∗ rowIn1 m d L k) ∗ rowsTodo m d L (k.val + 1)) := by
  unfold rowsTodo
  rw [filter_le_succ k, SparseCore.bigSep_insert' (not_mem_filter_succ k)]

theorem rowsDone_succ (k' : Fin k0_t1_loop.trips) :
    rowsDone (F := F) d L (k'.val + 2)
      = iprop((rowFin0 (F := F) d L k' ∗ rowFin1 (F := F) d L k') ∗ rowsDone (F := F) d L (k'.val + 1)) := by
  unfold rowsDone
  rw [filter_lt_succ k', SparseCore.bigSep_insert' (not_mem_filter_lt k')]

theorem rowsDone_one : rowsDone (F := F) d L 1 = rowsDone (F := F) d L 0 := by
  unfold rowsDone
  rw [show (Finset.univ.filter fun t : Fin k0_t1_loop.trips => t.val + 1 < 1) = (Finset.univ.filter fun t : Fin k0_t1_loop.trips => t.val + 1 < 0) from by
    ext t; simp]

variable [FloatOps F]

/-! ## One pair-trip keeps the invariant -/

set_option maxHeartbeats 2000000 in
theorem pair_trip (hpre : PreOK m) (k : Fin k0_t1_loop.trips) (acc : Unit)
    (v2 : BitVec 32) (v3 v21 v39 v57 v75 v93 v111 v129 v147 v165 v183 v201 v219 v237 v255 v273 v291 v294 v297 v300 v303 v306 v309 v312 v315 v318 v321 v324 v327 v330 v333 v336 v339 : IVec S16 32) (hv3 : ∀ x, (v3 x).toNat ≤ 15) (hv21 : ∀ x, (v21 x).toNat ≤ 15) (hv39 : ∀ x, (v39 x).toNat ≤ 15) (hv57 : ∀ x, (v57 x).toNat ≤ 15) (hv75 : ∀ x, (v75 x).toNat ≤ 15) (hv93 : ∀ x, (v93 x).toNat ≤ 15) (hv111 : ∀ x, (v111 x).toNat ≤ 15) (hv129 : ∀ x, (v129 x).toNat ≤ 15) (hv147 : ∀ x, (v147 x).toNat ≤ 15) (hv165 : ∀ x, (v165 x).toNat ≤ 15) (hv183 : ∀ x, (v183 x).toNat ≤ 15) (hv201 : ∀ x, (v201 x).toNat ≤ 15) (hv219 : ∀ x, (v219 x).toNat ≤ 15) (hv237 : ∀ x, (v237 x).toNat ≤ 15) (hv255 : ∀ x, (v255 x).toNat ≤ 15) (hv273 : ∀ x, (v273 x).toNat ≤ 15) (hv291 : ∀ x, (v291 x).toNat ≤ 15) (hv294 : ∀ x, (v294 x).toNat ≤ 3015) (hv297 : ∀ x, (v297 x).toNat ≤ 3015) (hv300 : ∀ x, (v300 x).toNat ≤ 3015) (hv303 : ∀ x, (v303 x).toNat ≤ 3015) (hv306 : ∀ x, (v306 x).toNat ≤ 3015) (hv309 : ∀ x, (v309 x).toNat ≤ 3015) (hv312 : ∀ x, (v312 x).toNat ≤ 3015) (hv315 : ∀ x, (v315 x).toNat ≤ 3015) (hv318 : ∀ x, (v318 x).toNat ≤ 3015) (hv321 : ∀ x, (v321 x).toNat ≤ 3015) (hv324 : ∀ x, (v324 x).toNat ≤ 3015) (hv327 : ∀ x, (v327 x).toNat ≤ 3015) (hv330 : ∀ x, (v330 x).toNat ≤ 3015) (hv333 : ∀ x, (v333 x).toNat ≤ 3015) (hv336 : ∀ x, (v336 x).toNat ≤ 3015) (hv339 : ∀ x, (v339 x).toNat ≤ 3015) :
    pinv m d L qx q0 q1 O W k.val acc
      ⊢ wp frame (wpE (defs₀ (F := F)) 𝒱₀ (thr d L) none) Set.univ
          (k0_t1_body L xW (Memref.isWhole_whole _) tW (Memref.isWhole_whole _) oW (Memref.isWhole_whole _)
            i0W (Memref.isWhole_whole _) i1W (Memref.isWhole_whole _) e0W (Memref.isWhole_whole _) e1W (Memref.isWhole_whole _)
            o0W (Memref.isWhole_whole _) o1W (Memref.isWhole_whole _)
            cc0_scratch6 cc0_scratch7 cc0_scratch8 cc0_scratch9 cc0_scoped0 cc0_scoped1 cc0_scoped2 cc0_scoped3
            v2 v3 v21 v39 v57 v75 v93 v111 v129 v147 v165 v183 v201 v219 v237 v255 v273 v291 v294 v297 v300 v303 v306 v309 v312 v315 v318 v321 v324 v327 v330 v333 v336 v339 k acc)
          (pinv m d L qx q0 q1 O W (k.val + 1)) := by
  have hk : k.val < 64 := lt_of_lt_of_eq k.isLt trips64
  cases acc
  unfold pinv gath0 gath1 out0 out1
  rw [rowsTodo_succ m d L k, if_pos hk, if_pos hk]
  rcases Nat.eq_zero_or_pos k.val with h0 | hpos
  · have hks : k.val + 1 < 64 := by omega
    have hd : rowsDone (F := F) d L (k.val + 1) = rowsDone (F := F) d L k.val := by rw [h0]; exact rowsDone_one d L
    rw [if_pos hks, if_pos hks, if_pos h0, if_pos h0, if_neg (Nat.succ_ne_zero _), if_neg (Nat.succ_ne_zero _), hd]
    iintro ⟨Hmw, Hx, Hg0, Hg1, Ho0, Ho1, ⟨⟨Hr0, Hr1⟩, Htodo⟩, Hdone, Hc2, Hc3, HO⟩
    iapply (wp_wand_r frame _ Set.univ)
    isplitl [Hmw Hx Hg0 Hg1 Ho0 Ho1 Hr0 Hr1 Hc2 Hc3 HO]
    · iapply (tripA m d L qx q0 q1 O W hpre k h0 hks v2 v3 v21 v39 v57 v75 v93 v111 v129 v147 v165 v183 v201 v219 v237 v255 v273 v291 v294 v297 v300 v303 v306 v309 v312 v315 v318 v321 v324 v327 v330 v333 v336 v339 hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339)
      isplitl [Hmw]; · iexact Hmw
      isplitl [Hx]; · iexact Hx
      isplitl [Hg0]; · iexact Hg0
      isplitl [Hg1]; · iexact Hg1
      isplitl [Ho0]; · iexact Ho0
      isplitl [Ho1]; · iexact Ho1
      isplitl [Hr0]; · iexact Hr0
      isplitl [Hr1]; · iexact Hr1
      isplitl [Hc2]; · iexact Hc2
      isplitl [Hc3]; · iexact Hc3
      iexact HO
    iintro %_ ⟨Hmw, Hx, Hg0, Hg1, Ho0, Ho1, Hc2, Hc3, HO⟩
    isplitl [Hmw]; · iexact Hmw
    isplitl [Hx]; · iexact Hx
    isplitl [Hg0]; · iexact Hg0
    isplitl [Hg1]; · iexact Hg1
    isplitl [Ho0]
    · iexists k; isplitr
      · ipureintro; rfl
      · iexact Ho0
    isplitl [Ho1]
    · iexists k; isplitr
      · ipureintro; rfl
      · iexact Ho1
    isplitl [Htodo]; · iexact Htodo
    isplitl [Hdone]
    · iexact Hdone
    isplitl [Hc2]; · iexact Hc2
    isplitl [Hc3]; · iexact Hc3
    iexact HO
  · have hk0 : ¬ k.val = 0 := by omega
    let k' : Fin k0_t1_loop.trips := ⟨k.val - 1, by have := k.isLt; omega⟩
    have hk' : k'.val + 1 = k.val := by show k.val - 1 + 1 = k.val; omega
    have hd : rowsDone (F := F) d L (k.val + 1)
        = iprop((rowFin0 (F := F) d L k' ∗ rowFin1 (F := F) d L k') ∗ rowsDone (F := F) d L k.val) := by
      rw [← hk']; exact rowsDone_succ d L k'
    rw [if_neg hk0, if_neg hk0, if_neg (Nat.succ_ne_zero _), if_neg (Nat.succ_ne_zero _), hd]
    by_cases hks : k.val + 1 < 64
    · rw [if_pos hks, if_pos hks]
      iintro ⟨Hmw, Hx, Hg0, Hg1, ⟨%t0, %ht0, Ho0⟩, ⟨%t1, %ht1, Ho1⟩, ⟨⟨Hr0, Hr1⟩, Htodo⟩, Hdone, Hc2, Hc3, HO⟩
      obtain rfl : t0 = k' := Fin.ext (by omega)
      obtain rfl : t1 = k' := Fin.ext (by omega)
      iapply (wp_wand_r frame _ Set.univ)
      isplitl [Hmw Hx Hg0 Hg1 Ho0 Ho1 Hr0 Hr1 Hc2 Hc3 HO]
      · iapply (tripB m d L qx q0 q1 O W hpre k k' hk' hks v2 v3 v21 v39 v57 v75 v93 v111 v129 v147 v165 v183 v201 v219 v237 v255 v273 v291 v294 v297 v300 v303 v306 v309 v312 v315 v318 v321 v324 v327 v330 v333 v336 v339 hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339)
        isplitl [Hmw]; · iexact Hmw
        isplitl [Hx]; · iexact Hx
        isplitl [Hg0]; · iexact Hg0
        isplitl [Hg1]; · iexact Hg1
        isplitl [Ho0]; · iexact Ho0
        isplitl [Ho1]; · iexact Ho1
        isplitl [Hr0]; · iexact Hr0
        isplitl [Hr1]; · iexact Hr1
        isplitl [Hc2]; · iexact Hc2
        isplitl [Hc3]; · iexact Hc3
        iexact HO
      iintro %_ ⟨Hmw, Hx, Hg0, Hg1, Ho0, Ho1, Hf0, Hf1, Hc2, Hc3, HO⟩
      isplitl [Hmw]; · iexact Hmw
      isplitl [Hx]; · iexact Hx
      isplitl [Hg0]; · iexact Hg0
      isplitl [Hg1]; · iexact Hg1
      isplitl [Ho0]
      · iexists k; isplitr
        · ipureintro; rfl
        · iexact Ho0
      isplitl [Ho1]
      · iexists k; isplitr
        · ipureintro; rfl
        · iexact Ho1
      isplitl [Htodo]; · iexact Htodo
      isplitl [Hdone Hf0 Hf1]
      · isplitl [Hf0 Hf1]
        · isplitl [Hf0]; · iexact Hf0
          iexact Hf1
        · iexact Hdone
      isplitl [Hc2]; · iexact Hc2
      isplitl [Hc3]; · iexact Hc3
      iexact HO
    · rw [if_neg hks, if_neg hks]
      iintro ⟨Hmw, Hx, Hg0, Hg1, ⟨%t0, %ht0, Ho0⟩, ⟨%t1, %ht1, Ho1⟩, ⟨⟨Hr0, Hr1⟩, Htodo⟩, Hdone, Hc2, Hc3, HO⟩
      obtain rfl : t0 = k' := Fin.ext (by omega)
      obtain rfl : t1 = k' := Fin.ext (by omega)
      iapply (wp_wand_r frame _ Set.univ)
      isplitl [Hmw Hx Hg0 Hg1 Ho0 Ho1 Hr0 Hr1 Hc2 Hc3 HO]
      · iapply (tripC m d L qx q0 q1 O W hpre k k' hk' hks v2 v3 v21 v39 v57 v75 v93 v111 v129 v147 v165 v183 v201 v219 v237 v255 v273 v291 v294 v297 v300 v303 v306 v309 v312 v315 v318 v321 v324 v327 v330 v333 v336 v339 hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339)
        isplitl [Hmw]; · iexact Hmw
        isplitl [Hx]; · iexact Hx
        isplitl [Hg0]; · iexact Hg0
        isplitl [Hg1]; · iexact Hg1
        isplitl [Ho0]; · iexact Ho0
        isplitl [Ho1]; · iexact Ho1
        isplitl [Hr0]; · iexact Hr0
        isplitl [Hr1]; · iexact Hr1
        isplitl [Hc2]; · iexact Hc2
        isplitl [Hc3]; · iexact Hc3
        iexact HO
      iintro %_ ⟨Hmw, Hx, Hg0, Hg1, Ho0, Ho1, Hf0, Hf1, Hc2, Hc3, HO⟩
      isplitl [Hmw]; · iexact Hmw
      isplitl [Hx]; · iexact Hx
      isplitl [Hg0]; · iexact Hg0
      isplitl [Hg1]; · iexact Hg1
      isplitl [Ho0]
      · iexists k; isplitr
        · ipureintro; rfl
        · iexact Ho0
      isplitl [Ho1]
      · iexists k; isplitr
        · ipureintro; rfl
        · iexact Ho1
      isplitl [Htodo]; · iexact Htodo
      isplitl [Hdone Hf0 Hf1]
      · isplitl [Hf0 Hf1]
        · isplitl [Hf0]; · iexact Hf0
          iexact Hf1
        · iexact Hdone
      isplitl [Hc2]; · iexact Hc2
      isplitl [Hc3]; · iexact Hc3
      iexact HO

end Cert.Proof.KB

end
-- ==== Proof.TileCoreB.lean ====
import proofs.«206347_g23639499997337_cont_sun_m_514_14_alg».proof.Proof.TileLoopB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (d : Dev nD) (L : grid0.Coords)

local notation "xW" => (Memref.whole Cert.Kernel.main_arg0_scv : Memref Cert.Kernel.sig Kind.scVector Space.hbm Cert.Kernel.S4096x200 EltTy.i32)
local notation "tW" => (Memref.whole Cert.Kernel.main_arg1_scv : Memref Cert.Kernel.sig Kind.scVector Space.hbm Cert.Kernel.S100000x128 EltTy.f32)
local notation "oW" => (Memref.whole Cert.Kernel.main_v0_scv : Memref Cert.Kernel.sig Kind.scVector Space.hbm Cert.Kernel.S4096x25600 EltTy.f32)
local notation "i0W" => (Memref.whole Cert.Kernel.cc0_scratch0 : Memref Cert.Kernel.sig Kind.scVector Space.vmem Cert.Kernel.S200 EltTy.i32)
local notation "i1W" => (Memref.whole Cert.Kernel.cc0_scratch1 : Memref Cert.Kernel.sig Kind.scVector Space.vmem Cert.Kernel.S200 EltTy.i32)
local notation "e0W" => (Memref.whole Cert.Kernel.cc0_scratch2 : Memref Cert.Kernel.sig Kind.scVector Space.vmem Cert.Kernel.S200x128 EltTy.f32)
local notation "e1W" => (Memref.whole Cert.Kernel.cc0_scratch3 : Memref Cert.Kernel.sig Kind.scVector Space.vmem Cert.Kernel.S200x128 EltTy.f32)
local notation "o0W" => (Memref.whole Cert.Kernel.cc0_scratch4 : Memref Cert.Kernel.sig Kind.scVector Space.vmem Cert.Kernel.S25600 EltTy.f32)
local notation "o1W" => (Memref.whole Cert.Kernel.cc0_scratch5 : Memref Cert.Kernel.sig Kind.scVector Space.vmem Cert.Kernel.S25600 EltTy.f32)

variable (qx q0 q1 : PosShare TreeShare) (O : CellTallies nD τ sig (HIx 1)) (W : Waits sig (HIx 1))

variable [FloatOps F]

set_option maxHeartbeats 4000000 in
/-- The tile's whole task, from its resources laid out one by one: every row of its 64 pair-trips ends finished, the
    arguments' shares, the scratch and the semaphores come back. -/
theorem tile_core (hpre : PreOK m)
    (fi0 : Buf (Elt F) ((i0W).view.loc (thr d L))) (fi1 : Buf (Elt F) ((i1W).view.loc (thr d L)))
    (fe0 : Buf (Elt F) ((e0W).view.loc (thr d L))) (fe1 : Buf (Elt F) ((e1W).view.loc (thr d L)))
    (fo0 : Buf (Elt F) ((o0W).view.loc (thr d L))) (fo1 : Buf (Elt F) ((o1W).view.loc (thr d L))) :
    (iprop(Transfers.MayWaits (thr d L) (none : HIx 1) O
        ∗ ((xW).view.loc (thr d L) ↦{qx} m (xLoc d)) ∗ ((tW).view.loc (thr d L) ↦{q0} m (tLoc d)) ∗ ((tW).view.loc (thr d L) ↦{q1} m (tLoc d))
        ∗ rowsTodo m d L 0
        ∗ ((i0W).view.loc (thr d L) ↦{fullShare} fi0) ∗ ((i1W).view.loc (thr d L) ↦{fullShare} fi1)
        ∗ ((e0W).view.loc (thr d L) ↦{fullShare} fe0) ∗ ((e1W).view.loc (thr d L) ↦{fullShare} fe1)
        ∗ ((o0W).view.loc (thr d L) ↦{fullShare} fo0) ∗ ((o1W).view.loc (thr d L) ↦{fullShare} fo1)
        ∗ semVal (thr d L, SemLoc.dma cc0_scratch6.sem) 0 ∗ semVal (thr d L, SemLoc.dma cc0_scratch7.sem) 0 ∗ semVal (thr d L, SemLoc.dma cc0_scratch8.sem) 0 ∗ semVal (thr d L, SemLoc.dma cc0_scratch9.sem) 0 ∗ semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0
        ∗ owes (thr d L) O W) : sProp 𝕄)
      ⊢ wp frame (wpE (defs₀ (F := F)) 𝒱₀ (thr d L) none) Set.univ
          (cc0__sc_fused L xW (Memref.isWhole_whole _) tW (Memref.isWhole_whole _) oW (Memref.isWhole_whole _)
            i0W (Memref.isWhole_whole _) i1W (Memref.isWhole_whole _) e0W (Memref.isWhole_whole _) e1W (Memref.isWhole_whole _)
            o0W (Memref.isWhole_whole _) o1W (Memref.isWhole_whole _)
            cc0_scratch6 cc0_scratch7 cc0_scratch8 cc0_scratch9 cc0_scoped0 cc0_scoped1 cc0_scoped2 cc0_scoped3)
          fun _ => iprop(((xW).view.loc (thr d L) ↦{qx} m (xLoc d)) ∗ ((tW).view.loc (thr d L) ↦{q0} m (tLoc d)) ∗ ((tW).view.loc (thr d L) ↦{q1} m (tLoc d))
            ∗ rowsDone (F := F) d L 65
            ∗ (∃ f, (i0W).view.loc (thr d L) ↦{fullShare} f) ∗ (∃ f, (i1W).view.loc (thr d L) ↦{fullShare} f)
            ∗ (∃ f, (e0W).view.loc (thr d L) ↦{fullShare} f) ∗ (∃ f, (e1W).view.loc (thr d L) ↦{fullShare} f)
            ∗ (∃ f, (o0W).view.loc (thr d L) ↦{fullShare} f) ∗ (∃ f, (o1W).view.loc (thr d L) ↦{fullShare} f)
            ∗ semVal (thr d L, SemLoc.dma cc0_scratch6.sem) 0 ∗ semVal (thr d L, SemLoc.dma cc0_scratch7.sem) 0 ∗ semVal (thr d L, SemLoc.dma cc0_scratch8.sem) 0 ∗ semVal (thr d L, SemLoc.dma cc0_scratch9.sem) 0 ∗ semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0
            ∗ owesEx (F := F) d L O W) := by
  rw [cc0__sc_fused_eq_skeleton]; unfold cc0__sc_fused_skel
  iintro ⟨#Hmw, Hx, Ht0, Ht1, Htodo, Hi0, Hi1, He0, He1, Ho0, Ho1, Hs6, Hs7, Hs8, Hs9, Hc0, Hc1, Hc2, Hc3, HO⟩
  sl_exec
  have hin0 := hin_row0 m d L hpre (k0_off1 L 0#32) (k0_off1_inb L 0) fi0
  sl_exec
  have hin1 := hin_row1 m d L hpre (k0_off1 L 1#32) (k0_off1_inb L 1) fi1
  sl_exec
  -- lanes of the prologue's constant vectors: rotations of 0..15, and write diagonals rotation·200 + lane
  have hv3 : ∀ x : S16.Idx, (tile_core.sl.v3 x).toNat ≤ 15 := by decide
  have hv21 : ∀ x : S16.Idx, (tile_core.sl.v21 x).toNat ≤ 15 := by decide
  have hv39 : ∀ x : S16.Idx, (tile_core.sl.v39 x).toNat ≤ 15 := by decide
  have hv57 : ∀ x : S16.Idx, (tile_core.sl.v57 x).toNat ≤ 15 := by decide
  have hv75 : ∀ x : S16.Idx, (tile_core.sl.v75 x).toNat ≤ 15 := by decide
  have hv93 : ∀ x : S16.Idx, (tile_core.sl.v93 x).toNat ≤ 15 := by decide
  have hv111 : ∀ x : S16.Idx, (tile_core.sl.v111 x).toNat ≤ 15 := by decide
  have hv129 : ∀ x : S16.Idx, (tile_core.sl.v129 x).toNat ≤ 15 := by decide
  have hv147 : ∀ x : S16.Idx, (tile_core.sl.v147 x).toNat ≤ 15 := by decide
  have hv165 : ∀ x : S16.Idx, (tile_core.sl.v165 x).toNat ≤ 15 := by decide
  have hv183 : ∀ x : S16.Idx, (tile_core.sl.v183 x).toNat ≤ 15 := by decide
  have hv201 : ∀ x : S16.Idx, (tile_core.sl.v201 x).toNat ≤ 15 := by decide
  have hv219 : ∀ x : S16.Idx, (tile_core.sl.v219 x).toNat ≤ 15 := by decide
  have hv237 : ∀ x : S16.Idx, (tile_core.sl.v237 x).toNat ≤ 15 := by decide
  have hv255 : ∀ x : S16.Idx, (tile_core.sl.v255 x).toNat ≤ 15 := by decide
  have hv273 : ∀ x : S16.Idx, (tile_core.sl.v273 x).toNat ≤ 15 := by decide
  have hv291 : ∀ x : S16.Idx, (tile_core.sl.v291 x).toNat ≤ 15 := by decide
  have hv294 : ∀ x : S16.Idx, (tile_core.sl.v294 x).toNat ≤ 3015 := by decide
  have hv297 : ∀ x : S16.Idx, (tile_core.sl.v297 x).toNat ≤ 3015 := by decide
  have hv300 : ∀ x : S16.Idx, (tile_core.sl.v300 x).toNat ≤ 3015 := by decide
  have hv303 : ∀ x : S16.Idx, (tile_core.sl.v303 x).toNat ≤ 3015 := by decide
  have hv306 : ∀ x : S16.Idx, (tile_core.sl.v306 x).toNat ≤ 3015 := by decide
  have hv309 : ∀ x : S16.Idx, (tile_core.sl.v309 x).toNat ≤ 3015 := by decide
  have hv312 : ∀ x : S16.Idx, (tile_core.sl.v312 x).toNat ≤ 3015 := by decide
  have hv315 : ∀ x : S16.Idx, (tile_core.sl.v315 x).toNat ≤ 3015 := by decide
  have hv318 : ∀ x : S16.Idx, (tile_core.sl.v318 x).toNat ≤ 3015 := by decide
  have hv321 : ∀ x : S16.Idx, (tile_core.sl.v321 x).toNat ≤ 3015 := by decide
  have hv324 : ∀ x : S16.Idx, (tile_core.sl.v324 x).toNat ≤ 3015 := by decide
  have hv327 : ∀ x : S16.Idx, (tile_core.sl.v327 x).toNat ≤ 3015 := by decide
  have hv330 : ∀ x : S16.Idx, (tile_core.sl.v330 x).toNat ≤ 3015 := by decide
  have hv333 : ∀ x : S16.Idx, (tile_core.sl.v333 x).toNat ≤ 3015 := by decide
  have hv336 : ∀ x : S16.Idx, (tile_core.sl.v336 x).toNat ≤ 3015 := by decide
  have hv339 : ∀ x : S16.Idx, (tile_core.sl.v339 x).toNat ≤ 3015 := by decide
  sl_for (pinv m d L qx q0 q1 O W) $$ [Hx Ht0 Hs6 Ht1 Hs7 Hs8 Ho0 Hs9 Ho1 Htodo Hc2 Hc3 HO]
  case region =>
    intro k acc
    exact pair_trip m d L qx q0 q1 O W hpre k acc (tile_core.sl.v2 L) tile_core.sl.v3 tile_core.sl.v21 tile_core.sl.v39 tile_core.sl.v57 tile_core.sl.v75 tile_core.sl.v93 tile_core.sl.v111 tile_core.sl.v129 tile_core.sl.v147 tile_core.sl.v165 tile_core.sl.v183 tile_core.sl.v201 tile_core.sl.v219 tile_core.sl.v237 tile_core.sl.v255 tile_core.sl.v273 tile_core.sl.v291 tile_core.sl.v294 tile_core.sl.v297 tile_core.sl.v300 tile_core.sl.v303 tile_core.sl.v306 tile_core.sl.v309 tile_core.sl.v312 tile_core.sl.v315 tile_core.sl.v318 tile_core.sl.v321 tile_core.sl.v324 tile_core.sl.v327 tile_core.sl.v330 tile_core.sl.v333 tile_core.sl.v336 tile_core.sl.v339 hv3 hv21 hv39 hv57 hv75 hv93 hv111 hv129 hv147 hv165 hv183 hv201 hv219 hv237 hv255 hv273 hv291 hv294 hv297 hv300 hv303 hv306 hv309 hv312 hv315 hv318 hv321 hv324 hv327 hv330 hv333 hv336 hv339
  · unfold pinv gath0 gath1 out0 out1 gathFl0 gathFl1 outNone0 outNone1 owesEx
    rw [if_pos (by decide : (0 : ℕ) < 64), if_pos (by decide : (0 : ℕ) < 64), if_pos rfl, if_pos rfl]
    isplitr; · iexact Hmw
    isplitl [Hx]; · iexact Hx
    isplitl [Ht0 Hs6]
    · iexists _, _; isplitl [Ht0]; · iexact Ht0
      iexact Hs6
    isplitl [Ht1 Hs7]
    · iexists _, _; isplitl [Ht1]; · iexact Ht1
      iexact Hs7
    isplitl [Hs8 Ho0]
    · isplitl [Hs8]; · iexact Hs8
      iexists _; iexact Ho0
    isplitl [Hs9 Ho1]
    · isplitl [Hs9]; · iexact Hs9
      iexists _; iexact Ho1
    isplitl [Htodo]; · iexact Htodo
    isplitr
    · unfold rowsDone
      rw [show (Finset.univ.filter fun t : Fin k0_t1_loop.trips => t.val + 1 < 0) = ∅ from by ext t; simp, bigSep_empty]
      iempintro
    isplitl [Hc2]; · iexact Hc2
    isplitl [Hc3]; · iexact Hc3
    iexists _; isplitr
    rotate_left
    · iexact HO
    · ipureintro; repeat (first | exact (fun p hp => Or.inl hp) | apply waits_insert)
  iintro %_ HI
  have e64 : Scf.trips k0_t1_loop.lb k0_t1_loop.ub k0_t1_loop.st = 64 := trips64
  rw [e64]
  unfold pinv gath0 gath1 out0 out1 gathRest0 gathRest1 outFl0 outFl1 owesEx
  rw [if_neg (by decide : ¬ (64 : ℕ) < 64), if_neg (by decide : ¬ (64 : ℕ) < 64), if_neg (by decide : ¬ (64 : ℕ) = 0), if_neg (by decide : ¬ (64 : ℕ) = 0)]
  icases HI with ⟨-, Hx, ⟨Ht0, Hs6, ⟨%fe0', He0⟩, ⟨%fi0', Hi0⟩⟩, ⟨Ht1, Hs7, ⟨%fe1', He1⟩, ⟨%fi1', Hi1⟩⟩, ⟨%t0, %ht0, %g0, %fo0', Ho0, FO0⟩, ⟨%t1, %ht1, %g1, %fo1', Ho1, FO1⟩, -, Hdone, Hc2, Hc3, %W', %hW', HO⟩
  obtain rfl : t1 = t0 := Fin.ext (by omega)
  sl_exec
  sl_step
  isplitl [Hx]; · iexact Hx
  isplitl [Ht0]; · iexact Ht0
  isplitl [Ht1]; · iexact Ht1
  isplitl [Hdone FO0_dst FO1_dst]
  · have e65 : rowsDone (F := F) d L 65
        = iprop((rowFin0 (F := F) d L t1 ∗ rowFin1 (F := F) d L t1) ∗ rowsDone (F := F) d L 64) := by
      have h := rowsDone_succ (F := F) d L t1
      rw [show t1.val + 2 = 65 by omega, show t1.val + 1 = 64 by omega] at h
      exact h
    rw [e65]; unfold rowFin0 rowFin1
    isplitl [FO0_dst FO1_dst]
    · isplitl [FO0_dst]; · iexists _; iexact FO0_dst
      iexists _; iexact FO1_dst
    · iexact Hdone
  isplitl [Hi0]; · iexists _; iexact Hi0
  isplitl [Hi1]; · iexists _; iexact Hi1
  isplitl [He0]; · iexists _; iexact He0
  isplitl [He1]; · iexists _; iexact He1
  isplitl [Ho0]; · iexists _; iexact Ho0
  isplitl [Ho1]; · iexists _; iexact Ho1
  isplitl [Hs6]; · iexact Hs6
  isplitl [Hs7]; · iexact Hs7
  isplitl [FO0]; · iexact FO0
  isplitl [FO1]; · iexact FO1
  isplitl [Hc0]; · iexact Hc0
  isplitl [Hc1]; · iexact Hc1
  isplitl [Hc2]; · iexact Hc2
  isplitl [Hc3]; · iexact Hc3
  iexists _; isplitr
  rotate_left
  · iexact HO
  · ipureintro; repeat (first | exact hW' | apply waits_insert)

end Cert.Proof.KB

end
-- ==== Proof.TileRowsB.lean ====
/-
  A tile's 128 output rows, as the launch hands them over and as the tile's body holds them.

  The launch hands tile (c, s) its rows one by one, row j being batch row (2·s + c)·128 + j. The body works in 64
  pair-trips: at trip t it copies out rows 2t and 2t + 1, each through a one-row slice of the flat output whose offset
  is 256·s + 128·c + 2t + r. So row j of the tile is the slice of trip j / 2, slot j mod 2, and the 128 rows regroup
  as 64 pairs.
-/
import proofs.«206347_g23639499997337_cont_sun_m_514_14_alg».proof.Proof.TileInvB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks_split pointsTo_toks_join)

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S4096x200 EltTy.i32)
local notation "tW" => (Memref.whole Cert.Kernel.main_arg1_scv : Memref Cert.Kernel.sig Kind.scVector Space.hbm Cert.Kernel.S100000x128 EltTy.f32)
local notation "oW" => (Memref.whole Cert.Kernel.main_v0_scv : Memref Cert.Kernel.sig Kind.scVector Space.hbm Cert.Kernel.S4096x25600 EltTy.f32)
local notation "i0W" => (Memref.whole Cert.Kernel.cc0_scratch0 : Memref Cert.Kernel.sig Kind.scVector Space.vmem Cert.Kernel.S200 EltTy.i32)
local notation "i1W" => (Memref.whole Cert.Kernel.cc0_scratch1 : Memref Cert.Kernel.sig Kind.scVector Space.vmem Cert.Kernel.S200 EltTy.i32)
local notation "e0W" => (Memref.whole Cert.Kernel.cc0_scratch2 : Memref Cert.Kernel.sig Kind.scVector Space.vmem Cert.Kernel.S200x128 EltTy.f32)
local notation "e1W" => (Memref.whole Cert.Kernel.cc0_scratch3 : Memref Cert.Kernel.sig Kind.scVector Space.vmem Cert.Kernel.S200x128 EltTy.f32)
local notation "o0W" => (Memref.whole Cert.Kernel.cc0_scratch4 : Memref Cert.Kernel.sig Kind.scVector Space.vmem Cert.Kernel.S25600 EltTy.f32)
local notation "o1W" => (Memref.whole Cert.Kernel.cc0_scratch5 : Memref Cert.Kernel.sig Kind.scVector Space.vmem Cert.Kernel.S25600 EltTy.f32)

variable (d : Dev nD) (L : grid0.Coords)

/-- the tile's SparseCore and subcore as the launch numbers them -/
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)

theorem trip_lt (t : Fin k0_t1_loop.trips) : t.val < 64 := trips64 ▸ t.isLt

/-- the batch row that slot r of pair-trip t writes -/
def tripRow (t : Fin k0_t1_loop.trips) (r : Fin 2) : Fin 4096 :=
  ⟨256 * (L 1).val + 128 * (L 0).val + 2 * t.val + r.val, by
    have h1 : (L 1).val < 16 := (L 1).isLt
    have h0 : (L 0).val < 2 := (L 0).isLt
    have ht := trip_lt t
    have hr := r.isLt
    omega⟩

/-- which is row 2t + r of the tile -/
theorem tripRow_eq (t : Fin k0_t1_loop.trips) (r : Fin 2) (h : 2 * t.val + r.val < 128) :
    tripRow L t r = rowOfTile (cL L) (sL L) ⟨2 * t.val + r.val, h⟩ := by
  apply Fin.ext
  show 256 * (L 1).val + 128 * (L 0).val + 2 * t.val + r.val = (2 * (L 1).val + (L 0).val) * 128 + (2 * t.val + r.val)
  ring

theorem unit_congr {s : Shape} {off off' size : Fin s.rank → Nat} (h : off = off') (inb : ∀ a, off a + size a ≤ s.size a)
    (inb' : ∀ a, off' a + size a ≤ s.size a) : Rect.unit off size inb = Rect.unit off' size inb' := by
  subst h; rfl

/-- The slice the even slot copies out at trip t is the batch row's rectangle, -/
theorem set_oRow0 (t : Fin k0_t1_loop.trips) : (oRow0 L t).view.set = rowSet (tripRow L t 0) := by
  show (((oW).view.slice (Rect.unit (s := S4096x25600) (k0_off3 L t 0#32) S1x25600.size (k0_off3_inb L t 0))).reshape S25600
      squeezes_S1x25600_S25600.numel_eq).set = (rowRect (tripRow L t 0)).set
  rw [View.set_reshape]
  show ((View.whole (main_v0_scv : Ref sig .scVector)).slice _).set = _
  rw [View.set_slice_whole]
  have hoff : k0_off3 L t 0#32 = ![(tripRow L t 0).val, 0] := (k0_off3_eq L t ⟨0, by decide⟩).trans (by simp [tripRow])
  exact congrArg (fun r : Rect S4096x25600 => r.set) (unit_congr hoff _ _)

/-- and the odd slot's likewise. -/
theorem set_oRow1 (t : Fin k0_t1_loop.trips) : (oRow1 L t).view.set = rowSet (tripRow L t 1) := by
  show (((oW).view.slice (Rect.unit (s := S4096x25600) (k0_off3 L t 1#32) S1x25600.size (k0_off3_inb L t 1))).reshape S25600
      squeezes_S1x25600_S25600.numel_eq).set = (rowRect (tripRow L t 1)).set
  rw [View.set_reshape]
  show ((View.whole (main_v0_scv : Ref sig .scVector)).slice _).set = _
  rw [View.set_slice_whole]
  have hoff : k0_off3 L t 1#32 = ![(tripRow L t 1).val, 0] := (k0_off3_eq L t ⟨1, by decide⟩).trans (by simp [tripRow])
  exact congrArg (fun r : Rect S4096x25600 => r.set) (unit_congr hoff _ _)

/-! ## The 128 rows as 64 pairs -/

/-- trip t, slot r ↦ row 2t + r of the tile -/
def pairEquiv : Fin k0_t1_loop.trips × Fin 2 ≃ Fin 128 where
  toFun p := ⟨2 * p.1.val + p.2.val, by have := trip_lt p.1; have := p.2.isLt; omega⟩
  invFun j := (⟨j.val / 2, by rw [trips64]; have := j.isLt; omega⟩, ⟨j.val % 2, Nat.mod_lt _ (by decide)⟩)
  left_inv p := by
    obtain ⟨⟨t, ht⟩, ⟨r, hr⟩⟩ := p
    simp only [Prod.mk.injEq, Fin.mk.injEq]
    omega
  right_inv j := by
    apply Fin.ext
    show 2 * (j.val / 2) + j.val % 2 = j.val
    omega

theorem bigSep_pairs (Φ : Fin 128 → sProp 𝕄) :
    bigSep Finset.univ Φ = bigSep Finset.univ fun t : Fin k0_t1_loop.trips => iprop(Φ (pairEquiv (t, 0)) ∗ Φ (pairEquiv (t, 1))) := by
  rw [← Finset.map_univ_equiv pairEquiv, bigSep_map, bigSep_univ_prod]
  refine bigSep_congr fun t _ => ?_
  rw [bigSep_fin_two]
  rfl

variable (m : (ℓ : Loc nD τ sig) → Buf (Elt F) ℓ) (R : RowProp (F := F))

/-- The rows the launch hands the tile are the rows the body's 64 pair-trips have to do. -/
theorem rowsIn_eq :
    (bigSep Finset.univ fun j : Fin 128 => (oLoc d ↦[rowSet (rowOfTile (cL L) (sL L) j)]{fullShare} m (oLoc d) : sProp 𝕄))
      = rowsTodo m d L 0 := by
  unfold rowsTodo
  rw [Finset.filter_true_of_mem (fun t _ => Nat.zero_le _), bigSep_pairs]
  refine bigSep_congr fun t _ => ?_
  unfold rowIn0 rowIn1
  rw [set_oRow0, set_oRow1, tripRow_eq L t 0 (by have := trip_lt t; show 2 * t.val + 0 < 128; omega),
    tripRow_eq L t 1 (by have := trip_lt t; show 2 * t.val + 1 < 128; omega)]
  rfl

variable [FloatOps F]

/-- A finished pair of rows is the two rows given back, each at some contents; what is said of a row's contents holds of
    any. -/
theorem rowPair_out (hR : ∀ d b f, R d b f) (t : Fin k0_t1_loop.trips) :
    iprop(rowFin0 (F := F) d L t ∗ rowFin1 (F := F) d L t)
      ⊢ iprop(rowOut R d (rowOfTile (cL L) (sL L) (pairEquiv (t, 0))) ∗ rowOut R d (rowOfTile (cL L) (sL L) (pairEquiv (t, 1)))) := by
  unfold rowFin0 rowFin1 rowOut
  rw [set_oRow0, set_oRow1, tripRow_eq L t 0 (by have := trip_lt t; show 2 * t.val + 0 < 128; omega),
    tripRow_eq L t 1 (by have := trip_lt t; show 2 * t.val + 1 < 128; omega)]
  iintro ⟨⟨%g0, H0⟩, ⟨%g1, H1⟩⟩
  isplitl [H0]
  · iexists g0; isplitr; · ipureintro; exact hR _ _ _
    iexact H0
  · iexists g1; isplitr; · ipureintro; exact hR _ _ _
    iexact H1

/-- The rows the body has finished are the rows the tile gives back. -/
theorem rowsOut_of_done (hR : ∀ d b f, R d b f) :
    rowsDone (F := F) d L 65 ⊢ bigSep Finset.univ fun j : Fin 128 => rowOut R d (rowOfTile (cL L) (sL L) j) := by
  unfold rowsDone
  rw [Finset.filter_true_of_mem (fun t _ => by have := trip_lt t; omega), bigSep_pairs]
  exact bigSep_mono fun t _ => rowPair_out d L R hR t

end Cert.Proof.KB

end
-- ==== Proof.ScopedB.lean ====
/-
  A tile's scoped storage, opened and closed. Between regions a vector subcore holds every scoped buffer in its scope
  whole at some contents and every scoped semaphore cell in its scope at zero; for a tile these are exactly its own.
  Among its own buffers are the kernel's six scratch buffers, among its own cells the kernel's eight transfer
  semaphores: a product over a finite set splits at a subset, and the product over the image of a list under a
  one-to-one map is the product of the list's members. So the tile's holdings are the fourteen named pieces and a
  remainder, in either direction.
-/
import proofs.«206347_g23639499997337_cont_sun_m_514_14_alg».proof.Proof.TileDefsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (d : Dev nD) (L : grid0.Coords)

/-- The six scratch buffers, as a vector subcore's references. -/
abbrev scrRefs : Finset (Ref sig .scVector) :=
  {cc0_scratch0, cc0_scratch1, cc0_scratch2, cc0_scratch3, cc0_scratch4, cc0_scratch5}

/-- The eight transfer semaphores. -/
abbrev scrSems : Finset (SemLoc sig) :=
  {SemLoc.dma cc0_scratch6.sem, SemLoc.dma cc0_scratch7.sem, SemLoc.dma cc0_scratch8.sem, SemLoc.dma cc0_scratch9.sem,
    SemLoc.dma cc0_scoped0.sem, SemLoc.dma cc0_scoped1.sem, SemLoc.dma cc0_scoped2.sem, SemLoc.dma cc0_scoped3.sem}

/-- The tile's references as buffers of its device: distinct references are distinct buffers. -/
abbrev refEmb : Ref sig .scVector ↪ DevRef τ sig :=
  ⟨(Proc.scVector (cT L) (sT L)).devRef, Proc.devRef_injective _⟩

/-- A semaphore as the tile's cell. -/
abbrev cellEmb : SemLoc sig ↪ GSem nD τ sig :=
  ⟨fun sm => (thr d L, sm), fun _ _ h => congrArg Prod.snd h⟩

/-- The six scratch buffers are among the tile's own. -/
theorem scrRefs_sub : scrRefs.map (refEmb L) ⊆ ownRefs (τ := τ) (sig := sig) (.scVector (cT L) (sT L)) := by
  intro b hb
  obtain ⟨r, hr, rfl⟩ := Finset.mem_map.mp hb
  simp only [Finset.mem_insert, Finset.mem_singleton] at hr
  rcases hr with rfl | rfl | rfl | rfl | rfl | rfl <;> exact SparseCore.Cfg.mem_ownRefs_of_owner rfl

/-- The eight semaphores' cells are among the tile's own scoped cells. -/
theorem scrSems_sub : scrSems.map (cellEmb d L) ⊆ ownCells (thr d L) := by
  intro g hg
  obtain ⟨sm, hs, rfl⟩ := Finset.mem_map.mp hg
  simp only [Finset.mem_insert, Finset.mem_singleton] at hs
  rcases hs with rfl | rfl | rfl | rfl | rfl | rfl | rfl | rfl
  · exact mem_ownCells.mpr ⟨rfl, by show (SemLoc.dma cc0_scratch6.sem : SemLoc sig).isScoped .scVector = true; decide⟩
  · exact mem_ownCells.mpr ⟨rfl, by show (SemLoc.dma cc0_scratch7.sem : SemLoc sig).isScoped .scVector = true; decide⟩
  · exact mem_ownCells.mpr ⟨rfl, by show (SemLoc.dma cc0_scratch8.sem : SemLoc sig).isScoped .scVector = true; decide⟩
  · exact mem_ownCells.mpr ⟨rfl, by show (SemLoc.dma cc0_scratch9.sem : SemLoc sig).isScoped .scVector = true; decide⟩
  · exact mem_ownCells.mpr ⟨rfl, by show (SemLoc.dma cc0_scoped0.sem : SemLoc sig).isScoped .scVector = true; decide⟩
  · exact mem_ownCells.mpr ⟨rfl, by show (SemLoc.dma cc0_scoped1.sem : SemLoc sig).isScoped .scVector = true; decide⟩
  · exact mem_ownCells.mpr ⟨rfl, by show (SemLoc.dma cc0_scoped2.sem : SemLoc sig).isScoped .scVector = true; decide⟩
  · exact mem_ownCells.mpr ⟨rfl, by show (SemLoc.dma cc0_scoped3.sem : SemLoc sig).isScoped .scVector = true; decide⟩

/-- The tile's other buffers, each whole at some contents. -/
def restB : sProp 𝕄 :=
  bigSep (ownRefs (τ := τ) (sig := sig) (.scVector (cT L) (sT L)) \ scrRefs.map (refEmb L))
    fun b => iprop(∃ f, ((d, b) : Loc nD τ sig) ↦{fullShare} f)

/-- The tile's other scoped cells, each at zero. -/
def restC : sProp 𝕄 := bigSep (ownCells (thr d L) \ scrSems.map (cellEmb d L)) fun g => semVal g 0

/-- What the tile holds besides the fourteen named pieces. -/
def restS : sProp 𝕄 := iprop(restB (F := F) d L ∗ restC (F := F) d L)

/-- The tile's own buffers are the six scratch buffers and the rest. -/
theorem ownBufs_eq :
    (ownBufs (thr d L) : sProp 𝕄)
      = iprop(((∃ f, (Memref.whole cc0_scratch0 : Memref sig .scVector .vmem S200 .i32).view.loc (thr d L) ↦{fullShare} f)
          ∗ (∃ f, (Memref.whole cc0_scratch1 : Memref sig .scVector .vmem S200 .i32).view.loc (thr d L) ↦{fullShare} f)
          ∗ (∃ f, (Memref.whole cc0_scratch2 : Memref sig .scVector .vmem S200x128 .f32).view.loc (thr d L) ↦{fullShare} f)
          ∗ (∃ f, (Memref.whole cc0_scratch3 : Memref sig .scVector .vmem S200x128 .f32).view.loc (thr d L) ↦{fullShare} f)
          ∗ (∃ f, (Memref.whole cc0_scratch4 : Memref sig .scVector .vmem S25600 .f32).view.loc (thr d L) ↦{fullShare} f)
          ∗ (∃ f, (Memref.whole cc0_scratch5 : Memref sig .scVector .vmem S25600 .f32).view.loc (thr d L) ↦{fullShare} f))
          ∗ restB (F := F) d L) := by
  unfold SparseCore.Cfg.ownBufs restB
  rw [SparseCore.bigSep_sdiff_split' (scrRefs_sub L), BI.bigSep_map,
    SparseCore.bigSep_insert' (by decide), SparseCore.bigSep_insert' (by decide), SparseCore.bigSep_insert' (by decide),
    SparseCore.bigSep_insert' (by decide), SparseCore.bigSep_insert' (by decide), BI.bigSep_singleton]
  rfl

/-- The tile's own cells at zero are the eight semaphores at zero and the rest. -/
theorem ownSems0_eq :
    (ownSems0 (thr d L) : sProp 𝕄)
      = iprop((semVal (thr d L, SemLoc.dma cc0_scratch6.sem) 0 ∗ semVal (thr d L, SemLoc.dma cc0_scratch7.sem) 0 ∗ semVal (thr d L, SemLoc.dma cc0_scratch8.sem) 0 ∗ semVal (thr d L, SemLoc.dma cc0_scratch9.sem) 0 ∗ semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0)
          ∗ restC (F := F) d L) := by
  unfold SparseCore.Cfg.ownSems0 restC
  rw [SparseCore.bigSep_sdiff_split' (scrSems_sub d L), BI.bigSep_map,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), BI.bigSep_singleton]
  rfl

/-- Opening: the tile's scoped storage is the six scratch buffers, the eight semaphores at zero, and the rest. -/
theorem scoped_open (hF : (K (F := F)).Facts) :
    iprop(scopedBufs (thr d L) ∗ scopedSems0 (thr d L))
      ⊢ (iprop((∃ f, (Memref.whole cc0_scratch0 : Memref sig .scVector .vmem S200 .i32).view.loc (thr d L) ↦{fullShare} f)
        ∗ (∃ f, (Memref.whole cc0_scratch1 : Memref sig .scVector .vmem S200 .i32).view.loc (thr d L) ↦{fullShare} f)
        ∗ (∃ f, (Memref.whole cc0_scratch2 : Memref sig .scVector .vmem S200x128 .f32).view.loc (thr d L) ↦{fullShare} f)
        ∗ (∃ f, (Memref.whole cc0_scratch3 : Memref sig .scVector .vmem S200x128 .f32).view.loc (thr d L) ↦{fullShare} f)
        ∗ (∃ f, (Memref.whole cc0_scratch4 : Memref sig .scVector .vmem S25600 .f32).view.loc (thr d L) ↦{fullShare} f)
        ∗ (∃ f, (Memref.whole cc0_scratch5 : Memref sig .scVector .vmem S25600 .f32).view.loc (thr d L) ↦{fullShare} f)
        ∗ semVal (thr d L, SemLoc.dma cc0_scratch6.sem) 0 ∗ semVal (thr d L, SemLoc.dma cc0_scratch7.sem) 0 ∗ semVal (thr d L, SemLoc.dma cc0_scratch8.sem) 0 ∗ semVal (thr d L, SemLoc.dma cc0_scratch9.sem) 0 ∗ semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0
        ∗ restS d L) : sProp 𝕄) := by
  rw [(K (F := F)).scopedBufs_V hF d (cT L) (sT L), SparseCore.Cfg.scopedSems0_V (Val := Elt F) d (cT L) (sT L),
    ownBufs_eq, ownSems0_eq]
  unfold restS
  iintro ⟨⟨⟨H0, H1, H2, H3, H4, H5⟩, HrB⟩, ⟨⟨G0, G1, G2, G3, G4, G5, G6, G7⟩, HrC⟩⟩
  isplitl [H0]; · iexact H0
  isplitl [H1]; · iexact H1
  isplitl [H2]; · iexact H2
  isplitl [H3]; · iexact H3
  isplitl [H4]; · iexact H4
  isplitl [H5]; · iexact H5
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [HrB]; · iexact HrB
  iexact HrC

/-- Closing: the same pieces make up the tile's scoped storage again. -/
theorem scoped_close (hF : (K (F := F)).Facts) :
    (iprop((∃ f, (Memref.whole cc0_scratch0 : Memref sig .scVector .vmem S200 .i32).view.loc (thr d L) ↦{fullShare} f)
        ∗ (∃ f, (Memref.whole cc0_scratch1 : Memref sig .scVector .vmem S200 .i32).view.loc (thr d L) ↦{fullShare} f)
        ∗ (∃ f, (Memref.whole cc0_scratch2 : Memref sig .scVector .vmem S200x128 .f32).view.loc (thr d L) ↦{fullShare} f)
        ∗ (∃ f, (Memref.whole cc0_scratch3 : Memref sig .scVector .vmem S200x128 .f32).view.loc (thr d L) ↦{fullShare} f)
        ∗ (∃ f, (Memref.whole cc0_scratch4 : Memref sig .scVector .vmem S25600 .f32).view.loc (thr d L) ↦{fullShare} f)
        ∗ (∃ f, (Memref.whole cc0_scratch5 : Memref sig .scVector .vmem S25600 .f32).view.loc (thr d L) ↦{fullShare} f)
        ∗ semVal (thr d L, SemLoc.dma cc0_scratch6.sem) 0 ∗ semVal (thr d L, SemLoc.dma cc0_scratch7.sem) 0 ∗ semVal (thr d L, SemLoc.dma cc0_scratch8.sem) 0 ∗ semVal (thr d L, SemLoc.dma cc0_scratch9.sem) 0 ∗ semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0
        ∗ restS d L) : sProp 𝕄)
      ⊢ iprop(scopedBufs (thr d L) ∗ scopedSems0 (thr d L)) := by
  rw [(K (F := F)).scopedBufs_V hF d (cT L) (sT L), SparseCore.Cfg.scopedSems0_V (Val := Elt F) d (cT L) (sT L),
    ownBufs_eq, ownSems0_eq]
  unfold restS
  iintro ⟨H0, H1, H2, H3, H4, H5, G0, G1, G2, G3, G4, G5, G6, G7, HrB, HrC⟩
  isplitl [H0 H1 H2 H3 H4 H5 HrB]
  · isplitr [HrB]
    isplitl [H0]; · iexact H0
    isplitl [H1]; · iexact H1
    isplitl [H2]; · iexact H2
    isplitl [H3]; · iexact H3
    isplitl [H4]; · iexact H4
    · iexact H5
    · iexact HrB
  · isplitr [HrC]
    isplitl [G0]; · iexact G0
    isplitl [G1]; · iexact G1
    isplitl [G2]; · iexact G2
    isplitl [G3]; · iexact G3
    isplitl [G4]; · iexact G4
    isplitl [G5]; · iexact G5
    isplitl [G6]; · iexact G6
    · iexact G7
    · iexact HrC

end Cert.Proof.KB

end
-- ==== Proof.TileOblB.lean ====
/-
  The tile kernel's obligation to the launch theorem.

  A tile's task is handed its read shares of the tokens and of the table, its 128 output rows as they stand, and the
  subcore's scoped storage. The body's theorem is stated over the resources laid out one by one: the table's share in two
  halves (one per gather slot), the rows as 64 pairs, the six scratch buffers and the eight transfer semaphores. This
  module lays the handed resources out so, applies the body's theorem, and puts what comes back together again.
-/
import proofs.«206347_g23639499997337_cont_sun_m_514_14_alg».proof.Proof.TileCoreB
import proofs.«206347_g23639499997337_cont_sun_m_514_14_alg».proof.Proof.TileRowsB
import proofs.«206347_g23639499997337_cont_sun_m_514_14_alg».proof.Proof.ScopedB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg) (R : RowProp (F := F))

local notation "xW" => (Memref.whole Cert.Kernel.main_arg0_scv : Memref Cert.Kernel.sig Kind.scVector Space.hbm Cert.Kernel.S4096x200 EltTy.i32)
local notation "tW" => (Memref.whole Cert.Kernel.main_arg1_scv : Memref Cert.Kernel.sig Kind.scVector Space.hbm Cert.Kernel.S100000x128 EltTy.f32)
local notation "oW" => (Memref.whole Cert.Kernel.main_v0_scv : Memref Cert.Kernel.sig Kind.scVector Space.hbm Cert.Kernel.S4096x25600 EltTy.f32)
local notation "i0W" => (Memref.whole Cert.Kernel.cc0_scratch0 : Memref Cert.Kernel.sig Kind.scVector Space.vmem Cert.Kernel.S200 EltTy.i32)
local notation "i1W" => (Memref.whole Cert.Kernel.cc0_scratch1 : Memref Cert.Kernel.sig Kind.scVector Space.vmem Cert.Kernel.S200 EltTy.i32)
local notation "e0W" => (Memref.whole Cert.Kernel.cc0_scratch2 : Memref Cert.Kernel.sig Kind.scVector Space.vmem Cert.Kernel.S200x128 EltTy.f32)
local notation "e1W" => (Memref.whole Cert.Kernel.cc0_scratch3 : Memref Cert.Kernel.sig Kind.scVector Space.vmem Cert.Kernel.S200x128 EltTy.f32)
local notation "o0W" => (Memref.whole Cert.Kernel.cc0_scratch4 : Memref Cert.Kernel.sig Kind.scVector Space.vmem Cert.Kernel.S25600 EltTy.f32)
local notation "o1W" => (Memref.whole Cert.Kernel.cc0_scratch5 : Memref Cert.Kernel.sig Kind.scVector Space.vmem Cert.Kernel.S25600 EltTy.f32)

variable (d : Dev nD) (L : grid0.Coords)

variable [FloatOps F]

/-- The task on the tile of coordinates L: from what the launch hands it to what it hands back. -/
theorem tile_body (hF : (K (F := F)).Facts) (hpre : PreOK m) (hR : ∀ d b f, R d b f)
    (O : CellTallies nD τ sig (HIx 1)) (W : Waits sig (HIx 1)) (hO : ∀ g, O g none = 0) :
    iprop(levAts (K (F := F)).L (K (F := F)).lev ∗ (iprop(emp) : sProp 𝕄) ∗ tileIn m d (cL L) (sL L)
        ∗ scopedBufs (thr d L) ∗ scopedSems0 (thr d L) ∗ owes (thr d L) O W)
      ⊢ wp frame (wpE (defs₀ (F := F)) 𝒱₀ (thr d L) none) Set.univ
          (cc0__sc_fused L xW (Memref.isWhole_whole _) tW (Memref.isWhole_whole _) oW (Memref.isWhole_whole _)
            i0W (Memref.isWhole_whole _) i1W (Memref.isWhole_whole _) e0W (Memref.isWhole_whole _) e1W (Memref.isWhole_whole _)
            o0W (Memref.isWhole_whole _) o1W (Memref.isWhole_whole _)
            cc0_scratch6 cc0_scratch7 cc0_scratch8 cc0_scratch9 cc0_scoped0 cc0_scoped1 cc0_scoped2 cc0_scoped3)
          fun _ => iprop(tileOut m R d (cL L) (sL L) ∗ scopedBufs (thr d L) ∗ scopedSems0 (thr d L)
            ∗ ∃ W', ⌜∀ p ∈ W', p ∈ W ∨ p.2 = none⌝ ∗ owes (thr d L) O W') := by
  unfold tileIn tileOut
  rw [rowsIn_eq]
  iintro ⟨#Hlv, -, ⟨Hx, Ht, Hrows⟩, Hsb, Hss, HO⟩
  ihave #Hmw := ((K (F := F)).mayWaits_none (thr := thr d L) hO) $$ Hlv
  ihave Hsc := (scoped_open (F := F) d L hF) $$ [Hsb Hss]
  · isplitl [Hsb] <;> iassumption
  icases Hsc with ⟨⟨%fi0, Hi0⟩, ⟨%fi1, Hi1⟩, ⟨%fe0, He0⟩, ⟨%fe1, He1⟩, ⟨%fo0, Ho0⟩, ⟨%fo1, Ho1⟩, Hs6, Hs7, Hs8, Hs9, Hc0, Hc1, Hc2, Hc3, Hrest⟩
  ihave Ht' := (pointsTo_share (PosShare.mem_left_op_right (tileShare (cL L) (sL L)))).1 $$ Ht
  icases Ht' with ⟨Ht0, Ht1⟩
  iapply (wp_wand_r frame _ Set.univ)
  isplitr [Hrest]
  · iapply (tile_core m d L (tileShare (cL L) (sL L)) (tileShare (cL L) (sL L)).left (tileShare (cL L) (sL L)).right O W hpre fi0 fi1 fe0 fe1 fo0 fo1)
    isplitr; · iexact Hmw
    isplitl [Hx]; · iexact Hx
    isplitl [Ht0]; · iexact Ht0
    isplitl [Ht1]; · iexact Ht1
    isplitl [Hrows]; · iexact Hrows
    isplitl [Hi0]; · iexact Hi0
    isplitl [Hi1]; · iexact Hi1
    isplitl [He0]; · iexact He0
    isplitl [He1]; · iexact He1
    isplitl [Ho0]; · iexact Ho0
    isplitl [Ho1]; · iexact Ho1
    isplitl [Hs6]; · iexact Hs6
    isplitl [Hs7]; · iexact Hs7
    isplitl [Hs8]; · iexact Hs8
    isplitl [Hs9]; · iexact Hs9
    isplitl [Hc0]; · iexact Hc0
    isplitl [Hc1]; · iexact Hc1
    isplitl [Hc2]; · iexact Hc2
    isplitl [Hc3]; · iexact Hc3
    iexact HO
  iintro %u ⟨Hx, Ht0, Ht1, Hdone, Hi0, Hi1, He0, He1, Ho0, Ho1, Hs6, Hs7, Hs8, Hs9, Hc0, Hc1, Hc2, Hc3, HO⟩
  ihave Ht := (pointsTo_share (PosShare.mem_left_op_right (tileShare (cL L) (sL L)))).2 $$ [Ht0 Ht1]
  · isplitl [Ht0] <;> iassumption
  ihave Hout := (rowsOut_of_done d L R hR) $$ Hdone
  ihave Hsc := (scoped_close (F := F) d L hF) $$ [Hi0 Hi1 He0 He1 Ho0 Ho1 Hs6 Hs7 Hs8 Hs9 Hc0 Hc1 Hc2 Hc3 Hrest]
  · isplitl [Hi0]; · iexact Hi0
    isplitl [Hi1]; · iexact Hi1
    isplitl [He0]; · iexact He0
    isplitl [He1]; · iexact He1
    isplitl [Ho0]; · iexact Ho0
    isplitl [Ho1]; · iexact Ho1
    isplitl [Hs6]; · iexact Hs6
    isplitl [Hs7]; · iexact Hs7
    isplitl [Hs8]; · iexact Hs8
    isplitl [Hs9]; · iexact Hs9
    isplitl [Hc0]; · iexact Hc0
    isplitl [Hc1]; · iexact Hc1
    isplitl [Hc2]; · iexact Hc2
    isplitl [Hc3]; · iexact Hc3
    iexact Hrest
  icases Hsc with ⟨Hsb, Hss⟩
  isplitl [Hx Ht Hout]
  · isplitl [Hx]; · iexact Hx
    isplitl [Ht]; · iexact Ht
    iexact Hout
  isplitl [Hsb]; · iexact Hsb
  isplitl [Hss]; · iexact Hss
  ihave HO' := (Entails.of_eq (show owesEx (F := F) d L O W
    = iprop(∃ W', ⌜∀ p ∈ W', p ∈ W ∨ p.2 = none⌝ ∗ owes (thr d L) O W') from rfl)) $$ HO
  iexact HO'

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_fused (coordsV c s) xW (Memref.isWhole_whole _) tW (Memref.isWhole_whole _) oW (Memref.isWhole_whole _)
            i0W (Memref.isWhole_whole _) i1W (Memref.isWhole_whole _) e0W (Memref.isWhole_whole _) e1W (Memref.isWhole_whole _)
            o0W (Memref.isWhole_whole _) o1W (Memref.isWhole_whole _)
            cc0_scratch6 cc0_scratch7 cc0_scratch8 cc0_scratch9 cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile kernel's obligation, for a row property that holds of any contents. -/
theorem tileObl (hF : (K (F := F)).Facts) (hpre : PreOK m) (hR : ∀ d b f, R d b f) :
    (K (F := F)).TileObl (D (F := F)) 𝒱 (P m R) v₀ 0 := by
  intro d c i O W hO _ _
  simp only [show (P m R).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m R d (coordsV ⟨_, hc.1⟩ ⟨_, hc.2⟩) hF hpre hR O W hO).trans (wp_mono frame _ _ fun _ => obl_post)

end Cert.Proof.KB

end
-- ==== Proof.lean ====
/-
  Kernel and reference compute one function of the tokens x and the table: the lookup table[x[b, l], e] laid out
  batch × entry × position, and per batch row the number of tokens that are not the padding token 0.

  The kernel does the lookup on the SparseCores: each of 32 tiles takes 128 batch rows, fetches a row's 200 tokens,
  gathers the 200 table rows they name into a 200 × 128 scratch, writes that scratch transposed into a flat buffer by
  indexed loads and stores along rotated diagonals (16 × 16 blocks, the last block of positions overlapping the one
  before), and copies the flat buffer to the row's place in the output; two such pipelines alternate, so that one
  row's gather and copy-out are in flight while the other row is transposed. The counts are a TensorCore kernel: compare
  with 0, widen, sum the last axis. The reference is a take, a swap of the last two axes, and the same comparison and sum.

  Proved below: every run of the three programs terminates without fault and leaves tokens and table as they were (the
  frames), and the idealized kernel is the kernel's own text (nothing was rewritten). For the equality of results the
  reference's run ends at the specification (Spec.fmap, Spec.lens), and so does the kernel's, because every tile gives
  its rows back at the lookup's values: a gather delivers the table rows its tokens name, the 128 scatters of a trip put
  a 16-position block of the gathered rows in place transposed, and the copy-out writes the transposed block to its row
  (AssembleI.lean, algebraic_of).
-/
import proofs.«206347_g23639499997337_cont_sun_m_514_14_alg».proof.Defs
import proofs.«206347_g23639499997337_cont_sun_m_514_14_alg».proof.Proof.Gen.Kernel
import proofs.«206347_g23639499997337_cont_sun_m_514_14_alg».proof.Proof.Gen.Kernel.Skeleton
import proofs.«206347_g23639499997337_cont_sun_m_514_14_alg».proof.Proof.Gen.Kernel.Launch
import proofs.«206347_g23639499997337_cont_sun_m_514_14_alg».proof.Proof.Gen.Kernel.Points
import proofs.«206347_g23639499997337_cont_sun_m_514_14_alg».proof.Proof.Gen.KernelIdeal
import proofs.«206347_g23639499997337_cont_sun_m_514_14_alg».proof.Proof.Gen.KernelIdeal.Skeleton
import proofs.«206347_g23639499997337_cont_sun_m_514_14_alg».proof.Proof.Gen.KernelIdeal.Launch
import proofs.«206347_g23639499997337_cont_sun_m_514_14_alg».proof.Proof.Gen.KernelIdeal.Points
import proofs.«206347_g23639499997337_cont_sun_m_514_14_alg».proof.Proof.Gen.ReferenceIdeal
import proofs.«206347_g23639499997337_cont_sun_m_514_14_alg».proof.Proof.Gen.Pre_input_domain
import proofs.«206347_g23639499997337_cont_sun_m_514_14_alg».proof.Proof.AssembleI
import proofs.«206347_g23639499997337_cont_sun_m_514_14_alg».proof.Proof.TileOblI
import proofs.«206347_g23639499997337_cont_sun_m_514_14_alg».proof.Proof.TileOblVI
import proofs.«206347_g23639499997337_cont_sun_m_514_14_alg».proof.Proof.LaunchB
import proofs.«206347_g23639499997337_cont_sun_m_514_14_alg».proof.Proof.PreLemB
import proofs.«206347_g23639499997337_cont_sun_m_514_14_alg».proof.Proof.TileOblB
import Idealize.ShloMosaic.Adequacy
import Idealize.ShloMosaic.Init

noncomputable section

namespace Cert.Proof

open Idealize.ShloMosaic Idealize.SL.Sem

/-- The word-level kernel runs to the end and keeps its arguments: the launch, with every tile's task proved. -/
theorem frame_k : Cert.frame_Kernel := fun m ρ hpre =>
  KB.run_frame m ρ KB.RTriv (KB.tileObl m KB.RTriv KB.facts (KB.preOK_of_pre m hpre) (fun _ _ _ => trivial))

/-- The same of the idealized kernel. -/
theorem frame_ki : Cert.frame_KernelIdeal := fun m ρ hpre =>
  KI.run_frame m ρ KI.RTriv (KI.tileObl m KI.RTriv KI.facts (KI.preOK_of_pre m hpre) (fun _ _ _ => trivial))

theorem claim : Cert.Claim := ⟨Cert.Kernel.Gen.facts, Cert.KernelIdeal.Gen.facts, Cert.ReferenceIdeal.Gen.facts, Cert.Pre_input_domain.Gen.facts,
  frame_k, frame_ki, Cert.Proof.Ref.frame, trivial, algebraic_of (fun m hpre => KI.tileOblV m KI.facts hpre)⟩

end Cert.Proof

end
